-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x26 : Shape := ⟨2, ![4096, 26]⟩
abbrev S4096x13 : Shape := ⟨2, ![4096, 13]⟩
abbrev S26x1000x128 : Shape := ⟨3, ![26, 1000, 128]⟩
abbrev S_ : Shape := ⟨0, ![]⟩

class Facts : Prop where
  bcast_S_S4096x13 : S_.BroadcastsInDim S4096x13 (![] : Fin 0 → Fin S4096x13.rank)
  reducesTo_S4096x13_S_d0_1 : S4096x13.ReducesTo [0, 1] S_
  h_S_ : 0 < S_.numel
  bcast_S_S26x1000x128 : S_.BroadcastsInDim S26x1000x128 (![] : Fin 0 → Fin S26x1000x128.rank)
  reducesTo_S26x1000x128_S_d0_1_2 : S26x1000x128.ReducesTo [0, 1, 2] S_
  bcast_S_S4096x26 : S_.BroadcastsInDim S4096x26 (![] : Fin 0 → Fin S4096x26.rank)
  reducesTo_S4096x26_S_d0_1 : S4096x26.ReducesTo [0, 1] S_

variable [Facts]

def fn {F : FTy → Type} [FloatOps F] (main_arg0 : IVec S4096x26 32) (main_arg1 : FVec F S4096x13 .f32) (main_arg2 : FVec F S26x1000x128 .f32) : IVec S_ 1 :=
  let main_v0 : FVec F S4096x13 .f32 := Host.absf main_arg1
  let main_cst : FVec F S_ .f32 := constant S_ .f32 0x7F800000#32
  let main_v1 : FVec F S4096x13 .f32 := broadcastInDim S4096x13 ![] bcast_S_S4096x13 main_cst
  let main_v2 : IVec S4096x13 1 := cmpf .olt main_v0 main_v1
  let main_c : IVec S_ 1 := constantI S_ 1 1#1
  let main_v3 : IVec S_ 1 := (fun x v => Host.reduce IntOp.andi x v reducesTo_S4096x13_S_d0_1 h_S_) main_v2 main_c
  let main_v4 : FVec F S26x1000x128 .f32 := Host.absf main_arg2
  let main_cst_0 : FVec F S_ .f32 := constant S_ .f32 0x7F800000#32
  let main_v5 : FVec F S26x1000x128 .f32 := broadcastInDim S26x1000x128 ![] bcast_S_S26x1000x128 main_cst_0
  let main_v6 : IVec S26x1000x128 1 := cmpf .olt main_v4 main_v5
  let main_c_1 : IVec S_ 1 := constantI S_ 1 1#1
  let main_v7 : IVec S_ 1 := (fun x v => Host.reduce IntOp.andi x v reducesTo_S26x1000x128_S_d0_1_2 h_S_) main_v6 main_c_1
  let main_v8 : IVec S_ 1 := andi main_v3 main_v7
  let main_c_2 : IVec S_ 32 := constantI S_ 32 0#32
  let main_v9 : IVec S4096x26 32 := broadcastInDim S4096x26 ![] bcast_S_S4096x26 main_c_2
  let main_v10 : IVec S4096x26 1 := cmpi .sge main_arg0 main_v9
  let main_c_3 : IVec S_ 32 := constantI S_ 32 999#32
  let main_v11 : IVec S4096x26 32 := broadcastInDim S4096x26 ![] bcast_S_S4096x26 main_c_3
  let main_v12 : IVec S4096x26 1 := cmpi .sle main_arg0 main_v11
  let main_v13 : IVec S4096x26 1 := andi main_v10 main_v12
  let main_c_4 : IVec S_ 1 := constantI S_ 1 1#1
  let main_v14 : IVec S_ 1 := (fun x v => Host.reduce IntOp.andi x v reducesTo_S4096x26_S_d0_1 h_S_) main_v13 main_c_4
  let main_v15 : IVec S_ 1 := andi main_v8 main_v14
  main_v15
-- ==== Kernel.lean ====
abbrev S4096x26 : Shape := ⟨2, ![4096, 26]⟩
abbrev S4096x13 : Shape := ⟨2, ![4096, 13]⟩
abbrev S26x1000x128 : Shape := ⟨3, ![26, 1000, 128]⟩
abbrev S26x4096 : Shape := ⟨2, ![26, 4096]⟩
abbrev S26000x128 : Shape := ⟨2, ![26000, 128]⟩
abbrev S4096x3341 : Shape := ⟨2, ![4096, 3341]⟩
abbrev S26x128 : Shape := ⟨2, ![26, 128]⟩
abbrev S5x128x128 : Shape := ⟨3, ![5, 128, 128]⟩
abbrev S128x13 : Shape := ⟨2, ![128, 13]⟩
abbrev S5 : Shape := ⟨1, ![5]⟩
abbrev S_ : Shape := ⟨0, ![]⟩
abbrev S1x16 : Shape := ⟨2, ![1, 16]⟩
abbrev S16 : Shape := ⟨1, ![16]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1 : Shape := ⟨1, ![1]⟩

abbrev nBuf : Table → Nat
  | .hbm => 6
  | .local .scVector .vmem => 3
  | _ => 0

abbrev bufTy : (tb : Table) → Fin (nBuf tb) → BufTy
  | .hbm, ⟨0, _⟩ => ⟨S4096x26, .i32⟩
  | .hbm, ⟨1, _⟩ => ⟨S4096x13, .f32⟩
  | .hbm, ⟨2, _⟩ => ⟨S26x1000x128, .f32⟩
  | .hbm, ⟨3, _⟩ => ⟨S26x4096, .i32⟩
  | .hbm, ⟨4, _⟩ => ⟨S26000x128, .f32⟩
  | .hbm, ⟨5, _⟩ => ⟨S4096x3341, .f32⟩
  | .local .scVector .vmem, ⟨0, _⟩ => ⟨S26x128, .i32⟩
  | .local .scVector .vmem, ⟨1, _⟩ => ⟨S5x128x128, .f32⟩
  | .local .scVector .vmem, ⟨2, _⟩ => ⟨S128x13, .f32⟩
  | _, _ => ⟨S4096x26, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v0_scv : Ref sig .scVector := ⟨.hbm, 3, rfl⟩
abbrev main_arg1_scv : Ref sig .scVector := ⟨.hbm, 1, rfl⟩
abbrev main_v1_scv : Ref sig .scVector := ⟨.hbm, 4, rfl⟩
abbrev main_v2_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_1753_r0 : BitVec 32 := 0#32
  ![v2.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c3328_i32 : BitVec 32 := 3328#32
  ![v2.toNat, 3328]
def k0_off3 (i : grid0.Coords) : Fin 2 → Nat :=
  let c0_i32_1753_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, v2.toNat]
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_987 : BitVec 32 := 0#32
  ![v2.toNat, 0]
def k0_off5 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c128_i32_1019 : BitVec 32 := 128#32
  ![v2.toNat, 128]
def k0_off6 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c256_i32 : BitVec 32 := 256#32
  ![v2.toNat, 256]
def k0_off7 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c384_i32 : BitVec 32 := 384#32
  ![v2.toNat, 384]
def k0_off8 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c512_i32 : BitVec 32 := 512#32
  ![v2.toNat, 512]
def k0_off9 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c640_i32 : BitVec 32 := 640#32
  ![v2.toNat, 640]
def k0_off10 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c768_i32 : BitVec 32 := 768#32
  ![v2.toNat, 768]
def k0_off11 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c896_i32 : BitVec 32 := 896#32
  ![v2.toNat, 896]
def k0_off12 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1024_i32 : BitVec 32 := 1024#32
  ![v2.toNat, 1024]
def k0_off13 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1152_i32 : BitVec 32 := 1152#32
  ![v2.toNat, 1152]
def k0_off14 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1280_i32 : BitVec 32 := 1280#32
  ![v2.toNat, 1280]
def k0_off15 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1408_i32 : BitVec 32 := 1408#32
  ![v2.toNat, 1408]
def k0_off16 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1536_i32 : BitVec 32 := 1536#32
  ![v2.toNat, 1536]
def k0_off17 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1664_i32 : BitVec 32 := 1664#32
  ![v2.toNat, 1664]
def k0_off18 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1792_i32 : BitVec 32 := 1792#32
  ![v2.toNat, 1792]
def k0_off19 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1920_i32 : BitVec 32 := 1920#32
  ![v2.toNat, 1920]
def k0_off20 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2048_i32 : BitVec 32 := 2048#32
  ![v2.toNat, 2048]
def k0_off21 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2176_i32 : BitVec 32 := 2176#32
  ![v2.toNat, 2176]
def k0_off22 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2304_i32 : BitVec 32 := 2304#32
  ![v2.toNat, 2304]
def k0_off23 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2432_i32 : BitVec 32 := 2432#32
  ![v2.toNat, 2432]
def k0_off24 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2560_i32 : BitVec 32 := 2560#32
  ![v2.toNat, 2560]
def k0_off25 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2688_i32 : BitVec 32 := 2688#32
  ![v2.toNat, 2688]
def k0_off26 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2816_i32 : BitVec 32 := 2816#32
  ![v2.toNat, 2816]
def k0_off27 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2944_i32 : BitVec 32 := 2944#32
  ![v2.toNat, 2944]
def k0_off28 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c3072_i32 : BitVec 32 := 3072#32
  ![v2.toNat, 3072]
def k0_off29 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c3200_i32 : BitVec 32 := 3200#32
  ![v2.toNat, 3200]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S4096x26_S26x4096_1_0 : S4096x26.Transposes [1, 0] S26x4096
  shapeCasts_S26x1000x128_S26000x128 : S26x1000x128.ShapeCasts S26000x128
  inb_S26x128_S1x16_1_0 : ∀ a, (![1, 0] : Fin 2 → Nat) a + S1x16.size a ≤ S26x128.size a
  h_S1x16 : 0 < S1x16.numel
  shapeCasts_S1x16_S16 : S1x16.ShapeCasts S16
  shapeCasts_S16_S1x16 : S16.ShapeCasts S1x16
  inb_S26x128_S1x16_1_16 : ∀ a, (![1, 16] : Fin 2 → Nat) a + S1x16.size a ≤ S26x128.size a
  inb_S26x128_S1x16_1_32 : ∀ a, (![1, 32] : Fin 2 → Nat) a + S1x16.size a ≤ S26x128.size a
  inb_S26x128_S1x16_1_48 : ∀ a, (![1, 48] : Fin 2 → Nat) a + S1x16.size a ≤ S26x128.size a
  inb_S26x128_S1x16_1_64 : ∀ a, (![1, 64] : Fin 2 → Nat) a + S1x16.size a ≤ S26x128.size a
  inb_S26x128_S1x16_1_80 : ∀ a, (![1, 80] : Fin 2 → Nat) a + S1x16.size a ≤ S26x128.size a
  inb_S26x128_S1x16_1_96 : ∀ a, (![1, 96] : Fin 2 → Nat) a + S1x16.size a ≤ S26x128.size a
  inb_S26x128_S1x16_1_112 : ∀ a, (![1, 112] : Fin 2 → Nat) a + S1x16.size a ≤ S26x128.size a
  inb_S26x128_S1x16_2_0 : ∀ a, (![2, 0] : Fin 2 → Nat) a + S1x16.size a ≤ S26x128.size a
  inb_S26x128_S1x16_2_16 : ∀ a, (![2, 16] : Fin 2 → Nat) a + S1x16.size a ≤ S26x128.size a
  inb_S26x128_S1x16_2_32 : ∀ a, (![2, 32] : Fin 2 → Nat) a + S1x16.size a ≤ S26x128.size a
  inb_S26x128_S1x16_2_48 : ∀ a, (![2, 48] : Fin 2 → Nat) a + S1x16.size a ≤ S26x128.size a
  inb_S26x128_S1x16_2_64 : ∀ a, (![2, 64] : Fin 2 → Nat) a + S1x16.size a ≤ S26x128.size a
  inb_S26x128_S1x16_2_80 : ∀ a, (![2, 80] : Fin 2 → Nat) a + S1x16.size a ≤ S26x128.size a
  inb_S26x128_S1x16_2_96 : ∀ a, (![2, 96] : Fin 2 → Nat) a + S1x16.size a ≤ S26x128.size a
  inb_S26x128_S1x16_2_112 : ∀ a, (![2, 112] : Fin 2 → Nat) a + S1x16.size a ≤ S26x128.size a
  inb_S26x128_S1x16_3_0 : ∀ a, (![3, 0] : Fin 2 → Nat) a + S1x16.size a ≤ S26x128.size a
  inb_S26x128_S1x16_3_16 : ∀ a, (![3, 16] : Fin 2 → Nat) a + S1x16.size a ≤ S26x128.size a
  inb_S26x128_S1x16_3_32 : ∀ a, (![3, 32] : Fin 2 → Nat) a + S1x16.size a ≤ S26x128.size a
  inb_S26x128_S1x16_3_48 : ∀ a, (![3, 48] : Fin 2 → Nat) a + S1x16.size a ≤ S26x128.size a
  inb_S26x128_S1x16_3_64 : ∀ a, (![3, 64] : Fin 2 → Nat) a + S1x16.size a ≤ S26x128.size a
  inb_S26x128_S1x16_3_80 : ∀ a, (![3, 80] : Fin 2 → Nat) a + S1x16.size a ≤ S26x128.size a
  inb_S26x128_S1x16_3_96 : ∀ a, (![3, 96] : Fin 2 → Nat) a + S1x16.size a ≤ S26x128.size a
  inb_S26x128_S1x16_3_112 : ∀ a, (![3, 112] : Fin 2 → Nat) a + S1x16.size a ≤ S26x128.size a
  inb_S26x128_S1x16_4_0 : ∀ a, (![4, 0] : Fin 2 → Nat) a + S1x16.size a ≤ S26x128.size a
  inb_S26x128_S1x16_4_16 : ∀ a, (![4, 16] : Fin 2 → Nat) a + S1x16.size a ≤ S26x128.size a
  inb_S26x128_S1x16_4_32 : ∀ a, (![4, 32] : Fin 2 → Nat) a + S1x16.size a ≤ S26x128.size a
  inb_S26x128_S1x16_4_48 : ∀ a, (![4, 48] : Fin 2 → Nat) a + S1x16.size a ≤ S26x128.size a
  inb_S26x128_S1x16_4_64 : ∀ a, (![4, 64] : Fin 2 → Nat) a + S1x16.size a ≤ S26x128.size a
  inb_S26x128_S1x16_4_80 : ∀ a, (![4, 80] : Fin 2 → Nat) a + S1x16.size a ≤ S26x128.size a
  inb_S26x128_S1x16_4_96 : ∀ a, (![4, 96] : Fin 2 → Nat) a + S1x16.size a ≤ S26x128.size a
  inb_S26x128_S1x16_4_112 : ∀ a, (![4, 112] : Fin 2 → Nat) a + S1x16.size a ≤ S26x128.size a
  inb_S26x128_S1x16_5_0 : ∀ a, (![5, 0] : Fin 2 → Nat) a + S1x16.size a ≤ S26x128.size a
  inb_S26x128_S1x16_5_16 : ∀ a, (![5, 16] : Fin 2 → Nat) a + S1x16.size a ≤ S26x128.size a
  inb_S26x128_S1x16_5_32 : ∀ a, (![5, 32] : Fin 2 → Nat) a + S1x16.size a ≤ S26x128.size a
  inb_S26x128_S1x16_5_48 : ∀ a, (![5, 48] : Fin 2 → Nat) a + S1x16.size a ≤ S26x128.size a
  inb_S26x128_S1x16_5_64 : ∀ a, (![5, 64] : Fin 2 → Nat) a + S1x16.size a ≤ S26x128.size a
  inb_S26x128_S1x16_5_80 : ∀ a, (![5, 80] : Fin 2 → Nat) a + S1x16.size a ≤ S26x128.size a
  inb_S26x128_S1x16_5_96 : ∀ a, (![5, 96] : Fin 2 → Nat) a + S1x16.size a ≤ S26x128.size a
  inb_S26x128_S1x16_5_112 : ∀ a, (![5, 112] : Fin 2 → Nat) a + S1x16.size a ≤ S26x128.size a
  inb_S26x128_S1x16_6_0 : ∀ a, (![6, 0] : Fin 2 → Nat) a + S1x16.size a ≤ S26x128.size a
  inb_S26x128_S1x16_6_16 : ∀ a, (![6, 16] : Fin 2 → Nat) a + S1x16.size a ≤ S26x128.size a
  inb_S26x128_S1x16_6_32 : ∀ a, (![6, 32] : Fin 2 → Nat) a + S1x16.size a ≤ S26x128.size a
  inb_S26x128_S1x16_6_48 : ∀ a, (![6, 48] : Fin 2 → Nat) a + S1x16.size a ≤ S26x128.size a
  inb_S26x128_S1x16_6_64 : ∀ a, (![6, 64] : Fin 2 → Nat) a + S1x16.size a ≤ S26x128.size a
  inb_S26x128_S1x16_6_80 : ∀ a, (![6, 80] : Fin 2 → Nat) a + S1x16.size a ≤ S26x128.size a
  inb_S26x128_S1x16_6_96 : ∀ a, (![6, 96] : Fin 2 → Nat) a + S1x16.size a ≤ S26x128.size a
  inb_S26x128_S1x16_6_112 : ∀ a, (![6, 112] : Fin 2 → Nat) a + S1x16.size a ≤ S26x128.size a
  inb_S26x128_S1x16_7_0 : ∀ a, (![7, 0] : Fin 2 → Nat) a + S1x16.size a ≤ S26x128.size a
  inb_S26x128_S1x16_7_16 : ∀ a, (![7, 16] : Fin 2 → Nat) a + S1x16.size a ≤ S26x128.size a
  inb_S26x128_S1x16_7_32 : ∀ a, (![7, 32] : Fin 2 → Nat) a + S1x16.size a ≤ S26x128.size a
  inb_S26x128_S1x16_7_48 : ∀ a, (![7, 48] : Fin 2 → Nat) a + S1x16.size a ≤ S26x128.size a
  inb_S26x128_S1x16_7_64 : ∀ a, (![7, 64] : Fin 2 → Nat) a + S1x16.size a ≤ S26x128.size a
  inb_S26x128_S1x16_7_80 : ∀ a, (![7, 80] : Fin 2 → Nat) a + S1x16.size a ≤ S26x128.size a
  inb_S26x128_S1x16_7_96 : ∀ a, (![7, 96] : Fin 2 → Nat) a + S1x16.size a ≤ S26x128.size a
  inb_S26x128_S1x16_7_112 : ∀ a, (![7, 112] : Fin 2 → Nat) a + S1x16.size a ≤ S26x128.size a
  inb_S26x128_S1x16_8_0 : ∀ a, (![8, 0] : Fin 2 → Nat) a + S1x16.size a ≤ S26x128.size a
  inb_S26x128_S1x16_8_16 : ∀ a, (![8, 16] : Fin 2 → Nat) a + S1x16.size a ≤ S26x128.size a
  inb_S26x128_S1x16_8_32 : ∀ a, (![8, 32] : Fin 2 → Nat) a + S1x16.size a ≤ S26x128.size a
  inb_S26x128_S1x16_8_48 : ∀ a, (![8, 48] : Fin 2 → Nat) a + S1x16.size a ≤ S26x128.size a
  inb_S26x128_S1x16_8_64 : ∀ a, (![8, 64] : Fin 2 → Nat) a + S1x16.size a ≤ S26x128.size a
  inb_S26x128_S1x16_8_80 : ∀ a, (![8, 80] : Fin 2 → Nat) a + S1x16.size a ≤ S26x128.size a
  inb_S26x128_S1x16_8_96 : ∀ a, (![8, 96] : Fin 2 → Nat) a + S1x16.size a ≤ S26x128.size a
  inb_S26x128_S1x16_8_112 : ∀ a, (![8, 112] : Fin 2 → Nat) a + S1x16.size a ≤ S26x128.size a
  inb_S26x128_S1x16_9_0 : ∀ a, (![9, 0] : Fin 2 → Nat) a + S1x16.size a ≤ S26x128.size a
  inb_S26x128_S1x16_9_16 : ∀ a, (![9, 16] : Fin 2 → Nat) a + S1x16.size a ≤ S26x128.size a
  inb_S26x128_S1x16_9_32 : ∀ a, (![9, 32] : Fin 2 → Nat) a + S1x16.size a ≤ S26x128.size a
  inb_S26x128_S1x16_9_48 : ∀ a, (![9, 48] : Fin 2 → Nat) a + S1x16.size a ≤ S26x128.size a
  inb_S26x128_S1x16_9_64 : ∀ a, (![9, 64] : Fin 2 → Nat) a + S1x16.size a ≤ S26x128.size a
  inb_S26x128_S1x16_9_80 : ∀ a, (![9, 80] : Fin 2 → Nat) a + S1x16.size a ≤ S26x128.size a
  inb_S26x128_S1x16_9_96 : ∀ a, (![9, 96] : Fin 2 → Nat) a + S1x16.size a ≤ S26x128.size a
  inb_S26x128_S1x16_9_112 : ∀ a, (![9, 112] : Fin 2 → Nat) a + S1x16.size a ≤ S26x128.size a
  inb_S26x128_S1x16_10_0 : ∀ a, (![10, 0] : Fin 2 → Nat) a + S1x16.size a ≤ S26x128.size a
  inb_S26x128_S1x16_10_16 : ∀ a, (![10, 16] : Fin 2 → Nat) a + S1x16.size a ≤ S26x128.size a
  inb_S26x128_S1x16_10_32 : ∀ a, (![10, 32] : Fin 2 → Nat) a + S1x16.size a ≤ S26x128.size a
  inb_S26x128_S1x16_10_48 : ∀ a, (![10, 48] : Fin 2 → Nat) a + S1x16.size a ≤ S26x128.size a
  inb_S26x128_S1x16_10_64 : ∀ a, (![10, 64] : Fin 2 → Nat) a + S1x16.size a ≤ S26x128.size a
  inb_S26x128_S1x16_10_80 : ∀ a, (![10, 80] : Fin 2 → Nat) a + S1x16.size a ≤ S26x128.size a
  inb_S26x128_S1x16_10_96 : ∀ a, (![10, 96] : Fin 2 → Nat) a + S1x16.size a ≤ S26x128.size a
  inb_S26x128_S1x16_10_112 : ∀ a, (![10, 112] : Fin 2 → Nat) a + S1x16.size a ≤ S26x128.size a
  inb_S26x128_S1x16_11_0 : ∀ a, (![11, 0] : Fin 2 → Nat) a + S1x16.size a ≤ S26x128.size a
  inb_S26x128_S1x16_11_16 : ∀ a, (![11, 16] : Fin 2 → Nat) a + S1x16.size a ≤ S26x128.size a
  inb_S26x128_S1x16_11_32 : ∀ a, (![11, 32] : Fin 2 → Nat) a + S1x16.size a ≤ S26x128.size a
  inb_S26x128_S1x16_11_48 : ∀ a, (![11, 48] : Fin 2 → Nat) a + S1x16.size a ≤ S26x128.size a
  inb_S26x128_S1x16_11_64 : ∀ a, (![11, 64] : Fin 2 → Nat) a + S1x16.size a ≤ S26x128.size a
  inb_S26x128_S1x16_11_80 : ∀ a, (![11, 80] : Fin 2 → Nat) a + S1x16.size a ≤ S26x128.size a
  inb_S26x128_S1x16_11_96 : ∀ a, (![11, 96] : Fin 2 → Nat) a + S1x16.size a ≤ S26x128.size a
  inb_S26x128_S1x16_11_112 : ∀ a, (![11, 112] : Fin 2 → Nat) a + S1x16.size a ≤ S26x128.size a
  inb_S26x128_S1x16_12_0 : ∀ a, (![12, 0] : Fin 2 → Nat) a + S1x16.size a ≤ S26x128.size a
  inb_S26x128_S1x16_12_16 : ∀ a, (![12, 16] : Fin 2 → Nat) a + S1x16.size a ≤ S26x128.size a
  inb_S26x128_S1x16_12_32 : ∀ a, (![12, 32] : Fin 2 → Nat) a + S1x16.size a ≤ S26x128.size a
  inb_S26x128_S1x16_12_48 : ∀ a, (![12, 48] : Fin 2 → Nat) a + S1x16.size a ≤ S26x128.size a
  inb_S26x128_S1x16_12_64 : ∀ a, (![12, 64] : Fin 2 → Nat) a + S1x16.size a ≤ S26x128.size a
  inb_S26x128_S1x16_12_80 : ∀ a, (![12, 80] : Fin 2 → Nat) a + S1x16.size a ≤ S26x128.size a
  inb_S26x128_S1x16_12_96 : ∀ a, (![12, 96] : Fin 2 → Nat) a + S1x16.size a ≤ S26x128.size a
  inb_S26x128_S1x16_12_112 : ∀ a, (![12, 112] : Fin 2 → Nat) a + S1x16.size a ≤ S26x128.size a
  inb_S26x128_S1x16_13_0 : ∀ a, (![13, 0] : Fin 2 → Nat) a + S1x16.size a ≤ S26x128.size a
  inb_S26x128_S1x16_13_16 : ∀ a, (![13, 16] : Fin 2 → Nat) a + S1x16.size a ≤ S26x128.size a
  inb_S26x128_S1x16_13_32 : ∀ a, (![13, 32] : Fin 2 → Nat) a + S1x16.size a ≤ S26x128.size a
  inb_S26x128_S1x16_13_48 : ∀ a, (![13, 48] : Fin 2 → Nat) a + S1x16.size a ≤ S26x128.size a
  inb_S26x128_S1x16_13_64 : ∀ a, (![13, 64] : Fin 2 → Nat) a + S1x16.size a ≤ S26x128.size a
  inb_S26x128_S1x16_13_80 : ∀ a, (![13, 80] : Fin 2 → Nat) a + S1x16.size a ≤ S26x128.size a
  inb_S26x128_S1x16_13_96 : ∀ a, (![13, 96] : Fin 2 → Nat) a + S1x16.size a ≤ S26x128.size a
  inb_S26x128_S1x16_13_112 : ∀ a, (![13, 112] : Fin 2 → Nat) a + S1x16.size a ≤ S26x128.size a
  inb_S26x128_S1x16_14_0 : ∀ a, (![14, 0] : Fin 2 → Nat) a + S1x16.size a ≤ S26x128.size a
  inb_S26x128_S1x16_14_16 : ∀ a, (![14, 16] : Fin 2 → Nat) a + S1x16.size a ≤ S26x128.size a
  inb_S26x128_S1x16_14_32 : ∀ a, (![14, 32] : Fin 2 → Nat) a + S1x16.size a ≤ S26x128.size a
  inb_S26x128_S1x16_14_48 : ∀ a, (![14, 48] : Fin 2 → Nat) a + S1x16.size a ≤ S26x128.size a
  inb_S26x128_S1x16_14_64 : ∀ a, (![14, 64] : Fin 2 → Nat) a + S1x16.size a ≤ S26x128.size a
  inb_S26x128_S1x16_14_80 : ∀ a, (![14, 80] : Fin 2 → Nat) a + S1x16.size a ≤ S26x128.size a
  inb_S26x128_S1x16_14_96 : ∀ a, (![14, 96] : Fin 2 → Nat) a + S1x16.size a ≤ S26x128.size a
  inb_S26x128_S1x16_14_112 : ∀ a, (![14, 112] : Fin 2 → Nat) a + S1x16.size a ≤ S26x128.size a
  inb_S26x128_S1x16_15_0 : ∀ a, (![15, 0] : Fin 2 → Nat) a + S1x16.size a ≤ S26x128.size a
  inb_S26x128_S1x16_15_16 : ∀ a, (![15, 16] : Fin 2 → Nat) a + S1x16.size a ≤ S26x128.size a
  inb_S26x128_S1x16_15_32 : ∀ a, (![15, 32] : Fin 2 → Nat) a + S1x16.size a ≤ S26x128.size a
  inb_S26x128_S1x16_15_48 : ∀ a, (![15, 48] : Fin 2 → Nat) a + S1x16.size a ≤ S26x128.size a
  inb_S26x128_S1x16_15_64 : ∀ a, (![15, 64] : Fin 2 → Nat) a + S1x16.size a ≤ S26x128.size a
  inb_S26x128_S1x16_15_80 : ∀ a, (![15, 80] : Fin 2 → Nat) a + S1x16.size a ≤ S26x128.size a
  inb_S26x128_S1x16_15_96 : ∀ a, (![15, 96] : Fin 2 → Nat) a + S1x16.size a ≤ S26x128.size a
  inb_S26x128_S1x16_15_112 : ∀ a, (![15, 112] : Fin 2 → Nat) a + S1x16.size a ≤ S26x128.size a
  inb_S26x128_S1x16_16_0 : ∀ a, (![16, 0] : Fin 2 → Nat) a + S1x16.size a ≤ S26x128.size a
  inb_S26x128_S1x16_16_16 : ∀ a, (![16, 16] : Fin 2 → Nat) a + S1x16.size a ≤ S26x128.size a
  inb_S26x128_S1x16_16_32 : ∀ a, (![16, 32] : Fin 2 → Nat) a + S1x16.size a ≤ S26x128.size a
  inb_S26x128_S1x16_16_48 : ∀ a, (![16, 48] : Fin 2 → Nat) a + S1x16.size a ≤ S26x128.size a
  inb_S26x128_S1x16_16_64 : ∀ a, (![16, 64] : Fin 2 → Nat) a + S1x16.size a ≤ S26x128.size a
  inb_S26x128_S1x16_16_80 : ∀ a, (![16, 80] : Fin 2 → Nat) a + S1x16.size a ≤ S26x128.size a
  inb_S26x128_S1x16_16_96 : ∀ a, (![16, 96] : Fin 2 → Nat) a + S1x16.size a ≤ S26x128.size a
  inb_S26x128_S1x16_16_112 : ∀ a, (![16, 112] : Fin 2 → Nat) a + S1x16.size a ≤ S26x128.size a
  inb_S26x128_S1x16_17_0 : ∀ a, (![17, 0] : Fin 2 → Nat) a + S1x16.size a ≤ S26x128.size a
  inb_S26x128_S1x16_17_16 : ∀ a, (![17, 16] : Fin 2 → Nat) a + S1x16.size a ≤ S26x128.size a
  inb_S26x128_S1x16_17_32 : ∀ a, (![17, 32] : Fin 2 → Nat) a + S1x16.size a ≤ S26x128.size a
  inb_S26x128_S1x16_17_48 : ∀ a, (![17, 48] : Fin 2 → Nat) a + S1x16.size a ≤ S26x128.size a
  inb_S26x128_S1x16_17_64 : ∀ a, (![17, 64] : Fin 2 → Nat) a + S1x16.size a ≤ S26x128.size a
  inb_S26x128_S1x16_17_80 : ∀ a, (![17, 80] : Fin 2 → Nat) a + S1x16.size a ≤ S26x128.size a
  inb_S26x128_S1x16_17_96 : ∀ a, (![17, 96] : Fin 2 → Nat) a + S1x16.size a ≤ S26x128.size a
  inb_S26x128_S1x16_17_112 : ∀ a, (![17, 112] : Fin 2 → Nat) a + S1x16.size a ≤ S26x128.size a
  inb_S26x128_S1x16_18_0 : ∀ a, (![18, 0] : Fin 2 → Nat) a + S1x16.size a ≤ S26x128.size a
  inb_S26x128_S1x16_18_16 : ∀ a, (![18, 16] : Fin 2 → Nat) a + S1x16.size a ≤ S26x128.size a
  inb_S26x128_S1x16_18_32 : ∀ a, (![18, 32] : Fin 2 → Nat) a + S1x16.size a ≤ S26x128.size a
  inb_S26x128_S1x16_18_48 : ∀ a, (![18, 48] : Fin 2 → Nat) a + S1x16.size a ≤ S26x128.size a
  inb_S26x128_S1x16_18_64 : ∀ a, (![18, 64] : Fin 2 → Nat) a + S1x16.size a ≤ S26x128.size a
  inb_S26x128_S1x16_18_80 : ∀ a, (![18, 80] : Fin 2 → Nat) a + S1x16.size a ≤ S26x128.size a
  inb_S26x128_S1x16_18_96 : ∀ a, (![18, 96] : Fin 2 → Nat) a + S1x16.size a ≤ S26x128.size a
  inb_S26x128_S1x16_18_112 : ∀ a, (![18, 112] : Fin 2 → Nat) a + S1x16.size a ≤ S26x128.size a
  inb_S26x128_S1x16_19_0 : ∀ a, (![19, 0] : Fin 2 → Nat) a + S1x16.size a ≤ S26x128.size a
  inb_S26x128_S1x16_19_16 : ∀ a, (![19, 16] : Fin 2 → Nat) a + S1x16.size a ≤ S26x128.size a
  inb_S26x128_S1x16_19_32 : ∀ a, (![19, 32] : Fin 2 → Nat) a + S1x16.size a ≤ S26x128.size a
  inb_S26x128_S1x16_19_48 : ∀ a, (![19, 48] : Fin 2 → Nat) a + S1x16.size a ≤ S26x128.size a
  inb_S26x128_S1x16_19_64 : ∀ a, (![19, 64] : Fin 2 → Nat) a + S1x16.size a ≤ S26x128.size a
  inb_S26x128_S1x16_19_80 : ∀ a, (![19, 80] : Fin 2 → Nat) a + S1x16.size a ≤ S26x128.size a
  inb_S26x128_S1x16_19_96 : ∀ a, (![19, 96] : Fin 2 → Nat) a + S1x16.size a ≤ S26x128.size a
  inb_S26x128_S1x16_19_112 : ∀ a, (![19, 112] : Fin 2 → Nat) a + S1x16.size a ≤ S26x128.size a
  inb_S26x128_S1x16_20_0 : ∀ a, (![20, 0] : Fin 2 → Nat) a + S1x16.size a ≤ S26x128.size a
  inb_S26x128_S1x16_20_16 : ∀ a, (![20, 16] : Fin 2 → Nat) a + S1x16.size a ≤ S26x128.size a
  inb_S26x128_S1x16_20_32 : ∀ a, (![20, 32] : Fin 2 → Nat) a + S1x16.size a ≤ S26x128.size a
  inb_S26x128_S1x16_20_48 : ∀ a, (![20, 48] : Fin 2 → Nat) a + S1x16.size a ≤ S26x128.size a
  inb_S26x128_S1x16_20_64 : ∀ a, (![20, 64] : Fin 2 → Nat) a + S1x16.size a ≤ S26x128.size a
  inb_S26x128_S1x16_20_80 : ∀ a, (![20, 80] : Fin 2 → Nat) a + S1x16.size a ≤ S26x128.size a
  inb_S26x128_S1x16_20_96 : ∀ a, (![20, 96] : Fin 2 → Nat) a + S1x16.size a ≤ S26x128.size a
  inb_S26x128_S1x16_20_112 : ∀ a, (![20, 112] : Fin 2 → Nat) a + S1x16.size a ≤ S26x128.size a
  inb_S26x128_S1x16_21_0 : ∀ a, (![21, 0] : Fin 2 → Nat) a + S1x16.size a ≤ S26x128.size a
  inb_S26x128_S1x16_21_16 : ∀ a, (![21, 16] : Fin 2 → Nat) a + S1x16.size a ≤ S26x128.size a
  inb_S26x128_S1x16_21_32 : ∀ a, (![21, 32] : Fin 2 → Nat) a + S1x16.size a ≤ S26x128.size a
  inb_S26x128_S1x16_21_48 : ∀ a, (![21, 48] : Fin 2 → Nat) a + S1x16.size a ≤ S26x128.size a
  inb_S26x128_S1x16_21_64 : ∀ a, (![21, 64] : Fin 2 → Nat) a + S1x16.size a ≤ S26x128.size a
  inb_S26x128_S1x16_21_80 : ∀ a, (![21, 80] : Fin 2 → Nat) a + S1x16.size a ≤ S26x128.size a
  inb_S26x128_S1x16_21_96 : ∀ a, (![21, 96] : Fin 2 → Nat) a + S1x16.size a ≤ S26x128.size a
  inb_S26x128_S1x16_21_112 : ∀ a, (![21, 112] : Fin 2 → Nat) a + S1x16.size a ≤ S26x128.size a
  inb_S26x128_S1x16_22_0 : ∀ a, (![22, 0] : Fin 2 → Nat) a + S1x16.size a ≤ S26x128.size a
  inb_S26x128_S1x16_22_16 : ∀ a, (![22, 16] : Fin 2 → Nat) a + S1x16.size a ≤ S26x128.size a
  inb_S26x128_S1x16_22_32 : ∀ a, (![22, 32] : Fin 2 → Nat) a + S1x16.size a ≤ S26x128.size a
  inb_S26x128_S1x16_22_48 : ∀ a, (![22, 48] : Fin 2 → Nat) a + S1x16.size a ≤ S26x128.size a
  inb_S26x128_S1x16_22_64 : ∀ a, (![22, 64] : Fin 2 → Nat) a + S1x16.size a ≤ S26x128.size a
  inb_S26x128_S1x16_22_80 : ∀ a, (![22, 80] : Fin 2 → Nat) a + S1x16.size a ≤ S26x128.size a
  inb_S26x128_S1x16_22_96 : ∀ a, (![22, 96] : Fin 2 → Nat) a + S1x16.size a ≤ S26x128.size a
  inb_S26x128_S1x16_22_112 : ∀ a, (![22, 112] : Fin 2 → Nat) a + S1x16.size a ≤ S26x128.size a
  inb_S26x128_S1x16_23_0 : ∀ a, (![23, 0] : Fin 2 → Nat) a + S1x16.size a ≤ S26x128.size a
  inb_S26x128_S1x16_23_16 : ∀ a, (![23, 16] : Fin 2 → Nat) a + S1x16.size a ≤ S26x128.size a
  inb_S26x128_S1x16_23_32 : ∀ a, (![23, 32] : Fin 2 → Nat) a + S1x16.size a ≤ S26x128.size a
  inb_S26x128_S1x16_23_48 : ∀ a, (![23, 48] : Fin 2 → Nat) a + S1x16.size a ≤ S26x128.size a
  inb_S26x128_S1x16_23_64 : ∀ a, (![23, 64] : Fin 2 → Nat) a + S1x16.size a ≤ S26x128.size a
  inb_S26x128_S1x16_23_80 : ∀ a, (![23, 80] : Fin 2 → Nat) a + S1x16.size a ≤ S26x128.size a
  inb_S26x128_S1x16_23_96 : ∀ a, (![23, 96] : Fin 2 → Nat) a + S1x16.size a ≤ S26x128.size a
  inb_S26x128_S1x16_23_112 : ∀ a, (![23, 112] : Fin 2 → Nat) a + S1x16.size a ≤ S26x128.size a
  inb_S26x128_S1x16_24_0 : ∀ a, (![24, 0] : Fin 2 → Nat) a + S1x16.size a ≤ S26x128.size a
  inb_S26x128_S1x16_24_16 : ∀ a, (![24, 16] : Fin 2 → Nat) a + S1x16.size a ≤ S26x128.size a
  inb_S26x128_S1x16_24_32 : ∀ a, (![24, 32] : Fin 2 → Nat) a + S1x16.size a ≤ S26x128.size a
  inb_S26x128_S1x16_24_48 : ∀ a, (![24, 48] : Fin 2 → Nat) a + S1x16.size a ≤ S26x128.size a
  inb_S26x128_S1x16_24_64 : ∀ a, (![24, 64] : Fin 2 → Nat) a + S1x16.size a ≤ S26x128.size a
  inb_S26x128_S1x16_24_80 : ∀ a, (![24, 80] : Fin 2 → Nat) a + S1x16.size a ≤ S26x128.size a
  inb_S26x128_S1x16_24_96 : ∀ a, (![24, 96] : Fin 2 → Nat) a + S1x16.size a ≤ S26x128.size a
  inb_S26x128_S1x16_24_112 : ∀ a, (![24, 112] : Fin 2 → Nat) a + S1x16.size a ≤ S26x128.size a
  inb_S26x128_S1x16_25_0 : ∀ a, (![25, 0] : Fin 2 → Nat) a + S1x16.size a ≤ S26x128.size a
  inb_S26x128_S1x16_25_16 : ∀ a, (![25, 16] : Fin 2 → Nat) a + S1x16.size a ≤ S26x128.size a
  inb_S26x128_S1x16_25_32 : ∀ a, (![25, 32] : Fin 2 → Nat) a + S1x16.size a ≤ S26x128.size a
  inb_S26x128_S1x16_25_48 : ∀ a, (![25, 48] : Fin 2 → Nat) a + S1x16.size a ≤ S26x128.size a
  inb_S26x128_S1x16_25_64 : ∀ a, (![25, 64] : Fin 2 → Nat) a + S1x16.size a ≤ S26x128.size a
  inb_S26x128_S1x16_25_80 : ∀ a, (![25, 80] : Fin 2 → Nat) a + S1x16.size a ≤ S26x128.size a
  inb_S26x128_S1x16_25_96 : ∀ a, (![25, 96] : Fin 2 → Nat) a + S1x16.size a ≤ S26x128.size a
  inb_S26x128_S1x16_25_112 : ∀ a, (![25, 112] : Fin 2 → Nat) a + S1x16.size a ≤ S26x128.size a
  inb_S5x128x128_S1x128x128_0_0_0 : ∀ a, (![0, 0, 0] : Fin 3 → Nat) a + S1x128x128.size a ≤ S5x128x128.size a
  squeezes_S1x128x128_S128x128 : S1x128x128.Squeezes S128x128
  inb_S26x128_S1x128_0_0 : ∀ a, (![0, 0] : Fin 2 → Nat) a + S1x128.size a ≤ S26x128.size a
  squeezes_S1x128_S128 : S1x128.Squeezes S128
  inb_S26000x128_S26000x128_0_0 : ∀ a, (![0, 0] : Fin 2 → Nat) a + S26000x128.size a ≤ S26000x128.size a
  inb_S5_S1_0 : ∀ a, (![0] : Fin 1 → Nat) a + S1.size a ≤ S5.size a
  squeezes_S1_S_ : S1.Squeezes S_
  gathers_S26000x128_S128x128 : S26000x128.Gathers 0 S128x128
  inb_S5x128x128_S1x128x128_1_0_0 : ∀ a, (![1, 0, 0] : Fin 3 → Nat) a + S1x128x128.size a ≤ S5x128x128.size a
  inb_S26x128_S1x128_1_0 : ∀ a, (![1, 0] : Fin 2 → Nat) a + S1x128.size a ≤ S26x128.size a
  inb_S5_S1_1 : ∀ a, (![1] : Fin 1 → Nat) a + S1.size a ≤ S5.size a
  inb_S5x128x128_S1x128x128_2_0_0 : ∀ a, (![2, 0, 0] : Fin 3 → Nat) a + S1x128x128.size a ≤ S5x128x128.size a
  inb_S26x128_S1x128_2_0 : ∀ a, (![2, 0] : Fin 2 → Nat) a + S1x128.size a ≤ S26x128.size a
  inb_S5_S1_2 : ∀ a, (![2] : Fin 1 → Nat) a + S1.size a ≤ S5.size a
  inb_S5x128x128_S1x128x128_3_0_0 : ∀ a, (![3, 0, 0] : Fin 3 → Nat) a + S1x128x128.size a ≤ S5x128x128.size a
  inb_S26x128_S1x128_3_0 : ∀ a, (![3, 0] : Fin 2 → Nat) a + S1x128.size a ≤ S26x128.size a
  inb_S5_S1_3 : ∀ a, (![3] : Fin 1 → Nat) a + S1.size a ≤ S5.size a
  inb_S5x128x128_S1x128x128_4_0_0 : ∀ a, (![4, 0, 0] : Fin 3 → Nat) a + S1x128x128.size a ≤ S5x128x128.size a
  inb_S26x128_S1x128_4_0 : ∀ a, (![4, 0] : Fin 2 → Nat) a + S1x128.size a ≤ S26x128.size a
  inb_S5_S1_4 : ∀ a, (![4] : Fin 1 → Nat) a + S1.size a ≤ S5.size a
  inb_S26x128_S1x128_5_0 : ∀ a, (![5, 0] : Fin 2 → Nat) a + S1x128.size a ≤ S26x128.size a
  inb_S26x128_S1x128_6_0 : ∀ a, (![6, 0] : Fin 2 → Nat) a + S1x128.size a ≤ S26x128.size a
  inb_S26x128_S1x128_7_0 : ∀ a, (![7, 0] : Fin 2 → Nat) a + S1x128.size a ≤ S26x128.size a
  inb_S26x128_S1x128_8_0 : ∀ a, (![8, 0] : Fin 2 → Nat) a + S1x128.size a ≤ S26x128.size a
  inb_S26x128_S1x128_9_0 : ∀ a, (![9, 0] : Fin 2 → Nat) a + S1x128.size a ≤ S26x128.size a
  inb_S26x128_S1x128_10_0 : ∀ a, (![10, 0] : Fin 2 → Nat) a + S1x128.size a ≤ S26x128.size a
  inb_S26x128_S1x128_11_0 : ∀ a, (![11, 0] : Fin 2 → Nat) a + S1x128.size a ≤ S26x128.size a
  inb_S26x128_S1x128_12_0 : ∀ a, (![12, 0] : Fin 2 → Nat) a + S1x128.size a ≤ S26x128.size a
  inb_S26x128_S1x128_13_0 : ∀ a, (![13, 0] : Fin 2 → Nat) a + S1x128.size a ≤ S26x128.size a
  inb_S26x128_S1x128_14_0 : ∀ a, (![14, 0] : Fin 2 → Nat) a + S1x128.size a ≤ S26x128.size a
  inb_S26x128_S1x128_15_0 : ∀ a, (![15, 0] : Fin 2 → Nat) a + S1x128.size a ≤ S26x128.size a
  inb_S26x128_S1x128_16_0 : ∀ a, (![16, 0] : Fin 2 → Nat) a + S1x128.size a ≤ S26x128.size a
  inb_S26x128_S1x128_17_0 : ∀ a, (![17, 0] : Fin 2 → Nat) a + S1x128.size a ≤ S26x128.size a
  inb_S26x128_S1x128_18_0 : ∀ a, (![18, 0] : Fin 2 → Nat) a + S1x128.size a ≤ S26x128.size a
  inb_S26x128_S1x128_19_0 : ∀ a, (![19, 0] : Fin 2 → Nat) a + S1x128.size a ≤ S26x128.size a
  inb_S26x128_S1x128_20_0 : ∀ a, (![20, 0] : Fin 2 → Nat) a + S1x128.size a ≤ S26x128.size a
  inb_S26x128_S1x128_21_0 : ∀ a, (![21, 0] : Fin 2 → Nat) a + S1x128.size a ≤ S26x128.size a
  inb_S26x128_S1x128_22_0 : ∀ a, (![22, 0] : Fin 2 → Nat) a + S1x128.size a ≤ S26x128.size a
  inb_S26x128_S1x128_23_0 : ∀ a, (![23, 0] : Fin 2 → Nat) a + S1x128.size a ≤ S26x128.size a
  inb_S26x128_S1x128_24_0 : ∀ a, (![24, 0] : Fin 2 → Nat) a + S1x128.size a ≤ S26x128.size a
  inb_S26x128_S1x128_25_0 : ∀ a, (![25, 0] : Fin 2 → Nat) a + S1x128.size a ≤ S26x128.size a
  hcc0_scratch3 : 0 + S5.numel ≤ 13
  hcc0_scratch4 : 5 + S5.numel ≤ 13
  hcc0_scratch5 : 10 + S_.numel ≤ 13
  hcc0_scoped0 : 11 + S_.numel ≤ 13
  hcc0_scoped1 : 12 + S_.numel ≤ 13
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S128x13.size a ≤ S4096x13.size a
  k0_off2_inb : ∀ i : grid0.Coords, ∀ a, (k0_off2 i) a + S128x13.size a ≤ S4096x3341.size a
  k0_off3_inb : ∀ i : grid0.Coords, ∀ a, (k0_off3 i) a + S26x128.size a ≤ S26x4096.size a
  k0_off4_inb : ∀ i : grid0.Coords, ∀ a, (k0_off4 i) a + S128x128.size a ≤ S4096x3341.size a
  k0_off5_inb : ∀ i : grid0.Coords, ∀ a, (k0_off5 i) a + S128x128.size a ≤ S4096x3341.size a
  k0_off6_inb : ∀ i : grid0.Coords, ∀ a, (k0_off6 i) a + S128x128.size a ≤ S4096x3341.size a
  k0_off7_inb : ∀ i : grid0.Coords, ∀ a, (k0_off7 i) a + S128x128.size a ≤ S4096x3341.size a
  k0_off8_inb : ∀ i : grid0.Coords, ∀ a, (k0_off8 i) a + S128x128.size a ≤ S4096x3341.size a
  k0_off9_inb : ∀ i : grid0.Coords, ∀ a, (k0_off9 i) a + S128x128.size a ≤ S4096x3341.size a
  k0_off10_inb : ∀ i : grid0.Coords, ∀ a, (k0_off10 i) a + S128x128.size a ≤ S4096x3341.size a
  k0_off11_inb : ∀ i : grid0.Coords, ∀ a, (k0_off11 i) a + S128x128.size a ≤ S4096x3341.size a
  k0_off12_inb : ∀ i : grid0.Coords, ∀ a, (k0_off12 i) a + S128x128.size a ≤ S4096x3341.size a
  k0_off13_inb : ∀ i : grid0.Coords, ∀ a, (k0_off13 i) a + S128x128.size a ≤ S4096x3341.size a
  k0_off14_inb : ∀ i : grid0.Coords, ∀ a, (k0_off14 i) a + S128x128.size a ≤ S4096x3341.size a
  k0_off15_inb : ∀ i : grid0.Coords, ∀ a, (k0_off15 i) a + S128x128.size a ≤ S4096x3341.size a
  k0_off16_inb : ∀ i : grid0.Coords, ∀ a, (k0_off16 i) a + S128x128.size a ≤ S4096x3341.size a
  k0_off17_inb : ∀ i : grid0.Coords, ∀ a, (k0_off17 i) a + S128x128.size a ≤ S4096x3341.size a
  k0_off18_inb : ∀ i : grid0.Coords, ∀ a, (k0_off18 i) a + S128x128.size a ≤ S4096x3341.size a
  k0_off19_inb : ∀ i : grid0.Coords, ∀ a, (k0_off19 i) a + S128x128.size a ≤ S4096x3341.size a
  k0_off20_inb : ∀ i : grid0.Coords, ∀ a, (k0_off20 i) a + S128x128.size a ≤ S4096x3341.size a
  k0_off21_inb : ∀ i : grid0.Coords, ∀ a, (k0_off21 i) a + S128x128.size a ≤ S4096x3341.size a
  k0_off22_inb : ∀ i : grid0.Coords, ∀ a, (k0_off22 i) a + S128x128.size a ≤ S4096x3341.size a
  k0_off23_inb : ∀ i : grid0.Coords, ∀ a, (k0_off23 i) a + S128x128.size a ≤ S4096x3341.size a
  k0_off24_inb : ∀ i : grid0.Coords, ∀ a, (k0_off24 i) a + S128x128.size a ≤ S4096x3341.size a
  k0_off25_inb : ∀ i : grid0.Coords, ∀ a, (k0_off25 i) a + S128x128.size a ≤ S4096x3341.size a
  k0_off26_inb : ∀ i : grid0.Coords, ∀ a, (k0_off26 i) a + S128x128.size a ≤ S4096x3341.size a
  k0_off27_inb : ∀ i : grid0.Coords, ∀ a, (k0_off27 i) a + S128x128.size a ≤ S4096x3341.size a
  k0_off28_inb : ∀ i : grid0.Coords, ∀ a, (k0_off28 i) a + S128x128.size a ≤ S4096x3341.size a
  k0_off29_inb : ∀ i : grid0.Coords, ∀ a, (k0_off29 i) a + S128x128.size a ≤ S4096x3341.size a

variable [Facts₀]

abbrev cc0_scratch3 : DmaSems sig S5 := SemArray.consecutive 0 S5 hcc0_scratch3
abbrev cc0_scratch4 : DmaSems sig S5 := SemArray.consecutive 5 S5 hcc0_scratch4
abbrev cc0_scratch5 : DmaSems sig S_ := SemArray.consecutive 10 S_ hcc0_scratch5
abbrev cc0_scoped0 : DmaSems sig S_ := SemArray.consecutive 11 S_ hcc0_scoped0
abbrev cc0_scoped1 : DmaSems sig S_ := SemArray.consecutive 12 S_ hcc0_scoped1

class Facts : Prop extends Facts₀ where

variable [Facts]
-- ==== ReferenceIdeal.lean ====
abbrev S4096x26 : Shape := ⟨2, ![4096, 26]⟩
abbrev S4096x13 : Shape := ⟨2, ![4096, 13]⟩
abbrev S26x1000x128 : Shape := ⟨3, ![26, 1000, 128]⟩
abbrev S1x1000x128 : Shape := ⟨3, ![1, 1000, 128]⟩
abbrev S1000x128 : Shape := ⟨2, ![1000, 128]⟩
abbrev S4096x1 : Shape := ⟨2, ![4096, 1]⟩
abbrev S4096 : Shape := ⟨1, ![4096]⟩
abbrev S_ : Shape := ⟨0, ![]⟩
abbrev S1 : Shape := ⟨1, ![1]⟩
abbrev S1x1 : Shape := ⟨2, ![1, 1]⟩
abbrev S4096x128 : Shape := ⟨2, ![4096, 128]⟩
abbrev S4096x2048 : Shape := ⟨2, ![4096, 2048]⟩
abbrev S4096x1280 : Shape := ⟨2, ![4096, 1280]⟩
abbrev S4096x3328 : Shape := ⟨2, ![4096, 3328]⟩
abbrev S4096x3341 : Shape := ⟨2, ![4096, 3341]⟩

abbrev nBuf : Space → Nat
  | .hbm => 709
  | .vmem => 0
  | .smem => 0
  | _ => 0

abbrev hbmTy0_0 (i : Nat) : BufTy := match i % 128 with
  | 0 => ⟨S4096x26, .i32⟩
  | 1 => ⟨S4096x13, .f32⟩
  | 2 => ⟨S26x1000x128, .f32⟩
  | 3 => ⟨S1x1000x128, .f32⟩
  | 4 => ⟨S1000x128, .f32⟩
  | 5 => ⟨S4096x1, .i32⟩
  | 6 => ⟨S4096, .i32⟩
  | 7 => ⟨S_, .i32⟩
  | 8 => ⟨S4096, .i32⟩
  | 9 => ⟨S4096, .i1⟩
  | 10 => ⟨S_, .i32⟩
  | 11 => ⟨S4096, .i32⟩
  | 12 => ⟨S4096, .i32⟩
  | 13 => ⟨S4096, .i32⟩
  | 14 => ⟨S4096x1, .i32⟩
  | 15 => ⟨S1, .i32⟩
  | 16 => ⟨S_, .i32⟩
  | 17 => ⟨S4096x1, .i32⟩
  | 18 => ⟨S4096x1, .i1⟩
  | 19 => ⟨S1x1, .i32⟩
  | 20 => ⟨S4096x1, .i32⟩
  | 21 => ⟨S4096x1, .i1⟩
  | 22 => ⟨S4096x1, .i1⟩
  | 23 => ⟨S_, .i1⟩
  | 24 => ⟨S4096, .i1⟩
  | 25 => ⟨S4096x128, .f32⟩
  | 26 => ⟨S4096x128, .i1⟩
  | 27 => ⟨S_, .f32⟩
  | 28 => ⟨S4096x128, .f32⟩
  | 29 => ⟨S4096x128, .f32⟩
  | 30 => ⟨S1x1000x128, .f32⟩
  | 31 => ⟨S1000x128, .f32⟩
  | 32 => ⟨S4096x1, .i32⟩
  | 33 => ⟨S4096, .i32⟩
  | 34 => ⟨S_, .i32⟩
  | 35 => ⟨S4096, .i32⟩
  | 36 => ⟨S4096, .i1⟩
  | 37 => ⟨S_, .i32⟩
  | 38 => ⟨S4096, .i32⟩
  | 39 => ⟨S4096, .i32⟩
  | 40 => ⟨S4096, .i32⟩
  | 41 => ⟨S4096x1, .i32⟩
  | 42 => ⟨S1, .i32⟩
  | 43 => ⟨S_, .i32⟩
  | 44 => ⟨S4096x1, .i32⟩
  | 45 => ⟨S4096x1, .i1⟩
  | 46 => ⟨S1x1, .i32⟩
  | 47 => ⟨S4096x1, .i32⟩
  | 48 => ⟨S4096x1, .i1⟩
  | 49 => ⟨S4096x1, .i1⟩
  | 50 => ⟨S_, .i1⟩
  | 51 => ⟨S4096, .i1⟩
  | 52 => ⟨S4096x128, .f32⟩
  | 53 => ⟨S4096x128, .i1⟩
  | 54 => ⟨S_, .f32⟩
  | 55 => ⟨S4096x128, .f32⟩
  | 56 => ⟨S4096x128, .f32⟩
  | 57 => ⟨S1x1000x128, .f32⟩
  | 58 => ⟨S1000x128, .f32⟩
  | 59 => ⟨S4096x1, .i32⟩
  | 60 => ⟨S4096, .i32⟩
  | 61 => ⟨S_, .i32⟩
  | 62 => ⟨S4096, .i32⟩
  | 63 => ⟨S4096, .i1⟩
  | 64 => ⟨S_, .i32⟩
  | 65 => ⟨S4096, .i32⟩
  | 66 => ⟨S4096, .i32⟩
  | 67 => ⟨S4096, .i32⟩
  | 68 => ⟨S4096x1, .i32⟩
  | 69 => ⟨S1, .i32⟩
  | 70 => ⟨S_, .i32⟩
  | 71 => ⟨S4096x1, .i32⟩
  | 72 => ⟨S4096x1, .i1⟩
  | 73 => ⟨S1x1, .i32⟩
  | 74 => ⟨S4096x1, .i32⟩
  | 75 => ⟨S4096x1, .i1⟩
  | 76 => ⟨S4096x1, .i1⟩
  | 77 => ⟨S_, .i1⟩
  | 78 => ⟨S4096, .i1⟩
  | 79 => ⟨S4096x128, .f32⟩
  | 80 => ⟨S4096x128, .i1⟩
  | 81 => ⟨S_, .f32⟩
  | 82 => ⟨S4096x128, .f32⟩
  | 83 => ⟨S4096x128, .f32⟩
  | 84 => ⟨S1x1000x128, .f32⟩
  | 85 => ⟨S1000x128, .f32⟩
  | 86 => ⟨S4096x1, .i32⟩
  | 87 => ⟨S4096, .i32⟩
  | 88 => ⟨S_, .i32⟩
  | 89 => ⟨S4096, .i32⟩
  | 90 => ⟨S4096, .i1⟩
  | 91 => ⟨S_, .i32⟩
  | 92 => ⟨S4096, .i32⟩
  | 93 => ⟨S4096, .i32⟩
  | 94 => ⟨S4096, .i32⟩
  | 95 => ⟨S4096x1, .i32⟩
  | 96 => ⟨S1, .i32⟩
  | 97 => ⟨S_, .i32⟩
  | 98 => ⟨S4096x1, .i32⟩
  | 99 => ⟨S4096x1, .i1⟩
  | 100 => ⟨S1x1, .i32⟩
  | 101 => ⟨S4096x1, .i32⟩
  | 102 => ⟨S4096x1, .i1⟩
  | 103 => ⟨S4096x1, .i1⟩
  | 104 => ⟨S_, .i1⟩
  | 105 => ⟨S4096, .i1⟩
  | 106 => ⟨S4096x128, .f32⟩
  | 107 => ⟨S4096x128, .i1⟩
  | 108 => ⟨S_, .f32⟩
  | 109 => ⟨S4096x128, .f32⟩
  | 110 => ⟨S4096x128, .f32⟩
  | 111 => ⟨S1x1000x128, .f32⟩
  | 112 => ⟨S1000x128, .f32⟩
  | 113 => ⟨S4096x1, .i32⟩
  | 114 => ⟨S4096, .i32⟩
  | 115 => ⟨S_, .i32⟩
  | 116 => ⟨S4096, .i32⟩
  | 117 => ⟨S4096, .i1⟩
  | 118 => ⟨S_, .i32⟩
  | 119 => ⟨S4096, .i32⟩
  | 120 => ⟨S4096, .i32⟩
  | 121 => ⟨S4096, .i32⟩
  | 122 => ⟨S4096x1, .i32⟩
  | 123 => ⟨S1, .i32⟩
  | 124 => ⟨S_, .i32⟩
  | 125 => ⟨S4096x1, .i32⟩
  | 126 => ⟨S4096x1, .i1⟩
  | 127 => ⟨S1x1, .i32⟩
  | _ => ⟨S4096x26, .i32⟩

abbrev hbmTy0_1 (i : Nat) : BufTy := match i % 128 with
  | 0 => ⟨S4096x1, .i32⟩
  | 1 => ⟨S4096x1, .i1⟩
  | 2 => ⟨S4096x1, .i1⟩
  | 3 => ⟨S_, .i1⟩
  | 4 => ⟨S4096, .i1⟩
  | 5 => ⟨S4096x128, .f32⟩
  | 6 => ⟨S4096x128, .i1⟩
  | 7 => ⟨S_, .f32⟩
  | 8 => ⟨S4096x128, .f32⟩
  | 9 => ⟨S4096x128, .f32⟩
  | 10 => ⟨S1x1000x128, .f32⟩
  | 11 => ⟨S1000x128, .f32⟩
  | 12 => ⟨S4096x1, .i32⟩
  | 13 => ⟨S4096, .i32⟩
  | 14 => ⟨S_, .i32⟩
  | 15 => ⟨S4096, .i32⟩
  | 16 => ⟨S4096, .i1⟩
  | 17 => ⟨S_, .i32⟩
  | 18 => ⟨S4096, .i32⟩
  | 19 => ⟨S4096, .i32⟩
  | 20 => ⟨S4096, .i32⟩
  | 21 => ⟨S4096x1, .i32⟩
  | 22 => ⟨S1, .i32⟩
  | 23 => ⟨S_, .i32⟩
  | 24 => ⟨S4096x1, .i32⟩
  | 25 => ⟨S4096x1, .i1⟩
  | 26 => ⟨S1x1, .i32⟩
  | 27 => ⟨S4096x1, .i32⟩
  | 28 => ⟨S4096x1, .i1⟩
  | 29 => ⟨S4096x1, .i1⟩
  | 30 => ⟨S_, .i1⟩
  | 31 => ⟨S4096, .i1⟩
  | 32 => ⟨S4096x128, .f32⟩
  | 33 => ⟨S4096x128, .i1⟩
  | 34 => ⟨S_, .f32⟩
  | 35 => ⟨S4096x128, .f32⟩
  | 36 => ⟨S4096x128, .f32⟩
  | 37 => ⟨S1x1000x128, .f32⟩
  | 38 => ⟨S1000x128, .f32⟩
  | 39 => ⟨S4096x1, .i32⟩
  | 40 => ⟨S4096, .i32⟩
  | 41 => ⟨S_, .i32⟩
  | 42 => ⟨S4096, .i32⟩
  | 43 => ⟨S4096, .i1⟩
  | 44 => ⟨S_, .i32⟩
  | 45 => ⟨S4096, .i32⟩
  | 46 => ⟨S4096, .i32⟩
  | 47 => ⟨S4096, .i32⟩
  | 48 => ⟨S4096x1, .i32⟩
  | 49 => ⟨S1, .i32⟩
  | 50 => ⟨S_, .i32⟩
  | 51 => ⟨S4096x1, .i32⟩
  | 52 => ⟨S4096x1, .i1⟩
  | 53 => ⟨S1x1, .i32⟩
  | 54 => ⟨S4096x1, .i32⟩
  | 55 => ⟨S4096x1, .i1⟩
  | 56 => ⟨S4096x1, .i1⟩
  | 57 => ⟨S_, .i1⟩
  | 58 => ⟨S4096, .i1⟩
  | 59 => ⟨S4096x128, .f32⟩
  | 60 => ⟨S4096x128, .i1⟩
  | 61 => ⟨S_, .f32⟩
  | 62 => ⟨S4096x128, .f32⟩
  | 63 => ⟨S4096x128, .f32⟩
  | 64 => ⟨S1x1000x128, .f32⟩
  | 65 => ⟨S1000x128, .f32⟩
  | 66 => ⟨S4096x1, .i32⟩
  | 67 => ⟨S4096, .i32⟩
  | 68 => ⟨S_, .i32⟩
  | 69 => ⟨S4096, .i32⟩
  | 70 => ⟨S4096, .i1⟩
  | 71 => ⟨S_, .i32⟩
  | 72 => ⟨S4096, .i32⟩
  | 73 => ⟨S4096, .i32⟩
  | 74 => ⟨S4096, .i32⟩
  | 75 => ⟨S4096x1, .i32⟩
  | 76 => ⟨S1, .i32⟩
  | 77 => ⟨S_, .i32⟩
  | 78 => ⟨S4096x1, .i32⟩
  | 79 => ⟨S4096x1, .i1⟩
  | 80 => ⟨S1x1, .i32⟩
  | 81 => ⟨S4096x1, .i32⟩
  | 82 => ⟨S4096x1, .i1⟩
  | 83 => ⟨S4096x1, .i1⟩
  | 84 => ⟨S_, .i1⟩
  | 85 => ⟨S4096, .i1⟩
  | 86 => ⟨S4096x128, .f32⟩
  | 87 => ⟨S4096x128, .i1⟩
  | 88 => ⟨S_, .f32⟩
  | 89 => ⟨S4096x128, .f32⟩
  | 90 => ⟨S4096x128, .f32⟩
  | 91 => ⟨S1x1000x128, .f32⟩
  | 92 => ⟨S1000x128, .f32⟩
  | 93 => ⟨S4096x1, .i32⟩
  | 94 => ⟨S4096, .i32⟩
  | 95 => ⟨S_, .i32⟩
  | 96 => ⟨S4096, .i32⟩
  | 97 => ⟨S4096, .i1⟩
  | 98 => ⟨S_, .i32⟩
  | 99 => ⟨S4096, .i32⟩
  | 100 => ⟨S4096, .i32⟩
  | 101 => ⟨S4096, .i32⟩
  | 102 => ⟨S4096x1, .i32⟩
  | 103 => ⟨S1, .i32⟩
  | 104 => ⟨S_, .i32⟩
  | 105 => ⟨S4096x1, .i32⟩
  | 106 => ⟨S4096x1, .i1⟩
  | 107 => ⟨S1x1, .i32⟩
  | 108 => ⟨S4096x1, .i32⟩
  | 109 => ⟨S4096x1, .i1⟩
  | 110 => ⟨S4096x1, .i1⟩
  | 111 => ⟨S_, .i1⟩
  | 112 => ⟨S4096, .i1⟩
  | 113 => ⟨S4096x128, .f32⟩
  | 114 => ⟨S4096x128, .i1⟩
  | 115 => ⟨S_, .f32⟩
  | 116 => ⟨S4096x128, .f32⟩
  | 117 => ⟨S4096x128, .f32⟩
  | 118 => ⟨S1x1000x128, .f32⟩
  | 119 => ⟨S1000x128, .f32⟩
  | 120 => ⟨S4096x1, .i32⟩
  | 121 => ⟨S4096, .i32⟩
  | 122 => ⟨S_, .i32⟩
  | 123 => ⟨S4096, .i32⟩
  | 124 => ⟨S4096, .i1⟩
  | 125 => ⟨S_, .i32⟩
  | 126 => ⟨S4096, .i32⟩
  | 127 => ⟨S4096, .i32⟩
  | _ => ⟨S4096x26, .i32⟩

abbrev hbmTy0_2 (i : Nat) : BufTy := match i % 128 with
  | 0 => ⟨S4096, .i32⟩
  | 1 => ⟨S4096x1, .i32⟩
  | 2 => ⟨S1, .i32⟩
  | 3 => ⟨S_, .i32⟩
  | 4 => ⟨S4096x1, .i32⟩
  | 5 => ⟨S4096x1, .i1⟩
  | 6 => ⟨S1x1, .i32⟩
  | 7 => ⟨S4096x1, .i32⟩
  | 8 => ⟨S4096x1, .i1⟩
  | 9 => ⟨S4096x1, .i1⟩
  | 10 => ⟨S_, .i1⟩
  | 11 => ⟨S4096, .i1⟩
  | 12 => ⟨S4096x128, .f32⟩
  | 13 => ⟨S4096x128, .i1⟩
  | 14 => ⟨S_, .f32⟩
  | 15 => ⟨S4096x128, .f32⟩
  | 16 => ⟨S4096x128, .f32⟩
  | 17 => ⟨S1x1000x128, .f32⟩
  | 18 => ⟨S1000x128, .f32⟩
  | 19 => ⟨S4096x1, .i32⟩
  | 20 => ⟨S4096, .i32⟩
  | 21 => ⟨S_, .i32⟩
  | 22 => ⟨S4096, .i32⟩
  | 23 => ⟨S4096, .i1⟩
  | 24 => ⟨S_, .i32⟩
  | 25 => ⟨S4096, .i32⟩
  | 26 => ⟨S4096, .i32⟩
  | 27 => ⟨S4096, .i32⟩
  | 28 => ⟨S4096x1, .i32⟩
  | 29 => ⟨S1, .i32⟩
  | 30 => ⟨S_, .i32⟩
  | 31 => ⟨S4096x1, .i32⟩
  | 32 => ⟨S4096x1, .i1⟩
  | 33 => ⟨S1x1, .i32⟩
  | 34 => ⟨S4096x1, .i32⟩
  | 35 => ⟨S4096x1, .i1⟩
  | 36 => ⟨S4096x1, .i1⟩
  | 37 => ⟨S_, .i1⟩
  | 38 => ⟨S4096, .i1⟩
  | 39 => ⟨S4096x128, .f32⟩
  | 40 => ⟨S4096x128, .i1⟩
  | 41 => ⟨S_, .f32⟩
  | 42 => ⟨S4096x128, .f32⟩
  | 43 => ⟨S4096x128, .f32⟩
  | 44 => ⟨S1x1000x128, .f32⟩
  | 45 => ⟨S1000x128, .f32⟩
  | 46 => ⟨S4096x1, .i32⟩
  | 47 => ⟨S4096, .i32⟩
  | 48 => ⟨S_, .i32⟩
  | 49 => ⟨S4096, .i32⟩
  | 50 => ⟨S4096, .i1⟩
  | 51 => ⟨S_, .i32⟩
  | 52 => ⟨S4096, .i32⟩
  | 53 => ⟨S4096, .i32⟩
  | 54 => ⟨S4096, .i32⟩
  | 55 => ⟨S4096x1, .i32⟩
  | 56 => ⟨S1, .i32⟩
  | 57 => ⟨S_, .i32⟩
  | 58 => ⟨S4096x1, .i32⟩
  | 59 => ⟨S4096x1, .i1⟩
  | 60 => ⟨S1x1, .i32⟩
  | 61 => ⟨S4096x1, .i32⟩
  | 62 => ⟨S4096x1, .i1⟩
  | 63 => ⟨S4096x1, .i1⟩
  | 64 => ⟨S_, .i1⟩
  | 65 => ⟨S4096, .i1⟩
  | 66 => ⟨S4096x128, .f32⟩
  | 67 => ⟨S4096x128, .i1⟩
  | 68 => ⟨S_, .f32⟩
  | 69 => ⟨S4096x128, .f32⟩
  | 70 => ⟨S4096x128, .f32⟩
  | 71 => ⟨S1x1000x128, .f32⟩
  | 72 => ⟨S1000x128, .f32⟩
  | 73 => ⟨S4096x1, .i32⟩
  | 74 => ⟨S4096, .i32⟩
  | 75 => ⟨S_, .i32⟩
  | 76 => ⟨S4096, .i32⟩
  | 77 => ⟨S4096, .i1⟩
  | 78 => ⟨S_, .i32⟩
  | 79 => ⟨S4096, .i32⟩
  | 80 => ⟨S4096, .i32⟩
  | 81 => ⟨S4096, .i32⟩
  | 82 => ⟨S4096x1, .i32⟩
  | 83 => ⟨S1, .i32⟩
  | 84 => ⟨S_, .i32⟩
  | 85 => ⟨S4096x1, .i32⟩
  | 86 => ⟨S4096x1, .i1⟩
  | 87 => ⟨S1x1, .i32⟩
  | 88 => ⟨S4096x1, .i32⟩
  | 89 => ⟨S4096x1, .i1⟩
  | 90 => ⟨S4096x1, .i1⟩
  | 91 => ⟨S_, .i1⟩
  | 92 => ⟨S4096, .i1⟩
  | 93 => ⟨S4096x128, .f32⟩
  | 94 => ⟨S4096x128, .i1⟩
  | 95 => ⟨S_, .f32⟩
  | 96 => ⟨S4096x128, .f32⟩
  | 97 => ⟨S4096x128, .f32⟩
  | 98 => ⟨S1x1000x128, .f32⟩
  | 99 => ⟨S1000x128, .f32⟩
  | 100 => ⟨S4096x1, .i32⟩
  | 101 => ⟨S4096, .i32⟩
  | 102 => ⟨S_, .i32⟩
  | 103 => ⟨S4096, .i32⟩
  | 104 => ⟨S4096, .i1⟩
  | 105 => ⟨S_, .i32⟩
  | 106 => ⟨S4096, .i32⟩
  | 107 => ⟨S4096, .i32⟩
  | 108 => ⟨S4096, .i32⟩
  | 109 => ⟨S4096x1, .i32⟩
  | 110 => ⟨S1, .i32⟩
  | 111 => ⟨S_, .i32⟩
  | 112 => ⟨S4096x1, .i32⟩
  | 113 => ⟨S4096x1, .i1⟩
  | 114 => ⟨S1x1, .i32⟩
  | 115 => ⟨S4096x1, .i32⟩
  | 116 => ⟨S4096x1, .i1⟩
  | 117 => ⟨S4096x1, .i1⟩
  | 118 => ⟨S_, .i1⟩
  | 119 => ⟨S4096, .i1⟩
  | 120 => ⟨S4096x128, .f32⟩
  | 121 => ⟨S4096x128, .i1⟩
  | 122 => ⟨S_, .f32⟩
  | 123 => ⟨S4096x128, .f32⟩
  | 124 => ⟨S4096x128, .f32⟩
  | 125 => ⟨S1x1000x128, .f32⟩
  | 126 => ⟨S1000x128, .f32⟩
  | 127 => ⟨S4096x1, .i32⟩
  | _ => ⟨S4096x26, .i32⟩

abbrev hbmTy0_3 (i : Nat) : BufTy := match i % 128 with
  | 0 => ⟨S4096, .i32⟩
  | 1 => ⟨S_, .i32⟩
  | 2 => ⟨S4096, .i32⟩
  | 3 => ⟨S4096, .i1⟩
  | 4 => ⟨S_, .i32⟩
  | 5 => ⟨S4096, .i32⟩
  | 6 => ⟨S4096, .i32⟩
  | 7 => ⟨S4096, .i32⟩
  | 8 => ⟨S4096x1, .i32⟩
  | 9 => ⟨S1, .i32⟩
  | 10 => ⟨S_, .i32⟩
  | 11 => ⟨S4096x1, .i32⟩
  | 12 => ⟨S4096x1, .i1⟩
  | 13 => ⟨S1x1, .i32⟩
  | 14 => ⟨S4096x1, .i32⟩
  | 15 => ⟨S4096x1, .i1⟩
  | 16 => ⟨S4096x1, .i1⟩
  | 17 => ⟨S_, .i1⟩
  | 18 => ⟨S4096, .i1⟩
  | 19 => ⟨S4096x128, .f32⟩
  | 20 => ⟨S4096x128, .i1⟩
  | 21 => ⟨S_, .f32⟩
  | 22 => ⟨S4096x128, .f32⟩
  | 23 => ⟨S4096x128, .f32⟩
  | 24 => ⟨S1x1000x128, .f32⟩
  | 25 => ⟨S1000x128, .f32⟩
  | 26 => ⟨S4096x1, .i32⟩
  | 27 => ⟨S4096, .i32⟩
  | 28 => ⟨S_, .i32⟩
  | 29 => ⟨S4096, .i32⟩
  | 30 => ⟨S4096, .i1⟩
  | 31 => ⟨S_, .i32⟩
  | 32 => ⟨S4096, .i32⟩
  | 33 => ⟨S4096, .i32⟩
  | 34 => ⟨S4096, .i32⟩
  | 35 => ⟨S4096x1, .i32⟩
  | 36 => ⟨S1, .i32⟩
  | 37 => ⟨S_, .i32⟩
  | 38 => ⟨S4096x1, .i32⟩
  | 39 => ⟨S4096x1, .i1⟩
  | 40 => ⟨S1x1, .i32⟩
  | 41 => ⟨S4096x1, .i32⟩
  | 42 => ⟨S4096x1, .i1⟩
  | 43 => ⟨S4096x1, .i1⟩
  | 44 => ⟨S_, .i1⟩
  | 45 => ⟨S4096, .i1⟩
  | 46 => ⟨S4096x128, .f32⟩
  | 47 => ⟨S4096x128, .i1⟩
  | 48 => ⟨S_, .f32⟩
  | 49 => ⟨S4096x128, .f32⟩
  | 50 => ⟨S4096x128, .f32⟩
  | 51 => ⟨S1x1000x128, .f32⟩
  | 52 => ⟨S1000x128, .f32⟩
  | 53 => ⟨S4096x1, .i32⟩
  | 54 => ⟨S4096, .i32⟩
  | 55 => ⟨S_, .i32⟩
  | 56 => ⟨S4096, .i32⟩
  | 57 => ⟨S4096, .i1⟩
  | 58 => ⟨S_, .i32⟩
  | 59 => ⟨S4096, .i32⟩
  | 60 => ⟨S4096, .i32⟩
  | 61 => ⟨S4096, .i32⟩
  | 62 => ⟨S4096x1, .i32⟩
  | 63 => ⟨S1, .i32⟩
  | 64 => ⟨S_, .i32⟩
  | 65 => ⟨S4096x1, .i32⟩
  | 66 => ⟨S4096x1, .i1⟩
  | 67 => ⟨S1x1, .i32⟩
  | 68 => ⟨S4096x1, .i32⟩
  | 69 => ⟨S4096x1, .i1⟩
  | 70 => ⟨S4096x1, .i1⟩
  | 71 => ⟨S_, .i1⟩
  | 72 => ⟨S4096, .i1⟩
  | 73 => ⟨S4096x128, .f32⟩
  | 74 => ⟨S4096x128, .i1⟩
  | 75 => ⟨S_, .f32⟩
  | 76 => ⟨S4096x128, .f32⟩
  | 77 => ⟨S4096x128, .f32⟩
  | 78 => ⟨S1x1000x128, .f32⟩
  | 79 => ⟨S1000x128, .f32⟩
  | 80 => ⟨S4096x1, .i32⟩
  | 81 => ⟨S4096, .i32⟩
  | 82 => ⟨S_, .i32⟩
  | 83 => ⟨S4096, .i32⟩
  | 84 => ⟨S4096, .i1⟩
  | 85 => ⟨S_, .i32⟩
  | 86 => ⟨S4096, .i32⟩
  | 87 => ⟨S4096, .i32⟩
  | 88 => ⟨S4096, .i32⟩
  | 89 => ⟨S4096x1, .i32⟩
  | 90 => ⟨S1, .i32⟩
  | 91 => ⟨S_, .i32⟩
  | 92 => ⟨S4096x1, .i32⟩
  | 93 => ⟨S4096x1, .i1⟩
  | 94 => ⟨S1x1, .i32⟩
  | 95 => ⟨S4096x1, .i32⟩
  | 96 => ⟨S4096x1, .i1⟩
  | 97 => ⟨S4096x1, .i1⟩
  | 98 => ⟨S_, .i1⟩
  | 99 => ⟨S4096, .i1⟩
  | 100 => ⟨S4096x128, .f32⟩
  | 101 => ⟨S4096x128, .i1⟩
  | 102 => ⟨S_, .f32⟩
  | 103 => ⟨S4096x128, .f32⟩
  | 104 => ⟨S4096x128, .f32⟩
  | 105 => ⟨S1x1000x128, .f32⟩
  | 106 => ⟨S1000x128, .f32⟩
  | 107 => ⟨S4096x1, .i32⟩
  | 108 => ⟨S4096, .i32⟩
  | 109 => ⟨S_, .i32⟩
  | 110 => ⟨S4096, .i32⟩
  | 111 => ⟨S4096, .i1⟩
  | 112 => ⟨S_, .i32⟩
  | 113 => ⟨S4096, .i32⟩
  | 114 => ⟨S4096, .i32⟩
  | 115 => ⟨S4096, .i32⟩
  | 116 => ⟨S4096x1, .i32⟩
  | 117 => ⟨S1, .i32⟩
  | 118 => ⟨S_, .i32⟩
  | 119 => ⟨S4096x1, .i32⟩
  | 120 => ⟨S4096x1, .i1⟩
  | 121 => ⟨S1x1, .i32⟩
  | 122 => ⟨S4096x1, .i32⟩
  | 123 => ⟨S4096x1, .i1⟩
  | 124 => ⟨S4096x1, .i1⟩
  | 125 => ⟨S_, .i1⟩
  | 126 => ⟨S4096, .i1⟩
  | 127 => ⟨S4096x128, .f32⟩
  | _ => ⟨S4096x26, .i32⟩

abbrev hbmTy0_4 (i : Nat) : BufTy := match i % 128 with
  | 0 => ⟨S4096x128, .i1⟩
  | 1 => ⟨S_, .f32⟩
  | 2 => ⟨S4096x128, .f32⟩
  | 3 => ⟨S4096x128, .f32⟩
  | 4 => ⟨S1x1000x128, .f32⟩
  | 5 => ⟨S1000x128, .f32⟩
  | 6 => ⟨S4096x1, .i32⟩
  | 7 => ⟨S4096, .i32⟩
  | 8 => ⟨S_, .i32⟩
  | 9 => ⟨S4096, .i32⟩
  | 10 => ⟨S4096, .i1⟩
  | 11 => ⟨S_, .i32⟩
  | 12 => ⟨S4096, .i32⟩
  | 13 => ⟨S4096, .i32⟩
  | 14 => ⟨S4096, .i32⟩
  | 15 => ⟨S4096x1, .i32⟩
  | 16 => ⟨S1, .i32⟩
  | 17 => ⟨S_, .i32⟩
  | 18 => ⟨S4096x1, .i32⟩
  | 19 => ⟨S4096x1, .i1⟩
  | 20 => ⟨S1x1, .i32⟩
  | 21 => ⟨S4096x1, .i32⟩
  | 22 => ⟨S4096x1, .i1⟩
  | 23 => ⟨S4096x1, .i1⟩
  | 24 => ⟨S_, .i1⟩
  | 25 => ⟨S4096, .i1⟩
  | 26 => ⟨S4096x128, .f32⟩
  | 27 => ⟨S4096x128, .i1⟩
  | 28 => ⟨S_, .f32⟩
  | 29 => ⟨S4096x128, .f32⟩
  | 30 => ⟨S4096x128, .f32⟩
  | 31 => ⟨S1x1000x128, .f32⟩
  | 32 => ⟨S1000x128, .f32⟩
  | 33 => ⟨S4096x1, .i32⟩
  | 34 => ⟨S4096, .i32⟩
  | 35 => ⟨S_, .i32⟩
  | 36 => ⟨S4096, .i32⟩
  | 37 => ⟨S4096, .i1⟩
  | 38 => ⟨S_, .i32⟩
  | 39 => ⟨S4096, .i32⟩
  | 40 => ⟨S4096, .i32⟩
  | 41 => ⟨S4096, .i32⟩
  | 42 => ⟨S4096x1, .i32⟩
  | 43 => ⟨S1, .i32⟩
  | 44 => ⟨S_, .i32⟩
  | 45 => ⟨S4096x1, .i32⟩
  | 46 => ⟨S4096x1, .i1⟩
  | 47 => ⟨S1x1, .i32⟩
  | 48 => ⟨S4096x1, .i32⟩
  | 49 => ⟨S4096x1, .i1⟩
  | 50 => ⟨S4096x1, .i1⟩
  | 51 => ⟨S_, .i1⟩
  | 52 => ⟨S4096, .i1⟩
  | 53 => ⟨S4096x128, .f32⟩
  | 54 => ⟨S4096x128, .i1⟩
  | 55 => ⟨S_, .f32⟩
  | 56 => ⟨S4096x128, .f32⟩
  | 57 => ⟨S4096x128, .f32⟩
  | 58 => ⟨S1x1000x128, .f32⟩
  | 59 => ⟨S1000x128, .f32⟩
  | 60 => ⟨S4096x1, .i32⟩
  | 61 => ⟨S4096, .i32⟩
  | 62 => ⟨S_, .i32⟩
  | 63 => ⟨S4096, .i32⟩
  | 64 => ⟨S4096, .i1⟩
  | 65 => ⟨S_, .i32⟩
  | 66 => ⟨S4096, .i32⟩
  | 67 => ⟨S4096, .i32⟩
  | 68 => ⟨S4096, .i32⟩
  | 69 => ⟨S4096x1, .i32⟩
  | 70 => ⟨S1, .i32⟩
  | 71 => ⟨S_, .i32⟩
  | 72 => ⟨S4096x1, .i32⟩
  | 73 => ⟨S4096x1, .i1⟩
  | 74 => ⟨S1x1, .i32⟩
  | 75 => ⟨S4096x1, .i32⟩
  | 76 => ⟨S4096x1, .i1⟩
  | 77 => ⟨S4096x1, .i1⟩
  | 78 => ⟨S_, .i1⟩
  | 79 => ⟨S4096, .i1⟩
  | 80 => ⟨S4096x128, .f32⟩
  | 81 => ⟨S4096x128, .i1⟩
  | 82 => ⟨S_, .f32⟩
  | 83 => ⟨S4096x128, .f32⟩
  | 84 => ⟨S4096x128, .f32⟩
  | 85 => ⟨S1x1000x128, .f32⟩
  | 86 => ⟨S1000x128, .f32⟩
  | 87 => ⟨S4096x1, .i32⟩
  | 88 => ⟨S4096, .i32⟩
  | 89 => ⟨S_, .i32⟩
  | 90 => ⟨S4096, .i32⟩
  | 91 => ⟨S4096, .i1⟩
  | 92 => ⟨S_, .i32⟩
  | 93 => ⟨S4096, .i32⟩
  | 94 => ⟨S4096, .i32⟩
  | 95 => ⟨S4096, .i32⟩
  | 96 => ⟨S4096x1, .i32⟩
  | 97 => ⟨S1, .i32⟩
  | 98 => ⟨S_, .i32⟩
  | 99 => ⟨S4096x1, .i32⟩
  | 100 => ⟨S4096x1, .i1⟩
  | 101 => ⟨S1x1, .i32⟩
  | 102 => ⟨S4096x1, .i32⟩
  | 103 => ⟨S4096x1, .i1⟩
  | 104 => ⟨S4096x1, .i1⟩
  | 105 => ⟨S_, .i1⟩
  | 106 => ⟨S4096, .i1⟩
  | 107 => ⟨S4096x128, .f32⟩
  | 108 => ⟨S4096x128, .i1⟩
  | 109 => ⟨S_, .f32⟩
  | 110 => ⟨S4096x128, .f32⟩
  | 111 => ⟨S4096x128, .f32⟩
  | 112 => ⟨S1x1000x128, .f32⟩
  | 113 => ⟨S1000x128, .f32⟩
  | 114 => ⟨S4096x1, .i32⟩
  | 115 => ⟨S4096, .i32⟩
  | 116 => ⟨S_, .i32⟩
  | 117 => ⟨S4096, .i32⟩
  | 118 => ⟨S4096, .i1⟩
  | 119 => ⟨S_, .i32⟩
  | 120 => ⟨S4096, .i32⟩
  | 121 => ⟨S4096, .i32⟩
  | 122 => ⟨S4096, .i32⟩
  | 123 => ⟨S4096x1, .i32⟩
  | 124 => ⟨S1, .i32⟩
  | 125 => ⟨S_, .i32⟩
  | 126 => ⟨S4096x1, .i32⟩
  | 127 => ⟨S4096x1, .i1⟩
  | _ => ⟨S4096x26, .i32⟩

abbrev hbmTy0_5 (i : Nat) : BufTy := match i % 128 with
  | 0 => ⟨S1x1, .i32⟩
  | 1 => ⟨S4096x1, .i32⟩
  | 2 => ⟨S4096x1, .i1⟩
  | 3 => ⟨S4096x1, .i1⟩
  | 4 => ⟨S_, .i1⟩
  | 5 => ⟨S4096, .i1⟩
  | 6 => ⟨S4096x128, .f32⟩
  | 7 => ⟨S4096x128, .i1⟩
  | 8 => ⟨S_, .f32⟩
  | 9 => ⟨S4096x128, .f32⟩
  | 10 => ⟨S4096x128, .f32⟩
  | 11 => ⟨S1x1000x128, .f32⟩
  | 12 => ⟨S1000x128, .f32⟩
  | 13 => ⟨S4096x1, .i32⟩
  | 14 => ⟨S4096, .i32⟩
  | 15 => ⟨S_, .i32⟩
  | 16 => ⟨S4096, .i32⟩
  | 17 => ⟨S4096, .i1⟩
  | 18 => ⟨S_, .i32⟩
  | 19 => ⟨S4096, .i32⟩
  | 20 => ⟨S4096, .i32⟩
  | 21 => ⟨S4096, .i32⟩
  | 22 => ⟨S4096x1, .i32⟩
  | 23 => ⟨S1, .i32⟩
  | 24 => ⟨S_, .i32⟩
  | 25 => ⟨S4096x1, .i32⟩
  | 26 => ⟨S4096x1, .i1⟩
  | 27 => ⟨S1x1, .i32⟩
  | 28 => ⟨S4096x1, .i32⟩
  | 29 => ⟨S4096x1, .i1⟩
  | 30 => ⟨S4096x1, .i1⟩
  | 31 => ⟨S_, .i1⟩
  | 32 => ⟨S4096, .i1⟩
  | 33 => ⟨S4096x128, .f32⟩
  | 34 => ⟨S4096x128, .i1⟩
  | 35 => ⟨S_, .f32⟩
  | 36 => ⟨S4096x128, .f32⟩
  | 37 => ⟨S4096x128, .f32⟩
  | 38 => ⟨S1x1000x128, .f32⟩
  | 39 => ⟨S1000x128, .f32⟩
  | 40 => ⟨S4096x1, .i32⟩
  | 41 => ⟨S4096, .i32⟩
  | 42 => ⟨S_, .i32⟩
  | 43 => ⟨S4096, .i32⟩
  | 44 => ⟨S4096, .i1⟩
  | 45 => ⟨S_, .i32⟩
  | 46 => ⟨S4096, .i32⟩
  | 47 => ⟨S4096, .i32⟩
  | 48 => ⟨S4096, .i32⟩
  | 49 => ⟨S4096x1, .i32⟩
  | 50 => ⟨S1, .i32⟩
  | 51 => ⟨S_, .i32⟩
  | 52 => ⟨S4096x1, .i32⟩
  | 53 => ⟨S4096x1, .i1⟩
  | 54 => ⟨S1x1, .i32⟩
  | 55 => ⟨S4096x1, .i32⟩
  | 56 => ⟨S4096x1, .i1⟩
  | 57 => ⟨S4096x1, .i1⟩
  | 58 => ⟨S_, .i1⟩
  | 59 => ⟨S4096, .i1⟩
  | 60 => ⟨S4096x128, .f32⟩
  | 61 => ⟨S4096x128, .i1⟩
  | 62 => ⟨S_, .f32⟩
  | 63 => ⟨S4096x128, .f32⟩
  | 64 => ⟨S4096x128, .f32⟩
  | 65 => ⟨S4096x2048, .f32⟩
  | 66 => ⟨S4096x1280, .f32⟩
  | 67 => ⟨S4096x3328, .f32⟩
  | 68 => ⟨S4096x3341, .f32⟩
  | _ => ⟨S4096x26, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4096x26, .i32⟩

abbrev bufTy : (tb : Table) → Fin (tcTables nBuf tb) → BufTy
  | .hbm, ⟨i, _⟩ => hbmTy i
  | _, _ => ⟨S4096x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_call2_c : Ref sig .tc := ⟨.hbm, 61, rfl⟩
abbrev main_call2_v0 : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_c_1 : Ref sig .tc := ⟨.hbm, 69, rfl⟩
abbrev main_call2_c_2 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_c_3 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_call2_cst : Ref sig .tc := ⟨.hbm, 81, rfl⟩
abbrev main_call2_v15 : Ref sig .tc := ⟨.hbm, 82, rfl⟩
abbrev main_v14 : Ref sig .tc := ⟨.hbm, 83, rfl⟩
abbrev main_v15 : Ref sig .tc := ⟨.hbm, 84, rfl⟩
abbrev main_v16 : Ref sig .tc := ⟨.hbm, 85, rfl⟩
abbrev main_v17 : Ref sig .tc := ⟨.hbm, 86, rfl⟩
abbrev main_v18 : Ref sig .tc := ⟨.hbm, 87, rfl⟩
abbrev main_call3_c : Ref sig .tc := ⟨.hbm, 88, rfl⟩
abbrev main_call3_v0 : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_c_1 : Ref sig .tc := ⟨.hbm, 96, rfl⟩
abbrev main_call3_c_2 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_c_3 : Ref sig .tc := ⟨.hbm, 104, rfl⟩
abbrev main_call3_v12 : Ref sig .tc := ⟨.hbm, 105, rfl⟩
abbrev main_call3_v13 : Ref sig .tc := ⟨.hbm, 106, rfl⟩
abbrev main_call3_v14 : Ref sig .tc := ⟨.hbm, 107, rfl⟩
abbrev main_call3_cst : Ref sig .tc := ⟨.hbm, 108, rfl⟩
abbrev main_call3_v15 : Ref sig .tc := ⟨.hbm, 109, rfl⟩
abbrev main_v19 : Ref sig .tc := ⟨.hbm, 110, rfl⟩
abbrev main_v20 : Ref sig .tc := ⟨.hbm, 111, rfl⟩
abbrev main_v21 : Ref sig .tc := ⟨.hbm, 112, rfl⟩
abbrev main_v22 : Ref sig .tc := ⟨.hbm, 113, rfl⟩
abbrev main_v23 : Ref sig .tc := ⟨.hbm, 114, rfl⟩
abbrev main_call4_c : Ref sig .tc := ⟨.hbm, 115, rfl⟩
abbrev main_call4_v0 : Ref sig .tc := ⟨.hbm, 116, rfl⟩
abbrev main_call4_v1 : Ref sig .tc := ⟨.hbm, 117, rfl⟩
abbrev main_call4_c_0 : Ref sig .tc := ⟨.hbm, 118, rfl⟩
abbrev main_call4_v2 : Ref sig .tc := ⟨.hbm, 119, rfl⟩
abbrev main_call4_v3 : Ref sig .tc := ⟨.hbm, 120, rfl⟩
abbrev main_call4_v4 : Ref sig .tc := ⟨.hbm, 121, rfl⟩
abbrev main_call4_v5 : Ref sig .tc := ⟨.hbm, 122, rfl⟩
abbrev main_call4_c_1 : Ref sig .tc := ⟨.hbm, 123, rfl⟩
abbrev main_call4_c_2 : Ref sig .tc := ⟨.hbm, 124, rfl⟩
abbrev main_call4_v6 : Ref sig .tc := ⟨.hbm, 125, rfl⟩
abbrev main_call4_v7 : Ref sig .tc := ⟨.hbm, 126, rfl⟩
abbrev main_call4_v8 : Ref sig .tc := ⟨.hbm, 127, rfl⟩
abbrev main_call4_v9 : Ref sig .tc := ⟨.hbm, 128, rfl⟩
abbrev main_call4_v10 : Ref sig .tc := ⟨.hbm, 129, rfl⟩
abbrev main_call4_v11 : Ref sig .tc := ⟨.hbm, 130, rfl⟩
abbrev main_call4_c_3 : Ref sig .tc := ⟨.hbm, 131, rfl⟩
abbrev main_call4_v12 : Ref sig .tc := ⟨.hbm, 132, rfl⟩
abbrev main_call4_v13 : Ref sig .tc := ⟨.hbm, 133, rfl⟩
abbrev main_call4_v14 : Ref sig .tc := ⟨.hbm, 134, rfl⟩
abbrev main_call4_cst : Ref sig .tc := ⟨.hbm, 135, rfl⟩
abbrev main_call4_v15 : Ref sig .tc := ⟨.hbm, 136, rfl⟩
abbrev main_v24 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_call5_c : Ref sig .tc := ⟨.hbm, 142, rfl⟩
abbrev main_call5_v0 : Ref sig .tc := ⟨.hbm, 143, rfl⟩
abbrev main_call5_v1 : Ref sig .tc := ⟨.hbm, 144, rfl⟩
abbrev main_call5_c_0 : Ref sig .tc := ⟨.hbm, 145, rfl⟩
abbrev main_call5_v2 : Ref sig .tc := ⟨.hbm, 146, rfl⟩
abbrev main_call5_v3 : Ref sig .tc := ⟨.hbm, 147, rfl⟩
abbrev main_call5_v4 : Ref sig .tc := ⟨.hbm, 148, rfl⟩
abbrev main_call5_v5 : Ref sig .tc := ⟨.hbm, 149, rfl⟩
abbrev main_call5_c_1 : Ref sig .tc := ⟨.hbm, 150, rfl⟩
abbrev main_call5_c_2 : Ref sig .tc := ⟨.hbm, 151, rfl⟩
abbrev main_call5_v6 : Ref sig .tc := ⟨.hbm, 152, rfl⟩
abbrev main_call5_v7 : Ref sig .tc := ⟨.hbm, 153, rfl⟩
abbrev main_call5_v8 : Ref sig .tc := ⟨.hbm, 154, rfl⟩
abbrev main_call5_v9 : Ref sig .tc := ⟨.hbm, 155, rfl⟩
abbrev main_call5_v10 : Ref sig .tc := ⟨.hbm, 156, rfl⟩
abbrev main_call5_v11 : Ref sig .tc := ⟨.hbm, 157, rfl⟩
abbrev main_call5_c_3 : Ref sig .tc := ⟨.hbm, 158, rfl⟩
abbrev main_call5_v12 : Ref sig .tc := ⟨.hbm, 159, rfl⟩
abbrev main_call5_v13 : Ref sig .tc := ⟨.hbm, 160, rfl⟩
abbrev main_call5_v14 : Ref sig .tc := ⟨.hbm, 161, rfl⟩
abbrev main_call5_cst : Ref sig .tc := ⟨.hbm, 162, rfl⟩
abbrev main_call5_v15 : Ref sig .tc := ⟨.hbm, 163, rfl⟩
abbrev main_v29 : Ref sig .tc := ⟨.hbm, 164, rfl⟩
abbrev main_v30 : Ref sig .tc := ⟨.hbm, 165, rfl⟩
abbrev main_v31 : Ref sig .tc := ⟨.hbm, 166, rfl⟩
abbrev main_v32 : Ref sig .tc := ⟨.hbm, 167, rfl⟩
abbrev main_v33 : Ref sig .tc := ⟨.hbm, 168, rfl⟩
abbrev main_call6_c : Ref sig .tc := ⟨.hbm, 169, rfl⟩
abbrev main_call6_v0 : Ref sig .tc := ⟨.hbm, 170, rfl⟩
abbrev main_call6_v1 : Ref sig .tc := ⟨.hbm, 171, rfl⟩
abbrev main_call6_c_0 : Ref sig .tc := ⟨.hbm, 172, rfl⟩
abbrev main_call6_v2 : Ref sig .tc := ⟨.hbm, 173, rfl⟩
abbrev main_call6_v3 : Ref sig .tc := ⟨.hbm, 174, rfl⟩
abbrev main_call6_v4 : Ref sig .tc := ⟨.hbm, 175, rfl⟩
abbrev main_call6_v5 : Ref sig .tc := ⟨.hbm, 176, rfl⟩
abbrev main_call6_c_1 : Ref sig .tc := ⟨.hbm, 177, rfl⟩
abbrev main_call6_c_2 : Ref sig .tc := ⟨.hbm, 178, rfl⟩
abbrev main_call6_v6 : Ref sig .tc := ⟨.hbm, 179, rfl⟩
abbrev main_call6_v7 : Ref sig .tc := ⟨.hbm, 180, rfl⟩
abbrev main_call6_v8 : Ref sig .tc := ⟨.hbm, 181, rfl⟩
abbrev main_call6_v9 : Ref sig .tc := ⟨.hbm, 182, rfl⟩
abbrev main_call6_v10 : Ref sig .tc := ⟨.hbm, 183, rfl⟩
abbrev main_call6_v11 : Ref sig .tc := ⟨.hbm, 184, rfl⟩
abbrev main_call6_c_3 : Ref sig .tc := ⟨.hbm, 185, rfl⟩
abbrev main_call6_v12 : Ref sig .tc := ⟨.hbm, 186, rfl⟩
abbrev main_call6_v13 : Ref sig .tc := ⟨.hbm, 187, rfl⟩
abbrev main_call6_v14 : Ref sig .tc := ⟨.hbm, 188, rfl⟩
abbrev main_call6_cst : Ref sig .tc := ⟨.hbm, 189, rfl⟩
abbrev main_call6_v15 : Ref sig .tc := ⟨.hbm, 190, rfl⟩
abbrev main_v34 : Ref sig .tc := ⟨.hbm, 191, rfl⟩
abbrev main_v35 : Ref sig .tc := ⟨.hbm, 192, rfl⟩
abbrev main_v36 : Ref sig .tc := ⟨.hbm, 193, rfl⟩
abbrev main_v37 : Ref sig .tc := ⟨.hbm, 194, rfl⟩
abbrev main_v38 : Ref sig .tc := ⟨.hbm, 195, rfl⟩
abbrev main_call7_c : Ref sig .tc := ⟨.hbm, 196, rfl⟩
abbrev main_call7_v0 : Ref sig .tc := ⟨.hbm, 197, rfl⟩
abbrev main_call7_v1 : Ref sig .tc := ⟨.hbm, 198, rfl⟩
abbrev main_call7_c_0 : Ref sig .tc := ⟨.hbm, 199, rfl⟩
abbrev main_call7_v2 : Ref sig .tc := ⟨.hbm, 200, rfl⟩
abbrev main_call7_v3 : Ref sig .tc := ⟨.hbm, 201, rfl⟩
abbrev main_call7_v4 : Ref sig .tc := ⟨.hbm, 202, rfl⟩
abbrev main_call7_v5 : Ref sig .tc := ⟨.hbm, 203, rfl⟩
abbrev main_call7_c_1 : Ref sig .tc := ⟨.hbm, 204, rfl⟩
abbrev main_call7_c_2 : Ref sig .tc := ⟨.hbm, 205, rfl⟩
abbrev main_call7_v6 : Ref sig .tc := ⟨.hbm, 206, rfl⟩
abbrev main_call7_v7 : Ref sig .tc := ⟨.hbm, 207, rfl⟩
abbrev main_call7_v8 : Ref sig .tc := ⟨.hbm, 208, rfl⟩
abbrev main_call7_v9 : Ref sig .tc := ⟨.hbm, 209, rfl⟩
abbrev main_call7_v10 : Ref sig .tc := ⟨.hbm, 210, rfl⟩
abbrev main_call7_v11 : Ref sig .tc := ⟨.hbm, 211, rfl⟩
abbrev main_call7_c_3 : Ref sig .tc := ⟨.hbm, 212, rfl⟩
abbrev main_call7_v12 : Ref sig .tc := ⟨.hbm, 213, rfl⟩
abbrev main_call7_v13 : Ref sig .tc := ⟨.hbm, 214, rfl⟩
abbrev main_call7_v14 : Ref sig .tc := ⟨.hbm, 215, rfl⟩
abbrev main_call7_cst : Ref sig .tc := ⟨.hbm, 216, rfl⟩
abbrev main_call7_v15 : Ref sig .tc := ⟨.hbm, 217, rfl⟩
abbrev main_v39 : Ref sig .tc := ⟨.hbm, 218, rfl⟩
abbrev main_v40 : Ref sig .tc := ⟨.hbm, 219, rfl⟩
abbrev main_v41 : Ref sig .tc := ⟨.hbm, 220, rfl⟩
abbrev main_v42 : Ref sig .tc := ⟨.hbm, 221, rfl⟩
abbrev main_v43 : Ref sig .tc := ⟨.hbm, 222, rfl⟩
abbrev main_call8_c : Ref sig .tc := ⟨.hbm, 223, rfl⟩
abbrev main_call8_v0 : Ref sig .tc := ⟨.hbm, 224, rfl⟩
abbrev main_call8_v1 : Ref sig .tc := ⟨.hbm, 225, rfl⟩
abbrev main_call8_c_0 : Ref sig .tc := ⟨.hbm, 226, rfl⟩
abbrev main_call8_v2 : Ref sig .tc := ⟨.hbm, 227, rfl⟩
abbrev main_call8_v3 : Ref sig .tc := ⟨.hbm, 228, rfl⟩
abbrev main_call8_v4 : Ref sig .tc := ⟨.hbm, 229, rfl⟩
abbrev main_call8_v5 : Ref sig .tc := ⟨.hbm, 230, rfl⟩
abbrev main_call8_c_1 : Ref sig .tc := ⟨.hbm, 231, rfl⟩
abbrev main_call8_c_2 : Ref sig .tc := ⟨.hbm, 232, rfl⟩
abbrev main_call8_v6 : Ref sig .tc := ⟨.hbm, 233, rfl⟩
abbrev main_call8_v7 : Ref sig .tc := ⟨.hbm, 234, rfl⟩
abbrev main_call8_v8 : Ref sig .tc := ⟨.hbm, 235, rfl⟩
abbrev main_call8_v9 : Ref sig .tc := ⟨.hbm, 236, rfl⟩
abbrev main_call8_v10 : Ref sig .tc := ⟨.hbm, 237, rfl⟩
abbrev main_call8_v11 : Ref sig .tc := ⟨.hbm, 238, rfl⟩
abbrev main_call8_c_3 : Ref sig .tc := ⟨.hbm, 239, rfl⟩
abbrev main_call8_v12 : Ref sig .tc := ⟨.hbm, 240, rfl⟩
abbrev main_call8_v13 : Ref sig .tc := ⟨.hbm, 241, rfl⟩
abbrev main_call8_v14 : Ref sig .tc := ⟨.hbm, 242, rfl⟩
abbrev main_call8_cst : Ref sig .tc := ⟨.hbm, 243, rfl⟩
abbrev main_call8_v15 : Ref sig .tc := ⟨.hbm, 244, rfl⟩
abbrev main_v44 : Ref sig .tc := ⟨.hbm, 245, rfl⟩
abbrev main_v45 : Ref sig .tc := ⟨.hbm, 246, rfl⟩
abbrev main_v46 : Ref sig .tc := ⟨.hbm, 247, rfl⟩
abbrev main_v47 : Ref sig .tc := ⟨.hbm, 248, rfl⟩
abbrev main_v48 : Ref sig .tc := ⟨.hbm, 249, rfl⟩
abbrev main_call9_c : Ref sig .tc := ⟨.hbm, 250, rfl⟩
abbrev main_call9_v0 : Ref sig .tc := ⟨.hbm, 251, rfl⟩
abbrev main_call9_v1 : Ref sig .tc := ⟨.hbm, 252, rfl⟩
abbrev main_call9_c_0 : Ref sig .tc := ⟨.hbm, 253, rfl⟩
abbrev main_call9_v2 : Ref sig .tc := ⟨.hbm, 254, rfl⟩
abbrev main_call9_v3 : Ref sig .tc := ⟨.hbm, 255, rfl⟩
abbrev main_call9_v4 : Ref sig .tc := ⟨.hbm, 256, rfl⟩
abbrev main_call9_v5 : Ref sig .tc := ⟨.hbm, 257, rfl⟩
abbrev main_call9_c_1 : Ref sig .tc := ⟨.hbm, 258, rfl⟩
abbrev main_call9_c_2 : Ref sig .tc := ⟨.hbm, 259, rfl⟩
abbrev main_call9_v6 : Ref sig .tc := ⟨.hbm, 260, rfl⟩
abbrev main_call9_v7 : Ref sig .tc := ⟨.hbm, 261, rfl⟩
abbrev main_call9_v8 : Ref sig .tc := ⟨.hbm, 262, rfl⟩
abbrev main_call9_v9 : Ref sig .tc := ⟨.hbm, 263, rfl⟩
abbrev main_call9_v10 : Ref sig .tc := ⟨.hbm, 264, rfl⟩
abbrev main_call9_v11 : Ref sig .tc := ⟨.hbm, 265, rfl⟩
abbrev main_call9_c_3 : Ref sig .tc := ⟨.hbm, 266, rfl⟩
abbrev main_call9_v12 : Ref sig .tc := ⟨.hbm, 267, rfl⟩
abbrev main_call9_v13 : Ref sig .tc := ⟨.hbm, 268, rfl⟩
abbrev main_call9_v14 : Ref sig .tc := ⟨.hbm, 269, rfl⟩
abbrev main_call9_cst : Ref sig .tc := ⟨.hbm, 270, rfl⟩
abbrev main_call9_v15 : Ref sig .tc := ⟨.hbm, 271, rfl⟩
abbrev main_v49 : Ref sig .tc := ⟨.hbm, 272, rfl⟩
abbrev main_v50 : Ref sig .tc := ⟨.hbm, 273, rfl⟩
abbrev main_v51 : Ref sig .tc := ⟨.hbm, 274, rfl⟩
abbrev main_v52 : Ref sig .tc := ⟨.hbm, 275, rfl⟩
abbrev main_v53 : Ref sig .tc := ⟨.hbm, 276, rfl⟩
abbrev main_call10_c : Ref sig .tc := ⟨.hbm, 277, rfl⟩
abbrev main_call10_v0 : Ref sig .tc := ⟨.hbm, 278, rfl⟩
abbrev main_call10_v1 : Ref sig .tc := ⟨.hbm, 279, rfl⟩
abbrev main_call10_c_0 : Ref sig .tc := ⟨.hbm, 280, rfl⟩
abbrev main_call10_v2 : Ref sig .tc := ⟨.hbm, 281, rfl⟩
abbrev main_call10_v3 : Ref sig .tc := ⟨.hbm, 282, rfl⟩
abbrev main_call10_v4 : Ref sig .tc := ⟨.hbm, 283, rfl⟩
abbrev main_call10_v5 : Ref sig .tc := ⟨.hbm, 284, rfl⟩
abbrev main_call10_c_1 : Ref sig .tc := ⟨.hbm, 285, rfl⟩
abbrev main_call10_c_2 : Ref sig .tc := ⟨.hbm, 286, rfl⟩
abbrev main_call10_v6 : Ref sig .tc := ⟨.hbm, 287, rfl⟩
abbrev main_call10_v7 : Ref sig .tc := ⟨.hbm, 288, rfl⟩
abbrev main_call10_v8 : Ref sig .tc := ⟨.hbm, 289, rfl⟩
abbrev main_call10_v9 : Ref sig .tc := ⟨.hbm, 290, rfl⟩
abbrev main_call10_v10 : Ref sig .tc := ⟨.hbm, 291, rfl⟩
abbrev main_call10_v11 : Ref sig .tc := ⟨.hbm, 292, rfl⟩
abbrev main_call10_c_3 : Ref sig .tc := ⟨.hbm, 293, rfl⟩
abbrev main_call10_v12 : Ref sig .tc := ⟨.hbm, 294, rfl⟩
abbrev main_call10_v13 : Ref sig .tc := ⟨.hbm, 295, rfl⟩
abbrev main_call10_v14 : Ref sig .tc := ⟨.hbm, 296, rfl⟩
abbrev main_call10_cst : Ref sig .tc := ⟨.hbm, 297, rfl⟩
abbrev main_call10_v15 : Ref sig .tc := ⟨.hbm, 298, rfl⟩
abbrev main_v54 : Ref sig .tc := ⟨.hbm, 299, rfl⟩
abbrev main_v55 : Ref sig .tc := ⟨.hbm, 300, rfl⟩
abbrev main_v56 : Ref sig .tc := ⟨.hbm, 301, rfl⟩
abbrev main_v57 : Ref sig .tc := ⟨.hbm, 302, rfl⟩
abbrev main_v58 : Ref sig .tc := ⟨.hbm, 303, rfl⟩
abbrev main_call11_c : Ref sig .tc := ⟨.hbm, 304, rfl⟩
abbrev main_call11_v0 : Ref sig .tc := ⟨.hbm, 305, rfl⟩
abbrev main_call11_v1 : Ref sig .tc := ⟨.hbm, 306, rfl⟩
abbrev main_call11_c_0 : Ref sig .tc := ⟨.hbm, 307, rfl⟩
abbrev main_call11_v2 : Ref sig .tc := ⟨.hbm, 308, rfl⟩
abbrev main_call11_v3 : Ref sig .tc := ⟨.hbm, 309, rfl⟩
abbrev main_call11_v4 : Ref sig .tc := ⟨.hbm, 310, rfl⟩
abbrev main_call11_v5 : Ref sig .tc := ⟨.hbm, 311, rfl⟩
abbrev main_call11_c_1 : Ref sig .tc := ⟨.hbm, 312, rfl⟩
abbrev main_call11_c_2 : Ref sig .tc := ⟨.hbm, 313, rfl⟩
abbrev main_call11_v6 : Ref sig .tc := ⟨.hbm, 314, rfl⟩
abbrev main_call11_v7 : Ref sig .tc := ⟨.hbm, 315, rfl⟩
abbrev main_call11_v8 : Ref sig .tc := ⟨.hbm, 316, rfl⟩
abbrev main_call11_v9 : Ref sig .tc := ⟨.hbm, 317, rfl⟩
abbrev main_call11_v10 : Ref sig .tc := ⟨.hbm, 318, rfl⟩
abbrev main_call11_v11 : Ref sig .tc := ⟨.hbm, 319, rfl⟩
abbrev main_call11_c_3 : Ref sig .tc := ⟨.hbm, 320, rfl⟩
abbrev main_call11_v12 : Ref sig .tc := ⟨.hbm, 321, rfl⟩
abbrev main_call11_v13 : Ref sig .tc := ⟨.hbm, 322, rfl⟩
abbrev main_call11_v14 : Ref sig .tc := ⟨.hbm, 323, rfl⟩
abbrev main_call11_cst : Ref sig .tc := ⟨.hbm, 324, rfl⟩
abbrev main_call11_v15 : Ref sig .tc := ⟨.hbm, 325, rfl⟩
abbrev main_v59 : Ref sig .tc := ⟨.hbm, 326, rfl⟩
abbrev main_v60 : Ref sig .tc := ⟨.hbm, 327, rfl⟩
abbrev main_v61 : Ref sig .tc := ⟨.hbm, 328, rfl⟩
abbrev main_v62 : Ref sig .tc := ⟨.hbm, 329, rfl⟩
abbrev main_v63 : Ref sig .tc := ⟨.hbm, 330, rfl⟩
abbrev main_call12_c : Ref sig .tc := ⟨.hbm, 331, rfl⟩
abbrev main_call12_v0 : Ref sig .tc := ⟨.hbm, 332, rfl⟩
abbrev main_call12_v1 : Ref sig .tc := ⟨.hbm, 333, rfl⟩
abbrev main_call12_c_0 : Ref sig .tc := ⟨.hbm, 334, rfl⟩
abbrev main_call12_v2 : Ref sig .tc := ⟨.hbm, 335, rfl⟩
abbrev main_call12_v3 : Ref sig .tc := ⟨.hbm, 336, rfl⟩
abbrev main_call12_v4 : Ref sig .tc := ⟨.hbm, 337, rfl⟩
abbrev main_call12_v5 : Ref sig .tc := ⟨.hbm, 338, rfl⟩
abbrev main_call12_c_1 : Ref sig .tc := ⟨.hbm, 339, rfl⟩
abbrev main_call12_c_2 : Ref sig .tc := ⟨.hbm, 340, rfl⟩
abbrev main_call12_v6 : Ref sig .tc := ⟨.hbm, 341, rfl⟩
abbrev main_call12_v7 : Ref sig .tc := ⟨.hbm, 342, rfl⟩
abbrev main_call12_v8 : Ref sig .tc := ⟨.hbm, 343, rfl⟩
abbrev main_call12_v9 : Ref sig .tc := ⟨.hbm, 344, rfl⟩
abbrev main_call12_v10 : Ref sig .tc := ⟨.hbm, 345, rfl⟩
abbrev main_call12_v11 : Ref sig .tc := ⟨.hbm, 346, rfl⟩
abbrev main_call12_c_3 : Ref sig .tc := ⟨.hbm, 347, rfl⟩
abbrev main_call12_v12 : Ref sig .tc := ⟨.hbm, 348, rfl⟩
abbrev main_call12_v13 : Ref sig .tc := ⟨.hbm, 349, rfl⟩
abbrev main_call12_v14 : Ref sig .tc := ⟨.hbm, 350, rfl⟩
abbrev main_call12_cst : Ref sig .tc := ⟨.hbm, 351, rfl⟩
abbrev main_call12_v15 : Ref sig .tc := ⟨.hbm, 352, rfl⟩
abbrev main_v64 : Ref sig .tc := ⟨.hbm, 353, rfl⟩
abbrev main_v65 : Ref sig .tc := ⟨.hbm, 354, rfl⟩
abbrev main_v66 : Ref sig .tc := ⟨.hbm, 355, rfl⟩
abbrev main_v67 : Ref sig .tc := ⟨.hbm, 356, rfl⟩
abbrev main_v68 : Ref sig .tc := ⟨.hbm, 357, rfl⟩
abbrev main_call13_c : Ref sig .tc := ⟨.hbm, 358, rfl⟩
abbrev main_call13_v0 : Ref sig .tc := ⟨.hbm, 359, rfl⟩
abbrev main_call13_v1 : Ref sig .tc := ⟨.hbm, 360, rfl⟩
abbrev main_call13_c_0 : Ref sig .tc := ⟨.hbm, 361, rfl⟩
abbrev main_call13_v2 : Ref sig .tc := ⟨.hbm, 362, rfl⟩
abbrev main_call13_v3 : Ref sig .tc := ⟨.hbm, 363, rfl⟩
abbrev main_call13_v4 : Ref sig .tc := ⟨.hbm, 364, rfl⟩
abbrev main_call13_v5 : Ref sig .tc := ⟨.hbm, 365, rfl⟩
abbrev main_call13_c_1 : Ref sig .tc := ⟨.hbm, 366, rfl⟩
abbrev main_call13_c_2 : Ref sig .tc := ⟨.hbm, 367, rfl⟩
abbrev main_call13_v6 : Ref sig .tc := ⟨.hbm, 368, rfl⟩
abbrev main_call13_v7 : Ref sig .tc := ⟨.hbm, 369, rfl⟩
abbrev main_call13_v8 : Ref sig .tc := ⟨.hbm, 370, rfl⟩
abbrev main_call13_v9 : Ref sig .tc := ⟨.hbm, 371, rfl⟩
abbrev main_call13_v10 : Ref sig .tc := ⟨.hbm, 372, rfl⟩
abbrev main_call13_v11 : Ref sig .tc := ⟨.hbm, 373, rfl⟩
abbrev main_call13_c_3 : Ref sig .tc := ⟨.hbm, 374, rfl⟩
abbrev main_call13_v12 : Ref sig .tc := ⟨.hbm, 375, rfl⟩
abbrev main_call13_v13 : Ref sig .tc := ⟨.hbm, 376, rfl⟩
abbrev main_call13_v14 : Ref sig .tc := ⟨.hbm, 377, rfl⟩
abbrev main_call13_cst : Ref sig .tc := ⟨.hbm, 378, rfl⟩
abbrev main_call13_v15 : Ref sig .tc := ⟨.hbm, 379, rfl⟩
abbrev main_v69 : Ref sig .tc := ⟨.hbm, 380, rfl⟩
abbrev main_v70 : Ref sig .tc := ⟨.hbm, 381, rfl⟩
abbrev main_v71 : Ref sig .tc := ⟨.hbm, 382, rfl⟩
abbrev main_v72 : Ref sig .tc := ⟨.hbm, 383, rfl⟩
abbrev main_v73 : Ref sig .tc := ⟨.hbm, 384, rfl⟩
abbrev main_call14_c : Ref sig .tc := ⟨.hbm, 385, rfl⟩
abbrev main_call14_v0 : Ref sig .tc := ⟨.hbm, 386, rfl⟩
abbrev main_call14_v1 : Ref sig .tc := ⟨.hbm, 387, rfl⟩
abbrev main_call14_c_0 : Ref sig .tc := ⟨.hbm, 388, rfl⟩
abbrev main_call14_v2 : Ref sig .tc := ⟨.hbm, 389, rfl⟩
abbrev main_call14_v3 : Ref sig .tc := ⟨.hbm, 390, rfl⟩
abbrev main_call14_v4 : Ref sig .tc := ⟨.hbm, 391, rfl⟩
abbrev main_call14_v5 : Ref sig .tc := ⟨.hbm, 392, rfl⟩
abbrev main_call14_c_1 : Ref sig .tc := ⟨.hbm, 393, rfl⟩
abbrev main_call14_c_2 : Ref sig .tc := ⟨.hbm, 394, rfl⟩
abbrev main_call14_v6 : Ref sig .tc := ⟨.hbm, 395, rfl⟩
abbrev main_call14_v7 : Ref sig .tc := ⟨.hbm, 396, rfl⟩
abbrev main_call14_v8 : Ref sig .tc := ⟨.hbm, 397, rfl⟩
abbrev main_call14_v9 : Ref sig .tc := ⟨.hbm, 398, rfl⟩
abbrev main_call14_v10 : Ref sig .tc := ⟨.hbm, 399, rfl⟩
abbrev main_call14_v11 : Ref sig .tc := ⟨.hbm, 400, rfl⟩
abbrev main_call14_c_3 : Ref sig .tc := ⟨.hbm, 401, rfl⟩
abbrev main_call14_v12 : Ref sig .tc := ⟨.hbm, 402, rfl⟩
abbrev main_call14_v13 : Ref sig .tc := ⟨.hbm, 403, rfl⟩
abbrev main_call14_v14 : Ref sig .tc := ⟨.hbm, 404, rfl⟩
abbrev main_call14_cst : Ref sig .tc := ⟨.hbm, 405, rfl⟩
abbrev main_call14_v15 : Ref sig .tc := ⟨.hbm, 406, rfl⟩
abbrev main_v74 : Ref sig .tc := ⟨.hbm, 407, rfl⟩
abbrev main_v75 : Ref sig .tc := ⟨.hbm, 408, rfl⟩
abbrev main_v76 : Ref sig .tc := ⟨.hbm, 409, rfl⟩
abbrev main_v77 : Ref sig .tc := ⟨.hbm, 410, rfl⟩
abbrev main_v78 : Ref sig .tc := ⟨.hbm, 411, rfl⟩
abbrev main_call15_c : Ref sig .tc := ⟨.hbm, 412, rfl⟩
abbrev main_call15_v0 : Ref sig .tc := ⟨.hbm, 413, rfl⟩
abbrev main_call15_v1 : Ref sig .tc := ⟨.hbm, 414, rfl⟩
abbrev main_call15_c_0 : Ref sig .tc := ⟨.hbm, 415, rfl⟩
abbrev main_call15_v2 : Ref sig .tc := ⟨.hbm, 416, rfl⟩
abbrev main_call15_v3 : Ref sig .tc := ⟨.hbm, 417, rfl⟩
abbrev main_call15_v4 : Ref sig .tc := ⟨.hbm, 418, rfl⟩
abbrev main_call15_v5 : Ref sig .tc := ⟨.hbm, 419, rfl⟩
abbrev main_call15_c_1 : Ref sig .tc := ⟨.hbm, 420, rfl⟩
abbrev main_call15_c_2 : Ref sig .tc := ⟨.hbm, 421, rfl⟩
abbrev main_call15_v6 : Ref sig .tc := ⟨.hbm, 422, rfl⟩
abbrev main_call15_v7 : Ref sig .tc := ⟨.hbm, 423, rfl⟩
abbrev main_call15_v8 : Ref sig .tc := ⟨.hbm, 424, rfl⟩
abbrev main_call15_v9 : Ref sig .tc := ⟨.hbm, 425, rfl⟩
abbrev main_call15_v10 : Ref sig .tc := ⟨.hbm, 426, rfl⟩
abbrev main_call15_v11 : Ref sig .tc := ⟨.hbm, 427, rfl⟩
abbrev main_call15_c_3 : Ref sig .tc := ⟨.hbm, 428, rfl⟩
abbrev main_call15_v12 : Ref sig .tc := ⟨.hbm, 429, rfl⟩
abbrev main_call15_v13 : Ref sig .tc := ⟨.hbm, 430, rfl⟩
abbrev main_call15_v14 : Ref sig .tc := ⟨.hbm, 431, rfl⟩
abbrev main_call15_cst : Ref sig .tc := ⟨.hbm, 432, rfl⟩
abbrev main_call15_v15 : Ref sig .tc := ⟨.hbm, 433, rfl⟩
abbrev main_v79 : Ref sig .tc := ⟨.hbm, 434, rfl⟩
abbrev main_v80 : Ref sig .tc := ⟨.hbm, 435, rfl⟩
abbrev main_v81 : Ref sig .tc := ⟨.hbm, 436, rfl⟩
abbrev main_v82 : Ref sig .tc := ⟨.hbm, 437, rfl⟩
abbrev main_v83 : Ref sig .tc := ⟨.hbm, 438, rfl⟩
abbrev main_call16_c : Ref sig .tc := ⟨.hbm, 439, rfl⟩
abbrev main_call16_v0 : Ref sig .tc := ⟨.hbm, 440, rfl⟩
abbrev main_call16_v1 : Ref sig .tc := ⟨.hbm, 441, rfl⟩
abbrev main_call16_c_0 : Ref sig .tc := ⟨.hbm, 442, rfl⟩
abbrev main_call16_v2 : Ref sig .tc := ⟨.hbm, 443, rfl⟩
abbrev main_call16_v3 : Ref sig .tc := ⟨.hbm, 444, rfl⟩
abbrev main_call16_v4 : Ref sig .tc := ⟨.hbm, 445, rfl⟩
abbrev main_call16_v5 : Ref sig .tc := ⟨.hbm, 446, rfl⟩
abbrev main_call16_c_1 : Ref sig .tc := ⟨.hbm, 447, rfl⟩
abbrev main_call16_c_2 : Ref sig .tc := ⟨.hbm, 448, rfl⟩
abbrev main_call16_v6 : Ref sig .tc := ⟨.hbm, 449, rfl⟩
abbrev main_call16_v7 : Ref sig .tc := ⟨.hbm, 450, rfl⟩
abbrev main_call16_v8 : Ref sig .tc := ⟨.hbm, 451, rfl⟩
abbrev main_call16_v9 : Ref sig .tc := ⟨.hbm, 452, rfl⟩
abbrev main_call16_v10 : Ref sig .tc := ⟨.hbm, 453, rfl⟩
abbrev main_call16_v11 : Ref sig .tc := ⟨.hbm, 454, rfl⟩
abbrev main_call16_c_3 : Ref sig .tc := ⟨.hbm, 455, rfl⟩
abbrev main_call16_v12 : Ref sig .tc := ⟨.hbm, 456, rfl⟩
abbrev main_call16_v13 : Ref sig .tc := ⟨.hbm, 457, rfl⟩
abbrev main_call16_v14 : Ref sig .tc := ⟨.hbm, 458, rfl⟩
abbrev main_call16_cst : Ref sig .tc := ⟨.hbm, 459, rfl⟩
abbrev main_call16_v15 : Ref sig .tc := ⟨.hbm, 460, rfl⟩
abbrev main_v84 : Ref sig .tc := ⟨.hbm, 461, rfl⟩
abbrev main_v85 : Ref sig .tc := ⟨.hbm, 462, rfl⟩
abbrev main_v86 : Ref sig .tc := ⟨.hbm, 463, rfl⟩
abbrev main_v87 : Ref sig .tc := ⟨.hbm, 464, rfl⟩
abbrev main_v88 : Ref sig .tc := ⟨.hbm, 465, rfl⟩
abbrev main_call17_c : Ref sig .tc := ⟨.hbm, 466, rfl⟩
abbrev main_call17_v0 : Ref sig .tc := ⟨.hbm, 467, rfl⟩
abbrev main_call17_v1 : Ref sig .tc := ⟨.hbm, 468, rfl⟩
abbrev main_call17_c_0 : Ref sig .tc := ⟨.hbm, 469, rfl⟩
abbrev main_call17_v2 : Ref sig .tc := ⟨.hbm, 470, rfl⟩
abbrev main_call17_v3 : Ref sig .tc := ⟨.hbm, 471, rfl⟩
abbrev main_call17_v4 : Ref sig .tc := ⟨.hbm, 472, rfl⟩
abbrev main_call17_v5 : Ref sig .tc := ⟨.hbm, 473, rfl⟩
abbrev main_call17_c_1 : Ref sig .tc := ⟨.hbm, 474, rfl⟩
abbrev main_call17_c_2 : Ref sig .tc := ⟨.hbm, 475, rfl⟩
abbrev main_call17_v6 : Ref sig .tc := ⟨.hbm, 476, rfl⟩
abbrev main_call17_v7 : Ref sig .tc := ⟨.hbm, 477, rfl⟩
abbrev main_call17_v8 : Ref sig .tc := ⟨.hbm, 478, rfl⟩
abbrev main_call17_v9 : Ref sig .tc := ⟨.hbm, 479, rfl⟩
abbrev main_call17_v10 : Ref sig .tc := ⟨.hbm, 480, rfl⟩
abbrev main_call17_v11 : Ref sig .tc := ⟨.hbm, 481, rfl⟩
abbrev main_call17_c_3 : Ref sig .tc := ⟨.hbm, 482, rfl⟩
abbrev main_call17_v12 : Ref sig .tc := ⟨.hbm, 483, rfl⟩
abbrev main_call17_v13 : Ref sig .tc := ⟨.hbm, 484, rfl⟩
abbrev main_call17_v14 : Ref sig .tc := ⟨.hbm, 485, rfl⟩
abbrev main_call17_cst : Ref sig .tc := ⟨.hbm, 486, rfl⟩
abbrev main_call17_v15 : Ref sig .tc := ⟨.hbm, 487, rfl⟩
abbrev main_v89 : Ref sig .tc := ⟨.hbm, 488, rfl⟩
abbrev main_v90 : Ref sig .tc := ⟨.hbm, 489, rfl⟩
abbrev main_v91 : Ref sig .tc := ⟨.hbm, 490, rfl⟩
abbrev main_v92 : Ref sig .tc := ⟨.hbm, 491, rfl⟩
abbrev main_v93 : Ref sig .tc := ⟨.hbm, 492, rfl⟩
abbrev main_call18_c : Ref sig .tc := ⟨.hbm, 493, rfl⟩
abbrev main_call18_v0 : Ref sig .tc := ⟨.hbm, 494, rfl⟩
abbrev main_call18_v1 : Ref sig .tc := ⟨.hbm, 495, rfl⟩
abbrev main_call18_c_0 : Ref sig .tc := ⟨.hbm, 496, rfl⟩
abbrev main_call18_v2 : Ref sig .tc := ⟨.hbm, 497, rfl⟩
abbrev main_call18_v3 : Ref sig .tc := ⟨.hbm, 498, rfl⟩
abbrev main_call18_v4 : Ref sig .tc := ⟨.hbm, 499, rfl⟩
abbrev main_call18_v5 : Ref sig .tc := ⟨.hbm, 500, rfl⟩
abbrev main_call18_c_1 : Ref sig .tc := ⟨.hbm, 501, rfl⟩
abbrev main_call18_c_2 : Ref sig .tc := ⟨.hbm, 502, rfl⟩
abbrev main_call18_v6 : Ref sig .tc := ⟨.hbm, 503, rfl⟩
abbrev main_call18_v7 : Ref sig .tc := ⟨.hbm, 504, rfl⟩
abbrev main_call18_v8 : Ref sig .tc := ⟨.hbm, 505, rfl⟩
abbrev main_call18_v9 : Ref sig .tc := ⟨.hbm, 506, rfl⟩
abbrev main_call18_v10 : Ref sig .tc := ⟨.hbm, 507, rfl⟩
abbrev main_call18_v11 : Ref sig .tc := ⟨.hbm, 508, rfl⟩
abbrev main_call18_c_3 : Ref sig .tc := ⟨.hbm, 509, rfl⟩
abbrev main_call18_v12 : Ref sig .tc := ⟨.hbm, 510, rfl⟩
abbrev main_call18_v13 : Ref sig .tc := ⟨.hbm, 511, rfl⟩
abbrev main_call18_v14 : Ref sig .tc := ⟨.hbm, 512, rfl⟩
abbrev main_call18_cst : Ref sig .tc := ⟨.hbm, 513, rfl⟩
abbrev main_call18_v15 : Ref sig .tc := ⟨.hbm, 514, rfl⟩
abbrev main_v94 : Ref sig .tc := ⟨.hbm, 515, rfl⟩
abbrev main_v95 : Ref sig .tc := ⟨.hbm, 516, rfl⟩
abbrev main_v96 : Ref sig .tc := ⟨.hbm, 517, rfl⟩
abbrev main_v97 : Ref sig .tc := ⟨.hbm, 518, rfl⟩
abbrev main_v98 : Ref sig .tc := ⟨.hbm, 519, rfl⟩
abbrev main_call19_c : Ref sig .tc := ⟨.hbm, 520, rfl⟩
abbrev main_call19_v0 : Ref sig .tc := ⟨.hbm, 521, rfl⟩
abbrev main_call19_v1 : Ref sig .tc := ⟨.hbm, 522, rfl⟩
abbrev main_call19_c_0 : Ref sig .tc := ⟨.hbm, 523, rfl⟩
abbrev main_call19_v2 : Ref sig .tc := ⟨.hbm, 524, rfl⟩
abbrev main_call19_v3 : Ref sig .tc := ⟨.hbm, 525, rfl⟩
abbrev main_call19_v4 : Ref sig .tc := ⟨.hbm, 526, rfl⟩
abbrev main_call19_v5 : Ref sig .tc := ⟨.hbm, 527, rfl⟩
abbrev main_call19_c_1 : Ref sig .tc := ⟨.hbm, 528, rfl⟩
abbrev main_call19_c_2 : Ref sig .tc := ⟨.hbm, 529, rfl⟩
abbrev main_call19_v6 : Ref sig .tc := ⟨.hbm, 530, rfl⟩
abbrev main_call19_v7 : Ref sig .tc := ⟨.hbm, 531, rfl⟩
abbrev main_call19_v8 : Ref sig .tc := ⟨.hbm, 532, rfl⟩
abbrev main_call19_v9 : Ref sig .tc := ⟨.hbm, 533, rfl⟩
abbrev main_call19_v10 : Ref sig .tc := ⟨.hbm, 534, rfl⟩
abbrev main_call19_v11 : Ref sig .tc := ⟨.hbm, 535, rfl⟩
abbrev main_call19_c_3 : Ref sig .tc := ⟨.hbm, 536, rfl⟩
abbrev main_call19_v12 : Ref sig .tc := ⟨.hbm, 537, rfl⟩
abbrev main_call19_v13 : Ref sig .tc := ⟨.hbm, 538, rfl⟩
abbrev main_call19_v14 : Ref sig .tc := ⟨.hbm, 539, rfl⟩
abbrev main_call19_cst : Ref sig .tc := ⟨.hbm, 540, rfl⟩
abbrev main_call19_v15 : Ref sig .tc := ⟨.hbm, 541, rfl⟩
abbrev main_v99 : Ref sig .tc := ⟨.hbm, 542, rfl⟩
abbrev main_v100 : Ref sig .tc := ⟨.hbm, 543, rfl⟩
abbrev main_v101 : Ref sig .tc := ⟨.hbm, 544, rfl⟩
abbrev main_v102 : Ref sig .tc := ⟨.hbm, 545, rfl⟩
abbrev main_v103 : Ref sig .tc := ⟨.hbm, 546, rfl⟩
abbrev main_call20_c : Ref sig .tc := ⟨.hbm, 547, rfl⟩
abbrev main_call20_v0 : Ref sig .tc := ⟨.hbm, 548, rfl⟩
abbrev main_call20_v1 : Ref sig .tc := ⟨.hbm, 549, rfl⟩
abbrev main_call20_c_0 : Ref sig .tc := ⟨.hbm, 550, rfl⟩
abbrev main_call20_v2 : Ref sig .tc := ⟨.hbm, 551, rfl⟩
abbrev main_call20_v3 : Ref sig .tc := ⟨.hbm, 552, rfl⟩
abbrev main_call20_v4 : Ref sig .tc := ⟨.hbm, 553, rfl⟩
abbrev main_call20_v5 : Ref sig .tc := ⟨.hbm, 554, rfl⟩
abbrev main_call20_c_1 : Ref sig .tc := ⟨.hbm, 555, rfl⟩
abbrev main_call20_c_2 : Ref sig .tc := ⟨.hbm, 556, rfl⟩
abbrev main_call20_v6 : Ref sig .tc := ⟨.hbm, 557, rfl⟩
abbrev main_call20_v7 : Ref sig .tc := ⟨.hbm, 558, rfl⟩
abbrev main_call20_v8 : Ref sig .tc := ⟨.hbm, 559, rfl⟩
abbrev main_call20_v9 : Ref sig .tc := ⟨.hbm, 560, rfl⟩
abbrev main_call20_v10 : Ref sig .tc := ⟨.hbm, 561, rfl⟩
abbrev main_call20_v11 : Ref sig .tc := ⟨.hbm, 562, rfl⟩
abbrev main_call20_c_3 : Ref sig .tc := ⟨.hbm, 563, rfl⟩
abbrev main_call20_v12 : Ref sig .tc := ⟨.hbm, 564, rfl⟩
abbrev main_call20_v13 : Ref sig .tc := ⟨.hbm, 565, rfl⟩
abbrev main_call20_v14 : Ref sig .tc := ⟨.hbm, 566, rfl⟩
abbrev main_call20_cst : Ref sig .tc := ⟨.hbm, 567, rfl⟩
abbrev main_call20_v15 : Ref sig .tc := ⟨.hbm, 568, rfl⟩
abbrev main_v104 : Ref sig .tc := ⟨.hbm, 569, rfl⟩
abbrev main_v105 : Ref sig .tc := ⟨.hbm, 570, rfl⟩
abbrev main_v106 : Ref sig .tc := ⟨.hbm, 571, rfl⟩
abbrev main_v107 : Ref sig .tc := ⟨.hbm, 572, rfl⟩
abbrev main_v108 : Ref sig .tc := ⟨.hbm, 573, rfl⟩
abbrev main_call21_c : Ref sig .tc := ⟨.hbm, 574, rfl⟩
abbrev main_call21_v0 : Ref sig .tc := ⟨.hbm, 575, rfl⟩
abbrev main_call21_v1 : Ref sig .tc := ⟨.hbm, 576, rfl⟩
abbrev main_call21_c_0 : Ref sig .tc := ⟨.hbm, 577, rfl⟩
abbrev main_call21_v2 : Ref sig .tc := ⟨.hbm, 578, rfl⟩
abbrev main_call21_v3 : Ref sig .tc := ⟨.hbm, 579, rfl⟩
abbrev main_call21_v4 : Ref sig .tc := ⟨.hbm, 580, rfl⟩
abbrev main_call21_v5 : Ref sig .tc := ⟨.hbm, 581, rfl⟩
abbrev main_call21_c_1 : Ref sig .tc := ⟨.hbm, 582, rfl⟩
abbrev main_call21_c_2 : Ref sig .tc := ⟨.hbm, 583, rfl⟩
abbrev main_call21_v6 : Ref sig .tc := ⟨.hbm, 584, rfl⟩
abbrev main_call21_v7 : Ref sig .tc := ⟨.hbm, 585, rfl⟩
abbrev main_call21_v8 : Ref sig .tc := ⟨.hbm, 586, rfl⟩
abbrev main_call21_v9 : Ref sig .tc := ⟨.hbm, 587, rfl⟩
abbrev main_call21_v10 : Ref sig .tc := ⟨.hbm, 588, rfl⟩
abbrev main_call21_v11 : Ref sig .tc := ⟨.hbm, 589, rfl⟩
abbrev main_call21_c_3 : Ref sig .tc := ⟨.hbm, 590, rfl⟩
abbrev main_call21_v12 : Ref sig .tc := ⟨.hbm, 591, rfl⟩
abbrev main_call21_v13 : Ref sig .tc := ⟨.hbm, 592, rfl⟩
abbrev main_call21_v14 : Ref sig .tc := ⟨.hbm, 593, rfl⟩
abbrev main_call21_cst : Ref sig .tc := ⟨.hbm, 594, rfl⟩
abbrev main_call21_v15 : Ref sig .tc := ⟨.hbm, 595, rfl⟩
abbrev main_v109 : Ref sig .tc := ⟨.hbm, 596, rfl⟩
abbrev main_v110 : Ref sig .tc := ⟨.hbm, 597, rfl⟩
abbrev main_v111 : Ref sig .tc := ⟨.hbm, 598, rfl⟩
abbrev main_v112 : Ref sig .tc := ⟨.hbm, 599, rfl⟩
abbrev main_v113 : Ref sig .tc := ⟨.hbm, 600, rfl⟩
abbrev main_call22_c : Ref sig .tc := ⟨.hbm, 601, rfl⟩
abbrev main_call22_v0 : Ref sig .tc := ⟨.hbm, 602, rfl⟩
abbrev main_call22_v1 : Ref sig .tc := ⟨.hbm, 603, rfl⟩
abbrev main_call22_c_0 : Ref sig .tc := ⟨.hbm, 604, rfl⟩
abbrev main_call22_v2 : Ref sig .tc := ⟨.hbm, 605, rfl⟩
abbrev main_call22_v3 : Ref sig .tc := ⟨.hbm, 606, rfl⟩
abbrev main_call22_v4 : Ref sig .tc := ⟨.hbm, 607, rfl⟩
abbrev main_call22_v5 : Ref sig .tc := ⟨.hbm, 608, rfl⟩
abbrev main_call22_c_1 : Ref sig .tc := ⟨.hbm, 609, rfl⟩
abbrev main_call22_c_2 : Ref sig .tc := ⟨.hbm, 610, rfl⟩
abbrev main_call22_v6 : Ref sig .tc := ⟨.hbm, 611, rfl⟩
abbrev main_call22_v7 : Ref sig .tc := ⟨.hbm, 612, rfl⟩
abbrev main_call22_v8 : Ref sig .tc := ⟨.hbm, 613, rfl⟩
abbrev main_call22_v9 : Ref sig .tc := ⟨.hbm, 614, rfl⟩
abbrev main_call22_v10 : Ref sig .tc := ⟨.hbm, 615, rfl⟩
abbrev main_call22_v11 : Ref sig .tc := ⟨.hbm, 616, rfl⟩
abbrev main_call22_c_3 : Ref sig .tc := ⟨.hbm, 617, rfl⟩
abbrev main_call22_v12 : Ref sig .tc := ⟨.hbm, 618, rfl⟩
abbrev main_call22_v13 : Ref sig .tc := ⟨.hbm, 619, rfl⟩
abbrev main_call22_v14 : Ref sig .tc := ⟨.hbm, 620, rfl⟩
abbrev main_call22_cst : Ref sig .tc := ⟨.hbm, 621, rfl⟩
abbrev main_call22_v15 : Ref sig .tc := ⟨.hbm, 622, rfl⟩
abbrev main_v114 : Ref sig .tc := ⟨.hbm, 623, rfl⟩
abbrev main_v115 : Ref sig .tc := ⟨.hbm, 624, rfl⟩
abbrev main_v116 : Ref sig .tc := ⟨.hbm, 625, rfl⟩
abbrev main_v117 : Ref sig .tc := ⟨.hbm, 626, rfl⟩
abbrev main_v118 : Ref sig .tc := ⟨.hbm, 627, rfl⟩
abbrev main_call23_c : Ref sig .tc := ⟨.hbm, 628, rfl⟩
abbrev main_call23_v0 : Ref sig .tc := ⟨.hbm, 629, rfl⟩
abbrev main_call23_v1 : Ref sig .tc := ⟨.hbm, 630, rfl⟩
abbrev main_call23_c_0 : Ref sig .tc := ⟨.hbm, 631, rfl⟩
abbrev main_call23_v2 : Ref sig .tc := ⟨.hbm, 632, rfl⟩
abbrev main_call23_v3 : Ref sig .tc := ⟨.hbm, 633, rfl⟩
abbrev main_call23_v4 : Ref sig .tc := ⟨.hbm, 634, rfl⟩
abbrev main_call23_v5 : Ref sig .tc := ⟨.hbm, 635, rfl⟩
abbrev main_call23_c_1 : Ref sig .tc := ⟨.hbm, 636, rfl⟩
abbrev main_call23_c_2 : Ref sig .tc := ⟨.hbm, 637, rfl⟩
abbrev main_call23_v6 : Ref sig .tc := ⟨.hbm, 638, rfl⟩
abbrev main_call23_v7 : Ref sig .tc := ⟨.hbm, 639, rfl⟩
abbrev main_call23_v8 : Ref sig .tc := ⟨.hbm, 640, rfl⟩
abbrev main_call23_v9 : Ref sig .tc := ⟨.hbm, 641, rfl⟩
abbrev main_call23_v10 : Ref sig .tc := ⟨.hbm, 642, rfl⟩
abbrev main_call23_v11 : Ref sig .tc := ⟨.hbm, 643, rfl⟩
abbrev main_call23_c_3 : Ref sig .tc := ⟨.hbm, 644, rfl⟩
abbrev main_call23_v12 : Ref sig .tc := ⟨.hbm, 645, rfl⟩
abbrev main_call23_v13 : Ref sig .tc := ⟨.hbm, 646, rfl⟩
abbrev main_call23_v14 : Ref sig .tc := ⟨.hbm, 647, rfl⟩
abbrev main_call23_cst : Ref sig .tc := ⟨.hbm, 648, rfl⟩
abbrev main_call23_v15 : Ref sig .tc := ⟨.hbm, 649, rfl⟩
abbrev main_v119 : Ref sig .tc := ⟨.hbm, 650, rfl⟩
abbrev main_v120 : Ref sig .tc := ⟨.hbm, 651, rfl⟩
abbrev main_v121 : Ref sig .tc := ⟨.hbm, 652, rfl⟩
abbrev main_v122 : Ref sig .tc := ⟨.hbm, 653, rfl⟩
abbrev main_v123 : Ref sig .tc := ⟨.hbm, 654, rfl⟩
abbrev main_call24_c : Ref sig .tc := ⟨.hbm, 655, rfl⟩
abbrev main_call24_v0 : Ref sig .tc := ⟨.hbm, 656, rfl⟩
abbrev main_call24_v1 : Ref sig .tc := ⟨.hbm, 657, rfl⟩
abbrev main_call24_c_0 : Ref sig .tc := ⟨.hbm, 658, rfl⟩
abbrev main_call24_v2 : Ref sig .tc := ⟨.hbm, 659, rfl⟩
abbrev main_call24_v3 : Ref sig .tc := ⟨.hbm, 660, rfl⟩
abbrev main_call24_v4 : Ref sig .tc := ⟨.hbm, 661, rfl⟩
abbrev main_call24_v5 : Ref sig .tc := ⟨.hbm, 662, rfl⟩
abbrev main_call24_c_1 : Ref sig .tc := ⟨.hbm, 663, rfl⟩
abbrev main_call24_c_2 : Ref sig .tc := ⟨.hbm, 664, rfl⟩
abbrev main_call24_v6 : Ref sig .tc := ⟨.hbm, 665, rfl⟩
abbrev main_call24_v7 : Ref sig .tc := ⟨.hbm, 666, rfl⟩
abbrev main_call24_v8 : Ref sig .tc := ⟨.hbm, 667, rfl⟩
abbrev main_call24_v9 : Ref sig .tc := ⟨.hbm, 668, rfl⟩
abbrev main_call24_v10 : Ref sig .tc := ⟨.hbm, 669, rfl⟩
abbrev main_call24_v11 : Ref sig .tc := ⟨.hbm, 670, rfl⟩
abbrev main_call24_c_3 : Ref sig .tc := ⟨.hbm, 671, rfl⟩
abbrev main_call24_v12 : Ref sig .tc := ⟨.hbm, 672, rfl⟩
abbrev main_call24_v13 : Ref sig .tc := ⟨.hbm, 673, rfl⟩
abbrev main_call24_v14 : Ref sig .tc := ⟨.hbm, 674, rfl⟩
abbrev main_call24_cst : Ref sig .tc := ⟨.hbm, 675, rfl⟩
abbrev main_call24_v15 : Ref sig .tc := ⟨.hbm, 676, rfl⟩
abbrev main_v124 : Ref sig .tc := ⟨.hbm, 677, rfl⟩
abbrev main_v125 : Ref sig .tc := ⟨.hbm, 678, rfl⟩
abbrev main_v126 : Ref sig .tc := ⟨.hbm, 679, rfl⟩
abbrev main_v127 : Ref sig .tc := ⟨.hbm, 680, rfl⟩
abbrev main_v128 : Ref sig .tc := ⟨.hbm, 681, rfl⟩
abbrev main_call25_c : Ref sig .tc := ⟨.hbm, 682, rfl⟩
abbrev main_call25_v0 : Ref sig .tc := ⟨.hbm, 683, rfl⟩
abbrev main_call25_v1 : Ref sig .tc := ⟨.hbm, 684, rfl⟩
abbrev main_call25_c_0 : Ref sig .tc := ⟨.hbm, 685, rfl⟩
abbrev main_call25_v2 : Ref sig .tc := ⟨.hbm, 686, rfl⟩
abbrev main_call25_v3 : Ref sig .tc := ⟨.hbm, 687, rfl⟩
abbrev main_call25_v4 : Ref sig .tc := ⟨.hbm, 688, rfl⟩
abbrev main_call25_v5 : Ref sig .tc := ⟨.hbm, 689, rfl⟩
abbrev main_call25_c_1 : Ref sig .tc := ⟨.hbm, 690, rfl⟩
abbrev main_call25_c_2 : Ref sig .tc := ⟨.hbm, 691, rfl⟩
abbrev main_call25_v6 : Ref sig .tc := ⟨.hbm, 692, rfl⟩
abbrev main_call25_v7 : Ref sig .tc := ⟨.hbm, 693, rfl⟩
abbrev main_call25_v8 : Ref sig .tc := ⟨.hbm, 694, rfl⟩
abbrev main_call25_v9 : Ref sig .tc := ⟨.hbm, 695, rfl⟩
abbrev main_call25_v10 : Ref sig .tc := ⟨.hbm, 696, rfl⟩
abbrev main_call25_v11 : Ref sig .tc := ⟨.hbm, 697, rfl⟩
abbrev main_call25_c_3 : Ref sig .tc := ⟨.hbm, 698, rfl⟩
abbrev main_call25_v12 : Ref sig .tc := ⟨.hbm, 699, rfl⟩
abbrev main_call25_v13 : Ref sig .tc := ⟨.hbm, 700, rfl⟩
abbrev main_call25_v14 : Ref sig .tc := ⟨.hbm, 701, rfl⟩
abbrev main_call25_cst : Ref sig .tc := ⟨.hbm, 702, rfl⟩
abbrev main_call25_v15 : Ref sig .tc := ⟨.hbm, 703, rfl⟩
abbrev main_v129 : Ref sig .tc := ⟨.hbm, 704, rfl⟩
abbrev main_v130 : Ref sig .tc := ⟨.hbm, 705, rfl⟩
abbrev main_v131 : Ref sig .tc := ⟨.hbm, 706, rfl⟩
abbrev main_v132 : Ref sig .tc := ⟨.hbm, 707, rfl⟩
abbrev main_v133 : Ref sig .tc := ⟨.hbm, 708, rfl⟩

abbrev nD : Nat := 1
abbrev τ : Topo := Topo.v7x

variable {F : FTy → Type} [FloatOps F]

class Facts₀ : Prop where
  slices_S26x1000x128_S1x1000x128_0_0_0 : S26x1000x128.Slices ![0, 0, 0] S1x1000x128
  shapeCasts_S1x1000x128_S1000x128 : S1x1000x128.ShapeCasts S1000x128
  slices_S4096x26_S4096x1_0_0 : S4096x26.Slices ![0, 0] S4096x1
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x128_0 : S4096.BroadcastsInDim S4096x128 (![0] : Fin 1 → Fin S4096x128.rank)
  bcast_S_S4096x128 : S_.BroadcastsInDim S4096x128 (![] : Fin 0 → Fin S4096x128.rank)
  slices_S26x1000x128_S1x1000x128_1_0_0 : S26x1000x128.Slices ![1, 0, 0] S1x1000x128
  slices_S4096x26_S4096x1_0_1 : S4096x26.Slices ![0, 1] S4096x1
  slices_S26x1000x128_S1x1000x128_2_0_0 : S26x1000x128.Slices ![2, 0, 0] S1x1000x128
  slices_S4096x26_S4096x1_0_2 : S4096x26.Slices ![0, 2] S4096x1
  slices_S26x1000x128_S1x1000x128_3_0_0 : S26x1000x128.Slices ![3, 0, 0] S1x1000x128
  slices_S4096x26_S4096x1_0_3 : S4096x26.Slices ![0, 3] S4096x1
  slices_S26x1000x128_S1x1000x128_4_0_0 : S26x1000x128.Slices ![4, 0, 0] S1x1000x128
  slices_S4096x26_S4096x1_0_4 : S4096x26.Slices ![0, 4] S4096x1
  slices_S26x1000x128_S1x1000x128_5_0_0 : S26x1000x128.Slices ![5, 0, 0] S1x1000x128
  slices_S4096x26_S4096x1_0_5 : S4096x26.Slices ![0, 5] S4096x1
  slices_S26x1000x128_S1x1000x128_6_0_0 : S26x1000x128.Slices ![6, 0, 0] S1x1000x128
  slices_S4096x26_S4096x1_0_6 : S4096x26.Slices ![0, 6] S4096x1
  slices_S26x1000x128_S1x1000x128_7_0_0 : S26x1000x128.Slices ![7, 0, 0] S1x1000x128
  slices_S4096x26_S4096x1_0_7 : S4096x26.Slices ![0, 7] S4096x1
  slices_S26x1000x128_S1x1000x128_8_0_0 : S26x1000x128.Slices ![8, 0, 0] S1x1000x128
  slices_S4096x26_S4096x1_0_8 : S4096x26.Slices ![0, 8] S4096x1
  slices_S26x1000x128_S1x1000x128_9_0_0 : S26x1000x128.Slices ![9, 0, 0] S1x1000x128
  slices_S4096x26_S4096x1_0_9 : S4096x26.Slices ![0, 9] S4096x1
  slices_S26x1000x128_S1x1000x128_10_0_0 : S26x1000x128.Slices ![10, 0, 0] S1x1000x128
  slices_S4096x26_S4096x1_0_10 : S4096x26.Slices ![0, 10] S4096x1
  slices_S26x1000x128_S1x1000x128_11_0_0 : S26x1000x128.Slices ![11, 0, 0] S1x1000x128
  slices_S4096x26_S4096x1_0_11 : S4096x26.Slices ![0, 11] S4096x1
  slices_S26x1000x128_S1x1000x128_12_0_0 : S26x1000x128.Slices ![12, 0, 0] S1x1000x128
  slices_S4096x26_S4096x1_0_12 : S4096x26.Slices ![0, 12] S4096x1
  slices_S26x1000x128_S1x1000x128_13_0_0 : S26x1000x128.Slices ![13, 0, 0] S1x1000x128
  slices_S4096x26_S4096x1_0_13 : S4096x26.Slices ![0, 13] S4096x1
  slices_S26x1000x128_S1x1000x128_14_0_0 : S26x1000x128.Slices ![14, 0, 0] S1x1000x128
  slices_S4096x26_S4096x1_0_14 : S4096x26.Slices ![0, 14] S4096x1
  slices_S26x1000x128_S1x1000x128_15_0_0 : S26x1000x128.Slices ![15, 0, 0] S1x1000x128
  slices_S4096x26_S4096x1_0_15 : S4096x26.Slices ![0, 15] S4096x1
  slices_S26x1000x128_S1x1000x128_16_0_0 : S26x1000x128.Slices ![16, 0, 0] S1x1000x128
  slices_S4096x26_S4096x1_0_16 : S4096x26.Slices ![0, 16] S4096x1
  slices_S26x1000x128_S1x1000x128_17_0_0 : S26x1000x128.Slices ![17, 0, 0] S1x1000x128
  slices_S4096x26_S4096x1_0_17 : S4096x26.Slices ![0, 17] S4096x1
  slices_S26x1000x128_S1x1000x128_18_0_0 : S26x1000x128.Slices ![18, 0, 0] S1x1000x128
  slices_S4096x26_S4096x1_0_18 : S4096x26.Slices ![0, 18] S4096x1
  slices_S26x1000x128_S1x1000x128_19_0_0 : S26x1000x128.Slices ![19, 0, 0] S1x1000x128
  slices_S4096x26_S4096x1_0_19 : S4096x26.Slices ![0, 19] S4096x1
  slices_S26x1000x128_S1x1000x128_20_0_0 : S26x1000x128.Slices ![20, 0, 0] S1x1000x128
  slices_S4096x26_S4096x1_0_20 : S4096x26.Slices ![0, 20] S4096x1
  slices_S26x1000x128_S1x1000x128_21_0_0 : S26x1000x128.Slices ![21, 0, 0] S1x1000x128
  slices_S4096x26_S4096x1_0_21 : S4096x26.Slices ![0, 21] S4096x1
  slices_S26x1000x128_S1x1000x128_22_0_0 : S26x1000x128.Slices ![22, 0, 0] S1x1000x128
  slices_S4096x26_S4096x1_0_22 : S4096x26.Slices ![0, 22] S4096x1
  slices_S26x1000x128_S1x1000x128_23_0_0 : S26x1000x128.Slices ![23, 0, 0] S1x1000x128
  slices_S4096x26_S4096x1_0_23 : S4096x26.Slices ![0, 23] S4096x1
  slices_S26x1000x128_S1x1000x128_24_0_0 : S26x1000x128.Slices ![24, 0, 0] S1x1000x128
  slices_S4096x26_S4096x1_0_24 : S4096x26.Slices ![0, 24] S4096x1
  slices_S26x1000x128_S1x1000x128_25_0_0 : S26x1000x128.Slices ![25, 0, 0] S1x1000x128
  slices_S4096x26_S4096x1_0_25 : S4096x26.Slices ![0, 25] S4096x1
  concatenates_S4096x128_S4096x128_S4096x128_S4096x128_S4096x128_S4096x128_S4096x128_S4096x128_S4096x128_S4096x128_S4096x128_S4096x128_S4096x128_S4096x128_S4096x128_S4096x128_S4096x2048_d1 : Shape.Concatenates [S4096x128, S4096x128, S4096x128, S4096x128, S4096x128, S4096x128, S4096x128, S4096x128, S4096x128, S4096x128, S4096x128, S4096x128, S4096x128, S4096x128, S4096x128, S4096x128] S4096x2048 1
  concatenates_S4096x128_S4096x128_S4096x128_S4096x128_S4096x128_S4096x128_S4096x128_S4096x128_S4096x128_S4096x128_S4096x1280_d1 : Shape.Concatenates [S4096x128, S4096x128, S4096x128, S4096x128, S4096x128, S4096x128, S4096x128, S4096x128, S4096x128, S4096x128] S4096x1280 1
  concatenates_S4096x2048_S4096x1280_S4096x3328_d1 : Shape.Concatenates [S4096x2048, S4096x1280] S4096x3328 1
  concatenates_S4096x3328_S4096x13_S4096x3341_d1 : Shape.Concatenates [S4096x3328, S4096x13] S4096x3341 1
  gather_S1000x128_S4096x1_S4096x128_1_0_n_n_0_1_1128_wf : GatherDims.WF S1000x128 S4096x1 S4096x128 [1] [0] [] [0] [] 1 ![1, 128]

variable [Facts₀]

def gather_S1000x128_S4096x1_S4096x128_1_0_n_n_0_1_1128 : GatherDims S1000x128 S4096x1 S4096x128 where
  offsetDims := [1]
  collapsedSliceDims := [0]
  operandBatchingDims := []
  startIndicesBatchingDims := []
  startIndexMap := [0]
  indexVectorDim := 1
  sliceSizes := ![1, 128]
  wf := gather_S1000x128_S4096x1_S4096x128_1_0_n_n_0_1_1128_wf

class Facts : Prop extends Facts₀ where

variable [Facts]
-- ==== Proof.Spec.lean ====
/-
  The function both programs compute, as ONE whole-array function of the three argument arrays.

  Row `b` of the result is the concatenation of 26 embedding rows and the 13 numeric features of row `b`:
  for a column `j < 3328 = 26 · 128`, with field `f = j / 128` and lane `e = j % 128`, the entry is
  `tables[f, x_cat[b, f], e]`; for `3328 ≤ j < 3341` it is `x_num[b, j - 3328]`.
  The categorical index is read modulo 1000 so that the function is total; where every index lies in `[0, 999]`
  (the precondition) the reduction changes nothing.
-/
import Idealize.ShloMosaic.Lib.ValueIdx

namespace Cert.Spec

open Idealize.ShloMosaic Idealize.ShloMosaic.ValueIdx

abbrev SCat : Shape := ⟨2, ![4096, 26]⟩
abbrev SNum : Shape := ⟨2, ![4096, 13]⟩
abbrev STab : Shape := ⟨3, ![26, 1000, 128]⟩
abbrev SOut : Shape := ⟨2, ![4096, 3341]⟩

/-- Every categorical index lies in `[0, 999]` (as an unsigned word; a signed word in `[0, 999]` is the same thing). -/
def InRange (xc : SCat.Idx → BitVec 32) : Prop := ∀ i, (xc i).toNat ≤ 999

/-- The field of an embedding column. -/
def fieldOf (j : SOut.Idx) (h : (j 1).val < 3328) : Fin 26 := ⟨(j 1).val / 128, by omega⟩

/-- The result: 26 gathered embedding rows side by side, then the numeric features. -/
def out {α : Type} (xc : SCat.Idx → BitVec 32) (xn : SNum.Idx → α) (tb : STab.Idx → α) : SOut.Idx → α :=
  fun j =>
    if h : (j 1).val < 3328 then
      tb (ix3 (fieldOf j h)
        (⟨(xc (ix2 (⟨(j 0).val, idx2_lt0 j⟩ : Fin 4096) (fieldOf j h))).toNat % 1000, Nat.mod_lt _ (by norm_num)⟩ : Fin 1000)
        (⟨(j 1).val % 128, Nat.mod_lt _ (by norm_num)⟩ : Fin 128))
    else
      xn (ix2 (⟨(j 0).val, idx2_lt0 j⟩ : Fin 4096) (⟨(j 1).val - 3328, by have := idx2_lt1 j; omega⟩ : Fin 13))

end Cert.Spec
-- ==== Proof.SetupI.lean ====
import proofs.«201888_g37099927503118_cont_8to1_b_213_13_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«201888_g37099927503118_cont_8to1_b_213_13_alg».proof.Proof.Gen.KernelIdeal
import proofs.«201888_g37099927503118_cont_8to1_b_213_13_alg».proof.Proof.Gen.KernelIdeal.Skeleton
import proofs.«201888_g37099927503118_cont_8to1_b_213_13_alg».proof.Proof.Spec

noncomputable section

namespace Cert.Proof.KernelIdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

local notation "xtV" => (Memref.whole Cert.KernelIdeal.main_v0_scv : Memref Cert.KernelIdeal.sig Kind.scVector Space.hbm Cert.KernelIdeal.S26x4096 EltTy.i32)
local notation "xnV" => (Memref.whole Cert.KernelIdeal.main_arg1_scv : Memref Cert.KernelIdeal.sig Kind.scVector Space.hbm Cert.KernelIdeal.S4096x13 EltTy.f32)
local notation "tbV" => (Memref.whole Cert.KernelIdeal.main_v1_scv : Memref Cert.KernelIdeal.sig Kind.scVector Space.hbm Cert.KernelIdeal.S26000x128 EltTy.f32)
local notation "oV" => (Memref.whole Cert.KernelIdeal.main_v2_scv : Memref Cert.KernelIdeal.sig Kind.scVector Space.hbm Cert.KernelIdeal.S4096x3341 EltTy.f32)
local notation "s0V" => (Memref.whole Cert.KernelIdeal.cc0_scratch0 : Memref Cert.KernelIdeal.sig Kind.scVector Space.vmem Cert.KernelIdeal.S26x128 EltTy.i32)
local notation "s1V" => (Memref.whole Cert.KernelIdeal.cc0_scratch1 : Memref Cert.KernelIdeal.sig Kind.scVector Space.vmem Cert.KernelIdeal.S5x128x128 EltTy.f32)
local notation "s2V" => (Memref.whole Cert.KernelIdeal.cc0_scratch2 : Memref Cert.KernelIdeal.sig Kind.scVector Space.vmem Cert.KernelIdeal.S128x13 EltTy.f32)

abbrev cV (L : grid0.Coords) : Fin τ.nSC := (L 0).castLE hcore0
abbrev jV (L : grid0.Coords) : Fin τ.nSub := (L 1).castLE hsub0

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The launch memory, the arrays, and what they hold when the kernel starts and ends -/

variable (m : (ℓ : Loc nD τ sig) → Buf (Elt F) ℓ) (ρ : Dev nD → PrngReg)

/-- The three arguments, the transposed indices, the flattened table and the result, as locations of device `d`. -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev xtLoc (d : Dev nD) : Loc nD τ sig := (SparseCore.T d).loc main_v0
abbrev tbLoc (d : Dev nD) : Loc nD τ sig := (SparseCore.T d).loc main_v1
abbrev oLoc (d : Dev nD) : Loc nD τ sig := (SparseCore.T d).loc main_v2

/-- The categorical indices transposed: entry `(f, b)` is `x_cat[b, f]`. -/
def xt0 (d : Dev nD) : Buf (Elt F) (xtLoc d) := transpose S26x4096 [1, 0] (m (a0Loc d)) transposes_S4096x26_S26x4096_1_0
/-- The 26 tables stacked into one of 26000 rows: row `1000 f + v` is row `v` of table `f`. -/
def tb0 (d : Dev nD) : Buf (Elt F) (tbLoc d) := shapeCast S26000x128 (m (a2Loc d)) shapeCasts_S26x1000x128_S26000x128
/-- The result both programs compute, of the launch memory's arguments. -/
def outG (d : Dev nD) : Buf (Elt F) (oLoc d) := Cert.Spec.out (m (a0Loc d)) (m (a1Loc d)) (m (a2Loc d))

/-- What the proof asks of the launch memory: every categorical index lies in `[0, 999]`. -/
def PreOK : Prop := ∀ d : Dev nD, Cert.Spec.InRange (m (a0Loc d))

/-! ## Read shares and row blocks: what each SparseCore and each tile is handed -/

/-- SparseCore `c`'s read share of an array every tile reads, and tile `i`'s share of that. -/
abbrev qC (c : Fin 2) : PosShare TreeShare := Transfers.shareTok fullShare 2 c
abbrev qT (c : Fin 2) (i : Fin 16) : PosShare TreeShare := Transfers.shareTok (qC c) 16 i

theorem oRows_inb (c : Fin 2) (i : Fin 16) : ∀ a, (![256 * i.val + 128 * c.val, 0] : Fin 2 → Nat) a + (![128, 3341] : Fin 2 → Nat) a ≤ S4096x3341.size a := by
  have h0 : c.val < 2 := c.isLt
  have h1 : i.val < 16 := i.isLt
  intro a; fin_cases a <;> simp <;> omega
/-- The 128 rows of the result that tile `i` of SparseCore `c` writes: rows `128 (2 i + c)` onwards, every column. -/
abbrev oRows (c : Fin 2) (i : Fin 16) : Rect S4096x3341 := Rect.unit (s := S4096x3341) ![256 * i.val + 128 * c.val, 0] ![128, 3341] (oRows_inb c i)
abbrev oRowSet (c : Fin 2) (i : Fin 16) : Finset S4096x3341.Idx := (oV).view.setOn (oRows c i).set

variable [FloatOps F]

abbrev xtPts (d : Dev nD) (q : PosShare TreeShare) : sProp 𝕄 := xtLoc d ↦{q} xt0 m d
abbrev xnPts (d : Dev nD) (q : PosShare TreeShare) : sProp 𝕄 := a1Loc d ↦{q} m (a1Loc d)
abbrev tbPts (d : Dev nD) (q : PosShare TreeShare) : sProp 𝕄 := tbLoc d ↦{q} tb0 m d
abbrev oRowPts (d : Dev nD) (c : Fin 2) (i : Fin 16) (f : Buf (Elt F) (oLoc d)) : sProp 𝕄 := oLoc d ↦[oRowSet c i]{fullShare} f

theorem nCore_zero : (K (F := F)).nCore 0 = 2 := rfl

/-- What the call hands SparseCore `c` and takes back (its read shares; its 16 row blocks of the result, at the launch
    contents going in and at the result coming back), and what each tile is handed and hands back. -/
def P : (K (F := F)).Pay (nD := nD) (Val := Elt F) (Name := ℕ) (U := UU) where
  st := fun q d c => match q with
    | 0 => iprop(xtPts m d (qC (Fin.cast nCore_zero c)) ∗ xnPts m d (qC (Fin.cast nCore_zero c)) ∗ tbPts m d (qC (Fin.cast nCore_zero c))
        ∗ bigSep Finset.univ fun i : Fin 16 => oRowPts d (Fin.cast nCore_zero c) i (m (oLoc d)))
  dn := fun q d c => match q with
    | 0 => iprop(xtPts m d (qC (Fin.cast nCore_zero c)) ∗ xnPts m d (qC (Fin.cast nCore_zero c)) ∗ tbPts m d (qC (Fin.cast nCore_zero c))
        ∗ bigSep Finset.univ fun i : Fin 16 => oRowPts d (Fin.cast nCore_zero c) i (outG m d))
  go := fun q d c i => match q with
    | 0 => iprop(xtPts m d (qT (Fin.cast nCore_zero c) (Fin.cast nSub_zero i)) ∗ xnPts m d (qT (Fin.cast nCore_zero c) (Fin.cast nSub_zero i))
        ∗ tbPts m d (qT (Fin.cast nCore_zero c) (Fin.cast nSub_zero i)) ∗ oRowPts d (Fin.cast nCore_zero c) (Fin.cast nSub_zero i) (m (oLoc d)))
  td := fun q d c i => match q with
    | 0 => iprop(xtPts m d (qT (Fin.cast nCore_zero c) (Fin.cast nSub_zero i)) ∗ xnPts m d (qT (Fin.cast nCore_zero c) (Fin.cast nSub_zero i))
        ∗ tbPts m d (qT (Fin.cast nCore_zero c) (Fin.cast nSub_zero i)) ∗ oRowPts d (Fin.cast nCore_zero c) (Fin.cast nSub_zero i) (outG m d))
  x := fun _ _ => iprop(emp)

end Cert.Proof.KernelIdealSide
end
-- ==== Proof.PreRange.lean ====
/-
  Three pure facts about the arguments, none of them about a program run.

  (1) The precondition says, beside the finiteness of the float arguments, that every categorical index x
      satisfies 0 ≤ x and x ≤ 999 as SIGNED 32-bit words, as one `and`-reduction over all axes of the pointwise
      conjunction. Read back at an index: the reduction being 1 makes every element 1, the conjunction splits,
      and a word whose signed value lies in [0, 999] has that same value unsigned.
  (2) A [4096, 26] array transposed by the permutation [1, 0], read at (f, b), is the array at (b, f).
  (3) A [26, 1000, 128] array reshaped to [26000, 128], read at (r, e), is the array at (r / 1000, r % 1000, e):
      both indices have row-major position r · 128 + e.
-/
import Idealize.ShloMosaic.Lib.ReduceAll
import Idealize.ShloMosaic.Lib.ValueIdx
import Idealize.ShloMosaic.Lib.Pipeline.Value
import proofs.«201888_g37099927503118_cont_8to1_b_213_13_alg».proof.Proof.Spec
import proofs.«201888_g37099927503118_cont_8to1_b_213_13_alg».proof.Pre_input_domain
import proofs.«201888_g37099927503118_cont_8to1_b_213_13_alg».proof.Proof.Gen.Pre_input_domain

namespace Cert.PreSide

open Idealize.ShloMosaic Idealize.ShloMosaic.ValueIdx

/-- The scalar shape has one index. -/
instance subsingleton_scalar_idx : Subsingleton Cert.Pre_input_domain.S_.Idx := ⟨fun a b => funext fun d => d.elim0⟩

/-- A 32-bit word whose signed value lies in [0, 999] is at most 999 unsigned. -/
theorem toNat_le_of_signed (w : BitVec 32) (h0 : IntOp.cmpi .sge w 0#32 = 1#1) (h1 : IntOp.cmpi .sle w 999#32 = 1#1) :
    w.toNat ≤ 999 := by
  rw [IntOp.cmpi_sge] at h0
  rw [IntOp.cmpi_sle] at h1
  have e0 : (0#32 : BitVec 32).toInt = 0 := by decide
  have e1 : (999#32 : BitVec 32).toInt = 999 := by decide
  rw [e0] at h0
  rw [e1] at h1
  have hw := w.isLt
  rw [BitVec.toInt_eq_toNat_cond] at h0 h1
  split at h0 <;> omega

/-- (1) Under the precondition every categorical index lies in [0, 999]. -/
theorem inRange_of_pre {F : FTy → Type} [FloatOps F] [Cert.Pre_input_domain.Facts]
    (a0 : IVec Cert.Pre_input_domain.S4096x26 32) (a1 : FVec F Cert.Pre_input_domain.S4096x13 .f32)
    (a2 : FVec F Cert.Pre_input_domain.S26x1000x128 .f32)
    (h : Cert.Pre_input_domain.fn (F := F) a0 a1 a2 = fun _ => 1#1) : Cert.Spec.InRange a0 := by
  intro i
  have e := congrFun h ValueIdx.ix0
  dsimp only [Cert.Pre_input_domain.fn] at e
  -- the last conjunct is the reduction over the categorical indices
  have e2 := (IntOp.andi_eq_one.1 e).2
  -- every element of the reduced array is 1, the one at i among them
  have e3 := Host.reduce_andi_all _ _ _ _ _ e2 i
  obtain ⟨h0, h1⟩ := IntOp.andi_eq_one.1 e3
  exact toNat_le_of_signed _ h0 h1

/-- (2) The transpose by [1, 0] of a [4096, 26] array at (f, b) is the array at (b, f). -/
theorem transpose_read {α : Type} (h : (⟨2, ![4096, 26]⟩ : Shape).Transposes [1, 0] ⟨2, ![26, 4096]⟩)
    (x : (⟨2, ![4096, 26]⟩ : Shape).Idx → α) (f : Fin 26) (b : Fin 4096) :
    transpose ⟨2, ![26, 4096]⟩ [1, 0] x h (ix2 f b) = x (ix2 b f) := by
  refine transpose_apply [1, 0] x h (ix2 f b) (ix2 b f) fun c => ?_
  fin_cases c <;> rfl

/-- (3) The reshape of a [26, 1000, 128] array to [26000, 128] at (r, e) is the array at (r / 1000, r % 1000, e). -/
theorem reshape_read {α : Type} (h : (⟨3, ![26, 1000, 128]⟩ : Shape).ShapeCasts ⟨2, ![26000, 128]⟩)
    (y : (⟨3, ![26, 1000, 128]⟩ : Shape).Idx → α) (r : Fin 26000) (e : Fin 128) :
    shapeCast ⟨2, ![26000, 128]⟩ y h (ix2 r e)
      = y (ix3 (⟨r.val / 1000, by have := r.isLt; omega⟩ : Fin 26) (⟨r.val % 1000, Nat.mod_lt _ (by norm_num)⟩ : Fin 1000) e) := by
  refine shapeCast_apply y h _ _ ?_
  rw [Shape.rowMajor_val_three, Shape.rowMajor_val_two]
  show (r.val / 1000 * 1000 + r.val % 1000) * 128 + e.val = r.val * 128 + e.val
  rw [Nat.div_add_mod' r.val 1000]

end Cert.PreSide
-- ==== Proof.LaunchI.lean ====
/-
  The launch of the kernel: how the call's operands split among the two SparseCores and their sixteen tiles each, what
  the TensorCore's program does around the call, and the run of the whole thread family from a tile's obligation.

  The result array is cut into 32 blocks of 128 rows: block 2 i + c goes to tile i of SparseCore c. The blocks are
  pairwise disjoint (they are separated on the row axis) and cover the array (row r lies in block r / 128). The three
  arrays every tile reads (the transposed indices, the numeric features, the flattened tables) go out as read shares:
  one per SparseCore, each cut again into one per tile; what remains of a share after cutting stays with the cutter
  and rejoins the tokens when they come back.
-/
import proofs.«201888_g37099927503118_cont_8to1_b_213_13_alg».proof.Proof.SetupI
import proofs.«201888_g37099927503118_cont_8to1_b_213_13_alg».proof.Proof.PreRange

noncomputable section

namespace Cert.Proof.KernelIdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
local notation "oV" => (Memref.whole Cert.KernelIdeal.main_v2_scv : Memref Cert.KernelIdeal.sig Kind.scVector Space.hbm Cert.KernelIdeal.S4096x3341 EltTy.f32)

variable (m : (ℓ : Loc nD τ sig) → Buf (Elt F) ℓ) (ρ : Dev nD → PrngReg)

/-! ## The 32 row blocks of the result -/

/-- A tile's block as a set of indices of the array: the rectangle's own set. -/
theorem oRowSet_eq (c : Fin 2) (i : Fin 16) : oRowSet c i = (oRows c i).set := Finset.map_refl

/-- Two different (SparseCore, tile) pairs have different block numbers 2 i + c, so their blocks are separated on the
    row axis. -/
theorem oRows_disjoint : ∀ p ∈ (Finset.univ : Finset (Fin 2 × Fin 16)), ∀ p' ∈ (Finset.univ : Finset (Fin 2 × Fin 16)),
    p ≠ p' → Disjoint (oRowSet p.1 p.2) (oRowSet p'.1 p'.2) := by
  intro p _ p' _ h
  rw [oRowSet_eq, oRowSet_eq]
  have h1 := p.1.isLt
  have h2 := p'.1.isLt
  have hne : 2 * p.2.val + p.1.val ≠ 2 * p'.2.val + p'.1.val := fun e =>
    h (Prod.ext (Fin.ext (by omega)) (Fin.ext (by omega)))
  refine Rect.unit_disjoint (0 : Fin 2) ?_
  show 256 * p.2.val + 128 * p.1.val + 128 ≤ 256 * p'.2.val + 128 * p'.1.val
    ∨ 256 * p'.2.val + 128 * p'.1.val + 128 ≤ 256 * p.2.val + 128 * p.1.val
  omega

/-- Row r of the array lies in block r / 128: tile r / 256 of SparseCore (r / 128) % 2. -/
theorem oRows_cover : (Finset.univ : Finset (Fin 2 × Fin 16)).biUnion (fun p => oRowSet p.1 p.2) = Finset.univ := by
  refine Finset.eq_univ_iff_forall.2 fun j => ?_
  have h0 : (j 0).val < 4096 := ValueIdx.idx2_lt0 j
  have h1 : (j 1).val < 3341 := ValueIdx.idx2_lt1 j
  rw [Finset.mem_biUnion]
  refine ⟨((⟨(j 0).val / 128 % 2, by omega⟩ : Fin 2), (⟨(j 0).val / 256, by omega⟩ : Fin 16)), Finset.mem_univ _, ?_⟩
  rw [oRowSet_eq, Rect.mem_set_unit]
  intro a
  match a with
  | ⟨0, _⟩ =>
    show 256 * ((j 0).val / 256) + 128 * ((j 0).val / 128 % 2) ≤ (j 0).val
      ∧ (j 0).val < 256 * ((j 0).val / 256) + 128 * ((j 0).val / 128 % 2) + 128
    omega
  | ⟨1, _⟩ =>
    show 0 ≤ (j 1).val ∧ (j 1).val < 0 + 3341
    omega

/-- The whole array is its 32 blocks, at any one contents. -/
theorem oPts_rows (d : Dev nD) (f : Buf (Elt F) (oLoc d)) :
    (oLoc d ↦{fullShare} f : sProp 𝕄)
      = bigSep Finset.univ fun c : Fin 2 => bigSep Finset.univ fun i : Fin 16 => oLoc d ↦[oRowSet c i]{fullShare} f := by
  rw [← BI.bigSep_univ_prod (fun p : Fin 2 × Fin 16 => (oLoc d ↦[oRowSet p.1 p.2]{fullShare} f : sProp 𝕄)),
    ← pointsTo_biUnion Finset.univ (ℓ := oLoc d) (fun p : Fin 2 × Fin 16 => oRowSet p.1 p.2) oRows_disjoint, oRows_cover]
  try rfl

/-! ## The read shares -/

/-- A whole array is what remains after two read tokens, and the two tokens (one per SparseCore). -/
theorem pts_cores {ℓ : Loc nD τ sig} (f : Buf (Elt F) ℓ) :
    (ℓ ↦{fullShare} f : sProp 𝕄) ⊣⊢ iprop((ℓ ↦{Transfers.shareDrop fullShare 2} f) ∗ (ℓ ↦{qC 0} f) ∗ ℓ ↦{qC 1} f) := by
  have h : (ℓ ↦{fullShare} f : sProp 𝕄)
      ⊣⊢ iprop((ℓ ↦{Transfers.shareDrop fullShare 2} f) ∗ BI.bigSep Finset.univ (fun i : Fin 2 => ℓ ↦{Transfers.shareTok fullShare 2 i} f)) :=
    Transfers.pointsTo_toks fullShare 2
  rw [bigSep_univ_two] at h
  exact h

/-- The tasks of the kernel are the sixteen tiles. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

variable [FloatOps F]

/-- The kernel runs on both SparseCores. -/
theorem bigSep_cores (Φ : Fin 2 → sProp 𝕄) :
    (bigSep Finset.univ fun c : Fin ((K (F := F)).nCore 0) => Φ (Fin.cast nCore_zero c)) = iprop(Φ 0 ∗ Φ 1) := by
  rw [show (bigSep Finset.univ fun c : Fin ((K (F := F)).nCore 0) => Φ (Fin.cast nCore_zero c)) = bigSep Finset.univ Φ from
    bigSep_congr fun _ _ => congrArg Φ (Fin.ext rfl), bigSep_univ_two]

/-! ## A SparseCore's operands among its tiles -/

theorem vecSplit : (K (F := F)).VecSplit' (P m) 0 := by
  intro d c
  show iprop(xtPts m d (qC (Fin.cast nCore_zero c)) ∗ xnPts m d (qC (Fin.cast nCore_zero c)) ∗ tbPts m d (qC (Fin.cast nCore_zero c))
        ∗ bigSep Finset.univ fun i : Fin 16 => oRowPts d (Fin.cast nCore_zero c) i (m (oLoc d)))
    ⊢ |={Set.univ}=> iprop(
      (bigSep Finset.univ fun i : Fin ((K (F := F)).nSub 0) =>
        iprop(xtPts m d (qT (Fin.cast nCore_zero c) (Fin.cast nSub_zero i)) ∗ xnPts m d (qT (Fin.cast nCore_zero c) (Fin.cast nSub_zero i))
          ∗ tbPts m d (qT (Fin.cast nCore_zero c) (Fin.cast nSub_zero i)) ∗ oRowPts d (Fin.cast nCore_zero c) (Fin.cast nSub_zero i) (m (oLoc d))))
      ∗ ((bigSep Finset.univ fun i : Fin ((K (F := F)).nSub 0) =>
          iprop(xtPts m d (qT (Fin.cast nCore_zero c) (Fin.cast nSub_zero i)) ∗ xnPts m d (qT (Fin.cast nCore_zero c) (Fin.cast nSub_zero i))
            ∗ tbPts m d (qT (Fin.cast nCore_zero c) (Fin.cast nSub_zero i)) ∗ oRowPts d (Fin.cast nCore_zero c) (Fin.cast nSub_zero i) (outG m d)))
          -∗ iprop(xtPts m d (qC (Fin.cast nCore_zero c)) ∗ xnPts m d (qC (Fin.cast nCore_zero c)) ∗ tbPts m d (qC (Fin.cast nCore_zero c))
            ∗ bigSep Finset.univ fun i : Fin 16 => oRowPts d (Fin.cast nCore_zero c) i (outG m d))))
  generalize Fin.cast nCore_zero c = c'
  rw [bigSep_tasks (F := F) (fun i => iprop(xtPts m d (qT c' i) ∗ xnPts m d (qT c' i) ∗ tbPts m d (qT c' i) ∗ oRowPts d c' i (m (oLoc d)))),
    bigSep_tasks (F := F) (fun i => iprop(xtPts m d (qT c' i) ∗ xnPts m d (qT c' i) ∗ tbPts m d (qT c' i) ∗ oRowPts d c' i (outG m d))),
    bigSep_sep', bigSep_sep', bigSep_sep', bigSep_sep', bigSep_sep', bigSep_sep']
  iintro ⟨Hxt, Hxn, Htb, Ho⟩
  ihave Hxt' := (Transfers.pointsTo_toks_split (qC c') 16) $$ Hxt
  icases Hxt' with ⟨Rxt, Txt⟩
  ihave Hxn' := (Transfers.pointsTo_toks_split (qC c') 16) $$ Hxn
  icases Hxn' with ⟨Rxn, Txn⟩
  ihave Htb' := (Transfers.pointsTo_toks_split (qC c') 16) $$ Htb
  icases Htb' with ⟨Rtb, Ttb⟩
  imodintro
  isplitl [Txt Txn Ttb Ho]
  · isplitl [Txt]; · iexact Txt
    isplitl [Txn]; · iexact Txn
    isplitl [Ttb]; · iexact Ttb
    iexact Ho
  iintro ⟨Txt, Txn, Ttb, Ho⟩
  isplitl [Rxt Txt]
  · iapply (Transfers.pointsTo_toks_join (qC c') 16)
    isplitl [Rxt]; · iexact Rxt
    iexact Txt
  isplitl [Rxn Txn]
  · iapply (Transfers.pointsTo_toks_join (qC c') 16)
    isplitl [Rxn]; · iexact Rxn
    iexact Txn
  isplitl [Rtb Ttb]
  · iapply (Transfers.pointsTo_toks_join (qC c') 16)
    isplitl [Rtb]; · iexact Rtb
    iexact Ttb
  iexact Ho

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The payloads travel inside the cells' invariants -/

instance P_storable : (P (F := F) m).IsStorable where
  st q d c := match q with
    | 0 => (inferInstance : BI.Storable (upEmb : UEmb _ 𝕄)
      iprop(xtPts m d (qC (Fin.cast nCore_zero c)) ∗ xnPts m d (qC (Fin.cast nCore_zero c)) ∗ tbPts m d (qC (Fin.cast nCore_zero c))
        ∗ bigSep Finset.univ fun i : Fin 16 => oRowPts d (Fin.cast nCore_zero c) i (m (oLoc d))))
  dn q d c := match q with
    | 0 => (inferInstance : BI.Storable (upEmb : UEmb _ 𝕄)
      iprop(xtPts m d (qC (Fin.cast nCore_zero c)) ∗ xnPts m d (qC (Fin.cast nCore_zero c)) ∗ tbPts m d (qC (Fin.cast nCore_zero c))
        ∗ bigSep Finset.univ fun i : Fin 16 => oRowPts d (Fin.cast nCore_zero c) i (outG m d)))
  go q d c i := match q with
    | 0 => (inferInstance : BI.Storable (upEmb : UEmb _ 𝕄)
      iprop(xtPts m d (qT (Fin.cast nCore_zero c) (Fin.cast nSub_zero i)) ∗ xnPts m d (qT (Fin.cast nCore_zero c) (Fin.cast nSub_zero i))
        ∗ tbPts m d (qT (Fin.cast nCore_zero c) (Fin.cast nSub_zero i)) ∗ oRowPts d (Fin.cast nCore_zero c) (Fin.cast nSub_zero i) (m (oLoc d))))
  td q d c i := match q with
    | 0 => (inferInstance : BI.Storable (upEmb : UEmb _ 𝕄)
      iprop(xtPts m d (qT (Fin.cast nCore_zero c) (Fin.cast nSub_zero i)) ∗ xnPts m d (qT (Fin.cast nCore_zero c) (Fin.cast nSub_zero i))
        ∗ tbPts m d (qT (Fin.cast nCore_zero c) (Fin.cast nSub_zero i)) ∗ oRowPts d (Fin.cast nCore_zero c) (Fin.cast nSub_zero i) (outG m d)))

/-! ## The TensorCore's program: the transpose, the reshape, the call -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev xt' : DevRef τ sig := Proc.devRef .tc (main_v0 : Ref sig .tc)
abbrev tb' : DevRef τ sig := Proc.devRef .tc (main_v1 : Ref sig .tc)
abbrev o' : DevRef τ sig := Proc.devRef .tc (main_v2 : Ref sig .tc)

/-- The TensorCore's arrays, all unscoped. -/
abbrev S6 : Finset (DevRef τ sig) := {a0', a1', a2', xt', tb', o'}

/-- The two host operations before the call. -/
abbrev opT : HloOp τ sig (Elt F) :=
  StableHlo.unary main_arg0 main_v0 ((transpose S26x4096 [1, 0] · transposes_S4096x26_S26x4096_1_0) : (⟨S4096x26, .i32⟩ : BufTy).Contents (Elt F) → (⟨S26x4096, .i32⟩ : BufTy).Contents (Elt F))
abbrev opR : HloOp τ sig (Elt F) := StableHlo.reshape main_arg2 main_v1 rfl shapeCasts_S26x1000x128_S26000x128

omit [FloatOps F] in
theorem held_S6 (d : Dev nD) (W : Valuation τ sig (Elt F)) :
    (held (T d) S6 W : sProp 𝕄) = iprop((a0Loc d ↦{fullShare} W a0') ∗ (a1Loc d ↦{fullShare} W a1') ∗ (a2Loc d ↦{fullShare} W a2')
      ∗ (xtLoc d ↦{fullShare} W xt') ∗ (tbLoc d ↦{fullShare} W tb') ∗ oLoc d ↦{fullShare} W o') := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2)
      ∗ (xtLoc d ↦{fullShare} W main_v0) ∗ (tbLoc d ↦{fullShare} W main_v1) ∗ oLoc d ↦{fullShare} W main_v2) := by
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]

/-- The launch valuation, and the valuations after the transpose and after the reshape. -/
def V0 (d : Dev nD) : Valuation τ sig (Elt F) := fun b => m (d, b)
abbrev V1 (d : Dev nD) : Valuation τ sig (Elt F) := (opT (F := F)).result (V0 m d)
abbrev V2 (d : Dev nD) : Valuation τ sig (Elt F) := (opR (F := F)).result (V1 m d)

theorem unscoped_held (d : Dev nD) : (unscopedBufs d (fun b => m ((SparseCore.T d).loc b)) : sProp 𝕄) = held (T d) S6 (V0 m d) := by
  rw [unscopedBufs_eq, held_S6]; rfl

theorem V2_a0 (d : Dev nD) : V2 m d a0' = m (a0Loc d) := by
  show (opR (F := F)).result ((opT (F := F)).result (V0 m d)) (Proc.devRef .tc main_arg0) = _
  rw [StableHlo.reshape_result_ne (x := main_arg2) (y := main_v1) (r := main_arg0) _ _ _ _ _ (by decide),
    StableHlo.unary_result_ne (x := main_arg0) (y := main_v0) (r := main_arg0) _ _ _ _ (by decide)]
  rfl
theorem V2_a1 (d : Dev nD) : V2 m d a1' = m (a1Loc d) := by
  show (opR (F := F)).result ((opT (F := F)).result (V0 m d)) (Proc.devRef .tc main_arg1) = _
  rw [StableHlo.reshape_result_ne (x := main_arg2) (y := main_v1) (r := main_arg1) _ _ _ _ _ (by decide),
    StableHlo.unary_result_ne (x := main_arg0) (y := main_v0) (r := main_arg1) _ _ _ _ (by decide)]
  rfl
theorem V2_a2 (d : Dev nD) : V2 m d a2' = m (a2Loc d) := by
  show (opR (F := F)).result ((opT (F := F)).result (V0 m d)) (Proc.devRef .tc main_arg2) = _
  rw [StableHlo.reshape_result_ne (x := main_arg2) (y := main_v1) (r := main_arg2) _ _ _ _ _ (by decide),
    StableHlo.unary_result_ne (x := main_arg0) (y := main_v0) (r := main_arg2) _ _ _ _ (by decide)]
  rfl
theorem V2_o (d : Dev nD) : V2 m d o' = m (oLoc d) := by
  show (opR (F := F)).result ((opT (F := F)).result (V0 m d)) (Proc.devRef .tc main_v2) = _
  rw [StableHlo.reshape_result_ne (x := main_arg2) (y := main_v1) (r := main_v2) _ _ _ _ _ (by decide),
    StableHlo.unary_result_ne (x := main_arg0) (y := main_v0) (r := main_v2) _ _ _ _ (by decide)]
  rfl
/-- After the transpose the second array holds the transposed indices, -/
theorem V2_xt (d : Dev nD) : V2 m d xt' = xt0 m d := by
  show (opR (F := F)).result ((opT (F := F)).result (V0 m d)) (Proc.devRef .tc main_v0) = _
  rw [StableHlo.reshape_result_ne (x := main_arg2) (y := main_v1) (r := main_v0) _ _ _ _ _ (by decide), StableHlo.unary_result]
  rfl
/-- and after the reshape the third holds the flattened tables. -/
theorem V2_tb (d : Dev nD) : V2 m d tb' = tb0 m d := by
  show (opR (F := F)).result ((opT (F := F)).result (V0 m d)) (Proc.devRef .tc main_v1) = _
  rw [StableHlo.reshape_result, StableHlo.unary_result_ne (x := main_arg0) (y := main_v0) (r := main_arg2) _ _ _ _ (by decide)]
  rfl

theorem held_V2 (d : Dev nD) :
    (held (T d) S6 (V2 m d) : sProp 𝕄) = iprop((a0Loc d ↦{fullShare} m (a0Loc d)) ∗ (a1Loc d ↦{fullShare} m (a1Loc d)) ∗ (a2Loc d ↦{fullShare} m (a2Loc d))
      ∗ (xtLoc d ↦{fullShare} xt0 m d) ∗ (tbLoc d ↦{fullShare} tb0 m d) ∗ oLoc d ↦{fullShare} m (oLoc d)) := by
  rw [held_S6, V2_a0, V2_a1, V2_a2, V2_xt, V2_tb, V2_o]

theorem hOpT : (opT (F := F)).bufs ⊆ S6 := show ({a0', xt'} : Finset (DevRef τ sig)) ⊆ S6 by decide
theorem hOpR : (opR (F := F)).bufs ⊆ S6 := show ({a2', tb'} : Finset (DevRef τ sig)) ⊆ S6 by decide

/-- What the call takes for the two SparseCores, and what it hands back. -/
abbrev stC (d : Dev nD) (f : Buf (Elt F) (oLoc d)) (c : Fin 2) : sProp 𝕄 :=
  iprop(xtPts m d (qC c) ∗ xnPts m d (qC c) ∗ tbPts m d (qC c) ∗ bigSep Finset.univ fun i : Fin 16 => oRowPts d c i f)

theorem st0_eq (d : Dev nD) :
    (bigSep Finset.univ fun c : Fin ((K (F := F)).nCore 0) => (P m).st 0 d c) = iprop(stC m d (m (oLoc d)) 0 ∗ stC m d (m (oLoc d)) 1) :=
  bigSep_cores (F := F) (fun c => stC m d (m (oLoc d)) c)
theorem dn0_eq (d : Dev nD) :
    (bigSep Finset.univ fun c : Fin ((K (F := F)).nCore 0) => (P m).dn 0 d c) = iprop(stC m d (outG m d) 0 ∗ stC m d (outG m d) 1) :=
  bigSep_cores (F := F) (fun c => stC m d (outG m d) c)

omit [FloatOps F] in
/-- The whole result array is SparseCore 0's sixteen blocks and SparseCore 1's. -/
theorem oPts_cores (d : Dev nD) (f : Buf (Elt F) (oLoc d)) :
    (oLoc d ↦{fullShare} f : sProp 𝕄)
      = iprop((bigSep Finset.univ fun i : Fin 16 => oRowPts d 0 i f) ∗ bigSep Finset.univ fun i : Fin 16 => oRowPts d 1 i f) := by
  rw [oPts_rows, bigSep_univ_two]

/-- What @main leaves the claim: the three arguments at their launch contents, the result at the specification's. -/
abbrev FIN (d : Dev nD) : sProp 𝕄 :=
  iprop((a0Loc d ↦{fullShare} m (a0Loc d)) ∗ (a1Loc d ↦{fullShare} m (a1Loc d)) ∗ (a2Loc d ↦{fullShare} m (a2Loc d)) ∗ oLoc d ↦{fullShare} outG m d)

/-- @main on device `d`'s TensorCore: the transpose and the reshape over the six arrays, the read shares cut in two and the
    result in its 32 blocks, the call, and everything joined back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the transpose
  iapply (wp_hlo_within 𝒱 (SparseCore.T d) none Set.univ (op := opT) (S := S6) hOpT (V := V0 m d)) $$ [Hb Hheld]
  · isplitl [Hb]; · iexact Hb
    iexact Hheld
  iintro ⟨Hb, Hheld⟩
  rw [wp_ret]; imodintro
  -- the reshape
  iapply (wp_hlo_within 𝒱 (SparseCore.T d) none Set.univ (op := opR) (S := S6) hOpR (V := V1 m d)) $$ [Hb Hheld]
  · isplitl [Hb]; · iexact Hb
    iexact Hheld
  iintro ⟨Hb, Hheld⟩
  rw [wp_ret]; imodintro
  ihave Hh := (Entails.of_eq (held_V2 (F := F) m d)) $$ Hheld
  icases Hh with ⟨Ha0, Ha1, Ha2, Hxt, Htb, Ho⟩
  -- the read shares, one token per SparseCore; the result in blocks
  ihave Hxt' := (pts_cores (xt0 m d)).1 $$ Hxt
  icases Hxt' with ⟨Rxt, Xt0, Xt1⟩
  ihave Hxn' := (pts_cores (m (a1Loc d))).1 $$ Ha1
  icases Hxn' with ⟨Rxn, Xn0, Xn1⟩
  ihave Htb' := (pts_cores (tb0 m d)).1 $$ Htb
  icases Htb' with ⟨Rtb, Tb0, Tb1⟩
  ihave Ho' := (Entails.of_eq (oPts_cores (F := F) d (m (oLoc d)))) $$ Ho
  icases Ho' with ⟨O0, O1⟩
  -- the call
  iapply ((K (F := F)).wp_run (D (F := F)) 𝒱 (EH := EH) (P := P m) κ d 0) $$ [Hst Ha0 Ha2 Rxt Xt0 Xt1 Rxn Xn0 Xn1 Rtb Tb0 Tb1 O0 O1]
  isplitr; · iexact Hctx
  isplitl [Hst]; · iexact Hst
  isplitl [Xt0 Xt1 Xn0 Xn1 Tb0 Tb1 O0 O1]
  · rw [st0_eq]
    isplitl [Xt0 Xn0 Tb0 O0]
    · isplitl [Xt0]; · iexact Xt0
      isplitl [Xn0]; · iexact Xn0
      isplitl [Tb0]; · iexact Tb0
      iexact O0
    · isplitl [Xt1]; · iexact Xt1
      isplitl [Xn1]; · iexact Xn1
      isplitl [Tb1]; · iexact Tb1
      iexact O1
  iintro ⟨Hst, Hdn⟩
  ihave Hdn' := (Entails.of_eq (dn0_eq m d)) $$ Hdn
  icases Hdn' with ⟨⟨Xt0, Xn0, Tb0, O0⟩, ⟨Xt1, Xn1, Tb1, O1⟩⟩
  imodintro
  isplitl [Hst]; · iexact Hst
  isplitl [Ha0]; · iexact Ha0
  isplitl [Rxn Xn0 Xn1]
  · iapply (pts_cores (m (a1Loc d))).2
    isplitl [Rxn]; · iexact Rxn
    isplitl [Xn0]; · iexact Xn0
    iexact Xn1
  isplitl [Ha2]; · iexact Ha2
  iapply (Entails.of_eq (oPts_cores (F := F) d (outG m d)).symm)
  isplitl [O0]; · iexact O0
  iexact O1

/-! ## The final memory -/

def fq (d : Dev nD) (s' : Phys nD τ sig (Elt F)) : Prop :=
  s'.mem.mem (oLoc d) = outG m d ∧ s'.mem.mem (a0Loc d) = m (a0Loc d) ∧ s'.mem.mem (a1Loc d) = m (a1Loc d) ∧ s'.mem.mem (a2Loc d) = m (a2Loc d)

set_option maxRecDepth 16384 in
theorem hfin (d : Dev nD) (s' : Phys nD τ sig (Elt F)) : iprop(FIN m d ∗ SI s') ⊢ (⌜fq m d s'⌝ : sProp 𝕄) := by
  iintro ⟨⟨H0, H1, H2, Ho⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (SI_pointsTo_agree (st := s') (ℓ := oLoc d) (I := Finset.univ) (q := fullShare) (f := outG m d)) $$ [HSI Ho]
  · isplitl [HSI] <;> iassumption
  icases H with %ho
  ipureintro
  exact ⟨funext fun i => ho i (Finset.mem_univ i), funext fun i => h0 i (Finset.mem_univ i), funext fun i => h1 i (Finset.mem_univ i),
    funext fun i => h2 i (Finset.mem_univ i)⟩

/-! ## The program's run -/

def QC : PUnit × MemSt nD τ sig (Elt F) → Prop := fun r => ∀ c : Dev nD,
  r.2.mem (oLoc c) = outG m c ∧ r.2.mem (a0Loc c) = m (a0Loc c) ∧ r.2.mem (a1Loc c) = m (a1Loc c) ∧ r.2.mem (a2Loc c) = m (a2Loc c)

/-- From a tile's obligation, every execution of the whole thread family ends with the result at the specification's
    value of the launch arguments and the arguments unchanged. -/
theorem run_main [∀ e, Nonempty (Elt F e)] (hpre : PreOK m) (hT : (K (F := F)).TileObl (D (F := F)) 𝒱 (P m) v₀ 0) :
    θ_run (Cert.KernelIdeal.defs (F := F)) (Cert.KernelIdeal.threads (F := F)) ⟨m, fun _ => 0, ρ⟩ (fun r => ∀ c : Dev nD,
      r.2.mem (oLoc c) = outG m c ∧ r.2.mem (a0Loc c) = m (a0Loc c) ∧ r.2.mem (a1Loc c) = m (a1Loc c) ∧ r.2.mem (a2Loc c) = m (a2Loc c)) :=
  SparseCore.Cfg.θ_run_sc (K := K (F := F)) (D := D (F := F)) (𝒱 := 𝒱) (EH := EH) (P := P m) facts v₀
    (fun q hq => match q with | 0 => nomatch hq)
    (fun q _ => match q with | 0 => hT)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

/-! ## The frame -/

/-- The precondition, all ones on every device, gives what the proof asks of the launch memory. -/
theorem preOK_of_pre [Cert.Pre_input_domain.Facts]
    (h : ∀ c : Dev nD, Cert.Pre_input_domain.fn (F := F) (m (a0Loc c)) (m (a1Loc c)) (m (a2Loc c)) = fun _ => 1#1) : PreOK m :=
  fun d => Cert.PreSide.inRange_of_pre _ _ _ (h d)

/-- Under the precondition the program runs and its three arguments end unchanged: the run with the result's value
    dropped. -/
theorem frameI [∀ e, Nonempty (Elt F e)] [Cert.Pre_input_domain.Facts]
    (hT : ∀ m : (ℓ : Loc nD τ sig) → Buf (Elt F) ℓ, PreOK m → (K (F := F)).TileObl (D (F := F)) 𝒱 (P m) v₀ 0)
    (hpre : ∀ c : Dev nD, Cert.Pre_input_domain.fn (F := F) (m (a0Loc c)) (m (a1Loc c)) (m (a2Loc c)) = fun _ => 1#1) :
    θ_run (Cert.KernelIdeal.defs (F := F)) (Cert.KernelIdeal.threads (F := F)) ⟨m, fun _ => 0, ρ⟩ (fun r => ∀ c : Dev nD,
      r.2.mem (a0Loc c) = m (a0Loc c) ∧ r.2.mem (a1Loc c) = m (a1Loc c) ∧ r.2.mem (a2Loc c) = m (a2Loc c)) :=
  (θ_run (Cert.KernelIdeal.defs (F := F)) _ _).mono (fun _ h c => (h c).2)
    (run_main m ρ (preOK_of_pre m hpre) (hT m (preOK_of_pre m hpre)))

end Cert.Proof.KernelIdealSide

end
-- ==== Proof.SetupB.lean ====
import proofs.«201888_g37099927503118_cont_8to1_b_213_13_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«201888_g37099927503118_cont_8to1_b_213_13_alg».proof.Proof.Gen.Kernel
import proofs.«201888_g37099927503118_cont_8to1_b_213_13_alg».proof.Proof.Gen.Kernel.Skeleton
import proofs.«201888_g37099927503118_cont_8to1_b_213_13_alg».proof.Proof.Spec

noncomputable section

namespace Cert.Proof.KernelSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

local notation "xtV" => (Memref.whole Cert.Kernel.main_v0_scv : Memref Cert.Kernel.sig Kind.scVector Space.hbm Cert.Kernel.S26x4096 EltTy.i32)
local notation "xnV" => (Memref.whole Cert.Kernel.main_arg1_scv : Memref Cert.Kernel.sig Kind.scVector Space.hbm Cert.Kernel.S4096x13 EltTy.f32)
local notation "tbV" => (Memref.whole Cert.Kernel.main_v1_scv : Memref Cert.Kernel.sig Kind.scVector Space.hbm Cert.Kernel.S26000x128 EltTy.f32)
local notation "oV" => (Memref.whole Cert.Kernel.main_v2_scv : Memref Cert.Kernel.sig Kind.scVector Space.hbm Cert.Kernel.S4096x3341 EltTy.f32)
local notation "s0V" => (Memref.whole Cert.Kernel.cc0_scratch0 : Memref Cert.Kernel.sig Kind.scVector Space.vmem Cert.Kernel.S26x128 EltTy.i32)
local notation "s1V" => (Memref.whole Cert.Kernel.cc0_scratch1 : Memref Cert.Kernel.sig Kind.scVector Space.vmem Cert.Kernel.S5x128x128 EltTy.f32)
local notation "s2V" => (Memref.whole Cert.Kernel.cc0_scratch2 : Memref Cert.Kernel.sig Kind.scVector Space.vmem Cert.Kernel.S128x13 EltTy.f32)

abbrev cV (L : grid0.Coords) : Fin τ.nSC := (L 0).castLE hcore0
abbrev jV (L : grid0.Coords) : Fin τ.nSub := (L 1).castLE hsub0

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The launch memory, the arrays, and what they hold when the kernel starts and ends -/

variable (m : (ℓ : Loc nD τ sig) → Buf (Elt F) ℓ) (ρ : Dev nD → PrngReg)

/-- The three arguments, the transposed indices, the flattened table and the result, as locations of device `d`. -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev xtLoc (d : Dev nD) : Loc nD τ sig := (SparseCore.T d).loc main_v0
abbrev tbLoc (d : Dev nD) : Loc nD τ sig := (SparseCore.T d).loc main_v1
abbrev oLoc (d : Dev nD) : Loc nD τ sig := (SparseCore.T d).loc main_v2

/-- The categorical indices transposed: entry `(f, b)` is `x_cat[b, f]`. -/
def xt0 (d : Dev nD) : Buf (Elt F) (xtLoc d) := transpose S26x4096 [1, 0] (m (a0Loc d)) transposes_S4096x26_S26x4096_1_0
/-- The 26 tables stacked into one of 26000 rows: row `1000 f + v` is row `v` of table `f`. -/
def tb0 (d : Dev nD) : Buf (Elt F) (tbLoc d) := shapeCast S26000x128 (m (a2Loc d)) shapeCasts_S26x1000x128_S26000x128
/-- The result both programs compute, of the launch memory's arguments. -/
def outG (d : Dev nD) : Buf (Elt F) (oLoc d) := Cert.Spec.out (m (a0Loc d)) (m (a1Loc d)) (m (a2Loc d))

/-- What the proof asks of the launch memory: every categorical index lies in `[0, 999]`. -/
def PreOK : Prop := ∀ d : Dev nD, Cert.Spec.InRange (m (a0Loc d))

/-! ## Read shares and row blocks: what each SparseCore and each tile is handed -/

/-- SparseCore `c`'s read share of an array every tile reads, and tile `i`'s share of that. -/
abbrev qC (c : Fin 2) : PosShare TreeShare := Transfers.shareTok fullShare 2 c
abbrev qT (c : Fin 2) (i : Fin 16) : PosShare TreeShare := Transfers.shareTok (qC c) 16 i

theorem oRows_inb (c : Fin 2) (i : Fin 16) : ∀ a, (![256 * i.val + 128 * c.val, 0] : Fin 2 → Nat) a + (![128, 3341] : Fin 2 → Nat) a ≤ S4096x3341.size a := by
  have h0 : c.val < 2 := c.isLt
  have h1 : i.val < 16 := i.isLt
  intro a; fin_cases a <;> simp <;> omega
/-- The 128 rows of the result that tile `i` of SparseCore `c` writes: rows `128 (2 i + c)` onwards, every column. -/
abbrev oRows (c : Fin 2) (i : Fin 16) : Rect S4096x3341 := Rect.unit (s := S4096x3341) ![256 * i.val + 128 * c.val, 0] ![128, 3341] (oRows_inb c i)
abbrev oRowSet (c : Fin 2) (i : Fin 16) : Finset S4096x3341.Idx := (oV).view.setOn (oRows c i).set

variable [FloatOps F]

abbrev xtPts (d : Dev nD) (q : PosShare TreeShare) : sProp 𝕄 := xtLoc d ↦{q} xt0 m d
abbrev xnPts (d : Dev nD) (q : PosShare TreeShare) : sProp 𝕄 := a1Loc d ↦{q} m (a1Loc d)
abbrev tbPts (d : Dev nD) (q : PosShare TreeShare) : sProp 𝕄 := tbLoc d ↦{q} tb0 m d
abbrev oRowPts (d : Dev nD) (c : Fin 2) (i : Fin 16) (f : Buf (Elt F) (oLoc d)) : sProp 𝕄 := oLoc d ↦[oRowSet c i]{fullShare} f

theorem nCore_zero : (K (F := F)).nCore 0 = 2 := rfl

/-- What the call hands SparseCore `c` and takes back (its read shares; its 16 row blocks of the result, at the launch
    contents going in and at the result coming back), and what each tile is handed and hands back. -/
def P : (K (F := F)).Pay (nD := nD) (Val := Elt F) (Name := ℕ) (U := UU) where
  st := fun q d c => match q with
    | 0 => iprop(xtPts m d (qC (Fin.cast nCore_zero c)) ∗ xnPts m d (qC (Fin.cast nCore_zero c)) ∗ tbPts m d (qC (Fin.cast nCore_zero c))
        ∗ bigSep Finset.univ fun i : Fin 16 => oRowPts d (Fin.cast nCore_zero c) i (m (oLoc d)))
  dn := fun q d c => match q with
    | 0 => iprop(xtPts m d (qC (Fin.cast nCore_zero c)) ∗ xnPts m d (qC (Fin.cast nCore_zero c)) ∗ tbPts m d (qC (Fin.cast nCore_zero c))
        ∗ bigSep Finset.univ fun i : Fin 16 => oRowPts d (Fin.cast nCore_zero c) i (outG m d))
  go := fun q d c i => match q with
    | 0 => iprop(xtPts m d (qT (Fin.cast nCore_zero c) (Fin.cast nSub_zero i)) ∗ xnPts m d (qT (Fin.cast nCore_zero c) (Fin.cast nSub_zero i))
        ∗ tbPts m d (qT (Fin.cast nCore_zero c) (Fin.cast nSub_zero i)) ∗ oRowPts d (Fin.cast nCore_zero c) (Fin.cast nSub_zero i) (m (oLoc d)))
  td := fun q d c i => match q with
    | 0 => iprop(xtPts m d (qT (Fin.cast nCore_zero c) (Fin.cast nSub_zero i)) ∗ xnPts m d (qT (Fin.cast nCore_zero c) (Fin.cast nSub_zero i))
        ∗ tbPts m d (qT (Fin.cast nCore_zero c) (Fin.cast nSub_zero i)) ∗ oRowPts d (Fin.cast nCore_zero c) (Fin.cast nSub_zero i) (outG m d))
  x := fun _ _ => iprop(emp)

end Cert.Proof.KernelSide
end
-- ==== Proof.LaunchB.lean ====
/-
  The launch of the kernel: how the call's operands split among the two SparseCores and their sixteen tiles each, what
  the TensorCore's program does around the call, and the run of the whole thread family from a tile's obligation.

  The result array is cut into 32 blocks of 128 rows: block 2 i + c goes to tile i of SparseCore c. The blocks are
  pairwise disjoint (they are separated on the row axis) and cover the array (row r lies in block r / 128). The three
  arrays every tile reads (the transposed indices, the numeric features, the flattened tables) go out as read shares:
  one per SparseCore, each cut again into one per tile; what remains of a share after cutting stays with the cutter
  and rejoins the tokens when they come back.
-/
import proofs.«201888_g37099927503118_cont_8to1_b_213_13_alg».proof.Proof.SetupB
import proofs.«201888_g37099927503118_cont_8to1_b_213_13_alg».proof.Proof.PreRange

noncomputable section

namespace Cert.Proof.KernelSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
local notation "oV" => (Memref.whole Cert.Kernel.main_v2_scv : Memref Cert.Kernel.sig Kind.scVector Space.hbm Cert.Kernel.S4096x3341 EltTy.f32)

variable (m : (ℓ : Loc nD τ sig) → Buf (Elt F) ℓ) (ρ : Dev nD → PrngReg)

/-! ## The 32 row blocks of the result -/

/-- A tile's block as a set of indices of the array: the rectangle's own set. -/
theorem oRowSet_eq (c : Fin 2) (i : Fin 16) : oRowSet c i = (oRows c i).set := Finset.map_refl

/-- Two different (SparseCore, tile) pairs have different block numbers 2 i + c, so their blocks are separated on the
    row axis. -/
theorem oRows_disjoint : ∀ p ∈ (Finset.univ : Finset (Fin 2 × Fin 16)), ∀ p' ∈ (Finset.univ : Finset (Fin 2 × Fin 16)),
    p ≠ p' → Disjoint (oRowSet p.1 p.2) (oRowSet p'.1 p'.2) := by
  intro p _ p' _ h
  rw [oRowSet_eq, oRowSet_eq]
  have h1 := p.1.isLt
  have h2 := p'.1.isLt
  have hne : 2 * p.2.val + p.1.val ≠ 2 * p'.2.val + p'.1.val := fun e =>
    h (Prod.ext (Fin.ext (by omega)) (Fin.ext (by omega)))
  refine Rect.unit_disjoint (0 : Fin 2) ?_
  show 256 * p.2.val + 128 * p.1.val + 128 ≤ 256 * p'.2.val + 128 * p'.1.val
    ∨ 256 * p'.2.val + 128 * p'.1.val + 128 ≤ 256 * p.2.val + 128 * p.1.val
  omega

/-- Row r of the array lies in block r / 128: tile r / 256 of SparseCore (r / 128) % 2. -/
theorem oRows_cover : (Finset.univ : Finset (Fin 2 × Fin 16)).biUnion (fun p => oRowSet p.1 p.2) = Finset.univ := by
  refine Finset.eq_univ_iff_forall.2 fun j => ?_
  have h0 : (j 0).val < 4096 := ValueIdx.idx2_lt0 j
  have h1 : (j 1).val < 3341 := ValueIdx.idx2_lt1 j
  rw [Finset.mem_biUnion]
  refine ⟨((⟨(j 0).val / 128 % 2, by omega⟩ : Fin 2), (⟨(j 0).val / 256, by omega⟩ : Fin 16)), Finset.mem_univ _, ?_⟩
  rw [oRowSet_eq, Rect.mem_set_unit]
  intro a
  match a with
  | ⟨0, _⟩ =>
    show 256 * ((j 0).val / 256) + 128 * ((j 0).val / 128 % 2) ≤ (j 0).val
      ∧ (j 0).val < 256 * ((j 0).val / 256) + 128 * ((j 0).val / 128 % 2) + 128
    omega
  | ⟨1, _⟩ =>
    show 0 ≤ (j 1).val ∧ (j 1).val < 0 + 3341
    omega

/-- The whole array is its 32 blocks, at any one contents. -/
theorem oPts_rows (d : Dev nD) (f : Buf (Elt F) (oLoc d)) :
    (oLoc d ↦{fullShare} f : sProp 𝕄)
      = bigSep Finset.univ fun c : Fin 2 => bigSep Finset.univ fun i : Fin 16 => oLoc d ↦[oRowSet c i]{fullShare} f := by
  rw [← BI.bigSep_univ_prod (fun p : Fin 2 × Fin 16 => (oLoc d ↦[oRowSet p.1 p.2]{fullShare} f : sProp 𝕄)),
    ← pointsTo_biUnion Finset.univ (ℓ := oLoc d) (fun p : Fin 2 × Fin 16 => oRowSet p.1 p.2) oRows_disjoint, oRows_cover]
  try rfl

/-! ## The read shares -/

/-- A whole array is what remains after two read tokens, and the two tokens (one per SparseCore). -/
theorem pts_cores {ℓ : Loc nD τ sig} (f : Buf (Elt F) ℓ) :
    (ℓ ↦{fullShare} f : sProp 𝕄) ⊣⊢ iprop((ℓ ↦{Transfers.shareDrop fullShare 2} f) ∗ (ℓ ↦{qC 0} f) ∗ ℓ ↦{qC 1} f) := by
  have h : (ℓ ↦{fullShare} f : sProp 𝕄)
      ⊣⊢ iprop((ℓ ↦{Transfers.shareDrop fullShare 2} f) ∗ BI.bigSep Finset.univ (fun i : Fin 2 => ℓ ↦{Transfers.shareTok fullShare 2 i} f)) :=
    Transfers.pointsTo_toks fullShare 2
  rw [bigSep_univ_two] at h
  exact h

/-- The tasks of the kernel are the sixteen tiles. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

variable [FloatOps F]

/-- The kernel runs on both SparseCores. -/
theorem bigSep_cores (Φ : Fin 2 → sProp 𝕄) :
    (bigSep Finset.univ fun c : Fin ((K (F := F)).nCore 0) => Φ (Fin.cast nCore_zero c)) = iprop(Φ 0 ∗ Φ 1) := by
  rw [show (bigSep Finset.univ fun c : Fin ((K (F := F)).nCore 0) => Φ (Fin.cast nCore_zero c)) = bigSep Finset.univ Φ from
    bigSep_congr fun _ _ => congrArg Φ (Fin.ext rfl), bigSep_univ_two]

/-! ## A SparseCore's operands among its tiles -/

theorem vecSplit : (K (F := F)).VecSplit' (P m) 0 := by
  intro d c
  show iprop(xtPts m d (qC (Fin.cast nCore_zero c)) ∗ xnPts m d (qC (Fin.cast nCore_zero c)) ∗ tbPts m d (qC (Fin.cast nCore_zero c))
        ∗ bigSep Finset.univ fun i : Fin 16 => oRowPts d (Fin.cast nCore_zero c) i (m (oLoc d)))
    ⊢ |={Set.univ}=> iprop(
      (bigSep Finset.univ fun i : Fin ((K (F := F)).nSub 0) =>
        iprop(xtPts m d (qT (Fin.cast nCore_zero c) (Fin.cast nSub_zero i)) ∗ xnPts m d (qT (Fin.cast nCore_zero c) (Fin.cast nSub_zero i))
          ∗ tbPts m d (qT (Fin.cast nCore_zero c) (Fin.cast nSub_zero i)) ∗ oRowPts d (Fin.cast nCore_zero c) (Fin.cast nSub_zero i) (m (oLoc d))))
      ∗ ((bigSep Finset.univ fun i : Fin ((K (F := F)).nSub 0) =>
          iprop(xtPts m d (qT (Fin.cast nCore_zero c) (Fin.cast nSub_zero i)) ∗ xnPts m d (qT (Fin.cast nCore_zero c) (Fin.cast nSub_zero i))
            ∗ tbPts m d (qT (Fin.cast nCore_zero c) (Fin.cast nSub_zero i)) ∗ oRowPts d (Fin.cast nCore_zero c) (Fin.cast nSub_zero i) (outG m d)))
          -∗ iprop(xtPts m d (qC (Fin.cast nCore_zero c)) ∗ xnPts m d (qC (Fin.cast nCore_zero c)) ∗ tbPts m d (qC (Fin.cast nCore_zero c))
            ∗ bigSep Finset.univ fun i : Fin 16 => oRowPts d (Fin.cast nCore_zero c) i (outG m d))))
  generalize Fin.cast nCore_zero c = c'
  rw [bigSep_tasks (F := F) (fun i => iprop(xtPts m d (qT c' i) ∗ xnPts m d (qT c' i) ∗ tbPts m d (qT c' i) ∗ oRowPts d c' i (m (oLoc d)))),
    bigSep_tasks (F := F) (fun i => iprop(xtPts m d (qT c' i) ∗ xnPts m d (qT c' i) ∗ tbPts m d (qT c' i) ∗ oRowPts d c' i (outG m d))),
    bigSep_sep', bigSep_sep', bigSep_sep', bigSep_sep', bigSep_sep', bigSep_sep']
  iintro ⟨Hxt, Hxn, Htb, Ho⟩
  ihave Hxt' := (Transfers.pointsTo_toks_split (qC c') 16) $$ Hxt
  icases Hxt' with ⟨Rxt, Txt⟩
  ihave Hxn' := (Transfers.pointsTo_toks_split (qC c') 16) $$ Hxn
  icases Hxn' with ⟨Rxn, Txn⟩
  ihave Htb' := (Transfers.pointsTo_toks_split (qC c') 16) $$ Htb
  icases Htb' with ⟨Rtb, Ttb⟩
  imodintro
  isplitl [Txt Txn Ttb Ho]
  · isplitl [Txt]; · iexact Txt
    isplitl [Txn]; · iexact Txn
    isplitl [Ttb]; · iexact Ttb
    iexact Ho
  iintro ⟨Txt, Txn, Ttb, Ho⟩
  isplitl [Rxt Txt]
  · iapply (Transfers.pointsTo_toks_join (qC c') 16)
    isplitl [Rxt]; · iexact Rxt
    iexact Txt
  isplitl [Rxn Txn]
  · iapply (Transfers.pointsTo_toks_join (qC c') 16)
    isplitl [Rxn]; · iexact Rxn
    iexact Txn
  isplitl [Rtb Ttb]
  · iapply (Transfers.pointsTo_toks_join (qC c') 16)
    isplitl [Rtb]; · iexact Rtb
    iexact Ttb
  iexact Ho

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The payloads travel inside the cells' invariants -/

instance P_storable : (P (F := F) m).IsStorable where
  st q d c := match q with
    | 0 => (inferInstance : BI.Storable (upEmb : UEmb _ 𝕄)
      iprop(xtPts m d (qC (Fin.cast nCore_zero c)) ∗ xnPts m d (qC (Fin.cast nCore_zero c)) ∗ tbPts m d (qC (Fin.cast nCore_zero c))
        ∗ bigSep Finset.univ fun i : Fin 16 => oRowPts d (Fin.cast nCore_zero c) i (m (oLoc d))))
  dn q d c := match q with
    | 0 => (inferInstance : BI.Storable (upEmb : UEmb _ 𝕄)
      iprop(xtPts m d (qC (Fin.cast nCore_zero c)) ∗ xnPts m d (qC (Fin.cast nCore_zero c)) ∗ tbPts m d (qC (Fin.cast nCore_zero c))
        ∗ bigSep Finset.univ fun i : Fin 16 => oRowPts d (Fin.cast nCore_zero c) i (outG m d)))
  go q d c i := match q with
    | 0 => (inferInstance : BI.Storable (upEmb : UEmb _ 𝕄)
      iprop(xtPts m d (qT (Fin.cast nCore_zero c) (Fin.cast nSub_zero i)) ∗ xnPts m d (qT (Fin.cast nCore_zero c) (Fin.cast nSub_zero i))
        ∗ tbPts m d (qT (Fin.cast nCore_zero c) (Fin.cast nSub_zero i)) ∗ oRowPts d (Fin.cast nCore_zero c) (Fin.cast nSub_zero i) (m (oLoc d))))
  td q d c i := match q with
    | 0 => (inferInstance : BI.Storable (upEmb : UEmb _ 𝕄)
      iprop(xtPts m d (qT (Fin.cast nCore_zero c) (Fin.cast nSub_zero i)) ∗ xnPts m d (qT (Fin.cast nCore_zero c) (Fin.cast nSub_zero i))
        ∗ tbPts m d (qT (Fin.cast nCore_zero c) (Fin.cast nSub_zero i)) ∗ oRowPts d (Fin.cast nCore_zero c) (Fin.cast nSub_zero i) (outG m d)))

/-! ## The TensorCore's program: the transpose, the reshape, the call -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev xt' : DevRef τ sig := Proc.devRef .tc (main_v0 : Ref sig .tc)
abbrev tb' : DevRef τ sig := Proc.devRef .tc (main_v1 : Ref sig .tc)
abbrev o' : DevRef τ sig := Proc.devRef .tc (main_v2 : Ref sig .tc)

/-- The TensorCore's arrays, all unscoped. -/
abbrev S6 : Finset (DevRef τ sig) := {a0', a1', a2', xt', tb', o'}

/-- The two host operations before the call. -/
abbrev opT : HloOp τ sig (Elt F) :=
  StableHlo.unary main_arg0 main_v0 ((transpose S26x4096 [1, 0] · transposes_S4096x26_S26x4096_1_0) : (⟨S4096x26, .i32⟩ : BufTy).Contents (Elt F) → (⟨S26x4096, .i32⟩ : BufTy).Contents (Elt F))
abbrev opR : HloOp τ sig (Elt F) := StableHlo.reshape main_arg2 main_v1 rfl shapeCasts_S26x1000x128_S26000x128

omit [FloatOps F] in
theorem held_S6 (d : Dev nD) (W : Valuation τ sig (Elt F)) :
    (held (T d) S6 W : sProp 𝕄) = iprop((a0Loc d ↦{fullShare} W a0') ∗ (a1Loc d ↦{fullShare} W a1') ∗ (a2Loc d ↦{fullShare} W a2')
      ∗ (xtLoc d ↦{fullShare} W xt') ∗ (tbLoc d ↦{fullShare} W tb') ∗ oLoc d ↦{fullShare} W o') := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2)
      ∗ (xtLoc d ↦{fullShare} W main_v0) ∗ (tbLoc d ↦{fullShare} W main_v1) ∗ oLoc d ↦{fullShare} W main_v2) := by
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]

/-- The launch valuation, and the valuations after the transpose and after the reshape. -/
def V0 (d : Dev nD) : Valuation τ sig (Elt F) := fun b => m (d, b)
abbrev V1 (d : Dev nD) : Valuation τ sig (Elt F) := (opT (F := F)).result (V0 m d)
abbrev V2 (d : Dev nD) : Valuation τ sig (Elt F) := (opR (F := F)).result (V1 m d)

theorem unscoped_held (d : Dev nD) : (unscopedBufs d (fun b => m ((SparseCore.T d).loc b)) : sProp 𝕄) = held (T d) S6 (V0 m d) := by
  rw [unscopedBufs_eq, held_S6]; rfl

theorem V2_a0 (d : Dev nD) : V2 m d a0' = m (a0Loc d) := by
  show (opR (F := F)).result ((opT (F := F)).result (V0 m d)) (Proc.devRef .tc main_arg0) = _
  rw [StableHlo.reshape_result_ne (x := main_arg2) (y := main_v1) (r := main_arg0) _ _ _ _ _ (by decide),
    StableHlo.unary_result_ne (x := main_arg0) (y := main_v0) (r := main_arg0) _ _ _ _ (by decide)]
  rfl
theorem V2_a1 (d : Dev nD) : V2 m d a1' = m (a1Loc d) := by
  show (opR (F := F)).result ((opT (F := F)).result (V0 m d)) (Proc.devRef .tc main_arg1) = _
  rw [StableHlo.reshape_result_ne (x := main_arg2) (y := main_v1) (r := main_arg1) _ _ _ _ _ (by decide),
    StableHlo.unary_result_ne (x := main_arg0) (y := main_v0) (r := main_arg1) _ _ _ _ (by decide)]
  rfl
theorem V2_a2 (d : Dev nD) : V2 m d a2' = m (a2Loc d) := by
  show (opR (F := F)).result ((opT (F := F)).result (V0 m d)) (Proc.devRef .tc main_arg2) = _
  rw [StableHlo.reshape_result_ne (x := main_arg2) (y := main_v1) (r := main_arg2) _ _ _ _ _ (by decide),
    StableHlo.unary_result_ne (x := main_arg0) (y := main_v0) (r := main_arg2) _ _ _ _ (by decide)]
  rfl
theorem V2_o (d : Dev nD) : V2 m d o' = m (oLoc d) := by
  show (opR (F := F)).result ((opT (F := F)).result (V0 m d)) (Proc.devRef .tc main_v2) = _
  rw [StableHlo.reshape_result_ne (x := main_arg2) (y := main_v1) (r := main_v2) _ _ _ _ _ (by decide),
    StableHlo.unary_result_ne (x := main_arg0) (y := main_v0) (r := main_v2) _ _ _ _ (by decide)]
  rfl
/-- After the transpose the second array holds the transposed indices, -/
theorem V2_xt (d : Dev nD) : V2 m d xt' = xt0 m d := by
  show (opR (F := F)).result ((opT (F := F)).result (V0 m d)) (Proc.devRef .tc main_v0) = _
  rw [StableHlo.reshape_result_ne (x := main_arg2) (y := main_v1) (r := main_v0) _ _ _ _ _ (by decide), StableHlo.unary_result]
  rfl
/-- and after the reshape the third holds the flattened tables. -/
theorem V2_tb (d : Dev nD) : V2 m d tb' = tb0 m d := by
  show (opR (F := F)).result ((opT (F := F)).result (V0 m d)) (Proc.devRef .tc main_v1) = _
  rw [StableHlo.reshape_result, StableHlo.unary_result_ne (x := main_arg0) (y := main_v0) (r := main_arg2) _ _ _ _ (by decide)]
  rfl

theorem held_V2 (d : Dev nD) :
    (held (T d) S6 (V2 m d) : sProp 𝕄) = iprop((a0Loc d ↦{fullShare} m (a0Loc d)) ∗ (a1Loc d ↦{fullShare} m (a1Loc d)) ∗ (a2Loc d ↦{fullShare} m (a2Loc d))
      ∗ (xtLoc d ↦{fullShare} xt0 m d) ∗ (tbLoc d ↦{fullShare} tb0 m d) ∗ oLoc d ↦{fullShare} m (oLoc d)) := by
  rw [held_S6, V2_a0, V2_a1, V2_a2, V2_xt, V2_tb, V2_o]

theorem hOpT : (opT (F := F)).bufs ⊆ S6 := show ({a0', xt'} : Finset (DevRef τ sig)) ⊆ S6 by decide
theorem hOpR : (opR (F := F)).bufs ⊆ S6 := show ({a2', tb'} : Finset (DevRef τ sig)) ⊆ S6 by decide

/-- What the call takes for the two SparseCores, and what it hands back. -/
abbrev stC (d : Dev nD) (f : Buf (Elt F) (oLoc d)) (c : Fin 2) : sProp 𝕄 :=
  iprop(xtPts m d (qC c) ∗ xnPts m d (qC c) ∗ tbPts m d (qC c) ∗ bigSep Finset.univ fun i : Fin 16 => oRowPts d c i f)

theorem st0_eq (d : Dev nD) :
    (bigSep Finset.univ fun c : Fin ((K (F := F)).nCore 0) => (P m).st 0 d c) = iprop(stC m d (m (oLoc d)) 0 ∗ stC m d (m (oLoc d)) 1) :=
  bigSep_cores (F := F) (fun c => stC m d (m (oLoc d)) c)
theorem dn0_eq (d : Dev nD) :
    (bigSep Finset.univ fun c : Fin ((K (F := F)).nCore 0) => (P m).dn 0 d c) = iprop(stC m d (outG m d) 0 ∗ stC m d (outG m d) 1) :=
  bigSep_cores (F := F) (fun c => stC m d (outG m d) c)

omit [FloatOps F] in
/-- The whole result array is SparseCore 0's sixteen blocks and SparseCore 1's. -/
theorem oPts_cores (d : Dev nD) (f : Buf (Elt F) (oLoc d)) :
    (oLoc d ↦{fullShare} f : sProp 𝕄)
      = iprop((bigSep Finset.univ fun i : Fin 16 => oRowPts d 0 i f) ∗ bigSep Finset.univ fun i : Fin 16 => oRowPts d 1 i f) := by
  rw [oPts_rows, bigSep_univ_two]

/-- What @main leaves the claim: the three arguments at their launch contents, the result at the specification's. -/
abbrev FIN (d : Dev nD) : sProp 𝕄 :=
  iprop((a0Loc d ↦{fullShare} m (a0Loc d)) ∗ (a1Loc d ↦{fullShare} m (a1Loc d)) ∗ (a2Loc d ↦{fullShare} m (a2Loc d)) ∗ oLoc d ↦{fullShare} outG m d)

/-- @main on device `d`'s TensorCore: the transpose and the reshape over the six arrays, the read shares cut in two and the
    result in its 32 blocks, the call, and everything joined back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the transpose
  iapply (wp_hlo_within 𝒱 (SparseCore.T d) none Set.univ (op := opT) (S := S6) hOpT (V := V0 m d)) $$ [Hb Hheld]
  · isplitl [Hb]; · iexact Hb
    iexact Hheld
  iintro ⟨Hb, Hheld⟩
  rw [wp_ret]; imodintro
  -- the reshape
  iapply (wp_hlo_within 𝒱 (SparseCore.T d) none Set.univ (op := opR) (S := S6) hOpR (V := V1 m d)) $$ [Hb Hheld]
  · isplitl [Hb]; · iexact Hb
    iexact Hheld
  iintro ⟨Hb, Hheld⟩
  rw [wp_ret]; imodintro
  ihave Hh := (Entails.of_eq (held_V2 (F := F) m d)) $$ Hheld
  icases Hh with ⟨Ha0, Ha1, Ha2, Hxt, Htb, Ho⟩
  -- the read shares, one token per SparseCore; the result in blocks
  ihave Hxt' := (pts_cores (xt0 m d)).1 $$ Hxt
  icases Hxt' with ⟨Rxt, Xt0, Xt1⟩
  ihave Hxn' := (pts_cores (m (a1Loc d))).1 $$ Ha1
  icases Hxn' with ⟨Rxn, Xn0, Xn1⟩
  ihave Htb' := (pts_cores (tb0 m d)).1 $$ Htb
  icases Htb' with ⟨Rtb, Tb0, Tb1⟩
  ihave Ho' := (Entails.of_eq (oPts_cores (F := F) d (m (oLoc d)))) $$ Ho
  icases Ho' with ⟨O0, O1⟩
  -- the call
  iapply ((K (F := F)).wp_run (D (F := F)) 𝒱 (EH := EH) (P := P m) κ d 0) $$ [Hst Ha0 Ha2 Rxt Xt0 Xt1 Rxn Xn0 Xn1 Rtb Tb0 Tb1 O0 O1]
  isplitr; · iexact Hctx
  isplitl [Hst]; · iexact Hst
  isplitl [Xt0 Xt1 Xn0 Xn1 Tb0 Tb1 O0 O1]
  · rw [st0_eq]
    isplitl [Xt0 Xn0 Tb0 O0]
    · isplitl [Xt0]; · iexact Xt0
      isplitl [Xn0]; · iexact Xn0
      isplitl [Tb0]; · iexact Tb0
      iexact O0
    · isplitl [Xt1]; · iexact Xt1
      isplitl [Xn1]; · iexact Xn1
      isplitl [Tb1]; · iexact Tb1
      iexact O1
  iintro ⟨Hst, Hdn⟩
  ihave Hdn' := (Entails.of_eq (dn0_eq m d)) $$ Hdn
  icases Hdn' with ⟨⟨Xt0, Xn0, Tb0, O0⟩, ⟨Xt1, Xn1, Tb1, O1⟩⟩
  imodintro
  isplitl [Hst]; · iexact Hst
  isplitl [Ha0]; · iexact Ha0
  isplitl [Rxn Xn0 Xn1]
  · iapply (pts_cores (m (a1Loc d))).2
    isplitl [Rxn]; · iexact Rxn
    isplitl [Xn0]; · iexact Xn0
    iexact Xn1
  isplitl [Ha2]; · iexact Ha2
  iapply (Entails.of_eq (oPts_cores (F := F) d (outG m d)).symm)
  isplitl [O0]; · iexact O0
  iexact O1

/-! ## The final memory -/

def fq (d : Dev nD) (s' : Phys nD τ sig (Elt F)) : Prop :=
  s'.mem.mem (oLoc d) = outG m d ∧ s'.mem.mem (a0Loc d) = m (a0Loc d) ∧ s'.mem.mem (a1Loc d) = m (a1Loc d) ∧ s'.mem.mem (a2Loc d) = m (a2Loc d)

set_option maxRecDepth 16384 in
theorem hfin (d : Dev nD) (s' : Phys nD τ sig (Elt F)) : iprop(FIN m d ∗ SI s') ⊢ (⌜fq m d s'⌝ : sProp 𝕄) := by
  iintro ⟨⟨H0, H1, H2, Ho⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (SI_pointsTo_agree (st := s') (ℓ := oLoc d) (I := Finset.univ) (q := fullShare) (f := outG m d)) $$ [HSI Ho]
  · isplitl [HSI] <;> iassumption
  icases H with %ho
  ipureintro
  exact ⟨funext fun i => ho i (Finset.mem_univ i), funext fun i => h0 i (Finset.mem_univ i), funext fun i => h1 i (Finset.mem_univ i),
    funext fun i => h2 i (Finset.mem_univ i)⟩

/-! ## The program's run -/

def QC : PUnit × MemSt nD τ sig (Elt F) → Prop := fun r => ∀ c : Dev nD,
  r.2.mem (oLoc c) = outG m c ∧ r.2.mem (a0Loc c) = m (a0Loc c) ∧ r.2.mem (a1Loc c) = m (a1Loc c) ∧ r.2.mem (a2Loc c) = m (a2Loc c)

/-- From a tile's obligation, every execution of the whole thread family ends with the result at the specification's
    value of the launch arguments and the arguments unchanged. -/
theorem run_main [∀ e, Nonempty (Elt F e)] (hpre : PreOK m) (hT : (K (F := F)).TileObl (D (F := F)) 𝒱 (P m) v₀ 0) :
    θ_run (Cert.Kernel.defs (F := F)) (Cert.Kernel.threads (F := F)) ⟨m, fun _ => 0, ρ⟩ (fun r => ∀ c : Dev nD,
      r.2.mem (oLoc c) = outG m c ∧ r.2.mem (a0Loc c) = m (a0Loc c) ∧ r.2.mem (a1Loc c) = m (a1Loc c) ∧ r.2.mem (a2Loc c) = m (a2Loc c)) :=
  SparseCore.Cfg.θ_run_sc (K := K (F := F)) (D := D (F := F)) (𝒱 := 𝒱) (EH := EH) (P := P m) facts v₀
    (fun q hq => match q with | 0 => nomatch hq)
    (fun q _ => match q with | 0 => hT)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

/-! ## The frame -/

/-- The precondition, all ones on every device, gives what the proof asks of the launch memory. -/
theorem preOK_of_pre [Cert.Pre_input_domain.Facts]
    (h : ∀ c : Dev nD, Cert.Pre_input_domain.fn (F := F) (m (a0Loc c)) (m (a1Loc c)) (m (a2Loc c)) = fun _ => 1#1) : PreOK m :=
  fun d => Cert.PreSide.inRange_of_pre _ _ _ (h d)

/-- Under the precondition the program runs and its three arguments end unchanged: the run with the result's value
    dropped. -/
theorem frameB [∀ e, Nonempty (Elt F e)] [Cert.Pre_input_domain.Facts]
    (hT : ∀ m : (ℓ : Loc nD τ sig) → Buf (Elt F) ℓ, PreOK m → (K (F := F)).TileObl (D (F := F)) 𝒱 (P m) v₀ 0)
    (hpre : ∀ c : Dev nD, Cert.Pre_input_domain.fn (F := F) (m (a0Loc c)) (m (a1Loc c)) (m (a2Loc c)) = fun _ => 1#1) :
    θ_run (Cert.Kernel.defs (F := F)) (Cert.Kernel.threads (F := F)) ⟨m, fun _ => 0, ρ⟩ (fun r => ∀ c : Dev nD,
      r.2.mem (a0Loc c) = m (a0Loc c) ∧ r.2.mem (a1Loc c) = m (a1Loc c) ∧ r.2.mem (a2Loc c) = m (a2Loc c)) :=
  (θ_run (Cert.Kernel.defs (F := F)) _ _).mono (fun _ h c => (h c).2)
    (run_main m ρ (preOK_of_pre m hpre) (hT m (preOK_of_pre m hpre)))

end Cert.Proof.KernelSide

end
-- ==== Proof.KernelValue.lean ====
/-
  The arithmetic that identifies the rows the kernel gathers with the specification.

  The kernel transposes the categorical indices to [26, 4096] and flattens the tables to [26000, 128]. To row f of the
  transposed indices it adds the word 1000 · f and reads the flattened table at that row. For an index x in [0, 999]
  the sum x + 1000 · f does not wrap, is below 26000, and splits back as quotient f and remainder x by 1000: the row
  read is row x of table f, which is what the specification puts at columns 128 · f … 128 · f + 127 of result row b.
  The numeric features fill columns 3328 … 3340.
-/
import Idealize.ShloMosaic.Lib.ValueIdx
import Idealize.ShloMosaic.Lib.Pipeline.Value
import proofs.«201888_g37099927503118_cont_8to1_b_213_13_alg».proof.Proof.Spec
import proofs.«201888_g37099927503118_cont_8to1_b_213_13_alg».proof.Proof.PreRange

namespace Cert.PreSide

open Idealize.ShloMosaic Idealize.ShloMosaic.ValueIdx

/-! ## (a) The offset word -/

/-- An index in [0, 999] plus the word 1000 · f, f < 26, does not wrap. -/
theorem off_toNat (w : BitVec 32) (hw : w.toNat ≤ 999) (f : Fin 26) :
    (w + BitVec.ofNat 32 (1000 * f.val)).toNat = w.toNat + 1000 * f.val := by
  have hf := f.isLt
  rw [BitVec.toNat_add, BitVec.toNat_ofNat]
  omega

/-- The same sum written with the word-level addition of the integer operations. -/
theorem off_toNat_addi (w : BitVec 32) (hw : w.toNat ≤ 999) (f : Fin 26) :
    (IntOp.addi w (BitVec.ofNat 32 (1000 * f.val))).toNat = w.toNat + 1000 * f.val :=
  off_toNat w hw f

/-- So the sum is a row of the flattened tables. -/
theorem off_lt (w : BitVec 32) (hw : w.toNat ≤ 999) (f : Fin 26) :
    (w + BitVec.ofNat 32 (1000 * f.val)).toNat < 26000 := by
  have hf := f.isLt
  rw [off_toNat w hw f]
  omega

/-- The elementwise addition of integer vectors at an index adds the elements. -/
theorem addi_apply {s : Shape} {n : Nat} (x y : IVec s n) (j : s.Idx) : addi x y j = x j + y j := rfl

/-! ## (b) The offset added to a [1, 16] block through its flat [16] form -/

/-- A [16] vector viewed as [1, 16], at an index: the element at the column. -/
theorem shapeCast_row_apply {α : Type} (h2 : (⟨1, ![16]⟩ : Shape).ShapeCasts ⟨2, ![1, 16]⟩)
    (u : (⟨1, ![16]⟩ : Shape).Idx → α) (j : (⟨2, ![1, 16]⟩ : Shape).Idx) :
    shapeCast ⟨2, ![1, 16]⟩ u h2 j = u (ix1 (j 1)) := by
  refine shapeCast_apply u h2 j (ix1 (j 1)) ?_
  rw [Shape.rowMajor_val_one, Shape.rowMajor_val_two]
  have h0 := idx2_lt0 j
  show (j 1).val = (j 0).val * 16 + (j 1).val
  omega

/-- A [1, 16] block viewed as [16], at an index: the element of the one row at that column. -/
theorem shapeCast_flat_apply {α : Type} (h1 : (⟨2, ![1, 16]⟩ : Shape).ShapeCasts ⟨1, ![16]⟩)
    (v : (⟨2, ![1, 16]⟩ : Shape).Idx → α) (l : Fin 16) :
    shapeCast ⟨1, ![16]⟩ v h1 (ix1 l) = v (ix2 (0 : Fin 1) l) := by
  refine shapeCast_apply v h1 (ix1 l) (ix2 (0 : Fin 1) l) ?_
  rw [Shape.rowMajor_val_one, Shape.rowMajor_val_two]
  show (0 : Nat) * 16 + l.val = l.val
  omega

/-- A [1, 16] index is row 0 at its column. -/
theorem idx_1x16 (j : (⟨2, ![1, 16]⟩ : Shape).Idx) : j = ix2 (0 : Fin 1) (j 1) := by
  have e := eq_ix2 j
  have h0 : j 0 = (0 : Fin 1) := Fin.ext (by have := idx2_lt0 j; show (j 0).val = 0; omega)
  rw [h0] at e
  exact e

/-- The first half of a payload: the flat form of the block plus the broadcast word, at a column. -/
theorem pay_flat_apply (h1 : (⟨2, ![1, 16]⟩ : Shape).ShapeCasts ⟨1, ![16]⟩) (v : IVec ⟨2, ![1, 16]⟩ 32) (k : BitVec 32)
    (l : Fin 16) :
    addi (shapeCast ⟨1, ![16]⟩ v h1) (broadcast ⟨1, ![16]⟩ k) (ix1 l) = v (ix2 (0 : Fin 1) l) + k := by
  rw [addi_apply, shapeCast_flat_apply h1 v l]
  rfl

/-- The same as a function of the [16] index. -/
theorem pay_flat (h1 : (⟨2, ![1, 16]⟩ : Shape).ShapeCasts ⟨1, ![16]⟩) (v : IVec ⟨2, ![1, 16]⟩ 32) (k : BitVec 32) :
    addi (shapeCast ⟨1, ![16]⟩ v h1) (broadcast ⟨1, ![16]⟩ k) = fun i => v (ix2 (0 : Fin 1) (i 0)) + k := by
  funext i
  rw [eq_ix1 i]
  exact pay_flat_apply h1 v k (i 0)

/-- The second half of a payload: a [16] vector viewed as [1, 16], as a function of the index. -/
theorem pay_row {α : Type} (h2 : (⟨1, ![16]⟩ : Shape).ShapeCasts ⟨2, ![1, 16]⟩) (u : (⟨1, ![16]⟩ : Shape).Idx → α) :
    shapeCast ⟨2, ![1, 16]⟩ u h2 = fun j => u (ix1 (j 1)) :=
  funext fun j => shapeCast_row_apply h2 u j

/-- A whole payload: the block, flattened, offset by the broadcast word and viewed as [1, 16] again, is the block
    with the word added to every element. -/
theorem pay_eq (h1 : (⟨2, ![1, 16]⟩ : Shape).ShapeCasts ⟨1, ![16]⟩) (h2 : (⟨1, ![16]⟩ : Shape).ShapeCasts ⟨2, ![1, 16]⟩)
    (v : IVec ⟨2, ![1, 16]⟩ 32) (k : BitVec 32) :
    shapeCast ⟨2, ![1, 16]⟩ (addi (shapeCast ⟨1, ![16]⟩ v h1) (broadcast ⟨1, ![16]⟩ k)) h2 = fun j => v j + k := by
  funext j
  rw [shapeCast_row_apply h2 _ j, pay_flat_apply h1 v k (j 1)]
  exact congrArg (fun t => v t + k) (idx_1x16 j).symm

/-! ## (c) The gathered row is the specification's embedding row -/

/-- The word the kernel forms for field f of row b is a row of the flattened tables. -/
theorem gathered_lt (xc : Cert.Spec.SCat.Idx → BitVec 32) (hr : Cert.Spec.InRange xc)
    (hT : (⟨2, ![4096, 26]⟩ : Shape).Transposes [1, 0] ⟨2, ![26, 4096]⟩) (b : Fin 4096) (f : Fin 26) :
    (transpose ⟨2, ![26, 4096]⟩ [1, 0] xc hT (ix2 f b) + BitVec.ofNat 32 (1000 * f.val)).toNat < 26000 := by
  rw [transpose_read hT xc f b]
  exact off_lt _ (hr (ix2 b f)) f

/-- Row n = x + 1000 · f of the flattened tables, x ≤ 999 the index of field f in row b, at lane e, is the
    specification's result at row b, column 128 · f + e: n / 1000 = f, n % 1000 = x, and the column's field and lane
    are f and e. -/
theorem row_eq {α : Type} (xc : Cert.Spec.SCat.Idx → BitVec 32) (xn : Cert.Spec.SNum.Idx → α)
    (tb : Cert.Spec.STab.Idx → α)
    (hC : (⟨3, ![26, 1000, 128]⟩ : Shape).ShapeCasts ⟨2, ![26000, 128]⟩) (b : Fin 4096) (f : Fin 26) (e : Fin 128)
    (n : Nat) (hx : (xc (ix2 b f)).toNat ≤ 999) (hn : n = (xc (ix2 b f)).toNat + 1000 * f.val) (hw : n < 26000) :
    shapeCast ⟨2, ![26000, 128]⟩ tb hC (ix2 (⟨n, hw⟩ : Fin 26000) e)
      = Cert.Spec.out xc xn tb (ix2 b (⟨128 * f.val + e.val, by omega⟩ : Fin 3341)) := by
  have hf := f.isLt
  have he := e.isLt
  rw [reshape_read hC tb _ e]
  -- the specification's side: column 128 · f + e is an embedding column
  have hlt : ((ix2 b (⟨128 * f.val + e.val, by omega⟩ : Fin 3341) : Cert.Spec.SOut.Idx) 1).val < 3328 := by
    show 128 * f.val + e.val < 3328
    omega
  have hfield : Cert.Spec.fieldOf (ix2 b (⟨128 * f.val + e.val, by omega⟩ : Fin 3341)) hlt = f :=
    Fin.ext (by show (128 * f.val + e.val) / 128 = f.val; omega)
  unfold Cert.Spec.out
  rw [dif_pos hlt]
  refine congrArg tb (funext fun d => ?_)
  match d with
  | ⟨0, _⟩ => exact Fin.ext (by show n / 1000 = (128 * f.val + e.val) / 128; omega)
  | ⟨1, _⟩ =>
    refine Fin.ext ?_
    show n % 1000
      = (xc (ix2 b (Cert.Spec.fieldOf (ix2 b (⟨128 * f.val + e.val, by omega⟩ : Fin 3341)) hlt))).toNat % 1000
    rw [hfield]
    omega
  | ⟨2, _⟩ => exact Fin.ext (by show e.val = (128 * f.val + e.val) % 128; omega)

/-- The flattened tables at the kernel's row and lane e are the specification's result at row b, column 128 · f + e,
    whatever proof the row index carries. -/
theorem gathered_eq_of_lt {α : Type} (xc : Cert.Spec.SCat.Idx → BitVec 32) (xn : Cert.Spec.SNum.Idx → α)
    (tb : Cert.Spec.STab.Idx → α) (hr : Cert.Spec.InRange xc)
    (hT : (⟨2, ![4096, 26]⟩ : Shape).Transposes [1, 0] ⟨2, ![26, 4096]⟩)
    (hC : (⟨3, ![26, 1000, 128]⟩ : Shape).ShapeCasts ⟨2, ![26000, 128]⟩) (b : Fin 4096) (f : Fin 26) (e : Fin 128)
    (hw : (transpose ⟨2, ![26, 4096]⟩ [1, 0] xc hT (ix2 f b) + BitVec.ofNat 32 (1000 * f.val)).toNat < 26000) :
    shapeCast ⟨2, ![26000, 128]⟩ tb hC
        (ix2 (⟨(transpose ⟨2, ![26, 4096]⟩ [1, 0] xc hT (ix2 f b) + BitVec.ofNat 32 (1000 * f.val)).toNat, hw⟩ : Fin 26000) e)
      = Cert.Spec.out xc xn tb (ix2 b (⟨128 * f.val + e.val, by omega⟩ : Fin 3341)) := by
  have hx : (xc (ix2 b f)).toNat ≤ 999 := hr (ix2 b f)
  refine row_eq xc xn tb hC b f e _ hx ?_ hw
  rw [transpose_read hT xc f b]
  exact off_toNat _ hx f

/-- The same with the bound produced alongside. -/
theorem gathered_eq {α : Type} (xc : Cert.Spec.SCat.Idx → BitVec 32) (xn : Cert.Spec.SNum.Idx → α)
    (tb : Cert.Spec.STab.Idx → α) (hr : Cert.Spec.InRange xc)
    (hT : (⟨2, ![4096, 26]⟩ : Shape).Transposes [1, 0] ⟨2, ![26, 4096]⟩)
    (hC : (⟨3, ![26, 1000, 128]⟩ : Shape).ShapeCasts ⟨2, ![26000, 128]⟩) (b : Fin 4096) (f : Fin 26) (e : Fin 128) :
    let w := transpose ⟨2, ![26, 4096]⟩ [1, 0] xc hT (ix2 f b) + BitVec.ofNat 32 (1000 * f.val)
    ∃ hw : w.toNat < 26000,
      shapeCast ⟨2, ![26000, 128]⟩ tb hC (ix2 (⟨w.toNat, hw⟩ : Fin 26000) e)
        = Cert.Spec.out xc xn tb (ix2 b (⟨128 * f.val + e.val, by omega⟩ : Fin 3341)) :=
  ⟨gathered_lt xc hr hT b f, gathered_eq_of_lt xc xn tb hr hT hC b f e _⟩

/-! ## (d) The numeric tail -/

/-- Columns 3328 … 3340 of the specification's result are the numeric features. -/
theorem numeric_eq {α : Type} (xc : Cert.Spec.SCat.Idx → BitVec 32) (xn : Cert.Spec.SNum.Idx → α)
    (tb : Cert.Spec.STab.Idx → α) (b : Fin 4096) (k : Fin 13) :
    Cert.Spec.out xc xn tb (ix2 b (⟨3328 + k.val, by omega⟩ : Fin 3341)) = xn (ix2 b k) := by
  have hk := k.isLt
  have hge : ¬ ((ix2 b (⟨3328 + k.val, by omega⟩ : Fin 3341) : Cert.Spec.SOut.Idx) 1).val < 3328 := by
    show ¬ (3328 + k.val < 3328)
    omega
  unfold Cert.Spec.out
  rw [dif_neg hge]
  refine congrArg xn (funext fun d => ?_)
  match d with
  | ⟨0, _⟩ => rfl
  | ⟨1, _⟩ => exact Fin.ext (by show 3328 + k.val - 3328 = k.val; omega)

end Cert.PreSide
-- ==== Proof.BodyI.lean ====
import proofs.«201888_g37099927503118_cont_8to1_b_213_13_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«201888_g37099927503118_cont_8to1_b_213_13_alg».proof.Proof.Gen.KernelIdeal
import proofs.«201888_g37099927503118_cont_8to1_b_213_13_alg».proof.Proof.Gen.KernelIdeal.Skeleton
import proofs.«201888_g37099927503118_cont_8to1_b_213_13_alg».proof.Proof.SetupI
import proofs.«201888_g37099927503118_cont_8to1_b_213_13_alg».proof.Proof.KernelValue

noncomputable section

namespace Cert.Proof.KernelIdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xtV" => (Memref.whole Cert.KernelIdeal.main_v0_scv : Memref Cert.KernelIdeal.sig Kind.scVector Space.hbm Cert.KernelIdeal.S26x4096 EltTy.i32)
local notation "xnV" => (Memref.whole Cert.KernelIdeal.main_arg1_scv : Memref Cert.KernelIdeal.sig Kind.scVector Space.hbm Cert.KernelIdeal.S4096x13 EltTy.f32)
local notation "tbV" => (Memref.whole Cert.KernelIdeal.main_v1_scv : Memref Cert.KernelIdeal.sig Kind.scVector Space.hbm Cert.KernelIdeal.S26000x128 EltTy.f32)
local notation "oV" => (Memref.whole Cert.KernelIdeal.main_v2_scv : Memref Cert.KernelIdeal.sig Kind.scVector Space.hbm Cert.KernelIdeal.S4096x3341 EltTy.f32)
local notation "s0V" => (Memref.whole Cert.KernelIdeal.cc0_scratch0 : Memref Cert.KernelIdeal.sig Kind.scVector Space.vmem Cert.KernelIdeal.S26x128 EltTy.i32)
local notation "s1V" => (Memref.whole Cert.KernelIdeal.cc0_scratch1 : Memref Cert.KernelIdeal.sig Kind.scVector Space.vmem Cert.KernelIdeal.S5x128x128 EltTy.f32)
local notation "s2V" => (Memref.whole Cert.KernelIdeal.cc0_scratch2 : Memref Cert.KernelIdeal.sig Kind.scVector Space.vmem Cert.KernelIdeal.S128x13 EltTy.f32)

open Cert.PreSide Idealize.ShloMosaic.ValueIdx

theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

variable (m : (ℓ : Loc nD τ sig) → Buf (Elt F) ℓ) (d : Dev nD) (L : grid0.Coords)

/-! ## The tile's own cells and buffers -/

def dmaCell (thr : Thread nD τ) : Fin 13 ↪ GSem nD τ sig := ⟨fun k => (thr, SemLoc.dma k), fun a b e => by injection e with _ e; injection e⟩

theorem dmaCells_sub (c : Fin τ.nSC) (i : Fin τ.nSub) : Finset.univ.map (dmaCell (V d c i)) ⊆ ownCells (V d c i) := by
  have hk : ∀ k : Fin 13, (SemLoc.dma k : SemLoc sig).isScoped .scVector = true := by decide
  intro g hg
  obtain ⟨k, -, rfl⟩ := Finset.mem_map.mp hg
  exact mem_ownCells.mpr ⟨rfl, hk k⟩

theorem ownSems0_V (c : Fin τ.nSC) (i : Fin τ.nSub) :
    (ownSems0 (V d c i) : sProp 𝕄)
      = iprop((semVal (V d c i, SemLoc.dma 0) 0 ∗ semVal (V d c i, SemLoc.dma 1) 0 ∗ semVal (V d c i, SemLoc.dma 2) 0 ∗ semVal (V d c i, SemLoc.dma 3) 0 ∗ semVal (V d c i, SemLoc.dma 4) 0 ∗ semVal (V d c i, SemLoc.dma 5) 0 ∗ semVal (V d c i, SemLoc.dma 6) 0 ∗ semVal (V d c i, SemLoc.dma 7) 0 ∗ semVal (V d c i, SemLoc.dma 8) 0 ∗ semVal (V d c i, SemLoc.dma 9) 0 ∗ semVal (V d c i, SemLoc.dma 10) 0 ∗ semVal (V d c i, SemLoc.dma 11) 0 ∗ semVal (V d c i, SemLoc.dma 12) 0)
          ∗ bigSep (ownCells (V d c i) \ Finset.univ.map (dmaCell (V d c i))) fun g => semVal g 0) := by
  unfold SparseCore.Cfg.ownSems0
  rw [SparseCore.bigSep_sdiff_split' (dmaCells_sub d c i), BI.bigSep_map,
    show (Finset.univ : Finset (Fin 13)) = {0, 1, 2, 3, 4, 5, 6, 7, 8, 9, 10, 11, 12} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

theorem ownBufs_V (c : Fin τ.nSC) (i : Fin τ.nSub) :
    (ownBufs (V d c i) : sProp 𝕄)
      = iprop((∃ f, (V d c i).loc cc0_scratch0 ↦{fullShare} f) ∗ (∃ f, (V d c i).loc cc0_scratch1 ↦{fullShare} f) ∗ (∃ f, (V d c i).loc cc0_scratch2 ↦{fullShare} f)
          ∗ bigSep ((((ownRefs (τ := τ) (.scVector c i)).erase ((Proc.scVector c i).devRef cc0_scratch0)).erase
              ((Proc.scVector c i).devRef cc0_scratch1)).erase ((Proc.scVector c i).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector c i) (b := (Proc.scVector c i).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
        SparseCore.Cfg.mem_ownRefs_of_owner (p := Proc.scVector c i) (b := (Proc.scVector c i).devRef cc0_scratch2) rfl⟩⟩)]

/-! ## The tile's row block and what it holds at the end -/

theorem oTR_inb (L : grid0.Coords) : ∀ a, (![256 * (L 1).val + 128 * (L 0).val, 0] : Fin 2 → Nat) a + (![128, 3341] : Fin 2 → Nat) a ≤ S4096x3341.size a := by
  have h0 : (L 0).val < 2 := (L 0).isLt
  have h1 : (L 1).val < 16 := (L 1).isLt
  intro a; fin_cases a <;> simp <;> omega
/-- The 128 rows of the result the tile at `L` writes, every column. -/
abbrev oTR (L : grid0.Coords) : Rect S4096x3341 := Rect.unit (s := S4096x3341) ![256 * (L 1).val + 128 * (L 0).val, 0] ![128, 3341] (oTR_inb L)

/-- What the tiles leave in the result, as one function of the transposed indices `fxt`, the numeric features `fxn` and
    the stacked table `ftb`: column `j < 3328` of row `b` is lane `j % 128` of the table's row `fxt[j / 128, b] + 1000 (j / 128)`
    (reduced modulo 26000 to be total), the last 13 columns are the numeric features of row `b`. -/
def outT (fxt : S26x4096.Idx → BitVec 32) (fxn : S4096x13.Idx → Elt F .f32) (ftb : S26000x128.Idx → Elt F .f32) : S4096x3341.Idx → Elt F .f32 :=
  fun y =>
    if h : (y 1).val < 3328 then
      ftb (ix2 (⟨(fxt (ix2 (⟨(y 1).val / 128, by omega⟩ : Fin 26) (⟨(y 0).val, idx2_lt0 y⟩ : Fin 4096))
            + BitVec.ofNat 32 (1000 * ((y 1).val / 128))).toNat % 26000, Nat.mod_lt _ (by norm_num)⟩ : Fin 26000)
        (⟨(y 1).val % 128, Nat.mod_lt _ (by norm_num)⟩ : Fin 128))
    else fxn (ix2 (⟨(y 0).val, idx2_lt0 y⟩ : Fin 4096) (⟨(y 1).val - 3328, by have := idx2_lt1 y; omega⟩ : Fin 13))

end Cert.Proof.KernelIdealSide
end
-- ==== Proof.LibWritesAgree.lean ====
/-
  A buffer's contents after a list of unmasked writes, read as ONE function.

  If every write's payload agrees with a function `G` of the view's shape on the rectangle it is written through, and
  the contents before the writes agree with `G` at every element no write covers, then after the writes the buffer
  reads `G` everywhere — whichever order the writes came in and whatever they overwrote. It joins the library's two
  one-sided facts (an element some write covers reads the writes' common function; an element none covers reads what
  was there before) by cases on the element.
-/
import Idealize.ShloMosaic.Lib.Writes

namespace Idealize.ShloMosaic.View

variable {sig : RefSig} {κ : Kind} {sp : Space} {s : Shape} {e : EltTy} {Val : EltTy → Type}

/-- Writes agreeing with `G`, over contents agreeing with `G` off the writes, leave `G`. -/
theorem read_writes_of_agree (v : View sig κ sp s e) (f : v.ty.Contents Val) (G : s.Idx → Val e) (L : List (Piece Val s e))
    (hG : ∀ p ∈ L, ∀ x : p.1.shape.Idx, p.2 x = G (p.1.emb x))
    (hB : ∀ y : s.Idx, (∀ p ∈ L, y ∉ p.1.set) → v.read Val f y = G y) (y : s.Idx) :
    v.read Val (v.writes Val f L) y = G y := by
  by_cases h : ∃ p ∈ L, y ∈ p.1.set
  · exact read_writes_apply_of_pieces v f G L hG y h
  · have hn : ∀ p ∈ L, y ∉ p.1.set := fun p hp hy => h ⟨p, hp, hy⟩
    rw [read_writes_apply_of_forall_not_mem v f y L hn]
    exact hB y hn

/-- The elements no write of `L` covers, when `L` together with a second list `R` tiles the shape, lie under `R`. -/
theorem mem_rest_of_tiled (L R : List (Piece Val s e)) (size : Fin s.rank → Nat) (h : Piece.tiled (L ++ R) size = true)
    (y : s.Idx) (hn : ∀ p ∈ L, y ∉ p.1.set) : ∃ p ∈ R, y ∈ p.1.set := by
  obtain ⟨p, hp, hy⟩ := cover_of_tiled (L ++ R) size h y
  rcases List.mem_append.mp hp with hL | hR
  · exact absurd hy (hn p hL)
  · exact ⟨p, hR, hy⟩

end Idealize.ShloMosaic.View
-- ==== Proof.IdxI.lean ====
/-
  What a tile's index scratch holds.

  Tile (c, t), c < 2, t < 16, owns the batch rows b0 … b0 + 127, b0 = 256 · t + 128 · c. It copies columns b0 … b0 + 127 of
  the transposed index array xt : [26, 4096] into its scratch : [26, 128] and then, for each row r = 1 … 25 and each
  block of sixteen columns, reads the block, adds the word 1000 · r to every element and writes it back. Row 0 is left
  as copied, which is the same rule with the word 1000 · 0 = 0. So the scratch ends as

      scratch[r, l] = xt[r, b0 + l] + 1000 · r.

  The stores arrive as a list of writes over the copy. Each write's payload is the closed form on its block
  (`piece_agree`), the copy is the closed form on row 0 (`base_agree`), and the blocks of rows 1 … 25 together with
  row 0 tile the scratch, so the list of writes over the copy reads the closed form everywhere (`idx_contents`). For an
  index array with entries in [0, 999] every scratch word is below 26000 (`idxF_lt`), which is what a gather through a
  row of the scratch needs (`hin_row`, `read_row`).
-/
import proofs.«201888_g37099927503118_cont_8to1_b_213_13_alg».proof.KernelIdeal
import proofs.«201888_g37099927503118_cont_8to1_b_213_13_alg».proof.Proof.Gen.KernelIdeal
import proofs.«201888_g37099927503118_cont_8to1_b_213_13_alg».proof.Proof.KernelValue
import proofs.«201888_g37099927503118_cont_8to1_b_213_13_alg».proof.Proof.LibWritesAgree
import Idealize.ShloMosaic.Lib.Writes
import Idealize.ShloMosaic.Lib.ValueIdx
import Idealize.ShloMosaic.Lib.Pipeline.Value

namespace Cert.Proof.KernelIdealSide

open Idealize.ShloMosaic Idealize.SL.Sem
open Cert.KernelIdeal Cert.KernelIdeal.Gen

variable {F : FTy → Type} [FloatOps F]

/-! ## The closed form -/

open Idealize.ShloMosaic.ValueIdx in
/-- What tile `L`'s scratch holds in the end: at row r and lane l, the transposed index at row r and batch row
    b0 + l, plus the word 1000 · r. -/
def idxF (fxt : S26x4096.Idx → BitVec 32) (L : grid0.Coords) : S26x128.Idx → BitVec 32 :=
  fun j => fxt (ix2 (⟨(j 0).val, idx2_lt0 j⟩ : Fin 26) (⟨256 * (L 1).val + 128 * (L 0).val + (j 1).val, by have h0 : (L 0).val < 2 := (L 0).isLt; have h1 : (L 1).val < 16 := (L 1).isLt; have h2 := idx2_lt1 j; omega⟩ : Fin 4096)) + BitVec.ofNat 32 (1000 * (j 0).val)

open Idealize.ShloMosaic.ValueIdx in
/-- The closed form at explicit coordinates. -/
theorem idxF_apply (fxt : S26x4096.Idx → BitVec 32) (L : grid0.Coords) (j : S26x128.Idx) (r : Fin 26) (b : Fin 4096)
    (hr : r.val = (j 0).val) (hb : b.val = 256 * (L 1).val + 128 * (L 0).val + (j 1).val) :
    idxF fxt L j = fxt (ix2 r b) + BitVec.ofNat 32 (1000 * r.val) := by
  unfold idxF
  have er : (⟨(j 0).val, idx2_lt0 j⟩ : Fin 26) = r := Fin.ext hr.symm
  have eb : (⟨256 * (L 1).val + 128 * (L 0).val + (j 1).val, by have h0 : (L 0).val < 2 := (L 0).isLt; have h1 : (L 1).val < 16 := (L 1).isLt; have h2 := idx2_lt1 j; omega⟩ : Fin 4096) = b := Fin.ext hb.symm
  rw [er, eb, hr]

/-! ## The copy -/

open Idealize.ShloMosaic.ValueIdx in
/-- The block of the transposed indices the tile copies, at a scratch index: the index array at the same row and at
    the tile's batch offset plus the lane. -/
theorem copy_apply (fxt : S26x4096.Idx → BitVec 32) (L : grid0.Coords)
    (hk0 : ∀ a, (k0_off3 L) a + (![26, 128] : Fin 2 → ℕ) a ≤ S26x4096.size a) (y : S26x128.Idx) (r : Fin 26) (b : Fin 4096)
    (hr : r.val = (y 0).val) (hb : b.val = 256 * (L 1).val + 128 * (L 0).val + (y 1).val) :
    ReadAs.same.apply (View.read (Elt F) ((View.whole main_v0_scv).slice (Rect.unit (k0_off3 L) ![26, 128] hk0)) fxt) y
      = fxt (ix2 r b) := by
  show fxt _ = fxt _
  refine congrArg fxt (funext fun d => Fin.ext ?_)
  have hk := k0_off3_eq L
  match d with
  | ⟨0, _⟩ =>
    show (k0_off3 L) 0 + 1 * (y 0).val = r.val
    rw [hk, hr]
    show 0 + 1 * (y 0).val = (y 0).val
    omega
  | ⟨1, _⟩ =>
    show (k0_off3 L) 1 + 1 * (y 1).val = b.val
    rw [hk, hb]
    show 256 * (L 1).val + 128 * (L 0).val + 1 * (y 1).val = 256 * (L 1).val + 128 * (L 0).val + (y 1).val
    omega

open Idealize.ShloMosaic.ValueIdx in
/-- The copied block's word at a scratch index, plus the word of its row, is the closed form. -/
theorem copy_add (fxt : S26x4096.Idx → BitVec 32) (L : grid0.Coords)
    (hk0 : ∀ a, (k0_off3 L) a + (![26, 128] : Fin 2 → ℕ) a ≤ S26x4096.size a) (y : S26x128.Idx) (w : BitVec 32)
    (hw : w = ReadAs.same.apply (View.read (Elt F) ((View.whole main_v0_scv).slice (Rect.unit (k0_off3 L) ![26, 128] hk0)) fxt) y) :
    w + BitVec.ofNat 32 (1000 * (y 0).val) = idxF fxt L y := by
  rw [hw, copy_apply (F := F) fxt L hk0 y ⟨(y 0).val, idx2_lt0 y⟩
    ⟨256 * (L 1).val + 128 * (L 0).val + (y 1).val, by have h0 : (L 0).val < 2 := (L 0).isLt; have h1 : (L 1).val < 16 := (L 1).isLt; have h2 := idx2_lt1 y; omega⟩ rfl rfl]
  rfl

/-- The scratch after the copy holds the copied block. -/
theorem write_copy (fxt : S26x4096.Idx → BitVec 32) (L : grid0.Coords) (f0 : S26x128.Idx → BitVec 32)
    (hk0 : ∀ a, (k0_off3 L) a + (![26, 128] : Fin 2 → ℕ) a ≤ S26x4096.size a) :
    View.write (Elt F) (View.whole cc0_scratch0) f0
        (ReadAs.same.apply (View.read (Elt F) ((View.whole main_v0_scv).slice (Rect.unit (k0_off3 L) ![26, 128] hk0)) fxt)) Finset.univ
      = ReadAs.same.apply (View.read (Elt F) ((View.whole main_v0_scv).slice (Rect.unit (k0_off3 L) ![26, 128] hk0)) fxt) :=
  View.write_whole_univ (Val := Elt F) cc0_scratch0 f0 _

/-! ## One store: the block at (r, c) with the word 1000 · r added -/

open Idealize.ShloMosaic.ValueIdx Cert.PreSide in
/-- The payload of the store at row r, column block c — the block read back from the scratch after the copy,
    flattened, offset by the broadcast word k = 1000 · r and viewed as [1, 16] again — is the closed form on the block. -/
theorem piece_agree (fxt : S26x4096.Idx → BitVec 32) (L : grid0.Coords) (f0 : S26x128.Idx → BitVec 32)
    (r c : ℕ) (hinb : ∀ a, (![r, c] : Fin 2 → ℕ) a + (![1, 16] : Fin 2 → ℕ) a ≤ S26x128.size a) (k : BitVec 32)
    (hk : k = BitVec.ofNat 32 (1000 * r)) (h1 : S1x16.ShapeCasts S16) (h2 : S16.ShapeCasts S1x16)
    {hk0 : ∀ a, (k0_off3 L) a + (![26, 128] : Fin 2 → ℕ) a ≤ S26x4096.size a}
    (x : (Rect.unit (s := S26x128) ![r, c] ![1, 16] hinb).shape.Idx) :
    shapeCast S1x16 (addi (shapeCast S16 (View.readAt (Elt F) (View.whole cc0_scratch0) (Rect.unit (s := S26x128) ![r, c] ![1, 16] hinb).toLoadRect
          (View.write (Elt F) (View.whole cc0_scratch0) f0
            (ReadAs.same.apply (View.read (Elt F) ((View.whole main_v0_scv).slice (Rect.unit (k0_off3 L) ![26, 128] hk0)) fxt)) Finset.univ)) h1)
        (broadcast S16 k)) h2 x
      = idxF fxt L ((Rect.unit (s := S26x128) ![r, c] ![1, 16] hinb).emb x) := by
  refine (congrFun (pay_eq h1 h2 _ k) x).trans ?_
  rw [write_copy (F := F) fxt L f0 hk0]
  have hx0 : (x 0).val < 1 := (x 0).isLt
  have hy0 : (((Rect.unit (s := S26x128) ![r, c] ![1, 16] hinb).emb x) 0).val = r := by
    show r + 1 * (x 0).val = r
    omega
  have h := copy_add (F := F) fxt L hk0 ((Rect.unit (s := S26x128) ![r, c] ![1, 16] hinb).emb x) _ rfl
  rw [hy0, ← hk] at h
  exact h

/-! ## Row 0: the copy itself -/

/-- On row 0 the scratch after the copy already holds the closed form: the word added there is 1000 · 0 = 0. -/
theorem base_agree (fxt : S26x4096.Idx → BitVec 32) (L : grid0.Coords) (f0 : S26x128.Idx → BitVec 32)
    (hk0 : ∀ a, (k0_off3 L) a + (![26, 128] : Fin 2 → ℕ) a ≤ S26x4096.size a) (y : S26x128.Idx) (hy : (y 0).val = 0) :
    View.read (Elt F) (View.whole cc0_scratch0) (View.write (Elt F) (View.whole cc0_scratch0) f0
        (ReadAs.same.apply (View.read (Elt F) ((View.whole main_v0_scv).slice (Rect.unit (k0_off3 L) ![26, 128] hk0)) fxt)) Finset.univ) y
      = idxF fxt L y := by
  rw [write_copy (F := F) fxt L f0 hk0]
  have h := copy_add (F := F) fxt L hk0 y _ rfl
  rw [hy, Nat.mul_zero, BitVec.add_zero] at h
  exact h

/-! ## All the stores: the list of writes over the copy -/

/-- A placeholder piece on row 0 at columns c … c + 15: it stands for the part of the scratch no store touches. -/
def zeroPiece (c : ℕ) (hc : c + 16 ≤ 128) : View.Piece (Elt F) S26x128 .i32 :=
  ⟨Rect.unit (s := S26x128) ![0, c] ![1, 16] (Rect.inb₂ (Nat.le_add_left 1 25) hc), fun _ => (0 : BitVec 32)⟩

/-- Row 0 in eight [1, 16] blocks. With the two hundred stores of rows 1 … 25 they tile the [26, 128] scratch. -/
def row0 : List (View.Piece (Elt F) S26x128 .i32) :=
  [zeroPiece 0 (by omega), zeroPiece 16 (by omega), zeroPiece 32 (by omega), zeroPiece 48 (by omega),
    zeroPiece 64 (by omega), zeroPiece 80 (by omega), zeroPiece 96 (by omega), zeroPiece 112 (by omega)]

/-- An element under a placeholder piece is on row 0. -/
theorem zeroPiece_mem (c : ℕ) (hc : c + 16 ≤ 128) (y : S26x128.Idx) (hy : y ∈ (zeroPiece (F := F) c hc).1.set) :
    (y 0).val = 0 := by
  have hy' : y ∈ (Rect.unit (s := S26x128) ![0, c] ![1, 16] (Rect.inb₂ (Nat.le_add_left 1 25) hc)).set := hy
  have h := (Rect.mem_set_unit.mp hy') 0
  have h2 : (y 0).val < 0 + 1 := h.2
  omega

/-- So is an element under any piece of `row0`. -/
theorem row0_mem (p : View.Piece (Elt F) S26x128 .i32) (hp : p ∈ row0 (F := F)) (y : S26x128.Idx) (hy : y ∈ p.1.set) :
    (y 0).val = 0 := by
  simp only [row0, List.mem_cons, List.mem_nil_iff, or_false] at hp
  rcases hp with rfl | rfl | rfl | rfl | rfl | rfl | rfl | rfl <;> exact zeroPiece_mem _ _ y hy

/-- The scratch after the copy and any list of stores whose payloads are the closed form on their blocks and that,
    together with row 0, tile the scratch in [1, 16] blocks, holds the closed form. -/
theorem idx_contents (fxt : S26x4096.Idx → BitVec 32) (L : grid0.Coords) (f0 : S26x128.Idx → BitVec 32)
    (hk0 : ∀ a, (k0_off3 L) a + (![26, 128] : Fin 2 → ℕ) a ≤ S26x4096.size a)
    (Lw : List (View.Piece (Elt F) S26x128 .i32))
    (hG : ∀ p ∈ Lw, ∀ x : p.1.shape.Idx, p.2 x = idxF fxt L (p.1.emb x))
    (ht : View.Piece.tiled (Lw ++ row0 (F := F)) ![1, 16] = true) :
    View.writes (View.whole cc0_scratch0) (Elt F)
        (View.write (Elt F) (View.whole cc0_scratch0) f0
          (ReadAs.same.apply (View.read (Elt F) ((View.whole main_v0_scv).slice (Rect.unit (k0_off3 L) ![26, 128] hk0)) fxt)) Finset.univ)
        Lw
      = idxF fxt L := by
  funext y
  refine View.read_writes_of_agree (View.whole cc0_scratch0) _ (idxF fxt L) Lw hG (fun y hn => ?_) y
  obtain ⟨p, hp, hy⟩ := View.mem_rest_of_tiled Lw (row0 (F := F)) ![1, 16] ht y hn
  exact base_agree fxt L f0 hk0 y (row0_mem p hp y hy)

/-! ## The range of the scratch words, and a row of the scratch read for a gather -/

open Idealize.ShloMosaic.ValueIdx Cert.PreSide in
/-- For an index array with entries in [0, 999] every scratch word is below 26000. -/
theorem idxF_lt (fxt : S26x4096.Idx → BitVec 32) (L : grid0.Coords) (hr : ∀ j, (fxt j).toNat ≤ 999) (y : S26x128.Idx) :
    (idxF fxt L y).toNat < 26000 :=
  off_lt _ (hr _) ⟨(y 0).val, idx2_lt0 y⟩

open Idealize.ShloMosaic.ValueIdx in
/-- Row r of the scratch viewed as a [128] vector reads the scratch's contents at row r and the same lane. -/
theorem row_read (G : S26x128.Idx → BitVec 32) (r : ℕ)
    (hinb : ∀ a, (![r, 0] : Fin 2 → ℕ) a + S1x128.size a ≤ S26x128.size a) (x : S128.Idx)
    (y : S26x128.Idx) (hy0 : (y 0).val = r) (hy1 : (y 1).val = (x 0).val) :
    View.read (Elt F) (((Memref.whole cc0_scratch0 : Memref sig .scVector .vmem S26x128 .i32).slice
        (Rect.unit (s := S26x128) ![r, 0] S1x128.size hinb) (fun _ => rfl)).squeeze S128 squeezes_S1x128_S128).view G x = G y := by
  have hc : S1x128.ShapeCasts S128 := squeezes_S1x128_S128.numel_eq
  have e : View.read (Elt F) (((Memref.whole cc0_scratch0 : Memref sig .scVector .vmem S26x128 .i32).slice
        (Rect.unit (s := S26x128) ![r, 0] S1x128.size hinb) (fun _ => rfl)).squeeze S128 squeezes_S1x128_S128).view G x
      = G ((Rect.unit (s := S26x128) ![r, 0] S1x128.size hinb).emb (ix2 (0 : Fin 1) (x 0))) :=
    shapeCast_apply (s := S1x128) (t := S128)
      (View.readAt (Elt F) (View.whole cc0_scratch0) (Rect.unit (s := S26x128) ![r, 0] S1x128.size hinb).toLoadRect G)
      hc x (ix2 (0 : Fin 1) (x 0)) (by
        rw [Shape.rowMajor_val_one, Shape.rowMajor_val_two]
        show 0 * 128 + (x 0).val = (x 0).val
        omega)
  rw [e]
  refine congrArg G (funext fun d => Fin.ext ?_)
  match d with
  | ⟨0, _⟩ =>
    show r + 1 * 0 = (y 0).val
    omega
  | ⟨1, _⟩ =>
    show 0 + 1 * (x 0).val = (y 1).val
    omega

open Idealize.ShloMosaic.ValueIdx in
/-- The word a gather through row r of the scratch reads at lane x is a row of the flattened tables. -/
theorem hin_row (fxt : S26x4096.Idx → BitVec 32) (L : grid0.Coords) (hr : ∀ j, (fxt j).toNat ≤ 999) (r : ℕ)
    (hinb : ∀ a, (![r, 0] : Fin 2 → ℕ) a + S1x128.size a ≤ S26x128.size a) (x : S128.Idx) :
    (View.read (Elt F) (((Memref.whole cc0_scratch0 : Memref sig .scVector .vmem S26x128 .i32).slice
        (Rect.unit (s := S26x128) ![r, 0] S1x128.size hinb) (fun _ => rfl)).squeeze S128 squeezes_S1x128_S128).view (idxF fxt L) x).toNat
      < 26000 := by
  have h0 : r + 1 ≤ 26 := hinb 0
  rw [row_read (F := F) (idxF fxt L) r hinb x (ix2 (⟨r, by omega⟩ : Fin 26) (⟨(x 0).val, (x 0).isLt⟩ : Fin 128)) rfl rfl]
  exact idxF_lt fxt L hr _

open Idealize.ShloMosaic.ValueIdx in
/-- And its value: the transposed index at row r and batch row b0 + x, plus the word 1000 · r. -/
theorem read_row (fxt : S26x4096.Idx → BitVec 32) (L : grid0.Coords) (r : ℕ)
    (hinb : ∀ a, (![r, 0] : Fin 2 → ℕ) a + S1x128.size a ≤ S26x128.size a) (x : S128.Idx)
    (rr : Fin 26) (b : Fin 4096) (hrr : rr.val = r) (hb : b.val = 256 * (L 1).val + 128 * (L 0).val + (x 0).val) :
    View.read (Elt F) (((Memref.whole cc0_scratch0 : Memref sig .scVector .vmem S26x128 .i32).slice
        (Rect.unit (s := S26x128) ![r, 0] S1x128.size hinb) (fun _ => rfl)).squeeze S128 squeezes_S1x128_S128).view (idxF fxt L) x
      = fxt (ix2 rr b) + BitVec.ofNat 32 (1000 * r) := by
  have h0 : r + 1 ≤ 26 := hinb 0
  rw [row_read (F := F) (idxF fxt L) r hinb x (ix2 (⟨r, by omega⟩ : Fin 26) (⟨(x 0).val, (x 0).isLt⟩ : Fin 128)) rfl rfl,
    idxF_apply fxt L _ rr b hrr hb, hrr]

end Cert.Proof.KernelIdealSide
-- ==== Proof.OutGenI.lean ====
/-
  What the value of the tile's result is read off from, as lemmas over variable offsets: a unit-stride window of
  the result (membership, its embedding, a write through it read under and off the window), the tile's row block,
  a source array read through a window, the staging buffer's slots (a write to one slot is not seen through another,
  and is read back through its own), the gather's payload and the rows an offset list names read at an index, one
  field's gathered block at a result index (`gather_field`), and the numeric features' window (`num_val`).
-/
import proofs.«201888_g37099927503118_cont_8to1_b_213_13_alg».proof.Proof.BodyI
import proofs.«201888_g37099927503118_cont_8to1_b_213_13_alg».proof.Proof.IdxI

noncomputable section

namespace Cert.Proof.KernelIdealSide

open Cert.KernelIdeal Cert.KernelIdeal.Gen

open Idealize.ShloMosaic
open Idealize.ShloMosaic.SparseCore (S V T)
open Idealize.SL.Sem
open Idealize.ShloMosaic.ValueIdx

variable {F : FTy → Type}

local notation "xnV" => (Memref.whole Cert.KernelIdeal.main_arg1_scv : Memref Cert.KernelIdeal.sig Kind.scVector Space.hbm Cert.KernelIdeal.S4096x13 EltTy.f32)
local notation "tbV" => (Memref.whole Cert.KernelIdeal.main_v1_scv : Memref Cert.KernelIdeal.sig Kind.scVector Space.hbm Cert.KernelIdeal.S26000x128 EltTy.f32)
local notation "oV" => (Memref.whole Cert.KernelIdeal.main_v2_scv : Memref Cert.KernelIdeal.sig Kind.scVector Space.hbm Cert.KernelIdeal.S4096x3341 EltTy.f32)
local notation "s0V" => (Memref.whole Cert.KernelIdeal.cc0_scratch0 : Memref Cert.KernelIdeal.sig Kind.scVector Space.vmem Cert.KernelIdeal.S26x128 EltTy.i32)
local notation "s1V" => (Memref.whole Cert.KernelIdeal.cc0_scratch1 : Memref Cert.KernelIdeal.sig Kind.scVector Space.vmem Cert.KernelIdeal.S5x128x128 EltTy.f32)
local notation "s2V" => (Memref.whole Cert.KernelIdeal.cc0_scratch2 : Memref Cert.KernelIdeal.sig Kind.scVector Space.vmem Cert.KernelIdeal.S128x13 EltTy.f32)

/-! ## A window of the result: membership, its embedding, a write through it read at an index -/

/-- An index lies under a unit-stride window of the result exactly when each coordinate lies in the window's span. -/
theorem mem_oWin {off sz : Fin 2 → ℕ} {hinb : ∀ a, off a + sz a ≤ S4096x3341.size a} (y : S4096x3341.Idx) :
    y ∈ ((oV).slice (Rect.unit (s := S4096x3341) off sz hinb) (fun _ => rfl)).view.set
      ↔ ∀ a, off a ≤ (y a).val ∧ (y a).val < off a + sz a := by
  have e : ((oV).slice (Rect.unit (s := S4096x3341) off sz hinb) (fun _ => rfl)).view.set = (Rect.unit (s := S4096x3341) off sz hinb).set :=
    View.set_slice_whole main_v2_scv _
  exact (Finset.ext_iff.mp e y).trans Rect.mem_set_unit

/-- The window's element at the inside coordinates `y − off` is `y`. -/
theorem oWin_emb (off sz : Fin 2 → ℕ) (hinb : ∀ a, off a + sz a ≤ S4096x3341.size a) (y : S4096x3341.Idx)
    (hy : ∀ a, off a ≤ (y a).val ∧ (y a).val < off a + sz a) :
    ((oV).slice (Rect.unit (s := S4096x3341) off sz hinb) (fun _ => rfl)).view.emb
        (fun a => (⟨(y a).val - off a, by have := hy a; omega⟩ : Fin (sz a))) = y := by
  funext a
  refine Fin.ext ?_
  show off a + 1 * ((y a).val - off a) = (y a).val
  have := hy a; omega

/-- A write through a window, read under the window: the payload at the inside coordinates. -/
theorem write_oWin_of_mem (off sz : Fin 2 → ℕ) (hinb : ∀ a, off a + sz a ≤ S4096x3341.size a)
    (g : S4096x3341.Idx → Elt F .f32) (p : (Rect.unit (s := S4096x3341) off sz hinb).shape.Idx → Elt F .f32) (y : S4096x3341.Idx)
    (hy : ∀ a, off a ≤ (y a).val ∧ (y a).val < off a + sz a) :
    View.write (Elt F) ((oV).slice (Rect.unit (s := S4096x3341) off sz hinb) (fun _ => rfl)).view g p Finset.univ y
      = p (fun a => (⟨(y a).val - off a, by have := hy a; omega⟩ : Fin (sz a))) := by
  conv_lhs => rw [← oWin_emb off sz hinb y hy]
  rw [View.write_emb_of_mem _ _ (Finset.mem_univ _)]
  rfl

/-- A write through a window, read off the window: what was there. -/
theorem write_oWin_of_not_mem (off sz : Fin 2 → ℕ) (hinb : ∀ a, off a + sz a ≤ S4096x3341.size a)
    (g : S4096x3341.Idx → Elt F .f32) (p : (Rect.unit (s := S4096x3341) off sz hinb).shape.Idx → Elt F .f32) (y : S4096x3341.Idx)
    (hy : ¬ ∀ a, off a ≤ (y a).val ∧ (y a).val < off a + sz a) :
    View.write (Elt F) ((oV).slice (Rect.unit (s := S4096x3341) off sz hinb) (fun _ => rfl)).view g p Finset.univ y = g y :=
  View.write_of_not_mem _ _ _ (by rw [View.setOn_univ, mem_oWin]; exact hy)

/-- The tile's row block: rows `b0 … b0 + 127`, every column. -/
theorem mem_oTR (L : grid0.Coords) (y : S4096x3341.Idx) :
    y ∈ (oV).view.setOn (oTR L).set ↔ 256 * (L 1).val + 128 * (L 0).val ≤ (y 0).val ∧ (y 0).val < 256 * (L 1).val + 128 * (L 0).val + 128 := by
  have e : (oV).view.setOn (oTR L).set = (oTR L).set := by
    ext i; simp only [View.setOn, Finset.mem_map]
    exact ⟨fun ⟨x, hx, e⟩ => e ▸ hx, fun h => ⟨i, h, rfl⟩⟩
  rw [e, Rect.mem_set_unit]
  have h1 : (y 1).val < 3341 := idx2_lt1 y
  constructor
  · intro h; exact h 0
  · intro h a
    match a with
    | ⟨0, _⟩ => exact h
    | ⟨1, _⟩ => exact ⟨Nat.zero_le _, by show (y 1).val < 0 + 3341; omega⟩

/-! ## A read of a source array through a unit-stride window -/

theorem read_xnWin (off sz : Fin 2 → ℕ) (hinb : ∀ a, off a + sz a ≤ S4096x13.size a) (fxn : S4096x13.Idx → Elt F .f32)
    (x : (Rect.unit (s := S4096x13) off sz hinb).shape.Idx) :
    View.read (Elt F) ((xnV).slice (Rect.unit (s := S4096x13) off sz hinb) (fun _ => rfl)).view fxn x
      = fxn (fun a => ⟨off a + (x a).val, by have := hinb a; have := (x a).isLt; show off a + (x a).val < S4096x13.size a; change (x a).val < sz a at this; omega⟩) := by
  rw [View.read_apply]
  refine (cast_eq _ _).trans (congrArg fxn (funext fun a => Fin.ext ?_))
  show off a + 1 * (x a).val = off a + (x a).val
  omega

theorem read_tbWin (off sz : Fin 2 → ℕ) (hinb : ∀ a, off a + sz a ≤ S26000x128.size a) (ftb : S26000x128.Idx → Elt F .f32)
    (x : (Rect.unit (s := S26000x128) off sz hinb).shape.Idx) :
    View.read (Elt F) ((tbV).slice (Rect.unit (s := S26000x128) off sz hinb) (fun _ => rfl)).view ftb x
      = ftb (fun a => ⟨off a + (x a).val, by have := hinb a; have := (x a).isLt; show off a + (x a).val < S26000x128.size a; change (x a).val < sz a at this; omega⟩) := by
  rw [View.read_apply]
  refine (cast_eq _ _).trans (congrArg ftb (funext fun a => Fin.ext ?_))
  show off a + 1 * (x a).val = off a + (x a).val
  omega

/-! ## The staging buffer's slots -/

theorem slot_set (s : ℕ) (hinb : ∀ a, (![s, 0, 0] : Fin 3 → ℕ) a + S1x128x128.size a ≤ S5x128x128.size a) :
    (((s1V).slice (Rect.unit (s := S5x128x128) ![s, 0, 0] S1x128x128.size hinb) (fun _ => rfl)).squeeze S128x128 squeezes_S1x128x128_S128x128).view.set
      = (Rect.unit (s := S5x128x128) ![s, 0, 0] S1x128x128.size hinb).set := by
  exact (View.set_reshape _ _).trans (View.set_slice_whole cc0_scratch1 _)

/-- A write to one slot is not seen through another. -/
theorem slot_read_write_ne (s t : ℕ) (hs : ∀ a, (![s, 0, 0] : Fin 3 → ℕ) a + S1x128x128.size a ≤ S5x128x128.size a)
    (ht : ∀ a, (![t, 0, 0] : Fin 3 → ℕ) a + S1x128x128.size a ≤ S5x128x128.size a) (hne : s ≠ t)
    (C : S5x128x128.Idx → Elt F .f32) (G : S128x128.Idx → Elt F .f32) :
    View.read (Elt F) (((s1V).slice (Rect.unit (s := S5x128x128) ![s, 0, 0] S1x128x128.size hs) (fun _ => rfl)).squeeze S128x128 squeezes_S1x128x128_S128x128).view
        (View.write (Elt F) (((s1V).slice (Rect.unit (s := S5x128x128) ![t, 0, 0] S1x128x128.size ht) (fun _ => rfl)).squeeze S128x128 squeezes_S1x128x128_S128x128).view C G Finset.univ)
      = View.read (Elt F) (((s1V).slice (Rect.unit (s := S5x128x128) ![s, 0, 0] S1x128x128.size hs) (fun _ => rfl)).squeeze S128x128 squeezes_S1x128x128_S128x128).view C := by
  refine View.read_congr (fun i hi => View.write_of_not_mem _ _ _ ?_)
  rw [View.setOn_univ, slot_set, Rect.mem_set_unit]
  rw [slot_set, Rect.mem_set_unit] at hi
  intro h
  have h1 := hi 0
  have h2 := h 0
  have e1 : (![s, 0, 0] : Fin 3 → ℕ) 0 = s := rfl
  have e2 : (![t, 0, 0] : Fin 3 → ℕ) 0 = t := rfl
  have e3 : S1x128x128.size 0 = 1 := rfl
  rw [e1, e3] at h1; rw [e2, e3] at h2
  omega

/-- A write to a slot read back through it. -/
theorem slot_read_write_self (s : ℕ) (hs : ∀ a, (![s, 0, 0] : Fin 3 → ℕ) a + S1x128x128.size a ≤ S5x128x128.size a)
    (C : S5x128x128.Idx → Elt F .f32) (G : S128x128.Idx → Elt F .f32) :
    View.read (Elt F) (((s1V).slice (Rect.unit (s := S5x128x128) ![s, 0, 0] S1x128x128.size hs) (fun _ => rfl)).squeeze S128x128 squeezes_S1x128x128_S128x128).view
        (View.write (Elt F) (((s1V).slice (Rect.unit (s := S5x128x128) ![s, 0, 0] S1x128x128.size hs) (fun _ => rfl)).squeeze S128x128 squeezes_S1x128x128_S128x128).view C G Finset.univ)
      = G :=
  View.read_write_univ _ _

/-! ## The gather's payload and the rows an offset list names, read at an index -/

theorem gather_apply (src : S26000x128.Idx → Elt F .f32) (r : Fin 128 → Fin 26000) (x : S128x128.Idx) :
    SparseCore.gatherPayload (F := F) gathers_S26000x128_S128x128 src r x = src (ix2 (r (x 0)) (x 1)) := by
  unfold SparseCore.gatherPayload
  refine congrArg src (funext fun b => Fin.ext ?_)
  match b with
  | ⟨0, _⟩ => rfl
  | ⟨1, _⟩ => rfl

theorem rows_val (offs : S128.Idx → Elt F .i32) (hn : S128.numel = 128) (hin : ∀ x, (offs x).toNat < 26000) (k : Fin 128) :
    (SparseCore.rows (F := F) offs hn hin k).val = (offs (ix1 k)).toNat := by
  unfold SparseCore.rows
  show (offs (S128.rowMajor.symm (k.cast hn.symm))).toNat = _
  have e : S128.rowMajor.symm (k.cast hn.symm) = ix1 k :=
    (Equiv.symm_apply_eq _).mpr (Fin.ext (by rw [Shape.rowMajor_val_one]; rfl))
  rw [e]

theorem readAs_same {s : Shape} {e : EltTy} (g : s.Idx → Elt F e) : (ReadAs.same (Val := Elt F)).apply g = g := rfl

/-! ## One field's gathered block read at an index of the result -/

variable [FloatOps F]

/-- The rows gathered for field `f`, read at the inside coordinates of a result index in the tile's rows and the field's
    columns: the specification's entry there. -/
theorem gather_field (f : ℕ) (hf : f < 26) (L : grid0.Coords) (fxt : S26x4096.Idx → BitVec 32) (fxn : S4096x13.Idx → Elt F .f32)
    (ftb : S26000x128.Idx → Elt F .f32)
    (hinT : ∀ a, (![0, 0] : Fin 2 → ℕ) a + S26000x128.size a ≤ S26000x128.size a)
    (hinR : ∀ a, (![f, 0] : Fin 2 → ℕ) a + S1x128.size a ≤ S26x128.size a)
    (hin : ∀ x, (View.read (Elt F) (((s0V).slice (Rect.unit (s := S26x128) ![f, 0] S1x128.size hinR) (fun _ => rfl)).squeeze S128 squeezes_S1x128_S128).view (idxF fxt L) x).toNat < 26000)
    (y : S4096x3341.Idx) (x : S128x128.Idx)
    (hx0 : 256 * (L 1).val + 128 * (L 0).val + (x 0).val = (y 0).val) (hx1 : 128 * f + (x 1).val = (y 1).val) :
    SparseCore.gatherPayload (F := F) gathers_S26000x128_S128x128
        (View.read (Elt F) ((tbV).slice (Rect.unit (s := S26000x128) ![0, 0] S26000x128.size hinT) (fun _ => rfl)).view ftb)
        (SparseCore.rows (F := F) (View.read (Elt F) (((s0V).slice (Rect.unit (s := S26x128) ![f, 0] S1x128.size hinR) (fun _ => rfl)).squeeze S128 squeezes_S1x128_S128).view (idxF fxt L)) rfl hin) x
      = outT fxt fxn ftb y := by
  have hx1lt : (x 1).val < 128 := (x 1).isLt
  have hx0lt : (x 0).val < 128 := (x 0).isLt
  have hdiv : (y 1).val / 128 = f := by omega
  have hlt : (y 1).val < 3328 := by omega
  have hbound := hin (ix1 (x 0))
  rw [read_row (F := F) fxt L f hinR (ix1 (x 0)) (⟨f, hf⟩ : Fin 26) (⟨(y 0).val, idx2_lt0 y⟩ : Fin 4096) rfl hx0.symm] at hbound
  refine (gather_apply (F := F) _ _ x).trans ?_
  refine (read_tbWin (F := F) _ _ hinT ftb _).trans ?_
  unfold outT
  rw [dif_pos hlt]
  subst hdiv
  refine congrArg ftb (funext fun a => Fin.ext ?_)
  match a with
  | ⟨0, _⟩ =>
    have hrv : (SparseCore.rows (F := F) _ rfl hin (x 0)).val
        = BitVec.toNat (fxt (ix2 (⟨(y 1).val / 128, hf⟩ : Fin 26) (⟨(y 0).val, idx2_lt0 y⟩ : Fin 4096)) + BitVec.ofNat 32 (1000 * ((y 1).val / 128))) :=
      (rows_val (F := F) _ rfl hin (x 0)).trans (congrArg BitVec.toNat
        (read_row (F := F) fxt L _ hinR (ix1 (x 0)) (⟨(y 1).val / 128, hf⟩ : Fin 26) (⟨(y 0).val, idx2_lt0 y⟩ : Fin 4096) rfl hx0.symm))
    have hfin : 0 + BitVec.toNat (fxt (ix2 (⟨(y 1).val / 128, hf⟩ : Fin 26) (⟨(y 0).val, idx2_lt0 y⟩ : Fin 4096)) + BitVec.ofNat 32 (1000 * ((y 1).val / 128)))
        = BitVec.toNat (fxt (ix2 (⟨(y 1).val / 128, hf⟩ : Fin 26) (⟨(y 0).val, idx2_lt0 y⟩ : Fin 4096)) + BitVec.ofNat 32 (1000 * ((y 1).val / 128))) % 26000 := by
      rw [Nat.mod_eq_of_lt hbound]; omega
    exact (congrArg (0 + ·) hrv).trans hfin
  | ⟨1, _⟩ =>
    show 0 + (x 1).val = (y 1).val % 128
    omega

/-! ## The numeric features' window -/

/-- The numeric features staged and copied into the result's last 13 columns: under that window the result holds
    the specification's entry. -/
theorem num_val (L : grid0.Coords) (fxt : S26x4096.Idx → BitVec 32) (fxn : S4096x13.Idx → Elt F .f32) (ftb : S26000x128.Idx → Elt F .f32)
    (fo : S4096x3341.Idx → Elt F .f32) (f2 : S128x13.Idx → Elt F .f32) (y : S4096x3341.Idx)
    (hy : y ∈ ((oV).slice (Rect.unit (s := S4096x3341) (k0_off2 L) S128x13.size (k0_off2_inb L)) (fun _ => rfl)).view.set) :
    View.write (Elt F) ((oV).slice (Rect.unit (s := S4096x3341) (k0_off2 L) S128x13.size (k0_off2_inb L)) (fun _ => rfl)).view fo
        ((ReadAs.same (Val := Elt F)).apply (View.read (Elt F) (s2V).view (View.write (Elt F) (s2V).view f2
          ((ReadAs.same (Val := Elt F)).apply (View.read (Elt F) ((xnV).slice (Rect.unit (s := S4096x13) (k0_off1 L) S128x13.size (k0_off1_inb L)) (fun _ => rfl)).view fxn))
          Finset.univ))) Finset.univ y
      = outT fxt fxn ftb y := by
  have hy' := (mem_oWin y).mp hy
  have e20 : k0_off2 L 0 = 256 * (L 1).val + 128 * (L 0).val := by rw [k0_off2_eq]; rfl
  have e21 : k0_off2 L 1 = 3328 := by rw [k0_off2_eq]; rfl
  have e10 : k0_off1 L 0 = 256 * (L 1).val + 128 * (L 0).val := by rw [k0_off1_eq]; rfl
  have e11 : k0_off1 L 1 = 0 := by rw [k0_off1_eq]; rfl
  have h0 := hy' 0
  have h1 := hy' 1
  rw [e20] at h0; rw [e21] at h1
  refine (write_oWin_of_mem (F := F) _ _ _ fo _ y hy').trans ?_
  show View.read (Elt F) (View.whole cc0_scratch2) (View.write (Elt F) (View.whole cc0_scratch2) f2
      (View.read (Elt F) ((xnV).slice (Rect.unit (s := S4096x13) (k0_off1 L) S128x13.size (k0_off1_inb L)) (fun _ => rfl)).view fxn) Finset.univ) _ = _
  rw [View.write_whole_univ, View.read_whole]
  refine (read_xnWin (F := F) _ _ _ fxn _).trans ?_
  unfold outT
  rw [dif_neg (by omega)]
  refine congrArg fxn (funext fun a => Fin.ext ?_)
  match a with
  | ⟨0, _⟩ =>
    show k0_off1 L 0 + ((y 0).val - k0_off2 L 0) = (y 0).val
    rw [e10, e20]; omega
  | ⟨1, _⟩ =>
    show k0_off1 L 1 + ((y 1).val - k0_off2 L 1) = (y 1).val - 3328
    rw [e11, e21]; omega

end Cert.Proof.KernelIdealSide
end
-- ==== Proof.OutValI.lean ====
/-
  The value the tile leaves in its rows of the result, read at an index. The numeric window holds the numeric
  features (`agree2`); outside it, the 26 field windows are written one after the other over disjoint column blocks, so
  the entry at an index is the payload of the one window that holds it, at the index's coordinates inside the window
  (`nest_val`, `agree1`); a payload is a slot of the staging buffer read after the gathers written to the buffer, which is
  the gathered block of that field (`slot_peel`, `pay_val`, with `gather_field`).
-/
import proofs.«201888_g37099927503118_cont_8to1_b_213_13_alg».proof.Proof.OutGenI

noncomputable section

namespace Cert.Proof.KernelIdealSide

open Cert.KernelIdeal Cert.KernelIdeal.Gen

open Idealize.ShloMosaic
open Idealize.ShloMosaic.SparseCore (S V T)
open Idealize.SL.Sem
open Idealize.ShloMosaic.ValueIdx

variable {F : FTy → Type}

local notation "xnV" => (Memref.whole Cert.KernelIdeal.main_arg1_scv : Memref Cert.KernelIdeal.sig Kind.scVector Space.hbm Cert.KernelIdeal.S4096x13 EltTy.f32)
local notation "tbV" => (Memref.whole Cert.KernelIdeal.main_v1_scv : Memref Cert.KernelIdeal.sig Kind.scVector Space.hbm Cert.KernelIdeal.S26000x128 EltTy.f32)
local notation "oV" => (Memref.whole Cert.KernelIdeal.main_v2_scv : Memref Cert.KernelIdeal.sig Kind.scVector Space.hbm Cert.KernelIdeal.S4096x3341 EltTy.f32)
local notation "s0V" => (Memref.whole Cert.KernelIdeal.cc0_scratch0 : Memref Cert.KernelIdeal.sig Kind.scVector Space.vmem Cert.KernelIdeal.S26x128 EltTy.i32)
local notation "s1V" => (Memref.whole Cert.KernelIdeal.cc0_scratch1 : Memref Cert.KernelIdeal.sig Kind.scVector Space.vmem Cert.KernelIdeal.S5x128x128 EltTy.f32)
local notation "s2V" => (Memref.whole Cert.KernelIdeal.cc0_scratch2 : Memref Cert.KernelIdeal.sig Kind.scVector Space.vmem Cert.KernelIdeal.S128x13 EltTy.f32)

variable [FloatOps F]

/-! ## The numeric window inside the tile's rows, and the rest of the rows -/

theorem w13_sub (L : grid0.Coords) :
    ((oV).slice (Rect.unit (s := S4096x3341) (k0_off2 L) S128x13.size (k0_off2_inb L)) (fun _ => rfl)).view.set ⊆ (oV).view.setOn (oTR L).set := by
  intro y hy
  have hy' := (mem_oWin y).mp hy
  have e20 : k0_off2 L 0 = 256 * (L 1).val + 128 * (L 0).val := by rw [k0_off2_eq]; rfl
  have h0 : k0_off2 L 0 ≤ (y 0).val ∧ (y 0).val < k0_off2 L 0 + 128 := hy' 0
  rw [e20] at h0
  exact (mem_oTR L y).mpr h0

/-- An index of the tile's rows outside the numeric window: its row is the tile's, its column is left of 3328. -/
theorem block_cols (L : grid0.Coords) (y : S4096x3341.Idx)
    (hy : y ∈ (oV).view.setOn (oTR L).set \ ((oV).slice (Rect.unit (s := S4096x3341) (k0_off2 L) S128x13.size (k0_off2_inb L)) (fun _ => rfl)).view.set) :
    (256 * (L 1).val + 128 * (L 0).val ≤ (y 0).val ∧ (y 0).val < 256 * (L 1).val + 128 * (L 0).val + 128) ∧ (y 1).val < 3328 := by
  obtain ⟨h1, h2⟩ := Finset.mem_sdiff.mp hy
  have hrow := (mem_oTR L y).mp h1
  refine ⟨hrow, ?_⟩
  by_contra hc
  have e20 : k0_off2 L 0 = 256 * (L 1).val + 128 * (L 0).val := by rw [k0_off2_eq]; rfl
  have e21 : k0_off2 L 1 = 3328 := by rw [k0_off2_eq]; rfl
  have hy1 : (y 1).val < 3341 := idx2_lt1 y
  refine h2 ((mem_oWin y).mpr fun a => ?_)
  match a with
  | ⟨0, _⟩ =>
    show k0_off2 L 0 ≤ (y 0).val ∧ (y 0).val < k0_off2 L 0 + 128
    rw [e20]; exact hrow
  | ⟨1, _⟩ =>
    show k0_off2 L 1 ≤ (y 1).val ∧ (y 1).val < k0_off2 L 1 + 13
    rw [e21]; omega

/-! ## Reading a field's payload: through the staging buffer's slot to the gathered block -/

/-- Reads a slot of the staging buffer through the writes made to the buffer, outermost first: a write to another slot
    is skipped, the write to the slot itself is the value read. -/
macro "slot_peel " x:term : tactic =>
  `(tactic| repeat (first
      | (refine (congrFun (slot_read_write_self _ _ _ _) $x).trans ?_)
      | (refine (congrFun (slot_read_write_ne _ _ _ _ (by decide) _ _) $x).trans ?_)))

/-- A window's payload — a slot of the staging buffer read after the gathers written to it — holds the specification's
    entries at the window's inside coordinates. -/
macro "pay_val" : tactic =>
  `(tactic| (intro x y hx0 hx1; slot_peel x; exact gather_field _ (by norm_num) _ _ _ _ _ _ _ y x hx0 hx1))

/-! ## The 26 windows written one after the other -/

/-- A write through a 128 × 128 window whose columns do not hold `y`'s column leaves the entry at `y`. -/
theorem win_peel {off : Fin 2 → ℕ} {hinb : ∀ a, off a + S128x128.size a ≤ S4096x3341.size a}
    (g : S4096x3341.Idx → Elt F .f32) (p : S128x128.Idx → Elt F .f32) (y : S4096x3341.Idx) {r c : ℕ} (hoff : off = ![r, c])
    (hdis : (y 1).val < c ∨ c + 128 ≤ (y 1).val) :
    View.write (Elt F) ((oV).slice (Rect.unit (s := S4096x3341) off S128x128.size hinb) (fun _ => rfl)).view g p Finset.univ y = g y := by
  subst hoff
  refine write_oWin_of_not_mem (F := F) _ _ _ g p y (fun h => ?_)
  have h1 : c ≤ (y 1).val ∧ (y 1).val < c + 128 := h 1
  omega

/-- A write through the 128 × 128 window that holds `y`: the payload at `y`'s coordinates inside the window. -/
theorem win_hit {off : Fin 2 → ℕ} {hinb : ∀ a, off a + S128x128.size a ≤ S4096x3341.size a}
    (g : S4096x3341.Idx → Elt F .f32) (p : S128x128.Idx → Elt F .f32) (y : S4096x3341.Idx) {r c : ℕ} (hoff : off = ![r, c])
    (hrow : r ≤ (y 0).val ∧ (y 0).val < r + 128) (hcol : c ≤ (y 1).val ∧ (y 1).val < c + 128) {v : Elt F .f32}
    (hp : ∀ x : S128x128.Idx, r + (x 0).val = (y 0).val → c + (x 1).val = (y 1).val → p x = v) :
    View.write (Elt F) ((oV).slice (Rect.unit (s := S4096x3341) off S128x128.size hinb) (fun _ => rfl)).view g p Finset.univ y = v := by
  subst hoff
  have hy : ∀ a, (![r, c] : Fin 2 → ℕ) a ≤ (y a).val ∧ (y a).val < (![r, c] : Fin 2 → ℕ) a + S128x128.size a := fun a =>
    match a with
    | ⟨0, _⟩ => hrow
    | ⟨1, _⟩ => hcol
  refine (write_oWin_of_mem (F := F) _ _ _ g p y hy).trans (hp _ ?_ ?_)
  · show r + ((y 0).val - r) = (y 0).val
    omega
  · show c + ((y 1).val - c) = (y 1).val
    omega

set_option maxHeartbeats 2000000 in
/-- THE 26 WRITES READ AT AN INDEX of the tile's rows left of the numeric features: if each window's payload holds the
    specification's entries at the window's inside coordinates, so does the result of the nest. -/
theorem nest_val (L : grid0.Coords) (fxt : S26x4096.Idx → BitVec 32) (fxn : S4096x13.Idx → Elt F .f32) (ftb : S26000x128.Idx → Elt F .f32)
    (g2 : S4096x3341.Idx → Elt F .f32)
    (p0 : S128x128.Idx → Elt F .f32) (p1 : S128x128.Idx → Elt F .f32) (p2 : S128x128.Idx → Elt F .f32) (p3 : S128x128.Idx → Elt F .f32) (p4 : S128x128.Idx → Elt F .f32) (p5 : S128x128.Idx → Elt F .f32) (p6 : S128x128.Idx → Elt F .f32) (p7 : S128x128.Idx → Elt F .f32) (p8 : S128x128.Idx → Elt F .f32) (p9 : S128x128.Idx → Elt F .f32) (p10 : S128x128.Idx → Elt F .f32) (p11 : S128x128.Idx → Elt F .f32) (p12 : S128x128.Idx → Elt F .f32) (p13 : S128x128.Idx → Elt F .f32) (p14 : S128x128.Idx → Elt F .f32) (p15 : S128x128.Idx → Elt F .f32) (p16 : S128x128.Idx → Elt F .f32) (p17 : S128x128.Idx → Elt F .f32) (p18 : S128x128.Idx → Elt F .f32) (p19 : S128x128.Idx → Elt F .f32) (p20 : S128x128.Idx → Elt F .f32) (p21 : S128x128.Idx → Elt F .f32) (p22 : S128x128.Idx → Elt F .f32) (p23 : S128x128.Idx → Elt F .f32) (p24 : S128x128.Idx → Elt F .f32) (p25 : S128x128.Idx → Elt F .f32)
    (h0 : ∀ (x : S128x128.Idx) (y : S4096x3341.Idx), 256 * (L 1).val + 128 * (L 0).val + (x 0).val = (y 0).val → 0 + (x 1).val = (y 1).val → p0 x = outT fxt fxn ftb y)
    (h1 : ∀ (x : S128x128.Idx) (y : S4096x3341.Idx), 256 * (L 1).val + 128 * (L 0).val + (x 0).val = (y 0).val → 128 + (x 1).val = (y 1).val → p1 x = outT fxt fxn ftb y)
    (h2 : ∀ (x : S128x128.Idx) (y : S4096x3341.Idx), 256 * (L 1).val + 128 * (L 0).val + (x 0).val = (y 0).val → 256 + (x 1).val = (y 1).val → p2 x = outT fxt fxn ftb y)
    (h3 : ∀ (x : S128x128.Idx) (y : S4096x3341.Idx), 256 * (L 1).val + 128 * (L 0).val + (x 0).val = (y 0).val → 384 + (x 1).val = (y 1).val → p3 x = outT fxt fxn ftb y)
    (h4 : ∀ (x : S128x128.Idx) (y : S4096x3341.Idx), 256 * (L 1).val + 128 * (L 0).val + (x 0).val = (y 0).val → 512 + (x 1).val = (y 1).val → p4 x = outT fxt fxn ftb y)
    (h5 : ∀ (x : S128x128.Idx) (y : S4096x3341.Idx), 256 * (L 1).val + 128 * (L 0).val + (x 0).val = (y 0).val → 640 + (x 1).val = (y 1).val → p5 x = outT fxt fxn ftb y)
    (h6 : ∀ (x : S128x128.Idx) (y : S4096x3341.Idx), 256 * (L 1).val + 128 * (L 0).val + (x 0).val = (y 0).val → 768 + (x 1).val = (y 1).val → p6 x = outT fxt fxn ftb y)
    (h7 : ∀ (x : S128x128.Idx) (y : S4096x3341.Idx), 256 * (L 1).val + 128 * (L 0).val + (x 0).val = (y 0).val → 896 + (x 1).val = (y 1).val → p7 x = outT fxt fxn ftb y)
    (h8 : ∀ (x : S128x128.Idx) (y : S4096x3341.Idx), 256 * (L 1).val + 128 * (L 0).val + (x 0).val = (y 0).val → 1024 + (x 1).val = (y 1).val → p8 x = outT fxt fxn ftb y)
    (h9 : ∀ (x : S128x128.Idx) (y : S4096x3341.Idx), 256 * (L 1).val + 128 * (L 0).val + (x 0).val = (y 0).val → 1152 + (x 1).val = (y 1).val → p9 x = outT fxt fxn ftb y)
    (h10 : ∀ (x : S128x128.Idx) (y : S4096x3341.Idx), 256 * (L 1).val + 128 * (L 0).val + (x 0).val = (y 0).val → 1280 + (x 1).val = (y 1).val → p10 x = outT fxt fxn ftb y)
    (h11 : ∀ (x : S128x128.Idx) (y : S4096x3341.Idx), 256 * (L 1).val + 128 * (L 0).val + (x 0).val = (y 0).val → 1408 + (x 1).val = (y 1).val → p11 x = outT fxt fxn ftb y)
    (h12 : ∀ (x : S128x128.Idx) (y : S4096x3341.Idx), 256 * (L 1).val + 128 * (L 0).val + (x 0).val = (y 0).val → 1536 + (x 1).val = (y 1).val → p12 x = outT fxt fxn ftb y)
    (h13 : ∀ (x : S128x128.Idx) (y : S4096x3341.Idx), 256 * (L 1).val + 128 * (L 0).val + (x 0).val = (y 0).val → 1664 + (x 1).val = (y 1).val → p13 x = outT fxt fxn ftb y)
    (h14 : ∀ (x : S128x128.Idx) (y : S4096x3341.Idx), 256 * (L 1).val + 128 * (L 0).val + (x 0).val = (y 0).val → 1792 + (x 1).val = (y 1).val → p14 x = outT fxt fxn ftb y)
    (h15 : ∀ (x : S128x128.Idx) (y : S4096x3341.Idx), 256 * (L 1).val + 128 * (L 0).val + (x 0).val = (y 0).val → 1920 + (x 1).val = (y 1).val → p15 x = outT fxt fxn ftb y)
    (h16 : ∀ (x : S128x128.Idx) (y : S4096x3341.Idx), 256 * (L 1).val + 128 * (L 0).val + (x 0).val = (y 0).val → 2048 + (x 1).val = (y 1).val → p16 x = outT fxt fxn ftb y)
    (h17 : ∀ (x : S128x128.Idx) (y : S4096x3341.Idx), 256 * (L 1).val + 128 * (L 0).val + (x 0).val = (y 0).val → 2176 + (x 1).val = (y 1).val → p17 x = outT fxt fxn ftb y)
    (h18 : ∀ (x : S128x128.Idx) (y : S4096x3341.Idx), 256 * (L 1).val + 128 * (L 0).val + (x 0).val = (y 0).val → 2304 + (x 1).val = (y 1).val → p18 x = outT fxt fxn ftb y)
    (h19 : ∀ (x : S128x128.Idx) (y : S4096x3341.Idx), 256 * (L 1).val + 128 * (L 0).val + (x 0).val = (y 0).val → 2432 + (x 1).val = (y 1).val → p19 x = outT fxt fxn ftb y)
    (h20 : ∀ (x : S128x128.Idx) (y : S4096x3341.Idx), 256 * (L 1).val + 128 * (L 0).val + (x 0).val = (y 0).val → 2560 + (x 1).val = (y 1).val → p20 x = outT fxt fxn ftb y)
    (h21 : ∀ (x : S128x128.Idx) (y : S4096x3341.Idx), 256 * (L 1).val + 128 * (L 0).val + (x 0).val = (y 0).val → 2688 + (x 1).val = (y 1).val → p21 x = outT fxt fxn ftb y)
    (h22 : ∀ (x : S128x128.Idx) (y : S4096x3341.Idx), 256 * (L 1).val + 128 * (L 0).val + (x 0).val = (y 0).val → 2816 + (x 1).val = (y 1).val → p22 x = outT fxt fxn ftb y)
    (h23 : ∀ (x : S128x128.Idx) (y : S4096x3341.Idx), 256 * (L 1).val + 128 * (L 0).val + (x 0).val = (y 0).val → 2944 + (x 1).val = (y 1).val → p23 x = outT fxt fxn ftb y)
    (h24 : ∀ (x : S128x128.Idx) (y : S4096x3341.Idx), 256 * (L 1).val + 128 * (L 0).val + (x 0).val = (y 0).val → 3072 + (x 1).val = (y 1).val → p24 x = outT fxt fxn ftb y)
    (h25 : ∀ (x : S128x128.Idx) (y : S4096x3341.Idx), 256 * (L 1).val + 128 * (L 0).val + (x 0).val = (y 0).val → 3200 + (x 1).val = (y 1).val → p25 x = outT fxt fxn ftb y)
    (y : S4096x3341.Idx) (hrow : 256 * (L 1).val + 128 * (L 0).val ≤ (y 0).val ∧ (y 0).val < 256 * (L 1).val + 128 * (L 0).val + 128) (hcol : (y 1).val < 3328) :
    View.write (Elt F) ((oV).slice (Rect.unit (s := S4096x3341) (k0_off29 L) S128x128.size (k0_off29_inb L)) (fun _ => rfl)).view (
      View.write (Elt F) ((oV).slice (Rect.unit (s := S4096x3341) (k0_off28 L) S128x128.size (k0_off28_inb L)) (fun _ => rfl)).view (
      View.write (Elt F) ((oV).slice (Rect.unit (s := S4096x3341) (k0_off27 L) S128x128.size (k0_off27_inb L)) (fun _ => rfl)).view (
      View.write (Elt F) ((oV).slice (Rect.unit (s := S4096x3341) (k0_off26 L) S128x128.size (k0_off26_inb L)) (fun _ => rfl)).view (
      View.write (Elt F) ((oV).slice (Rect.unit (s := S4096x3341) (k0_off25 L) S128x128.size (k0_off25_inb L)) (fun _ => rfl)).view (
      View.write (Elt F) ((oV).slice (Rect.unit (s := S4096x3341) (k0_off24 L) S128x128.size (k0_off24_inb L)) (fun _ => rfl)).view (
      View.write (Elt F) ((oV).slice (Rect.unit (s := S4096x3341) (k0_off23 L) S128x128.size (k0_off23_inb L)) (fun _ => rfl)).view (
      View.write (Elt F) ((oV).slice (Rect.unit (s := S4096x3341) (k0_off22 L) S128x128.size (k0_off22_inb L)) (fun _ => rfl)).view (
      View.write (Elt F) ((oV).slice (Rect.unit (s := S4096x3341) (k0_off21 L) S128x128.size (k0_off21_inb L)) (fun _ => rfl)).view (
      View.write (Elt F) ((oV).slice (Rect.unit (s := S4096x3341) (k0_off20 L) S128x128.size (k0_off20_inb L)) (fun _ => rfl)).view (
      View.write (Elt F) ((oV).slice (Rect.unit (s := S4096x3341) (k0_off19 L) S128x128.size (k0_off19_inb L)) (fun _ => rfl)).view (
      View.write (Elt F) ((oV).slice (Rect.unit (s := S4096x3341) (k0_off18 L) S128x128.size (k0_off18_inb L)) (fun _ => rfl)).view (
      View.write (Elt F) ((oV).slice (Rect.unit (s := S4096x3341) (k0_off17 L) S128x128.size (k0_off17_inb L)) (fun _ => rfl)).view (
      View.write (Elt F) ((oV).slice (Rect.unit (s := S4096x3341) (k0_off16 L) S128x128.size (k0_off16_inb L)) (fun _ => rfl)).view (
      View.write (Elt F) ((oV).slice (Rect.unit (s := S4096x3341) (k0_off15 L) S128x128.size (k0_off15_inb L)) (fun _ => rfl)).view (
      View.write (Elt F) ((oV).slice (Rect.unit (s := S4096x3341) (k0_off14 L) S128x128.size (k0_off14_inb L)) (fun _ => rfl)).view (
      View.write (Elt F) ((oV).slice (Rect.unit (s := S4096x3341) (k0_off13 L) S128x128.size (k0_off13_inb L)) (fun _ => rfl)).view (
      View.write (Elt F) ((oV).slice (Rect.unit (s := S4096x3341) (k0_off12 L) S128x128.size (k0_off12_inb L)) (fun _ => rfl)).view (
      View.write (Elt F) ((oV).slice (Rect.unit (s := S4096x3341) (k0_off11 L) S128x128.size (k0_off11_inb L)) (fun _ => rfl)).view (
      View.write (Elt F) ((oV).slice (Rect.unit (s := S4096x3341) (k0_off10 L) S128x128.size (k0_off10_inb L)) (fun _ => rfl)).view (
      View.write (Elt F) ((oV).slice (Rect.unit (s := S4096x3341) (k0_off9 L) S128x128.size (k0_off9_inb L)) (fun _ => rfl)).view (
      View.write (Elt F) ((oV).slice (Rect.unit (s := S4096x3341) (k0_off8 L) S128x128.size (k0_off8_inb L)) (fun _ => rfl)).view (
      View.write (Elt F) ((oV).slice (Rect.unit (s := S4096x3341) (k0_off7 L) S128x128.size (k0_off7_inb L)) (fun _ => rfl)).view (
      View.write (Elt F) ((oV).slice (Rect.unit (s := S4096x3341) (k0_off6 L) S128x128.size (k0_off6_inb L)) (fun _ => rfl)).view (
      View.write (Elt F) ((oV).slice (Rect.unit (s := S4096x3341) (k0_off5 L) S128x128.size (k0_off5_inb L)) (fun _ => rfl)).view (
      View.write (Elt F) ((oV).slice (Rect.unit (s := S4096x3341) (k0_off4 L) S128x128.size (k0_off4_inb L)) (fun _ => rfl)).view (g2) p0 Finset.univ) p1 Finset.univ) p2 Finset.univ) p3 Finset.univ) p4 Finset.univ) p5 Finset.univ) p6 Finset.univ) p7 Finset.univ) p8 Finset.univ) p9 Finset.univ) p10 Finset.univ) p11 Finset.univ) p12 Finset.univ) p13 Finset.univ) p14 Finset.univ) p15 Finset.univ) p16 Finset.univ) p17 Finset.univ) p18 Finset.univ) p19 Finset.univ) p20 Finset.univ) p21 Finset.univ) p22 Finset.univ) p23 Finset.univ) p24 Finset.univ) p25 Finset.univ y
      = outT fxt fxn ftb y := by
  obtain ⟨f, hfeq⟩ : ∃ f, (y 1).val / 128 = f := ⟨_, rfl⟩
  have hf : f < 26 := by omega
  interval_cases f
  · -- column block 0
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    refine (win_peel (F := F) _ _ y (k0_off24_eq L) (by omega)).trans ?_
    refine (win_peel (F := F) _ _ y (k0_off23_eq L) (by omega)).trans ?_
    refine (win_peel (F := F) _ _ y (k0_off22_eq L) (by omega)).trans ?_
    refine (win_peel (F := F) _ _ y (k0_off21_eq L) (by omega)).trans ?_
    refine (win_peel (F := F) _ _ y (k0_off20_eq L) (by omega)).trans ?_
    refine (win_peel (F := F) _ _ y (k0_off19_eq L) (by omega)).trans ?_
    refine (win_peel (F := F) _ _ y (k0_off18_eq L) (by omega)).trans ?_
    refine (win_peel (F := F) _ _ y (k0_off17_eq L) (by omega)).trans ?_
    refine (win_peel (F := F) _ _ y (k0_off16_eq L) (by omega)).trans ?_
    refine (win_peel (F := F) _ _ y (k0_off15_eq L) (by omega)).trans ?_
    refine (win_peel (F := F) _ _ y (k0_off14_eq L) (by omega)).trans ?_
    refine (win_peel (F := F) _ _ y (k0_off13_eq L) (by omega)).trans ?_
    refine (win_peel (F := F) _ _ y (k0_off12_eq L) (by omega)).trans ?_
    refine (win_peel (F := F) _ _ y (k0_off11_eq L) (by omega)).trans ?_
    refine (win_peel (F := F) _ _ y (k0_off10_eq L) (by omega)).trans ?_
    refine (win_peel (F := F) _ _ y (k0_off9_eq L) (by omega)).trans ?_
    refine (win_peel (F := F) _ _ y (k0_off8_eq L) (by omega)).trans ?_
    refine (win_peel (F := F) _ _ y (k0_off7_eq L) (by omega)).trans ?_
    refine (win_peel (F := F) _ _ y (k0_off6_eq L) (by omega)).trans ?_
    refine (win_peel (F := F) _ _ y (k0_off5_eq L) (by omega)).trans ?_
    exact win_hit (F := F) _ _ y (k0_off4_eq L) hrow (by omega) (fun x hx0 hx1 => h0 x y hx0 hx1)
  · -- column block 1
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    refine (win_peel (F := F) _ _ y (k0_off24_eq L) (by omega)).trans ?_
    refine (win_peel (F := F) _ _ y (k0_off23_eq L) (by omega)).trans ?_
    refine (win_peel (F := F) _ _ y (k0_off22_eq L) (by omega)).trans ?_
    refine (win_peel (F := F) _ _ y (k0_off21_eq L) (by omega)).trans ?_
    refine (win_peel (F := F) _ _ y (k0_off20_eq L) (by omega)).trans ?_
    refine (win_peel (F := F) _ _ y (k0_off19_eq L) (by omega)).trans ?_
    refine (win_peel (F := F) _ _ y (k0_off18_eq L) (by omega)).trans ?_
    refine (win_peel (F := F) _ _ y (k0_off17_eq L) (by omega)).trans ?_
    refine (win_peel (F := F) _ _ y (k0_off16_eq L) (by omega)).trans ?_
    refine (win_peel (F := F) _ _ y (k0_off15_eq L) (by omega)).trans ?_
    refine (win_peel (F := F) _ _ y (k0_off14_eq L) (by omega)).trans ?_
    refine (win_peel (F := F) _ _ y (k0_off13_eq L) (by omega)).trans ?_
    refine (win_peel (F := F) _ _ y (k0_off12_eq L) (by omega)).trans ?_
    refine (win_peel (F := F) _ _ y (k0_off11_eq L) (by omega)).trans ?_
    refine (win_peel (F := F) _ _ y (k0_off10_eq L) (by omega)).trans ?_
    refine (win_peel (F := F) _ _ y (k0_off9_eq L) (by omega)).trans ?_
    refine (win_peel (F := F) _ _ y (k0_off8_eq L) (by omega)).trans ?_
    refine (win_peel (F := F) _ _ y (k0_off7_eq L) (by omega)).trans ?_
    refine (win_peel (F := F) _ _ y (k0_off6_eq L) (by omega)).trans ?_
    exact win_hit (F := F) _ _ y (k0_off5_eq L) hrow (by omega) (fun x hx0 hx1 => h1 x y hx0 hx1)
  · -- column block 2
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    refine (win_peel (F := F) _ _ y (k0_off24_eq L) (by omega)).trans ?_
    refine (win_peel (F := F) _ _ y (k0_off23_eq L) (by omega)).trans ?_
    refine (win_peel (F := F) _ _ y (k0_off22_eq L) (by omega)).trans ?_
    refine (win_peel (F := F) _ _ y (k0_off21_eq L) (by omega)).trans ?_
    refine (win_peel (F := F) _ _ y (k0_off20_eq L) (by omega)).trans ?_
    refine (win_peel (F := F) _ _ y (k0_off19_eq L) (by omega)).trans ?_
    refine (win_peel (F := F) _ _ y (k0_off18_eq L) (by omega)).trans ?_
    refine (win_peel (F := F) _ _ y (k0_off17_eq L) (by omega)).trans ?_
    refine (win_peel (F := F) _ _ y (k0_off16_eq L) (by omega)).trans ?_
    refine (win_peel (F := F) _ _ y (k0_off15_eq L) (by omega)).trans ?_
    refine (win_peel (F := F) _ _ y (k0_off14_eq L) (by omega)).trans ?_
    refine (win_peel (F := F) _ _ y (k0_off13_eq L) (by omega)).trans ?_
    refine (win_peel (F := F) _ _ y (k0_off12_eq L) (by omega)).trans ?_
    refine (win_peel (F := F) _ _ y (k0_off11_eq L) (by omega)).trans ?_
    refine (win_peel (F := F) _ _ y (k0_off10_eq L) (by omega)).trans ?_
    refine (win_peel (F := F) _ _ y (k0_off9_eq L) (by omega)).trans ?_
    refine (win_peel (F := F) _ _ y (k0_off8_eq L) (by omega)).trans ?_
    refine (win_peel (F := F) _ _ y (k0_off7_eq L) (by omega)).trans ?_
    exact win_hit (F := F) _ _ y (k0_off6_eq L) hrow (by omega) (fun x hx0 hx1 => h2 x y hx0 hx1)
  · -- column block 3
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    refine (win_peel (F := F) _ _ y (k0_off24_eq L) (by omega)).trans ?_
    refine (win_peel (F := F) _ _ y (k0_off23_eq L) (by omega)).trans ?_
    refine (win_peel (F := F) _ _ y (k0_off22_eq L) (by omega)).trans ?_
    refine (win_peel (F := F) _ _ y (k0_off21_eq L) (by omega)).trans ?_
    refine (win_peel (F := F) _ _ y (k0_off20_eq L) (by omega)).trans ?_
    refine (win_peel (F := F) _ _ y (k0_off19_eq L) (by omega)).trans ?_
    refine (win_peel (F := F) _ _ y (k0_off18_eq L) (by omega)).trans ?_
    refine (win_peel (F := F) _ _ y (k0_off17_eq L) (by omega)).trans ?_
    refine (win_peel (F := F) _ _ y (k0_off16_eq L) (by omega)).trans ?_
    refine (win_peel (F := F) _ _ y (k0_off15_eq L) (by omega)).trans ?_
    refine (win_peel (F := F) _ _ y (k0_off14_eq L) (by omega)).trans ?_
    refine (win_peel (F := F) _ _ y (k0_off13_eq L) (by omega)).trans ?_
    refine (win_peel (F := F) _ _ y (k0_off12_eq L) (by omega)).trans ?_
    refine (win_peel (F := F) _ _ y (k0_off11_eq L) (by omega)).trans ?_
    refine (win_peel (F := F) _ _ y (k0_off10_eq L) (by omega)).trans ?_
    refine (win_peel (F := F) _ _ y (k0_off9_eq L) (by omega)).trans ?_
    refine (win_peel (F := F) _ _ y (k0_off8_eq L) (by omega)).trans ?_
    exact win_hit (F := F) _ _ y (k0_off7_eq L) hrow (by omega) (fun x hx0 hx1 => h3 x y hx0 hx1)
  · -- column block 4
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    refine (win_peel (F := F) _ _ y (k0_off24_eq L) (by omega)).trans ?_
    refine (win_peel (F := F) _ _ y (k0_off23_eq L) (by omega)).trans ?_
    refine (win_peel (F := F) _ _ y (k0_off22_eq L) (by omega)).trans ?_
    refine (win_peel (F := F) _ _ y (k0_off21_eq L) (by omega)).trans ?_
    refine (win_peel (F := F) _ _ y (k0_off20_eq L) (by omega)).trans ?_
    refine (win_peel (F := F) _ _ y (k0_off19_eq L) (by omega)).trans ?_
    refine (win_peel (F := F) _ _ y (k0_off18_eq L) (by omega)).trans ?_
    refine (win_peel (F := F) _ _ y (k0_off17_eq L) (by omega)).trans ?_
    refine (win_peel (F := F) _ _ y (k0_off16_eq L) (by omega)).trans ?_
    refine (win_peel (F := F) _ _ y (k0_off15_eq L) (by omega)).trans ?_
    refine (win_peel (F := F) _ _ y (k0_off14_eq L) (by omega)).trans ?_
    refine (win_peel (F := F) _ _ y (k0_off13_eq L) (by omega)).trans ?_
    refine (win_peel (F := F) _ _ y (k0_off12_eq L) (by omega)).trans ?_
    refine (win_peel (F := F) _ _ y (k0_off11_eq L) (by omega)).trans ?_
    refine (win_peel (F := F) _ _ y (k0_off10_eq L) (by omega)).trans ?_
    refine (win_peel (F := F) _ _ y (k0_off9_eq L) (by omega)).trans ?_
    exact win_hit (F := F) _ _ y (k0_off8_eq L) hrow (by omega) (fun x hx0 hx1 => h4 x y hx0 hx1)
  · -- column block 5
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    refine (win_peel (F := F) _ _ y (k0_off24_eq L) (by omega)).trans ?_
    refine (win_peel (F := F) _ _ y (k0_off23_eq L) (by omega)).trans ?_
    refine (win_peel (F := F) _ _ y (k0_off22_eq L) (by omega)).trans ?_
    refine (win_peel (F := F) _ _ y (k0_off21_eq L) (by omega)).trans ?_
    refine (win_peel (F := F) _ _ y (k0_off20_eq L) (by omega)).trans ?_
    refine (win_peel (F := F) _ _ y (k0_off19_eq L) (by omega)).trans ?_
    refine (win_peel (F := F) _ _ y (k0_off18_eq L) (by omega)).trans ?_
    refine (win_peel (F := F) _ _ y (k0_off17_eq L) (by omega)).trans ?_
    refine (win_peel (F := F) _ _ y (k0_off16_eq L) (by omega)).trans ?_
    refine (win_peel (F := F) _ _ y (k0_off15_eq L) (by omega)).trans ?_
    refine (win_peel (F := F) _ _ y (k0_off14_eq L) (by omega)).trans ?_
    refine (win_peel (F := F) _ _ y (k0_off13_eq L) (by omega)).trans ?_
    refine (win_peel (F := F) _ _ y (k0_off12_eq L) (by omega)).trans ?_
    refine (win_peel (F := F) _ _ y (k0_off11_eq L) (by omega)).trans ?_
    refine (win_peel (F := F) _ _ y (k0_off10_eq L) (by omega)).trans ?_
    exact win_hit (F := F) _ _ y (k0_off9_eq L) hrow (by omega) (fun x hx0 hx1 => h5 x y hx0 hx1)
  · -- column block 6
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    refine (win_peel (F := F) _ _ y (k0_off24_eq L) (by omega)).trans ?_
    refine (win_peel (F := F) _ _ y (k0_off23_eq L) (by omega)).trans ?_
    refine (win_peel (F := F) _ _ y (k0_off22_eq L) (by omega)).trans ?_
    refine (win_peel (F := F) _ _ y (k0_off21_eq L) (by omega)).trans ?_
    refine (win_peel (F := F) _ _ y (k0_off20_eq L) (by omega)).trans ?_
    refine (win_peel (F := F) _ _ y (k0_off19_eq L) (by omega)).trans ?_
    refine (win_peel (F := F) _ _ y (k0_off18_eq L) (by omega)).trans ?_
    refine (win_peel (F := F) _ _ y (k0_off17_eq L) (by omega)).trans ?_
    refine (win_peel (F := F) _ _ y (k0_off16_eq L) (by omega)).trans ?_
    refine (win_peel (F := F) _ _ y (k0_off15_eq L) (by omega)).trans ?_
    refine (win_peel (F := F) _ _ y (k0_off14_eq L) (by omega)).trans ?_
    refine (win_peel (F := F) _ _ y (k0_off13_eq L) (by omega)).trans ?_
    refine (win_peel (F := F) _ _ y (k0_off12_eq L) (by omega)).trans ?_
    refine (win_peel (F := F) _ _ y (k0_off11_eq L) (by omega)).trans ?_
    exact win_hit (F := F) _ _ y (k0_off10_eq L) hrow (by omega) (fun x hx0 hx1 => h6 x y hx0 hx1)
  · -- column block 7
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    refine (win_peel (F := F) _ _ y (k0_off24_eq L) (by omega)).trans ?_
    refine (win_peel (F := F) _ _ y (k0_off23_eq L) (by omega)).trans ?_
    refine (win_peel (F := F) _ _ y (k0_off22_eq L) (by omega)).trans ?_
    refine (win_peel (F := F) _ _ y (k0_off21_eq L) (by omega)).trans ?_
    refine (win_peel (F := F) _ _ y (k0_off20_eq L) (by omega)).trans ?_
    refine (win_peel (F := F) _ _ y (k0_off19_eq L) (by omega)).trans ?_
    refine (win_peel (F := F) _ _ y (k0_off18_eq L) (by omega)).trans ?_
    refine (win_peel (F := F) _ _ y (k0_off17_eq L) (by omega)).trans ?_
    refine (win_peel (F := F) _ _ y (k0_off16_eq L) (by omega)).trans ?_
    refine (win_peel (F := F) _ _ y (k0_off15_eq L) (by omega)).trans ?_
    refine (win_peel (F := F) _ _ y (k0_off14_eq L) (by omega)).trans ?_
    refine (win_peel (F := F) _ _ y (k0_off13_eq L) (by omega)).trans ?_
    refine (win_peel (F := F) _ _ y (k0_off12_eq L) (by omega)).trans ?_
    exact win_hit (F := F) _ _ y (k0_off11_eq L) hrow (by omega) (fun x hx0 hx1 => h7 x y hx0 hx1)
  · -- column block 8
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    refine (win_peel (F := F) _ _ y (k0_off24_eq L) (by omega)).trans ?_
    refine (win_peel (F := F) _ _ y (k0_off23_eq L) (by omega)).trans ?_
    refine (win_peel (F := F) _ _ y (k0_off22_eq L) (by omega)).trans ?_
    refine (win_peel (F := F) _ _ y (k0_off21_eq L) (by omega)).trans ?_
    refine (win_peel (F := F) _ _ y (k0_off20_eq L) (by omega)).trans ?_
    refine (win_peel (F := F) _ _ y (k0_off19_eq L) (by omega)).trans ?_
    refine (win_peel (F := F) _ _ y (k0_off18_eq L) (by omega)).trans ?_
    refine (win_peel (F := F) _ _ y (k0_off17_eq L) (by omega)).trans ?_
    refine (win_peel (F := F) _ _ y (k0_off16_eq L) (by omega)).trans ?_
    refine (win_peel (F := F) _ _ y (k0_off15_eq L) (by omega)).trans ?_
    refine (win_peel (F := F) _ _ y (k0_off14_eq L) (by omega)).trans ?_
    refine (win_peel (F := F) _ _ y (k0_off13_eq L) (by omega)).trans ?_
    exact win_hit (F := F) _ _ y (k0_off12_eq L) hrow (by omega) (fun x hx0 hx1 => h8 x y hx0 hx1)
  · -- column block 9
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    refine (win_peel (F := F) _ _ y (k0_off24_eq L) (by omega)).trans ?_
    refine (win_peel (F := F) _ _ y (k0_off23_eq L) (by omega)).trans ?_
    refine (win_peel (F := F) _ _ y (k0_off22_eq L) (by omega)).trans ?_
    refine (win_peel (F := F) _ _ y (k0_off21_eq L) (by omega)).trans ?_
    refine (win_peel (F := F) _ _ y (k0_off20_eq L) (by omega)).trans ?_
    refine (win_peel (F := F) _ _ y (k0_off19_eq L) (by omega)).trans ?_
    refine (win_peel (F := F) _ _ y (k0_off18_eq L) (by omega)).trans ?_
    refine (win_peel (F := F) _ _ y (k0_off17_eq L) (by omega)).trans ?_
    refine (win_peel (F := F) _ _ y (k0_off16_eq L) (by omega)).trans ?_
    refine (win_peel (F := F) _ _ y (k0_off15_eq L) (by omega)).trans ?_
    refine (win_peel (F := F) _ _ y (k0_off14_eq L) (by omega)).trans ?_
    exact win_hit (F := F) _ _ y (k0_off13_eq L) hrow (by omega) (fun x hx0 hx1 => h9 x y hx0 hx1)
  · -- column block 10
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    refine (win_peel (F := F) _ _ y (k0_off24_eq L) (by omega)).trans ?_
    refine (win_peel (F := F) _ _ y (k0_off23_eq L) (by omega)).trans ?_
    refine (win_peel (F := F) _ _ y (k0_off22_eq L) (by omega)).trans ?_
    refine (win_peel (F := F) _ _ y (k0_off21_eq L) (by omega)).trans ?_
    refine (win_peel (F := F) _ _ y (k0_off20_eq L) (by omega)).trans ?_
    refine (win_peel (F := F) _ _ y (k0_off19_eq L) (by omega)).trans ?_
    refine (win_peel (F := F) _ _ y (k0_off18_eq L) (by omega)).trans ?_
    refine (win_peel (F := F) _ _ y (k0_off17_eq L) (by omega)).trans ?_
    refine (win_peel (F := F) _ _ y (k0_off16_eq L) (by omega)).trans ?_
    refine (win_peel (F := F) _ _ y (k0_off15_eq L) (by omega)).trans ?_
    exact win_hit (F := F) _ _ y (k0_off14_eq L) hrow (by omega) (fun x hx0 hx1 => h10 x y hx0 hx1)
  · -- column block 11
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    refine (win_peel (F := F) _ _ y (k0_off24_eq L) (by omega)).trans ?_
    refine (win_peel (F := F) _ _ y (k0_off23_eq L) (by omega)).trans ?_
    refine (win_peel (F := F) _ _ y (k0_off22_eq L) (by omega)).trans ?_
    refine (win_peel (F := F) _ _ y (k0_off21_eq L) (by omega)).trans ?_
    refine (win_peel (F := F) _ _ y (k0_off20_eq L) (by omega)).trans ?_
    refine (win_peel (F := F) _ _ y (k0_off19_eq L) (by omega)).trans ?_
    refine (win_peel (F := F) _ _ y (k0_off18_eq L) (by omega)).trans ?_
    refine (win_peel (F := F) _ _ y (k0_off17_eq L) (by omega)).trans ?_
    refine (win_peel (F := F) _ _ y (k0_off16_eq L) (by omega)).trans ?_
    exact win_hit (F := F) _ _ y (k0_off15_eq L) hrow (by omega) (fun x hx0 hx1 => h11 x y hx0 hx1)
  · -- column block 12
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    refine (win_peel (F := F) _ _ y (k0_off24_eq L) (by omega)).trans ?_
    refine (win_peel (F := F) _ _ y (k0_off23_eq L) (by omega)).trans ?_
    refine (win_peel (F := F) _ _ y (k0_off22_eq L) (by omega)).trans ?_
    refine (win_peel (F := F) _ _ y (k0_off21_eq L) (by omega)).trans ?_
    refine (win_peel (F := F) _ _ y (k0_off20_eq L) (by omega)).trans ?_
    refine (win_peel (F := F) _ _ y (k0_off19_eq L) (by omega)).trans ?_
    refine (win_peel (F := F) _ _ y (k0_off18_eq L) (by omega)).trans ?_
    refine (win_peel (F := F) _ _ y (k0_off17_eq L) (by omega)).trans ?_
    exact win_hit (F := F) _ _ y (k0_off16_eq L) hrow (by omega) (fun x hx0 hx1 => h12 x y hx0 hx1)
  · -- column block 13
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    refine (win_peel (F := F) _ _ y (k0_off24_eq L) (by omega)).trans ?_
    refine (win_peel (F := F) _ _ y (k0_off23_eq L) (by omega)).trans ?_
    refine (win_peel (F := F) _ _ y (k0_off22_eq L) (by omega)).trans ?_
    refine (win_peel (F := F) _ _ y (k0_off21_eq L) (by omega)).trans ?_
    refine (win_peel (F := F) _ _ y (k0_off20_eq L) (by omega)).trans ?_
    refine (win_peel (F := F) _ _ y (k0_off19_eq L) (by omega)).trans ?_
    refine (win_peel (F := F) _ _ y (k0_off18_eq L) (by omega)).trans ?_
    exact win_hit (F := F) _ _ y (k0_off17_eq L) hrow (by omega) (fun x hx0 hx1 => h13 x y hx0 hx1)
  · -- column block 14
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    refine (win_peel (F := F) _ _ y (k0_off24_eq L) (by omega)).trans ?_
    refine (win_peel (F := F) _ _ y (k0_off23_eq L) (by omega)).trans ?_
    refine (win_peel (F := F) _ _ y (k0_off22_eq L) (by omega)).trans ?_
    refine (win_peel (F := F) _ _ y (k0_off21_eq L) (by omega)).trans ?_
    refine (win_peel (F := F) _ _ y (k0_off20_eq L) (by omega)).trans ?_
    refine (win_peel (F := F) _ _ y (k0_off19_eq L) (by omega)).trans ?_
    exact win_hit (F := F) _ _ y (k0_off18_eq L) hrow (by omega) (fun x hx0 hx1 => h14 x y hx0 hx1)
  · -- column block 15
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    refine (win_peel (F := F) _ _ y (k0_off24_eq L) (by omega)).trans ?_
    refine (win_peel (F := F) _ _ y (k0_off23_eq L) (by omega)).trans ?_
    refine (win_peel (F := F) _ _ y (k0_off22_eq L) (by omega)).trans ?_
    refine (win_peel (F := F) _ _ y (k0_off21_eq L) (by omega)).trans ?_
    refine (win_peel (F := F) _ _ y (k0_off20_eq L) (by omega)).trans ?_
    exact win_hit (F := F) _ _ y (k0_off19_eq L) hrow (by omega) (fun x hx0 hx1 => h15 x y hx0 hx1)
  · -- column block 16
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    refine (win_peel (F := F) _ _ y (k0_off24_eq L) (by omega)).trans ?_
    refine (win_peel (F := F) _ _ y (k0_off23_eq L) (by omega)).trans ?_
    refine (win_peel (F := F) _ _ y (k0_off22_eq L) (by omega)).trans ?_
    refine (win_peel (F := F) _ _ y (k0_off21_eq L) (by omega)).trans ?_
    exact win_hit (F := F) _ _ y (k0_off20_eq L) hrow (by omega) (fun x hx0 hx1 => h16 x y hx0 hx1)
  · -- column block 17
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    refine (win_peel (F := F) _ _ y (k0_off24_eq L) (by omega)).trans ?_
    refine (win_peel (F := F) _ _ y (k0_off23_eq L) (by omega)).trans ?_
    refine (win_peel (F := F) _ _ y (k0_off22_eq L) (by omega)).trans ?_
    exact win_hit (F := F) _ _ y (k0_off21_eq L) hrow (by omega) (fun x hx0 hx1 => h17 x y hx0 hx1)
  · -- column block 18
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    refine (win_peel (F := F) _ _ y (k0_off24_eq L) (by omega)).trans ?_
    refine (win_peel (F := F) _ _ y (k0_off23_eq L) (by omega)).trans ?_
    exact win_hit (F := F) _ _ y (k0_off22_eq L) hrow (by omega) (fun x hx0 hx1 => h18 x y hx0 hx1)
  · -- column block 19
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    refine (win_peel (F := F) _ _ y (k0_off24_eq L) (by omega)).trans ?_
    exact win_hit (F := F) _ _ y (k0_off23_eq L) hrow (by omega) (fun x hx0 hx1 => h19 x y hx0 hx1)
  · -- column block 20
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    exact win_hit (F := F) _ _ y (k0_off24_eq L) hrow (by omega) (fun x hx0 hx1 => h20 x y hx0 hx1)
  · -- column block 21
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    exact win_hit (F := F) _ _ y (k0_off25_eq L) hrow (by omega) (fun x hx0 hx1 => h21 x y hx0 hx1)
  · -- column block 22
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    exact win_hit (F := F) _ _ y (k0_off26_eq L) hrow (by omega) (fun x hx0 hx1 => h22 x y hx0 hx1)
  · -- column block 23
    refine (win_peel (F := F) _ _ y (k0_off29_eq L) (by omega)).trans ?_
    refine (win_peel (F := F) _ _ y (k0_off28_eq L) (by omega)).trans ?_
    exact win_hit (F := F) _ _ y (k0_off27_eq L) hrow (by omega) (fun x hx0 hx1 => h23 x y hx0 hx1)
  · -- column block 24
    refine (win_peel (F := F) _ _ y (k0_off29_eq L) (by omega)).trans ?_
    exact win_hit (F := F) _ _ y (k0_off28_eq L) hrow (by omega) (fun x hx0 hx1 => h24 x y hx0 hx1)
  · -- column block 25
    exact win_hit (F := F) _ _ y (k0_off29_eq L) hrow (by omega) (fun x hx0 hx1 => h25 x y hx0 hx1)

/-- The tile's rows outside the numeric window, after the 26 writes: the specification's entries, if each window's
    payload holds them at the window's inside coordinates. -/
theorem agree1 (L : grid0.Coords) (fxt : S26x4096.Idx → BitVec 32) (fxn : S4096x13.Idx → Elt F .f32) (ftb : S26000x128.Idx → Elt F .f32)
    (g2 : S4096x3341.Idx → Elt F .f32)
    (p0 : S128x128.Idx → Elt F .f32) (p1 : S128x128.Idx → Elt F .f32) (p2 : S128x128.Idx → Elt F .f32) (p3 : S128x128.Idx → Elt F .f32) (p4 : S128x128.Idx → Elt F .f32) (p5 : S128x128.Idx → Elt F .f32) (p6 : S128x128.Idx → Elt F .f32) (p7 : S128x128.Idx → Elt F .f32) (p8 : S128x128.Idx → Elt F .f32) (p9 : S128x128.Idx → Elt F .f32) (p10 : S128x128.Idx → Elt F .f32) (p11 : S128x128.Idx → Elt F .f32) (p12 : S128x128.Idx → Elt F .f32) (p13 : S128x128.Idx → Elt F .f32) (p14 : S128x128.Idx → Elt F .f32) (p15 : S128x128.Idx → Elt F .f32) (p16 : S128x128.Idx → Elt F .f32) (p17 : S128x128.Idx → Elt F .f32) (p18 : S128x128.Idx → Elt F .f32) (p19 : S128x128.Idx → Elt F .f32) (p20 : S128x128.Idx → Elt F .f32) (p21 : S128x128.Idx → Elt F .f32) (p22 : S128x128.Idx → Elt F .f32) (p23 : S128x128.Idx → Elt F .f32) (p24 : S128x128.Idx → Elt F .f32) (p25 : S128x128.Idx → Elt F .f32)
    (h0 : ∀ (x : S128x128.Idx) (y : S4096x3341.Idx), 256 * (L 1).val + 128 * (L 0).val + (x 0).val = (y 0).val → 0 + (x 1).val = (y 1).val → p0 x = outT fxt fxn ftb y)
    (h1 : ∀ (x : S128x128.Idx) (y : S4096x3341.Idx), 256 * (L 1).val + 128 * (L 0).val + (x 0).val = (y 0).val → 128 + (x 1).val = (y 1).val → p1 x = outT fxt fxn ftb y)
    (h2 : ∀ (x : S128x128.Idx) (y : S4096x3341.Idx), 256 * (L 1).val + 128 * (L 0).val + (x 0).val = (y 0).val → 256 + (x 1).val = (y 1).val → p2 x = outT fxt fxn ftb y)
    (h3 : ∀ (x : S128x128.Idx) (y : S4096x3341.Idx), 256 * (L 1).val + 128 * (L 0).val + (x 0).val = (y 0).val → 384 + (x 1).val = (y 1).val → p3 x = outT fxt fxn ftb y)
    (h4 : ∀ (x : S128x128.Idx) (y : S4096x3341.Idx), 256 * (L 1).val + 128 * (L 0).val + (x 0).val = (y 0).val → 512 + (x 1).val = (y 1).val → p4 x = outT fxt fxn ftb y)
    (h5 : ∀ (x : S128x128.Idx) (y : S4096x3341.Idx), 256 * (L 1).val + 128 * (L 0).val + (x 0).val = (y 0).val → 640 + (x 1).val = (y 1).val → p5 x = outT fxt fxn ftb y)
    (h6 : ∀ (x : S128x128.Idx) (y : S4096x3341.Idx), 256 * (L 1).val + 128 * (L 0).val + (x 0).val = (y 0).val → 768 + (x 1).val = (y 1).val → p6 x = outT fxt fxn ftb y)
    (h7 : ∀ (x : S128x128.Idx) (y : S4096x3341.Idx), 256 * (L 1).val + 128 * (L 0).val + (x 0).val = (y 0).val → 896 + (x 1).val = (y 1).val → p7 x = outT fxt fxn ftb y)
    (h8 : ∀ (x : S128x128.Idx) (y : S4096x3341.Idx), 256 * (L 1).val + 128 * (L 0).val + (x 0).val = (y 0).val → 1024 + (x 1).val = (y 1).val → p8 x = outT fxt fxn ftb y)
    (h9 : ∀ (x : S128x128.Idx) (y : S4096x3341.Idx), 256 * (L 1).val + 128 * (L 0).val + (x 0).val = (y 0).val → 1152 + (x 1).val = (y 1).val → p9 x = outT fxt fxn ftb y)
    (h10 : ∀ (x : S128x128.Idx) (y : S4096x3341.Idx), 256 * (L 1).val + 128 * (L 0).val + (x 0).val = (y 0).val → 1280 + (x 1).val = (y 1).val → p10 x = outT fxt fxn ftb y)
    (h11 : ∀ (x : S128x128.Idx) (y : S4096x3341.Idx), 256 * (L 1).val + 128 * (L 0).val + (x 0).val = (y 0).val → 1408 + (x 1).val = (y 1).val → p11 x = outT fxt fxn ftb y)
    (h12 : ∀ (x : S128x128.Idx) (y : S4096x3341.Idx), 256 * (L 1).val + 128 * (L 0).val + (x 0).val = (y 0).val → 1536 + (x 1).val = (y 1).val → p12 x = outT fxt fxn ftb y)
    (h13 : ∀ (x : S128x128.Idx) (y : S4096x3341.Idx), 256 * (L 1).val + 128 * (L 0).val + (x 0).val = (y 0).val → 1664 + (x 1).val = (y 1).val → p13 x = outT fxt fxn ftb y)
    (h14 : ∀ (x : S128x128.Idx) (y : S4096x3341.Idx), 256 * (L 1).val + 128 * (L 0).val + (x 0).val = (y 0).val → 1792 + (x 1).val = (y 1).val → p14 x = outT fxt fxn ftb y)
    (h15 : ∀ (x : S128x128.Idx) (y : S4096x3341.Idx), 256 * (L 1).val + 128 * (L 0).val + (x 0).val = (y 0).val → 1920 + (x 1).val = (y 1).val → p15 x = outT fxt fxn ftb y)
    (h16 : ∀ (x : S128x128.Idx) (y : S4096x3341.Idx), 256 * (L 1).val + 128 * (L 0).val + (x 0).val = (y 0).val → 2048 + (x 1).val = (y 1).val → p16 x = outT fxt fxn ftb y)
    (h17 : ∀ (x : S128x128.Idx) (y : S4096x3341.Idx), 256 * (L 1).val + 128 * (L 0).val + (x 0).val = (y 0).val → 2176 + (x 1).val = (y 1).val → p17 x = outT fxt fxn ftb y)
    (h18 : ∀ (x : S128x128.Idx) (y : S4096x3341.Idx), 256 * (L 1).val + 128 * (L 0).val + (x 0).val = (y 0).val → 2304 + (x 1).val = (y 1).val → p18 x = outT fxt fxn ftb y)
    (h19 : ∀ (x : S128x128.Idx) (y : S4096x3341.Idx), 256 * (L 1).val + 128 * (L 0).val + (x 0).val = (y 0).val → 2432 + (x 1).val = (y 1).val → p19 x = outT fxt fxn ftb y)
    (h20 : ∀ (x : S128x128.Idx) (y : S4096x3341.Idx), 256 * (L 1).val + 128 * (L 0).val + (x 0).val = (y 0).val → 2560 + (x 1).val = (y 1).val → p20 x = outT fxt fxn ftb y)
    (h21 : ∀ (x : S128x128.Idx) (y : S4096x3341.Idx), 256 * (L 1).val + 128 * (L 0).val + (x 0).val = (y 0).val → 2688 + (x 1).val = (y 1).val → p21 x = outT fxt fxn ftb y)
    (h22 : ∀ (x : S128x128.Idx) (y : S4096x3341.Idx), 256 * (L 1).val + 128 * (L 0).val + (x 0).val = (y 0).val → 2816 + (x 1).val = (y 1).val → p22 x = outT fxt fxn ftb y)
    (h23 : ∀ (x : S128x128.Idx) (y : S4096x3341.Idx), 256 * (L 1).val + 128 * (L 0).val + (x 0).val = (y 0).val → 2944 + (x 1).val = (y 1).val → p23 x = outT fxt fxn ftb y)
    (h24 : ∀ (x : S128x128.Idx) (y : S4096x3341.Idx), 256 * (L 1).val + 128 * (L 0).val + (x 0).val = (y 0).val → 3072 + (x 1).val = (y 1).val → p24 x = outT fxt fxn ftb y)
    (h25 : ∀ (x : S128x128.Idx) (y : S4096x3341.Idx), 256 * (L 1).val + 128 * (L 0).val + (x 0).val = (y 0).val → 3200 + (x 1).val = (y 1).val → p25 x = outT fxt fxn ftb y) :
    ∀ y ∈ (oV).view.setOn (oTR L).set \ ((oV).slice (Rect.unit (s := S4096x3341) (k0_off2 L) S128x13.size (k0_off2_inb L)) (fun _ => rfl)).view.set,
      View.write (Elt F) ((oV).slice (Rect.unit (s := S4096x3341) (k0_off29 L) S128x128.size (k0_off29_inb L)) (fun _ => rfl)).view (
        View.write (Elt F) ((oV).slice (Rect.unit (s := S4096x3341) (k0_off28 L) S128x128.size (k0_off28_inb L)) (fun _ => rfl)).view (
        View.write (Elt F) ((oV).slice (Rect.unit (s := S4096x3341) (k0_off27 L) S128x128.size (k0_off27_inb L)) (fun _ => rfl)).view (
        View.write (Elt F) ((oV).slice (Rect.unit (s := S4096x3341) (k0_off26 L) S128x128.size (k0_off26_inb L)) (fun _ => rfl)).view (
        View.write (Elt F) ((oV).slice (Rect.unit (s := S4096x3341) (k0_off25 L) S128x128.size (k0_off25_inb L)) (fun _ => rfl)).view (
        View.write (Elt F) ((oV).slice (Rect.unit (s := S4096x3341) (k0_off24 L) S128x128.size (k0_off24_inb L)) (fun _ => rfl)).view (
        View.write (Elt F) ((oV).slice (Rect.unit (s := S4096x3341) (k0_off23 L) S128x128.size (k0_off23_inb L)) (fun _ => rfl)).view (
        View.write (Elt F) ((oV).slice (Rect.unit (s := S4096x3341) (k0_off22 L) S128x128.size (k0_off22_inb L)) (fun _ => rfl)).view (
        View.write (Elt F) ((oV).slice (Rect.unit (s := S4096x3341) (k0_off21 L) S128x128.size (k0_off21_inb L)) (fun _ => rfl)).view (
        View.write (Elt F) ((oV).slice (Rect.unit (s := S4096x3341) (k0_off20 L) S128x128.size (k0_off20_inb L)) (fun _ => rfl)).view (
        View.write (Elt F) ((oV).slice (Rect.unit (s := S4096x3341) (k0_off19 L) S128x128.size (k0_off19_inb L)) (fun _ => rfl)).view (
        View.write (Elt F) ((oV).slice (Rect.unit (s := S4096x3341) (k0_off18 L) S128x128.size (k0_off18_inb L)) (fun _ => rfl)).view (
        View.write (Elt F) ((oV).slice (Rect.unit (s := S4096x3341) (k0_off17 L) S128x128.size (k0_off17_inb L)) (fun _ => rfl)).view (
        View.write (Elt F) ((oV).slice (Rect.unit (s := S4096x3341) (k0_off16 L) S128x128.size (k0_off16_inb L)) (fun _ => rfl)).view (
        View.write (Elt F) ((oV).slice (Rect.unit (s := S4096x3341) (k0_off15 L) S128x128.size (k0_off15_inb L)) (fun _ => rfl)).view (
        View.write (Elt F) ((oV).slice (Rect.unit (s := S4096x3341) (k0_off14 L) S128x128.size (k0_off14_inb L)) (fun _ => rfl)).view (
        View.write (Elt F) ((oV).slice (Rect.unit (s := S4096x3341) (k0_off13 L) S128x128.size (k0_off13_inb L)) (fun _ => rfl)).view (
        View.write (Elt F) ((oV).slice (Rect.unit (s := S4096x3341) (k0_off12 L) S128x128.size (k0_off12_inb L)) (fun _ => rfl)).view (
        View.write (Elt F) ((oV).slice (Rect.unit (s := S4096x3341) (k0_off11 L) S128x128.size (k0_off11_inb L)) (fun _ => rfl)).view (
        View.write (Elt F) ((oV).slice (Rect.unit (s := S4096x3341) (k0_off10 L) S128x128.size (k0_off10_inb L)) (fun _ => rfl)).view (
        View.write (Elt F) ((oV).slice (Rect.unit (s := S4096x3341) (k0_off9 L) S128x128.size (k0_off9_inb L)) (fun _ => rfl)).view (
        View.write (Elt F) ((oV).slice (Rect.unit (s := S4096x3341) (k0_off8 L) S128x128.size (k0_off8_inb L)) (fun _ => rfl)).view (
        View.write (Elt F) ((oV).slice (Rect.unit (s := S4096x3341) (k0_off7 L) S128x128.size (k0_off7_inb L)) (fun _ => rfl)).view (
        View.write (Elt F) ((oV).slice (Rect.unit (s := S4096x3341) (k0_off6 L) S128x128.size (k0_off6_inb L)) (fun _ => rfl)).view (
        View.write (Elt F) ((oV).slice (Rect.unit (s := S4096x3341) (k0_off5 L) S128x128.size (k0_off5_inb L)) (fun _ => rfl)).view (
        View.write (Elt F) ((oV).slice (Rect.unit (s := S4096x3341) (k0_off4 L) S128x128.size (k0_off4_inb L)) (fun _ => rfl)).view (g2) p0 Finset.univ) p1 Finset.univ) p2 Finset.univ) p3 Finset.univ) p4 Finset.univ) p5 Finset.univ) p6 Finset.univ) p7 Finset.univ) p8 Finset.univ) p9 Finset.univ) p10 Finset.univ) p11 Finset.univ) p12 Finset.univ) p13 Finset.univ) p14 Finset.univ) p15 Finset.univ) p16 Finset.univ) p17 Finset.univ) p18 Finset.univ) p19 Finset.univ) p20 Finset.univ) p21 Finset.univ) p22 Finset.univ) p23 Finset.univ) p24 Finset.univ) p25 Finset.univ y
        = outT fxt fxn ftb y :=
  fun y hy => nest_val L fxt fxn ftb g2 p0 p1 p2 p3 p4 p5 p6 p7 p8 p9 p10 p11 p12 p13 p14 p15 p16 p17 p18 p19 p20 p21 p22 p23 p24 p25 h0 h1 h2 h3 h4 h5 h6 h7 h8 h9 h10 h11 h12 h13 h14 h15 h16 h17 h18 h19 h20 h21 h22 h23 h24 h25 y (block_cols L y hy).1 (block_cols L y hy).2

/-- The numeric window, after the staged copy: the specification's entries. -/
theorem agree2 (L : grid0.Coords) (fxt : S26x4096.Idx → BitVec 32) (fxn : S4096x13.Idx → Elt F .f32) (ftb : S26000x128.Idx → Elt F .f32)
    (fo : S4096x3341.Idx → Elt F .f32) (f2 : S128x13.Idx → Elt F .f32) :
    ∀ y ∈ ((oV).slice (Rect.unit (s := S4096x3341) (k0_off2 L) S128x13.size (k0_off2_inb L)) (fun _ => rfl)).view.set,
      View.write (Elt F) ((oV).slice (Rect.unit (s := S4096x3341) (k0_off2 L) S128x13.size (k0_off2_inb L)) (fun _ => rfl)).view fo
        ((ReadAs.same (Val := Elt F)).apply (View.read (Elt F) (s2V).view (View.write (Elt F) (s2V).view f2
          ((ReadAs.same (Val := Elt F)).apply (View.read (Elt F) ((xnV).slice (Rect.unit (s := S4096x13) (k0_off1 L) S128x13.size (k0_off1_inb L)) (fun _ => rfl)).view fxn))
          Finset.univ))) Finset.univ y
        = outT fxt fxn ftb y :=
  fun y hy => num_val L fxt fxn ftb fo f2 y hy

end Cert.Proof.KernelIdealSide
end
-- ==== Proof.RunI.lean ====
import proofs.«201888_g37099927503118_cont_8to1_b_213_13_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«201888_g37099927503118_cont_8to1_b_213_13_alg».proof.Proof.Gen.KernelIdeal
import proofs.«201888_g37099927503118_cont_8to1_b_213_13_alg».proof.Proof.Gen.KernelIdeal.Skeleton
import proofs.«201888_g37099927503118_cont_8to1_b_213_13_alg».proof.Proof.SetupI
import proofs.«201888_g37099927503118_cont_8to1_b_213_13_alg».proof.Proof.KernelValue
import proofs.«201888_g37099927503118_cont_8to1_b_213_13_alg».proof.Proof.BodyI
import proofs.«201888_g37099927503118_cont_8to1_b_213_13_alg».proof.Proof.IdxI
import proofs.«201888_g37099927503118_cont_8to1_b_213_13_alg».proof.Proof.OutValI

noncomputable section

namespace Cert.Proof.KernelIdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xtV" => (Memref.whole Cert.KernelIdeal.main_v0_scv : Memref Cert.KernelIdeal.sig Kind.scVector Space.hbm Cert.KernelIdeal.S26x4096 EltTy.i32)
local notation "xnV" => (Memref.whole Cert.KernelIdeal.main_arg1_scv : Memref Cert.KernelIdeal.sig Kind.scVector Space.hbm Cert.KernelIdeal.S4096x13 EltTy.f32)
local notation "tbV" => (Memref.whole Cert.KernelIdeal.main_v1_scv : Memref Cert.KernelIdeal.sig Kind.scVector Space.hbm Cert.KernelIdeal.S26000x128 EltTy.f32)
local notation "oV" => (Memref.whole Cert.KernelIdeal.main_v2_scv : Memref Cert.KernelIdeal.sig Kind.scVector Space.hbm Cert.KernelIdeal.S4096x3341 EltTy.f32)
local notation "s0V" => (Memref.whole Cert.KernelIdeal.cc0_scratch0 : Memref Cert.KernelIdeal.sig Kind.scVector Space.vmem Cert.KernelIdeal.S26x128 EltTy.i32)
local notation "s1V" => (Memref.whole Cert.KernelIdeal.cc0_scratch1 : Memref Cert.KernelIdeal.sig Kind.scVector Space.vmem Cert.KernelIdeal.S5x128x128 EltTy.f32)
local notation "s2V" => (Memref.whole Cert.KernelIdeal.cc0_scratch2 : Memref Cert.KernelIdeal.sig Kind.scVector Space.vmem Cert.KernelIdeal.S128x13 EltTy.f32)

open Cert.PreSide Idealize.ShloMosaic.ValueIdx

variable [FloatOps F]
variable (d : Dev nD) (L : grid0.Coords)

/-! ## One tile's run

The tile at `L` copies its 128 rows of the numeric features and its 26 × 128 block of the transposed indices into
scratch, adds `1000 f` to row `f` of that block, and then, field by field, gathers the 128 rows of the stacked table
named by row `f` into a staging slot and writes the slot to columns `128 f …` of its rows of the result. Up to four
gathers are pending at once, each reading the table through a share of its own. At the end the tile's rows of the
result hold `outT`. -/

omit [FloatOps F] in
theorem toks5 {ℓ : Loc nD τ sig} (f : Buf (Elt F) ℓ) (q : PosShare TreeShare) :
    (ℓ ↦{q} f : sProp 𝕄) ⊣⊢ iprop((ℓ ↦{Transfers.shareDrop q 5} f) ∗ (ℓ ↦{Transfers.shareTokN q 0} f) ∗ (ℓ ↦{Transfers.shareTokN q 1} f)
      ∗ (ℓ ↦{Transfers.shareTokN q 2} f) ∗ (ℓ ↦{Transfers.shareTokN q 3} f) ∗ (ℓ ↦{Transfers.shareTokN q 4} f)) := by
  have h : (ℓ ↦[Finset.univ]{q} f : sProp 𝕄) ⊣⊢ _ := Transfers.pointsTo_toks_range q 5
  rw [show Finset.range 5 = {0, 1, 2, 3, 4} by decide, SparseCore.bigSep_insert' (by decide), SparseCore.bigSep_insert' (by decide),
    SparseCore.bigSep_insert' (by decide), SparseCore.bigSep_insert' (by decide), bigSep_singleton] at h
  exact h

open Lean Elab Tactic Meta in
/-- Unfold, in the goal, every auxiliary definition the symbolic run made (their names hold the component `sl`). -/
elab "delta_sl" : tactic => do
  let g ← getMainGoal
  let t ← instantiateMVars (← g.getType)
  let t' ← Meta.deltaExpand t (fun n => n.components.contains `sl)
  replaceMainGoal [← g.replaceTargetDefEq t']

set_option maxHeartbeats 16000000 in
set_option maxRecDepth 65536 in
theorem tile_run (q : PosShare TreeShare) (O : CellTallies nD τ sig (HIx 1)) (W : Waits sig (HIx 1))
    (fxt : Buf (Elt F) ((xtV).view.loc (V d (cV L) (jV L)))) (fxn : Buf (Elt F) ((xnV).view.loc (V d (cV L) (jV L))))
    (ftb : Buf (Elt F) ((tbV).view.loc (V d (cV L) (jV L)))) (fo : Buf (Elt F) ((oV).view.loc (V d (cV L) (jV L))))
    (f0 : Buf (Elt F) ((s0V).view.loc (V d (cV L) (jV L)))) (f1 : Buf (Elt F) ((s1V).view.loc (V d (cV L) (jV L))))
    (f2 : Buf (Elt F) ((s2V).view.loc (V d (cV L) (jV L)))) (hr : ∀ j, (fxt j).toNat ≤ 999) :
    iprop((Transfers.MayWaits (V d (cV L) (jV L)) (default : HIx 1) O : sProp 𝕄)
        ∗ ((xtV).view.loc (V d (cV L) (jV L)) ↦{q} fxt) ∗ ((xnV).view.loc (V d (cV L) (jV L)) ↦{q} fxn) ∗ ((tbV).view.loc (V d (cV L) (jV L)) ↦{q} ftb)
        ∗ ((oV).view.loc (V d (cV L) (jV L)) ↦[(oV).view.setOn (oTR L).set]{fullShare} fo)
        ∗ ((s0V).view.loc (V d (cV L) (jV L)) ↦{fullShare} f0) ∗ ((s1V).view.loc (V d (cV L) (jV L)) ↦{fullShare} f1) ∗ ((s2V).view.loc (V d (cV L) (jV L)) ↦{fullShare} f2)
        ∗ (semVal (V d (cV L) (jV L), SemLoc.dma 0) 0 ∗ semVal (V d (cV L) (jV L), SemLoc.dma 1) 0 ∗ semVal (V d (cV L) (jV L), SemLoc.dma 2) 0 ∗ semVal (V d (cV L) (jV L), SemLoc.dma 3) 0 ∗ semVal (V d (cV L) (jV L), SemLoc.dma 4) 0 ∗ semVal (V d (cV L) (jV L), SemLoc.dma 5) 0 ∗ semVal (V d (cV L) (jV L), SemLoc.dma 6) 0 ∗ semVal (V d (cV L) (jV L), SemLoc.dma 7) 0 ∗ semVal (V d (cV L) (jV L), SemLoc.dma 8) 0 ∗ semVal (V d (cV L) (jV L), SemLoc.dma 9) 0 ∗ semVal (V d (cV L) (jV L), SemLoc.dma 10) 0 ∗ semVal (V d (cV L) (jV L), SemLoc.dma 11) 0 ∗ semVal (V d (cV L) (jV L), SemLoc.dma 12) 0)
        ∗ owes (V d (cV L) (jV L)) O W)
      ⊢ wp frame (wpE (defs₀ (F := F)) 𝒱₀ (V d (cV L) (jV L)) none) Set.univ
          (cc0__body L xtV (Memref.isWhole_whole _) xnV (Memref.isWhole_whole _) tbV (Memref.isWhole_whole _) oV (Memref.isWhole_whole _)
            s0V (Memref.isWhole_whole _) s1V (Memref.isWhole_whole _) s2V (Memref.isWhole_whole _) cc0_scratch3 cc0_scratch4 cc0_scratch5 cc0_scoped0 cc0_scoped1)
          fun _ => iprop(((xtV).view.loc (V d (cV L) (jV L)) ↦{q} fxt) ∗ ((xnV).view.loc (V d (cV L) (jV L)) ↦{q} fxn) ∗ ((tbV).view.loc (V d (cV L) (jV L)) ↦{q} ftb)
            ∗ ((oV).view.loc (V d (cV L) (jV L)) ↦[(oV).view.setOn (oTR L).set]{fullShare} outT fxt fxn ftb)
            ∗ (∃ f, (s0V).view.loc (V d (cV L) (jV L)) ↦{fullShare} f) ∗ (∃ f, (s1V).view.loc (V d (cV L) (jV L)) ↦{fullShare} f) ∗ (∃ f, (s2V).view.loc (V d (cV L) (jV L)) ↦{fullShare} f)
            ∗ (semVal (V d (cV L) (jV L), SemLoc.dma 0) 0 ∗ semVal (V d (cV L) (jV L), SemLoc.dma 1) 0 ∗ semVal (V d (cV L) (jV L), SemLoc.dma 2) 0 ∗ semVal (V d (cV L) (jV L), SemLoc.dma 3) 0 ∗ semVal (V d (cV L) (jV L), SemLoc.dma 4) 0 ∗ semVal (V d (cV L) (jV L), SemLoc.dma 5) 0 ∗ semVal (V d (cV L) (jV L), SemLoc.dma 6) 0 ∗ semVal (V d (cV L) (jV L), SemLoc.dma 7) 0 ∗ semVal (V d (cV L) (jV L), SemLoc.dma 8) 0 ∗ semVal (V d (cV L) (jV L), SemLoc.dma 9) 0 ∗ semVal (V d (cV L) (jV L), SemLoc.dma 10) 0 ∗ semVal (V d (cV L) (jV L), SemLoc.dma 11) 0 ∗ semVal (V d (cV L) (jV L), SemLoc.dma 12) 0)
            ∗ ∃ W', ⌜∀ p ∈ W', p ∈ W ∨ p.2 = none⌝ ∗ owes (V d (cV L) (jV L)) O W') := by
  iintro ⟨Hmw, Hxt, Hxn, Htb, Ho, Hs0, Hs1, Hs2, ⟨Hd0, Hd1, Hd2, Hd3, Hd4, Hd5, Hd6, Hd7, Hd8, Hd9, Hd10, Hd11, Hd12⟩, HO⟩
  sl_exec_parts
  -- the index scratch after the 200 offset updates, in closed form
  have hG : ∀ p ∈ tile_run.sl.Hs0_200 d L fxt f0, ∀ x, p.2 x = idxF fxt L (p.1.emb x) := by
    delta_sl
    simp only [List.forall_mem_cons, List.not_mem_nil, IsEmpty.forall_iff, implies_true, and_true]
    repeat' (first | (refine ⟨?_, ?_⟩) | (intro x; exact piece_agree (F := F) fxt L f0 _ _ _ _ rfl _ _ x))
  have hidx : (s0V).view.writes (Elt F) (View.write (Elt F) (s0V).view f0 (tile_run.sl.dma0_2 d L fxt) Finset.univ) (tile_run.sl.Hs0_200 d L fxt f0) = idxF fxt L :=
    idx_contents (F := F) fxt L f0 (k0_off3_inb L) (tile_run.sl.Hs0_200 d L fxt f0) hG rfl
  ihave Hs0' := (Entails.of_eq (congrArg (fun g => ((s0V).view.loc (V d (cV L) (jV L)) ↦{fullShare} g : sProp 𝕄)) hidx)) $$ Hs0
  have hin0 : ∀ x : S128.Idx, (View.read (Elt F) (((s0V).slice (Rect.unit (s := S26x128) ![0, 0] S1x128.size inb_S26x128_S1x128_0_0) (fun _ => rfl)).squeeze S128 squeezes_S1x128_S128).view (idxF fxt L) x).toNat < 26000 := fun x => hin_row (F := F) fxt L hr 0 inb_S26x128_S1x128_0_0 x
  have hin1 : ∀ x : S128.Idx, (View.read (Elt F) (((s0V).slice (Rect.unit (s := S26x128) ![1, 0] S1x128.size inb_S26x128_S1x128_1_0) (fun _ => rfl)).squeeze S128 squeezes_S1x128_S128).view (idxF fxt L) x).toNat < 26000 := fun x => hin_row (F := F) fxt L hr 1 inb_S26x128_S1x128_1_0 x
  have hin2 : ∀ x : S128.Idx, (View.read (Elt F) (((s0V).slice (Rect.unit (s := S26x128) ![2, 0] S1x128.size inb_S26x128_S1x128_2_0) (fun _ => rfl)).squeeze S128 squeezes_S1x128_S128).view (idxF fxt L) x).toNat < 26000 := fun x => hin_row (F := F) fxt L hr 2 inb_S26x128_S1x128_2_0 x
  have hin3 : ∀ x : S128.Idx, (View.read (Elt F) (((s0V).slice (Rect.unit (s := S26x128) ![3, 0] S1x128.size inb_S26x128_S1x128_3_0) (fun _ => rfl)).squeeze S128 squeezes_S1x128_S128).view (idxF fxt L) x).toNat < 26000 := fun x => hin_row (F := F) fxt L hr 3 inb_S26x128_S1x128_3_0 x
  have hin4 : ∀ x : S128.Idx, (View.read (Elt F) (((s0V).slice (Rect.unit (s := S26x128) ![4, 0] S1x128.size inb_S26x128_S1x128_4_0) (fun _ => rfl)).squeeze S128 squeezes_S1x128_S128).view (idxF fxt L) x).toNat < 26000 := fun x => hin_row (F := F) fxt L hr 4 inb_S26x128_S1x128_4_0 x
  have hin5 : ∀ x : S128.Idx, (View.read (Elt F) (((s0V).slice (Rect.unit (s := S26x128) ![5, 0] S1x128.size inb_S26x128_S1x128_5_0) (fun _ => rfl)).squeeze S128 squeezes_S1x128_S128).view (idxF fxt L) x).toNat < 26000 := fun x => hin_row (F := F) fxt L hr 5 inb_S26x128_S1x128_5_0 x
  have hin6 : ∀ x : S128.Idx, (View.read (Elt F) (((s0V).slice (Rect.unit (s := S26x128) ![6, 0] S1x128.size inb_S26x128_S1x128_6_0) (fun _ => rfl)).squeeze S128 squeezes_S1x128_S128).view (idxF fxt L) x).toNat < 26000 := fun x => hin_row (F := F) fxt L hr 6 inb_S26x128_S1x128_6_0 x
  have hin7 : ∀ x : S128.Idx, (View.read (Elt F) (((s0V).slice (Rect.unit (s := S26x128) ![7, 0] S1x128.size inb_S26x128_S1x128_7_0) (fun _ => rfl)).squeeze S128 squeezes_S1x128_S128).view (idxF fxt L) x).toNat < 26000 := fun x => hin_row (F := F) fxt L hr 7 inb_S26x128_S1x128_7_0 x
  have hin8 : ∀ x : S128.Idx, (View.read (Elt F) (((s0V).slice (Rect.unit (s := S26x128) ![8, 0] S1x128.size inb_S26x128_S1x128_8_0) (fun _ => rfl)).squeeze S128 squeezes_S1x128_S128).view (idxF fxt L) x).toNat < 26000 := fun x => hin_row (F := F) fxt L hr 8 inb_S26x128_S1x128_8_0 x
  have hin9 : ∀ x : S128.Idx, (View.read (Elt F) (((s0V).slice (Rect.unit (s := S26x128) ![9, 0] S1x128.size inb_S26x128_S1x128_9_0) (fun _ => rfl)).squeeze S128 squeezes_S1x128_S128).view (idxF fxt L) x).toNat < 26000 := fun x => hin_row (F := F) fxt L hr 9 inb_S26x128_S1x128_9_0 x
  have hin10 : ∀ x : S128.Idx, (View.read (Elt F) (((s0V).slice (Rect.unit (s := S26x128) ![10, 0] S1x128.size inb_S26x128_S1x128_10_0) (fun _ => rfl)).squeeze S128 squeezes_S1x128_S128).view (idxF fxt L) x).toNat < 26000 := fun x => hin_row (F := F) fxt L hr 10 inb_S26x128_S1x128_10_0 x
  have hin11 : ∀ x : S128.Idx, (View.read (Elt F) (((s0V).slice (Rect.unit (s := S26x128) ![11, 0] S1x128.size inb_S26x128_S1x128_11_0) (fun _ => rfl)).squeeze S128 squeezes_S1x128_S128).view (idxF fxt L) x).toNat < 26000 := fun x => hin_row (F := F) fxt L hr 11 inb_S26x128_S1x128_11_0 x
  have hin12 : ∀ x : S128.Idx, (View.read (Elt F) (((s0V).slice (Rect.unit (s := S26x128) ![12, 0] S1x128.size inb_S26x128_S1x128_12_0) (fun _ => rfl)).squeeze S128 squeezes_S1x128_S128).view (idxF fxt L) x).toNat < 26000 := fun x => hin_row (F := F) fxt L hr 12 inb_S26x128_S1x128_12_0 x
  have hin13 : ∀ x : S128.Idx, (View.read (Elt F) (((s0V).slice (Rect.unit (s := S26x128) ![13, 0] S1x128.size inb_S26x128_S1x128_13_0) (fun _ => rfl)).squeeze S128 squeezes_S1x128_S128).view (idxF fxt L) x).toNat < 26000 := fun x => hin_row (F := F) fxt L hr 13 inb_S26x128_S1x128_13_0 x
  have hin14 : ∀ x : S128.Idx, (View.read (Elt F) (((s0V).slice (Rect.unit (s := S26x128) ![14, 0] S1x128.size inb_S26x128_S1x128_14_0) (fun _ => rfl)).squeeze S128 squeezes_S1x128_S128).view (idxF fxt L) x).toNat < 26000 := fun x => hin_row (F := F) fxt L hr 14 inb_S26x128_S1x128_14_0 x
  have hin15 : ∀ x : S128.Idx, (View.read (Elt F) (((s0V).slice (Rect.unit (s := S26x128) ![15, 0] S1x128.size inb_S26x128_S1x128_15_0) (fun _ => rfl)).squeeze S128 squeezes_S1x128_S128).view (idxF fxt L) x).toNat < 26000 := fun x => hin_row (F := F) fxt L hr 15 inb_S26x128_S1x128_15_0 x
  have hin16 : ∀ x : S128.Idx, (View.read (Elt F) (((s0V).slice (Rect.unit (s := S26x128) ![16, 0] S1x128.size inb_S26x128_S1x128_16_0) (fun _ => rfl)).squeeze S128 squeezes_S1x128_S128).view (idxF fxt L) x).toNat < 26000 := fun x => hin_row (F := F) fxt L hr 16 inb_S26x128_S1x128_16_0 x
  have hin17 : ∀ x : S128.Idx, (View.read (Elt F) (((s0V).slice (Rect.unit (s := S26x128) ![17, 0] S1x128.size inb_S26x128_S1x128_17_0) (fun _ => rfl)).squeeze S128 squeezes_S1x128_S128).view (idxF fxt L) x).toNat < 26000 := fun x => hin_row (F := F) fxt L hr 17 inb_S26x128_S1x128_17_0 x
  have hin18 : ∀ x : S128.Idx, (View.read (Elt F) (((s0V).slice (Rect.unit (s := S26x128) ![18, 0] S1x128.size inb_S26x128_S1x128_18_0) (fun _ => rfl)).squeeze S128 squeezes_S1x128_S128).view (idxF fxt L) x).toNat < 26000 := fun x => hin_row (F := F) fxt L hr 18 inb_S26x128_S1x128_18_0 x
  have hin19 : ∀ x : S128.Idx, (View.read (Elt F) (((s0V).slice (Rect.unit (s := S26x128) ![19, 0] S1x128.size inb_S26x128_S1x128_19_0) (fun _ => rfl)).squeeze S128 squeezes_S1x128_S128).view (idxF fxt L) x).toNat < 26000 := fun x => hin_row (F := F) fxt L hr 19 inb_S26x128_S1x128_19_0 x
  have hin20 : ∀ x : S128.Idx, (View.read (Elt F) (((s0V).slice (Rect.unit (s := S26x128) ![20, 0] S1x128.size inb_S26x128_S1x128_20_0) (fun _ => rfl)).squeeze S128 squeezes_S1x128_S128).view (idxF fxt L) x).toNat < 26000 := fun x => hin_row (F := F) fxt L hr 20 inb_S26x128_S1x128_20_0 x
  have hin21 : ∀ x : S128.Idx, (View.read (Elt F) (((s0V).slice (Rect.unit (s := S26x128) ![21, 0] S1x128.size inb_S26x128_S1x128_21_0) (fun _ => rfl)).squeeze S128 squeezes_S1x128_S128).view (idxF fxt L) x).toNat < 26000 := fun x => hin_row (F := F) fxt L hr 21 inb_S26x128_S1x128_21_0 x
  have hin22 : ∀ x : S128.Idx, (View.read (Elt F) (((s0V).slice (Rect.unit (s := S26x128) ![22, 0] S1x128.size inb_S26x128_S1x128_22_0) (fun _ => rfl)).squeeze S128 squeezes_S1x128_S128).view (idxF fxt L) x).toNat < 26000 := fun x => hin_row (F := F) fxt L hr 22 inb_S26x128_S1x128_22_0 x
  have hin23 : ∀ x : S128.Idx, (View.read (Elt F) (((s0V).slice (Rect.unit (s := S26x128) ![23, 0] S1x128.size inb_S26x128_S1x128_23_0) (fun _ => rfl)).squeeze S128 squeezes_S1x128_S128).view (idxF fxt L) x).toNat < 26000 := fun x => hin_row (F := F) fxt L hr 23 inb_S26x128_S1x128_23_0 x
  have hin24 : ∀ x : S128.Idx, (View.read (Elt F) (((s0V).slice (Rect.unit (s := S26x128) ![24, 0] S1x128.size inb_S26x128_S1x128_24_0) (fun _ => rfl)).squeeze S128 squeezes_S1x128_S128).view (idxF fxt L) x).toNat < 26000 := fun x => hin_row (F := F) fxt L hr 24 inb_S26x128_S1x128_24_0 x
  have hin25 : ∀ x : S128.Idx, (View.read (Elt F) (((s0V).slice (Rect.unit (s := S26x128) ![25, 0] S1x128.size inb_S26x128_S1x128_25_0) (fun _ => rfl)).squeeze S128 squeezes_S1x128_S128).view (idxF fxt L) x).toNat < 26000 := fun x => hin_row (F := F) fxt L hr 25 inb_S26x128_S1x128_25_0 x
  ihave Htb' := (toks5 (F := F) ftb q).1 $$ Htb
  icases Htb' with ⟨Htbr, Htb0, Htb1, Htb2, Htb3, Htb4⟩
  sl_exec_parts
  sl_step
  have hagree2 : ∀ y ∈ ((oV).slice (Rect.unit (s := S4096x3341) (k0_off2 L) S128x13.size (k0_off2_inb L)) (fun _ => rfl)).view.set,
      tile_run.sl.Ho_w1 d L fxn fo f2 y = outT fxt fxn ftb y := by
    delta_sl
    exact agree2 (F := F) L fxt fxn ftb fo f2
  have hagree1 : ∀ y ∈ (oV).view.setOn (oTR L).set \ ((oV).slice (Rect.unit (s := S4096x3341) (k0_off2 L) S128x13.size (k0_off2_inb L)) (fun _ => rfl)).view.set,
      tile_run.sl.Ho_w51 d L fxt fxn ftb fo f1 f2 hin0 hin1 hin2 hin3 hin4 hin5 hin6 hin7 hin8 hin9 hin10 hin11 hin12 hin13 hin14 hin15 hin16 hin17 hin18 hin19 hin20 hin21 hin22 hin23 hin24 hin25 y = outT fxt fxn ftb y := by
    delta_sl
    exact agree1 (F := F) L fxt fxn ftb _ _ _ _ _ _ _ _ _ _ _ _ _ _ _ _ _ _ _ _ _ _ _ _ _ _ _
      (by pay_val) (by pay_val) (by pay_val) (by pay_val) (by pay_val) (by pay_val) (by pay_val) (by pay_val) (by pay_val) (by pay_val) (by pay_val) (by pay_val) (by pay_val) (by pay_val) (by pay_val) (by pay_val) (by pay_val) (by pay_val) (by pay_val) (by pay_val) (by pay_val) (by pay_val) (by pay_val) (by pay_val) (by pay_val) (by pay_val)
  have hsub : ((oV).slice (Rect.unit (s := S4096x3341) (k0_off2 L) S128x13.size (k0_off2_inb L)) (fun _ => rfl)).view.set ⊆ (oV).view.setOn (oTR L).set :=
    w13_sub L
  isplitl [Hxt]; · iexact Hxt
  isplitl [Hxn]; · iexact Hxn
  isplitl [Htbr Htb0 Htb1 Htb2 Htb3 Htb4]
  · iapply (toks5 (F := F) ftb q).2
    isplitl [Htbr]; · iexact Htbr
    isplitl [Htb0]; · iexact Htb0
    isplitl [Htb1]; · iexact Htb1
    isplitl [Htb2]; · iexact Htb2
    isplitl [Htb3]; · iexact Htb3
    iexact Htb4
  isplitl [Ho Ho_2]
  · ihave Ho' := (Entails.of_eq (pointsTo_congr hagree1)) $$ Ho
    ihave Ho2' := (Entails.of_eq (pointsTo_congr hagree2)) $$ Ho_2
    iapply (pointsTo_split_subset (q := fullShare) (f := outT fxt fxn ftb) (S := (oV).view.setOn (oTR L).set) hsub).2
    isplitl [Ho2']; · iexact Ho2'
    iexact Ho'
  isplitl [Hs0']; · iexists _; iexact Hs0'
  isplitl [Hs1]; · iexists _; iexact Hs1
  isplitl [Hs2]; · iexists _; iexact Hs2
  isplitl [Hd0 Hd1 Hd2 Hd3 Hd4 Hd5 Hd6 Hd7 Hd8 Hd9 Hd10 Hd11 Hd12]
  ·
    isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hd8]; · iexact Hd8
    isplitl [Hd9]; · iexact Hd9
    isplitl [Hd10]; · iexact Hd10
    isplitl [Hd11]; · iexact Hd11
    iexact Hd12
  iexists _; isplitr
  swap; · iexact HO
  ipureintro; intro p hp
  repeat (rcases Finset.mem_insert.mp hp with hp | hp; · exact .inr (hp ▸ rfl))
  exact .inl hp

end Cert.Proof.KernelIdealSide
end
-- ==== Proof.ObligI.lean ====
/-
  A tile's obligation to the launch, from the run of the tile's body.

  The body's run leaves, in the tile's 128 rows of the result, a function of the transposed indices, the numeric features
  and the flattened tables. Under the precondition that function is the specification's: column j < 3328 of row b is
  lane j % 128 of flat row x + 1000 (j / 128), x the index of field j / 128 in row b, which is row x of table j / 128;
  the last 13 columns are the numeric features. The rest is bookkeeping: the tile's scratch buffers and semaphores are
  taken out of, and put back into, what the subcore owns.
-/
import proofs.«201888_g37099927503118_cont_8to1_b_213_13_alg».proof.Proof.BodyI
import proofs.«201888_g37099927503118_cont_8to1_b_213_13_alg».proof.Proof.RunI

noncomputable section

namespace Cert.Proof.KernelIdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.PreSide Idealize.ShloMosaic.ValueIdx

variable {F : FTy → Type}

local notation "𝕄" => MT nD τ sig (HIx 1) (Elt F) ℕ UU ℕ

local notation "xtV" => (Memref.whole Cert.KernelIdeal.main_v0_scv : Memref Cert.KernelIdeal.sig Kind.scVector Space.hbm Cert.KernelIdeal.S26x4096 EltTy.i32)
local notation "xnV" => (Memref.whole Cert.KernelIdeal.main_arg1_scv : Memref Cert.KernelIdeal.sig Kind.scVector Space.hbm Cert.KernelIdeal.S4096x13 EltTy.f32)
local notation "tbV" => (Memref.whole Cert.KernelIdeal.main_v1_scv : Memref Cert.KernelIdeal.sig Kind.scVector Space.hbm Cert.KernelIdeal.S26000x128 EltTy.f32)
local notation "oV" => (Memref.whole Cert.KernelIdeal.main_v2_scv : Memref Cert.KernelIdeal.sig Kind.scVector Space.hbm Cert.KernelIdeal.S4096x3341 EltTy.f32)
local notation "s0V" => (Memref.whole Cert.KernelIdeal.cc0_scratch0 : Memref Cert.KernelIdeal.sig Kind.scVector Space.vmem Cert.KernelIdeal.S26x128 EltTy.i32)
local notation "s1V" => (Memref.whole Cert.KernelIdeal.cc0_scratch1 : Memref Cert.KernelIdeal.sig Kind.scVector Space.vmem Cert.KernelIdeal.S5x128x128 EltTy.f32)
local notation "s2V" => (Memref.whole Cert.KernelIdeal.cc0_scratch2 : Memref Cert.KernelIdeal.sig Kind.scVector Space.vmem Cert.KernelIdeal.S128x13 EltTy.f32)

variable (m : (ℓ : Loc nD τ sig) → Buf (Elt F) ℓ) (d : Dev nD) (L : grid0.Coords)

/-! ## What the tiles leave is the specification's result -/

/-- Every transposed index lies in [0, 999]. -/
theorem xt0_le (hpre : PreOK m) (j : S26x4096.Idx) : (xt0 m d j).toNat ≤ 999 := by
  have e : j = ix2 (⟨(j 0).val, idx2_lt0 (n0 := 26) (n1 := 4096) j⟩ : Fin 26) (⟨(j 1).val, idx2_lt1 (n0 := 26) (n1 := 4096) j⟩ : Fin 4096) := by
    funext a
    match a with
    | ⟨0, _⟩ => rfl
    | ⟨1, _⟩ => rfl
  rw [e]
  unfold xt0
  rw [transpose_read]
  exact hpre d _

/-- The function the tiles leave in the result is the specification's, under the precondition. -/
theorem outT_eq_outG (hpre : PreOK m) : outT (xt0 m d) (m (a1Loc d)) (tb0 m d) = outG m d := by
  funext y
  have h0 : (y 0).val < 4096 := idx2_lt0 (n0 := 4096) (n1 := 3341) y
  have h1 : (y 1).val < 3341 := idx2_lt1 (n0 := 4096) (n1 := 3341) y
  unfold outT
  by_cases h : (y 1).val < 3328
  · rw [dif_pos h]
    have hlt := gathered_lt (m (a0Loc d)) (hpre d) transposes_S4096x26_S26x4096_1_0 (⟨(y 0).val, h0⟩ : Fin 4096)
      (⟨(y 1).val / 128, by omega⟩ : Fin 26)
    have key := gathered_eq_of_lt (m (a0Loc d)) (m (a1Loc d)) (m (a2Loc d)) (hpre d) transposes_S4096x26_S26x4096_1_0
      shapeCasts_S26x1000x128_S26000x128 (⟨(y 0).val, h0⟩ : Fin 4096) (⟨(y 1).val / 128, by omega⟩ : Fin 26)
      (⟨(y 1).val % 128, Nat.mod_lt _ (by norm_num)⟩ : Fin 128) hlt
    have hy : (ix2 (⟨(y 0).val, h0⟩ : Fin 4096) (⟨128 * ((y 1).val / 128) + (y 1).val % 128, by omega⟩ : Fin 3341) : S4096x3341.Idx) = y := by
      funext a
      match a with
      | ⟨0, _⟩ => rfl
      | ⟨1, _⟩ => exact Fin.ext (by show 128 * ((y 1).val / 128) + (y 1).val % 128 = (y 1).val; omega)
    rw [hy] at key
    refine Eq.trans ?_ key
    exact congrArg (fun r : Fin 26000 => tb0 m d (ix2 r (⟨(y 1).val % 128, Nat.mod_lt _ (by norm_num)⟩ : Fin 128)))
      (Fin.ext (Nat.mod_eq_of_lt hlt))
  · rw [dif_neg h]
    show _ = Cert.Spec.out (m (a0Loc d)) (m (a1Loc d)) (m (a2Loc d)) y
    unfold Cert.Spec.out
    rw [dif_neg h]

variable [FloatOps F]

/-! ## The body's run in the launch's spelling -/

/-- The tile's thirteen copy semaphores, at zero. -/
abbrev sems13 (thr : Thread nD τ) : sProp 𝕄 :=
  iprop(semVal (thr, SemLoc.dma 0) 0 ∗ semVal (thr, SemLoc.dma 1) 0 ∗ semVal (thr, SemLoc.dma 2) 0 ∗ semVal (thr, SemLoc.dma 3) 0 ∗ semVal (thr, SemLoc.dma 4) 0 ∗ semVal (thr, SemLoc.dma 5) 0 ∗ semVal (thr, SemLoc.dma 6) 0 ∗ semVal (thr, SemLoc.dma 7) 0 ∗ semVal (thr, SemLoc.dma 8) 0 ∗ semVal (thr, SemLoc.dma 9) 0 ∗ semVal (thr, SemLoc.dma 10) 0 ∗ semVal (thr, SemLoc.dma 11) 0 ∗ semVal (thr, SemLoc.dma 12) 0)

set_option maxRecDepth 65536 in
set_option maxHeartbeats 1000000 in
/-- The body's run, its arrays at the launch's contents and its result named by the specification. -/
theorem tile_run' (hpre : PreOK m) (q : PosShare TreeShare) (O : CellTallies nD τ sig (HIx 1)) (W : Waits sig (HIx 1))
    (f0 : Buf (Elt F) ((V d (cV L) (jV L)).loc cc0_scratch0)) (f1 : Buf (Elt F) ((V d (cV L) (jV L)).loc cc0_scratch1))
    (f2 : Buf (Elt F) ((V d (cV L) (jV L)).loc cc0_scratch2)) :
    iprop((Transfers.MayWaits (V d (cV L) (jV L)) (default : HIx 1) O : sProp 𝕄)
        ∗ xtPts m d q ∗ xnPts m d q ∗ tbPts m d q ∗ oRowPts d (cL L) (jL L) (m (oLoc d))
        ∗ ((V d (cV L) (jV L)).loc cc0_scratch0 ↦{fullShare} f0) ∗ ((V d (cV L) (jV L)).loc cc0_scratch1 ↦{fullShare} f1)
        ∗ ((V d (cV L) (jV L)).loc cc0_scratch2 ↦{fullShare} f2)
        ∗ sems13 (V d (cV L) (jV L))
        ∗ owes (V d (cV L) (jV L)) O W)
      ⊢ wp frame (wpE (defs₀ (F := F)) 𝒱₀ (V d (cV L) (jV L)) none) Set.univ
          (cc0__body L xtV (Memref.isWhole_whole _) xnV (Memref.isWhole_whole _) tbV (Memref.isWhole_whole _) oV (Memref.isWhole_whole _)
            s0V (Memref.isWhole_whole _) s1V (Memref.isWhole_whole _) s2V (Memref.isWhole_whole _) cc0_scratch3 cc0_scratch4 cc0_scratch5 cc0_scoped0 cc0_scoped1)
          fun _ => iprop(xtPts m d q ∗ xnPts m d q ∗ tbPts m d q ∗ oRowPts d (cL L) (jL L) (outG m d)
            ∗ (∃ f, (V d (cV L) (jV L)).loc cc0_scratch0 ↦{fullShare} f) ∗ (∃ f, (V d (cV L) (jV L)).loc cc0_scratch1 ↦{fullShare} f)
            ∗ (∃ f, (V d (cV L) (jV L)).loc cc0_scratch2 ↦{fullShare} f)
            ∗ sems13 (V d (cV L) (jV L))
            ∗ ∃ W', ⌜∀ p ∈ W', p ∈ W ∨ p.2 = none⌝ ∗ owes (V d (cV L) (jV L)) O W') := by
  have h := tile_run (F := F) d L q O W (xt0 m d) (m (a1Loc d)) (tb0 m d) (m (oLoc d)) f0 f1 f2 (xt0_le m d hpre)
  rw [outT_eq_outG m d hpre] at h
  exact h

/-! ## The obligation -/

set_option maxRecDepth 65536 in
set_option maxHeartbeats 1000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (xtPts m d (qT (cL L) (jL L)) ∗ xnPts m d (qT (cL L) (jL L)) ∗ tbPts m d (qT (cL L) (jL L)) ∗ oRowPts d (cL L) (jL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__body L xtV (Memref.isWhole_whole _) xnV (Memref.isWhole_whole _) tbV (Memref.isWhole_whole _) oV (Memref.isWhole_whole _)
            s0V (Memref.isWhole_whole _) s1V (Memref.isWhole_whole _) s2V (Memref.isWhole_whole _) cc0_scratch3 cc0_scratch4 cc0_scratch5 cc0_scoped0 cc0_scoped1)
          fun _ => iprop((xtPts m d (qT (cL L) (jL L)) ∗ xnPts m d (qT (cL L) (jL L)) ∗ tbPts m d (qT (cL L) (jL L)) ∗ oRowPts d (cL L) (jL L) (outG m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L),
    ownSems0_V d (cV L) (jV L), ownBufs_V d (cV L) (jV L)]
  iintro ⟨#Hlv, -, ⟨Hxt, Hxn, Htb, Ho⟩, ⟨⟨%f0, H0⟩, ⟨%f1, H1⟩, ⟨%f2, H2⟩, Hbufs⟩, ⟨Hs13, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hwp := (tile_run' m d L hpre (qT (cL L) (jL L)) O W f0 f1 f2) $$ [Hmw Hxt Hxn Htb Ho H0 H1 H2 Hs13 HO]
  · isplitl [Hmw]; · iexact Hmw
    isplitl [Hxt]; · iexact Hxt
    isplitl [Hxn]; · iexact Hxn
    isplitl [Htb]; · iexact Htb
    isplitl [Ho]; · iexact Ho
    isplitl [H0]; · iexact H0
    isplitl [H1]; · iexact H1
    isplitl [H2]; · iexact H2
    isplitl [Hs13]; · iexact Hs13
    iexact HO
  iapply (wp_wand frame _ Set.univ) $$ Hwp
  iintro %_ ⟨Hxt, Hxn, Htb, Ho, H0, H1, H2, Hs13, HW⟩
  isplitl [Hxt Hxn Htb Ho]
  · isplitl [Hxt]; · iexact Hxt
    isplitl [Hxn]; · iexact Hxn
    isplitl [Htb]; · iexact Htb
    iexact Ho
  isplitl [H0 H1 H2 Hbufs]
  · isplitl [H0]; · iexact H0
    isplitl [H1]; · iexact H1
    isplitl [H2]; · iexact H2
    iexact Hbufs
  isplitl [Hs13 Hsems]
  · isplitl [Hs13]; · iexact Hs13
    iexact Hsems
  iexact HW

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__body (coordsV c s)
          xtV (Memref.isWhole_whole _) xnV (Memref.isWhole_whole _) tbV (Memref.isWhole_whole _) oV (Memref.isWhole_whole _)
            s0V (Memref.isWhole_whole _) s1V (Memref.isWhole_whole _) s2V (Memref.isWhole_whole _) cc0_scratch3 cc0_scratch4 cc0_scratch5 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 65536 in
set_option maxHeartbeats 1000000 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Cert.Proof.KernelIdealSide

end
-- ==== Proof.BodyB.lean ====
import proofs.«201888_g37099927503118_cont_8to1_b_213_13_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«201888_g37099927503118_cont_8to1_b_213_13_alg».proof.Proof.Gen.Kernel
import proofs.«201888_g37099927503118_cont_8to1_b_213_13_alg».proof.Proof.Gen.Kernel.Skeleton
import proofs.«201888_g37099927503118_cont_8to1_b_213_13_alg».proof.Proof.SetupB
import proofs.«201888_g37099927503118_cont_8to1_b_213_13_alg».proof.Proof.KernelValue

noncomputable section

namespace Cert.Proof.KernelSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xtV" => (Memref.whole Cert.Kernel.main_v0_scv : Memref Cert.Kernel.sig Kind.scVector Space.hbm Cert.Kernel.S26x4096 EltTy.i32)
local notation "xnV" => (Memref.whole Cert.Kernel.main_arg1_scv : Memref Cert.Kernel.sig Kind.scVector Space.hbm Cert.Kernel.S4096x13 EltTy.f32)
local notation "tbV" => (Memref.whole Cert.Kernel.main_v1_scv : Memref Cert.Kernel.sig Kind.scVector Space.hbm Cert.Kernel.S26000x128 EltTy.f32)
local notation "oV" => (Memref.whole Cert.Kernel.main_v2_scv : Memref Cert.Kernel.sig Kind.scVector Space.hbm Cert.Kernel.S4096x3341 EltTy.f32)
local notation "s0V" => (Memref.whole Cert.Kernel.cc0_scratch0 : Memref Cert.Kernel.sig Kind.scVector Space.vmem Cert.Kernel.S26x128 EltTy.i32)
local notation "s1V" => (Memref.whole Cert.Kernel.cc0_scratch1 : Memref Cert.Kernel.sig Kind.scVector Space.vmem Cert.Kernel.S5x128x128 EltTy.f32)
local notation "s2V" => (Memref.whole Cert.Kernel.cc0_scratch2 : Memref Cert.Kernel.sig Kind.scVector Space.vmem Cert.Kernel.S128x13 EltTy.f32)

open Cert.PreSide Idealize.ShloMosaic.ValueIdx

theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

variable (m : (ℓ : Loc nD τ sig) → Buf (Elt F) ℓ) (d : Dev nD) (L : grid0.Coords)

/-! ## The tile's own cells and buffers -/

def dmaCell (thr : Thread nD τ) : Fin 13 ↪ GSem nD τ sig := ⟨fun k => (thr, SemLoc.dma k), fun a b e => by injection e with _ e; injection e⟩

theorem dmaCells_sub (c : Fin τ.nSC) (i : Fin τ.nSub) : Finset.univ.map (dmaCell (V d c i)) ⊆ ownCells (V d c i) := by
  have hk : ∀ k : Fin 13, (SemLoc.dma k : SemLoc sig).isScoped .scVector = true := by decide
  intro g hg
  obtain ⟨k, -, rfl⟩ := Finset.mem_map.mp hg
  exact mem_ownCells.mpr ⟨rfl, hk k⟩

theorem ownSems0_V (c : Fin τ.nSC) (i : Fin τ.nSub) :
    (ownSems0 (V d c i) : sProp 𝕄)
      = iprop((semVal (V d c i, SemLoc.dma 0) 0 ∗ semVal (V d c i, SemLoc.dma 1) 0 ∗ semVal (V d c i, SemLoc.dma 2) 0 ∗ semVal (V d c i, SemLoc.dma 3) 0 ∗ semVal (V d c i, SemLoc.dma 4) 0 ∗ semVal (V d c i, SemLoc.dma 5) 0 ∗ semVal (V d c i, SemLoc.dma 6) 0 ∗ semVal (V d c i, SemLoc.dma 7) 0 ∗ semVal (V d c i, SemLoc.dma 8) 0 ∗ semVal (V d c i, SemLoc.dma 9) 0 ∗ semVal (V d c i, SemLoc.dma 10) 0 ∗ semVal (V d c i, SemLoc.dma 11) 0 ∗ semVal (V d c i, SemLoc.dma 12) 0)
          ∗ bigSep (ownCells (V d c i) \ Finset.univ.map (dmaCell (V d c i))) fun g => semVal g 0) := by
  unfold SparseCore.Cfg.ownSems0
  rw [SparseCore.bigSep_sdiff_split' (dmaCells_sub d c i), BI.bigSep_map,
    show (Finset.univ : Finset (Fin 13)) = {0, 1, 2, 3, 4, 5, 6, 7, 8, 9, 10, 11, 12} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

theorem ownBufs_V (c : Fin τ.nSC) (i : Fin τ.nSub) :
    (ownBufs (V d c i) : sProp 𝕄)
      = iprop((∃ f, (V d c i).loc cc0_scratch0 ↦{fullShare} f) ∗ (∃ f, (V d c i).loc cc0_scratch1 ↦{fullShare} f) ∗ (∃ f, (V d c i).loc cc0_scratch2 ↦{fullShare} f)
          ∗ bigSep ((((ownRefs (τ := τ) (.scVector c i)).erase ((Proc.scVector c i).devRef cc0_scratch0)).erase
              ((Proc.scVector c i).devRef cc0_scratch1)).erase ((Proc.scVector c i).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector c i) (b := (Proc.scVector c i).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
        SparseCore.Cfg.mem_ownRefs_of_owner (p := Proc.scVector c i) (b := (Proc.scVector c i).devRef cc0_scratch2) rfl⟩⟩)]

/-! ## The tile's row block and what it holds at the end -/

theorem oTR_inb (L : grid0.Coords) : ∀ a, (![256 * (L 1).val + 128 * (L 0).val, 0] : Fin 2 → Nat) a + (![128, 3341] : Fin 2 → Nat) a ≤ S4096x3341.size a := by
  have h0 : (L 0).val < 2 := (L 0).isLt
  have h1 : (L 1).val < 16 := (L 1).isLt
  intro a; fin_cases a <;> simp <;> omega
/-- The 128 rows of the result the tile at `L` writes, every column. -/
abbrev oTR (L : grid0.Coords) : Rect S4096x3341 := Rect.unit (s := S4096x3341) ![256 * (L 1).val + 128 * (L 0).val, 0] ![128, 3341] (oTR_inb L)

/-- What the tiles leave in the result, as one function of the transposed indices `fxt`, the numeric features `fxn` and
    the stacked table `ftb`: column `j < 3328` of row `b` is lane `j % 128` of the table's row `fxt[j / 128, b] + 1000 (j / 128)`
    (reduced modulo 26000 to be total), the last 13 columns are the numeric features of row `b`. -/
def outT (fxt : S26x4096.Idx → BitVec 32) (fxn : S4096x13.Idx → Elt F .f32) (ftb : S26000x128.Idx → Elt F .f32) : S4096x3341.Idx → Elt F .f32 :=
  fun y =>
    if h : (y 1).val < 3328 then
      ftb (ix2 (⟨(fxt (ix2 (⟨(y 1).val / 128, by omega⟩ : Fin 26) (⟨(y 0).val, idx2_lt0 y⟩ : Fin 4096))
            + BitVec.ofNat 32 (1000 * ((y 1).val / 128))).toNat % 26000, Nat.mod_lt _ (by norm_num)⟩ : Fin 26000)
        (⟨(y 1).val % 128, Nat.mod_lt _ (by norm_num)⟩ : Fin 128))
    else fxn (ix2 (⟨(y 0).val, idx2_lt0 y⟩ : Fin 4096) (⟨(y 1).val - 3328, by have := idx2_lt1 y; omega⟩ : Fin 13))

end Cert.Proof.KernelSide
end
-- ==== Proof.IdxB.lean ====
/-
  What a tile's index scratch holds.

  Tile (c, t), c < 2, t < 16, owns the batch rows b0 … b0 + 127, b0 = 256 · t + 128 · c. It copies columns b0 … b0 + 127 of
  the transposed index array xt : [26, 4096] into its scratch : [26, 128] and then, for each row r = 1 … 25 and each
  block of sixteen columns, reads the block, adds the word 1000 · r to every element and writes it back. Row 0 is left
  as copied, which is the same rule with the word 1000 · 0 = 0. So the scratch ends as

      scratch[r, l] = xt[r, b0 + l] + 1000 · r.

  The stores arrive as a list of writes over the copy. Each write's payload is the closed form on its block
  (`piece_agree`), the copy is the closed form on row 0 (`base_agree`), and the blocks of rows 1 … 25 together with
  row 0 tile the scratch, so the list of writes over the copy reads the closed form everywhere (`idx_contents`). For an
  index array with entries in [0, 999] every scratch word is below 26000 (`idxF_lt`), which is what a gather through a
  row of the scratch needs (`hin_row`, `read_row`).
-/
import proofs.«201888_g37099927503118_cont_8to1_b_213_13_alg».proof.Kernel
import proofs.«201888_g37099927503118_cont_8to1_b_213_13_alg».proof.Proof.Gen.Kernel
import proofs.«201888_g37099927503118_cont_8to1_b_213_13_alg».proof.Proof.KernelValue
import proofs.«201888_g37099927503118_cont_8to1_b_213_13_alg».proof.Proof.LibWritesAgree
import Idealize.ShloMosaic.Lib.Writes
import Idealize.ShloMosaic.Lib.ValueIdx
import Idealize.ShloMosaic.Lib.Pipeline.Value

namespace Cert.Proof.KernelSide

open Idealize.ShloMosaic Idealize.SL.Sem
open Cert.Kernel Cert.Kernel.Gen

variable {F : FTy → Type} [FloatOps F]

/-! ## The closed form -/

open Idealize.ShloMosaic.ValueIdx in
/-- What tile `L`'s scratch holds in the end: at row r and lane l, the transposed index at row r and batch row
    b0 + l, plus the word 1000 · r. -/
def idxF (fxt : S26x4096.Idx → BitVec 32) (L : grid0.Coords) : S26x128.Idx → BitVec 32 :=
  fun j => fxt (ix2 (⟨(j 0).val, idx2_lt0 j⟩ : Fin 26) (⟨256 * (L 1).val + 128 * (L 0).val + (j 1).val, by have h0 : (L 0).val < 2 := (L 0).isLt; have h1 : (L 1).val < 16 := (L 1).isLt; have h2 := idx2_lt1 j; omega⟩ : Fin 4096)) + BitVec.ofNat 32 (1000 * (j 0).val)

open Idealize.ShloMosaic.ValueIdx in
/-- The closed form at explicit coordinates. -/
theorem idxF_apply (fxt : S26x4096.Idx → BitVec 32) (L : grid0.Coords) (j : S26x128.Idx) (r : Fin 26) (b : Fin 4096)
    (hr : r.val = (j 0).val) (hb : b.val = 256 * (L 1).val + 128 * (L 0).val + (j 1).val) :
    idxF fxt L j = fxt (ix2 r b) + BitVec.ofNat 32 (1000 * r.val) := by
  unfold idxF
  have er : (⟨(j 0).val, idx2_lt0 j⟩ : Fin 26) = r := Fin.ext hr.symm
  have eb : (⟨256 * (L 1).val + 128 * (L 0).val + (j 1).val, by have h0 : (L 0).val < 2 := (L 0).isLt; have h1 : (L 1).val < 16 := (L 1).isLt; have h2 := idx2_lt1 j; omega⟩ : Fin 4096) = b := Fin.ext hb.symm
  rw [er, eb, hr]

/-! ## The copy -/

open Idealize.ShloMosaic.ValueIdx in
/-- The block of the transposed indices the tile copies, at a scratch index: the index array at the same row and at
    the tile's batch offset plus the lane. -/
theorem copy_apply (fxt : S26x4096.Idx → BitVec 32) (L : grid0.Coords)
    (hk0 : ∀ a, (k0_off3 L) a + (![26, 128] : Fin 2 → ℕ) a ≤ S26x4096.size a) (y : S26x128.Idx) (r : Fin 26) (b : Fin 4096)
    (hr : r.val = (y 0).val) (hb : b.val = 256 * (L 1).val + 128 * (L 0).val + (y 1).val) :
    ReadAs.same.apply (View.read (Elt F) ((View.whole main_v0_scv).slice (Rect.unit (k0_off3 L) ![26, 128] hk0)) fxt) y
      = fxt (ix2 r b) := by
  show fxt _ = fxt _
  refine congrArg fxt (funext fun d => Fin.ext ?_)
  have hk := k0_off3_eq L
  match d with
  | ⟨0, _⟩ =>
    show (k0_off3 L) 0 + 1 * (y 0).val = r.val
    rw [hk, hr]
    show 0 + 1 * (y 0).val = (y 0).val
    omega
  | ⟨1, _⟩ =>
    show (k0_off3 L) 1 + 1 * (y 1).val = b.val
    rw [hk, hb]
    show 256 * (L 1).val + 128 * (L 0).val + 1 * (y 1).val = 256 * (L 1).val + 128 * (L 0).val + (y 1).val
    omega

open Idealize.ShloMosaic.ValueIdx in
/-- The copied block's word at a scratch index, plus the word of its row, is the closed form. -/
theorem copy_add (fxt : S26x4096.Idx → BitVec 32) (L : grid0.Coords)
    (hk0 : ∀ a, (k0_off3 L) a + (![26, 128] : Fin 2 → ℕ) a ≤ S26x4096.size a) (y : S26x128.Idx) (w : BitVec 32)
    (hw : w = ReadAs.same.apply (View.read (Elt F) ((View.whole main_v0_scv).slice (Rect.unit (k0_off3 L) ![26, 128] hk0)) fxt) y) :
    w + BitVec.ofNat 32 (1000 * (y 0).val) = idxF fxt L y := by
  rw [hw, copy_apply (F := F) fxt L hk0 y ⟨(y 0).val, idx2_lt0 y⟩
    ⟨256 * (L 1).val + 128 * (L 0).val + (y 1).val, by have h0 : (L 0).val < 2 := (L 0).isLt; have h1 : (L 1).val < 16 := (L 1).isLt; have h2 := idx2_lt1 y; omega⟩ rfl rfl]
  rfl

/-- The scratch after the copy holds the copied block. -/
theorem write_copy (fxt : S26x4096.Idx → BitVec 32) (L : grid0.Coords) (f0 : S26x128.Idx → BitVec 32)
    (hk0 : ∀ a, (k0_off3 L) a + (![26, 128] : Fin 2 → ℕ) a ≤ S26x4096.size a) :
    View.write (Elt F) (View.whole cc0_scratch0) f0
        (ReadAs.same.apply (View.read (Elt F) ((View.whole main_v0_scv).slice (Rect.unit (k0_off3 L) ![26, 128] hk0)) fxt)) Finset.univ
      = ReadAs.same.apply (View.read (Elt F) ((View.whole main_v0_scv).slice (Rect.unit (k0_off3 L) ![26, 128] hk0)) fxt) :=
  View.write_whole_univ (Val := Elt F) cc0_scratch0 f0 _

/-! ## One store: the block at (r, c) with the word 1000 · r added -/

open Idealize.ShloMosaic.ValueIdx Cert.PreSide in
/-- The payload of the store at row r, column block c — the block read back from the scratch after the copy,
    flattened, offset by the broadcast word k = 1000 · r and viewed as [1, 16] again — is the closed form on the block. -/
theorem piece_agree (fxt : S26x4096.Idx → BitVec 32) (L : grid0.Coords) (f0 : S26x128.Idx → BitVec 32)
    (r c : ℕ) (hinb : ∀ a, (![r, c] : Fin 2 → ℕ) a + (![1, 16] : Fin 2 → ℕ) a ≤ S26x128.size a) (k : BitVec 32)
    (hk : k = BitVec.ofNat 32 (1000 * r)) (h1 : S1x16.ShapeCasts S16) (h2 : S16.ShapeCasts S1x16)
    {hk0 : ∀ a, (k0_off3 L) a + (![26, 128] : Fin 2 → ℕ) a ≤ S26x4096.size a}
    (x : (Rect.unit (s := S26x128) ![r, c] ![1, 16] hinb).shape.Idx) :
    shapeCast S1x16 (addi (shapeCast S16 (View.readAt (Elt F) (View.whole cc0_scratch0) (Rect.unit (s := S26x128) ![r, c] ![1, 16] hinb).toLoadRect
          (View.write (Elt F) (View.whole cc0_scratch0) f0
            (ReadAs.same.apply (View.read (Elt F) ((View.whole main_v0_scv).slice (Rect.unit (k0_off3 L) ![26, 128] hk0)) fxt)) Finset.univ)) h1)
        (broadcast S16 k)) h2 x
      = idxF fxt L ((Rect.unit (s := S26x128) ![r, c] ![1, 16] hinb).emb x) := by
  refine (congrFun (pay_eq h1 h2 _ k) x).trans ?_
  rw [write_copy (F := F) fxt L f0 hk0]
  have hx0 : (x 0).val < 1 := (x 0).isLt
  have hy0 : (((Rect.unit (s := S26x128) ![r, c] ![1, 16] hinb).emb x) 0).val = r := by
    show r + 1 * (x 0).val = r
    omega
  have h := copy_add (F := F) fxt L hk0 ((Rect.unit (s := S26x128) ![r, c] ![1, 16] hinb).emb x) _ rfl
  rw [hy0, ← hk] at h
  exact h

/-! ## Row 0: the copy itself -/

/-- On row 0 the scratch after the copy already holds the closed form: the word added there is 1000 · 0 = 0. -/
theorem base_agree (fxt : S26x4096.Idx → BitVec 32) (L : grid0.Coords) (f0 : S26x128.Idx → BitVec 32)
    (hk0 : ∀ a, (k0_off3 L) a + (![26, 128] : Fin 2 → ℕ) a ≤ S26x4096.size a) (y : S26x128.Idx) (hy : (y 0).val = 0) :
    View.read (Elt F) (View.whole cc0_scratch0) (View.write (Elt F) (View.whole cc0_scratch0) f0
        (ReadAs.same.apply (View.read (Elt F) ((View.whole main_v0_scv).slice (Rect.unit (k0_off3 L) ![26, 128] hk0)) fxt)) Finset.univ) y
      = idxF fxt L y := by
  rw [write_copy (F := F) fxt L f0 hk0]
  have h := copy_add (F := F) fxt L hk0 y _ rfl
  rw [hy, Nat.mul_zero, BitVec.add_zero] at h
  exact h

/-! ## All the stores: the list of writes over the copy -/

/-- A placeholder piece on row 0 at columns c … c + 15: it stands for the part of the scratch no store touches. -/
def zeroPiece (c : ℕ) (hc : c + 16 ≤ 128) : View.Piece (Elt F) S26x128 .i32 :=
  ⟨Rect.unit (s := S26x128) ![0, c] ![1, 16] (Rect.inb₂ (Nat.le_add_left 1 25) hc), fun _ => (0 : BitVec 32)⟩

/-- Row 0 in eight [1, 16] blocks. With the two hundred stores of rows 1 … 25 they tile the [26, 128] scratch. -/
def row0 : List (View.Piece (Elt F) S26x128 .i32) :=
  [zeroPiece 0 (by omega), zeroPiece 16 (by omega), zeroPiece 32 (by omega), zeroPiece 48 (by omega),
    zeroPiece 64 (by omega), zeroPiece 80 (by omega), zeroPiece 96 (by omega), zeroPiece 112 (by omega)]

/-- An element under a placeholder piece is on row 0. -/
theorem zeroPiece_mem (c : ℕ) (hc : c + 16 ≤ 128) (y : S26x128.Idx) (hy : y ∈ (zeroPiece (F := F) c hc).1.set) :
    (y 0).val = 0 := by
  have hy' : y ∈ (Rect.unit (s := S26x128) ![0, c] ![1, 16] (Rect.inb₂ (Nat.le_add_left 1 25) hc)).set := hy
  have h := (Rect.mem_set_unit.mp hy') 0
  have h2 : (y 0).val < 0 + 1 := h.2
  omega

/-- So is an element under any piece of `row0`. -/
theorem row0_mem (p : View.Piece (Elt F) S26x128 .i32) (hp : p ∈ row0 (F := F)) (y : S26x128.Idx) (hy : y ∈ p.1.set) :
    (y 0).val = 0 := by
  simp only [row0, List.mem_cons, List.mem_nil_iff, or_false] at hp
  rcases hp with rfl | rfl | rfl | rfl | rfl | rfl | rfl | rfl <;> exact zeroPiece_mem _ _ y hy

/-- The scratch after the copy and any list of stores whose payloads are the closed form on their blocks and that,
    together with row 0, tile the scratch in [1, 16] blocks, holds the closed form. -/
theorem idx_contents (fxt : S26x4096.Idx → BitVec 32) (L : grid0.Coords) (f0 : S26x128.Idx → BitVec 32)
    (hk0 : ∀ a, (k0_off3 L) a + (![26, 128] : Fin 2 → ℕ) a ≤ S26x4096.size a)
    (Lw : List (View.Piece (Elt F) S26x128 .i32))
    (hG : ∀ p ∈ Lw, ∀ x : p.1.shape.Idx, p.2 x = idxF fxt L (p.1.emb x))
    (ht : View.Piece.tiled (Lw ++ row0 (F := F)) ![1, 16] = true) :
    View.writes (View.whole cc0_scratch0) (Elt F)
        (View.write (Elt F) (View.whole cc0_scratch0) f0
          (ReadAs.same.apply (View.read (Elt F) ((View.whole main_v0_scv).slice (Rect.unit (k0_off3 L) ![26, 128] hk0)) fxt)) Finset.univ)
        Lw
      = idxF fxt L := by
  funext y
  refine View.read_writes_of_agree (View.whole cc0_scratch0) _ (idxF fxt L) Lw hG (fun y hn => ?_) y
  obtain ⟨p, hp, hy⟩ := View.mem_rest_of_tiled Lw (row0 (F := F)) ![1, 16] ht y hn
  exact base_agree fxt L f0 hk0 y (row0_mem p hp y hy)

/-! ## The range of the scratch words, and a row of the scratch read for a gather -/

open Idealize.ShloMosaic.ValueIdx Cert.PreSide in
/-- For an index array with entries in [0, 999] every scratch word is below 26000. -/
theorem idxF_lt (fxt : S26x4096.Idx → BitVec 32) (L : grid0.Coords) (hr : ∀ j, (fxt j).toNat ≤ 999) (y : S26x128.Idx) :
    (idxF fxt L y).toNat < 26000 :=
  off_lt _ (hr _) ⟨(y 0).val, idx2_lt0 y⟩

open Idealize.ShloMosaic.ValueIdx in
/-- Row r of the scratch viewed as a [128] vector reads the scratch's contents at row r and the same lane. -/
theorem row_read (G : S26x128.Idx → BitVec 32) (r : ℕ)
    (hinb : ∀ a, (![r, 0] : Fin 2 → ℕ) a + S1x128.size a ≤ S26x128.size a) (x : S128.Idx)
    (y : S26x128.Idx) (hy0 : (y 0).val = r) (hy1 : (y 1).val = (x 0).val) :
    View.read (Elt F) (((Memref.whole cc0_scratch0 : Memref sig .scVector .vmem S26x128 .i32).slice
        (Rect.unit (s := S26x128) ![r, 0] S1x128.size hinb) (fun _ => rfl)).squeeze S128 squeezes_S1x128_S128).view G x = G y := by
  have hc : S1x128.ShapeCasts S128 := squeezes_S1x128_S128.numel_eq
  have e : View.read (Elt F) (((Memref.whole cc0_scratch0 : Memref sig .scVector .vmem S26x128 .i32).slice
        (Rect.unit (s := S26x128) ![r, 0] S1x128.size hinb) (fun _ => rfl)).squeeze S128 squeezes_S1x128_S128).view G x
      = G ((Rect.unit (s := S26x128) ![r, 0] S1x128.size hinb).emb (ix2 (0 : Fin 1) (x 0))) :=
    shapeCast_apply (s := S1x128) (t := S128)
      (View.readAt (Elt F) (View.whole cc0_scratch0) (Rect.unit (s := S26x128) ![r, 0] S1x128.size hinb).toLoadRect G)
      hc x (ix2 (0 : Fin 1) (x 0)) (by
        rw [Shape.rowMajor_val_one, Shape.rowMajor_val_two]
        show 0 * 128 + (x 0).val = (x 0).val
        omega)
  rw [e]
  refine congrArg G (funext fun d => Fin.ext ?_)
  match d with
  | ⟨0, _⟩ =>
    show r + 1 * 0 = (y 0).val
    omega
  | ⟨1, _⟩ =>
    show 0 + 1 * (x 0).val = (y 1).val
    omega

open Idealize.ShloMosaic.ValueIdx in
/-- The word a gather through row r of the scratch reads at lane x is a row of the flattened tables. -/
theorem hin_row (fxt : S26x4096.Idx → BitVec 32) (L : grid0.Coords) (hr : ∀ j, (fxt j).toNat ≤ 999) (r : ℕ)
    (hinb : ∀ a, (![r, 0] : Fin 2 → ℕ) a + S1x128.size a ≤ S26x128.size a) (x : S128.Idx) :
    (View.read (Elt F) (((Memref.whole cc0_scratch0 : Memref sig .scVector .vmem S26x128 .i32).slice
        (Rect.unit (s := S26x128) ![r, 0] S1x128.size hinb) (fun _ => rfl)).squeeze S128 squeezes_S1x128_S128).view (idxF fxt L) x).toNat
      < 26000 := by
  have h0 : r + 1 ≤ 26 := hinb 0
  rw [row_read (F := F) (idxF fxt L) r hinb x (ix2 (⟨r, by omega⟩ : Fin 26) (⟨(x 0).val, (x 0).isLt⟩ : Fin 128)) rfl rfl]
  exact idxF_lt fxt L hr _

open Idealize.ShloMosaic.ValueIdx in
/-- And its value: the transposed index at row r and batch row b0 + x, plus the word 1000 · r. -/
theorem read_row (fxt : S26x4096.Idx → BitVec 32) (L : grid0.Coords) (r : ℕ)
    (hinb : ∀ a, (![r, 0] : Fin 2 → ℕ) a + S1x128.size a ≤ S26x128.size a) (x : S128.Idx)
    (rr : Fin 26) (b : Fin 4096) (hrr : rr.val = r) (hb : b.val = 256 * (L 1).val + 128 * (L 0).val + (x 0).val) :
    View.read (Elt F) (((Memref.whole cc0_scratch0 : Memref sig .scVector .vmem S26x128 .i32).slice
        (Rect.unit (s := S26x128) ![r, 0] S1x128.size hinb) (fun _ => rfl)).squeeze S128 squeezes_S1x128_S128).view (idxF fxt L) x
      = fxt (ix2 rr b) + BitVec.ofNat 32 (1000 * r) := by
  have h0 : r + 1 ≤ 26 := hinb 0
  rw [row_read (F := F) (idxF fxt L) r hinb x (ix2 (⟨r, by omega⟩ : Fin 26) (⟨(x 0).val, (x 0).isLt⟩ : Fin 128)) rfl rfl,
    idxF_apply fxt L _ rr b hrr hb, hrr]

end Cert.Proof.KernelSide
-- ==== Proof.OutGenB.lean ====
/-
  What the value of the tile's result is read off from, as lemmas over variable offsets: a unit-stride window of
  the result (membership, its embedding, a write through it read under and off the window), the tile's row block,
  a source array read through a window, the staging buffer's slots (a write to one slot is not seen through another,
  and is read back through its own), the gather's payload and the rows an offset list names read at an index, one
  field's gathered block at a result index (`gather_field`), and the numeric features' window (`num_val`).
-/
import proofs.«201888_g37099927503118_cont_8to1_b_213_13_alg».proof.Proof.BodyB
import proofs.«201888_g37099927503118_cont_8to1_b_213_13_alg».proof.Proof.IdxB

noncomputable section

namespace Cert.Proof.KernelSide

open Cert.Kernel Cert.Kernel.Gen

open Idealize.ShloMosaic
open Idealize.ShloMosaic.SparseCore (S V T)
open Idealize.SL.Sem
open Idealize.ShloMosaic.ValueIdx

variable {F : FTy → Type}

local notation "xnV" => (Memref.whole Cert.Kernel.main_arg1_scv : Memref Cert.Kernel.sig Kind.scVector Space.hbm Cert.Kernel.S4096x13 EltTy.f32)
local notation "tbV" => (Memref.whole Cert.Kernel.main_v1_scv : Memref Cert.Kernel.sig Kind.scVector Space.hbm Cert.Kernel.S26000x128 EltTy.f32)
local notation "oV" => (Memref.whole Cert.Kernel.main_v2_scv : Memref Cert.Kernel.sig Kind.scVector Space.hbm Cert.Kernel.S4096x3341 EltTy.f32)
local notation "s0V" => (Memref.whole Cert.Kernel.cc0_scratch0 : Memref Cert.Kernel.sig Kind.scVector Space.vmem Cert.Kernel.S26x128 EltTy.i32)
local notation "s1V" => (Memref.whole Cert.Kernel.cc0_scratch1 : Memref Cert.Kernel.sig Kind.scVector Space.vmem Cert.Kernel.S5x128x128 EltTy.f32)
local notation "s2V" => (Memref.whole Cert.Kernel.cc0_scratch2 : Memref Cert.Kernel.sig Kind.scVector Space.vmem Cert.Kernel.S128x13 EltTy.f32)

/-! ## A window of the result: membership, its embedding, a write through it read at an index -/

/-- An index lies under a unit-stride window of the result exactly when each coordinate lies in the window's span. -/
theorem mem_oWin {off sz : Fin 2 → ℕ} {hinb : ∀ a, off a + sz a ≤ S4096x3341.size a} (y : S4096x3341.Idx) :
    y ∈ ((oV).slice (Rect.unit (s := S4096x3341) off sz hinb) (fun _ => rfl)).view.set
      ↔ ∀ a, off a ≤ (y a).val ∧ (y a).val < off a + sz a := by
  have e : ((oV).slice (Rect.unit (s := S4096x3341) off sz hinb) (fun _ => rfl)).view.set = (Rect.unit (s := S4096x3341) off sz hinb).set :=
    View.set_slice_whole main_v2_scv _
  exact (Finset.ext_iff.mp e y).trans Rect.mem_set_unit

/-- The window's element at the inside coordinates `y − off` is `y`. -/
theorem oWin_emb (off sz : Fin 2 → ℕ) (hinb : ∀ a, off a + sz a ≤ S4096x3341.size a) (y : S4096x3341.Idx)
    (hy : ∀ a, off a ≤ (y a).val ∧ (y a).val < off a + sz a) :
    ((oV).slice (Rect.unit (s := S4096x3341) off sz hinb) (fun _ => rfl)).view.emb
        (fun a => (⟨(y a).val - off a, by have := hy a; omega⟩ : Fin (sz a))) = y := by
  funext a
  refine Fin.ext ?_
  show off a + 1 * ((y a).val - off a) = (y a).val
  have := hy a; omega

/-- A write through a window, read under the window: the payload at the inside coordinates. -/
theorem write_oWin_of_mem (off sz : Fin 2 → ℕ) (hinb : ∀ a, off a + sz a ≤ S4096x3341.size a)
    (g : S4096x3341.Idx → Elt F .f32) (p : (Rect.unit (s := S4096x3341) off sz hinb).shape.Idx → Elt F .f32) (y : S4096x3341.Idx)
    (hy : ∀ a, off a ≤ (y a).val ∧ (y a).val < off a + sz a) :
    View.write (Elt F) ((oV).slice (Rect.unit (s := S4096x3341) off sz hinb) (fun _ => rfl)).view g p Finset.univ y
      = p (fun a => (⟨(y a).val - off a, by have := hy a; omega⟩ : Fin (sz a))) := by
  conv_lhs => rw [← oWin_emb off sz hinb y hy]
  rw [View.write_emb_of_mem _ _ (Finset.mem_univ _)]
  rfl

/-- A write through a window, read off the window: what was there. -/
theorem write_oWin_of_not_mem (off sz : Fin 2 → ℕ) (hinb : ∀ a, off a + sz a ≤ S4096x3341.size a)
    (g : S4096x3341.Idx → Elt F .f32) (p : (Rect.unit (s := S4096x3341) off sz hinb).shape.Idx → Elt F .f32) (y : S4096x3341.Idx)
    (hy : ¬ ∀ a, off a ≤ (y a).val ∧ (y a).val < off a + sz a) :
    View.write (Elt F) ((oV).slice (Rect.unit (s := S4096x3341) off sz hinb) (fun _ => rfl)).view g p Finset.univ y = g y :=
  View.write_of_not_mem _ _ _ (by rw [View.setOn_univ, mem_oWin]; exact hy)

/-- The tile's row block: rows `b0 … b0 + 127`, every column. -/
theorem mem_oTR (L : grid0.Coords) (y : S4096x3341.Idx) :
    y ∈ (oV).view.setOn (oTR L).set ↔ 256 * (L 1).val + 128 * (L 0).val ≤ (y 0).val ∧ (y 0).val < 256 * (L 1).val + 128 * (L 0).val + 128 := by
  have e : (oV).view.setOn (oTR L).set = (oTR L).set := by
    ext i; simp only [View.setOn, Finset.mem_map]
    exact ⟨fun ⟨x, hx, e⟩ => e ▸ hx, fun h => ⟨i, h, rfl⟩⟩
  rw [e, Rect.mem_set_unit]
  have h1 : (y 1).val < 3341 := idx2_lt1 y
  constructor
  · intro h; exact h 0
  · intro h a
    match a with
    | ⟨0, _⟩ => exact h
    | ⟨1, _⟩ => exact ⟨Nat.zero_le _, by show (y 1).val < 0 + 3341; omega⟩

/-! ## A read of a source array through a unit-stride window -/

theorem read_xnWin (off sz : Fin 2 → ℕ) (hinb : ∀ a, off a + sz a ≤ S4096x13.size a) (fxn : S4096x13.Idx → Elt F .f32)
    (x : (Rect.unit (s := S4096x13) off sz hinb).shape.Idx) :
    View.read (Elt F) ((xnV).slice (Rect.unit (s := S4096x13) off sz hinb) (fun _ => rfl)).view fxn x
      = fxn (fun a => ⟨off a + (x a).val, by have := hinb a; have := (x a).isLt; show off a + (x a).val < S4096x13.size a; change (x a).val < sz a at this; omega⟩) := by
  rw [View.read_apply]
  refine (cast_eq _ _).trans (congrArg fxn (funext fun a => Fin.ext ?_))
  show off a + 1 * (x a).val = off a + (x a).val
  omega

theorem read_tbWin (off sz : Fin 2 → ℕ) (hinb : ∀ a, off a + sz a ≤ S26000x128.size a) (ftb : S26000x128.Idx → Elt F .f32)
    (x : (Rect.unit (s := S26000x128) off sz hinb).shape.Idx) :
    View.read (Elt F) ((tbV).slice (Rect.unit (s := S26000x128) off sz hinb) (fun _ => rfl)).view ftb x
      = ftb (fun a => ⟨off a + (x a).val, by have := hinb a; have := (x a).isLt; show off a + (x a).val < S26000x128.size a; change (x a).val < sz a at this; omega⟩) := by
  rw [View.read_apply]
  refine (cast_eq _ _).trans (congrArg ftb (funext fun a => Fin.ext ?_))
  show off a + 1 * (x a).val = off a + (x a).val
  omega

/-! ## The staging buffer's slots -/

theorem slot_set (s : ℕ) (hinb : ∀ a, (![s, 0, 0] : Fin 3 → ℕ) a + S1x128x128.size a ≤ S5x128x128.size a) :
    (((s1V).slice (Rect.unit (s := S5x128x128) ![s, 0, 0] S1x128x128.size hinb) (fun _ => rfl)).squeeze S128x128 squeezes_S1x128x128_S128x128).view.set
      = (Rect.unit (s := S5x128x128) ![s, 0, 0] S1x128x128.size hinb).set := by
  exact (View.set_reshape _ _).trans (View.set_slice_whole cc0_scratch1 _)

/-- A write to one slot is not seen through another. -/
theorem slot_read_write_ne (s t : ℕ) (hs : ∀ a, (![s, 0, 0] : Fin 3 → ℕ) a + S1x128x128.size a ≤ S5x128x128.size a)
    (ht : ∀ a, (![t, 0, 0] : Fin 3 → ℕ) a + S1x128x128.size a ≤ S5x128x128.size a) (hne : s ≠ t)
    (C : S5x128x128.Idx → Elt F .f32) (G : S128x128.Idx → Elt F .f32) :
    View.read (Elt F) (((s1V).slice (Rect.unit (s := S5x128x128) ![s, 0, 0] S1x128x128.size hs) (fun _ => rfl)).squeeze S128x128 squeezes_S1x128x128_S128x128).view
        (View.write (Elt F) (((s1V).slice (Rect.unit (s := S5x128x128) ![t, 0, 0] S1x128x128.size ht) (fun _ => rfl)).squeeze S128x128 squeezes_S1x128x128_S128x128).view C G Finset.univ)
      = View.read (Elt F) (((s1V).slice (Rect.unit (s := S5x128x128) ![s, 0, 0] S1x128x128.size hs) (fun _ => rfl)).squeeze S128x128 squeezes_S1x128x128_S128x128).view C := by
  refine View.read_congr (fun i hi => View.write_of_not_mem _ _ _ ?_)
  rw [View.setOn_univ, slot_set, Rect.mem_set_unit]
  rw [slot_set, Rect.mem_set_unit] at hi
  intro h
  have h1 := hi 0
  have h2 := h 0
  have e1 : (![s, 0, 0] : Fin 3 → ℕ) 0 = s := rfl
  have e2 : (![t, 0, 0] : Fin 3 → ℕ) 0 = t := rfl
  have e3 : S1x128x128.size 0 = 1 := rfl
  rw [e1, e3] at h1; rw [e2, e3] at h2
  omega

/-- A write to a slot read back through it. -/
theorem slot_read_write_self (s : ℕ) (hs : ∀ a, (![s, 0, 0] : Fin 3 → ℕ) a + S1x128x128.size a ≤ S5x128x128.size a)
    (C : S5x128x128.Idx → Elt F .f32) (G : S128x128.Idx → Elt F .f32) :
    View.read (Elt F) (((s1V).slice (Rect.unit (s := S5x128x128) ![s, 0, 0] S1x128x128.size hs) (fun _ => rfl)).squeeze S128x128 squeezes_S1x128x128_S128x128).view
        (View.write (Elt F) (((s1V).slice (Rect.unit (s := S5x128x128) ![s, 0, 0] S1x128x128.size hs) (fun _ => rfl)).squeeze S128x128 squeezes_S1x128x128_S128x128).view C G Finset.univ)
      = G :=
  View.read_write_univ _ _

/-! ## The gather's payload and the rows an offset list names, read at an index -/

theorem gather_apply (src : S26000x128.Idx → Elt F .f32) (r : Fin 128 → Fin 26000) (x : S128x128.Idx) :
    SparseCore.gatherPayload (F := F) gathers_S26000x128_S128x128 src r x = src (ix2 (r (x 0)) (x 1)) := by
  unfold SparseCore.gatherPayload
  refine congrArg src (funext fun b => Fin.ext ?_)
  match b with
  | ⟨0, _⟩ => rfl
  | ⟨1, _⟩ => rfl

theorem rows_val (offs : S128.Idx → Elt F .i32) (hn : S128.numel = 128) (hin : ∀ x, (offs x).toNat < 26000) (k : Fin 128) :
    (SparseCore.rows (F := F) offs hn hin k).val = (offs (ix1 k)).toNat := by
  unfold SparseCore.rows
  show (offs (S128.rowMajor.symm (k.cast hn.symm))).toNat = _
  have e : S128.rowMajor.symm (k.cast hn.symm) = ix1 k :=
    (Equiv.symm_apply_eq _).mpr (Fin.ext (by rw [Shape.rowMajor_val_one]; rfl))
  rw [e]

theorem readAs_same {s : Shape} {e : EltTy} (g : s.Idx → Elt F e) : (ReadAs.same (Val := Elt F)).apply g = g := rfl

/-! ## One field's gathered block read at an index of the result -/

variable [FloatOps F]

/-- The rows gathered for field `f`, read at the inside coordinates of a result index in the tile's rows and the field's
    columns: the specification's entry there. -/
theorem gather_field (f : ℕ) (hf : f < 26) (L : grid0.Coords) (fxt : S26x4096.Idx → BitVec 32) (fxn : S4096x13.Idx → Elt F .f32)
    (ftb : S26000x128.Idx → Elt F .f32)
    (hinT : ∀ a, (![0, 0] : Fin 2 → ℕ) a + S26000x128.size a ≤ S26000x128.size a)
    (hinR : ∀ a, (![f, 0] : Fin 2 → ℕ) a + S1x128.size a ≤ S26x128.size a)
    (hin : ∀ x, (View.read (Elt F) (((s0V).slice (Rect.unit (s := S26x128) ![f, 0] S1x128.size hinR) (fun _ => rfl)).squeeze S128 squeezes_S1x128_S128).view (idxF fxt L) x).toNat < 26000)
    (y : S4096x3341.Idx) (x : S128x128.Idx)
    (hx0 : 256 * (L 1).val + 128 * (L 0).val + (x 0).val = (y 0).val) (hx1 : 128 * f + (x 1).val = (y 1).val) :
    SparseCore.gatherPayload (F := F) gathers_S26000x128_S128x128
        (View.read (Elt F) ((tbV).slice (Rect.unit (s := S26000x128) ![0, 0] S26000x128.size hinT) (fun _ => rfl)).view ftb)
        (SparseCore.rows (F := F) (View.read (Elt F) (((s0V).slice (Rect.unit (s := S26x128) ![f, 0] S1x128.size hinR) (fun _ => rfl)).squeeze S128 squeezes_S1x128_S128).view (idxF fxt L)) rfl hin) x
      = outT fxt fxn ftb y := by
  have hx1lt : (x 1).val < 128 := (x 1).isLt
  have hx0lt : (x 0).val < 128 := (x 0).isLt
  have hdiv : (y 1).val / 128 = f := by omega
  have hlt : (y 1).val < 3328 := by omega
  have hbound := hin (ix1 (x 0))
  rw [read_row (F := F) fxt L f hinR (ix1 (x 0)) (⟨f, hf⟩ : Fin 26) (⟨(y 0).val, idx2_lt0 y⟩ : Fin 4096) rfl hx0.symm] at hbound
  refine (gather_apply (F := F) _ _ x).trans ?_
  refine (read_tbWin (F := F) _ _ hinT ftb _).trans ?_
  unfold outT
  rw [dif_pos hlt]
  subst hdiv
  refine congrArg ftb (funext fun a => Fin.ext ?_)
  match a with
  | ⟨0, _⟩ =>
    have hrv : (SparseCore.rows (F := F) _ rfl hin (x 0)).val
        = BitVec.toNat (fxt (ix2 (⟨(y 1).val / 128, hf⟩ : Fin 26) (⟨(y 0).val, idx2_lt0 y⟩ : Fin 4096)) + BitVec.ofNat 32 (1000 * ((y 1).val / 128))) :=
      (rows_val (F := F) _ rfl hin (x 0)).trans (congrArg BitVec.toNat
        (read_row (F := F) fxt L _ hinR (ix1 (x 0)) (⟨(y 1).val / 128, hf⟩ : Fin 26) (⟨(y 0).val, idx2_lt0 y⟩ : Fin 4096) rfl hx0.symm))
    have hfin : 0 + BitVec.toNat (fxt (ix2 (⟨(y 1).val / 128, hf⟩ : Fin 26) (⟨(y 0).val, idx2_lt0 y⟩ : Fin 4096)) + BitVec.ofNat 32 (1000 * ((y 1).val / 128)))
        = BitVec.toNat (fxt (ix2 (⟨(y 1).val / 128, hf⟩ : Fin 26) (⟨(y 0).val, idx2_lt0 y⟩ : Fin 4096)) + BitVec.ofNat 32 (1000 * ((y 1).val / 128))) % 26000 := by
      rw [Nat.mod_eq_of_lt hbound]; omega
    exact (congrArg (0 + ·) hrv).trans hfin
  | ⟨1, _⟩ =>
    show 0 + (x 1).val = (y 1).val % 128
    omega

/-! ## The numeric features' window -/

/-- The numeric features staged and copied into the result's last 13 columns: under that window the result holds
    the specification's entry. -/
theorem num_val (L : grid0.Coords) (fxt : S26x4096.Idx → BitVec 32) (fxn : S4096x13.Idx → Elt F .f32) (ftb : S26000x128.Idx → Elt F .f32)
    (fo : S4096x3341.Idx → Elt F .f32) (f2 : S128x13.Idx → Elt F .f32) (y : S4096x3341.Idx)
    (hy : y ∈ ((oV).slice (Rect.unit (s := S4096x3341) (k0_off2 L) S128x13.size (k0_off2_inb L)) (fun _ => rfl)).view.set) :
    View.write (Elt F) ((oV).slice (Rect.unit (s := S4096x3341) (k0_off2 L) S128x13.size (k0_off2_inb L)) (fun _ => rfl)).view fo
        ((ReadAs.same (Val := Elt F)).apply (View.read (Elt F) (s2V).view (View.write (Elt F) (s2V).view f2
          ((ReadAs.same (Val := Elt F)).apply (View.read (Elt F) ((xnV).slice (Rect.unit (s := S4096x13) (k0_off1 L) S128x13.size (k0_off1_inb L)) (fun _ => rfl)).view fxn))
          Finset.univ))) Finset.univ y
      = outT fxt fxn ftb y := by
  have hy' := (mem_oWin y).mp hy
  have e20 : k0_off2 L 0 = 256 * (L 1).val + 128 * (L 0).val := by rw [k0_off2_eq]; rfl
  have e21 : k0_off2 L 1 = 3328 := by rw [k0_off2_eq]; rfl
  have e10 : k0_off1 L 0 = 256 * (L 1).val + 128 * (L 0).val := by rw [k0_off1_eq]; rfl
  have e11 : k0_off1 L 1 = 0 := by rw [k0_off1_eq]; rfl
  have h0 := hy' 0
  have h1 := hy' 1
  rw [e20] at h0; rw [e21] at h1
  refine (write_oWin_of_mem (F := F) _ _ _ fo _ y hy').trans ?_
  show View.read (Elt F) (View.whole cc0_scratch2) (View.write (Elt F) (View.whole cc0_scratch2) f2
      (View.read (Elt F) ((xnV).slice (Rect.unit (s := S4096x13) (k0_off1 L) S128x13.size (k0_off1_inb L)) (fun _ => rfl)).view fxn) Finset.univ) _ = _
  rw [View.write_whole_univ, View.read_whole]
  refine (read_xnWin (F := F) _ _ _ fxn _).trans ?_
  unfold outT
  rw [dif_neg (by omega)]
  refine congrArg fxn (funext fun a => Fin.ext ?_)
  match a with
  | ⟨0, _⟩ =>
    show k0_off1 L 0 + ((y 0).val - k0_off2 L 0) = (y 0).val
    rw [e10, e20]; omega
  | ⟨1, _⟩ =>
    show k0_off1 L 1 + ((y 1).val - k0_off2 L 1) = (y 1).val - 3328
    rw [e11, e21]; omega

end Cert.Proof.KernelSide
end
-- ==== Proof.OutValB.lean ====
/-
  The value the tile leaves in its rows of the result, read at an index. The numeric window holds the numeric
  features (`agree2`); outside it, the 26 field windows are written one after the other over disjoint column blocks, so
  the entry at an index is the payload of the one window that holds it, at the index's coordinates inside the window
  (`nest_val`, `agree1`); a payload is a slot of the staging buffer read after the gathers written to the buffer, which is
  the gathered block of that field (`slot_peel`, `pay_val`, with `gather_field`).
-/
import proofs.«201888_g37099927503118_cont_8to1_b_213_13_alg».proof.Proof.OutGenB

noncomputable section

namespace Cert.Proof.KernelSide

open Cert.Kernel Cert.Kernel.Gen

open Idealize.ShloMosaic
open Idealize.ShloMosaic.SparseCore (S V T)
open Idealize.SL.Sem
open Idealize.ShloMosaic.ValueIdx

variable {F : FTy → Type}

local notation "xnV" => (Memref.whole Cert.Kernel.main_arg1_scv : Memref Cert.Kernel.sig Kind.scVector Space.hbm Cert.Kernel.S4096x13 EltTy.f32)
local notation "tbV" => (Memref.whole Cert.Kernel.main_v1_scv : Memref Cert.Kernel.sig Kind.scVector Space.hbm Cert.Kernel.S26000x128 EltTy.f32)
local notation "oV" => (Memref.whole Cert.Kernel.main_v2_scv : Memref Cert.Kernel.sig Kind.scVector Space.hbm Cert.Kernel.S4096x3341 EltTy.f32)
local notation "s0V" => (Memref.whole Cert.Kernel.cc0_scratch0 : Memref Cert.Kernel.sig Kind.scVector Space.vmem Cert.Kernel.S26x128 EltTy.i32)
local notation "s1V" => (Memref.whole Cert.Kernel.cc0_scratch1 : Memref Cert.Kernel.sig Kind.scVector Space.vmem Cert.Kernel.S5x128x128 EltTy.f32)
local notation "s2V" => (Memref.whole Cert.Kernel.cc0_scratch2 : Memref Cert.Kernel.sig Kind.scVector Space.vmem Cert.Kernel.S128x13 EltTy.f32)

variable [FloatOps F]

/-! ## The numeric window inside the tile's rows, and the rest of the rows -/

theorem w13_sub (L : grid0.Coords) :
    ((oV).slice (Rect.unit (s := S4096x3341) (k0_off2 L) S128x13.size (k0_off2_inb L)) (fun _ => rfl)).view.set ⊆ (oV).view.setOn (oTR L).set := by
  intro y hy
  have hy' := (mem_oWin y).mp hy
  have e20 : k0_off2 L 0 = 256 * (L 1).val + 128 * (L 0).val := by rw [k0_off2_eq]; rfl
  have h0 : k0_off2 L 0 ≤ (y 0).val ∧ (y 0).val < k0_off2 L 0 + 128 := hy' 0
  rw [e20] at h0
  exact (mem_oTR L y).mpr h0

/-- An index of the tile's rows outside the numeric window: its row is the tile's, its column is left of 3328. -/
theorem block_cols (L : grid0.Coords) (y : S4096x3341.Idx)
    (hy : y ∈ (oV).view.setOn (oTR L).set \ ((oV).slice (Rect.unit (s := S4096x3341) (k0_off2 L) S128x13.size (k0_off2_inb L)) (fun _ => rfl)).view.set) :
    (256 * (L 1).val + 128 * (L 0).val ≤ (y 0).val ∧ (y 0).val < 256 * (L 1).val + 128 * (L 0).val + 128) ∧ (y 1).val < 3328 := by
  obtain ⟨h1, h2⟩ := Finset.mem_sdiff.mp hy
  have hrow := (mem_oTR L y).mp h1
  refine ⟨hrow, ?_⟩
  by_contra hc
  have e20 : k0_off2 L 0 = 256 * (L 1).val + 128 * (L 0).val := by rw [k0_off2_eq]; rfl
  have e21 : k0_off2 L 1 = 3328 := by rw [k0_off2_eq]; rfl
  have hy1 : (y 1).val < 3341 := idx2_lt1 y
  refine h2 ((mem_oWin y).mpr fun a => ?_)
  match a with
  | ⟨0, _⟩ =>
    show k0_off2 L 0 ≤ (y 0).val ∧ (y 0).val < k0_off2 L 0 + 128
    rw [e20]; exact hrow
  | ⟨1, _⟩ =>
    show k0_off2 L 1 ≤ (y 1).val ∧ (y 1).val < k0_off2 L 1 + 13
    rw [e21]; omega

/-! ## Reading a field's payload: through the staging buffer's slot to the gathered block -/

/-- Reads a slot of the staging buffer through the writes made to the buffer, outermost first: a write to another slot
    is skipped, the write to the slot itself is the value read. -/
macro "slot_peel " x:term : tactic =>
  `(tactic| repeat (first
      | (refine (congrFun (slot_read_write_self _ _ _ _) $x).trans ?_)
      | (refine (congrFun (slot_read_write_ne _ _ _ _ (by decide) _ _) $x).trans ?_)))

/-- A window's payload — a slot of the staging buffer read after the gathers written to it — holds the specification's
    entries at the window's inside coordinates. -/
macro "pay_val" : tactic =>
  `(tactic| (intro x y hx0 hx1; slot_peel x; exact gather_field _ (by norm_num) _ _ _ _ _ _ _ y x hx0 hx1))

/-! ## The 26 windows written one after the other -/

/-- A write through a 128 × 128 window whose columns do not hold `y`'s column leaves the entry at `y`. -/
theorem win_peel {off : Fin 2 → ℕ} {hinb : ∀ a, off a + S128x128.size a ≤ S4096x3341.size a}
    (g : S4096x3341.Idx → Elt F .f32) (p : S128x128.Idx → Elt F .f32) (y : S4096x3341.Idx) {r c : ℕ} (hoff : off = ![r, c])
    (hdis : (y 1).val < c ∨ c + 128 ≤ (y 1).val) :
    View.write (Elt F) ((oV).slice (Rect.unit (s := S4096x3341) off S128x128.size hinb) (fun _ => rfl)).view g p Finset.univ y = g y := by
  subst hoff
  refine write_oWin_of_not_mem (F := F) _ _ _ g p y (fun h => ?_)
  have h1 : c ≤ (y 1).val ∧ (y 1).val < c + 128 := h 1
  omega

/-- A write through the 128 × 128 window that holds `y`: the payload at `y`'s coordinates inside the window. -/
theorem win_hit {off : Fin 2 → ℕ} {hinb : ∀ a, off a + S128x128.size a ≤ S4096x3341.size a}
    (g : S4096x3341.Idx → Elt F .f32) (p : S128x128.Idx → Elt F .f32) (y : S4096x3341.Idx) {r c : ℕ} (hoff : off = ![r, c])
    (hrow : r ≤ (y 0).val ∧ (y 0).val < r + 128) (hcol : c ≤ (y 1).val ∧ (y 1).val < c + 128) {v : Elt F .f32}
    (hp : ∀ x : S128x128.Idx, r + (x 0).val = (y 0).val → c + (x 1).val = (y 1).val → p x = v) :
    View.write (Elt F) ((oV).slice (Rect.unit (s := S4096x3341) off S128x128.size hinb) (fun _ => rfl)).view g p Finset.univ y = v := by
  subst hoff
  have hy : ∀ a, (![r, c] : Fin 2 → ℕ) a ≤ (y a).val ∧ (y a).val < (![r, c] : Fin 2 → ℕ) a + S128x128.size a := fun a =>
    match a with
    | ⟨0, _⟩ => hrow
    | ⟨1, _⟩ => hcol
  refine (write_oWin_of_mem (F := F) _ _ _ g p y hy).trans (hp _ ?_ ?_)
  · show r + ((y 0).val - r) = (y 0).val
    omega
  · show c + ((y 1).val - c) = (y 1).val
    omega

set_option maxHeartbeats 2000000 in
/-- THE 26 WRITES READ AT AN INDEX of the tile's rows left of the numeric features: if each window's payload holds the
    specification's entries at the window's inside coordinates, so does the result of the nest. -/
theorem nest_val (L : grid0.Coords) (fxt : S26x4096.Idx → BitVec 32) (fxn : S4096x13.Idx → Elt F .f32) (ftb : S26000x128.Idx → Elt F .f32)
    (g2 : S4096x3341.Idx → Elt F .f32)
    (p0 : S128x128.Idx → Elt F .f32) (p1 : S128x128.Idx → Elt F .f32) (p2 : S128x128.Idx → Elt F .f32) (p3 : S128x128.Idx → Elt F .f32) (p4 : S128x128.Idx → Elt F .f32) (p5 : S128x128.Idx → Elt F .f32) (p6 : S128x128.Idx → Elt F .f32) (p7 : S128x128.Idx → Elt F .f32) (p8 : S128x128.Idx → Elt F .f32) (p9 : S128x128.Idx → Elt F .f32) (p10 : S128x128.Idx → Elt F .f32) (p11 : S128x128.Idx → Elt F .f32) (p12 : S128x128.Idx → Elt F .f32) (p13 : S128x128.Idx → Elt F .f32) (p14 : S128x128.Idx → Elt F .f32) (p15 : S128x128.Idx → Elt F .f32) (p16 : S128x128.Idx → Elt F .f32) (p17 : S128x128.Idx → Elt F .f32) (p18 : S128x128.Idx → Elt F .f32) (p19 : S128x128.Idx → Elt F .f32) (p20 : S128x128.Idx → Elt F .f32) (p21 : S128x128.Idx → Elt F .f32) (p22 : S128x128.Idx → Elt F .f32) (p23 : S128x128.Idx → Elt F .f32) (p24 : S128x128.Idx → Elt F .f32) (p25 : S128x128.Idx → Elt F .f32)
    (h0 : ∀ (x : S128x128.Idx) (y : S4096x3341.Idx), 256 * (L 1).val + 128 * (L 0).val + (x 0).val = (y 0).val → 0 + (x 1).val = (y 1).val → p0 x = outT fxt fxn ftb y)
    (h1 : ∀ (x : S128x128.Idx) (y : S4096x3341.Idx), 256 * (L 1).val + 128 * (L 0).val + (x 0).val = (y 0).val → 128 + (x 1).val = (y 1).val → p1 x = outT fxt fxn ftb y)
    (h2 : ∀ (x : S128x128.Idx) (y : S4096x3341.Idx), 256 * (L 1).val + 128 * (L 0).val + (x 0).val = (y 0).val → 256 + (x 1).val = (y 1).val → p2 x = outT fxt fxn ftb y)
    (h3 : ∀ (x : S128x128.Idx) (y : S4096x3341.Idx), 256 * (L 1).val + 128 * (L 0).val + (x 0).val = (y 0).val → 384 + (x 1).val = (y 1).val → p3 x = outT fxt fxn ftb y)
    (h4 : ∀ (x : S128x128.Idx) (y : S4096x3341.Idx), 256 * (L 1).val + 128 * (L 0).val + (x 0).val = (y 0).val → 512 + (x 1).val = (y 1).val → p4 x = outT fxt fxn ftb y)
    (h5 : ∀ (x : S128x128.Idx) (y : S4096x3341.Idx), 256 * (L 1).val + 128 * (L 0).val + (x 0).val = (y 0).val → 640 + (x 1).val = (y 1).val → p5 x = outT fxt fxn ftb y)
    (h6 : ∀ (x : S128x128.Idx) (y : S4096x3341.Idx), 256 * (L 1).val + 128 * (L 0).val + (x 0).val = (y 0).val → 768 + (x 1).val = (y 1).val → p6 x = outT fxt fxn ftb y)
    (h7 : ∀ (x : S128x128.Idx) (y : S4096x3341.Idx), 256 * (L 1).val + 128 * (L 0).val + (x 0).val = (y 0).val → 896 + (x 1).val = (y 1).val → p7 x = outT fxt fxn ftb y)
    (h8 : ∀ (x : S128x128.Idx) (y : S4096x3341.Idx), 256 * (L 1).val + 128 * (L 0).val + (x 0).val = (y 0).val → 1024 + (x 1).val = (y 1).val → p8 x = outT fxt fxn ftb y)
    (h9 : ∀ (x : S128x128.Idx) (y : S4096x3341.Idx), 256 * (L 1).val + 128 * (L 0).val + (x 0).val = (y 0).val → 1152 + (x 1).val = (y 1).val → p9 x = outT fxt fxn ftb y)
    (h10 : ∀ (x : S128x128.Idx) (y : S4096x3341.Idx), 256 * (L 1).val + 128 * (L 0).val + (x 0).val = (y 0).val → 1280 + (x 1).val = (y 1).val → p10 x = outT fxt fxn ftb y)
    (h11 : ∀ (x : S128x128.Idx) (y : S4096x3341.Idx), 256 * (L 1).val + 128 * (L 0).val + (x 0).val = (y 0).val → 1408 + (x 1).val = (y 1).val → p11 x = outT fxt fxn ftb y)
    (h12 : ∀ (x : S128x128.Idx) (y : S4096x3341.Idx), 256 * (L 1).val + 128 * (L 0).val + (x 0).val = (y 0).val → 1536 + (x 1).val = (y 1).val → p12 x = outT fxt fxn ftb y)
    (h13 : ∀ (x : S128x128.Idx) (y : S4096x3341.Idx), 256 * (L 1).val + 128 * (L 0).val + (x 0).val = (y 0).val → 1664 + (x 1).val = (y 1).val → p13 x = outT fxt fxn ftb y)
    (h14 : ∀ (x : S128x128.Idx) (y : S4096x3341.Idx), 256 * (L 1).val + 128 * (L 0).val + (x 0).val = (y 0).val → 1792 + (x 1).val = (y 1).val → p14 x = outT fxt fxn ftb y)
    (h15 : ∀ (x : S128x128.Idx) (y : S4096x3341.Idx), 256 * (L 1).val + 128 * (L 0).val + (x 0).val = (y 0).val → 1920 + (x 1).val = (y 1).val → p15 x = outT fxt fxn ftb y)
    (h16 : ∀ (x : S128x128.Idx) (y : S4096x3341.Idx), 256 * (L 1).val + 128 * (L 0).val + (x 0).val = (y 0).val → 2048 + (x 1).val = (y 1).val → p16 x = outT fxt fxn ftb y)
    (h17 : ∀ (x : S128x128.Idx) (y : S4096x3341.Idx), 256 * (L 1).val + 128 * (L 0).val + (x 0).val = (y 0).val → 2176 + (x 1).val = (y 1).val → p17 x = outT fxt fxn ftb y)
    (h18 : ∀ (x : S128x128.Idx) (y : S4096x3341.Idx), 256 * (L 1).val + 128 * (L 0).val + (x 0).val = (y 0).val → 2304 + (x 1).val = (y 1).val → p18 x = outT fxt fxn ftb y)
    (h19 : ∀ (x : S128x128.Idx) (y : S4096x3341.Idx), 256 * (L 1).val + 128 * (L 0).val + (x 0).val = (y 0).val → 2432 + (x 1).val = (y 1).val → p19 x = outT fxt fxn ftb y)
    (h20 : ∀ (x : S128x128.Idx) (y : S4096x3341.Idx), 256 * (L 1).val + 128 * (L 0).val + (x 0).val = (y 0).val → 2560 + (x 1).val = (y 1).val → p20 x = outT fxt fxn ftb y)
    (h21 : ∀ (x : S128x128.Idx) (y : S4096x3341.Idx), 256 * (L 1).val + 128 * (L 0).val + (x 0).val = (y 0).val → 2688 + (x 1).val = (y 1).val → p21 x = outT fxt fxn ftb y)
    (h22 : ∀ (x : S128x128.Idx) (y : S4096x3341.Idx), 256 * (L 1).val + 128 * (L 0).val + (x 0).val = (y 0).val → 2816 + (x 1).val = (y 1).val → p22 x = outT fxt fxn ftb y)
    (h23 : ∀ (x : S128x128.Idx) (y : S4096x3341.Idx), 256 * (L 1).val + 128 * (L 0).val + (x 0).val = (y 0).val → 2944 + (x 1).val = (y 1).val → p23 x = outT fxt fxn ftb y)
    (h24 : ∀ (x : S128x128.Idx) (y : S4096x3341.Idx), 256 * (L 1).val + 128 * (L 0).val + (x 0).val = (y 0).val → 3072 + (x 1).val = (y 1).val → p24 x = outT fxt fxn ftb y)
    (h25 : ∀ (x : S128x128.Idx) (y : S4096x3341.Idx), 256 * (L 1).val + 128 * (L 0).val + (x 0).val = (y 0).val → 3200 + (x 1).val = (y 1).val → p25 x = outT fxt fxn ftb y)
    (y : S4096x3341.Idx) (hrow : 256 * (L 1).val + 128 * (L 0).val ≤ (y 0).val ∧ (y 0).val < 256 * (L 1).val + 128 * (L 0).val + 128) (hcol : (y 1).val < 3328) :
    View.write (Elt F) ((oV).slice (Rect.unit (s := S4096x3341) (k0_off29 L) S128x128.size (k0_off29_inb L)) (fun _ => rfl)).view (
      View.write (Elt F) ((oV).slice (Rect.unit (s := S4096x3341) (k0_off28 L) S128x128.size (k0_off28_inb L)) (fun _ => rfl)).view (
      View.write (Elt F) ((oV).slice (Rect.unit (s := S4096x3341) (k0_off27 L) S128x128.size (k0_off27_inb L)) (fun _ => rfl)).view (
      View.write (Elt F) ((oV).slice (Rect.unit (s := S4096x3341) (k0_off26 L) S128x128.size (k0_off26_inb L)) (fun _ => rfl)).view (
      View.write (Elt F) ((oV).slice (Rect.unit (s := S4096x3341) (k0_off25 L) S128x128.size (k0_off25_inb L)) (fun _ => rfl)).view (
      View.write (Elt F) ((oV).slice (Rect.unit (s := S4096x3341) (k0_off24 L) S128x128.size (k0_off24_inb L)) (fun _ => rfl)).view (
      View.write (Elt F) ((oV).slice (Rect.unit (s := S4096x3341) (k0_off23 L) S128x128.size (k0_off23_inb L)) (fun _ => rfl)).view (
      View.write (Elt F) ((oV).slice (Rect.unit (s := S4096x3341) (k0_off22 L) S128x128.size (k0_off22_inb L)) (fun _ => rfl)).view (
      View.write (Elt F) ((oV).slice (Rect.unit (s := S4096x3341) (k0_off21 L) S128x128.size (k0_off21_inb L)) (fun _ => rfl)).view (
      View.write (Elt F) ((oV).slice (Rect.unit (s := S4096x3341) (k0_off20 L) S128x128.size (k0_off20_inb L)) (fun _ => rfl)).view (
      View.write (Elt F) ((oV).slice (Rect.unit (s := S4096x3341) (k0_off19 L) S128x128.size (k0_off19_inb L)) (fun _ => rfl)).view (
      View.write (Elt F) ((oV).slice (Rect.unit (s := S4096x3341) (k0_off18 L) S128x128.size (k0_off18_inb L)) (fun _ => rfl)).view (
      View.write (Elt F) ((oV).slice (Rect.unit (s := S4096x3341) (k0_off17 L) S128x128.size (k0_off17_inb L)) (fun _ => rfl)).view (
      View.write (Elt F) ((oV).slice (Rect.unit (s := S4096x3341) (k0_off16 L) S128x128.size (k0_off16_inb L)) (fun _ => rfl)).view (
      View.write (Elt F) ((oV).slice (Rect.unit (s := S4096x3341) (k0_off15 L) S128x128.size (k0_off15_inb L)) (fun _ => rfl)).view (
      View.write (Elt F) ((oV).slice (Rect.unit (s := S4096x3341) (k0_off14 L) S128x128.size (k0_off14_inb L)) (fun _ => rfl)).view (
      View.write (Elt F) ((oV).slice (Rect.unit (s := S4096x3341) (k0_off13 L) S128x128.size (k0_off13_inb L)) (fun _ => rfl)).view (
      View.write (Elt F) ((oV).slice (Rect.unit (s := S4096x3341) (k0_off12 L) S128x128.size (k0_off12_inb L)) (fun _ => rfl)).view (
      View.write (Elt F) ((oV).slice (Rect.unit (s := S4096x3341) (k0_off11 L) S128x128.size (k0_off11_inb L)) (fun _ => rfl)).view (
      View.write (Elt F) ((oV).slice (Rect.unit (s := S4096x3341) (k0_off10 L) S128x128.size (k0_off10_inb L)) (fun _ => rfl)).view (
      View.write (Elt F) ((oV).slice (Rect.unit (s := S4096x3341) (k0_off9 L) S128x128.size (k0_off9_inb L)) (fun _ => rfl)).view (
      View.write (Elt F) ((oV).slice (Rect.unit (s := S4096x3341) (k0_off8 L) S128x128.size (k0_off8_inb L)) (fun _ => rfl)).view (
      View.write (Elt F) ((oV).slice (Rect.unit (s := S4096x3341) (k0_off7 L) S128x128.size (k0_off7_inb L)) (fun _ => rfl)).view (
      View.write (Elt F) ((oV).slice (Rect.unit (s := S4096x3341) (k0_off6 L) S128x128.size (k0_off6_inb L)) (fun _ => rfl)).view (
      View.write (Elt F) ((oV).slice (Rect.unit (s := S4096x3341) (k0_off5 L) S128x128.size (k0_off5_inb L)) (fun _ => rfl)).view (
      View.write (Elt F) ((oV).slice (Rect.unit (s := S4096x3341) (k0_off4 L) S128x128.size (k0_off4_inb L)) (fun _ => rfl)).view (g2) p0 Finset.univ) p1 Finset.univ) p2 Finset.univ) p3 Finset.univ) p4 Finset.univ) p5 Finset.univ) p6 Finset.univ) p7 Finset.univ) p8 Finset.univ) p9 Finset.univ) p10 Finset.univ) p11 Finset.univ) p12 Finset.univ) p13 Finset.univ) p14 Finset.univ) p15 Finset.univ) p16 Finset.univ) p17 Finset.univ) p18 Finset.univ) p19 Finset.univ) p20 Finset.univ) p21 Finset.univ) p22 Finset.univ) p23 Finset.univ) p24 Finset.univ) p25 Finset.univ y
      = outT fxt fxn ftb y := by
  obtain ⟨f, hfeq⟩ : ∃ f, (y 1).val / 128 = f := ⟨_, rfl⟩
  have hf : f < 26 := by omega
  interval_cases f
  · -- column block 0
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    refine (win_peel (F := F) _ _ y (k0_off24_eq L) (by omega)).trans ?_
    refine (win_peel (F := F) _ _ y (k0_off23_eq L) (by omega)).trans ?_
    refine (win_peel (F := F) _ _ y (k0_off22_eq L) (by omega)).trans ?_
    refine (win_peel (F := F) _ _ y (k0_off21_eq L) (by omega)).trans ?_
    refine (win_peel (F := F) _ _ y (k0_off20_eq L) (by omega)).trans ?_
    refine (win_peel (F := F) _ _ y (k0_off19_eq L) (by omega)).trans ?_
    refine (win_peel (F := F) _ _ y (k0_off18_eq L) (by omega)).trans ?_
    refine (win_peel (F := F) _ _ y (k0_off17_eq L) (by omega)).trans ?_
    refine (win_peel (F := F) _ _ y (k0_off16_eq L) (by omega)).trans ?_
    refine (win_peel (F := F) _ _ y (k0_off15_eq L) (by omega)).trans ?_
    refine (win_peel (F := F) _ _ y (k0_off14_eq L) (by omega)).trans ?_
    refine (win_peel (F := F) _ _ y (k0_off13_eq L) (by omega)).trans ?_
    refine (win_peel (F := F) _ _ y (k0_off12_eq L) (by omega)).trans ?_
    refine (win_peel (F := F) _ _ y (k0_off11_eq L) (by omega)).trans ?_
    refine (win_peel (F := F) _ _ y (k0_off10_eq L) (by omega)).trans ?_
    refine (win_peel (F := F) _ _ y (k0_off9_eq L) (by omega)).trans ?_
    refine (win_peel (F := F) _ _ y (k0_off8_eq L) (by omega)).trans ?_
    refine (win_peel (F := F) _ _ y (k0_off7_eq L) (by omega)).trans ?_
    refine (win_peel (F := F) _ _ y (k0_off6_eq L) (by omega)).trans ?_
    refine (win_peel (F := F) _ _ y (k0_off5_eq L) (by omega)).trans ?_
    exact win_hit (F := F) _ _ y (k0_off4_eq L) hrow (by omega) (fun x hx0 hx1 => h0 x y hx0 hx1)
  · -- column block 1
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    refine (win_peel (F := F) _ _ y (k0_off24_eq L) (by omega)).trans ?_
    refine (win_peel (F := F) _ _ y (k0_off23_eq L) (by omega)).trans ?_
    refine (win_peel (F := F) _ _ y (k0_off22_eq L) (by omega)).trans ?_
    refine (win_peel (F := F) _ _ y (k0_off21_eq L) (by omega)).trans ?_
    refine (win_peel (F := F) _ _ y (k0_off20_eq L) (by omega)).trans ?_
    refine (win_peel (F := F) _ _ y (k0_off19_eq L) (by omega)).trans ?_
    refine (win_peel (F := F) _ _ y (k0_off18_eq L) (by omega)).trans ?_
    refine (win_peel (F := F) _ _ y (k0_off17_eq L) (by omega)).trans ?_
    refine (win_peel (F := F) _ _ y (k0_off16_eq L) (by omega)).trans ?_
    refine (win_peel (F := F) _ _ y (k0_off15_eq L) (by omega)).trans ?_
    refine (win_peel (F := F) _ _ y (k0_off14_eq L) (by omega)).trans ?_
    refine (win_peel (F := F) _ _ y (k0_off13_eq L) (by omega)).trans ?_
    refine (win_peel (F := F) _ _ y (k0_off12_eq L) (by omega)).trans ?_
    refine (win_peel (F := F) _ _ y (k0_off11_eq L) (by omega)).trans ?_
    refine (win_peel (F := F) _ _ y (k0_off10_eq L) (by omega)).trans ?_
    refine (win_peel (F := F) _ _ y (k0_off9_eq L) (by omega)).trans ?_
    refine (win_peel (F := F) _ _ y (k0_off8_eq L) (by omega)).trans ?_
    refine (win_peel (F := F) _ _ y (k0_off7_eq L) (by omega)).trans ?_
    refine (win_peel (F := F) _ _ y (k0_off6_eq L) (by omega)).trans ?_
    exact win_hit (F := F) _ _ y (k0_off5_eq L) hrow (by omega) (fun x hx0 hx1 => h1 x y hx0 hx1)
  · -- column block 2
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    refine (win_peel (F := F) _ _ y (k0_off24_eq L) (by omega)).trans ?_
    refine (win_peel (F := F) _ _ y (k0_off23_eq L) (by omega)).trans ?_
    refine (win_peel (F := F) _ _ y (k0_off22_eq L) (by omega)).trans ?_
    refine (win_peel (F := F) _ _ y (k0_off21_eq L) (by omega)).trans ?_
    refine (win_peel (F := F) _ _ y (k0_off20_eq L) (by omega)).trans ?_
    refine (win_peel (F := F) _ _ y (k0_off19_eq L) (by omega)).trans ?_
    refine (win_peel (F := F) _ _ y (k0_off18_eq L) (by omega)).trans ?_
    refine (win_peel (F := F) _ _ y (k0_off17_eq L) (by omega)).trans ?_
    refine (win_peel (F := F) _ _ y (k0_off16_eq L) (by omega)).trans ?_
    refine (win_peel (F := F) _ _ y (k0_off15_eq L) (by omega)).trans ?_
    refine (win_peel (F := F) _ _ y (k0_off14_eq L) (by omega)).trans ?_
    refine (win_peel (F := F) _ _ y (k0_off13_eq L) (by omega)).trans ?_
    refine (win_peel (F := F) _ _ y (k0_off12_eq L) (by omega)).trans ?_
    refine (win_peel (F := F) _ _ y (k0_off11_eq L) (by omega)).trans ?_
    refine (win_peel (F := F) _ _ y (k0_off10_eq L) (by omega)).trans ?_
    refine (win_peel (F := F) _ _ y (k0_off9_eq L) (by omega)).trans ?_
    refine (win_peel (F := F) _ _ y (k0_off8_eq L) (by omega)).trans ?_
    refine (win_peel (F := F) _ _ y (k0_off7_eq L) (by omega)).trans ?_
    exact win_hit (F := F) _ _ y (k0_off6_eq L) hrow (by omega) (fun x hx0 hx1 => h2 x y hx0 hx1)
  · -- column block 3
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    refine (win_peel (F := F) _ _ y (k0_off24_eq L) (by omega)).trans ?_
    refine (win_peel (F := F) _ _ y (k0_off23_eq L) (by omega)).trans ?_
    refine (win_peel (F := F) _ _ y (k0_off22_eq L) (by omega)).trans ?_
    refine (win_peel (F := F) _ _ y (k0_off21_eq L) (by omega)).trans ?_
    refine (win_peel (F := F) _ _ y (k0_off20_eq L) (by omega)).trans ?_
    refine (win_peel (F := F) _ _ y (k0_off19_eq L) (by omega)).trans ?_
    refine (win_peel (F := F) _ _ y (k0_off18_eq L) (by omega)).trans ?_
    refine (win_peel (F := F) _ _ y (k0_off17_eq L) (by omega)).trans ?_
    refine (win_peel (F := F) _ _ y (k0_off16_eq L) (by omega)).trans ?_
    refine (win_peel (F := F) _ _ y (k0_off15_eq L) (by omega)).trans ?_
    refine (win_peel (F := F) _ _ y (k0_off14_eq L) (by omega)).trans ?_
    refine (win_peel (F := F) _ _ y (k0_off13_eq L) (by omega)).trans ?_
    refine (win_peel (F := F) _ _ y (k0_off12_eq L) (by omega)).trans ?_
    refine (win_peel (F := F) _ _ y (k0_off11_eq L) (by omega)).trans ?_
    refine (win_peel (F := F) _ _ y (k0_off10_eq L) (by omega)).trans ?_
    refine (win_peel (F := F) _ _ y (k0_off9_eq L) (by omega)).trans ?_
    refine (win_peel (F := F) _ _ y (k0_off8_eq L) (by omega)).trans ?_
    exact win_hit (F := F) _ _ y (k0_off7_eq L) hrow (by omega) (fun x hx0 hx1 => h3 x y hx0 hx1)
  · -- column block 4
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    refine (win_peel (F := F) _ _ y (k0_off24_eq L) (by omega)).trans ?_
    refine (win_peel (F := F) _ _ y (k0_off23_eq L) (by omega)).trans ?_
    refine (win_peel (F := F) _ _ y (k0_off22_eq L) (by omega)).trans ?_
    refine (win_peel (F := F) _ _ y (k0_off21_eq L) (by omega)).trans ?_
    refine (win_peel (F := F) _ _ y (k0_off20_eq L) (by omega)).trans ?_
    refine (win_peel (F := F) _ _ y (k0_off19_eq L) (by omega)).trans ?_
    refine (win_peel (F := F) _ _ y (k0_off18_eq L) (by omega)).trans ?_
    refine (win_peel (F := F) _ _ y (k0_off17_eq L) (by omega)).trans ?_
    refine (win_peel (F := F) _ _ y (k0_off16_eq L) (by omega)).trans ?_
    refine (win_peel (F := F) _ _ y (k0_off15_eq L) (by omega)).trans ?_
    refine (win_peel (F := F) _ _ y (k0_off14_eq L) (by omega)).trans ?_
    refine (win_peel (F := F) _ _ y (k0_off13_eq L) (by omega)).trans ?_
    refine (win_peel (F := F) _ _ y (k0_off12_eq L) (by omega)).trans ?_
    refine (win_peel (F := F) _ _ y (k0_off11_eq L) (by omega)).trans ?_
    refine (win_peel (F := F) _ _ y (k0_off10_eq L) (by omega)).trans ?_
    refine (win_peel (F := F) _ _ y (k0_off9_eq L) (by omega)).trans ?_
    exact win_hit (F := F) _ _ y (k0_off8_eq L) hrow (by omega) (fun x hx0 hx1 => h4 x y hx0 hx1)
  · -- column block 5
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    refine (win_peel (F := F) _ _ y (k0_off24_eq L) (by omega)).trans ?_
    refine (win_peel (F := F) _ _ y (k0_off23_eq L) (by omega)).trans ?_
    refine (win_peel (F := F) _ _ y (k0_off22_eq L) (by omega)).trans ?_
    refine (win_peel (F := F) _ _ y (k0_off21_eq L) (by omega)).trans ?_
    refine (win_peel (F := F) _ _ y (k0_off20_eq L) (by omega)).trans ?_
    refine (win_peel (F := F) _ _ y (k0_off19_eq L) (by omega)).trans ?_
    refine (win_peel (F := F) _ _ y (k0_off18_eq L) (by omega)).trans ?_
    refine (win_peel (F := F) _ _ y (k0_off17_eq L) (by omega)).trans ?_
    refine (win_peel (F := F) _ _ y (k0_off16_eq L) (by omega)).trans ?_
    refine (win_peel (F := F) _ _ y (k0_off15_eq L) (by omega)).trans ?_
    refine (win_peel (F := F) _ _ y (k0_off14_eq L) (by omega)).trans ?_
    refine (win_peel (F := F) _ _ y (k0_off13_eq L) (by omega)).trans ?_
    refine (win_peel (F := F) _ _ y (k0_off12_eq L) (by omega)).trans ?_
    refine (win_peel (F := F) _ _ y (k0_off11_eq L) (by omega)).trans ?_
    refine (win_peel (F := F) _ _ y (k0_off10_eq L) (by omega)).trans ?_
    exact win_hit (F := F) _ _ y (k0_off9_eq L) hrow (by omega) (fun x hx0 hx1 => h5 x y hx0 hx1)
  · -- column block 6
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    refine (win_peel (F := F) _ _ y (k0_off24_eq L) (by omega)).trans ?_
    refine (win_peel (F := F) _ _ y (k0_off23_eq L) (by omega)).trans ?_
    refine (win_peel (F := F) _ _ y (k0_off22_eq L) (by omega)).trans ?_
    refine (win_peel (F := F) _ _ y (k0_off21_eq L) (by omega)).trans ?_
    refine (win_peel (F := F) _ _ y (k0_off20_eq L) (by omega)).trans ?_
    refine (win_peel (F := F) _ _ y (k0_off19_eq L) (by omega)).trans ?_
    refine (win_peel (F := F) _ _ y (k0_off18_eq L) (by omega)).trans ?_
    refine (win_peel (F := F) _ _ y (k0_off17_eq L) (by omega)).trans ?_
    refine (win_peel (F := F) _ _ y (k0_off16_eq L) (by omega)).trans ?_
    refine (win_peel (F := F) _ _ y (k0_off15_eq L) (by omega)).trans ?_
    refine (win_peel (F := F) _ _ y (k0_off14_eq L) (by omega)).trans ?_
    refine (win_peel (F := F) _ _ y (k0_off13_eq L) (by omega)).trans ?_
    refine (win_peel (F := F) _ _ y (k0_off12_eq L) (by omega)).trans ?_
    refine (win_peel (F := F) _ _ y (k0_off11_eq L) (by omega)).trans ?_
    exact win_hit (F := F) _ _ y (k0_off10_eq L) hrow (by omega) (fun x hx0 hx1 => h6 x y hx0 hx1)
  · -- column block 7
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    refine (win_peel (F := F) _ _ y (k0_off24_eq L) (by omega)).trans ?_
    refine (win_peel (F := F) _ _ y (k0_off23_eq L) (by omega)).trans ?_
    refine (win_peel (F := F) _ _ y (k0_off22_eq L) (by omega)).trans ?_
    refine (win_peel (F := F) _ _ y (k0_off21_eq L) (by omega)).trans ?_
    refine (win_peel (F := F) _ _ y (k0_off20_eq L) (by omega)).trans ?_
    refine (win_peel (F := F) _ _ y (k0_off19_eq L) (by omega)).trans ?_
    refine (win_peel (F := F) _ _ y (k0_off18_eq L) (by omega)).trans ?_
    refine (win_peel (F := F) _ _ y (k0_off17_eq L) (by omega)).trans ?_
    refine (win_peel (F := F) _ _ y (k0_off16_eq L) (by omega)).trans ?_
    refine (win_peel (F := F) _ _ y (k0_off15_eq L) (by omega)).trans ?_
    refine (win_peel (F := F) _ _ y (k0_off14_eq L) (by omega)).trans ?_
    refine (win_peel (F := F) _ _ y (k0_off13_eq L) (by omega)).trans ?_
    refine (win_peel (F := F) _ _ y (k0_off12_eq L) (by omega)).trans ?_
    exact win_hit (F := F) _ _ y (k0_off11_eq L) hrow (by omega) (fun x hx0 hx1 => h7 x y hx0 hx1)
  · -- column block 8
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    refine (win_peel (F := F) _ _ y (k0_off24_eq L) (by omega)).trans ?_
    refine (win_peel (F := F) _ _ y (k0_off23_eq L) (by omega)).trans ?_
    refine (win_peel (F := F) _ _ y (k0_off22_eq L) (by omega)).trans ?_
    refine (win_peel (F := F) _ _ y (k0_off21_eq L) (by omega)).trans ?_
    refine (win_peel (F := F) _ _ y (k0_off20_eq L) (by omega)).trans ?_
    refine (win_peel (F := F) _ _ y (k0_off19_eq L) (by omega)).trans ?_
    refine (win_peel (F := F) _ _ y (k0_off18_eq L) (by omega)).trans ?_
    refine (win_peel (F := F) _ _ y (k0_off17_eq L) (by omega)).trans ?_
    refine (win_peel (F := F) _ _ y (k0_off16_eq L) (by omega)).trans ?_
    refine (win_peel (F := F) _ _ y (k0_off15_eq L) (by omega)).trans ?_
    refine (win_peel (F := F) _ _ y (k0_off14_eq L) (by omega)).trans ?_
    refine (win_peel (F := F) _ _ y (k0_off13_eq L) (by omega)).trans ?_
    exact win_hit (F := F) _ _ y (k0_off12_eq L) hrow (by omega) (fun x hx0 hx1 => h8 x y hx0 hx1)
  · -- column block 9
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    refine (win_peel (F := F) _ _ y (k0_off24_eq L) (by omega)).trans ?_
    refine (win_peel (F := F) _ _ y (k0_off23_eq L) (by omega)).trans ?_
    refine (win_peel (F := F) _ _ y (k0_off22_eq L) (by omega)).trans ?_
    refine (win_peel (F := F) _ _ y (k0_off21_eq L) (by omega)).trans ?_
    refine (win_peel (F := F) _ _ y (k0_off20_eq L) (by omega)).trans ?_
    refine (win_peel (F := F) _ _ y (k0_off19_eq L) (by omega)).trans ?_
    refine (win_peel (F := F) _ _ y (k0_off18_eq L) (by omega)).trans ?_
    refine (win_peel (F := F) _ _ y (k0_off17_eq L) (by omega)).trans ?_
    refine (win_peel (F := F) _ _ y (k0_off16_eq L) (by omega)).trans ?_
    refine (win_peel (F := F) _ _ y (k0_off15_eq L) (by omega)).trans ?_
    refine (win_peel (F := F) _ _ y (k0_off14_eq L) (by omega)).trans ?_
    exact win_hit (F := F) _ _ y (k0_off13_eq L) hrow (by omega) (fun x hx0 hx1 => h9 x y hx0 hx1)
  · -- column block 10
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    refine (win_peel (F := F) _ _ y (k0_off24_eq L) (by omega)).trans ?_
    refine (win_peel (F := F) _ _ y (k0_off23_eq L) (by omega)).trans ?_
    refine (win_peel (F := F) _ _ y (k0_off22_eq L) (by omega)).trans ?_
    refine (win_peel (F := F) _ _ y (k0_off21_eq L) (by omega)).trans ?_
    refine (win_peel (F := F) _ _ y (k0_off20_eq L) (by omega)).trans ?_
    refine (win_peel (F := F) _ _ y (k0_off19_eq L) (by omega)).trans ?_
    refine (win_peel (F := F) _ _ y (k0_off18_eq L) (by omega)).trans ?_
    refine (win_peel (F := F) _ _ y (k0_off17_eq L) (by omega)).trans ?_
    refine (win_peel (F := F) _ _ y (k0_off16_eq L) (by omega)).trans ?_
    refine (win_peel (F := F) _ _ y (k0_off15_eq L) (by omega)).trans ?_
    exact win_hit (F := F) _ _ y (k0_off14_eq L) hrow (by omega) (fun x hx0 hx1 => h10 x y hx0 hx1)
  · -- column block 11
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    refine (win_peel (F := F) _ _ y (k0_off24_eq L) (by omega)).trans ?_
    refine (win_peel (F := F) _ _ y (k0_off23_eq L) (by omega)).trans ?_
    refine (win_peel (F := F) _ _ y (k0_off22_eq L) (by omega)).trans ?_
    refine (win_peel (F := F) _ _ y (k0_off21_eq L) (by omega)).trans ?_
    refine (win_peel (F := F) _ _ y (k0_off20_eq L) (by omega)).trans ?_
    refine (win_peel (F := F) _ _ y (k0_off19_eq L) (by omega)).trans ?_
    refine (win_peel (F := F) _ _ y (k0_off18_eq L) (by omega)).trans ?_
    refine (win_peel (F := F) _ _ y (k0_off17_eq L) (by omega)).trans ?_
    refine (win_peel (F := F) _ _ y (k0_off16_eq L) (by omega)).trans ?_
    exact win_hit (F := F) _ _ y (k0_off15_eq L) hrow (by omega) (fun x hx0 hx1 => h11 x y hx0 hx1)
  · -- column block 12
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    refine (win_peel (F := F) _ _ y (k0_off24_eq L) (by omega)).trans ?_
    refine (win_peel (F := F) _ _ y (k0_off23_eq L) (by omega)).trans ?_
    refine (win_peel (F := F) _ _ y (k0_off22_eq L) (by omega)).trans ?_
    refine (win_peel (F := F) _ _ y (k0_off21_eq L) (by omega)).trans ?_
    refine (win_peel (F := F) _ _ y (k0_off20_eq L) (by omega)).trans ?_
    refine (win_peel (F := F) _ _ y (k0_off19_eq L) (by omega)).trans ?_
    refine (win_peel (F := F) _ _ y (k0_off18_eq L) (by omega)).trans ?_
    refine (win_peel (F := F) _ _ y (k0_off17_eq L) (by omega)).trans ?_
    exact win_hit (F := F) _ _ y (k0_off16_eq L) hrow (by omega) (fun x hx0 hx1 => h12 x y hx0 hx1)
  · -- column block 13
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    refine (win_peel (F := F) _ _ y (k0_off24_eq L) (by omega)).trans ?_
    refine (win_peel (F := F) _ _ y (k0_off23_eq L) (by omega)).trans ?_
    refine (win_peel (F := F) _ _ y (k0_off22_eq L) (by omega)).trans ?_
    refine (win_peel (F := F) _ _ y (k0_off21_eq L) (by omega)).trans ?_
    refine (win_peel (F := F) _ _ y (k0_off20_eq L) (by omega)).trans ?_
    refine (win_peel (F := F) _ _ y (k0_off19_eq L) (by omega)).trans ?_
    refine (win_peel (F := F) _ _ y (k0_off18_eq L) (by omega)).trans ?_
    exact win_hit (F := F) _ _ y (k0_off17_eq L) hrow (by omega) (fun x hx0 hx1 => h13 x y hx0 hx1)
  · -- column block 14
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    refine (win_peel (F := F) _ _ y (k0_off24_eq L) (by omega)).trans ?_
    refine (win_peel (F := F) _ _ y (k0_off23_eq L) (by omega)).trans ?_
    refine (win_peel (F := F) _ _ y (k0_off22_eq L) (by omega)).trans ?_
    refine (win_peel (F := F) _ _ y (k0_off21_eq L) (by omega)).trans ?_
    refine (win_peel (F := F) _ _ y (k0_off20_eq L) (by omega)).trans ?_
    refine (win_peel (F := F) _ _ y (k0_off19_eq L) (by omega)).trans ?_
    exact win_hit (F := F) _ _ y (k0_off18_eq L) hrow (by omega) (fun x hx0 hx1 => h14 x y hx0 hx1)
  · -- column block 15
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    refine (win_peel (F := F) _ _ y (k0_off24_eq L) (by omega)).trans ?_
    refine (win_peel (F := F) _ _ y (k0_off23_eq L) (by omega)).trans ?_
    refine (win_peel (F := F) _ _ y (k0_off22_eq L) (by omega)).trans ?_
    refine (win_peel (F := F) _ _ y (k0_off21_eq L) (by omega)).trans ?_
    refine (win_peel (F := F) _ _ y (k0_off20_eq L) (by omega)).trans ?_
    exact win_hit (F := F) _ _ y (k0_off19_eq L) hrow (by omega) (fun x hx0 hx1 => h15 x y hx0 hx1)
  · -- column block 16
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    refine (win_peel (F := F) _ _ y (k0_off24_eq L) (by omega)).trans ?_
    refine (win_peel (F := F) _ _ y (k0_off23_eq L) (by omega)).trans ?_
    refine (win_peel (F := F) _ _ y (k0_off22_eq L) (by omega)).trans ?_
    refine (win_peel (F := F) _ _ y (k0_off21_eq L) (by omega)).trans ?_
    exact win_hit (F := F) _ _ y (k0_off20_eq L) hrow (by omega) (fun x hx0 hx1 => h16 x y hx0 hx1)
  · -- column block 17
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    refine (win_peel (F := F) _ _ y (k0_off24_eq L) (by omega)).trans ?_
    refine (win_peel (F := F) _ _ y (k0_off23_eq L) (by omega)).trans ?_
    refine (win_peel (F := F) _ _ y (k0_off22_eq L) (by omega)).trans ?_
    exact win_hit (F := F) _ _ y (k0_off21_eq L) hrow (by omega) (fun x hx0 hx1 => h17 x y hx0 hx1)
  · -- column block 18
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    refine (win_peel (F := F) _ _ y (k0_off24_eq L) (by omega)).trans ?_
    refine (win_peel (F := F) _ _ y (k0_off23_eq L) (by omega)).trans ?_
    exact win_hit (F := F) _ _ y (k0_off22_eq L) hrow (by omega) (fun x hx0 hx1 => h18 x y hx0 hx1)
  · -- column block 19
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    refine (win_peel (F := F) _ _ y (k0_off24_eq L) (by omega)).trans ?_
    exact win_hit (F := F) _ _ y (k0_off23_eq L) hrow (by omega) (fun x hx0 hx1 => h19 x y hx0 hx1)
  · -- column block 20
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    refine (win_peel (F := F) _ _ y (k0_off25_eq L) (by omega)).trans ?_
    exact win_hit (F := F) _ _ y (k0_off24_eq L) hrow (by omega) (fun x hx0 hx1 => h20 x y hx0 hx1)
  · -- column block 21
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    refine (win_peel (F := F) _ _ y (k0_off26_eq L) (by omega)).trans ?_
    exact win_hit (F := F) _ _ y (k0_off25_eq L) hrow (by omega) (fun x hx0 hx1 => h21 x y hx0 hx1)
  · -- column block 22
    refine (win_peel (F := F) _ _ y (k0_off29_eq L) (by omega)).trans ?_
    refine (win_peel (F := F) _ _ y (k0_off28_eq L) (by omega)).trans ?_
    refine (win_peel (F := F) _ _ y (k0_off27_eq L) (by omega)).trans ?_
    exact win_hit (F := F) _ _ y (k0_off26_eq L) hrow (by omega) (fun x hx0 hx1 => h22 x y hx0 hx1)
  · -- column block 23
    refine (win_peel (F := F) _ _ y (k0_off29_eq L) (by omega)).trans ?_
    refine (win_peel (F := F) _ _ y (k0_off28_eq L) (by omega)).trans ?_
    exact win_hit (F := F) _ _ y (k0_off27_eq L) hrow (by omega) (fun x hx0 hx1 => h23 x y hx0 hx1)
  · -- column block 24
    refine (win_peel (F := F) _ _ y (k0_off29_eq L) (by omega)).trans ?_
    exact win_hit (F := F) _ _ y (k0_off28_eq L) hrow (by omega) (fun x hx0 hx1 => h24 x y hx0 hx1)
  · -- column block 25
    exact win_hit (F := F) _ _ y (k0_off29_eq L) hrow (by omega) (fun x hx0 hx1 => h25 x y hx0 hx1)

/-- The tile's rows outside the numeric window, after the 26 writes: the specification's entries, if each window's
    payload holds them at the window's inside coordinates. -/
theorem agree1 (L : grid0.Coords) (fxt : S26x4096.Idx → BitVec 32) (fxn : S4096x13.Idx → Elt F .f32) (ftb : S26000x128.Idx → Elt F .f32)
    (g2 : S4096x3341.Idx → Elt F .f32)
    (p0 : S128x128.Idx → Elt F .f32) (p1 : S128x128.Idx → Elt F .f32) (p2 : S128x128.Idx → Elt F .f32) (p3 : S128x128.Idx → Elt F .f32) (p4 : S128x128.Idx → Elt F .f32) (p5 : S128x128.Idx → Elt F .f32) (p6 : S128x128.Idx → Elt F .f32) (p7 : S128x128.Idx → Elt F .f32) (p8 : S128x128.Idx → Elt F .f32) (p9 : S128x128.Idx → Elt F .f32) (p10 : S128x128.Idx → Elt F .f32) (p11 : S128x128.Idx → Elt F .f32) (p12 : S128x128.Idx → Elt F .f32) (p13 : S128x128.Idx → Elt F .f32) (p14 : S128x128.Idx → Elt F .f32) (p15 : S128x128.Idx → Elt F .f32) (p16 : S128x128.Idx → Elt F .f32) (p17 : S128x128.Idx → Elt F .f32) (p18 : S128x128.Idx → Elt F .f32) (p19 : S128x128.Idx → Elt F .f32) (p20 : S128x128.Idx → Elt F .f32) (p21 : S128x128.Idx → Elt F .f32) (p22 : S128x128.Idx → Elt F .f32) (p23 : S128x128.Idx → Elt F .f32) (p24 : S128x128.Idx → Elt F .f32) (p25 : S128x128.Idx → Elt F .f32)
    (h0 : ∀ (x : S128x128.Idx) (y : S4096x3341.Idx), 256 * (L 1).val + 128 * (L 0).val + (x 0).val = (y 0).val → 0 + (x 1).val = (y 1).val → p0 x = outT fxt fxn ftb y)
    (h1 : ∀ (x : S128x128.Idx) (y : S4096x3341.Idx), 256 * (L 1).val + 128 * (L 0).val + (x 0).val = (y 0).val → 128 + (x 1).val = (y 1).val → p1 x = outT fxt fxn ftb y)
    (h2 : ∀ (x : S128x128.Idx) (y : S4096x3341.Idx), 256 * (L 1).val + 128 * (L 0).val + (x 0).val = (y 0).val → 256 + (x 1).val = (y 1).val → p2 x = outT fxt fxn ftb y)
    (h3 : ∀ (x : S128x128.Idx) (y : S4096x3341.Idx), 256 * (L 1).val + 128 * (L 0).val + (x 0).val = (y 0).val → 384 + (x 1).val = (y 1).val → p3 x = outT fxt fxn ftb y)
    (h4 : ∀ (x : S128x128.Idx) (y : S4096x3341.Idx), 256 * (L 1).val + 128 * (L 0).val + (x 0).val = (y 0).val → 512 + (x 1).val = (y 1).val → p4 x = outT fxt fxn ftb y)
    (h5 : ∀ (x : S128x128.Idx) (y : S4096x3341.Idx), 256 * (L 1).val + 128 * (L 0).val + (x 0).val = (y 0).val → 640 + (x 1).val = (y 1).val → p5 x = outT fxt fxn ftb y)
    (h6 : ∀ (x : S128x128.Idx) (y : S4096x3341.Idx), 256 * (L 1).val + 128 * (L 0).val + (x 0).val = (y 0).val → 768 + (x 1).val = (y 1).val → p6 x = outT fxt fxn ftb y)
    (h7 : ∀ (x : S128x128.Idx) (y : S4096x3341.Idx), 256 * (L 1).val + 128 * (L 0).val + (x 0).val = (y 0).val → 896 + (x 1).val = (y 1).val → p7 x = outT fxt fxn ftb y)
    (h8 : ∀ (x : S128x128.Idx) (y : S4096x3341.Idx), 256 * (L 1).val + 128 * (L 0).val + (x 0).val = (y 0).val → 1024 + (x 1).val = (y 1).val → p8 x = outT fxt fxn ftb y)
    (h9 : ∀ (x : S128x128.Idx) (y : S4096x3341.Idx), 256 * (L 1).val + 128 * (L 0).val + (x 0).val = (y 0).val → 1152 + (x 1).val = (y 1).val → p9 x = outT fxt fxn ftb y)
    (h10 : ∀ (x : S128x128.Idx) (y : S4096x3341.Idx), 256 * (L 1).val + 128 * (L 0).val + (x 0).val = (y 0).val → 1280 + (x 1).val = (y 1).val → p10 x = outT fxt fxn ftb y)
    (h11 : ∀ (x : S128x128.Idx) (y : S4096x3341.Idx), 256 * (L 1).val + 128 * (L 0).val + (x 0).val = (y 0).val → 1408 + (x 1).val = (y 1).val → p11 x = outT fxt fxn ftb y)
    (h12 : ∀ (x : S128x128.Idx) (y : S4096x3341.Idx), 256 * (L 1).val + 128 * (L 0).val + (x 0).val = (y 0).val → 1536 + (x 1).val = (y 1).val → p12 x = outT fxt fxn ftb y)
    (h13 : ∀ (x : S128x128.Idx) (y : S4096x3341.Idx), 256 * (L 1).val + 128 * (L 0).val + (x 0).val = (y 0).val → 1664 + (x 1).val = (y 1).val → p13 x = outT fxt fxn ftb y)
    (h14 : ∀ (x : S128x128.Idx) (y : S4096x3341.Idx), 256 * (L 1).val + 128 * (L 0).val + (x 0).val = (y 0).val → 1792 + (x 1).val = (y 1).val → p14 x = outT fxt fxn ftb y)
    (h15 : ∀ (x : S128x128.Idx) (y : S4096x3341.Idx), 256 * (L 1).val + 128 * (L 0).val + (x 0).val = (y 0).val → 1920 + (x 1).val = (y 1).val → p15 x = outT fxt fxn ftb y)
    (h16 : ∀ (x : S128x128.Idx) (y : S4096x3341.Idx), 256 * (L 1).val + 128 * (L 0).val + (x 0).val = (y 0).val → 2048 + (x 1).val = (y 1).val → p16 x = outT fxt fxn ftb y)
    (h17 : ∀ (x : S128x128.Idx) (y : S4096x3341.Idx), 256 * (L 1).val + 128 * (L 0).val + (x 0).val = (y 0).val → 2176 + (x 1).val = (y 1).val → p17 x = outT fxt fxn ftb y)
    (h18 : ∀ (x : S128x128.Idx) (y : S4096x3341.Idx), 256 * (L 1).val + 128 * (L 0).val + (x 0).val = (y 0).val → 2304 + (x 1).val = (y 1).val → p18 x = outT fxt fxn ftb y)
    (h19 : ∀ (x : S128x128.Idx) (y : S4096x3341.Idx), 256 * (L 1).val + 128 * (L 0).val + (x 0).val = (y 0).val → 2432 + (x 1).val = (y 1).val → p19 x = outT fxt fxn ftb y)
    (h20 : ∀ (x : S128x128.Idx) (y : S4096x3341.Idx), 256 * (L 1).val + 128 * (L 0).val + (x 0).val = (y 0).val → 2560 + (x 1).val = (y 1).val → p20 x = outT fxt fxn ftb y)
    (h21 : ∀ (x : S128x128.Idx) (y : S4096x3341.Idx), 256 * (L 1).val + 128 * (L 0).val + (x 0).val = (y 0).val → 2688 + (x 1).val = (y 1).val → p21 x = outT fxt fxn ftb y)
    (h22 : ∀ (x : S128x128.Idx) (y : S4096x3341.Idx), 256 * (L 1).val + 128 * (L 0).val + (x 0).val = (y 0).val → 2816 + (x 1).val = (y 1).val → p22 x = outT fxt fxn ftb y)
    (h23 : ∀ (x : S128x128.Idx) (y : S4096x3341.Idx), 256 * (L 1).val + 128 * (L 0).val + (x 0).val = (y 0).val → 2944 + (x 1).val = (y 1).val → p23 x = outT fxt fxn ftb y)
    (h24 : ∀ (x : S128x128.Idx) (y : S4096x3341.Idx), 256 * (L 1).val + 128 * (L 0).val + (x 0).val = (y 0).val → 3072 + (x 1).val = (y 1).val → p24 x = outT fxt fxn ftb y)
    (h25 : ∀ (x : S128x128.Idx) (y : S4096x3341.Idx), 256 * (L 1).val + 128 * (L 0).val + (x 0).val = (y 0).val → 3200 + (x 1).val = (y 1).val → p25 x = outT fxt fxn ftb y) :
    ∀ y ∈ (oV).view.setOn (oTR L).set \ ((oV).slice (Rect.unit (s := S4096x3341) (k0_off2 L) S128x13.size (k0_off2_inb L)) (fun _ => rfl)).view.set,
      View.write (Elt F) ((oV).slice (Rect.unit (s := S4096x3341) (k0_off29 L) S128x128.size (k0_off29_inb L)) (fun _ => rfl)).view (
        View.write (Elt F) ((oV).slice (Rect.unit (s := S4096x3341) (k0_off28 L) S128x128.size (k0_off28_inb L)) (fun _ => rfl)).view (
        View.write (Elt F) ((oV).slice (Rect.unit (s := S4096x3341) (k0_off27 L) S128x128.size (k0_off27_inb L)) (fun _ => rfl)).view (
        View.write (Elt F) ((oV).slice (Rect.unit (s := S4096x3341) (k0_off26 L) S128x128.size (k0_off26_inb L)) (fun _ => rfl)).view (
        View.write (Elt F) ((oV).slice (Rect.unit (s := S4096x3341) (k0_off25 L) S128x128.size (k0_off25_inb L)) (fun _ => rfl)).view (
        View.write (Elt F) ((oV).slice (Rect.unit (s := S4096x3341) (k0_off24 L) S128x128.size (k0_off24_inb L)) (fun _ => rfl)).view (
        View.write (Elt F) ((oV).slice (Rect.unit (s := S4096x3341) (k0_off23 L) S128x128.size (k0_off23_inb L)) (fun _ => rfl)).view (
        View.write (Elt F) ((oV).slice (Rect.unit (s := S4096x3341) (k0_off22 L) S128x128.size (k0_off22_inb L)) (fun _ => rfl)).view (
        View.write (Elt F) ((oV).slice (Rect.unit (s := S4096x3341) (k0_off21 L) S128x128.size (k0_off21_inb L)) (fun _ => rfl)).view (
        View.write (Elt F) ((oV).slice (Rect.unit (s := S4096x3341) (k0_off20 L) S128x128.size (k0_off20_inb L)) (fun _ => rfl)).view (
        View.write (Elt F) ((oV).slice (Rect.unit (s := S4096x3341) (k0_off19 L) S128x128.size (k0_off19_inb L)) (fun _ => rfl)).view (
        View.write (Elt F) ((oV).slice (Rect.unit (s := S4096x3341) (k0_off18 L) S128x128.size (k0_off18_inb L)) (fun _ => rfl)).view (
        View.write (Elt F) ((oV).slice (Rect.unit (s := S4096x3341) (k0_off17 L) S128x128.size (k0_off17_inb L)) (fun _ => rfl)).view (
        View.write (Elt F) ((oV).slice (Rect.unit (s := S4096x3341) (k0_off16 L) S128x128.size (k0_off16_inb L)) (fun _ => rfl)).view (
        View.write (Elt F) ((oV).slice (Rect.unit (s := S4096x3341) (k0_off15 L) S128x128.size (k0_off15_inb L)) (fun _ => rfl)).view (
        View.write (Elt F) ((oV).slice (Rect.unit (s := S4096x3341) (k0_off14 L) S128x128.size (k0_off14_inb L)) (fun _ => rfl)).view (
        View.write (Elt F) ((oV).slice (Rect.unit (s := S4096x3341) (k0_off13 L) S128x128.size (k0_off13_inb L)) (fun _ => rfl)).view (
        View.write (Elt F) ((oV).slice (Rect.unit (s := S4096x3341) (k0_off12 L) S128x128.size (k0_off12_inb L)) (fun _ => rfl)).view (
        View.write (Elt F) ((oV).slice (Rect.unit (s := S4096x3341) (k0_off11 L) S128x128.size (k0_off11_inb L)) (fun _ => rfl)).view (
        View.write (Elt F) ((oV).slice (Rect.unit (s := S4096x3341) (k0_off10 L) S128x128.size (k0_off10_inb L)) (fun _ => rfl)).view (
        View.write (Elt F) ((oV).slice (Rect.unit (s := S4096x3341) (k0_off9 L) S128x128.size (k0_off9_inb L)) (fun _ => rfl)).view (
        View.write (Elt F) ((oV).slice (Rect.unit (s := S4096x3341) (k0_off8 L) S128x128.size (k0_off8_inb L)) (fun _ => rfl)).view (
        View.write (Elt F) ((oV).slice (Rect.unit (s := S4096x3341) (k0_off7 L) S128x128.size (k0_off7_inb L)) (fun _ => rfl)).view (
        View.write (Elt F) ((oV).slice (Rect.unit (s := S4096x3341) (k0_off6 L) S128x128.size (k0_off6_inb L)) (fun _ => rfl)).view (
        View.write (Elt F) ((oV).slice (Rect.unit (s := S4096x3341) (k0_off5 L) S128x128.size (k0_off5_inb L)) (fun _ => rfl)).view (
        View.write (Elt F) ((oV).slice (Rect.unit (s := S4096x3341) (k0_off4 L) S128x128.size (k0_off4_inb L)) (fun _ => rfl)).view (g2) p0 Finset.univ) p1 Finset.univ) p2 Finset.univ) p3 Finset.univ) p4 Finset.univ) p5 Finset.univ) p6 Finset.univ) p7 Finset.univ) p8 Finset.univ) p9 Finset.univ) p10 Finset.univ) p11 Finset.univ) p12 Finset.univ) p13 Finset.univ) p14 Finset.univ) p15 Finset.univ) p16 Finset.univ) p17 Finset.univ) p18 Finset.univ) p19 Finset.univ) p20 Finset.univ) p21 Finset.univ) p22 Finset.univ) p23 Finset.univ) p24 Finset.univ) p25 Finset.univ y
        = outT fxt fxn ftb y :=
  fun y hy => nest_val L fxt fxn ftb g2 p0 p1 p2 p3 p4 p5 p6 p7 p8 p9 p10 p11 p12 p13 p14 p15 p16 p17 p18 p19 p20 p21 p22 p23 p24 p25 h0 h1 h2 h3 h4 h5 h6 h7 h8 h9 h10 h11 h12 h13 h14 h15 h16 h17 h18 h19 h20 h21 h22 h23 h24 h25 y (block_cols L y hy).1 (block_cols L y hy).2

/-- The numeric window, after the staged copy: the specification's entries. -/
theorem agree2 (L : grid0.Coords) (fxt : S26x4096.Idx → BitVec 32) (fxn : S4096x13.Idx → Elt F .f32) (ftb : S26000x128.Idx → Elt F .f32)
    (fo : S4096x3341.Idx → Elt F .f32) (f2 : S128x13.Idx → Elt F .f32) :
    ∀ y ∈ ((oV).slice (Rect.unit (s := S4096x3341) (k0_off2 L) S128x13.size (k0_off2_inb L)) (fun _ => rfl)).view.set,
      View.write (Elt F) ((oV).slice (Rect.unit (s := S4096x3341) (k0_off2 L) S128x13.size (k0_off2_inb L)) (fun _ => rfl)).view fo
        ((ReadAs.same (Val := Elt F)).apply (View.read (Elt F) (s2V).view (View.write (Elt F) (s2V).view f2
          ((ReadAs.same (Val := Elt F)).apply (View.read (Elt F) ((xnV).slice (Rect.unit (s := S4096x13) (k0_off1 L) S128x13.size (k0_off1_inb L)) (fun _ => rfl)).view fxn))
          Finset.univ))) Finset.univ y
        = outT fxt fxn ftb y :=
  fun y hy => num_val L fxt fxn ftb fo f2 y hy

end Cert.Proof.KernelSide
end
-- ==== Proof.RunB.lean ====
import proofs.«201888_g37099927503118_cont_8to1_b_213_13_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«201888_g37099927503118_cont_8to1_b_213_13_alg».proof.Proof.Gen.Kernel
import proofs.«201888_g37099927503118_cont_8to1_b_213_13_alg».proof.Proof.Gen.Kernel.Skeleton
import proofs.«201888_g37099927503118_cont_8to1_b_213_13_alg».proof.Proof.SetupB
import proofs.«201888_g37099927503118_cont_8to1_b_213_13_alg».proof.Proof.KernelValue
import proofs.«201888_g37099927503118_cont_8to1_b_213_13_alg».proof.Proof.BodyB
import proofs.«201888_g37099927503118_cont_8to1_b_213_13_alg».proof.Proof.IdxB
import proofs.«201888_g37099927503118_cont_8to1_b_213_13_alg».proof.Proof.OutValB

noncomputable section

namespace Cert.Proof.KernelSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xtV" => (Memref.whole Cert.Kernel.main_v0_scv : Memref Cert.Kernel.sig Kind.scVector Space.hbm Cert.Kernel.S26x4096 EltTy.i32)
local notation "xnV" => (Memref.whole Cert.Kernel.main_arg1_scv : Memref Cert.Kernel.sig Kind.scVector Space.hbm Cert.Kernel.S4096x13 EltTy.f32)
local notation "tbV" => (Memref.whole Cert.Kernel.main_v1_scv : Memref Cert.Kernel.sig Kind.scVector Space.hbm Cert.Kernel.S26000x128 EltTy.f32)
local notation "oV" => (Memref.whole Cert.Kernel.main_v2_scv : Memref Cert.Kernel.sig Kind.scVector Space.hbm Cert.Kernel.S4096x3341 EltTy.f32)
local notation "s0V" => (Memref.whole Cert.Kernel.cc0_scratch0 : Memref Cert.Kernel.sig Kind.scVector Space.vmem Cert.Kernel.S26x128 EltTy.i32)
local notation "s1V" => (Memref.whole Cert.Kernel.cc0_scratch1 : Memref Cert.Kernel.sig Kind.scVector Space.vmem Cert.Kernel.S5x128x128 EltTy.f32)
local notation "s2V" => (Memref.whole Cert.Kernel.cc0_scratch2 : Memref Cert.Kernel.sig Kind.scVector Space.vmem Cert.Kernel.S128x13 EltTy.f32)

open Cert.PreSide Idealize.ShloMosaic.ValueIdx

variable [FloatOps F]
variable (d : Dev nD) (L : grid0.Coords)

/-! ## One tile's run

The tile at `L` copies its 128 rows of the numeric features and its 26 × 128 block of the transposed indices into
scratch, adds `1000 f` to row `f` of that block, and then, field by field, gathers the 128 rows of the stacked table
named by row `f` into a staging slot and writes the slot to columns `128 f …` of its rows of the result. Up to four
gathers are pending at once, each reading the table through a share of its own. At the end the tile's rows of the
result hold `outT`. -/

omit [FloatOps F] in
theorem toks5 {ℓ : Loc nD τ sig} (f : Buf (Elt F) ℓ) (q : PosShare TreeShare) :
    (ℓ ↦{q} f : sProp 𝕄) ⊣⊢ iprop((ℓ ↦{Transfers.shareDrop q 5} f) ∗ (ℓ ↦{Transfers.shareTokN q 0} f) ∗ (ℓ ↦{Transfers.shareTokN q 1} f)
      ∗ (ℓ ↦{Transfers.shareTokN q 2} f) ∗ (ℓ ↦{Transfers.shareTokN q 3} f) ∗ (ℓ ↦{Transfers.shareTokN q 4} f)) := by
  have h : (ℓ ↦[Finset.univ]{q} f : sProp 𝕄) ⊣⊢ _ := Transfers.pointsTo_toks_range q 5
  rw [show Finset.range 5 = {0, 1, 2, 3, 4} by decide, SparseCore.bigSep_insert' (by decide), SparseCore.bigSep_insert' (by decide),
    SparseCore.bigSep_insert' (by decide), SparseCore.bigSep_insert' (by decide), bigSep_singleton] at h
  exact h

open Lean Elab Tactic Meta in
/-- Unfold, in the goal, every auxiliary definition the symbolic run made (their names hold the component `sl`). -/
elab "delta_sl" : tactic => do
  let g ← getMainGoal
  let t ← instantiateMVars (← g.getType)
  let t' ← Meta.deltaExpand t (fun n => n.components.contains `sl)
  replaceMainGoal [← g.replaceTargetDefEq t']

set_option maxHeartbeats 16000000 in
set_option maxRecDepth 65536 in
theorem tile_run (q : PosShare TreeShare) (O : CellTallies nD τ sig (HIx 1)) (W : Waits sig (HIx 1))
    (fxt : Buf (Elt F) ((xtV).view.loc (V d (cV L) (jV L)))) (fxn : Buf (Elt F) ((xnV).view.loc (V d (cV L) (jV L))))
    (ftb : Buf (Elt F) ((tbV).view.loc (V d (cV L) (jV L)))) (fo : Buf (Elt F) ((oV).view.loc (V d (cV L) (jV L))))
    (f0 : Buf (Elt F) ((s0V).view.loc (V d (cV L) (jV L)))) (f1 : Buf (Elt F) ((s1V).view.loc (V d (cV L) (jV L))))
    (f2 : Buf (Elt F) ((s2V).view.loc (V d (cV L) (jV L)))) (hr : ∀ j, (fxt j).toNat ≤ 999) :
    iprop((Transfers.MayWaits (V d (cV L) (jV L)) (default : HIx 1) O : sProp 𝕄)
        ∗ ((xtV).view.loc (V d (cV L) (jV L)) ↦{q} fxt) ∗ ((xnV).view.loc (V d (cV L) (jV L)) ↦{q} fxn) ∗ ((tbV).view.loc (V d (cV L) (jV L)) ↦{q} ftb)
        ∗ ((oV).view.loc (V d (cV L) (jV L)) ↦[(oV).view.setOn (oTR L).set]{fullShare} fo)
        ∗ ((s0V).view.loc (V d (cV L) (jV L)) ↦{fullShare} f0) ∗ ((s1V).view.loc (V d (cV L) (jV L)) ↦{fullShare} f1) ∗ ((s2V).view.loc (V d (cV L) (jV L)) ↦{fullShare} f2)
        ∗ (semVal (V d (cV L) (jV L), SemLoc.dma 0) 0 ∗ semVal (V d (cV L) (jV L), SemLoc.dma 1) 0 ∗ semVal (V d (cV L) (jV L), SemLoc.dma 2) 0 ∗ semVal (V d (cV L) (jV L), SemLoc.dma 3) 0 ∗ semVal (V d (cV L) (jV L), SemLoc.dma 4) 0 ∗ semVal (V d (cV L) (jV L), SemLoc.dma 5) 0 ∗ semVal (V d (cV L) (jV L), SemLoc.dma 6) 0 ∗ semVal (V d (cV L) (jV L), SemLoc.dma 7) 0 ∗ semVal (V d (cV L) (jV L), SemLoc.dma 8) 0 ∗ semVal (V d (cV L) (jV L), SemLoc.dma 9) 0 ∗ semVal (V d (cV L) (jV L), SemLoc.dma 10) 0 ∗ semVal (V d (cV L) (jV L), SemLoc.dma 11) 0 ∗ semVal (V d (cV L) (jV L), SemLoc.dma 12) 0)
        ∗ owes (V d (cV L) (jV L)) O W)
      ⊢ wp frame (wpE (defs₀ (F := F)) 𝒱₀ (V d (cV L) (jV L)) none) Set.univ
          (cc0__body L xtV (Memref.isWhole_whole _) xnV (Memref.isWhole_whole _) tbV (Memref.isWhole_whole _) oV (Memref.isWhole_whole _)
            s0V (Memref.isWhole_whole _) s1V (Memref.isWhole_whole _) s2V (Memref.isWhole_whole _) cc0_scratch3 cc0_scratch4 cc0_scratch5 cc0_scoped0 cc0_scoped1)
          fun _ => iprop(((xtV).view.loc (V d (cV L) (jV L)) ↦{q} fxt) ∗ ((xnV).view.loc (V d (cV L) (jV L)) ↦{q} fxn) ∗ ((tbV).view.loc (V d (cV L) (jV L)) ↦{q} ftb)
            ∗ ((oV).view.loc (V d (cV L) (jV L)) ↦[(oV).view.setOn (oTR L).set]{fullShare} outT fxt fxn ftb)
            ∗ (∃ f, (s0V).view.loc (V d (cV L) (jV L)) ↦{fullShare} f) ∗ (∃ f, (s1V).view.loc (V d (cV L) (jV L)) ↦{fullShare} f) ∗ (∃ f, (s2V).view.loc (V d (cV L) (jV L)) ↦{fullShare} f)
            ∗ (semVal (V d (cV L) (jV L), SemLoc.dma 0) 0 ∗ semVal (V d (cV L) (jV L), SemLoc.dma 1) 0 ∗ semVal (V d (cV L) (jV L), SemLoc.dma 2) 0 ∗ semVal (V d (cV L) (jV L), SemLoc.dma 3) 0 ∗ semVal (V d (cV L) (jV L), SemLoc.dma 4) 0 ∗ semVal (V d (cV L) (jV L), SemLoc.dma 5) 0 ∗ semVal (V d (cV L) (jV L), SemLoc.dma 6) 0 ∗ semVal (V d (cV L) (jV L), SemLoc.dma 7) 0 ∗ semVal (V d (cV L) (jV L), SemLoc.dma 8) 0 ∗ semVal (V d (cV L) (jV L), SemLoc.dma 9) 0 ∗ semVal (V d (cV L) (jV L), SemLoc.dma 10) 0 ∗ semVal (V d (cV L) (jV L), SemLoc.dma 11) 0 ∗ semVal (V d (cV L) (jV L), SemLoc.dma 12) 0)
            ∗ ∃ W', ⌜∀ p ∈ W', p ∈ W ∨ p.2 = none⌝ ∗ owes (V d (cV L) (jV L)) O W') := by
  iintro ⟨Hmw, Hxt, Hxn, Htb, Ho, Hs0, Hs1, Hs2, ⟨Hd0, Hd1, Hd2, Hd3, Hd4, Hd5, Hd6, Hd7, Hd8, Hd9, Hd10, Hd11, Hd12⟩, HO⟩
  sl_exec_parts
  -- the index scratch after the 200 offset updates, in closed form
  have hG : ∀ p ∈ tile_run.sl.Hs0_200 d L fxt f0, ∀ x, p.2 x = idxF fxt L (p.1.emb x) := by
    delta_sl
    simp only [List.forall_mem_cons, List.not_mem_nil, IsEmpty.forall_iff, implies_true, and_true]
    repeat' (first | (refine ⟨?_, ?_⟩) | (intro x; exact piece_agree (F := F) fxt L f0 _ _ _ _ rfl _ _ x))
  have hidx : (s0V).view.writes (Elt F) (View.write (Elt F) (s0V).view f0 (tile_run.sl.dma0_2 d L fxt) Finset.univ) (tile_run.sl.Hs0_200 d L fxt f0) = idxF fxt L :=
    idx_contents (F := F) fxt L f0 (k0_off3_inb L) (tile_run.sl.Hs0_200 d L fxt f0) hG rfl
  ihave Hs0' := (Entails.of_eq (congrArg (fun g => ((s0V).view.loc (V d (cV L) (jV L)) ↦{fullShare} g : sProp 𝕄)) hidx)) $$ Hs0
  have hin0 : ∀ x : S128.Idx, (View.read (Elt F) (((s0V).slice (Rect.unit (s := S26x128) ![0, 0] S1x128.size inb_S26x128_S1x128_0_0) (fun _ => rfl)).squeeze S128 squeezes_S1x128_S128).view (idxF fxt L) x).toNat < 26000 := fun x => hin_row (F := F) fxt L hr 0 inb_S26x128_S1x128_0_0 x
  have hin1 : ∀ x : S128.Idx, (View.read (Elt F) (((s0V).slice (Rect.unit (s := S26x128) ![1, 0] S1x128.size inb_S26x128_S1x128_1_0) (fun _ => rfl)).squeeze S128 squeezes_S1x128_S128).view (idxF fxt L) x).toNat < 26000 := fun x => hin_row (F := F) fxt L hr 1 inb_S26x128_S1x128_1_0 x
  have hin2 : ∀ x : S128.Idx, (View.read (Elt F) (((s0V).slice (Rect.unit (s := S26x128) ![2, 0] S1x128.size inb_S26x128_S1x128_2_0) (fun _ => rfl)).squeeze S128 squeezes_S1x128_S128).view (idxF fxt L) x).toNat < 26000 := fun x => hin_row (F := F) fxt L hr 2 inb_S26x128_S1x128_2_0 x
  have hin3 : ∀ x : S128.Idx, (View.read (Elt F) (((s0V).slice (Rect.unit (s := S26x128) ![3, 0] S1x128.size inb_S26x128_S1x128_3_0) (fun _ => rfl)).squeeze S128 squeezes_S1x128_S128).view (idxF fxt L) x).toNat < 26000 := fun x => hin_row (F := F) fxt L hr 3 inb_S26x128_S1x128_3_0 x
  have hin4 : ∀ x : S128.Idx, (View.read (Elt F) (((s0V).slice (Rect.unit (s := S26x128) ![4, 0] S1x128.size inb_S26x128_S1x128_4_0) (fun _ => rfl)).squeeze S128 squeezes_S1x128_S128).view (idxF fxt L) x).toNat < 26000 := fun x => hin_row (F := F) fxt L hr 4 inb_S26x128_S1x128_4_0 x
  have hin5 : ∀ x : S128.Idx, (View.read (Elt F) (((s0V).slice (Rect.unit (s := S26x128) ![5, 0] S1x128.size inb_S26x128_S1x128_5_0) (fun _ => rfl)).squeeze S128 squeezes_S1x128_S128).view (idxF fxt L) x).toNat < 26000 := fun x => hin_row (F := F) fxt L hr 5 inb_S26x128_S1x128_5_0 x
  have hin6 : ∀ x : S128.Idx, (View.read (Elt F) (((s0V).slice (Rect.unit (s := S26x128) ![6, 0] S1x128.size inb_S26x128_S1x128_6_0) (fun _ => rfl)).squeeze S128 squeezes_S1x128_S128).view (idxF fxt L) x).toNat < 26000 := fun x => hin_row (F := F) fxt L hr 6 inb_S26x128_S1x128_6_0 x
  have hin7 : ∀ x : S128.Idx, (View.read (Elt F) (((s0V).slice (Rect.unit (s := S26x128) ![7, 0] S1x128.size inb_S26x128_S1x128_7_0) (fun _ => rfl)).squeeze S128 squeezes_S1x128_S128).view (idxF fxt L) x).toNat < 26000 := fun x => hin_row (F := F) fxt L hr 7 inb_S26x128_S1x128_7_0 x
  have hin8 : ∀ x : S128.Idx, (View.read (Elt F) (((s0V).slice (Rect.unit (s := S26x128) ![8, 0] S1x128.size inb_S26x128_S1x128_8_0) (fun _ => rfl)).squeeze S128 squeezes_S1x128_S128).view (idxF fxt L) x).toNat < 26000 := fun x => hin_row (F := F) fxt L hr 8 inb_S26x128_S1x128_8_0 x
  have hin9 : ∀ x : S128.Idx, (View.read (Elt F) (((s0V).slice (Rect.unit (s := S26x128) ![9, 0] S1x128.size inb_S26x128_S1x128_9_0) (fun _ => rfl)).squeeze S128 squeezes_S1x128_S128).view (idxF fxt L) x).toNat < 26000 := fun x => hin_row (F := F) fxt L hr 9 inb_S26x128_S1x128_9_0 x
  have hin10 : ∀ x : S128.Idx, (View.read (Elt F) (((s0V).slice (Rect.unit (s := S26x128) ![10, 0] S1x128.size inb_S26x128_S1x128_10_0) (fun _ => rfl)).squeeze S128 squeezes_S1x128_S128).view (idxF fxt L) x).toNat < 26000 := fun x => hin_row (F := F) fxt L hr 10 inb_S26x128_S1x128_10_0 x
  have hin11 : ∀ x : S128.Idx, (View.read (Elt F) (((s0V).slice (Rect.unit (s := S26x128) ![11, 0] S1x128.size inb_S26x128_S1x128_11_0) (fun _ => rfl)).squeeze S128 squeezes_S1x128_S128).view (idxF fxt L) x).toNat < 26000 := fun x => hin_row (F := F) fxt L hr 11 inb_S26x128_S1x128_11_0 x
  have hin12 : ∀ x : S128.Idx, (View.read (Elt F) (((s0V).slice (Rect.unit (s := S26x128) ![12, 0] S1x128.size inb_S26x128_S1x128_12_0) (fun _ => rfl)).squeeze S128 squeezes_S1x128_S128).view (idxF fxt L) x).toNat < 26000 := fun x => hin_row (F := F) fxt L hr 12 inb_S26x128_S1x128_12_0 x
  have hin13 : ∀ x : S128.Idx, (View.read (Elt F) (((s0V).slice (Rect.unit (s := S26x128) ![13, 0] S1x128.size inb_S26x128_S1x128_13_0) (fun _ => rfl)).squeeze S128 squeezes_S1x128_S128).view (idxF fxt L) x).toNat < 26000 := fun x => hin_row (F := F) fxt L hr 13 inb_S26x128_S1x128_13_0 x
  have hin14 : ∀ x : S128.Idx, (View.read (Elt F) (((s0V).slice (Rect.unit (s := S26x128) ![14, 0] S1x128.size inb_S26x128_S1x128_14_0) (fun _ => rfl)).squeeze S128 squeezes_S1x128_S128).view (idxF fxt L) x).toNat < 26000 := fun x => hin_row (F := F) fxt L hr 14 inb_S26x128_S1x128_14_0 x
  have hin15 : ∀ x : S128.Idx, (View.read (Elt F) (((s0V).slice (Rect.unit (s := S26x128) ![15, 0] S1x128.size inb_S26x128_S1x128_15_0) (fun _ => rfl)).squeeze S128 squeezes_S1x128_S128).view (idxF fxt L) x).toNat < 26000 := fun x => hin_row (F := F) fxt L hr 15 inb_S26x128_S1x128_15_0 x
  have hin16 : ∀ x : S128.Idx, (View.read (Elt F) (((s0V).slice (Rect.unit (s := S26x128) ![16, 0] S1x128.size inb_S26x128_S1x128_16_0) (fun _ => rfl)).squeeze S128 squeezes_S1x128_S128).view (idxF fxt L) x).toNat < 26000 := fun x => hin_row (F := F) fxt L hr 16 inb_S26x128_S1x128_16_0 x
  have hin17 : ∀ x : S128.Idx, (View.read (Elt F) (((s0V).slice (Rect.unit (s := S26x128) ![17, 0] S1x128.size inb_S26x128_S1x128_17_0) (fun _ => rfl)).squeeze S128 squeezes_S1x128_S128).view (idxF fxt L) x).toNat < 26000 := fun x => hin_row (F := F) fxt L hr 17 inb_S26x128_S1x128_17_0 x
  have hin18 : ∀ x : S128.Idx, (View.read (Elt F) (((s0V).slice (Rect.unit (s := S26x128) ![18, 0] S1x128.size inb_S26x128_S1x128_18_0) (fun _ => rfl)).squeeze S128 squeezes_S1x128_S128).view (idxF fxt L) x).toNat < 26000 := fun x => hin_row (F := F) fxt L hr 18 inb_S26x128_S1x128_18_0 x
  have hin19 : ∀ x : S128.Idx, (View.read (Elt F) (((s0V).slice (Rect.unit (s := S26x128) ![19, 0] S1x128.size inb_S26x128_S1x128_19_0) (fun _ => rfl)).squeeze S128 squeezes_S1x128_S128).view (idxF fxt L) x).toNat < 26000 := fun x => hin_row (F := F) fxt L hr 19 inb_S26x128_S1x128_19_0 x
  have hin20 : ∀ x : S128.Idx, (View.read (Elt F) (((s0V).slice (Rect.unit (s := S26x128) ![20, 0] S1x128.size inb_S26x128_S1x128_20_0) (fun _ => rfl)).squeeze S128 squeezes_S1x128_S128).view (idxF fxt L) x).toNat < 26000 := fun x => hin_row (F := F) fxt L hr 20 inb_S26x128_S1x128_20_0 x
  have hin21 : ∀ x : S128.Idx, (View.read (Elt F) (((s0V).slice (Rect.unit (s := S26x128) ![21, 0] S1x128.size inb_S26x128_S1x128_21_0) (fun _ => rfl)).squeeze S128 squeezes_S1x128_S128).view (idxF fxt L) x).toNat < 26000 := fun x => hin_row (F := F) fxt L hr 21 inb_S26x128_S1x128_21_0 x
  have hin22 : ∀ x : S128.Idx, (View.read (Elt F) (((s0V).slice (Rect.unit (s := S26x128) ![22, 0] S1x128.size inb_S26x128_S1x128_22_0) (fun _ => rfl)).squeeze S128 squeezes_S1x128_S128).view (idxF fxt L) x).toNat < 26000 := fun x => hin_row (F := F) fxt L hr 22 inb_S26x128_S1x128_22_0 x
  have hin23 : ∀ x : S128.Idx, (View.read (Elt F) (((s0V).slice (Rect.unit (s := S26x128) ![23, 0] S1x128.size inb_S26x128_S1x128_23_0) (fun _ => rfl)).squeeze S128 squeezes_S1x128_S128).view (idxF fxt L) x).toNat < 26000 := fun x => hin_row (F := F) fxt L hr 23 inb_S26x128_S1x128_23_0 x
  have hin24 : ∀ x : S128.Idx, (View.read (Elt F) (((s0V).slice (Rect.unit (s := S26x128) ![24, 0] S1x128.size inb_S26x128_S1x128_24_0) (fun _ => rfl)).squeeze S128 squeezes_S1x128_S128).view (idxF fxt L) x).toNat < 26000 := fun x => hin_row (F := F) fxt L hr 24 inb_S26x128_S1x128_24_0 x
  have hin25 : ∀ x : S128.Idx, (View.read (Elt F) (((s0V).slice (Rect.unit (s := S26x128) ![25, 0] S1x128.size inb_S26x128_S1x128_25_0) (fun _ => rfl)).squeeze S128 squeezes_S1x128_S128).view (idxF fxt L) x).toNat < 26000 := fun x => hin_row (F := F) fxt L hr 25 inb_S26x128_S1x128_25_0 x
  ihave Htb' := (toks5 (F := F) ftb q).1 $$ Htb
  icases Htb' with ⟨Htbr, Htb0, Htb1, Htb2, Htb3, Htb4⟩
  sl_exec_parts
  sl_step
  have hagree2 : ∀ y ∈ ((oV).slice (Rect.unit (s := S4096x3341) (k0_off2 L) S128x13.size (k0_off2_inb L)) (fun _ => rfl)).view.set,
      tile_run.sl.Ho_w1 d L fxn fo f2 y = outT fxt fxn ftb y := by
    delta_sl
    exact agree2 (F := F) L fxt fxn ftb fo f2
  have hagree1 : ∀ y ∈ (oV).view.setOn (oTR L).set \ ((oV).slice (Rect.unit (s := S4096x3341) (k0_off2 L) S128x13.size (k0_off2_inb L)) (fun _ => rfl)).view.set,
      tile_run.sl.Ho_w51 d L fxt fxn ftb fo f1 f2 hin0 hin1 hin2 hin3 hin4 hin5 hin6 hin7 hin8 hin9 hin10 hin11 hin12 hin13 hin14 hin15 hin16 hin17 hin18 hin19 hin20 hin21 hin22 hin23 hin24 hin25 y = outT fxt fxn ftb y := by
    delta_sl
    exact agree1 (F := F) L fxt fxn ftb _ _ _ _ _ _ _ _ _ _ _ _ _ _ _ _ _ _ _ _ _ _ _ _ _ _ _
      (by pay_val) (by pay_val) (by pay_val) (by pay_val) (by pay_val) (by pay_val) (by pay_val) (by pay_val) (by pay_val) (by pay_val) (by pay_val) (by pay_val) (by pay_val) (by pay_val) (by pay_val) (by pay_val) (by pay_val) (by pay_val) (by pay_val) (by pay_val) (by pay_val) (by pay_val) (by pay_val) (by pay_val) (by pay_val) (by pay_val)
  have hsub : ((oV).slice (Rect.unit (s := S4096x3341) (k0_off2 L) S128x13.size (k0_off2_inb L)) (fun _ => rfl)).view.set ⊆ (oV).view.setOn (oTR L).set :=
    w13_sub L
  isplitl [Hxt]; · iexact Hxt
  isplitl [Hxn]; · iexact Hxn
  isplitl [Htbr Htb0 Htb1 Htb2 Htb3 Htb4]
  · iapply (toks5 (F := F) ftb q).2
    isplitl [Htbr]; · iexact Htbr
    isplitl [Htb0]; · iexact Htb0
    isplitl [Htb1]; · iexact Htb1
    isplitl [Htb2]; · iexact Htb2
    isplitl [Htb3]; · iexact Htb3
    iexact Htb4
  isplitl [Ho Ho_2]
  · ihave Ho' := (Entails.of_eq (pointsTo_congr hagree1)) $$ Ho
    ihave Ho2' := (Entails.of_eq (pointsTo_congr hagree2)) $$ Ho_2
    iapply (pointsTo_split_subset (q := fullShare) (f := outT fxt fxn ftb) (S := (oV).view.setOn (oTR L).set) hsub).2
    isplitl [Ho2']; · iexact Ho2'
    iexact Ho'
  isplitl [Hs0']; · iexists _; iexact Hs0'
  isplitl [Hs1]; · iexists _; iexact Hs1
  isplitl [Hs2]; · iexists _; iexact Hs2
  isplitl [Hd0 Hd1 Hd2 Hd3 Hd4 Hd5 Hd6 Hd7 Hd8 Hd9 Hd10 Hd11 Hd12]
  ·
    isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hd8]; · iexact Hd8
    isplitl [Hd9]; · iexact Hd9
    isplitl [Hd10]; · iexact Hd10
    isplitl [Hd11]; · iexact Hd11
    iexact Hd12
  iexists _; isplitr
  swap; · iexact HO
  ipureintro; intro p hp
  repeat (rcases Finset.mem_insert.mp hp with hp | hp; · exact .inr (hp ▸ rfl))
  exact .inl hp

end Cert.Proof.KernelSide
end
-- ==== Proof.ObligB.lean ====
/-
  A tile's obligation to the launch, from the run of the tile's body.

  The body's run leaves, in the tile's 128 rows of the result, a function of the transposed indices, the numeric features
  and the flattened tables. Under the precondition that function is the specification's: column j < 3328 of row b is
  lane j % 128 of flat row x + 1000 (j / 128), x the index of field j / 128 in row b, which is row x of table j / 128;
  the last 13 columns are the numeric features. The rest is bookkeeping: the tile's scratch buffers and semaphores are
  taken out of, and put back into, what the subcore owns.
-/
import proofs.«201888_g37099927503118_cont_8to1_b_213_13_alg».proof.Proof.BodyB
import proofs.«201888_g37099927503118_cont_8to1_b_213_13_alg».proof.Proof.RunB

noncomputable section

namespace Cert.Proof.KernelSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.PreSide Idealize.ShloMosaic.ValueIdx

variable {F : FTy → Type}

local notation "𝕄" => MT nD τ sig (HIx 1) (Elt F) ℕ UU ℕ

local notation "xtV" => (Memref.whole Cert.Kernel.main_v0_scv : Memref Cert.Kernel.sig Kind.scVector Space.hbm Cert.Kernel.S26x4096 EltTy.i32)
local notation "xnV" => (Memref.whole Cert.Kernel.main_arg1_scv : Memref Cert.Kernel.sig Kind.scVector Space.hbm Cert.Kernel.S4096x13 EltTy.f32)
local notation "tbV" => (Memref.whole Cert.Kernel.main_v1_scv : Memref Cert.Kernel.sig Kind.scVector Space.hbm Cert.Kernel.S26000x128 EltTy.f32)
local notation "oV" => (Memref.whole Cert.Kernel.main_v2_scv : Memref Cert.Kernel.sig Kind.scVector Space.hbm Cert.Kernel.S4096x3341 EltTy.f32)
local notation "s0V" => (Memref.whole Cert.Kernel.cc0_scratch0 : Memref Cert.Kernel.sig Kind.scVector Space.vmem Cert.Kernel.S26x128 EltTy.i32)
local notation "s1V" => (Memref.whole Cert.Kernel.cc0_scratch1 : Memref Cert.Kernel.sig Kind.scVector Space.vmem Cert.Kernel.S5x128x128 EltTy.f32)
local notation "s2V" => (Memref.whole Cert.Kernel.cc0_scratch2 : Memref Cert.Kernel.sig Kind.scVector Space.vmem Cert.Kernel.S128x13 EltTy.f32)

variable (m : (ℓ : Loc nD τ sig) → Buf (Elt F) ℓ) (d : Dev nD) (L : grid0.Coords)

/-! ## What the tiles leave is the specification's result -/

/-- Every transposed index lies in [0, 999]. -/
theorem xt0_le (hpre : PreOK m) (j : S26x4096.Idx) : (xt0 m d j).toNat ≤ 999 := by
  have e : j = ix2 (⟨(j 0).val, idx2_lt0 (n0 := 26) (n1 := 4096) j⟩ : Fin 26) (⟨(j 1).val, idx2_lt1 (n0 := 26) (n1 := 4096) j⟩ : Fin 4096) := by
    funext a
    match a with
    | ⟨0, _⟩ => rfl
    | ⟨1, _⟩ => rfl
  rw [e]
  unfold xt0
  rw [transpose_read]
  exact hpre d _

/-- The function the tiles leave in the result is the specification's, under the precondition. -/
theorem outT_eq_outG (hpre : PreOK m) : outT (xt0 m d) (m (a1Loc d)) (tb0 m d) = outG m d := by
  funext y
  have h0 : (y 0).val < 4096 := idx2_lt0 (n0 := 4096) (n1 := 3341) y
  have h1 : (y 1).val < 3341 := idx2_lt1 (n0 := 4096) (n1 := 3341) y
  unfold outT
  by_cases h : (y 1).val < 3328
  · rw [dif_pos h]
    have hlt := gathered_lt (m (a0Loc d)) (hpre d) transposes_S4096x26_S26x4096_1_0 (⟨(y 0).val, h0⟩ : Fin 4096)
      (⟨(y 1).val / 128, by omega⟩ : Fin 26)
    have key := gathered_eq_of_lt (m (a0Loc d)) (m (a1Loc d)) (m (a2Loc d)) (hpre d) transposes_S4096x26_S26x4096_1_0
      shapeCasts_S26x1000x128_S26000x128 (⟨(y 0).val, h0⟩ : Fin 4096) (⟨(y 1).val / 128, by omega⟩ : Fin 26)
      (⟨(y 1).val % 128, Nat.mod_lt _ (by norm_num)⟩ : Fin 128) hlt
    have hy : (ix2 (⟨(y 0).val, h0⟩ : Fin 4096) (⟨128 * ((y 1).val / 128) + (y 1).val % 128, by omega⟩ : Fin 3341) : S4096x3341.Idx) = y := by
      funext a
      match a with
      | ⟨0, _⟩ => rfl
      | ⟨1, _⟩ => exact Fin.ext (by show 128 * ((y 1).val / 128) + (y 1).val % 128 = (y 1).val; omega)
    rw [hy] at key
    refine Eq.trans ?_ key
    exact congrArg (fun r : Fin 26000 => tb0 m d (ix2 r (⟨(y 1).val % 128, Nat.mod_lt _ (by norm_num)⟩ : Fin 128)))
      (Fin.ext (Nat.mod_eq_of_lt hlt))
  · rw [dif_neg h]
    show _ = Cert.Spec.out (m (a0Loc d)) (m (a1Loc d)) (m (a2Loc d)) y
    unfold Cert.Spec.out
    rw [dif_neg h]

variable [FloatOps F]

/-! ## The body's run in the launch's spelling -/

/-- The tile's thirteen copy semaphores, at zero. -/
abbrev sems13 (thr : Thread nD τ) : sProp 𝕄 :=
  iprop(semVal (thr, SemLoc.dma 0) 0 ∗ semVal (thr, SemLoc.dma 1) 0 ∗ semVal (thr, SemLoc.dma 2) 0 ∗ semVal (thr, SemLoc.dma 3) 0 ∗ semVal (thr, SemLoc.dma 4) 0 ∗ semVal (thr, SemLoc.dma 5) 0 ∗ semVal (thr, SemLoc.dma 6) 0 ∗ semVal (thr, SemLoc.dma 7) 0 ∗ semVal (thr, SemLoc.dma 8) 0 ∗ semVal (thr, SemLoc.dma 9) 0 ∗ semVal (thr, SemLoc.dma 10) 0 ∗ semVal (thr, SemLoc.dma 11) 0 ∗ semVal (thr, SemLoc.dma 12) 0)

set_option maxRecDepth 65536 in
set_option maxHeartbeats 1000000 in
/-- The body's run, its arrays at the launch's contents and its result named by the specification. -/
theorem tile_run' (hpre : PreOK m) (q : PosShare TreeShare) (O : CellTallies nD τ sig (HIx 1)) (W : Waits sig (HIx 1))
    (f0 : Buf (Elt F) ((V d (cV L) (jV L)).loc cc0_scratch0)) (f1 : Buf (Elt F) ((V d (cV L) (jV L)).loc cc0_scratch1))
    (f2 : Buf (Elt F) ((V d (cV L) (jV L)).loc cc0_scratch2)) :
    iprop((Transfers.MayWaits (V d (cV L) (jV L)) (default : HIx 1) O : sProp 𝕄)
        ∗ xtPts m d q ∗ xnPts m d q ∗ tbPts m d q ∗ oRowPts d (cL L) (jL L) (m (oLoc d))
        ∗ ((V d (cV L) (jV L)).loc cc0_scratch0 ↦{fullShare} f0) ∗ ((V d (cV L) (jV L)).loc cc0_scratch1 ↦{fullShare} f1)
        ∗ ((V d (cV L) (jV L)).loc cc0_scratch2 ↦{fullShare} f2)
        ∗ sems13 (V d (cV L) (jV L))
        ∗ owes (V d (cV L) (jV L)) O W)
      ⊢ wp frame (wpE (defs₀ (F := F)) 𝒱₀ (V d (cV L) (jV L)) none) Set.univ
          (cc0__body L xtV (Memref.isWhole_whole _) xnV (Memref.isWhole_whole _) tbV (Memref.isWhole_whole _) oV (Memref.isWhole_whole _)
            s0V (Memref.isWhole_whole _) s1V (Memref.isWhole_whole _) s2V (Memref.isWhole_whole _) cc0_scratch3 cc0_scratch4 cc0_scratch5 cc0_scoped0 cc0_scoped1)
          fun _ => iprop(xtPts m d q ∗ xnPts m d q ∗ tbPts m d q ∗ oRowPts d (cL L) (jL L) (outG m d)
            ∗ (∃ f, (V d (cV L) (jV L)).loc cc0_scratch0 ↦{fullShare} f) ∗ (∃ f, (V d (cV L) (jV L)).loc cc0_scratch1 ↦{fullShare} f)
            ∗ (∃ f, (V d (cV L) (jV L)).loc cc0_scratch2 ↦{fullShare} f)
            ∗ sems13 (V d (cV L) (jV L))
            ∗ ∃ W', ⌜∀ p ∈ W', p ∈ W ∨ p.2 = none⌝ ∗ owes (V d (cV L) (jV L)) O W') := by
  have h := tile_run (F := F) d L q O W (xt0 m d) (m (a1Loc d)) (tb0 m d) (m (oLoc d)) f0 f1 f2 (xt0_le m d hpre)
  rw [outT_eq_outG m d hpre] at h
  exact h

/-! ## The obligation -/

set_option maxRecDepth 65536 in
set_option maxHeartbeats 1000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (xtPts m d (qT (cL L) (jL L)) ∗ xnPts m d (qT (cL L) (jL L)) ∗ tbPts m d (qT (cL L) (jL L)) ∗ oRowPts d (cL L) (jL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__body L xtV (Memref.isWhole_whole _) xnV (Memref.isWhole_whole _) tbV (Memref.isWhole_whole _) oV (Memref.isWhole_whole _)
            s0V (Memref.isWhole_whole _) s1V (Memref.isWhole_whole _) s2V (Memref.isWhole_whole _) cc0_scratch3 cc0_scratch4 cc0_scratch5 cc0_scoped0 cc0_scoped1)
          fun _ => iprop((xtPts m d (qT (cL L) (jL L)) ∗ xnPts m d (qT (cL L) (jL L)) ∗ tbPts m d (qT (cL L) (jL L)) ∗ oRowPts d (cL L) (jL L) (outG m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L),
    ownSems0_V d (cV L) (jV L), ownBufs_V d (cV L) (jV L)]
  iintro ⟨#Hlv, -, ⟨Hxt, Hxn, Htb, Ho⟩, ⟨⟨%f0, H0⟩, ⟨%f1, H1⟩, ⟨%f2, H2⟩, Hbufs⟩, ⟨Hs13, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hwp := (tile_run' m d L hpre (qT (cL L) (jL L)) O W f0 f1 f2) $$ [Hmw Hxt Hxn Htb Ho H0 H1 H2 Hs13 HO]
  · isplitl [Hmw]; · iexact Hmw
    isplitl [Hxt]; · iexact Hxt
    isplitl [Hxn]; · iexact Hxn
    isplitl [Htb]; · iexact Htb
    isplitl [Ho]; · iexact Ho
    isplitl [H0]; · iexact H0
    isplitl [H1]; · iexact H1
    isplitl [H2]; · iexact H2
    isplitl [Hs13]; · iexact Hs13
    iexact HO
  iapply (wp_wand frame _ Set.univ) $$ Hwp
  iintro %_ ⟨Hxt, Hxn, Htb, Ho, H0, H1, H2, Hs13, HW⟩
  isplitl [Hxt Hxn Htb Ho]
  · isplitl [Hxt]; · iexact Hxt
    isplitl [Hxn]; · iexact Hxn
    isplitl [Htb]; · iexact Htb
    iexact Ho
  isplitl [H0 H1 H2 Hbufs]
  · isplitl [H0]; · iexact H0
    isplitl [H1]; · iexact H1
    isplitl [H2]; · iexact H2
    iexact Hbufs
  isplitl [Hs13 Hsems]
  · isplitl [Hs13]; · iexact Hs13
    iexact Hsems
  iexact HW

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__body (coordsV c s)
          xtV (Memref.isWhole_whole _) xnV (Memref.isWhole_whole _) tbV (Memref.isWhole_whole _) oV (Memref.isWhole_whole _)
            s0V (Memref.isWhole_whole _) s1V (Memref.isWhole_whole _) s2V (Memref.isWhole_whole _) cc0_scratch3 cc0_scratch4 cc0_scratch5 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 65536 in
set_option maxHeartbeats 1000000 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Cert.Proof.KernelSide

end
-- ==== Proof.RefOps.lean ====
/-
  The reference program as ONE straight line of host operations: the operations of a call of the row-lookup
  function as a list over the call's buffers (`takeOps`), each field's five statements (two slices, two
  reshapes, the call) as a block, the program's three windows as lists of blocks, and the program equal to
  the straight line of them all (`main_eq`).
-/
import proofs.«201888_g37099927503118_cont_8to1_b_213_13_alg».proof.Proof.Gen.ReferenceIdeal
import proofs.«201888_g37099927503118_cont_8to1_b_213_13_alg».proof.Proof.Spec
import Idealize.ShloMosaic.Lib.StableHlo.Run
import Idealize.ShloMosaic.Lib.Pipeline.Frame

noncomputable section

namespace Cert.RefSide

open Cert.ReferenceIdeal Idealize.ShloMosaic Idealize.ShloMosaic.TcCoe Idealize.SL.Sem Idealize.ShloMosaic.StableHlo
open Cert.ReferenceIdeal.Facts₀

variable {F : FTy → Type} [FloatOps F]

/-- The operations of one call of the row-lookup function, in order, over the call's buffers. -/
def takeOps (a : TRef sig ⟨S1000x128, .f32⟩) (i : TRef sig ⟨S4096, .i32⟩) (φ : fn_take.Bufs) : List (HloOp τ sig (Elt F)) :=
  [ TRef.nullary φ.c (constantI S_ 32 0#32),
    TRef.unary φ.c φ.v0 (broadcastInDim S4096 ![] bcast_S_S4096),
    TRef.binary i φ.v0 φ.v1 (cmpi .slt),
    TRef.nullary φ.c_0 (constantI S_ 32 1000#32),
    TRef.unary φ.c_0 φ.v2 (broadcastInDim S4096 ![] bcast_S_S4096),
    TRef.binary i φ.v2 φ.v3 addi,
    TRef.ternary φ.v1 φ.v3 i φ.call0.v0 select,
    TRef.unary φ.call0.v0 φ.v5 (broadcastInDim S4096x1 ![0] bcast_S4096_S4096x1_0),
    TRef.nullary φ.c_1 (constantI S1 32 999#32),
    TRef.nullary φ.c_2 (constantI S_ 32 0#32),
    TRef.unary φ.c_2 φ.v6 (broadcastInDim S4096x1 ![] bcast_S_S4096x1),
    TRef.binary φ.v5 φ.v6 φ.v7 (cmpi .sge),
    TRef.unary φ.c_1 φ.v8 (broadcastInDim S1x1 ![1] bcast_S1_S1x1_1),
    TRef.unary φ.v8 φ.v9 (broadcastInDim S4096x1 ![0, 1] bcast_S1x1_S4096x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S4096x1_S4096_d1 h_S_),
    TRef.binary a φ.v5 φ.v13 (fun x i => Host.gather gather_S1000x128_S4096x1_S4096x128_1_0_n_n_0_1_1128 x i),
    TRef.unary φ.v12 φ.v14 (broadcastInDim S4096x128 ![0] bcast_S4096_S4096x128_0),
    TRef.nullary φ.cst (constant S_ .f32 0x7FC00000#32),
    TRef.unary φ.cst φ.v15 (broadcastInDim S4096x128 ![] bcast_S_S4096x128),
    TRef.ternary φ.v14 φ.v13 φ.v15 φ.v16 select ]

/-- One call of the row-lookup function is that straight line. -/
theorem take_eq (a : TRef sig ⟨S1000x128, .f32⟩) (i : TRef sig ⟨S4096, .i32⟩) (φ : fn_take.Bufs) :
    fn_take.body (F := F) a i φ = seq (takeOps a i φ) := by
  simp only [fn_take.body, fn_where.body, takeOps, seq, bind_assoc, pure_bind]

/-- Field 0: its table and its index column cut out and flattened, then the row lookup. -/
abbrev pre0 : List (HloOp τ sig (Elt F)) :=
  [ StableHlo.unary main_arg2 main_v0 ((extractStridedSlice S1x1000x128 ![0, 0, 0] · slices_S26x1000x128_S1x1000x128_0_0_0) : (⟨S26x1000x128, .f32⟩ : BufTy).Contents (Elt F) → (⟨S1x1000x128, .f32⟩ : BufTy).Contents (Elt F)),
    StableHlo.reshape main_v0 main_v1 rfl shapeCasts_S1x1000x128_S1000x128,
    StableHlo.unary main_arg0 main_v2 ((extractStridedSlice S4096x1 ![0, 0] · slices_S4096x26_S4096x1_0_0) : (⟨S4096x26, .i32⟩ : BufTy).Contents (Elt F) → (⟨S4096x1, .i32⟩ : BufTy).Contents (Elt F)),
    StableHlo.reshape main_v2 main_v3 rfl shapeCasts_S4096x1_S4096 ]
def blk0 : List (HloOp τ sig (Elt F)) := pre0 ++ takeOps (.of main_v1) (.of main_v3) main_call0

/-- Field 1: its table and its index column cut out and flattened, then the row lookup. -/
abbrev pre1 : List (HloOp τ sig (Elt F)) :=
  [ StableHlo.unary main_arg2 main_v5 ((extractStridedSlice S1x1000x128 ![1, 0, 0] · slices_S26x1000x128_S1x1000x128_1_0_0) : (⟨S26x1000x128, .f32⟩ : BufTy).Contents (Elt F) → (⟨S1x1000x128, .f32⟩ : BufTy).Contents (Elt F)),
    StableHlo.reshape main_v5 main_v6 rfl shapeCasts_S1x1000x128_S1000x128,
    StableHlo.unary main_arg0 main_v7 ((extractStridedSlice S4096x1 ![0, 1] · slices_S4096x26_S4096x1_0_1) : (⟨S4096x26, .i32⟩ : BufTy).Contents (Elt F) → (⟨S4096x1, .i32⟩ : BufTy).Contents (Elt F)),
    StableHlo.reshape main_v7 main_v8 rfl shapeCasts_S4096x1_S4096 ]
def blk1 : List (HloOp τ sig (Elt F)) := pre1 ++ takeOps (.of main_v6) (.of main_v8) main_call1

/-- Field 2: its table and its index column cut out and flattened, then the row lookup. -/
abbrev pre2 : List (HloOp τ sig (Elt F)) :=
  [ StableHlo.unary main_arg2 main_v10 ((extractStridedSlice S1x1000x128 ![2, 0, 0] · slices_S26x1000x128_S1x1000x128_2_0_0) : (⟨S26x1000x128, .f32⟩ : BufTy).Contents (Elt F) → (⟨S1x1000x128, .f32⟩ : BufTy).Contents (Elt F)),
    StableHlo.reshape main_v10 main_v11 rfl shapeCasts_S1x1000x128_S1000x128,
    StableHlo.unary main_arg0 main_v12 ((extractStridedSlice S4096x1 ![0, 2] · slices_S4096x26_S4096x1_0_2) : (⟨S4096x26, .i32⟩ : BufTy).Contents (Elt F) → (⟨S4096x1, .i32⟩ : BufTy).Contents (Elt F)),
    StableHlo.reshape main_v12 main_v13 rfl shapeCasts_S4096x1_S4096 ]
def blk2 : List (HloOp τ sig (Elt F)) := pre2 ++ takeOps (.of main_v11) (.of main_v13) main_call2

/-- Field 3: its table and its index column cut out and flattened, then the row lookup. -/
abbrev pre3 : List (HloOp τ sig (Elt F)) :=
  [ StableHlo.unary main_arg2 main_v15 ((extractStridedSlice S1x1000x128 ![3, 0, 0] · slices_S26x1000x128_S1x1000x128_3_0_0) : (⟨S26x1000x128, .f32⟩ : BufTy).Contents (Elt F) → (⟨S1x1000x128, .f32⟩ : BufTy).Contents (Elt F)),
    StableHlo.reshape main_v15 main_v16 rfl shapeCasts_S1x1000x128_S1000x128,
    StableHlo.unary main_arg0 main_v17 ((extractStridedSlice S4096x1 ![0, 3] · slices_S4096x26_S4096x1_0_3) : (⟨S4096x26, .i32⟩ : BufTy).Contents (Elt F) → (⟨S4096x1, .i32⟩ : BufTy).Contents (Elt F)),
    StableHlo.reshape main_v17 main_v18 rfl shapeCasts_S4096x1_S4096 ]
def blk3 : List (HloOp τ sig (Elt F)) := pre3 ++ takeOps (.of main_v16) (.of main_v18) main_call3

/-- Field 4: its table and its index column cut out and flattened, then the row lookup. -/
abbrev pre4 : List (HloOp τ sig (Elt F)) :=
  [ StableHlo.unary main_arg2 main_v20 ((extractStridedSlice S1x1000x128 ![4, 0, 0] · slices_S26x1000x128_S1x1000x128_4_0_0) : (⟨S26x1000x128, .f32⟩ : BufTy).Contents (Elt F) → (⟨S1x1000x128, .f32⟩ : BufTy).Contents (Elt F)),
    StableHlo.reshape main_v20 main_v21 rfl shapeCasts_S1x1000x128_S1000x128,
    StableHlo.unary main_arg0 main_v22 ((extractStridedSlice S4096x1 ![0, 4] · slices_S4096x26_S4096x1_0_4) : (⟨S4096x26, .i32⟩ : BufTy).Contents (Elt F) → (⟨S4096x1, .i32⟩ : BufTy).Contents (Elt F)),
    StableHlo.reshape main_v22 main_v23 rfl shapeCasts_S4096x1_S4096 ]
def blk4 : List (HloOp τ sig (Elt F)) := pre4 ++ takeOps (.of main_v21) (.of main_v23) main_call4

/-- Field 5: its table and its index column cut out and flattened, then the row lookup. -/
abbrev pre5 : List (HloOp τ sig (Elt F)) :=
  [ StableHlo.unary main_arg2 main_v25 ((extractStridedSlice S1x1000x128 ![5, 0, 0] · slices_S26x1000x128_S1x1000x128_5_0_0) : (⟨S26x1000x128, .f32⟩ : BufTy).Contents (Elt F) → (⟨S1x1000x128, .f32⟩ : BufTy).Contents (Elt F)),
    StableHlo.reshape main_v25 main_v26 rfl shapeCasts_S1x1000x128_S1000x128,
    StableHlo.unary main_arg0 main_v27 ((extractStridedSlice S4096x1 ![0, 5] · slices_S4096x26_S4096x1_0_5) : (⟨S4096x26, .i32⟩ : BufTy).Contents (Elt F) → (⟨S4096x1, .i32⟩ : BufTy).Contents (Elt F)),
    StableHlo.reshape main_v27 main_v28 rfl shapeCasts_S4096x1_S4096 ]
def blk5 : List (HloOp τ sig (Elt F)) := pre5 ++ takeOps (.of main_v26) (.of main_v28) main_call5

/-- Field 6: its table and its index column cut out and flattened, then the row lookup. -/
abbrev pre6 : List (HloOp τ sig (Elt F)) :=
  [ StableHlo.unary main_arg2 main_v30 ((extractStridedSlice S1x1000x128 ![6, 0, 0] · slices_S26x1000x128_S1x1000x128_6_0_0) : (⟨S26x1000x128, .f32⟩ : BufTy).Contents (Elt F) → (⟨S1x1000x128, .f32⟩ : BufTy).Contents (Elt F)),
    StableHlo.reshape main_v30 main_v31 rfl shapeCasts_S1x1000x128_S1000x128,
    StableHlo.unary main_arg0 main_v32 ((extractStridedSlice S4096x1 ![0, 6] · slices_S4096x26_S4096x1_0_6) : (⟨S4096x26, .i32⟩ : BufTy).Contents (Elt F) → (⟨S4096x1, .i32⟩ : BufTy).Contents (Elt F)),
    StableHlo.reshape main_v32 main_v33 rfl shapeCasts_S4096x1_S4096 ]
def blk6 : List (HloOp τ sig (Elt F)) := pre6 ++ takeOps (.of main_v31) (.of main_v33) main_call6

/-- Field 7: its table and its index column cut out and flattened, then the row lookup. -/
abbrev pre7 : List (HloOp τ sig (Elt F)) :=
  [ StableHlo.unary main_arg2 main_v35 ((extractStridedSlice S1x1000x128 ![7, 0, 0] · slices_S26x1000x128_S1x1000x128_7_0_0) : (⟨S26x1000x128, .f32⟩ : BufTy).Contents (Elt F) → (⟨S1x1000x128, .f32⟩ : BufTy).Contents (Elt F)),
    StableHlo.reshape main_v35 main_v36 rfl shapeCasts_S1x1000x128_S1000x128,
    StableHlo.unary main_arg0 main_v37 ((extractStridedSlice S4096x1 ![0, 7] · slices_S4096x26_S4096x1_0_7) : (⟨S4096x26, .i32⟩ : BufTy).Contents (Elt F) → (⟨S4096x1, .i32⟩ : BufTy).Contents (Elt F)),
    StableHlo.reshape main_v37 main_v38 rfl shapeCasts_S4096x1_S4096 ]
def blk7 : List (HloOp τ sig (Elt F)) := pre7 ++ takeOps (.of main_v36) (.of main_v38) main_call7

/-- Field 8: its table and its index column cut out and flattened, then the row lookup. -/
abbrev pre8 : List (HloOp τ sig (Elt F)) :=
  [ StableHlo.unary main_arg2 main_v40 ((extractStridedSlice S1x1000x128 ![8, 0, 0] · slices_S26x1000x128_S1x1000x128_8_0_0) : (⟨S26x1000x128, .f32⟩ : BufTy).Contents (Elt F) → (⟨S1x1000x128, .f32⟩ : BufTy).Contents (Elt F)),
    StableHlo.reshape main_v40 main_v41 rfl shapeCasts_S1x1000x128_S1000x128,
    StableHlo.unary main_arg0 main_v42 ((extractStridedSlice S4096x1 ![0, 8] · slices_S4096x26_S4096x1_0_8) : (⟨S4096x26, .i32⟩ : BufTy).Contents (Elt F) → (⟨S4096x1, .i32⟩ : BufTy).Contents (Elt F)),
    StableHlo.reshape main_v42 main_v43 rfl shapeCasts_S4096x1_S4096 ]
def blk8 : List (HloOp τ sig (Elt F)) := pre8 ++ takeOps (.of main_v41) (.of main_v43) main_call8

/-- Field 9: its table and its index column cut out and flattened, then the row lookup. -/
abbrev pre9 : List (HloOp τ sig (Elt F)) :=
  [ StableHlo.unary main_arg2 main_v45 ((extractStridedSlice S1x1000x128 ![9, 0, 0] · slices_S26x1000x128_S1x1000x128_9_0_0) : (⟨S26x1000x128, .f32⟩ : BufTy).Contents (Elt F) → (⟨S1x1000x128, .f32⟩ : BufTy).Contents (Elt F)),
    StableHlo.reshape main_v45 main_v46 rfl shapeCasts_S1x1000x128_S1000x128,
    StableHlo.unary main_arg0 main_v47 ((extractStridedSlice S4096x1 ![0, 9] · slices_S4096x26_S4096x1_0_9) : (⟨S4096x26, .i32⟩ : BufTy).Contents (Elt F) → (⟨S4096x1, .i32⟩ : BufTy).Contents (Elt F)),
    StableHlo.reshape main_v47 main_v48 rfl shapeCasts_S4096x1_S4096 ]
def blk9 : List (HloOp τ sig (Elt F)) := pre9 ++ takeOps (.of main_v46) (.of main_v48) main_call9

/-- Field 10: its table and its index column cut out and flattened, then the row lookup. -/
abbrev pre10 : List (HloOp τ sig (Elt F)) :=
  [ StableHlo.unary main_arg2 main_v50 ((extractStridedSlice S1x1000x128 ![10, 0, 0] · slices_S26x1000x128_S1x1000x128_10_0_0) : (⟨S26x1000x128, .f32⟩ : BufTy).Contents (Elt F) → (⟨S1x1000x128, .f32⟩ : BufTy).Contents (Elt F)),
    StableHlo.reshape main_v50 main_v51 rfl shapeCasts_S1x1000x128_S1000x128,
    StableHlo.unary main_arg0 main_v52 ((extractStridedSlice S4096x1 ![0, 10] · slices_S4096x26_S4096x1_0_10) : (⟨S4096x26, .i32⟩ : BufTy).Contents (Elt F) → (⟨S4096x1, .i32⟩ : BufTy).Contents (Elt F)),
    StableHlo.reshape main_v52 main_v53 rfl shapeCasts_S4096x1_S4096 ]
def blk10 : List (HloOp τ sig (Elt F)) := pre10 ++ takeOps (.of main_v51) (.of main_v53) main_call10

/-- Field 11: its table and its index column cut out and flattened, then the row lookup. -/
abbrev pre11 : List (HloOp τ sig (Elt F)) :=
  [ StableHlo.unary main_arg2 main_v55 ((extractStridedSlice S1x1000x128 ![11, 0, 0] · slices_S26x1000x128_S1x1000x128_11_0_0) : (⟨S26x1000x128, .f32⟩ : BufTy).Contents (Elt F) → (⟨S1x1000x128, .f32⟩ : BufTy).Contents (Elt F)),
    StableHlo.reshape main_v55 main_v56 rfl shapeCasts_S1x1000x128_S1000x128,
    StableHlo.unary main_arg0 main_v57 ((extractStridedSlice S4096x1 ![0, 11] · slices_S4096x26_S4096x1_0_11) : (⟨S4096x26, .i32⟩ : BufTy).Contents (Elt F) → (⟨S4096x1, .i32⟩ : BufTy).Contents (Elt F)),
    StableHlo.reshape main_v57 main_v58 rfl shapeCasts_S4096x1_S4096 ]
def blk11 : List (HloOp τ sig (Elt F)) := pre11 ++ takeOps (.of main_v56) (.of main_v58) main_call11

/-- Field 12: its table and its index column cut out and flattened, then the row lookup. -/
abbrev pre12 : List (HloOp τ sig (Elt F)) :=
  [ StableHlo.unary main_arg2 main_v60 ((extractStridedSlice S1x1000x128 ![12, 0, 0] · slices_S26x1000x128_S1x1000x128_12_0_0) : (⟨S26x1000x128, .f32⟩ : BufTy).Contents (Elt F) → (⟨S1x1000x128, .f32⟩ : BufTy).Contents (Elt F)),
    StableHlo.reshape main_v60 main_v61 rfl shapeCasts_S1x1000x128_S1000x128,
    StableHlo.unary main_arg0 main_v62 ((extractStridedSlice S4096x1 ![0, 12] · slices_S4096x26_S4096x1_0_12) : (⟨S4096x26, .i32⟩ : BufTy).Contents (Elt F) → (⟨S4096x1, .i32⟩ : BufTy).Contents (Elt F)),
    StableHlo.reshape main_v62 main_v63 rfl shapeCasts_S4096x1_S4096 ]
def blk12 : List (HloOp τ sig (Elt F)) := pre12 ++ takeOps (.of main_v61) (.of main_v63) main_call12

/-- Field 13: its table and its index column cut out and flattened, then the row lookup. -/
abbrev pre13 : List (HloOp τ sig (Elt F)) :=
  [ StableHlo.unary main_arg2 main_v65 ((extractStridedSlice S1x1000x128 ![13, 0, 0] · slices_S26x1000x128_S1x1000x128_13_0_0) : (⟨S26x1000x128, .f32⟩ : BufTy).Contents (Elt F) → (⟨S1x1000x128, .f32⟩ : BufTy).Contents (Elt F)),
    StableHlo.reshape main_v65 main_v66 rfl shapeCasts_S1x1000x128_S1000x128,
    StableHlo.unary main_arg0 main_v67 ((extractStridedSlice S4096x1 ![0, 13] · slices_S4096x26_S4096x1_0_13) : (⟨S4096x26, .i32⟩ : BufTy).Contents (Elt F) → (⟨S4096x1, .i32⟩ : BufTy).Contents (Elt F)),
    StableHlo.reshape main_v67 main_v68 rfl shapeCasts_S4096x1_S4096 ]
def blk13 : List (HloOp τ sig (Elt F)) := pre13 ++ takeOps (.of main_v66) (.of main_v68) main_call13

/-- Field 14: its table and its index column cut out and flattened, then the row lookup. -/
abbrev pre14 : List (HloOp τ sig (Elt F)) :=
  [ StableHlo.unary main_arg2 main_v70 ((extractStridedSlice S1x1000x128 ![14, 0, 0] · slices_S26x1000x128_S1x1000x128_14_0_0) : (⟨S26x1000x128, .f32⟩ : BufTy).Contents (Elt F) → (⟨S1x1000x128, .f32⟩ : BufTy).Contents (Elt F)),
    StableHlo.reshape main_v70 main_v71 rfl shapeCasts_S1x1000x128_S1000x128,
    StableHlo.unary main_arg0 main_v72 ((extractStridedSlice S4096x1 ![0, 14] · slices_S4096x26_S4096x1_0_14) : (⟨S4096x26, .i32⟩ : BufTy).Contents (Elt F) → (⟨S4096x1, .i32⟩ : BufTy).Contents (Elt F)),
    StableHlo.reshape main_v72 main_v73 rfl shapeCasts_S4096x1_S4096 ]
def blk14 : List (HloOp τ sig (Elt F)) := pre14 ++ takeOps (.of main_v71) (.of main_v73) main_call14

/-- Field 15: its table and its index column cut out and flattened, then the row lookup. -/
abbrev pre15 : List (HloOp τ sig (Elt F)) :=
  [ StableHlo.unary main_arg2 main_v75 ((extractStridedSlice S1x1000x128 ![15, 0, 0] · slices_S26x1000x128_S1x1000x128_15_0_0) : (⟨S26x1000x128, .f32⟩ : BufTy).Contents (Elt F) → (⟨S1x1000x128, .f32⟩ : BufTy).Contents (Elt F)),
    StableHlo.reshape main_v75 main_v76 rfl shapeCasts_S1x1000x128_S1000x128,
    StableHlo.unary main_arg0 main_v77 ((extractStridedSlice S4096x1 ![0, 15] · slices_S4096x26_S4096x1_0_15) : (⟨S4096x26, .i32⟩ : BufTy).Contents (Elt F) → (⟨S4096x1, .i32⟩ : BufTy).Contents (Elt F)),
    StableHlo.reshape main_v77 main_v78 rfl shapeCasts_S4096x1_S4096 ]
def blk15 : List (HloOp τ sig (Elt F)) := pre15 ++ takeOps (.of main_v76) (.of main_v78) main_call15

/-- Field 16: its table and its index column cut out and flattened, then the row lookup. -/
abbrev pre16 : List (HloOp τ sig (Elt F)) :=
  [ StableHlo.unary main_arg2 main_v80 ((extractStridedSlice S1x1000x128 ![16, 0, 0] · slices_S26x1000x128_S1x1000x128_16_0_0) : (⟨S26x1000x128, .f32⟩ : BufTy).Contents (Elt F) → (⟨S1x1000x128, .f32⟩ : BufTy).Contents (Elt F)),
    StableHlo.reshape main_v80 main_v81 rfl shapeCasts_S1x1000x128_S1000x128,
    StableHlo.unary main_arg0 main_v82 ((extractStridedSlice S4096x1 ![0, 16] · slices_S4096x26_S4096x1_0_16) : (⟨S4096x26, .i32⟩ : BufTy).Contents (Elt F) → (⟨S4096x1, .i32⟩ : BufTy).Contents (Elt F)),
    StableHlo.reshape main_v82 main_v83 rfl shapeCasts_S4096x1_S4096 ]
def blk16 : List (HloOp τ sig (Elt F)) := pre16 ++ takeOps (.of main_v81) (.of main_v83) main_call16

/-- Field 17: its table and its index column cut out and flattened, then the row lookup. -/
abbrev pre17 : List (HloOp τ sig (Elt F)) :=
  [ StableHlo.unary main_arg2 main_v85 ((extractStridedSlice S1x1000x128 ![17, 0, 0] · slices_S26x1000x128_S1x1000x128_17_0_0) : (⟨S26x1000x128, .f32⟩ : BufTy).Contents (Elt F) → (⟨S1x1000x128, .f32⟩ : BufTy).Contents (Elt F)),
    StableHlo.reshape main_v85 main_v86 rfl shapeCasts_S1x1000x128_S1000x128,
    StableHlo.unary main_arg0 main_v87 ((extractStridedSlice S4096x1 ![0, 17] · slices_S4096x26_S4096x1_0_17) : (⟨S4096x26, .i32⟩ : BufTy).Contents (Elt F) → (⟨S4096x1, .i32⟩ : BufTy).Contents (Elt F)),
    StableHlo.reshape main_v87 main_v88 rfl shapeCasts_S4096x1_S4096 ]
def blk17 : List (HloOp τ sig (Elt F)) := pre17 ++ takeOps (.of main_v86) (.of main_v88) main_call17

/-- Field 18: its table and its index column cut out and flattened, then the row lookup. -/
abbrev pre18 : List (HloOp τ sig (Elt F)) :=
  [ StableHlo.unary main_arg2 main_v90 ((extractStridedSlice S1x1000x128 ![18, 0, 0] · slices_S26x1000x128_S1x1000x128_18_0_0) : (⟨S26x1000x128, .f32⟩ : BufTy).Contents (Elt F) → (⟨S1x1000x128, .f32⟩ : BufTy).Contents (Elt F)),
    StableHlo.reshape main_v90 main_v91 rfl shapeCasts_S1x1000x128_S1000x128,
    StableHlo.unary main_arg0 main_v92 ((extractStridedSlice S4096x1 ![0, 18] · slices_S4096x26_S4096x1_0_18) : (⟨S4096x26, .i32⟩ : BufTy).Contents (Elt F) → (⟨S4096x1, .i32⟩ : BufTy).Contents (Elt F)),
    StableHlo.reshape main_v92 main_v93 rfl shapeCasts_S4096x1_S4096 ]
def blk18 : List (HloOp τ sig (Elt F)) := pre18 ++ takeOps (.of main_v91) (.of main_v93) main_call18

/-- Field 19: its table and its index column cut out and flattened, then the row lookup. -/
abbrev pre19 : List (HloOp τ sig (Elt F)) :=
  [ StableHlo.unary main_arg2 main_v95 ((extractStridedSlice S1x1000x128 ![19, 0, 0] · slices_S26x1000x128_S1x1000x128_19_0_0) : (⟨S26x1000x128, .f32⟩ : BufTy).Contents (Elt F) → (⟨S1x1000x128, .f32⟩ : BufTy).Contents (Elt F)),
    StableHlo.reshape main_v95 main_v96 rfl shapeCasts_S1x1000x128_S1000x128,
    StableHlo.unary main_arg0 main_v97 ((extractStridedSlice S4096x1 ![0, 19] · slices_S4096x26_S4096x1_0_19) : (⟨S4096x26, .i32⟩ : BufTy).Contents (Elt F) → (⟨S4096x1, .i32⟩ : BufTy).Contents (Elt F)),
    StableHlo.reshape main_v97 main_v98 rfl shapeCasts_S4096x1_S4096 ]
def blk19 : List (HloOp τ sig (Elt F)) := pre19 ++ takeOps (.of main_v96) (.of main_v98) main_call19

/-- Field 20: its table and its index column cut out and flattened, then the row lookup. -/
abbrev pre20 : List (HloOp τ sig (Elt F)) :=
  [ StableHlo.unary main_arg2 main_v100 ((extractStridedSlice S1x1000x128 ![20, 0, 0] · slices_S26x1000x128_S1x1000x128_20_0_0) : (⟨S26x1000x128, .f32⟩ : BufTy).Contents (Elt F) → (⟨S1x1000x128, .f32⟩ : BufTy).Contents (Elt F)),
    StableHlo.reshape main_v100 main_v101 rfl shapeCasts_S1x1000x128_S1000x128,
    StableHlo.unary main_arg0 main_v102 ((extractStridedSlice S4096x1 ![0, 20] · slices_S4096x26_S4096x1_0_20) : (⟨S4096x26, .i32⟩ : BufTy).Contents (Elt F) → (⟨S4096x1, .i32⟩ : BufTy).Contents (Elt F)),
    StableHlo.reshape main_v102 main_v103 rfl shapeCasts_S4096x1_S4096 ]
def blk20 : List (HloOp τ sig (Elt F)) := pre20 ++ takeOps (.of main_v101) (.of main_v103) main_call20

/-- Field 21: its table and its index column cut out and flattened, then the row lookup. -/
abbrev pre21 : List (HloOp τ sig (Elt F)) :=
  [ StableHlo.unary main_arg2 main_v105 ((extractStridedSlice S1x1000x128 ![21, 0, 0] · slices_S26x1000x128_S1x1000x128_21_0_0) : (⟨S26x1000x128, .f32⟩ : BufTy).Contents (Elt F) → (⟨S1x1000x128, .f32⟩ : BufTy).Contents (Elt F)),
    StableHlo.reshape main_v105 main_v106 rfl shapeCasts_S1x1000x128_S1000x128,
    StableHlo.unary main_arg0 main_v107 ((extractStridedSlice S4096x1 ![0, 21] · slices_S4096x26_S4096x1_0_21) : (⟨S4096x26, .i32⟩ : BufTy).Contents (Elt F) → (⟨S4096x1, .i32⟩ : BufTy).Contents (Elt F)),
    StableHlo.reshape main_v107 main_v108 rfl shapeCasts_S4096x1_S4096 ]
def blk21 : List (HloOp τ sig (Elt F)) := pre21 ++ takeOps (.of main_v106) (.of main_v108) main_call21

/-- Field 22: its table and its index column cut out and flattened, then the row lookup. -/
abbrev pre22 : List (HloOp τ sig (Elt F)) :=
  [ StableHlo.unary main_arg2 main_v110 ((extractStridedSlice S1x1000x128 ![22, 0, 0] · slices_S26x1000x128_S1x1000x128_22_0_0) : (⟨S26x1000x128, .f32⟩ : BufTy).Contents (Elt F) → (⟨S1x1000x128, .f32⟩ : BufTy).Contents (Elt F)),
    StableHlo.reshape main_v110 main_v111 rfl shapeCasts_S1x1000x128_S1000x128,
    StableHlo.unary main_arg0 main_v112 ((extractStridedSlice S4096x1 ![0, 22] · slices_S4096x26_S4096x1_0_22) : (⟨S4096x26, .i32⟩ : BufTy).Contents (Elt F) → (⟨S4096x1, .i32⟩ : BufTy).Contents (Elt F)),
    StableHlo.reshape main_v112 main_v113 rfl shapeCasts_S4096x1_S4096 ]
def blk22 : List (HloOp τ sig (Elt F)) := pre22 ++ takeOps (.of main_v111) (.of main_v113) main_call22

/-- Field 23: its table and its index column cut out and flattened, then the row lookup. -/
abbrev pre23 : List (HloOp τ sig (Elt F)) :=
  [ StableHlo.unary main_arg2 main_v115 ((extractStridedSlice S1x1000x128 ![23, 0, 0] · slices_S26x1000x128_S1x1000x128_23_0_0) : (⟨S26x1000x128, .f32⟩ : BufTy).Contents (Elt F) → (⟨S1x1000x128, .f32⟩ : BufTy).Contents (Elt F)),
    StableHlo.reshape main_v115 main_v116 rfl shapeCasts_S1x1000x128_S1000x128,
    StableHlo.unary main_arg0 main_v117 ((extractStridedSlice S4096x1 ![0, 23] · slices_S4096x26_S4096x1_0_23) : (⟨S4096x26, .i32⟩ : BufTy).Contents (Elt F) → (⟨S4096x1, .i32⟩ : BufTy).Contents (Elt F)),
    StableHlo.reshape main_v117 main_v118 rfl shapeCasts_S4096x1_S4096 ]
def blk23 : List (HloOp τ sig (Elt F)) := pre23 ++ takeOps (.of main_v116) (.of main_v118) main_call23

/-- Field 24: its table and its index column cut out and flattened, then the row lookup. -/
abbrev pre24 : List (HloOp τ sig (Elt F)) :=
  [ StableHlo.unary main_arg2 main_v120 ((extractStridedSlice S1x1000x128 ![24, 0, 0] · slices_S26x1000x128_S1x1000x128_24_0_0) : (⟨S26x1000x128, .f32⟩ : BufTy).Contents (Elt F) → (⟨S1x1000x128, .f32⟩ : BufTy).Contents (Elt F)),
    StableHlo.reshape main_v120 main_v121 rfl shapeCasts_S1x1000x128_S1000x128,
    StableHlo.unary main_arg0 main_v122 ((extractStridedSlice S4096x1 ![0, 24] · slices_S4096x26_S4096x1_0_24) : (⟨S4096x26, .i32⟩ : BufTy).Contents (Elt F) → (⟨S4096x1, .i32⟩ : BufTy).Contents (Elt F)),
    StableHlo.reshape main_v122 main_v123 rfl shapeCasts_S4096x1_S4096 ]
def blk24 : List (HloOp τ sig (Elt F)) := pre24 ++ takeOps (.of main_v121) (.of main_v123) main_call24

/-- Field 25: its table and its index column cut out and flattened, then the row lookup. -/
abbrev pre25 : List (HloOp τ sig (Elt F)) :=
  [ StableHlo.unary main_arg2 main_v125 ((extractStridedSlice S1x1000x128 ![25, 0, 0] · slices_S26x1000x128_S1x1000x128_25_0_0) : (⟨S26x1000x128, .f32⟩ : BufTy).Contents (Elt F) → (⟨S1x1000x128, .f32⟩ : BufTy).Contents (Elt F)),
    StableHlo.reshape main_v125 main_v126 rfl shapeCasts_S1x1000x128_S1000x128,
    StableHlo.unary main_arg0 main_v127 ((extractStridedSlice S4096x1 ![0, 25] · slices_S4096x26_S4096x1_0_25) : (⟨S4096x26, .i32⟩ : BufTy).Contents (Elt F) → (⟨S4096x1, .i32⟩ : BufTy).Contents (Elt F)),
    StableHlo.reshape main_v127 main_v128 rfl shapeCasts_S4096x1_S4096 ]
def blk25 : List (HloOp τ sig (Elt F)) := pre25 ++ takeOps (.of main_v126) (.of main_v128) main_call25

/-- The four concatenations that lay the 26 pieces and the numeric features side by side. -/
abbrev tailOps : List (HloOp τ sig (Elt F)) :=
  [ StableHlo.nary ![main_v4, main_v9, main_v14, main_v19, main_v24, main_v29, main_v34, main_v39, main_v44, main_v49, main_v54, main_v59, main_v64, main_v69, main_v74, main_v79] main_v130 (fun u => concatenate S4096x2048 1 [⟨S4096x128, u 0⟩, ⟨S4096x128, u 1⟩, ⟨S4096x128, u 2⟩, ⟨S4096x128, u 3⟩, ⟨S4096x128, u 4⟩, ⟨S4096x128, u 5⟩, ⟨S4096x128, u 6⟩, ⟨S4096x128, u 7⟩, ⟨S4096x128, u 8⟩, ⟨S4096x128, u 9⟩, ⟨S4096x128, u 10⟩, ⟨S4096x128, u 11⟩, ⟨S4096x128, u 12⟩, ⟨S4096x128, u 13⟩, ⟨S4096x128, u 14⟩, ⟨S4096x128, u 15⟩] concatenates_S4096x128_S4096x128_S4096x128_S4096x128_S4096x128_S4096x128_S4096x128_S4096x128_S4096x128_S4096x128_S4096x128_S4096x128_S4096x128_S4096x128_S4096x128_S4096x128_S4096x2048_d1),
    StableHlo.nary ![main_v84, main_v89, main_v94, main_v99, main_v104, main_v109, main_v114, main_v119, main_v124, main_v129] main_v131 (fun u => concatenate S4096x1280 1 [⟨S4096x128, u 0⟩, ⟨S4096x128, u 1⟩, ⟨S4096x128, u 2⟩, ⟨S4096x128, u 3⟩, ⟨S4096x128, u 4⟩, ⟨S4096x128, u 5⟩, ⟨S4096x128, u 6⟩, ⟨S4096x128, u 7⟩, ⟨S4096x128, u 8⟩, ⟨S4096x128, u 9⟩] concatenates_S4096x128_S4096x128_S4096x128_S4096x128_S4096x128_S4096x128_S4096x128_S4096x128_S4096x128_S4096x128_S4096x1280_d1),
    StableHlo.binary main_v130 main_v131 main_v132 ((fun a b => concatenate S4096x3328 1 [⟨S4096x2048, a⟩, ⟨S4096x1280, b⟩] concatenates_S4096x2048_S4096x1280_S4096x3328_d1) : (⟨S4096x2048, .f32⟩ : BufTy).Contents (Elt F) → (⟨S4096x1280, .f32⟩ : BufTy).Contents (Elt F) → (⟨S4096x3328, .f32⟩ : BufTy).Contents (Elt F)),
    StableHlo.binary main_v132 main_arg1 main_v133 ((fun a b => concatenate S4096x3341 1 [⟨S4096x3328, a⟩, ⟨S4096x13, b⟩] concatenates_S4096x3328_S4096x13_S4096x3341_d1) : (⟨S4096x3328, .f32⟩ : BufTy).Contents (Elt F) → (⟨S4096x13, .f32⟩ : BufTy).Contents (Elt F) → (⟨S4096x3341, .f32⟩ : BufTy).Contents (Elt F)) ]

/-- The first window's operations: fields 0 to 11. -/
def ops0 : List (HloOp τ sig (Elt F)) := List.flatten [blk0, blk1, blk2, blk3, blk4, blk5, blk6, blk7, blk8, blk9, blk10, blk11]
/-- The second window's operations: fields 12 to 23. -/
def ops1 : List (HloOp τ sig (Elt F)) := List.flatten [blk12, blk13, blk14, blk15, blk16, blk17, blk18, blk19, blk20, blk21, blk22, blk23]
/-- The third window's operations: fields 24 and 25, then the concatenations. -/
def ops2 : List (HloOp τ sig (Elt F)) := List.flatten [blk24, blk25, tailOps]
/-- All of the program's operations, in order. -/
def ops : List (HloOp τ sig (Elt F)) := ops0 ++ (ops1 ++ ops2)

set_option maxRecDepth 4096 in
theorem part0_eq (c : Dev nD) : main_part0 (F := F) c = seq ops0 := by
  simp only [main_part0, take_eq, ops0, blk0, blk1, blk2, blk3, blk4, blk5, blk6, blk7, blk8, blk9, blk10, blk11, List.flatten_cons, List.flatten_nil, List.append_nil,
    List.cons_append, List.nil_append, seq_append, seq, bind_assoc, pure_bind]

set_option maxRecDepth 4096 in
theorem part1_eq (c : Dev nD) : main_part1 (F := F) c = seq ops1 := by
  simp only [main_part1, take_eq, ops1, blk12, blk13, blk14, blk15, blk16, blk17, blk18, blk19, blk20, blk21, blk22, blk23, List.flatten_cons, List.flatten_nil, List.append_nil,
    List.cons_append, List.nil_append, seq_append, seq, bind_assoc, pure_bind]

set_option maxRecDepth 4096 in
theorem part2_eq (c : Dev nD) : main_part2 (F := F) c = seq ops2 := by
  simp only [main_part2, take_eq, ops2, blk24, blk25, List.flatten_cons, List.flatten_nil, List.append_nil,
    List.cons_append, List.nil_append, seq_append, seq, bind_assoc, pure_bind]

/-- The program is the straight line of its operations. -/
theorem main_eq (c : Dev nD) : main (F := F) c = seq ops := by
  simp only [main, ops, part0_eq, part1_eq, part2_eq, seq_append, bind_assoc]

end Cert.RefSide
end
-- ==== Proof.RefTake.lean ====
/-
  What the run and the value proofs use of a call of the row-lookup function, for any call: its operations touch
  TensorCore buffers only and allocate nothing, the buffers it writes, and that a buffer it does not write keeps its
  contents; and the pure terms the operations compose to: one field's lookup (`fieldTerm`) and the whole result
  (`refTerm`).
-/
import proofs.«201888_g37099927503118_cont_8to1_b_213_13_alg».proof.Proof.RefOps
import proofs.«201888_g37099927503118_cont_8to1_b_213_13_alg».proof.Proof.Spec
import Idealize.ShloMosaic.Lib.StableHlo.Run
import Idealize.ShloMosaic.Lib.Pipeline.Frame

noncomputable section

namespace Cert.RefSide

open Cert.ReferenceIdeal Idealize.ShloMosaic Idealize.ShloMosaic.TcCoe Idealize.SL.Sem Idealize.ShloMosaic.StableHlo
open Cert.ReferenceIdeal.Facts₀

variable {F : FTy → Type} [FloatOps F]

/-- The buffers one call of the row-lookup function writes, in order. -/
def takeW (φ : fn_take.Bufs) : List (Ref sig .tc) :=
  [φ.c.ref, φ.v0.ref, φ.v1.ref, φ.c_0.ref, φ.v2.ref, φ.v3.ref, φ.call0.v0.ref, φ.v5.ref, φ.c_1.ref, φ.c_2.ref, φ.v6.ref, φ.v7.ref,
    φ.v8.ref, φ.v9.ref, φ.v10.ref, φ.v11.ref, φ.c_3.ref, φ.v12.ref, φ.v13.ref, φ.v14.ref, φ.cst.ref, φ.v15.ref, φ.v16.ref]

/-- What the run asks of a line of operations: each touches TensorCore references only and determines its results. -/
def Good (l : List (HloOp τ sig (Elt F))) : Prop := ∀ op ∈ l, op.bufs ⊆ tcRefs τ sig ∧ op.fresh = ∅

theorem Good.append {l₁ l₂ : List (HloOp τ sig (Elt F))} (h₁ : Good l₁) (h₂ : Good l₂) : Good (l₁ ++ l₂) :=
  fun op h => (List.mem_append.mp h).elim (h₁ op) (h₂ op)

theorem takeOps_good (a : TRef sig ⟨S1000x128, .f32⟩) (i : TRef sig ⟨S4096, .i32⟩) (φ : fn_take.Bufs) :
    Good (takeOps (F := F) a i φ) := by
  intro op h
  simp only [takeOps, List.mem_cons, List.not_mem_nil, or_false] at h
  rcases h with rfl | rfl | rfl | rfl | rfl | rfl | rfl | rfl | rfl | rfl | rfl | rfl | rfl | rfl | rfl | rfl | rfl | rfl | rfl | rfl | rfl | rfl | rfl <;>
    exact ⟨by simp, rfl⟩

/-- Every operation of a call writes one of the call's buffers. -/
theorem takeOps_writes (a : TRef sig ⟨S1000x128, .f32⟩) (i : TRef sig ⟨S4096, .i32⟩) (φ : fn_take.Bufs) :
    ∀ op ∈ takeOps (F := F) a i φ, op.writes ⊆ ((takeW φ).map (Proc.devRef (τ := τ) .tc)).toFinset := by
  intro op h
  simp only [takeOps, List.mem_cons, List.not_mem_nil, or_false] at h
  rcases h with rfl | rfl | rfl | rfl | rfl | rfl | rfl | rfl | rfl | rfl | rfl | rfl | rfl | rfl | rfl | rfl | rfl | rfl | rfl | rfl | rfl | rfl | rfl <;>
    (simp only [nullary_writes, unary_writes, binary_writes, ternary_writes, Finset.singleton_subset_iff, List.mem_toFinset]
     refine List.mem_map_of_mem ?_
     unfold takeW
     repeat (first | exact List.mem_cons_self | apply List.mem_cons_of_mem))

/-- The writes of two lines in a row are among the two lists of written buffers in a row. -/
theorem writes_append {l₁ l₂ : List (HloOp τ sig (Elt F))} {W₁ W₂ : List (Ref sig .tc)}
    (h₁ : ∀ op ∈ l₁, op.writes ⊆ (W₁.map (Proc.devRef (τ := τ) .tc)).toFinset)
    (h₂ : ∀ op ∈ l₂, op.writes ⊆ (W₂.map (Proc.devRef (τ := τ) .tc)).toFinset) :
    ∀ op ∈ l₁ ++ l₂, op.writes ⊆ ((W₁ ++ W₂).map (Proc.devRef (τ := τ) .tc)).toFinset := by
  intro op h
  rcases List.mem_append.mp h with h | h
  · exact (h₁ op h).trans (by intro x hx; simp only [List.map_append, List.toFinset_append, Finset.mem_union]; exact Or.inl hx)
  · exact (h₂ op h).trans (by intro x hx; simp only [List.map_append, List.toFinset_append, Finset.mem_union]; exact Or.inr hx)

/-- A buffer outside a list holding everything a line writes keeps its contents through the line. -/
theorem keep_of_writes {l : List (HloOp τ sig (Elt F))} {W : List (Ref sig .tc)}
    (h : ∀ op ∈ l, op.writes ⊆ (W.map (Proc.devRef (τ := τ) .tc)).toFinset) (V : Valuation τ sig (Elt F)) (r : Ref sig .tc) (hr : r ∉ W) :
    after l V (Proc.devRef .tc r) = V (Proc.devRef .tc r) :=
  after_of_writes_sub l V (List.forall_iff_forall_mem.mpr h) hr

/-- The buffers after two lines in a row. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- The row index made non-negative: a negative index counts from the end of the table. -/
def idxFix (idx : (⟨S4096, .i32⟩ : BufTy).Contents (Elt F)) : (⟨S4096, .i32⟩ : BufTy).Contents (Elt F) :=
  select (cmpi .slt idx (broadcastInDim S4096 ![] bcast_S_S4096 (constantI S_ 32 0#32)))
    (addi idx (broadcastInDim S4096 ![] bcast_S_S4096 (constantI S_ 32 1000#32))) idx

/-- The row indices as a column of start indices. -/
def idxCol (idx : (⟨S4096, .i32⟩ : BufTy).Contents (Elt F)) : (⟨S4096x1, .i32⟩ : BufTy).Contents (Elt F) :=
  broadcastInDim S4096x1 ![0] bcast_S4096_S4096x1_0 (idxFix (F := F) idx)

/-- Whether each row index lies in `[0, 999]`. -/
def idxMask (idx : (⟨S4096, .i32⟩ : BufTy).Contents (Elt F)) : (⟨S4096, .i1⟩ : BufTy).Contents (Elt F) :=
  Host.reduce IntOp.andi
    (andi (cmpi .sge (idxCol (F := F) idx) (broadcastInDim S4096x1 ![] bcast_S_S4096x1 (constantI S_ 32 0#32)))
      (cmpi .sle (idxCol (F := F) idx) (broadcastInDim S4096x1 ![0, 1] bcast_S1x1_S4096x1_0_1
        (broadcastInDim S1x1 ![1] bcast_S1_S1x1_1 (constantI S1 32 999#32)))))
    (constantI S_ 1 1#1) reducesTo_S4096x1_S4096_d1 h_S_

/-- One table's rows looked up at the row indices; a row whose index is out of range is all NaN. -/
def takeFn (tab : (⟨S1000x128, .f32⟩ : BufTy).Contents (Elt F)) (idx : (⟨S4096, .i32⟩ : BufTy).Contents (Elt F)) :
    (⟨S4096x128, .f32⟩ : BufTy).Contents (Elt F) :=
  select (broadcastInDim S4096x128 ![0] bcast_S4096_S4096x128_0 (idxMask (F := F) idx))
    (Host.gather gather_S1000x128_S4096x1_S4096x128_1_0_n_n_0_1_1128 tab (idxCol (F := F) idx))
    (broadcastInDim S4096x128 ![] bcast_S_S4096x128 (constant S_ .f32 0x7FC00000#32))

theorem slicesTab (f : Nat) (hf : f < 26) : S26x1000x128.Slices ![f, 0, 0] S1x1000x128 :=
  ⟨rfl, fun a => match a with
    | ⟨0, _⟩ => by show f + 1 ≤ 26; omega
    | ⟨1, _⟩ => by show 0 + 1000 ≤ 1000; omega
    | ⟨2, _⟩ => by show 0 + 128 ≤ 128; omega⟩

theorem slicesCat (f : Nat) (hf : f < 26) : S4096x26.Slices ![0, f] S4096x1 :=
  ⟨rfl, fun a => match a with
    | ⟨0, _⟩ => by show 0 + 4096 ≤ 4096; omega
    | ⟨1, _⟩ => by show f + 1 ≤ 26; omega⟩

/-- Field `f`'s piece of the result: table `f`'s rows at column `f` of the categorical indices. -/
def fieldTerm (f : Nat) (hf : f < 26) (xc : (⟨S4096x26, .i32⟩ : BufTy).Contents (Elt F)) (tb : (⟨S26x1000x128, .f32⟩ : BufTy).Contents (Elt F)) :
    (⟨S4096x128, .f32⟩ : BufTy).Contents (Elt F) :=
  takeFn (F := F) (shapeCast S1000x128 (extractStridedSlice S1x1000x128 ![f, 0, 0] tb (slicesTab f hf)) shapeCasts_S1x1000x128_S1000x128)
    (shapeCast S4096 (extractStridedSlice S4096x1 ![0, f] xc (slicesCat f hf)) shapeCasts_S4096x1_S4096)

/-- The program's result as one pure term of the three argument arrays: the 26 pieces side by side (sixteen, then ten),
    then the numeric features. -/
def refTerm (xc : (⟨S4096x26, .i32⟩ : BufTy).Contents (Elt F)) (xn : (⟨S4096x13, .f32⟩ : BufTy).Contents (Elt F))
    (tb : (⟨S26x1000x128, .f32⟩ : BufTy).Contents (Elt F)) : (⟨S4096x3341, .f32⟩ : BufTy).Contents (Elt F) :=
  concatenate S4096x3341 1
    [⟨S4096x3328, concatenate S4096x3328 1
      [⟨S4096x2048, concatenate S4096x2048 1
        [⟨S4096x128, fieldTerm (F := F) 0 (by norm_num) xc tb⟩, ⟨S4096x128, fieldTerm (F := F) 1 (by norm_num) xc tb⟩, ⟨S4096x128, fieldTerm (F := F) 2 (by norm_num) xc tb⟩, ⟨S4096x128, fieldTerm (F := F) 3 (by norm_num) xc tb⟩, ⟨S4096x128, fieldTerm (F := F) 4 (by norm_num) xc tb⟩, ⟨S4096x128, fieldTerm (F := F) 5 (by norm_num) xc tb⟩, ⟨S4096x128, fieldTerm (F := F) 6 (by norm_num) xc tb⟩, ⟨S4096x128, fieldTerm (F := F) 7 (by norm_num) xc tb⟩, ⟨S4096x128, fieldTerm (F := F) 8 (by norm_num) xc tb⟩, ⟨S4096x128, fieldTerm (F := F) 9 (by norm_num) xc tb⟩, ⟨S4096x128, fieldTerm (F := F) 10 (by norm_num) xc tb⟩, ⟨S4096x128, fieldTerm (F := F) 11 (by norm_num) xc tb⟩, ⟨S4096x128, fieldTerm (F := F) 12 (by norm_num) xc tb⟩, ⟨S4096x128, fieldTerm (F := F) 13 (by norm_num) xc tb⟩, ⟨S4096x128, fieldTerm (F := F) 14 (by norm_num) xc tb⟩, ⟨S4096x128, fieldTerm (F := F) 15 (by norm_num) xc tb⟩]
        concatenates_S4096x128_S4096x128_S4096x128_S4096x128_S4096x128_S4096x128_S4096x128_S4096x128_S4096x128_S4096x128_S4096x128_S4096x128_S4096x128_S4096x128_S4096x128_S4096x128_S4096x2048_d1⟩,
       ⟨S4096x1280, concatenate S4096x1280 1
        [⟨S4096x128, fieldTerm (F := F) 16 (by norm_num) xc tb⟩, ⟨S4096x128, fieldTerm (F := F) 17 (by norm_num) xc tb⟩, ⟨S4096x128, fieldTerm (F := F) 18 (by norm_num) xc tb⟩, ⟨S4096x128, fieldTerm (F := F) 19 (by norm_num) xc tb⟩, ⟨S4096x128, fieldTerm (F := F) 20 (by norm_num) xc tb⟩, ⟨S4096x128, fieldTerm (F := F) 21 (by norm_num) xc tb⟩, ⟨S4096x128, fieldTerm (F := F) 22 (by norm_num) xc tb⟩, ⟨S4096x128, fieldTerm (F := F) 23 (by norm_num) xc tb⟩, ⟨S4096x128, fieldTerm (F := F) 24 (by norm_num) xc tb⟩, ⟨S4096x128, fieldTerm (F := F) 25 (by norm_num) xc tb⟩]
        concatenates_S4096x128_S4096x128_S4096x128_S4096x128_S4096x128_S4096x128_S4096x128_S4096x128_S4096x128_S4096x128_S4096x1280_d1⟩]
      concatenates_S4096x2048_S4096x1280_S4096x3328_d1⟩,
     ⟨S4096x13, xn⟩]
    concatenates_S4096x3328_S4096x13_S4096x3341_d1

end Cert.RefSide
end
-- ==== Proof.RefValA.lean ====
/-
  Fields 0 to 6, each block of five statements read back: the block's result buffer holds the field's lookup term
  of the argument arrays the block started from, every buffer outside the block's own keeps its contents, and the
  block's operations touch TensorCore buffers only.
-/
import proofs.«201888_g37099927503118_cont_8to1_b_213_13_alg».proof.Proof.RefTake
import proofs.«201888_g37099927503118_cont_8to1_b_213_13_alg».proof.Proof.Spec
import Idealize.ShloMosaic.Lib.StableHlo.Run
import Idealize.ShloMosaic.Lib.Pipeline.Frame

noncomputable section

namespace Cert.RefSide

open Cert.ReferenceIdeal Idealize.ShloMosaic Idealize.ShloMosaic.TcCoe Idealize.SL.Sem Idealize.ShloMosaic.StableHlo
open Cert.ReferenceIdeal.Facts₀

variable {F : FTy → Type} [FloatOps F]

/-! ### Field 0 -/

theorem pre0_good : Good (pre0 (F := F)) := by
  intro op h
  simp only [pre0, List.mem_cons, List.not_mem_nil, or_false] at h
  rcases h with rfl | rfl | rfl | rfl <;> exact ⟨by simp, rfl⟩

theorem blk0_good : Good (blk0 (F := F)) := Good.append pre0_good (takeOps_good _ _ _)

/-- The buffers block 0 writes. -/
abbrev W0 : List (Ref sig .tc) := ([main_v0, main_v1, main_v2, main_v3] : List (Ref sig .tc)) ++ takeW main_call0

theorem pre0_writes : ∀ op ∈ pre0 (F := F), op.writes ⊆ (([main_v0, main_v1, main_v2, main_v3] : List (Ref sig .tc)).map (Proc.devRef (τ := τ) .tc)).toFinset := by
  intro op h
  simp only [pre0, List.mem_cons, List.not_mem_nil, or_false] at h
  rcases h with rfl | rfl | rfl | rfl <;>
    (simp only [unary_writes, reshape_writes, Finset.singleton_subset_iff, List.mem_toFinset]
     refine List.mem_map_of_mem ?_
     repeat (first | exact List.mem_cons_self | apply List.mem_cons_of_mem))

theorem blk0_keep (V : Valuation τ sig (Elt F)) (r : Ref sig .tc) (h : r ∉ W0) :
    after blk0 V (Proc.devRef .tc r) = V (Proc.devRef .tc r) :=
  keep_of_writes (writes_append pre0_writes (takeOps_writes _ _ _)) V r h

set_option maxHeartbeats 1000000 in
theorem blk0_res (V : Valuation τ sig (Elt F)) :
    after blk0 V (Proc.devRef .tc main_v4)
      = fieldTerm 0 (by norm_num) (V (Proc.devRef .tc main_arg0)) (V (Proc.devRef .tc main_arg2)) := by
  simp only [blk0, pre0, takeOps, List.cons_append, List.nil_append]
  after_results_simp
  rfl

/-! ### Field 1 -/

theorem pre1_good : Good (pre1 (F := F)) := by
  intro op h
  simp only [pre1, List.mem_cons, List.not_mem_nil, or_false] at h
  rcases h with rfl | rfl | rfl | rfl <;> exact ⟨by simp, rfl⟩

theorem blk1_good : Good (blk1 (F := F)) := Good.append pre1_good (takeOps_good _ _ _)

/-- The buffers block 1 writes. -/
abbrev W1 : List (Ref sig .tc) := ([main_v5, main_v6, main_v7, main_v8] : List (Ref sig .tc)) ++ takeW main_call1

theorem pre1_writes : ∀ op ∈ pre1 (F := F), op.writes ⊆ (([main_v5, main_v6, main_v7, main_v8] : List (Ref sig .tc)).map (Proc.devRef (τ := τ) .tc)).toFinset := by
  intro op h
  simp only [pre1, List.mem_cons, List.not_mem_nil, or_false] at h
  rcases h with rfl | rfl | rfl | rfl <;>
    (simp only [unary_writes, reshape_writes, Finset.singleton_subset_iff, List.mem_toFinset]
     refine List.mem_map_of_mem ?_
     repeat (first | exact List.mem_cons_self | apply List.mem_cons_of_mem))

theorem blk1_keep (V : Valuation τ sig (Elt F)) (r : Ref sig .tc) (h : r ∉ W1) :
    after blk1 V (Proc.devRef .tc r) = V (Proc.devRef .tc r) :=
  keep_of_writes (writes_append pre1_writes (takeOps_writes _ _ _)) V r h

set_option maxHeartbeats 1000000 in
theorem blk1_res (V : Valuation τ sig (Elt F)) :
    after blk1 V (Proc.devRef .tc main_v9)
      = fieldTerm 1 (by norm_num) (V (Proc.devRef .tc main_arg0)) (V (Proc.devRef .tc main_arg2)) := by
  simp only [blk1, pre1, takeOps, List.cons_append, List.nil_append]
  after_results_simp
  rfl

/-! ### Field 2 -/

theorem pre2_good : Good (pre2 (F := F)) := by
  intro op h
  simp only [pre2, List.mem_cons, List.not_mem_nil, or_false] at h
  rcases h with rfl | rfl | rfl | rfl <;> exact ⟨by simp, rfl⟩

theorem blk2_good : Good (blk2 (F := F)) := Good.append pre2_good (takeOps_good _ _ _)

/-- The buffers block 2 writes. -/
abbrev W2 : List (Ref sig .tc) := ([main_v10, main_v11, main_v12, main_v13] : List (Ref sig .tc)) ++ takeW main_call2

theorem pre2_writes : ∀ op ∈ pre2 (F := F), op.writes ⊆ (([main_v10, main_v11, main_v12, main_v13] : List (Ref sig .tc)).map (Proc.devRef (τ := τ) .tc)).toFinset := by
  intro op h
  simp only [pre2, List.mem_cons, List.not_mem_nil, or_false] at h
  rcases h with rfl | rfl | rfl | rfl <;>
    (simp only [unary_writes, reshape_writes, Finset.singleton_subset_iff, List.mem_toFinset]
     refine List.mem_map_of_mem ?_
     repeat (first | exact List.mem_cons_self | apply List.mem_cons_of_mem))

theorem blk2_keep (V : Valuation τ sig (Elt F)) (r : Ref sig .tc) (h : r ∉ W2) :
    after blk2 V (Proc.devRef .tc r) = V (Proc.devRef .tc r) :=
  keep_of_writes (writes_append pre2_writes (takeOps_writes _ _ _)) V r h

set_option maxHeartbeats 1000000 in
theorem blk2_res (V : Valuation τ sig (Elt F)) :
    after blk2 V (Proc.devRef .tc main_v14)
      = fieldTerm 2 (by norm_num) (V (Proc.devRef .tc main_arg0)) (V (Proc.devRef .tc main_arg2)) := by
  simp only [blk2, pre2, takeOps, List.cons_append, List.nil_append]
  after_results_simp
  rfl

/-! ### Field 3 -/

theorem pre3_good : Good (pre3 (F := F)) := by
  intro op h
  simp only [pre3, List.mem_cons, List.not_mem_nil, or_false] at h
  rcases h with rfl | rfl | rfl | rfl <;> exact ⟨by simp, rfl⟩

theorem blk3_good : Good (blk3 (F := F)) := Good.append pre3_good (takeOps_good _ _ _)

/-- The buffers block 3 writes. -/
abbrev W3 : List (Ref sig .tc) := ([main_v15, main_v16, main_v17, main_v18] : List (Ref sig .tc)) ++ takeW main_call3

theorem pre3_writes : ∀ op ∈ pre3 (F := F), op.writes ⊆ (([main_v15, main_v16, main_v17, main_v18] : List (Ref sig .tc)).map (Proc.devRef (τ := τ) .tc)).toFinset := by
  intro op h
  simp only [pre3, List.mem_cons, List.not_mem_nil, or_false] at h
  rcases h with rfl | rfl | rfl | rfl <;>
    (simp only [unary_writes, reshape_writes, Finset.singleton_subset_iff, List.mem_toFinset]
     refine List.mem_map_of_mem ?_
     repeat (first | exact List.mem_cons_self | apply List.mem_cons_of_mem))

theorem blk3_keep (V : Valuation τ sig (Elt F)) (r : Ref sig .tc) (h : r ∉ W3) :
    after blk3 V (Proc.devRef .tc r) = V (Proc.devRef .tc r) :=
  keep_of_writes (writes_append pre3_writes (takeOps_writes _ _ _)) V r h

set_option maxHeartbeats 1000000 in
theorem blk3_res (V : Valuation τ sig (Elt F)) :
    after blk3 V (Proc.devRef .tc main_v19)
      = fieldTerm 3 (by norm_num) (V (Proc.devRef .tc main_arg0)) (V (Proc.devRef .tc main_arg2)) := by
  simp only [blk3, pre3, takeOps, List.cons_append, List.nil_append]
  after_results_simp
  rfl

/-! ### Field 4 -/

theorem pre4_good : Good (pre4 (F := F)) := by
  intro op h
  simp only [pre4, List.mem_cons, List.not_mem_nil, or_false] at h
  rcases h with rfl | rfl | rfl | rfl <;> exact ⟨by simp, rfl⟩

theorem blk4_good : Good (blk4 (F := F)) := Good.append pre4_good (takeOps_good _ _ _)

/-- The buffers block 4 writes. -/
abbrev W4 : List (Ref sig .tc) := ([main_v20, main_v21, main_v22, main_v23] : List (Ref sig .tc)) ++ takeW main_call4

theorem pre4_writes : ∀ op ∈ pre4 (F := F), op.writes ⊆ (([main_v20, main_v21, main_v22, main_v23] : List (Ref sig .tc)).map (Proc.devRef (τ := τ) .tc)).toFinset := by
  intro op h
  simp only [pre4, List.mem_cons, List.not_mem_nil, or_false] at h
  rcases h with rfl | rfl | rfl | rfl <;>
    (simp only [unary_writes, reshape_writes, Finset.singleton_subset_iff, List.mem_toFinset]
     refine List.mem_map_of_mem ?_
     repeat (first | exact List.mem_cons_self | apply List.mem_cons_of_mem))

theorem blk4_keep (V : Valuation τ sig (Elt F)) (r : Ref sig .tc) (h : r ∉ W4) :
    after blk4 V (Proc.devRef .tc r) = V (Proc.devRef .tc r) :=
  keep_of_writes (writes_append pre4_writes (takeOps_writes _ _ _)) V r h

set_option maxHeartbeats 1000000 in
theorem blk4_res (V : Valuation τ sig (Elt F)) :
    after blk4 V (Proc.devRef .tc main_v24)
      = fieldTerm 4 (by norm_num) (V (Proc.devRef .tc main_arg0)) (V (Proc.devRef .tc main_arg2)) := by
  simp only [blk4, pre4, takeOps, List.cons_append, List.nil_append]
  after_results_simp
  rfl

/-! ### Field 5 -/

theorem pre5_good : Good (pre5 (F := F)) := by
  intro op h
  simp only [pre5, List.mem_cons, List.not_mem_nil, or_false] at h
  rcases h with rfl | rfl | rfl | rfl <;> exact ⟨by simp, rfl⟩

theorem blk5_good : Good (blk5 (F := F)) := Good.append pre5_good (takeOps_good _ _ _)

/-- The buffers block 5 writes. -/
abbrev W5 : List (Ref sig .tc) := ([main_v25, main_v26, main_v27, main_v28] : List (Ref sig .tc)) ++ takeW main_call5

theorem pre5_writes : ∀ op ∈ pre5 (F := F), op.writes ⊆ (([main_v25, main_v26, main_v27, main_v28] : List (Ref sig .tc)).map (Proc.devRef (τ := τ) .tc)).toFinset := by
  intro op h
  simp only [pre5, List.mem_cons, List.not_mem_nil, or_false] at h
  rcases h with rfl | rfl | rfl | rfl <;>
    (simp only [unary_writes, reshape_writes, Finset.singleton_subset_iff, List.mem_toFinset]
     refine List.mem_map_of_mem ?_
     repeat (first | exact List.mem_cons_self | apply List.mem_cons_of_mem))

theorem blk5_keep (V : Valuation τ sig (Elt F)) (r : Ref sig .tc) (h : r ∉ W5) :
    after blk5 V (Proc.devRef .tc r) = V (Proc.devRef .tc r) :=
  keep_of_writes (writes_append pre5_writes (takeOps_writes _ _ _)) V r h

set_option maxHeartbeats 1000000 in
theorem blk5_res (V : Valuation τ sig (Elt F)) :
    after blk5 V (Proc.devRef .tc main_v29)
      = fieldTerm 5 (by norm_num) (V (Proc.devRef .tc main_arg0)) (V (Proc.devRef .tc main_arg2)) := by
  simp only [blk5, pre5, takeOps, List.cons_append, List.nil_append]
  after_results_simp
  rfl

/-! ### Field 6 -/

theorem pre6_good : Good (pre6 (F := F)) := by
  intro op h
  simp only [pre6, List.mem_cons, List.not_mem_nil, or_false] at h
  rcases h with rfl | rfl | rfl | rfl <;> exact ⟨by simp, rfl⟩

theorem blk6_good : Good (blk6 (F := F)) := Good.append pre6_good (takeOps_good _ _ _)

/-- The buffers block 6 writes. -/
abbrev W6 : List (Ref sig .tc) := ([main_v30, main_v31, main_v32, main_v33] : List (Ref sig .tc)) ++ takeW main_call6

theorem pre6_writes : ∀ op ∈ pre6 (F := F), op.writes ⊆ (([main_v30, main_v31, main_v32, main_v33] : List (Ref sig .tc)).map (Proc.devRef (τ := τ) .tc)).toFinset := by
  intro op h
  simp only [pre6, List.mem_cons, List.not_mem_nil, or_false] at h
  rcases h with rfl | rfl | rfl | rfl <;>
    (simp only [unary_writes, reshape_writes, Finset.singleton_subset_iff, List.mem_toFinset]
     refine List.mem_map_of_mem ?_
     repeat (first | exact List.mem_cons_self | apply List.mem_cons_of_mem))

theorem blk6_keep (V : Valuation τ sig (Elt F)) (r : Ref sig .tc) (h : r ∉ W6) :
    after blk6 V (Proc.devRef .tc r) = V (Proc.devRef .tc r) :=
  keep_of_writes (writes_append pre6_writes (takeOps_writes _ _ _)) V r h

set_option maxHeartbeats 1000000 in
theorem blk6_res (V : Valuation τ sig (Elt F)) :
    after blk6 V (Proc.devRef .tc main_v34)
      = fieldTerm 6 (by norm_num) (V (Proc.devRef .tc main_arg0)) (V (Proc.devRef .tc main_arg2)) := by
  simp only [blk6, pre6, takeOps, List.cons_append, List.nil_append]
  after_results_simp
  rfl

end Cert.RefSide
end
-- ==== Proof.RefValB.lean ====
/-
  Fields 7 to 13, each block of five statements read back: the block's result buffer holds the field's lookup term
  of the argument arrays the block started from, every buffer outside the block's own keeps its contents, and the
  block's operations touch TensorCore buffers only.
-/
import proofs.«201888_g37099927503118_cont_8to1_b_213_13_alg».proof.Proof.RefTake
import proofs.«201888_g37099927503118_cont_8to1_b_213_13_alg».proof.Proof.Spec
import Idealize.ShloMosaic.Lib.StableHlo.Run
import Idealize.ShloMosaic.Lib.Pipeline.Frame

noncomputable section

namespace Cert.RefSide

open Cert.ReferenceIdeal Idealize.ShloMosaic Idealize.ShloMosaic.TcCoe Idealize.SL.Sem Idealize.ShloMosaic.StableHlo
open Cert.ReferenceIdeal.Facts₀

variable {F : FTy → Type} [FloatOps F]

/-! ### Field 7 -/

theorem pre7_good : Good (pre7 (F := F)) := by
  intro op h
  simp only [pre7, List.mem_cons, List.not_mem_nil, or_false] at h
  rcases h with rfl | rfl | rfl | rfl <;> exact ⟨by simp, rfl⟩

theorem blk7_good : Good (blk7 (F := F)) := Good.append pre7_good (takeOps_good _ _ _)

/-- The buffers block 7 writes. -/
abbrev W7 : List (Ref sig .tc) := ([main_v35, main_v36, main_v37, main_v38] : List (Ref sig .tc)) ++ takeW main_call7

theorem pre7_writes : ∀ op ∈ pre7 (F := F), op.writes ⊆ (([main_v35, main_v36, main_v37, main_v38] : List (Ref sig .tc)).map (Proc.devRef (τ := τ) .tc)).toFinset := by
  intro op h
  simp only [pre7, List.mem_cons, List.not_mem_nil, or_false] at h
  rcases h with rfl | rfl | rfl | rfl <;>
    (simp only [unary_writes, reshape_writes, Finset.singleton_subset_iff, List.mem_toFinset]
     refine List.mem_map_of_mem ?_
     repeat (first | exact List.mem_cons_self | apply List.mem_cons_of_mem))

theorem blk7_keep (V : Valuation τ sig (Elt F)) (r : Ref sig .tc) (h : r ∉ W7) :
    after blk7 V (Proc.devRef .tc r) = V (Proc.devRef .tc r) :=
  keep_of_writes (writes_append pre7_writes (takeOps_writes _ _ _)) V r h

set_option maxHeartbeats 1000000 in
theorem blk7_res (V : Valuation τ sig (Elt F)) :
    after blk7 V (Proc.devRef .tc main_v39)
      = fieldTerm 7 (by norm_num) (V (Proc.devRef .tc main_arg0)) (V (Proc.devRef .tc main_arg2)) := by
  simp only [blk7, pre7, takeOps, List.cons_append, List.nil_append]
  after_results_simp
  rfl

/-! ### Field 8 -/

theorem pre8_good : Good (pre8 (F := F)) := by
  intro op h
  simp only [pre8, List.mem_cons, List.not_mem_nil, or_false] at h
  rcases h with rfl | rfl | rfl | rfl <;> exact ⟨by simp, rfl⟩

theorem blk8_good : Good (blk8 (F := F)) := Good.append pre8_good (takeOps_good _ _ _)

/-- The buffers block 8 writes. -/
abbrev W8 : List (Ref sig .tc) := ([main_v40, main_v41, main_v42, main_v43] : List (Ref sig .tc)) ++ takeW main_call8

theorem pre8_writes : ∀ op ∈ pre8 (F := F), op.writes ⊆ (([main_v40, main_v41, main_v42, main_v43] : List (Ref sig .tc)).map (Proc.devRef (τ := τ) .tc)).toFinset := by
  intro op h
  simp only [pre8, List.mem_cons, List.not_mem_nil, or_false] at h
  rcases h with rfl | rfl | rfl | rfl <;>
    (simp only [unary_writes, reshape_writes, Finset.singleton_subset_iff, List.mem_toFinset]
     refine List.mem_map_of_mem ?_
     repeat (first | exact List.mem_cons_self | apply List.mem_cons_of_mem))

theorem blk8_keep (V : Valuation τ sig (Elt F)) (r : Ref sig .tc) (h : r ∉ W8) :
    after blk8 V (Proc.devRef .tc r) = V (Proc.devRef .tc r) :=
  keep_of_writes (writes_append pre8_writes (takeOps_writes _ _ _)) V r h

set_option maxHeartbeats 1000000 in
theorem blk8_res (V : Valuation τ sig (Elt F)) :
    after blk8 V (Proc.devRef .tc main_v44)
      = fieldTerm 8 (by norm_num) (V (Proc.devRef .tc main_arg0)) (V (Proc.devRef .tc main_arg2)) := by
  simp only [blk8, pre8, takeOps, List.cons_append, List.nil_append]
  after_results_simp
  rfl

/-! ### Field 9 -/

theorem pre9_good : Good (pre9 (F := F)) := by
  intro op h
  simp only [pre9, List.mem_cons, List.not_mem_nil, or_false] at h
  rcases h with rfl | rfl | rfl | rfl <;> exact ⟨by simp, rfl⟩

theorem blk9_good : Good (blk9 (F := F)) := Good.append pre9_good (takeOps_good _ _ _)

/-- The buffers block 9 writes. -/
abbrev W9 : List (Ref sig .tc) := ([main_v45, main_v46, main_v47, main_v48] : List (Ref sig .tc)) ++ takeW main_call9

theorem pre9_writes : ∀ op ∈ pre9 (F := F), op.writes ⊆ (([main_v45, main_v46, main_v47, main_v48] : List (Ref sig .tc)).map (Proc.devRef (τ := τ) .tc)).toFinset := by
  intro op h
  simp only [pre9, List.mem_cons, List.not_mem_nil, or_false] at h
  rcases h with rfl | rfl | rfl | rfl <;>
    (simp only [unary_writes, reshape_writes, Finset.singleton_subset_iff, List.mem_toFinset]
     refine List.mem_map_of_mem ?_
     repeat (first | exact List.mem_cons_self | apply List.mem_cons_of_mem))

theorem blk9_keep (V : Valuation τ sig (Elt F)) (r : Ref sig .tc) (h : r ∉ W9) :
    after blk9 V (Proc.devRef .tc r) = V (Proc.devRef .tc r) :=
  keep_of_writes (writes_append pre9_writes (takeOps_writes _ _ _)) V r h

set_option maxHeartbeats 1000000 in
theorem blk9_res (V : Valuation τ sig (Elt F)) :
    after blk9 V (Proc.devRef .tc main_v49)
      = fieldTerm 9 (by norm_num) (V (Proc.devRef .tc main_arg0)) (V (Proc.devRef .tc main_arg2)) := by
  simp only [blk9, pre9, takeOps, List.cons_append, List.nil_append]
  after_results_simp
  rfl

/-! ### Field 10 -/

theorem pre10_good : Good (pre10 (F := F)) := by
  intro op h
  simp only [pre10, List.mem_cons, List.not_mem_nil, or_false] at h
  rcases h with rfl | rfl | rfl | rfl <;> exact ⟨by simp, rfl⟩

theorem blk10_good : Good (blk10 (F := F)) := Good.append pre10_good (takeOps_good _ _ _)

/-- The buffers block 10 writes. -/
abbrev W10 : List (Ref sig .tc) := ([main_v50, main_v51, main_v52, main_v53] : List (Ref sig .tc)) ++ takeW main_call10

theorem pre10_writes : ∀ op ∈ pre10 (F := F), op.writes ⊆ (([main_v50, main_v51, main_v52, main_v53] : List (Ref sig .tc)).map (Proc.devRef (τ := τ) .tc)).toFinset := by
  intro op h
  simp only [pre10, List.mem_cons, List.not_mem_nil, or_false] at h
  rcases h with rfl | rfl | rfl | rfl <;>
    (simp only [unary_writes, reshape_writes, Finset.singleton_subset_iff, List.mem_toFinset]
     refine List.mem_map_of_mem ?_
     repeat (first | exact List.mem_cons_self | apply List.mem_cons_of_mem))

theorem blk10_keep (V : Valuation τ sig (Elt F)) (r : Ref sig .tc) (h : r ∉ W10) :
    after blk10 V (Proc.devRef .tc r) = V (Proc.devRef .tc r) :=
  keep_of_writes (writes_append pre10_writes (takeOps_writes _ _ _)) V r h

set_option maxHeartbeats 1000000 in
theorem blk10_res (V : Valuation τ sig (Elt F)) :
    after blk10 V (Proc.devRef .tc main_v54)
      = fieldTerm 10 (by norm_num) (V (Proc.devRef .tc main_arg0)) (V (Proc.devRef .tc main_arg2)) := by
  simp only [blk10, pre10, takeOps, List.cons_append, List.nil_append]
  after_results_simp
  rfl

/-! ### Field 11 -/

theorem pre11_good : Good (pre11 (F := F)) := by
  intro op h
  simp only [pre11, List.mem_cons, List.not_mem_nil, or_false] at h
  rcases h with rfl | rfl | rfl | rfl <;> exact ⟨by simp, rfl⟩

theorem blk11_good : Good (blk11 (F := F)) := Good.append pre11_good (takeOps_good _ _ _)

/-- The buffers block 11 writes. -/
abbrev W11 : List (Ref sig .tc) := ([main_v55, main_v56, main_v57, main_v58] : List (Ref sig .tc)) ++ takeW main_call11

theorem pre11_writes : ∀ op ∈ pre11 (F := F), op.writes ⊆ (([main_v55, main_v56, main_v57, main_v58] : List (Ref sig .tc)).map (Proc.devRef (τ := τ) .tc)).toFinset := by
  intro op h
  simp only [pre11, List.mem_cons, List.not_mem_nil, or_false] at h
  rcases h with rfl | rfl | rfl | rfl <;>
    (simp only [unary_writes, reshape_writes, Finset.singleton_subset_iff, List.mem_toFinset]
     refine List.mem_map_of_mem ?_
     repeat (first | exact List.mem_cons_self | apply List.mem_cons_of_mem))

theorem blk11_keep (V : Valuation τ sig (Elt F)) (r : Ref sig .tc) (h : r ∉ W11) :
    after blk11 V (Proc.devRef .tc r) = V (Proc.devRef .tc r) :=
  keep_of_writes (writes_append pre11_writes (takeOps_writes _ _ _)) V r h

set_option maxHeartbeats 1000000 in
theorem blk11_res (V : Valuation τ sig (Elt F)) :
    after blk11 V (Proc.devRef .tc main_v59)
      = fieldTerm 11 (by norm_num) (V (Proc.devRef .tc main_arg0)) (V (Proc.devRef .tc main_arg2)) := by
  simp only [blk11, pre11, takeOps, List.cons_append, List.nil_append]
  after_results_simp
  rfl

/-! ### Field 12 -/

theorem pre12_good : Good (pre12 (F := F)) := by
  intro op h
  simp only [pre12, List.mem_cons, List.not_mem_nil, or_false] at h
  rcases h with rfl | rfl | rfl | rfl <;> exact ⟨by simp, rfl⟩

theorem blk12_good : Good (blk12 (F := F)) := Good.append pre12_good (takeOps_good _ _ _)

/-- The buffers block 12 writes. -/
abbrev W12 : List (Ref sig .tc) := ([main_v60, main_v61, main_v62, main_v63] : List (Ref sig .tc)) ++ takeW main_call12

theorem pre12_writes : ∀ op ∈ pre12 (F := F), op.writes ⊆ (([main_v60, main_v61, main_v62, main_v63] : List (Ref sig .tc)).map (Proc.devRef (τ := τ) .tc)).toFinset := by
  intro op h
  simp only [pre12, List.mem_cons, List.not_mem_nil, or_false] at h
  rcases h with rfl | rfl | rfl | rfl <;>
    (simp only [unary_writes, reshape_writes, Finset.singleton_subset_iff, List.mem_toFinset]
     refine List.mem_map_of_mem ?_
     repeat (first | exact List.mem_cons_self | apply List.mem_cons_of_mem))

theorem blk12_keep (V : Valuation τ sig (Elt F)) (r : Ref sig .tc) (h : r ∉ W12) :
    after blk12 V (Proc.devRef .tc r) = V (Proc.devRef .tc r) :=
  keep_of_writes (writes_append pre12_writes (takeOps_writes _ _ _)) V r h

set_option maxHeartbeats 1000000 in
theorem blk12_res (V : Valuation τ sig (Elt F)) :
    after blk12 V (Proc.devRef .tc main_v64)
      = fieldTerm 12 (by norm_num) (V (Proc.devRef .tc main_arg0)) (V (Proc.devRef .tc main_arg2)) := by
  simp only [blk12, pre12, takeOps, List.cons_append, List.nil_append]
  after_results_simp
  rfl

/-! ### Field 13 -/

theorem pre13_good : Good (pre13 (F := F)) := by
  intro op h
  simp only [pre13, List.mem_cons, List.not_mem_nil, or_false] at h
  rcases h with rfl | rfl | rfl | rfl <;> exact ⟨by simp, rfl⟩

theorem blk13_good : Good (blk13 (F := F)) := Good.append pre13_good (takeOps_good _ _ _)

/-- The buffers block 13 writes. -/
abbrev W13 : List (Ref sig .tc) := ([main_v65, main_v66, main_v67, main_v68] : List (Ref sig .tc)) ++ takeW main_call13

theorem pre13_writes : ∀ op ∈ pre13 (F := F), op.writes ⊆ (([main_v65, main_v66, main_v67, main_v68] : List (Ref sig .tc)).map (Proc.devRef (τ := τ) .tc)).toFinset := by
  intro op h
  simp only [pre13, List.mem_cons, List.not_mem_nil, or_false] at h
  rcases h with rfl | rfl | rfl | rfl <;>
    (simp only [unary_writes, reshape_writes, Finset.singleton_subset_iff, List.mem_toFinset]
     refine List.mem_map_of_mem ?_
     repeat (first | exact List.mem_cons_self | apply List.mem_cons_of_mem))

theorem blk13_keep (V : Valuation τ sig (Elt F)) (r : Ref sig .tc) (h : r ∉ W13) :
    after blk13 V (Proc.devRef .tc r) = V (Proc.devRef .tc r) :=
  keep_of_writes (writes_append pre13_writes (takeOps_writes _ _ _)) V r h

set_option maxHeartbeats 1000000 in
theorem blk13_res (V : Valuation τ sig (Elt F)) :
    after blk13 V (Proc.devRef .tc main_v69)
      = fieldTerm 13 (by norm_num) (V (Proc.devRef .tc main_arg0)) (V (Proc.devRef .tc main_arg2)) := by
  simp only [blk13, pre13, takeOps, List.cons_append, List.nil_append]
  after_results_simp
  rfl

end Cert.RefSide
end
-- ==== Proof.RefValC.lean ====
/-
  Fields 14 to 19, each block of five statements read back: the block's result buffer holds the field's lookup term
  of the argument arrays the block started from, every buffer outside the block's own keeps its contents, and the
  block's operations touch TensorCore buffers only.
-/
import proofs.«201888_g37099927503118_cont_8to1_b_213_13_alg».proof.Proof.RefTake
import proofs.«201888_g37099927503118_cont_8to1_b_213_13_alg».proof.Proof.Spec
import Idealize.ShloMosaic.Lib.StableHlo.Run
import Idealize.ShloMosaic.Lib.Pipeline.Frame

noncomputable section

namespace Cert.RefSide

open Cert.ReferenceIdeal Idealize.ShloMosaic Idealize.ShloMosaic.TcCoe Idealize.SL.Sem Idealize.ShloMosaic.StableHlo
open Cert.ReferenceIdeal.Facts₀

variable {F : FTy → Type} [FloatOps F]

/-! ### Field 14 -/

theorem pre14_good : Good (pre14 (F := F)) := by
  intro op h
  simp only [pre14, List.mem_cons, List.not_mem_nil, or_false] at h
  rcases h with rfl | rfl | rfl | rfl <;> exact ⟨by simp, rfl⟩

theorem blk14_good : Good (blk14 (F := F)) := Good.append pre14_good (takeOps_good _ _ _)

/-- The buffers block 14 writes. -/
abbrev W14 : List (Ref sig .tc) := ([main_v70, main_v71, main_v72, main_v73] : List (Ref sig .tc)) ++ takeW main_call14

theorem pre14_writes : ∀ op ∈ pre14 (F := F), op.writes ⊆ (([main_v70, main_v71, main_v72, main_v73] : List (Ref sig .tc)).map (Proc.devRef (τ := τ) .tc)).toFinset := by
  intro op h
  simp only [pre14, List.mem_cons, List.not_mem_nil, or_false] at h
  rcases h with rfl | rfl | rfl | rfl <;>
    (simp only [unary_writes, reshape_writes, Finset.singleton_subset_iff, List.mem_toFinset]
     refine List.mem_map_of_mem ?_
     repeat (first | exact List.mem_cons_self | apply List.mem_cons_of_mem))

theorem blk14_keep (V : Valuation τ sig (Elt F)) (r : Ref sig .tc) (h : r ∉ W14) :
    after blk14 V (Proc.devRef .tc r) = V (Proc.devRef .tc r) :=
  keep_of_writes (writes_append pre14_writes (takeOps_writes _ _ _)) V r h

set_option maxHeartbeats 1000000 in
theorem blk14_res (V : Valuation τ sig (Elt F)) :
    after blk14 V (Proc.devRef .tc main_v74)
      = fieldTerm 14 (by norm_num) (V (Proc.devRef .tc main_arg0)) (V (Proc.devRef .tc main_arg2)) := by
  simp only [blk14, pre14, takeOps, List.cons_append, List.nil_append]
  after_results_simp
  rfl

/-! ### Field 15 -/

theorem pre15_good : Good (pre15 (F := F)) := by
  intro op h
  simp only [pre15, List.mem_cons, List.not_mem_nil, or_false] at h
  rcases h with rfl | rfl | rfl | rfl <;> exact ⟨by simp, rfl⟩

theorem blk15_good : Good (blk15 (F := F)) := Good.append pre15_good (takeOps_good _ _ _)

/-- The buffers block 15 writes. -/
abbrev W15 : List (Ref sig .tc) := ([main_v75, main_v76, main_v77, main_v78] : List (Ref sig .tc)) ++ takeW main_call15

theorem pre15_writes : ∀ op ∈ pre15 (F := F), op.writes ⊆ (([main_v75, main_v76, main_v77, main_v78] : List (Ref sig .tc)).map (Proc.devRef (τ := τ) .tc)).toFinset := by
  intro op h
  simp only [pre15, List.mem_cons, List.not_mem_nil, or_false] at h
  rcases h with rfl | rfl | rfl | rfl <;>
    (simp only [unary_writes, reshape_writes, Finset.singleton_subset_iff, List.mem_toFinset]
     refine List.mem_map_of_mem ?_
     repeat (first | exact List.mem_cons_self | apply List.mem_cons_of_mem))

theorem blk15_keep (V : Valuation τ sig (Elt F)) (r : Ref sig .tc) (h : r ∉ W15) :
    after blk15 V (Proc.devRef .tc r) = V (Proc.devRef .tc r) :=
  keep_of_writes (writes_append pre15_writes (takeOps_writes _ _ _)) V r h

set_option maxHeartbeats 1000000 in
theorem blk15_res (V : Valuation τ sig (Elt F)) :
    after blk15 V (Proc.devRef .tc main_v79)
      = fieldTerm 15 (by norm_num) (V (Proc.devRef .tc main_arg0)) (V (Proc.devRef .tc main_arg2)) := by
  simp only [blk15, pre15, takeOps, List.cons_append, List.nil_append]
  after_results_simp
  rfl

/-! ### Field 16 -/

theorem pre16_good : Good (pre16 (F := F)) := by
  intro op h
  simp only [pre16, List.mem_cons, List.not_mem_nil, or_false] at h
  rcases h with rfl | rfl | rfl | rfl <;> exact ⟨by simp, rfl⟩

theorem blk16_good : Good (blk16 (F := F)) := Good.append pre16_good (takeOps_good _ _ _)

/-- The buffers block 16 writes. -/
abbrev W16 : List (Ref sig .tc) := ([main_v80, main_v81, main_v82, main_v83] : List (Ref sig .tc)) ++ takeW main_call16

theorem pre16_writes : ∀ op ∈ pre16 (F := F), op.writes ⊆ (([main_v80, main_v81, main_v82, main_v83] : List (Ref sig .tc)).map (Proc.devRef (τ := τ) .tc)).toFinset := by
  intro op h
  simp only [pre16, List.mem_cons, List.not_mem_nil, or_false] at h
  rcases h with rfl | rfl | rfl | rfl <;>
    (simp only [unary_writes, reshape_writes, Finset.singleton_subset_iff, List.mem_toFinset]
     refine List.mem_map_of_mem ?_
     repeat (first | exact List.mem_cons_self | apply List.mem_cons_of_mem))

theorem blk16_keep (V : Valuation τ sig (Elt F)) (r : Ref sig .tc) (h : r ∉ W16) :
    after blk16 V (Proc.devRef .tc r) = V (Proc.devRef .tc r) :=
  keep_of_writes (writes_append pre16_writes (takeOps_writes _ _ _)) V r h

set_option maxHeartbeats 1000000 in
theorem blk16_res (V : Valuation τ sig (Elt F)) :
    after blk16 V (Proc.devRef .tc main_v84)
      = fieldTerm 16 (by norm_num) (V (Proc.devRef .tc main_arg0)) (V (Proc.devRef .tc main_arg2)) := by
  simp only [blk16, pre16, takeOps, List.cons_append, List.nil_append]
  after_results_simp
  rfl

/-! ### Field 17 -/

theorem pre17_good : Good (pre17 (F := F)) := by
  intro op h
  simp only [pre17, List.mem_cons, List.not_mem_nil, or_false] at h
  rcases h with rfl | rfl | rfl | rfl <;> exact ⟨by simp, rfl⟩

theorem blk17_good : Good (blk17 (F := F)) := Good.append pre17_good (takeOps_good _ _ _)

/-- The buffers block 17 writes. -/
abbrev W17 : List (Ref sig .tc) := ([main_v85, main_v86, main_v87, main_v88] : List (Ref sig .tc)) ++ takeW main_call17

theorem pre17_writes : ∀ op ∈ pre17 (F := F), op.writes ⊆ (([main_v85, main_v86, main_v87, main_v88] : List (Ref sig .tc)).map (Proc.devRef (τ := τ) .tc)).toFinset := by
  intro op h
  simp only [pre17, List.mem_cons, List.not_mem_nil, or_false] at h
  rcases h with rfl | rfl | rfl | rfl <;>
    (simp only [unary_writes, reshape_writes, Finset.singleton_subset_iff, List.mem_toFinset]
     refine List.mem_map_of_mem ?_
     repeat (first | exact List.mem_cons_self | apply List.mem_cons_of_mem))

theorem blk17_keep (V : Valuation τ sig (Elt F)) (r : Ref sig .tc) (h : r ∉ W17) :
    after blk17 V (Proc.devRef .tc r) = V (Proc.devRef .tc r) :=
  keep_of_writes (writes_append pre17_writes (takeOps_writes _ _ _)) V r h

set_option maxHeartbeats 1000000 in
theorem blk17_res (V : Valuation τ sig (Elt F)) :
    after blk17 V (Proc.devRef .tc main_v89)
      = fieldTerm 17 (by norm_num) (V (Proc.devRef .tc main_arg0)) (V (Proc.devRef .tc main_arg2)) := by
  simp only [blk17, pre17, takeOps, List.cons_append, List.nil_append]
  after_results_simp
  rfl

/-! ### Field 18 -/

theorem pre18_good : Good (pre18 (F := F)) := by
  intro op h
  simp only [pre18, List.mem_cons, List.not_mem_nil, or_false] at h
  rcases h with rfl | rfl | rfl | rfl <;> exact ⟨by simp, rfl⟩

theorem blk18_good : Good (blk18 (F := F)) := Good.append pre18_good (takeOps_good _ _ _)

/-- The buffers block 18 writes. -/
abbrev W18 : List (Ref sig .tc) := ([main_v90, main_v91, main_v92, main_v93] : List (Ref sig .tc)) ++ takeW main_call18

theorem pre18_writes : ∀ op ∈ pre18 (F := F), op.writes ⊆ (([main_v90, main_v91, main_v92, main_v93] : List (Ref sig .tc)).map (Proc.devRef (τ := τ) .tc)).toFinset := by
  intro op h
  simp only [pre18, List.mem_cons, List.not_mem_nil, or_false] at h
  rcases h with rfl | rfl | rfl | rfl <;>
    (simp only [unary_writes, reshape_writes, Finset.singleton_subset_iff, List.mem_toFinset]
     refine List.mem_map_of_mem ?_
     repeat (first | exact List.mem_cons_self | apply List.mem_cons_of_mem))

theorem blk18_keep (V : Valuation τ sig (Elt F)) (r : Ref sig .tc) (h : r ∉ W18) :
    after blk18 V (Proc.devRef .tc r) = V (Proc.devRef .tc r) :=
  keep_of_writes (writes_append pre18_writes (takeOps_writes _ _ _)) V r h

set_option maxHeartbeats 1000000 in
theorem blk18_res (V : Valuation τ sig (Elt F)) :
    after blk18 V (Proc.devRef .tc main_v94)
      = fieldTerm 18 (by norm_num) (V (Proc.devRef .tc main_arg0)) (V (Proc.devRef .tc main_arg2)) := by
  simp only [blk18, pre18, takeOps, List.cons_append, List.nil_append]
  after_results_simp
  rfl

/-! ### Field 19 -/

theorem pre19_good : Good (pre19 (F := F)) := by
  intro op h
  simp only [pre19, List.mem_cons, List.not_mem_nil, or_false] at h
  rcases h with rfl | rfl | rfl | rfl <;> exact ⟨by simp, rfl⟩

theorem blk19_good : Good (blk19 (F := F)) := Good.append pre19_good (takeOps_good _ _ _)

/-- The buffers block 19 writes. -/
abbrev W19 : List (Ref sig .tc) := ([main_v95, main_v96, main_v97, main_v98] : List (Ref sig .tc)) ++ takeW main_call19

theorem pre19_writes : ∀ op ∈ pre19 (F := F), op.writes ⊆ (([main_v95, main_v96, main_v97, main_v98] : List (Ref sig .tc)).map (Proc.devRef (τ := τ) .tc)).toFinset := by
  intro op h
  simp only [pre19, List.mem_cons, List.not_mem_nil, or_false] at h
  rcases h with rfl | rfl | rfl | rfl <;>
    (simp only [unary_writes, reshape_writes, Finset.singleton_subset_iff, List.mem_toFinset]
     refine List.mem_map_of_mem ?_
     repeat (first | exact List.mem_cons_self | apply List.mem_cons_of_mem))

theorem blk19_keep (V : Valuation τ sig (Elt F)) (r : Ref sig .tc) (h : r ∉ W19) :
    after blk19 V (Proc.devRef .tc r) = V (Proc.devRef .tc r) :=
  keep_of_writes (writes_append pre19_writes (takeOps_writes _ _ _)) V r h

set_option maxHeartbeats 1000000 in
theorem blk19_res (V : Valuation τ sig (Elt F)) :
    after blk19 V (Proc.devRef .tc main_v99)
      = fieldTerm 19 (by norm_num) (V (Proc.devRef .tc main_arg0)) (V (Proc.devRef .tc main_arg2)) := by
  simp only [blk19, pre19, takeOps, List.cons_append, List.nil_append]
  after_results_simp
  rfl

end Cert.RefSide
end
-- ==== Proof.RefValD.lean ====
/-
  Fields 20 to 25, each block of five statements read back: the block's result buffer holds the field's lookup term
  of the argument arrays the block started from, every buffer outside the block's own keeps its contents, and the
  block's operations touch TensorCore buffers only.
-/
import proofs.«201888_g37099927503118_cont_8to1_b_213_13_alg».proof.Proof.RefTake
import proofs.«201888_g37099927503118_cont_8to1_b_213_13_alg».proof.Proof.Spec
import Idealize.ShloMosaic.Lib.StableHlo.Run
import Idealize.ShloMosaic.Lib.Pipeline.Frame

noncomputable section

namespace Cert.RefSide

open Cert.ReferenceIdeal Idealize.ShloMosaic Idealize.ShloMosaic.TcCoe Idealize.SL.Sem Idealize.ShloMosaic.StableHlo
open Cert.ReferenceIdeal.Facts₀

variable {F : FTy → Type} [FloatOps F]

/-! ### Field 20 -/

theorem pre20_good : Good (pre20 (F := F)) := by
  intro op h
  simp only [pre20, List.mem_cons, List.not_mem_nil, or_false] at h
  rcases h with rfl | rfl | rfl | rfl <;> exact ⟨by simp, rfl⟩

theorem blk20_good : Good (blk20 (F := F)) := Good.append pre20_good (takeOps_good _ _ _)

/-- The buffers block 20 writes. -/
abbrev W20 : List (Ref sig .tc) := ([main_v100, main_v101, main_v102, main_v103] : List (Ref sig .tc)) ++ takeW main_call20

theorem pre20_writes : ∀ op ∈ pre20 (F := F), op.writes ⊆ (([main_v100, main_v101, main_v102, main_v103] : List (Ref sig .tc)).map (Proc.devRef (τ := τ) .tc)).toFinset := by
  intro op h
  simp only [pre20, List.mem_cons, List.not_mem_nil, or_false] at h
  rcases h with rfl | rfl | rfl | rfl <;>
    (simp only [unary_writes, reshape_writes, Finset.singleton_subset_iff, List.mem_toFinset]
     refine List.mem_map_of_mem ?_
     repeat (first | exact List.mem_cons_self | apply List.mem_cons_of_mem))

theorem blk20_keep (V : Valuation τ sig (Elt F)) (r : Ref sig .tc) (h : r ∉ W20) :
    after blk20 V (Proc.devRef .tc r) = V (Proc.devRef .tc r) :=
  keep_of_writes (writes_append pre20_writes (takeOps_writes _ _ _)) V r h

set_option maxHeartbeats 1000000 in
theorem blk20_res (V : Valuation τ sig (Elt F)) :
    after blk20 V (Proc.devRef .tc main_v104)
      = fieldTerm 20 (by norm_num) (V (Proc.devRef .tc main_arg0)) (V (Proc.devRef .tc main_arg2)) := by
  simp only [blk20, pre20, takeOps, List.cons_append, List.nil_append]
  after_results_simp
  rfl

/-! ### Field 21 -/

theorem pre21_good : Good (pre21 (F := F)) := by
  intro op h
  simp only [pre21, List.mem_cons, List.not_mem_nil, or_false] at h
  rcases h with rfl | rfl | rfl | rfl <;> exact ⟨by simp, rfl⟩

theorem blk21_good : Good (blk21 (F := F)) := Good.append pre21_good (takeOps_good _ _ _)

/-- The buffers block 21 writes. -/
abbrev W21 : List (Ref sig .tc) := ([main_v105, main_v106, main_v107, main_v108] : List (Ref sig .tc)) ++ takeW main_call21

theorem pre21_writes : ∀ op ∈ pre21 (F := F), op.writes ⊆ (([main_v105, main_v106, main_v107, main_v108] : List (Ref sig .tc)).map (Proc.devRef (τ := τ) .tc)).toFinset := by
  intro op h
  simp only [pre21, List.mem_cons, List.not_mem_nil, or_false] at h
  rcases h with rfl | rfl | rfl | rfl <;>
    (simp only [unary_writes, reshape_writes, Finset.singleton_subset_iff, List.mem_toFinset]
     refine List.mem_map_of_mem ?_
     repeat (first | exact List.mem_cons_self | apply List.mem_cons_of_mem))

theorem blk21_keep (V : Valuation τ sig (Elt F)) (r : Ref sig .tc) (h : r ∉ W21) :
    after blk21 V (Proc.devRef .tc r) = V (Proc.devRef .tc r) :=
  keep_of_writes (writes_append pre21_writes (takeOps_writes _ _ _)) V r h

set_option maxHeartbeats 1000000 in
theorem blk21_res (V : Valuation τ sig (Elt F)) :
    after blk21 V (Proc.devRef .tc main_v109)
      = fieldTerm 21 (by norm_num) (V (Proc.devRef .tc main_arg0)) (V (Proc.devRef .tc main_arg2)) := by
  simp only [blk21, pre21, takeOps, List.cons_append, List.nil_append]
  after_results_simp
  rfl

/-! ### Field 22 -/

theorem pre22_good : Good (pre22 (F := F)) := by
  intro op h
  simp only [pre22, List.mem_cons, List.not_mem_nil, or_false] at h
  rcases h with rfl | rfl | rfl | rfl <;> exact ⟨by simp, rfl⟩

theorem blk22_good : Good (blk22 (F := F)) := Good.append pre22_good (takeOps_good _ _ _)

/-- The buffers block 22 writes. -/
abbrev W22 : List (Ref sig .tc) := ([main_v110, main_v111, main_v112, main_v113] : List (Ref sig .tc)) ++ takeW main_call22

theorem pre22_writes : ∀ op ∈ pre22 (F := F), op.writes ⊆ (([main_v110, main_v111, main_v112, main_v113] : List (Ref sig .tc)).map (Proc.devRef (τ := τ) .tc)).toFinset := by
  intro op h
  simp only [pre22, List.mem_cons, List.not_mem_nil, or_false] at h
  rcases h with rfl | rfl | rfl | rfl <;>
    (simp only [unary_writes, reshape_writes, Finset.singleton_subset_iff, List.mem_toFinset]
     refine List.mem_map_of_mem ?_
     repeat (first | exact List.mem_cons_self | apply List.mem_cons_of_mem))

theorem blk22_keep (V : Valuation τ sig (Elt F)) (r : Ref sig .tc) (h : r ∉ W22) :
    after blk22 V (Proc.devRef .tc r) = V (Proc.devRef .tc r) :=
  keep_of_writes (writes_append pre22_writes (takeOps_writes _ _ _)) V r h

set_option maxHeartbeats 1000000 in
theorem blk22_res (V : Valuation τ sig (Elt F)) :
    after blk22 V (Proc.devRef .tc main_v114)
      = fieldTerm 22 (by norm_num) (V (Proc.devRef .tc main_arg0)) (V (Proc.devRef .tc main_arg2)) := by
  simp only [blk22, pre22, takeOps, List.cons_append, List.nil_append]
  after_results_simp
  rfl

/-! ### Field 23 -/

theorem pre23_good : Good (pre23 (F := F)) := by
  intro op h
  simp only [pre23, List.mem_cons, List.not_mem_nil, or_false] at h
  rcases h with rfl | rfl | rfl | rfl <;> exact ⟨by simp, rfl⟩

theorem blk23_good : Good (blk23 (F := F)) := Good.append pre23_good (takeOps_good _ _ _)

/-- The buffers block 23 writes. -/
abbrev W23 : List (Ref sig .tc) := ([main_v115, main_v116, main_v117, main_v118] : List (Ref sig .tc)) ++ takeW main_call23

theorem pre23_writes : ∀ op ∈ pre23 (F := F), op.writes ⊆ (([main_v115, main_v116, main_v117, main_v118] : List (Ref sig .tc)).map (Proc.devRef (τ := τ) .tc)).toFinset := by
  intro op h
  simp only [pre23, List.mem_cons, List.not_mem_nil, or_false] at h
  rcases h with rfl | rfl | rfl | rfl <;>
    (simp only [unary_writes, reshape_writes, Finset.singleton_subset_iff, List.mem_toFinset]
     refine List.mem_map_of_mem ?_
     repeat (first | exact List.mem_cons_self | apply List.mem_cons_of_mem))

theorem blk23_keep (V : Valuation τ sig (Elt F)) (r : Ref sig .tc) (h : r ∉ W23) :
    after blk23 V (Proc.devRef .tc r) = V (Proc.devRef .tc r) :=
  keep_of_writes (writes_append pre23_writes (takeOps_writes _ _ _)) V r h

set_option maxHeartbeats 1000000 in
theorem blk23_res (V : Valuation τ sig (Elt F)) :
    after blk23 V (Proc.devRef .tc main_v119)
      = fieldTerm 23 (by norm_num) (V (Proc.devRef .tc main_arg0)) (V (Proc.devRef .tc main_arg2)) := by
  simp only [blk23, pre23, takeOps, List.cons_append, List.nil_append]
  after_results_simp
  rfl

/-! ### Field 24 -/

theorem pre24_good : Good (pre24 (F := F)) := by
  intro op h
  simp only [pre24, List.mem_cons, List.not_mem_nil, or_false] at h
  rcases h with rfl | rfl | rfl | rfl <;> exact ⟨by simp, rfl⟩

theorem blk24_good : Good (blk24 (F := F)) := Good.append pre24_good (takeOps_good _ _ _)

/-- The buffers block 24 writes. -/
abbrev W24 : List (Ref sig .tc) := ([main_v120, main_v121, main_v122, main_v123] : List (Ref sig .tc)) ++ takeW main_call24

theorem pre24_writes : ∀ op ∈ pre24 (F := F), op.writes ⊆ (([main_v120, main_v121, main_v122, main_v123] : List (Ref sig .tc)).map (Proc.devRef (τ := τ) .tc)).toFinset := by
  intro op h
  simp only [pre24, List.mem_cons, List.not_mem_nil, or_false] at h
  rcases h with rfl | rfl | rfl | rfl <;>
    (simp only [unary_writes, reshape_writes, Finset.singleton_subset_iff, List.mem_toFinset]
     refine List.mem_map_of_mem ?_
     repeat (first | exact List.mem_cons_self | apply List.mem_cons_of_mem))

theorem blk24_keep (V : Valuation τ sig (Elt F)) (r : Ref sig .tc) (h : r ∉ W24) :
    after blk24 V (Proc.devRef .tc r) = V (Proc.devRef .tc r) :=
  keep_of_writes (writes_append pre24_writes (takeOps_writes _ _ _)) V r h

set_option maxHeartbeats 1000000 in
theorem blk24_res (V : Valuation τ sig (Elt F)) :
    after blk24 V (Proc.devRef .tc main_v124)
      = fieldTerm 24 (by norm_num) (V (Proc.devRef .tc main_arg0)) (V (Proc.devRef .tc main_arg2)) := by
  simp only [blk24, pre24, takeOps, List.cons_append, List.nil_append]
  after_results_simp
  rfl

/-! ### Field 25 -/

theorem pre25_good : Good (pre25 (F := F)) := by
  intro op h
  simp only [pre25, List.mem_cons, List.not_mem_nil, or_false] at h
  rcases h with rfl | rfl | rfl | rfl <;> exact ⟨by simp, rfl⟩

theorem blk25_good : Good (blk25 (F := F)) := Good.append pre25_good (takeOps_good _ _ _)

/-- The buffers block 25 writes. -/
abbrev W25 : List (Ref sig .tc) := ([main_v125, main_v126, main_v127, main_v128] : List (Ref sig .tc)) ++ takeW main_call25

theorem pre25_writes : ∀ op ∈ pre25 (F := F), op.writes ⊆ (([main_v125, main_v126, main_v127, main_v128] : List (Ref sig .tc)).map (Proc.devRef (τ := τ) .tc)).toFinset := by
  intro op h
  simp only [pre25, List.mem_cons, List.not_mem_nil, or_false] at h
  rcases h with rfl | rfl | rfl | rfl <;>
    (simp only [unary_writes, reshape_writes, Finset.singleton_subset_iff, List.mem_toFinset]
     refine List.mem_map_of_mem ?_
     repeat (first | exact List.mem_cons_self | apply List.mem_cons_of_mem))

theorem blk25_keep (V : Valuation τ sig (Elt F)) (r : Ref sig .tc) (h : r ∉ W25) :
    after blk25 V (Proc.devRef .tc r) = V (Proc.devRef .tc r) :=
  keep_of_writes (writes_append pre25_writes (takeOps_writes _ _ _)) V r h

set_option maxHeartbeats 1000000 in
theorem blk25_res (V : Valuation τ sig (Elt F)) :
    after blk25 V (Proc.devRef .tc main_v129)
      = fieldTerm 25 (by norm_num) (V (Proc.devRef .tc main_arg0)) (V (Proc.devRef .tc main_arg2)) := by
  simp only [blk25, pre25, takeOps, List.cons_append, List.nil_append]
  after_results_simp
  rfl

end Cert.RefSide
end
-- ==== Proof.RefRun0.lean ====
/-
  The reference program's run, read back. The buffers after each field's block, one valuation per block
  (`val k`): through block `k` the three argument arrays and the earlier blocks' results keep their contents, and
  block `k`'s result is field `k`'s lookup term of the argument arrays. The four concatenations then lay the
  pieces side by side: the result buffer ends at `refTerm` of the launch contents of the arguments, which end
  unchanged (`run0`).
-/
import proofs.«201888_g37099927503118_cont_8to1_b_213_13_alg».proof.Proof.RefValA
import proofs.«201888_g37099927503118_cont_8to1_b_213_13_alg».proof.Proof.RefValB
import proofs.«201888_g37099927503118_cont_8to1_b_213_13_alg».proof.Proof.RefValC
import proofs.«201888_g37099927503118_cont_8to1_b_213_13_alg».proof.Proof.RefValD
import proofs.«201888_g37099927503118_cont_8to1_b_213_13_alg».proof.Proof.Spec
import Idealize.ShloMosaic.Lib.StableHlo.Run
import Idealize.ShloMosaic.Lib.Pipeline.Frame

noncomputable section

namespace Cert.RefSide

open Cert.ReferenceIdeal Idealize.ShloMosaic Idealize.ShloMosaic.TcCoe Idealize.SL.Sem Idealize.ShloMosaic.StableHlo
open Cert.ReferenceIdeal.Facts₀

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

/-! ### The operations touch TensorCore buffers only -/

theorem tail_good : Good (tailOps (F := F)) := by
  intro op h
  simp only [tailOps, List.mem_cons, List.not_mem_nil, or_false] at h
  rcases h with rfl | rfl | rfl | rfl <;> exact ⟨by simp, rfl⟩

theorem ops_good : Good (ops (F := F)) := by
  unfold ops ops0 ops1 ops2
  simp only [List.flatten_cons, List.flatten_nil, List.append_nil]
  exact Good.append (Good.append blk0_good (Good.append blk1_good (Good.append blk2_good (Good.append blk3_good (Good.append blk4_good (Good.append blk5_good (Good.append blk6_good (Good.append blk7_good (Good.append blk8_good (Good.append blk9_good (Good.append blk10_good (blk11_good))))))))))))
    (Good.append (Good.append blk12_good (Good.append blk13_good (Good.append blk14_good (Good.append blk15_good (Good.append blk16_good (Good.append blk17_good (Good.append blk18_good (Good.append blk19_good (Good.append blk20_good (Good.append blk21_good (Good.append blk22_good (blk23_good))))))))))))
      (Good.append blk24_good (Good.append blk25_good tail_good)))

/-! ### The buffers after each block -/

def val0 (V : Valuation τ sig (Elt F)) : Valuation τ sig (Elt F) := after blk0 V
def val1 (V : Valuation τ sig (Elt F)) : Valuation τ sig (Elt F) := after blk1 (val0 V)
def val2 (V : Valuation τ sig (Elt F)) : Valuation τ sig (Elt F) := after blk2 (val1 V)
def val3 (V : Valuation τ sig (Elt F)) : Valuation τ sig (Elt F) := after blk3 (val2 V)
def val4 (V : Valuation τ sig (Elt F)) : Valuation τ sig (Elt F) := after blk4 (val3 V)
def val5 (V : Valuation τ sig (Elt F)) : Valuation τ sig (Elt F) := after blk5 (val4 V)
def val6 (V : Valuation τ sig (Elt F)) : Valuation τ sig (Elt F) := after blk6 (val5 V)
def val7 (V : Valuation τ sig (Elt F)) : Valuation τ sig (Elt F) := after blk7 (val6 V)
def val8 (V : Valuation τ sig (Elt F)) : Valuation τ sig (Elt F) := after blk8 (val7 V)
def val9 (V : Valuation τ sig (Elt F)) : Valuation τ sig (Elt F) := after blk9 (val8 V)
def val10 (V : Valuation τ sig (Elt F)) : Valuation τ sig (Elt F) := after blk10 (val9 V)
def val11 (V : Valuation τ sig (Elt F)) : Valuation τ sig (Elt F) := after blk11 (val10 V)
def val12 (V : Valuation τ sig (Elt F)) : Valuation τ sig (Elt F) := after blk12 (val11 V)
def val13 (V : Valuation τ sig (Elt F)) : Valuation τ sig (Elt F) := after blk13 (val12 V)
def val14 (V : Valuation τ sig (Elt F)) : Valuation τ sig (Elt F) := after blk14 (val13 V)
def val15 (V : Valuation τ sig (Elt F)) : Valuation τ sig (Elt F) := after blk15 (val14 V)
def val16 (V : Valuation τ sig (Elt F)) : Valuation τ sig (Elt F) := after blk16 (val15 V)
def val17 (V : Valuation τ sig (Elt F)) : Valuation τ sig (Elt F) := after blk17 (val16 V)
def val18 (V : Valuation τ sig (Elt F)) : Valuation τ sig (Elt F) := after blk18 (val17 V)
def val19 (V : Valuation τ sig (Elt F)) : Valuation τ sig (Elt F) := after blk19 (val18 V)
def val20 (V : Valuation τ sig (Elt F)) : Valuation τ sig (Elt F) := after blk20 (val19 V)
def val21 (V : Valuation τ sig (Elt F)) : Valuation τ sig (Elt F) := after blk21 (val20 V)
def val22 (V : Valuation τ sig (Elt F)) : Valuation τ sig (Elt F) := after blk22 (val21 V)
def val23 (V : Valuation τ sig (Elt F)) : Valuation τ sig (Elt F) := after blk23 (val22 V)
def val24 (V : Valuation τ sig (Elt F)) : Valuation τ sig (Elt F) := after blk24 (val23 V)
def val25 (V : Valuation τ sig (Elt F)) : Valuation τ sig (Elt F) := after blk25 (val24 V)

theorem ops_after (V : Valuation τ sig (Elt F)) : after ops V = after tailOps (val25 V) := by
  simp only [ops, ops0, ops1, ops2, List.flatten_cons, List.flatten_nil, List.append_nil, after_append',
    val0, val1, val2, val3, val4, val5, val6, val7, val8, val9, val10, val11, val12, val13, val14, val15, val16, val17, val18, val19, val20, val21, val22, val23, val24, val25]

/-! Block 0 -/
theorem val0_arg0 (V : Valuation τ sig (Elt F)) : val0 V (Proc.devRef .tc main_arg0) = V (Proc.devRef .tc main_arg0) :=
  blk0_keep V main_arg0 (by decide)
theorem val0_arg1 (V : Valuation τ sig (Elt F)) : val0 V (Proc.devRef .tc main_arg1) = V (Proc.devRef .tc main_arg1) :=
  blk0_keep V main_arg1 (by decide)
theorem val0_arg2 (V : Valuation τ sig (Elt F)) : val0 V (Proc.devRef .tc main_arg2) = V (Proc.devRef .tc main_arg2) :=
  blk0_keep V main_arg2 (by decide)
theorem val0_res0 (V : Valuation τ sig (Elt F)) : val0 V (Proc.devRef .tc main_v4) = fieldTerm 0 (by norm_num) (V (Proc.devRef .tc main_arg0)) (V (Proc.devRef .tc main_arg2)) := by
  unfold val0
  rw [blk0_res]

/-! Block 1 -/
theorem val1_arg0 (V : Valuation τ sig (Elt F)) : val1 V (Proc.devRef .tc main_arg0) = V (Proc.devRef .tc main_arg0) :=
  (blk1_keep _ main_arg0 (by decide)).trans (val0_arg0 V)
theorem val1_arg1 (V : Valuation τ sig (Elt F)) : val1 V (Proc.devRef .tc main_arg1) = V (Proc.devRef .tc main_arg1) :=
  (blk1_keep _ main_arg1 (by decide)).trans (val0_arg1 V)
theorem val1_arg2 (V : Valuation τ sig (Elt F)) : val1 V (Proc.devRef .tc main_arg2) = V (Proc.devRef .tc main_arg2) :=
  (blk1_keep _ main_arg2 (by decide)).trans (val0_arg2 V)
theorem val1_res0 (V : Valuation τ sig (Elt F)) : val1 V (Proc.devRef .tc main_v4) = fieldTerm 0 (by norm_num) (V (Proc.devRef .tc main_arg0)) (V (Proc.devRef .tc main_arg2)) :=
  (blk1_keep _ main_v4 (by decide)).trans (val0_res0 V)
theorem val1_res1 (V : Valuation τ sig (Elt F)) : val1 V (Proc.devRef .tc main_v9) = fieldTerm 1 (by norm_num) (V (Proc.devRef .tc main_arg0)) (V (Proc.devRef .tc main_arg2)) := by
  unfold val1
  rw [blk1_res, val0_arg0, val0_arg2]

/-! Block 2 -/
theorem val2_arg0 (V : Valuation τ sig (Elt F)) : val2 V (Proc.devRef .tc main_arg0) = V (Proc.devRef .tc main_arg0) :=
  (blk2_keep _ main_arg0 (by decide)).trans (val1_arg0 V)
theorem val2_arg1 (V : Valuation τ sig (Elt F)) : val2 V (Proc.devRef .tc main_arg1) = V (Proc.devRef .tc main_arg1) :=
  (blk2_keep _ main_arg1 (by decide)).trans (val1_arg1 V)
theorem val2_arg2 (V : Valuation τ sig (Elt F)) : val2 V (Proc.devRef .tc main_arg2) = V (Proc.devRef .tc main_arg2) :=
  (blk2_keep _ main_arg2 (by decide)).trans (val1_arg2 V)
theorem val2_res0 (V : Valuation τ sig (Elt F)) : val2 V (Proc.devRef .tc main_v4) = fieldTerm 0 (by norm_num) (V (Proc.devRef .tc main_arg0)) (V (Proc.devRef .tc main_arg2)) :=
  (blk2_keep _ main_v4 (by decide)).trans (val1_res0 V)
theorem val2_res1 (V : Valuation τ sig (Elt F)) : val2 V (Proc.devRef .tc main_v9) = fieldTerm 1 (by norm_num) (V (Proc.devRef .tc main_arg0)) (V (Proc.devRef .tc main_arg2)) :=
  (blk2_keep _ main_v9 (by decide)).trans (val1_res1 V)
theorem val2_res2 (V : Valuation τ sig (Elt F)) : val2 V (Proc.devRef .tc main_v14) = fieldTerm 2 (by norm_num) (V (Proc.devRef .tc main_arg0)) (V (Proc.devRef .tc main_arg2)) := by
  unfold val2
  rw [blk2_res, val1_arg0, val1_arg2]

/-! Block 3 -/
theorem val3_arg0 (V : Valuation τ sig (Elt F)) : val3 V (Proc.devRef .tc main_arg0) = V (Proc.devRef .tc main_arg0) :=
  (blk3_keep _ main_arg0 (by decide)).trans (val2_arg0 V)
theorem val3_arg1 (V : Valuation τ sig (Elt F)) : val3 V (Proc.devRef .tc main_arg1) = V (Proc.devRef .tc main_arg1) :=
  (blk3_keep _ main_arg1 (by decide)).trans (val2_arg1 V)
theorem val3_arg2 (V : Valuation τ sig (Elt F)) : val3 V (Proc.devRef .tc main_arg2) = V (Proc.devRef .tc main_arg2) :=
  (blk3_keep _ main_arg2 (by decide)).trans (val2_arg2 V)
theorem val3_res0 (V : Valuation τ sig (Elt F)) : val3 V (Proc.devRef .tc main_v4) = fieldTerm 0 (by norm_num) (V (Proc.devRef .tc main_arg0)) (V (Proc.devRef .tc main_arg2)) :=
  (blk3_keep _ main_v4 (by decide)).trans (val2_res0 V)
theorem val3_res1 (V : Valuation τ sig (Elt F)) : val3 V (Proc.devRef .tc main_v9) = fieldTerm 1 (by norm_num) (V (Proc.devRef .tc main_arg0)) (V (Proc.devRef .tc main_arg2)) :=
  (blk3_keep _ main_v9 (by decide)).trans (val2_res1 V)
theorem val3_res2 (V : Valuation τ sig (Elt F)) : val3 V (Proc.devRef .tc main_v14) = fieldTerm 2 (by norm_num) (V (Proc.devRef .tc main_arg0)) (V (Proc.devRef .tc main_arg2)) :=
  (blk3_keep _ main_v14 (by decide)).trans (val2_res2 V)
theorem val3_res3 (V : Valuation τ sig (Elt F)) : val3 V (Proc.devRef .tc main_v19) = fieldTerm 3 (by norm_num) (V (Proc.devRef .tc main_arg0)) (V (Proc.devRef .tc main_arg2)) := by
  unfold val3
  rw [blk3_res, val2_arg0, val2_arg2]

/-! Block 4 -/
theorem val4_arg0 (V : Valuation τ sig (Elt F)) : val4 V (Proc.devRef .tc main_arg0) = V (Proc.devRef .tc main_arg0) :=
  (blk4_keep _ main_arg0 (by decide)).trans (val3_arg0 V)
theorem val4_arg1 (V : Valuation τ sig (Elt F)) : val4 V (Proc.devRef .tc main_arg1) = V (Proc.devRef .tc main_arg1) :=
  (blk4_keep _ main_arg1 (by decide)).trans (val3_arg1 V)
theorem val4_arg2 (V : Valuation τ sig (Elt F)) : val4 V (Proc.devRef .tc main_arg2) = V (Proc.devRef .tc main_arg2) :=
  (blk4_keep _ main_arg2 (by decide)).trans (val3_arg2 V)
theorem val4_res0 (V : Valuation τ sig (Elt F)) : val4 V (Proc.devRef .tc main_v4) = fieldTerm 0 (by norm_num) (V (Proc.devRef .tc main_arg0)) (V (Proc.devRef .tc main_arg2)) :=
  (blk4_keep _ main_v4 (by decide)).trans (val3_res0 V)
theorem val4_res1 (V : Valuation τ sig (Elt F)) : val4 V (Proc.devRef .tc main_v9) = fieldTerm 1 (by norm_num) (V (Proc.devRef .tc main_arg0)) (V (Proc.devRef .tc main_arg2)) :=
  (blk4_keep _ main_v9 (by decide)).trans (val3_res1 V)
theorem val4_res2 (V : Valuation τ sig (Elt F)) : val4 V (Proc.devRef .tc main_v14) = fieldTerm 2 (by norm_num) (V (Proc.devRef .tc main_arg0)) (V (Proc.devRef .tc main_arg2)) :=
  (blk4_keep _ main_v14 (by decide)).trans (val3_res2 V)
theorem val4_res3 (V : Valuation τ sig (Elt F)) : val4 V (Proc.devRef .tc main_v19) = fieldTerm 3 (by norm_num) (V (Proc.devRef .tc main_arg0)) (V (Proc.devRef .tc main_arg2)) :=
  (blk4_keep _ main_v19 (by decide)).trans (val3_res3 V)
theorem val4_res4 (V : Valuation τ sig (Elt F)) : val4 V (Proc.devRef .tc main_v24) = fieldTerm 4 (by norm_num) (V (Proc.devRef .tc main_arg0)) (V (Proc.devRef .tc main_arg2)) := by
  unfold val4
  rw [blk4_res, val3_arg0, val3_arg2]

/-! Block 5 -/
theorem val5_arg0 (V : Valuation τ sig (Elt F)) : val5 V (Proc.devRef .tc main_arg0) = V (Proc.devRef .tc main_arg0) :=
  (blk5_keep _ main_arg0 (by decide)).trans (val4_arg0 V)
theorem val5_arg1 (V : Valuation τ sig (Elt F)) : val5 V (Proc.devRef .tc main_arg1) = V (Proc.devRef .tc main_arg1) :=
  (blk5_keep _ main_arg1 (by decide)).trans (val4_arg1 V)
theorem val5_arg2 (V : Valuation τ sig (Elt F)) : val5 V (Proc.devRef .tc main_arg2) = V (Proc.devRef .tc main_arg2) :=
  (blk5_keep _ main_arg2 (by decide)).trans (val4_arg2 V)
theorem val5_res0 (V : Valuation τ sig (Elt F)) : val5 V (Proc.devRef .tc main_v4) = fieldTerm 0 (by norm_num) (V (Proc.devRef .tc main_arg0)) (V (Proc.devRef .tc main_arg2)) :=
  (blk5_keep _ main_v4 (by decide)).trans (val4_res0 V)
theorem val5_res1 (V : Valuation τ sig (Elt F)) : val5 V (Proc.devRef .tc main_v9) = fieldTerm 1 (by norm_num) (V (Proc.devRef .tc main_arg0)) (V (Proc.devRef .tc main_arg2)) :=
  (blk5_keep _ main_v9 (by decide)).trans (val4_res1 V)
theorem val5_res2 (V : Valuation τ sig (Elt F)) : val5 V (Proc.devRef .tc main_v14) = fieldTerm 2 (by norm_num) (V (Proc.devRef .tc main_arg0)) (V (Proc.devRef .tc main_arg2)) :=
  (blk5_keep _ main_v14 (by decide)).trans (val4_res2 V)
theorem val5_res3 (V : Valuation τ sig (Elt F)) : val5 V (Proc.devRef .tc main_v19) = fieldTerm 3 (by norm_num) (V (Proc.devRef .tc main_arg0)) (V (Proc.devRef .tc main_arg2)) :=
  (blk5_keep _ main_v19 (by decide)).trans (val4_res3 V)
theorem val5_res4 (V : Valuation τ sig (Elt F)) : val5 V (Proc.devRef .tc main_v24) = fieldTerm 4 (by norm_num) (V (Proc.devRef .tc main_arg0)) (V (Proc.devRef .tc main_arg2)) :=
  (blk5_keep _ main_v24 (by decide)).trans (val4_res4 V)
theorem val5_res5 (V : Valuation τ sig (Elt F)) : val5 V (Proc.devRef .tc main_v29) = fieldTerm 5 (by norm_num) (V (Proc.devRef .tc main_arg0)) (V (Proc.devRef .tc main_arg2)) := by
  unfold val5
  rw [blk5_res, val4_arg0, val4_arg2]

/-! Block 6 -/
theorem val6_arg0 (V : Valuation τ sig (Elt F)) : val6 V (Proc.devRef .tc main_arg0) = V (Proc.devRef .tc main_arg0) :=
  (blk6_keep _ main_arg0 (by decide)).trans (val5_arg0 V)
theorem val6_arg1 (V : Valuation τ sig (Elt F)) : val6 V (Proc.devRef .tc main_arg1) = V (Proc.devRef .tc main_arg1) :=
  (blk6_keep _ main_arg1 (by decide)).trans (val5_arg1 V)
theorem val6_arg2 (V : Valuation τ sig (Elt F)) : val6 V (Proc.devRef .tc main_arg2) = V (Proc.devRef .tc main_arg2) :=
  (blk6_keep _ main_arg2 (by decide)).trans (val5_arg2 V)
theorem val6_res0 (V : Valuation τ sig (Elt F)) : val6 V (Proc.devRef .tc main_v4) = fieldTerm 0 (by norm_num) (V (Proc.devRef .tc main_arg0)) (V (Proc.devRef .tc main_arg2)) :=
  (blk6_keep _ main_v4 (by decide)).trans (val5_res0 V)
theorem val6_res1 (V : Valuation τ sig (Elt F)) : val6 V (Proc.devRef .tc main_v9) = fieldTerm 1 (by norm_num) (V (Proc.devRef .tc main_arg0)) (V (Proc.devRef .tc main_arg2)) :=
  (blk6_keep _ main_v9 (by decide)).trans (val5_res1 V)
theorem val6_res2 (V : Valuation τ sig (Elt F)) : val6 V (Proc.devRef .tc main_v14) = fieldTerm 2 (by norm_num) (V (Proc.devRef .tc main_arg0)) (V (Proc.devRef .tc main_arg2)) :=
  (blk6_keep _ main_v14 (by decide)).trans (val5_res2 V)
theorem val6_res3 (V : Valuation τ sig (Elt F)) : val6 V (Proc.devRef .tc main_v19) = fieldTerm 3 (by norm_num) (V (Proc.devRef .tc main_arg0)) (V (Proc.devRef .tc main_arg2)) :=
  (blk6_keep _ main_v19 (by decide)).trans (val5_res3 V)
theorem val6_res4 (V : Valuation τ sig (Elt F)) : val6 V (Proc.devRef .tc main_v24) = fieldTerm 4 (by norm_num) (V (Proc.devRef .tc main_arg0)) (V (Proc.devRef .tc main_arg2)) :=
  (blk6_keep _ main_v24 (by decide)).trans (val5_res4 V)
theorem val6_res5 (V : Valuation τ sig (Elt F)) : val6 V (Proc.devRef .tc main_v29) = fieldTerm 5 (by norm_num) (V (Proc.devRef .tc main_arg0)) (V (Proc.devRef .tc main_arg2)) :=
  (blk6_keep _ main_v29 (by decide)).trans (val5_res5 V)
theorem val6_res6 (V : Valuation τ sig (Elt F)) : val6 V (Proc.devRef .tc main_v34) = fieldTerm 6 (by norm_num) (V (Proc.devRef .tc main_arg0)) (V (Proc.devRef .tc main_arg2)) := by
  unfold val6
  rw [blk6_res, val5_arg0, val5_arg2]

/-! Block 7 -/
theorem val7_arg0 (V : Valuation τ sig (Elt F)) : val7 V (Proc.devRef .tc main_arg0) = V (Proc.devRef .tc main_arg0) :=
  (blk7_keep _ main_arg0 (by decide)).trans (val6_arg0 V)
theorem val7_arg1 (V : Valuation τ sig (Elt F)) : val7 V (Proc.devRef .tc main_arg1) = V (Proc.devRef .tc main_arg1) :=
  (blk7_keep _ main_arg1 (by decide)).trans (val6_arg1 V)
theorem val7_arg2 (V : Valuation τ sig (Elt F)) : val7 V (Proc.devRef .tc main_arg2) = V (Proc.devRef .tc main_arg2) :=
  (blk7_keep _ main_arg2 (by decide)).trans (val6_arg2 V)
theorem val7_res0 (V : Valuation τ sig (Elt F)) : val7 V (Proc.devRef .tc main_v4) = fieldTerm 0 (by norm_num) (V (Proc.devRef .tc main_arg0)) (V (Proc.devRef .tc main_arg2)) :=
  (blk7_keep _ main_v4 (by decide)).trans (val6_res0 V)
theorem val7_res1 (V : Valuation τ sig (Elt F)) : val7 V (Proc.devRef .tc main_v9) = fieldTerm 1 (by norm_num) (V (Proc.devRef .tc main_arg0)) (V (Proc.devRef .tc main_arg2)) :=
  (blk7_keep _ main_v9 (by decide)).trans (val6_res1 V)
theorem val7_res2 (V : Valuation τ sig (Elt F)) : val7 V (Proc.devRef .tc main_v14) = fieldTerm 2 (by norm_num) (V (Proc.devRef .tc main_arg0)) (V (Proc.devRef .tc main_arg2)) :=
  (blk7_keep _ main_v14 (by decide)).trans (val6_res2 V)
theorem val7_res3 (V : Valuation τ sig (Elt F)) : val7 V (Proc.devRef .tc main_v19) = fieldTerm 3 (by norm_num) (V (Proc.devRef .tc main_arg0)) (V (Proc.devRef .tc main_arg2)) :=
  (blk7_keep _ main_v19 (by decide)).trans (val6_res3 V)
theorem val7_res4 (V : Valuation τ sig (Elt F)) : val7 V (Proc.devRef .tc main_v24) = fieldTerm 4 (by norm_num) (V (Proc.devRef .tc main_arg0)) (V (Proc.devRef .tc main_arg2)) :=
  (blk7_keep _ main_v24 (by decide)).trans (val6_res4 V)
theorem val7_res5 (V : Valuation τ sig (Elt F)) : val7 V (Proc.devRef .tc main_v29) = fieldTerm 5 (by norm_num) (V (Proc.devRef .tc main_arg0)) (V (Proc.devRef .tc main_arg2)) :=
  (blk7_keep _ main_v29 (by decide)).trans (val6_res5 V)
theorem val7_res6 (V : Valuation τ sig (Elt F)) : val7 V (Proc.devRef .tc main_v34) = fieldTerm 6 (by norm_num) (V (Proc.devRef .tc main_arg0)) (V (Proc.devRef .tc main_arg2)) :=
  (blk7_keep _ main_v34 (by decide)).trans (val6_res6 V)
theorem val7_res7 (V : Valuation τ sig (Elt F)) : val7 V (Proc.devRef .tc main_v39) = fieldTerm 7 (by norm_num) (V (Proc.devRef .tc main_arg0)) (V (Proc.devRef .tc main_arg2)) := by
  unfold val7
  rw [blk7_res, val6_arg0, val6_arg2]

/-! Block 8 -/
theorem val8_arg0 (V : Valuation τ sig (Elt F)) : val8 V (Proc.devRef .tc main_arg0) = V (Proc.devRef .tc main_arg0) :=
  (blk8_keep _ main_arg0 (by decide)).trans (val7_arg0 V)
theorem val8_arg1 (V : Valuation τ sig (Elt F)) : val8 V (Proc.devRef .tc main_arg1) = V (Proc.devRef .tc main_arg1) :=
  (blk8_keep _ main_arg1 (by decide)).trans (val7_arg1 V)
theorem val8_arg2 (V : Valuation τ sig (Elt F)) : val8 V (Proc.devRef .tc main_arg2) = V (Proc.devRef .tc main_arg2) :=
  (blk8_keep _ main_arg2 (by decide)).trans (val7_arg2 V)
theorem val8_res0 (V : Valuation τ sig (Elt F)) : val8 V (Proc.devRef .tc main_v4) = fieldTerm 0 (by norm_num) (V (Proc.devRef .tc main_arg0)) (V (Proc.devRef .tc main_arg2)) :=
  (blk8_keep _ main_v4 (by decide)).trans (val7_res0 V)
theorem val8_res1 (V : Valuation τ sig (Elt F)) : val8 V (Proc.devRef .tc main_v9) = fieldTerm 1 (by norm_num) (V (Proc.devRef .tc main_arg0)) (V (Proc.devRef .tc main_arg2)) :=
  (blk8_keep _ main_v9 (by decide)).trans (val7_res1 V)
theorem val8_res2 (V : Valuation τ sig (Elt F)) : val8 V (Proc.devRef .tc main_v14) = fieldTerm 2 (by norm_num) (V (Proc.devRef .tc main_arg0)) (V (Proc.devRef .tc main_arg2)) :=
  (blk8_keep _ main_v14 (by decide)).trans (val7_res2 V)
theorem val8_res3 (V : Valuation τ sig (Elt F)) : val8 V (Proc.devRef .tc main_v19) = fieldTerm 3 (by norm_num) (V (Proc.devRef .tc main_arg0)) (V (Proc.devRef .tc main_arg2)) :=
  (blk8_keep _ main_v19 (by decide)).trans (val7_res3 V)
theorem val8_res4 (V : Valuation τ sig (Elt F)) : val8 V (Proc.devRef .tc main_v24) = fieldTerm 4 (by norm_num) (V (Proc.devRef .tc main_arg0)) (V (Proc.devRef .tc main_arg2)) :=
  (blk8_keep _ main_v24 (by decide)).trans (val7_res4 V)
theorem val8_res5 (V : Valuation τ sig (Elt F)) : val8 V (Proc.devRef .tc main_v29) = fieldTerm 5 (by norm_num) (V (Proc.devRef .tc main_arg0)) (V (Proc.devRef .tc main_arg2)) :=
  (blk8_keep _ main_v29 (by decide)).trans (val7_res5 V)
theorem val8_res6 (V : Valuation τ sig (Elt F)) : val8 V (Proc.devRef .tc main_v34) = fieldTerm 6 (by norm_num) (V (Proc.devRef .tc main_arg0)) (V (Proc.devRef .tc main_arg2)) :=
  (blk8_keep _ main_v34 (by decide)).trans (val7_res6 V)
theorem val8_res7 (V : Valuation τ sig (Elt F)) : val8 V (Proc.devRef .tc main_v39) = fieldTerm 7 (by norm_num) (V (Proc.devRef .tc main_arg0)) (V (Proc.devRef .tc main_arg2)) :=
  (blk8_keep _ main_v39 (by decide)).trans (val7_res7 V)
theorem val8_res8 (V : Valuation τ sig (Elt F)) : val8 V (Proc.devRef .tc main_v44) = fieldTerm 8 (by norm_num) (V (Proc.devRef .tc main_arg0)) (V (Proc.devRef .tc main_arg2)) := by
  unfold val8
  rw [blk8_res, val7_arg0, val7_arg2]

/-! Block 9 -/
theorem val9_arg0 (V : Valuation τ sig (Elt F)) : val9 V (Proc.devRef .tc main_arg0) = V (Proc.devRef .tc main_arg0) :=
  (blk9_keep _ main_arg0 (by decide)).trans (val8_arg0 V)
theorem val9_arg1 (V : Valuation τ sig (Elt F)) : val9 V (Proc.devRef .tc main_arg1) = V (Proc.devRef .tc main_arg1) :=
  (blk9_keep _ main_arg1 (by decide)).trans (val8_arg1 V)
theorem val9_arg2 (V : Valuation τ sig (Elt F)) : val9 V (Proc.devRef .tc main_arg2) = V (Proc.devRef .tc main_arg2) :=
  (blk9_keep _ main_arg2 (by decide)).trans (val8_arg2 V)
theorem val9_res0 (V : Valuation τ sig (Elt F)) : val9 V (Proc.devRef .tc main_v4) = fieldTerm 0 (by norm_num) (V (Proc.devRef .tc main_arg0)) (V (Proc.devRef .tc main_arg2)) :=
  (blk9_keep _ main_v4 (by decide)).trans (val8_res0 V)
theorem val9_res1 (V : Valuation τ sig (Elt F)) : val9 V (Proc.devRef .tc main_v9) = fieldTerm 1 (by norm_num) (V (Proc.devRef .tc main_arg0)) (V (Proc.devRef .tc main_arg2)) :=
  (blk9_keep _ main_v9 (by decide)).trans (val8_res1 V)
theorem val9_res2 (V : Valuation τ sig (Elt F)) : val9 V (Proc.devRef .tc main_v14) = fieldTerm 2 (by norm_num) (V (Proc.devRef .tc main_arg0)) (V (Proc.devRef .tc main_arg2)) :=
  (blk9_keep _ main_v14 (by decide)).trans (val8_res2 V)
theorem val9_res3 (V : Valuation τ sig (Elt F)) : val9 V (Proc.devRef .tc main_v19) = fieldTerm 3 (by norm_num) (V (Proc.devRef .tc main_arg0)) (V (Proc.devRef .tc main_arg2)) :=
  (blk9_keep _ main_v19 (by decide)).trans (val8_res3 V)
theorem val9_res4 (V : Valuation τ sig (Elt F)) : val9 V (Proc.devRef .tc main_v24) = fieldTerm 4 (by norm_num) (V (Proc.devRef .tc main_arg0)) (V (Proc.devRef .tc main_arg2)) :=
  (blk9_keep _ main_v24 (by decide)).trans (val8_res4 V)
theorem val9_res5 (V : Valuation τ sig (Elt F)) : val9 V (Proc.devRef .tc main_v29) = fieldTerm 5 (by norm_num) (V (Proc.devRef .tc main_arg0)) (V (Proc.devRef .tc main_arg2)) :=
  (blk9_keep _ main_v29 (by decide)).trans (val8_res5 V)
theorem val9_res6 (V : Valuation τ sig (Elt F)) : val9 V (Proc.devRef .tc main_v34) = fieldTerm 6 (by norm_num) (V (Proc.devRef .tc main_arg0)) (V (Proc.devRef .tc main_arg2)) :=
  (blk9_keep _ main_v34 (by decide)).trans (val8_res6 V)
theorem val9_res7 (V : Valuation τ sig (Elt F)) : val9 V (Proc.devRef .tc main_v39) = fieldTerm 7 (by norm_num) (V (Proc.devRef .tc main_arg0)) (V (Proc.devRef .tc main_arg2)) :=
  (blk9_keep _ main_v39 (by decide)).trans (val8_res7 V)
theorem val9_res8 (V : Valuation τ sig (Elt F)) : val9 V (Proc.devRef .tc main_v44) = fieldTerm 8 (by norm_num) (V (Proc.devRef .tc main_arg0)) (V (Proc.devRef .tc main_arg2)) :=
  (blk9_keep _ main_v44 (by decide)).trans (val8_res8 V)
theorem val9_res9 (V : Valuation τ sig (Elt F)) : val9 V (Proc.devRef .tc main_v49) = fieldTerm 9 (by norm_num) (V (Proc.devRef .tc main_arg0)) (V (Proc.devRef .tc main_arg2)) := by
  unfold val9
  rw [blk9_res, val8_arg0, val8_arg2]

/-! Block 10 -/
theorem val10_arg0 (V : Valuation τ sig (Elt F)) : val10 V (Proc.devRef .tc main_arg0) = V (Proc.devRef .tc main_arg0) :=
  (blk10_keep _ main_arg0 (by decide)).trans (val9_arg0 V)
theorem val10_arg1 (V : Valuation τ sig (Elt F)) : val10 V (Proc.devRef .tc main_arg1) = V (Proc.devRef .tc main_arg1) :=
  (blk10_keep _ main_arg1 (by decide)).trans (val9_arg1 V)
theorem val10_arg2 (V : Valuation τ sig (Elt F)) : val10 V (Proc.devRef .tc main_arg2) = V (Proc.devRef .tc main_arg2) :=
  (blk10_keep _ main_arg2 (by decide)).trans (val9_arg2 V)
theorem val10_res0 (V : Valuation τ sig (Elt F)) : val10 V (Proc.devRef .tc main_v4) = fieldTerm 0 (by norm_num) (V (Proc.devRef .tc main_arg0)) (V (Proc.devRef .tc main_arg2)) :=
  (blk10_keep _ main_v4 (by decide)).trans (val9_res0 V)
theorem val10_res1 (V : Valuation τ sig (Elt F)) : val10 V (Proc.devRef .tc main_v9) = fieldTerm 1 (by norm_num) (V (Proc.devRef .tc main_arg0)) (V (Proc.devRef .tc main_arg2)) :=
  (blk10_keep _ main_v9 (by decide)).trans (val9_res1 V)
theorem val10_res2 (V : Valuation τ sig (Elt F)) : val10 V (Proc.devRef .tc main_v14) = fieldTerm 2 (by norm_num) (V (Proc.devRef .tc main_arg0)) (V (Proc.devRef .tc main_arg2)) :=
  (blk10_keep _ main_v14 (by decide)).trans (val9_res2 V)
theorem val10_res3 (V : Valuation τ sig (Elt F)) : val10 V (Proc.devRef .tc main_v19) = fieldTerm 3 (by norm_num) (V (Proc.devRef .tc main_arg0)) (V (Proc.devRef .tc main_arg2)) :=
  (blk10_keep _ main_v19 (by decide)).trans (val9_res3 V)
theorem val10_res4 (V : Valuation τ sig (Elt F)) : val10 V (Proc.devRef .tc main_v24) = fieldTerm 4 (by norm_num) (V (Proc.devRef .tc main_arg0)) (V (Proc.devRef .tc main_arg2)) :=
  (blk10_keep _ main_v24 (by decide)).trans (val9_res4 V)
theorem val10_res5 (V : Valuation τ sig (Elt F)) : val10 V (Proc.devRef .tc main_v29) = fieldTerm 5 (by norm_num) (V (Proc.devRef .tc main_arg0)) (V (Proc.devRef .tc main_arg2)) :=
  (blk10_keep _ main_v29 (by decide)).trans (val9_res5 V)
theorem val10_res6 (V : Valuation τ sig (Elt F)) : val10 V (Proc.devRef .tc main_v34) = fieldTerm 6 (by norm_num) (V (Proc.devRef .tc main_arg0)) (V (Proc.devRef .tc main_arg2)) :=
  (blk10_keep _ main_v34 (by decide)).trans (val9_res6 V)
theorem val10_res7 (V : Valuation τ sig (Elt F)) : val10 V (Proc.devRef .tc main_v39) = fieldTerm 7 (by norm_num) (V (Proc.devRef .tc main_arg0)) (V (Proc.devRef .tc main_arg2)) :=
  (blk10_keep _ main_v39 (by decide)).trans (val9_res7 V)
theorem val10_res8 (V : Valuation τ sig (Elt F)) : val10 V (Proc.devRef .tc main_v44) = fieldTerm 8 (by norm_num) (V (Proc.devRef .tc main_arg0)) (V (Proc.devRef .tc main_arg2)) :=
  (blk10_keep _ main_v44 (by decide)).trans (val9_res8 V)
theorem val10_res9 (V : Valuation τ sig (Elt F)) : val10 V (Proc.devRef .tc main_v49) = fieldTerm 9 (by norm_num) (V (Proc.devRef .tc main_arg0)) (V (Proc.devRef .tc main_arg2)) :=
  (blk10_keep _ main_v49 (by decide)).trans (val9_res9 V)
theorem val10_res10 (V : Valuation τ sig (Elt F)) : val10 V (Proc.devRef .tc main_v54) = fieldTerm 10 (by norm_num) (V (Proc.devRef .tc main_arg0)) (V (Proc.devRef .tc main_arg2)) := by
  unfold val10
  rw [blk10_res, val9_arg0, val9_arg2]

/-! Block 11 -/
theorem val11_arg0 (V : Valuation τ sig (Elt F)) : val11 V (Proc.devRef .tc main_arg0) = V (Proc.devRef .tc main_arg0) :=
  (blk11_keep _ main_arg0 (by decide)).trans (val10_arg0 V)
theorem val11_arg1 (V : Valuation τ sig (Elt F)) : val11 V (Proc.devRef .tc main_arg1) = V (Proc.devRef .tc main_arg1) :=
  (blk11_keep _ main_arg1 (by decide)).trans (val10_arg1 V)
theorem val11_arg2 (V : Valuation τ sig (Elt F)) : val11 V (Proc.devRef .tc main_arg2) = V (Proc.devRef .tc main_arg2) :=
  (blk11_keep _ main_arg2 (by decide)).trans (val10_arg2 V)
theorem val11_res0 (V : Valuation τ sig (Elt F)) : val11 V (Proc.devRef .tc main_v4) = fieldTerm 0 (by norm_num) (V (Proc.devRef .tc main_arg0)) (V (Proc.devRef .tc main_arg2)) :=
  (blk11_keep _ main_v4 (by decide)).trans (val10_res0 V)
theorem val11_res1 (V : Valuation τ sig (Elt F)) : val11 V (Proc.devRef .tc main_v9) = fieldTerm 1 (by norm_num) (V (Proc.devRef .tc main_arg0)) (V (Proc.devRef .tc main_arg2)) :=
  (blk11_keep _ main_v9 (by decide)).trans (val10_res1 V)
theorem val11_res2 (V : Valuation τ sig (Elt F)) : val11 V (Proc.devRef .tc main_v14) = fieldTerm 2 (by norm_num) (V (Proc.devRef .tc main_arg0)) (V (Proc.devRef .tc main_arg2)) :=
  (blk11_keep _ main_v14 (by decide)).trans (val10_res2 V)
theorem val11_res3 (V : Valuation τ sig (Elt F)) : val11 V (Proc.devRef .tc main_v19) = fieldTerm 3 (by norm_num) (V (Proc.devRef .tc main_arg0)) (V (Proc.devRef .tc main_arg2)) :=
  (blk11_keep _ main_v19 (by decide)).trans (val10_res3 V)
theorem val11_res4 (V : Valuation τ sig (Elt F)) : val11 V (Proc.devRef .tc main_v24) = fieldTerm 4 (by norm_num) (V (Proc.devRef .tc main_arg0)) (V (Proc.devRef .tc main_arg2)) :=
  (blk11_keep _ main_v24 (by decide)).trans (val10_res4 V)
theorem val11_res5 (V : Valuation τ sig (Elt F)) : val11 V (Proc.devRef .tc main_v29) = fieldTerm 5 (by norm_num) (V (Proc.devRef .tc main_arg0)) (V (Proc.devRef .tc main_arg2)) :=
  (blk11_keep _ main_v29 (by decide)).trans (val10_res5 V)
theorem val11_res6 (V : Valuation τ sig (Elt F)) : val11 V (Proc.devRef .tc main_v34) = fieldTerm 6 (by norm_num) (V (Proc.devRef .tc main_arg0)) (V (Proc.devRef .tc main_arg2)) :=
  (blk11_keep _ main_v34 (by decide)).trans (val10_res6 V)
theorem val11_res7 (V : Valuation τ sig (Elt F)) : val11 V (Proc.devRef .tc main_v39) = fieldTerm 7 (by norm_num) (V (Proc.devRef .tc main_arg0)) (V (Proc.devRef .tc main_arg2)) :=
  (blk11_keep _ main_v39 (by decide)).trans (val10_res7 V)
theorem val11_res8 (V : Valuation τ sig (Elt F)) : val11 V (Proc.devRef .tc main_v44) = fieldTerm 8 (by norm_num) (V (Proc.devRef .tc main_arg0)) (V (Proc.devRef .tc main_arg2)) :=
  (blk11_keep _ main_v44 (by decide)).trans (val10_res8 V)
theorem val11_res9 (V : Valuation τ sig (Elt F)) : val11 V (Proc.devRef .tc main_v49) = fieldTerm 9 (by norm_num) (V (Proc.devRef .tc main_arg0)) (V (Proc.devRef .tc main_arg2)) :=
  (blk11_keep _ main_v49 (by decide)).trans (val10_res9 V)
theorem val11_res10 (V : Valuation τ sig (Elt F)) : val11 V (Proc.devRef .tc main_v54) = fieldTerm 10 (by norm_num) (V (Proc.devRef .tc main_arg0)) (V (Proc.devRef .tc main_arg2)) :=
  (blk11_keep _ main_v54 (by decide)).trans (val10_res10 V)
theorem val11_res11 (V : Valuation τ sig (Elt F)) : val11 V (Proc.devRef .tc main_v59) = fieldTerm 11 (by norm_num) (V (Proc.devRef .tc main_arg0)) (V (Proc.devRef .tc main_arg2)) := by
  unfold val11
  rw [blk11_res, val10_arg0, val10_arg2]

/-! Block 12 -/
theorem val12_arg0 (V : Valuation τ sig (Elt F)) : val12 V (Proc.devRef .tc main_arg0) = V (Proc.devRef .tc main_arg0) :=
  (blk12_keep _ main_arg0 (by decide)).trans (val11_arg0 V)
theorem val12_arg1 (V : Valuation τ sig (Elt F)) : val12 V (Proc.devRef .tc main_arg1) = V (Proc.devRef .tc main_arg1) :=
  (blk12_keep _ main_arg1 (by decide)).trans (val11_arg1 V)
theorem val12_arg2 (V : Valuation τ sig (Elt F)) : val12 V (Proc.devRef .tc main_arg2) = V (Proc.devRef .tc main_arg2) :=
  (blk12_keep _ main_arg2 (by decide)).trans (val11_arg2 V)
theorem val12_res0 (V : Valuation τ sig (Elt F)) : val12 V (Proc.devRef .tc main_v4) = fieldTerm 0 (by norm_num) (V (Proc.devRef .tc main_arg0)) (V (Proc.devRef .tc main_arg2)) :=
  (blk12_keep _ main_v4 (by decide)).trans (val11_res0 V)
theorem val12_res1 (V : Valuation τ sig (Elt F)) : val12 V (Proc.devRef .tc main_v9) = fieldTerm 1 (by norm_num) (V (Proc.devRef .tc main_arg0)) (V (Proc.devRef .tc main_arg2)) :=
  (blk12_keep _ main_v9 (by decide)).trans (val11_res1 V)
theorem val12_res2 (V : Valuation τ sig (Elt F)) : val12 V (Proc.devRef .tc main_v14) = fieldTerm 2 (by norm_num) (V (Proc.devRef .tc main_arg0)) (V (Proc.devRef .tc main_arg2)) :=
  (blk12_keep _ main_v14 (by decide)).trans (val11_res2 V)
theorem val12_res3 (V : Valuation τ sig (Elt F)) : val12 V (Proc.devRef .tc main_v19) = fieldTerm 3 (by norm_num) (V (Proc.devRef .tc main_arg0)) (V (Proc.devRef .tc main_arg2)) :=
  (blk12_keep _ main_v19 (by decide)).trans (val11_res3 V)
theorem val12_res4 (V : Valuation τ sig (Elt F)) : val12 V (Proc.devRef .tc main_v24) = fieldTerm 4 (by norm_num) (V (Proc.devRef .tc main_arg0)) (V (Proc.devRef .tc main_arg2)) :=
  (blk12_keep _ main_v24 (by decide)).trans (val11_res4 V)
theorem val12_res5 (V : Valuation τ sig (Elt F)) : val12 V (Proc.devRef .tc main_v29) = fieldTerm 5 (by norm_num) (V (Proc.devRef .tc main_arg0)) (V (Proc.devRef .tc main_arg2)) :=
  (blk12_keep _ main_v29 (by decide)).trans (val11_res5 V)
theorem val12_res6 (V : Valuation τ sig (Elt F)) : val12 V (Proc.devRef .tc main_v34) = fieldTerm 6 (by norm_num) (V (Proc.devRef .tc main_arg0)) (V (Proc.devRef .tc main_arg2)) :=
  (blk12_keep _ main_v34 (by decide)).trans (val11_res6 V)
theorem val12_res7 (V : Valuation τ sig (Elt F)) : val12 V (Proc.devRef .tc main_v39) = fieldTerm 7 (by norm_num) (V (Proc.devRef .tc main_arg0)) (V (Proc.devRef .tc main_arg2)) :=
  (blk12_keep _ main_v39 (by decide)).trans (val11_res7 V)
theorem val12_res8 (V : Valuation τ sig (Elt F)) : val12 V (Proc.devRef .tc main_v44) = fieldTerm 8 (by norm_num) (V (Proc.devRef .tc main_arg0)) (V (Proc.devRef .tc main_arg2)) :=
  (blk12_keep _ main_v44 (by decide)).trans (val11_res8 V)
theorem val12_res9 (V : Valuation τ sig (Elt F)) : val12 V (Proc.devRef .tc main_v49) = fieldTerm 9 (by norm_num) (V (Proc.devRef .tc main_arg0)) (V (Proc.devRef .tc main_arg2)) :=
  (blk12_keep _ main_v49 (by decide)).trans (val11_res9 V)
theorem val12_res10 (V : Valuation τ sig (Elt F)) : val12 V (Proc.devRef .tc main_v54) = fieldTerm 10 (by norm_num) (V (Proc.devRef .tc main_arg0)) (V (Proc.devRef .tc main_arg2)) :=
  (blk12_keep _ main_v54 (by decide)).trans (val11_res10 V)
theorem val12_res11 (V : Valuation τ sig (Elt F)) : val12 V (Proc.devRef .tc main_v59) = fieldTerm 11 (by norm_num) (V (Proc.devRef .tc main_arg0)) (V (Proc.devRef .tc main_arg2)) :=
  (blk12_keep _ main_v59 (by decide)).trans (val11_res11 V)
theorem val12_res12 (V : Valuation τ sig (Elt F)) : val12 V (Proc.devRef .tc main_v64) = fieldTerm 12 (by norm_num) (V (Proc.devRef .tc main_arg0)) (V (Proc.devRef .tc main_arg2)) := by
  unfold val12
  rw [blk12_res, val11_arg0, val11_arg2]

/-! Block 13 -/
theorem val13_arg0 (V : Valuation τ sig (Elt F)) : val13 V (Proc.devRef .tc main_arg0) = V (Proc.devRef .tc main_arg0) :=
  (blk13_keep _ main_arg0 (by decide)).trans (val12_arg0 V)
theorem val13_arg1 (V : Valuation τ sig (Elt F)) : val13 V (Proc.devRef .tc main_arg1) = V (Proc.devRef .tc main_arg1) :=
  (blk13_keep _ main_arg1 (by decide)).trans (val12_arg1 V)
theorem val13_arg2 (V : Valuation τ sig (Elt F)) : val13 V (Proc.devRef .tc main_arg2) = V (Proc.devRef .tc main_arg2) :=
  (blk13_keep _ main_arg2 (by decide)).trans (val12_arg2 V)
theorem val13_res0 (V : Valuation τ sig (Elt F)) : val13 V (Proc.devRef .tc main_v4) = fieldTerm 0 (by norm_num) (V (Proc.devRef .tc main_arg0)) (V (Proc.devRef .tc main_arg2)) :=
  (blk13_keep _ main_v4 (by decide)).trans (val12_res0 V)
theorem val13_res1 (V : Valuation τ sig (Elt F)) : val13 V (Proc.devRef .tc main_v9) = fieldTerm 1 (by norm_num) (V (Proc.devRef .tc main_arg0)) (V (Proc.devRef .tc main_arg2)) :=
  (blk13_keep _ main_v9 (by decide)).trans (val12_res1 V)
theorem val13_res2 (V : Valuation τ sig (Elt F)) : val13 V (Proc.devRef .tc main_v14) = fieldTerm 2 (by norm_num) (V (Proc.devRef .tc main_arg0)) (V (Proc.devRef .tc main_arg2)) :=
  (blk13_keep _ main_v14 (by decide)).trans (val12_res2 V)
theorem val13_res3 (V : Valuation τ sig (Elt F)) : val13 V (Proc.devRef .tc main_v19) = fieldTerm 3 (by norm_num) (V (Proc.devRef .tc main_arg0)) (V (Proc.devRef .tc main_arg2)) :=
  (blk13_keep _ main_v19 (by decide)).trans (val12_res3 V)
theorem val13_res4 (V : Valuation τ sig (Elt F)) : val13 V (Proc.devRef .tc main_v24) = fieldTerm 4 (by norm_num) (V (Proc.devRef .tc main_arg0)) (V (Proc.devRef .tc main_arg2)) :=
  (blk13_keep _ main_v24 (by decide)).trans (val12_res4 V)
theorem val13_res5 (V : Valuation τ sig (Elt F)) : val13 V (Proc.devRef .tc main_v29) = fieldTerm 5 (by norm_num) (V (Proc.devRef .tc main_arg0)) (V (Proc.devRef .tc main_arg2)) :=
  (blk13_keep _ main_v29 (by decide)).trans (val12_res5 V)
theorem val13_res6 (V : Valuation τ sig (Elt F)) : val13 V (Proc.devRef .tc main_v34) = fieldTerm 6 (by norm_num) (V (Proc.devRef .tc main_arg0)) (V (Proc.devRef .tc main_arg2)) :=
  (blk13_keep _ main_v34 (by decide)).trans (val12_res6 V)
theorem val13_res7 (V : Valuation τ sig (Elt F)) : val13 V (Proc.devRef .tc main_v39) = fieldTerm 7 (by norm_num) (V (Proc.devRef .tc main_arg0)) (V (Proc.devRef .tc main_arg2)) :=
  (blk13_keep _ main_v39 (by decide)).trans (val12_res7 V)
theorem val13_res8 (V : Valuation τ sig (Elt F)) : val13 V (Proc.devRef .tc main_v44) = fieldTerm 8 (by norm_num) (V (Proc.devRef .tc main_arg0)) (V (Proc.devRef .tc main_arg2)) :=
  (blk13_keep _ main_v44 (by decide)).trans (val12_res8 V)
theorem val13_res9 (V : Valuation τ sig (Elt F)) : val13 V (Proc.devRef .tc main_v49) = fieldTerm 9 (by norm_num) (V (Proc.devRef .tc main_arg0)) (V (Proc.devRef .tc main_arg2)) :=
  (blk13_keep _ main_v49 (by decide)).trans (val12_res9 V)
theorem val13_res10 (V : Valuation τ sig (Elt F)) : val13 V (Proc.devRef .tc main_v54) = fieldTerm 10 (by norm_num) (V (Proc.devRef .tc main_arg0)) (V (Proc.devRef .tc main_arg2)) :=
  (blk13_keep _ main_v54 (by decide)).trans (val12_res10 V)
theorem val13_res11 (V : Valuation τ sig (Elt F)) : val13 V (Proc.devRef .tc main_v59) = fieldTerm 11 (by norm_num) (V (Proc.devRef .tc main_arg0)) (V (Proc.devRef .tc main_arg2)) :=
  (blk13_keep _ main_v59 (by decide)).trans (val12_res11 V)
theorem val13_res12 (V : Valuation τ sig (Elt F)) : val13 V (Proc.devRef .tc main_v64) = fieldTerm 12 (by norm_num) (V (Proc.devRef .tc main_arg0)) (V (Proc.devRef .tc main_arg2)) :=
  (blk13_keep _ main_v64 (by decide)).trans (val12_res12 V)
theorem val13_res13 (V : Valuation τ sig (Elt F)) : val13 V (Proc.devRef .tc main_v69) = fieldTerm 13 (by norm_num) (V (Proc.devRef .tc main_arg0)) (V (Proc.devRef .tc main_arg2)) := by
  unfold val13
  rw [blk13_res, val12_arg0, val12_arg2]

/-! Block 14 -/
theorem val14_arg0 (V : Valuation τ sig (Elt F)) : val14 V (Proc.devRef .tc main_arg0) = V (Proc.devRef .tc main_arg0) :=
  (blk14_keep _ main_arg0 (by decide)).trans (val13_arg0 V)
theorem val14_arg1 (V : Valuation τ sig (Elt F)) : val14 V (Proc.devRef .tc main_arg1) = V (Proc.devRef .tc main_arg1) :=
  (blk14_keep _ main_arg1 (by decide)).trans (val13_arg1 V)
theorem val14_arg2 (V : Valuation τ sig (Elt F)) : val14 V (Proc.devRef .tc main_arg2) = V (Proc.devRef .tc main_arg2) :=
  (blk14_keep _ main_arg2 (by decide)).trans (val13_arg2 V)
theorem val14_res0 (V : Valuation τ sig (Elt F)) : val14 V (Proc.devRef .tc main_v4) = fieldTerm 0 (by norm_num) (V (Proc.devRef .tc main_arg0)) (V (Proc.devRef .tc main_arg2)) :=
  (blk14_keep _ main_v4 (by decide)).trans (val13_res0 V)
theorem val14_res1 (V : Valuation τ sig (Elt F)) : val14 V (Proc.devRef .tc main_v9) = fieldTerm 1 (by norm_num) (V (Proc.devRef .tc main_arg0)) (V (Proc.devRef .tc main_arg2)) :=
  (blk14_keep _ main_v9 (by decide)).trans (val13_res1 V)
theorem val14_res2 (V : Valuation τ sig (Elt F)) : val14 V (Proc.devRef .tc main_v14) = fieldTerm 2 (by norm_num) (V (Proc.devRef .tc main_arg0)) (V (Proc.devRef .tc main_arg2)) :=
  (blk14_keep _ main_v14 (by decide)).trans (val13_res2 V)
theorem val14_res3 (V : Valuation τ sig (Elt F)) : val14 V (Proc.devRef .tc main_v19) = fieldTerm 3 (by norm_num) (V (Proc.devRef .tc main_arg0)) (V (Proc.devRef .tc main_arg2)) :=
  (blk14_keep _ main_v19 (by decide)).trans (val13_res3 V)
theorem val14_res4 (V : Valuation τ sig (Elt F)) : val14 V (Proc.devRef .tc main_v24) = fieldTerm 4 (by norm_num) (V (Proc.devRef .tc main_arg0)) (V (Proc.devRef .tc main_arg2)) :=
  (blk14_keep _ main_v24 (by decide)).trans (val13_res4 V)
theorem val14_res5 (V : Valuation τ sig (Elt F)) : val14 V (Proc.devRef .tc main_v29) = fieldTerm 5 (by norm_num) (V (Proc.devRef .tc main_arg0)) (V (Proc.devRef .tc main_arg2)) :=
  (blk14_keep _ main_v29 (by decide)).trans (val13_res5 V)
theorem val14_res6 (V : Valuation τ sig (Elt F)) : val14 V (Proc.devRef .tc main_v34) = fieldTerm 6 (by norm_num) (V (Proc.devRef .tc main_arg0)) (V (Proc.devRef .tc main_arg2)) :=
  (blk14_keep _ main_v34 (by decide)).trans (val13_res6 V)
theorem val14_res7 (V : Valuation τ sig (Elt F)) : val14 V (Proc.devRef .tc main_v39) = fieldTerm 7 (by norm_num) (V (Proc.devRef .tc main_arg0)) (V (Proc.devRef .tc main_arg2)) :=
  (blk14_keep _ main_v39 (by decide)).trans (val13_res7 V)
theorem val14_res8 (V : Valuation τ sig (Elt F)) : val14 V (Proc.devRef .tc main_v44) = fieldTerm 8 (by norm_num) (V (Proc.devRef .tc main_arg0)) (V (Proc.devRef .tc main_arg2)) :=
  (blk14_keep _ main_v44 (by decide)).trans (val13_res8 V)
theorem val14_res9 (V : Valuation τ sig (Elt F)) : val14 V (Proc.devRef .tc main_v49) = fieldTerm 9 (by norm_num) (V (Proc.devRef .tc main_arg0)) (V (Proc.devRef .tc main_arg2)) :=
  (blk14_keep _ main_v49 (by decide)).trans (val13_res9 V)
theorem val14_res10 (V : Valuation τ sig (Elt F)) : val14 V (Proc.devRef .tc main_v54) = fieldTerm 10 (by norm_num) (V (Proc.devRef .tc main_arg0)) (V (Proc.devRef .tc main_arg2)) :=
  (blk14_keep _ main_v54 (by decide)).trans (val13_res10 V)
theorem val14_res11 (V : Valuation τ sig (Elt F)) : val14 V (Proc.devRef .tc main_v59) = fieldTerm 11 (by norm_num) (V (Proc.devRef .tc main_arg0)) (V (Proc.devRef .tc main_arg2)) :=
  (blk14_keep _ main_v59 (by decide)).trans (val13_res11 V)
theorem val14_res12 (V : Valuation τ sig (Elt F)) : val14 V (Proc.devRef .tc main_v64) = fieldTerm 12 (by norm_num) (V (Proc.devRef .tc main_arg0)) (V (Proc.devRef .tc main_arg2)) :=
  (blk14_keep _ main_v64 (by decide)).trans (val13_res12 V)
theorem val14_res13 (V : Valuation τ sig (Elt F)) : val14 V (Proc.devRef .tc main_v69) = fieldTerm 13 (by norm_num) (V (Proc.devRef .tc main_arg0)) (V (Proc.devRef .tc main_arg2)) :=
  (blk14_keep _ main_v69 (by decide)).trans (val13_res13 V)
theorem val14_res14 (V : Valuation τ sig (Elt F)) : val14 V (Proc.devRef .tc main_v74) = fieldTerm 14 (by norm_num) (V (Proc.devRef .tc main_arg0)) (V (Proc.devRef .tc main_arg2)) := by
  unfold val14
  rw [blk14_res, val13_arg0, val13_arg2]

/-! Block 15 -/
theorem val15_arg0 (V : Valuation τ sig (Elt F)) : val15 V (Proc.devRef .tc main_arg0) = V (Proc.devRef .tc main_arg0) :=
  (blk15_keep _ main_arg0 (by decide)).trans (val14_arg0 V)
theorem val15_arg1 (V : Valuation τ sig (Elt F)) : val15 V (Proc.devRef .tc main_arg1) = V (Proc.devRef .tc main_arg1) :=
  (blk15_keep _ main_arg1 (by decide)).trans (val14_arg1 V)
theorem val15_arg2 (V : Valuation τ sig (Elt F)) : val15 V (Proc.devRef .tc main_arg2) = V (Proc.devRef .tc main_arg2) :=
  (blk15_keep _ main_arg2 (by decide)).trans (val14_arg2 V)
theorem val15_res0 (V : Valuation τ sig (Elt F)) : val15 V (Proc.devRef .tc main_v4) = fieldTerm 0 (by norm_num) (V (Proc.devRef .tc main_arg0)) (V (Proc.devRef .tc main_arg2)) :=
  (blk15_keep _ main_v4 (by decide)).trans (val14_res0 V)
theorem val15_res1 (V : Valuation τ sig (Elt F)) : val15 V (Proc.devRef .tc main_v9) = fieldTerm 1 (by norm_num) (V (Proc.devRef .tc main_arg0)) (V (Proc.devRef .tc main_arg2)) :=
  (blk15_keep _ main_v9 (by decide)).trans (val14_res1 V)
theorem val15_res2 (V : Valuation τ sig (Elt F)) : val15 V (Proc.devRef .tc main_v14) = fieldTerm 2 (by norm_num) (V (Proc.devRef .tc main_arg0)) (V (Proc.devRef .tc main_arg2)) :=
  (blk15_keep _ main_v14 (by decide)).trans (val14_res2 V)
theorem val15_res3 (V : Valuation τ sig (Elt F)) : val15 V (Proc.devRef .tc main_v19) = fieldTerm 3 (by norm_num) (V (Proc.devRef .tc main_arg0)) (V (Proc.devRef .tc main_arg2)) :=
  (blk15_keep _ main_v19 (by decide)).trans (val14_res3 V)
theorem val15_res4 (V : Valuation τ sig (Elt F)) : val15 V (Proc.devRef .tc main_v24) = fieldTerm 4 (by norm_num) (V (Proc.devRef .tc main_arg0)) (V (Proc.devRef .tc main_arg2)) :=
  (blk15_keep _ main_v24 (by decide)).trans (val14_res4 V)
theorem val15_res5 (V : Valuation τ sig (Elt F)) : val15 V (Proc.devRef .tc main_v29) = fieldTerm 5 (by norm_num) (V (Proc.devRef .tc main_arg0)) (V (Proc.devRef .tc main_arg2)) :=
  (blk15_keep _ main_v29 (by decide)).trans (val14_res5 V)
theorem val15_res6 (V : Valuation τ sig (Elt F)) : val15 V (Proc.devRef .tc main_v34) = fieldTerm 6 (by norm_num) (V (Proc.devRef .tc main_arg0)) (V (Proc.devRef .tc main_arg2)) :=
  (blk15_keep _ main_v34 (by decide)).trans (val14_res6 V)
theorem val15_res7 (V : Valuation τ sig (Elt F)) : val15 V (Proc.devRef .tc main_v39) = fieldTerm 7 (by norm_num) (V (Proc.devRef .tc main_arg0)) (V (Proc.devRef .tc main_arg2)) :=
  (blk15_keep _ main_v39 (by decide)).trans (val14_res7 V)
theorem val15_res8 (V : Valuation τ sig (Elt F)) : val15 V (Proc.devRef .tc main_v44) = fieldTerm 8 (by norm_num) (V (Proc.devRef .tc main_arg0)) (V (Proc.devRef .tc main_arg2)) :=
  (blk15_keep _ main_v44 (by decide)).trans (val14_res8 V)
theorem val15_res9 (V : Valuation τ sig (Elt F)) : val15 V (Proc.devRef .tc main_v49) = fieldTerm 9 (by norm_num) (V (Proc.devRef .tc main_arg0)) (V (Proc.devRef .tc main_arg2)) :=
  (blk15_keep _ main_v49 (by decide)).trans (val14_res9 V)
theorem val15_res10 (V : Valuation τ sig (Elt F)) : val15 V (Proc.devRef .tc main_v54) = fieldTerm 10 (by norm_num) (V (Proc.devRef .tc main_arg0)) (V (Proc.devRef .tc main_arg2)) :=
  (blk15_keep _ main_v54 (by decide)).trans (val14_res10 V)
theorem val15_res11 (V : Valuation τ sig (Elt F)) : val15 V (Proc.devRef .tc main_v59) = fieldTerm 11 (by norm_num) (V (Proc.devRef .tc main_arg0)) (V (Proc.devRef .tc main_arg2)) :=
  (blk15_keep _ main_v59 (by decide)).trans (val14_res11 V)
theorem val15_res12 (V : Valuation τ sig (Elt F)) : val15 V (Proc.devRef .tc main_v64) = fieldTerm 12 (by norm_num) (V (Proc.devRef .tc main_arg0)) (V (Proc.devRef .tc main_arg2)) :=
  (blk15_keep _ main_v64 (by decide)).trans (val14_res12 V)
theorem val15_res13 (V : Valuation τ sig (Elt F)) : val15 V (Proc.devRef .tc main_v69) = fieldTerm 13 (by norm_num) (V (Proc.devRef .tc main_arg0)) (V (Proc.devRef .tc main_arg2)) :=
  (blk15_keep _ main_v69 (by decide)).trans (val14_res13 V)
theorem val15_res14 (V : Valuation τ sig (Elt F)) : val15 V (Proc.devRef .tc main_v74) = fieldTerm 14 (by norm_num) (V (Proc.devRef .tc main_arg0)) (V (Proc.devRef .tc main_arg2)) :=
  (blk15_keep _ main_v74 (by decide)).trans (val14_res14 V)
theorem val15_res15 (V : Valuation τ sig (Elt F)) : val15 V (Proc.devRef .tc main_v79) = fieldTerm 15 (by norm_num) (V (Proc.devRef .tc main_arg0)) (V (Proc.devRef .tc main_arg2)) := by
  unfold val15
  rw [blk15_res, val14_arg0, val14_arg2]

/-! Block 16 -/
theorem val16_arg0 (V : Valuation τ sig (Elt F)) : val16 V (Proc.devRef .tc main_arg0) = V (Proc.devRef .tc main_arg0) :=
  (blk16_keep _ main_arg0 (by decide)).trans (val15_arg0 V)
theorem val16_arg1 (V : Valuation τ sig (Elt F)) : val16 V (Proc.devRef .tc main_arg1) = V (Proc.devRef .tc main_arg1) :=
  (blk16_keep _ main_arg1 (by decide)).trans (val15_arg1 V)
theorem val16_arg2 (V : Valuation τ sig (Elt F)) : val16 V (Proc.devRef .tc main_arg2) = V (Proc.devRef .tc main_arg2) :=
  (blk16_keep _ main_arg2 (by decide)).trans (val15_arg2 V)
theorem val16_res0 (V : Valuation τ sig (Elt F)) : val16 V (Proc.devRef .tc main_v4) = fieldTerm 0 (by norm_num) (V (Proc.devRef .tc main_arg0)) (V (Proc.devRef .tc main_arg2)) :=
  (blk16_keep _ main_v4 (by decide)).trans (val15_res0 V)
theorem val16_res1 (V : Valuation τ sig (Elt F)) : val16 V (Proc.devRef .tc main_v9) = fieldTerm 1 (by norm_num) (V (Proc.devRef .tc main_arg0)) (V (Proc.devRef .tc main_arg2)) :=
  (blk16_keep _ main_v9 (by decide)).trans (val15_res1 V)
theorem val16_res2 (V : Valuation τ sig (Elt F)) : val16 V (Proc.devRef .tc main_v14) = fieldTerm 2 (by norm_num) (V (Proc.devRef .tc main_arg0)) (V (Proc.devRef .tc main_arg2)) :=
  (blk16_keep _ main_v14 (by decide)).trans (val15_res2 V)
theorem val16_res3 (V : Valuation τ sig (Elt F)) : val16 V (Proc.devRef .tc main_v19) = fieldTerm 3 (by norm_num) (V (Proc.devRef .tc main_arg0)) (V (Proc.devRef .tc main_arg2)) :=
  (blk16_keep _ main_v19 (by decide)).trans (val15_res3 V)
theorem val16_res4 (V : Valuation τ sig (Elt F)) : val16 V (Proc.devRef .tc main_v24) = fieldTerm 4 (by norm_num) (V (Proc.devRef .tc main_arg0)) (V (Proc.devRef .tc main_arg2)) :=
  (blk16_keep _ main_v24 (by decide)).trans (val15_res4 V)
theorem val16_res5 (V : Valuation τ sig (Elt F)) : val16 V (Proc.devRef .tc main_v29) = fieldTerm 5 (by norm_num) (V (Proc.devRef .tc main_arg0)) (V (Proc.devRef .tc main_arg2)) :=
  (blk16_keep _ main_v29 (by decide)).trans (val15_res5 V)
theorem val16_res6 (V : Valuation τ sig (Elt F)) : val16 V (Proc.devRef .tc main_v34) = fieldTerm 6 (by norm_num) (V (Proc.devRef .tc main_arg0)) (V (Proc.devRef .tc main_arg2)) :=
  (blk16_keep _ main_v34 (by decide)).trans (val15_res6 V)
theorem val16_res7 (V : Valuation τ sig (Elt F)) : val16 V (Proc.devRef .tc main_v39) = fieldTerm 7 (by norm_num) (V (Proc.devRef .tc main_arg0)) (V (Proc.devRef .tc main_arg2)) :=
  (blk16_keep _ main_v39 (by decide)).trans (val15_res7 V)
theorem val16_res8 (V : Valuation τ sig (Elt F)) : val16 V (Proc.devRef .tc main_v44) = fieldTerm 8 (by norm_num) (V (Proc.devRef .tc main_arg0)) (V (Proc.devRef .tc main_arg2)) :=
  (blk16_keep _ main_v44 (by decide)).trans (val15_res8 V)
theorem val16_res9 (V : Valuation τ sig (Elt F)) : val16 V (Proc.devRef .tc main_v49) = fieldTerm 9 (by norm_num) (V (Proc.devRef .tc main_arg0)) (V (Proc.devRef .tc main_arg2)) :=
  (blk16_keep _ main_v49 (by decide)).trans (val15_res9 V)
theorem val16_res10 (V : Valuation τ sig (Elt F)) : val16 V (Proc.devRef .tc main_v54) = fieldTerm 10 (by norm_num) (V (Proc.devRef .tc main_arg0)) (V (Proc.devRef .tc main_arg2)) :=
  (blk16_keep _ main_v54 (by decide)).trans (val15_res10 V)
theorem val16_res11 (V : Valuation τ sig (Elt F)) : val16 V (Proc.devRef .tc main_v59) = fieldTerm 11 (by norm_num) (V (Proc.devRef .tc main_arg0)) (V (Proc.devRef .tc main_arg2)) :=
  (blk16_keep _ main_v59 (by decide)).trans (val15_res11 V)
theorem val16_res12 (V : Valuation τ sig (Elt F)) : val16 V (Proc.devRef .tc main_v64) = fieldTerm 12 (by norm_num) (V (Proc.devRef .tc main_arg0)) (V (Proc.devRef .tc main_arg2)) :=
  (blk16_keep _ main_v64 (by decide)).trans (val15_res12 V)
theorem val16_res13 (V : Valuation τ sig (Elt F)) : val16 V (Proc.devRef .tc main_v69) = fieldTerm 13 (by norm_num) (V (Proc.devRef .tc main_arg0)) (V (Proc.devRef .tc main_arg2)) :=
  (blk16_keep _ main_v69 (by decide)).trans (val15_res13 V)
theorem val16_res14 (V : Valuation τ sig (Elt F)) : val16 V (Proc.devRef .tc main_v74) = fieldTerm 14 (by norm_num) (V (Proc.devRef .tc main_arg0)) (V (Proc.devRef .tc main_arg2)) :=
  (blk16_keep _ main_v74 (by decide)).trans (val15_res14 V)
theorem val16_res15 (V : Valuation τ sig (Elt F)) : val16 V (Proc.devRef .tc main_v79) = fieldTerm 15 (by norm_num) (V (Proc.devRef .tc main_arg0)) (V (Proc.devRef .tc main_arg2)) :=
  (blk16_keep _ main_v79 (by decide)).trans (val15_res15 V)
theorem val16_res16 (V : Valuation τ sig (Elt F)) : val16 V (Proc.devRef .tc main_v84) = fieldTerm 16 (by norm_num) (V (Proc.devRef .tc main_arg0)) (V (Proc.devRef .tc main_arg2)) := by
  unfold val16
  rw [blk16_res, val15_arg0, val15_arg2]

/-! Block 17 -/
theorem val17_arg0 (V : Valuation τ sig (Elt F)) : val17 V (Proc.devRef .tc main_arg0) = V (Proc.devRef .tc main_arg0) :=
  (blk17_keep _ main_arg0 (by decide)).trans (val16_arg0 V)
theorem val17_arg1 (V : Valuation τ sig (Elt F)) : val17 V (Proc.devRef .tc main_arg1) = V (Proc.devRef .tc main_arg1) :=
  (blk17_keep _ main_arg1 (by decide)).trans (val16_arg1 V)
theorem val17_arg2 (V : Valuation τ sig (Elt F)) : val17 V (Proc.devRef .tc main_arg2) = V (Proc.devRef .tc main_arg2) :=
  (blk17_keep _ main_arg2 (by decide)).trans (val16_arg2 V)
theorem val17_res0 (V : Valuation τ sig (Elt F)) : val17 V (Proc.devRef .tc main_v4) = fieldTerm 0 (by norm_num) (V (Proc.devRef .tc main_arg0)) (V (Proc.devRef .tc main_arg2)) :=
  (blk17_keep _ main_v4 (by decide)).trans (val16_res0 V)
theorem val17_res1 (V : Valuation τ sig (Elt F)) : val17 V (Proc.devRef .tc main_v9) = fieldTerm 1 (by norm_num) (V (Proc.devRef .tc main_arg0)) (V (Proc.devRef .tc main_arg2)) :=
  (blk17_keep _ main_v9 (by decide)).trans (val16_res1 V)
theorem val17_res2 (V : Valuation τ sig (Elt F)) : val17 V (Proc.devRef .tc main_v14) = fieldTerm 2 (by norm_num) (V (Proc.devRef .tc main_arg0)) (V (Proc.devRef .tc main_arg2)) :=
  (blk17_keep _ main_v14 (by decide)).trans (val16_res2 V)
theorem val17_res3 (V : Valuation τ sig (Elt F)) : val17 V (Proc.devRef .tc main_v19) = fieldTerm 3 (by norm_num) (V (Proc.devRef .tc main_arg0)) (V (Proc.devRef .tc main_arg2)) :=
  (blk17_keep _ main_v19 (by decide)).trans (val16_res3 V)
theorem val17_res4 (V : Valuation τ sig (Elt F)) : val17 V (Proc.devRef .tc main_v24) = fieldTerm 4 (by norm_num) (V (Proc.devRef .tc main_arg0)) (V (Proc.devRef .tc main_arg2)) :=
  (blk17_keep _ main_v24 (by decide)).trans (val16_res4 V)
theorem val17_res5 (V : Valuation τ sig (Elt F)) : val17 V (Proc.devRef .tc main_v29) = fieldTerm 5 (by norm_num) (V (Proc.devRef .tc main_arg0)) (V (Proc.devRef .tc main_arg2)) :=
  (blk17_keep _ main_v29 (by decide)).trans (val16_res5 V)
theorem val17_res6 (V : Valuation τ sig (Elt F)) : val17 V (Proc.devRef .tc main_v34) = fieldTerm 6 (by norm_num) (V (Proc.devRef .tc main_arg0)) (V (Proc.devRef .tc main_arg2)) :=
  (blk17_keep _ main_v34 (by decide)).trans (val16_res6 V)
theorem val17_res7 (V : Valuation τ sig (Elt F)) : val17 V (Proc.devRef .tc main_v39) = fieldTerm 7 (by norm_num) (V (Proc.devRef .tc main_arg0)) (V (Proc.devRef .tc main_arg2)) :=
  (blk17_keep _ main_v39 (by decide)).trans (val16_res7 V)
theorem val17_res8 (V : Valuation τ sig (Elt F)) : val17 V (Proc.devRef .tc main_v44) = fieldTerm 8 (by norm_num) (V (Proc.devRef .tc main_arg0)) (V (Proc.devRef .tc main_arg2)) :=
  (blk17_keep _ main_v44 (by decide)).trans (val16_res8 V)
theorem val17_res9 (V : Valuation τ sig (Elt F)) : val17 V (Proc.devRef .tc main_v49) = fieldTerm 9 (by norm_num) (V (Proc.devRef .tc main_arg0)) (V (Proc.devRef .tc main_arg2)) :=
  (blk17_keep _ main_v49 (by decide)).trans (val16_res9 V)
theorem val17_res10 (V : Valuation τ sig (Elt F)) : val17 V (Proc.devRef .tc main_v54) = fieldTerm 10 (by norm_num) (V (Proc.devRef .tc main_arg0)) (V (Proc.devRef .tc main_arg2)) :=
  (blk17_keep _ main_v54 (by decide)).trans (val16_res10 V)
theorem val17_res11 (V : Valuation τ sig (Elt F)) : val17 V (Proc.devRef .tc main_v59) = fieldTerm 11 (by norm_num) (V (Proc.devRef .tc main_arg0)) (V (Proc.devRef .tc main_arg2)) :=
  (blk17_keep _ main_v59 (by decide)).trans (val16_res11 V)
theorem val17_res12 (V : Valuation τ sig (Elt F)) : val17 V (Proc.devRef .tc main_v64) = fieldTerm 12 (by norm_num) (V (Proc.devRef .tc main_arg0)) (V (Proc.devRef .tc main_arg2)) :=
  (blk17_keep _ main_v64 (by decide)).trans (val16_res12 V)
theorem val17_res13 (V : Valuation τ sig (Elt F)) : val17 V (Proc.devRef .tc main_v69) = fieldTerm 13 (by norm_num) (V (Proc.devRef .tc main_arg0)) (V (Proc.devRef .tc main_arg2)) :=
  (blk17_keep _ main_v69 (by decide)).trans (val16_res13 V)
theorem val17_res14 (V : Valuation τ sig (Elt F)) : val17 V (Proc.devRef .tc main_v74) = fieldTerm 14 (by norm_num) (V (Proc.devRef .tc main_arg0)) (V (Proc.devRef .tc main_arg2)) :=
  (blk17_keep _ main_v74 (by decide)).trans (val16_res14 V)
theorem val17_res15 (V : Valuation τ sig (Elt F)) : val17 V (Proc.devRef .tc main_v79) = fieldTerm 15 (by norm_num) (V (Proc.devRef .tc main_arg0)) (V (Proc.devRef .tc main_arg2)) :=
  (blk17_keep _ main_v79 (by decide)).trans (val16_res15 V)
theorem val17_res16 (V : Valuation τ sig (Elt F)) : val17 V (Proc.devRef .tc main_v84) = fieldTerm 16 (by norm_num) (V (Proc.devRef .tc main_arg0)) (V (Proc.devRef .tc main_arg2)) :=
  (blk17_keep _ main_v84 (by decide)).trans (val16_res16 V)
theorem val17_res17 (V : Valuation τ sig (Elt F)) : val17 V (Proc.devRef .tc main_v89) = fieldTerm 17 (by norm_num) (V (Proc.devRef .tc main_arg0)) (V (Proc.devRef .tc main_arg2)) := by
  unfold val17
  rw [blk17_res, val16_arg0, val16_arg2]

/-! Block 18 -/
theorem val18_arg0 (V : Valuation τ sig (Elt F)) : val18 V (Proc.devRef .tc main_arg0) = V (Proc.devRef .tc main_arg0) :=
  (blk18_keep _ main_arg0 (by decide)).trans (val17_arg0 V)
theorem val18_arg1 (V : Valuation τ sig (Elt F)) : val18 V (Proc.devRef .tc main_arg1) = V (Proc.devRef .tc main_arg1) :=
  (blk18_keep _ main_arg1 (by decide)).trans (val17_arg1 V)
theorem val18_arg2 (V : Valuation τ sig (Elt F)) : val18 V (Proc.devRef .tc main_arg2) = V (Proc.devRef .tc main_arg2) :=
  (blk18_keep _ main_arg2 (by decide)).trans (val17_arg2 V)
theorem val18_res0 (V : Valuation τ sig (Elt F)) : val18 V (Proc.devRef .tc main_v4) = fieldTerm 0 (by norm_num) (V (Proc.devRef .tc main_arg0)) (V (Proc.devRef .tc main_arg2)) :=
  (blk18_keep _ main_v4 (by decide)).trans (val17_res0 V)
theorem val18_res1 (V : Valuation τ sig (Elt F)) : val18 V (Proc.devRef .tc main_v9) = fieldTerm 1 (by norm_num) (V (Proc.devRef .tc main_arg0)) (V (Proc.devRef .tc main_arg2)) :=
  (blk18_keep _ main_v9 (by decide)).trans (val17_res1 V)
theorem val18_res2 (V : Valuation τ sig (Elt F)) : val18 V (Proc.devRef .tc main_v14) = fieldTerm 2 (by norm_num) (V (Proc.devRef .tc main_arg0)) (V (Proc.devRef .tc main_arg2)) :=
  (blk18_keep _ main_v14 (by decide)).trans (val17_res2 V)
theorem val18_res3 (V : Valuation τ sig (Elt F)) : val18 V (Proc.devRef .tc main_v19) = fieldTerm 3 (by norm_num) (V (Proc.devRef .tc main_arg0)) (V (Proc.devRef .tc main_arg2)) :=
  (blk18_keep _ main_v19 (by decide)).trans (val17_res3 V)
theorem val18_res4 (V : Valuation τ sig (Elt F)) : val18 V (Proc.devRef .tc main_v24) = fieldTerm 4 (by norm_num) (V (Proc.devRef .tc main_arg0)) (V (Proc.devRef .tc main_arg2)) :=
  (blk18_keep _ main_v24 (by decide)).trans (val17_res4 V)
theorem val18_res5 (V : Valuation τ sig (Elt F)) : val18 V (Proc.devRef .tc main_v29) = fieldTerm 5 (by norm_num) (V (Proc.devRef .tc main_arg0)) (V (Proc.devRef .tc main_arg2)) :=
  (blk18_keep _ main_v29 (by decide)).trans (val17_res5 V)
theorem val18_res6 (V : Valuation τ sig (Elt F)) : val18 V (Proc.devRef .tc main_v34) = fieldTerm 6 (by norm_num) (V (Proc.devRef .tc main_arg0)) (V (Proc.devRef .tc main_arg2)) :=
  (blk18_keep _ main_v34 (by decide)).trans (val17_res6 V)
theorem val18_res7 (V : Valuation τ sig (Elt F)) : val18 V (Proc.devRef .tc main_v39) = fieldTerm 7 (by norm_num) (V (Proc.devRef .tc main_arg0)) (V (Proc.devRef .tc main_arg2)) :=
  (blk18_keep _ main_v39 (by decide)).trans (val17_res7 V)
theorem val18_res8 (V : Valuation τ sig (Elt F)) : val18 V (Proc.devRef .tc main_v44) = fieldTerm 8 (by norm_num) (V (Proc.devRef .tc main_arg0)) (V (Proc.devRef .tc main_arg2)) :=
  (blk18_keep _ main_v44 (by decide)).trans (val17_res8 V)
theorem val18_res9 (V : Valuation τ sig (Elt F)) : val18 V (Proc.devRef .tc main_v49) = fieldTerm 9 (by norm_num) (V (Proc.devRef .tc main_arg0)) (V (Proc.devRef .tc main_arg2)) :=
  (blk18_keep _ main_v49 (by decide)).trans (val17_res9 V)
theorem val18_res10 (V : Valuation τ sig (Elt F)) : val18 V (Proc.devRef .tc main_v54) = fieldTerm 10 (by norm_num) (V (Proc.devRef .tc main_arg0)) (V (Proc.devRef .tc main_arg2)) :=
  (blk18_keep _ main_v54 (by decide)).trans (val17_res10 V)
theorem val18_res11 (V : Valuation τ sig (Elt F)) : val18 V (Proc.devRef .tc main_v59) = fieldTerm 11 (by norm_num) (V (Proc.devRef .tc main_arg0)) (V (Proc.devRef .tc main_arg2)) :=
  (blk18_keep _ main_v59 (by decide)).trans (val17_res11 V)
theorem val18_res12 (V : Valuation τ sig (Elt F)) : val18 V (Proc.devRef .tc main_v64) = fieldTerm 12 (by norm_num) (V (Proc.devRef .tc main_arg0)) (V (Proc.devRef .tc main_arg2)) :=
  (blk18_keep _ main_v64 (by decide)).trans (val17_res12 V)
theorem val18_res13 (V : Valuation τ sig (Elt F)) : val18 V (Proc.devRef .tc main_v69) = fieldTerm 13 (by norm_num) (V (Proc.devRef .tc main_arg0)) (V (Proc.devRef .tc main_arg2)) :=
  (blk18_keep _ main_v69 (by decide)).trans (val17_res13 V)
theorem val18_res14 (V : Valuation τ sig (Elt F)) : val18 V (Proc.devRef .tc main_v74) = fieldTerm 14 (by norm_num) (V (Proc.devRef .tc main_arg0)) (V (Proc.devRef .tc main_arg2)) :=
  (blk18_keep _ main_v74 (by decide)).trans (val17_res14 V)
theorem val18_res15 (V : Valuation τ sig (Elt F)) : val18 V (Proc.devRef .tc main_v79) = fieldTerm 15 (by norm_num) (V (Proc.devRef .tc main_arg0)) (V (Proc.devRef .tc main_arg2)) :=
  (blk18_keep _ main_v79 (by decide)).trans (val17_res15 V)
theorem val18_res16 (V : Valuation τ sig (Elt F)) : val18 V (Proc.devRef .tc main_v84) = fieldTerm 16 (by norm_num) (V (Proc.devRef .tc main_arg0)) (V (Proc.devRef .tc main_arg2)) :=
  (blk18_keep _ main_v84 (by decide)).trans (val17_res16 V)
theorem val18_res17 (V : Valuation τ sig (Elt F)) : val18 V (Proc.devRef .tc main_v89) = fieldTerm 17 (by norm_num) (V (Proc.devRef .tc main_arg0)) (V (Proc.devRef .tc main_arg2)) :=
  (blk18_keep _ main_v89 (by decide)).trans (val17_res17 V)
theorem val18_res18 (V : Valuation τ sig (Elt F)) : val18 V (Proc.devRef .tc main_v94) = fieldTerm 18 (by norm_num) (V (Proc.devRef .tc main_arg0)) (V (Proc.devRef .tc main_arg2)) := by
  unfold val18
  rw [blk18_res, val17_arg0, val17_arg2]

/-! Block 19 -/
theorem val19_arg0 (V : Valuation τ sig (Elt F)) : val19 V (Proc.devRef .tc main_arg0) = V (Proc.devRef .tc main_arg0) :=
  (blk19_keep _ main_arg0 (by decide)).trans (val18_arg0 V)
theorem val19_arg1 (V : Valuation τ sig (Elt F)) : val19 V (Proc.devRef .tc main_arg1) = V (Proc.devRef .tc main_arg1) :=
  (blk19_keep _ main_arg1 (by decide)).trans (val18_arg1 V)
theorem val19_arg2 (V : Valuation τ sig (Elt F)) : val19 V (Proc.devRef .tc main_arg2) = V (Proc.devRef .tc main_arg2) :=
  (blk19_keep _ main_arg2 (by decide)).trans (val18_arg2 V)
theorem val19_res0 (V : Valuation τ sig (Elt F)) : val19 V (Proc.devRef .tc main_v4) = fieldTerm 0 (by norm_num) (V (Proc.devRef .tc main_arg0)) (V (Proc.devRef .tc main_arg2)) :=
  (blk19_keep _ main_v4 (by decide)).trans (val18_res0 V)
theorem val19_res1 (V : Valuation τ sig (Elt F)) : val19 V (Proc.devRef .tc main_v9) = fieldTerm 1 (by norm_num) (V (Proc.devRef .tc main_arg0)) (V (Proc.devRef .tc main_arg2)) :=
  (blk19_keep _ main_v9 (by decide)).trans (val18_res1 V)
theorem val19_res2 (V : Valuation τ sig (Elt F)) : val19 V (Proc.devRef .tc main_v14) = fieldTerm 2 (by norm_num) (V (Proc.devRef .tc main_arg0)) (V (Proc.devRef .tc main_arg2)) :=
  (blk19_keep _ main_v14 (by decide)).trans (val18_res2 V)
theorem val19_res3 (V : Valuation τ sig (Elt F)) : val19 V (Proc.devRef .tc main_v19) = fieldTerm 3 (by norm_num) (V (Proc.devRef .tc main_arg0)) (V (Proc.devRef .tc main_arg2)) :=
  (blk19_keep _ main_v19 (by decide)).trans (val18_res3 V)
theorem val19_res4 (V : Valuation τ sig (Elt F)) : val19 V (Proc.devRef .tc main_v24) = fieldTerm 4 (by norm_num) (V (Proc.devRef .tc main_arg0)) (V (Proc.devRef .tc main_arg2)) :=
  (blk19_keep _ main_v24 (by decide)).trans (val18_res4 V)
theorem val19_res5 (V : Valuation τ sig (Elt F)) : val19 V (Proc.devRef .tc main_v29) = fieldTerm 5 (by norm_num) (V (Proc.devRef .tc main_arg0)) (V (Proc.devRef .tc main_arg2)) :=
  (blk19_keep _ main_v29 (by decide)).trans (val18_res5 V)
theorem val19_res6 (V : Valuation τ sig (Elt F)) : val19 V (Proc.devRef .tc main_v34) = fieldTerm 6 (by norm_num) (V (Proc.devRef .tc main_arg0)) (V (Proc.devRef .tc main_arg2)) :=
  (blk19_keep _ main_v34 (by decide)).trans (val18_res6 V)
theorem val19_res7 (V : Valuation τ sig (Elt F)) : val19 V (Proc.devRef .tc main_v39) = fieldTerm 7 (by norm_num) (V (Proc.devRef .tc main_arg0)) (V (Proc.devRef .tc main_arg2)) :=
  (blk19_keep _ main_v39 (by decide)).trans (val18_res7 V)
theorem val19_res8 (V : Valuation τ sig (Elt F)) : val19 V (Proc.devRef .tc main_v44) = fieldTerm 8 (by norm_num) (V (Proc.devRef .tc main_arg0)) (V (Proc.devRef .tc main_arg2)) :=
  (blk19_keep _ main_v44 (by decide)).trans (val18_res8 V)
theorem val19_res9 (V : Valuation τ sig (Elt F)) : val19 V (Proc.devRef .tc main_v49) = fieldTerm 9 (by norm_num) (V (Proc.devRef .tc main_arg0)) (V (Proc.devRef .tc main_arg2)) :=
  (blk19_keep _ main_v49 (by decide)).trans (val18_res9 V)
theorem val19_res10 (V : Valuation τ sig (Elt F)) : val19 V (Proc.devRef .tc main_v54) = fieldTerm 10 (by norm_num) (V (Proc.devRef .tc main_arg0)) (V (Proc.devRef .tc main_arg2)) :=
  (blk19_keep _ main_v54 (by decide)).trans (val18_res10 V)
theorem val19_res11 (V : Valuation τ sig (Elt F)) : val19 V (Proc.devRef .tc main_v59) = fieldTerm 11 (by norm_num) (V (Proc.devRef .tc main_arg0)) (V (Proc.devRef .tc main_arg2)) :=
  (blk19_keep _ main_v59 (by decide)).trans (val18_res11 V)
theorem val19_res12 (V : Valuation τ sig (Elt F)) : val19 V (Proc.devRef .tc main_v64) = fieldTerm 12 (by norm_num) (V (Proc.devRef .tc main_arg0)) (V (Proc.devRef .tc main_arg2)) :=
  (blk19_keep _ main_v64 (by decide)).trans (val18_res12 V)
theorem val19_res13 (V : Valuation τ sig (Elt F)) : val19 V (Proc.devRef .tc main_v69) = fieldTerm 13 (by norm_num) (V (Proc.devRef .tc main_arg0)) (V (Proc.devRef .tc main_arg2)) :=
  (blk19_keep _ main_v69 (by decide)).trans (val18_res13 V)
theorem val19_res14 (V : Valuation τ sig (Elt F)) : val19 V (Proc.devRef .tc main_v74) = fieldTerm 14 (by norm_num) (V (Proc.devRef .tc main_arg0)) (V (Proc.devRef .tc main_arg2)) :=
  (blk19_keep _ main_v74 (by decide)).trans (val18_res14 V)
theorem val19_res15 (V : Valuation τ sig (Elt F)) : val19 V (Proc.devRef .tc main_v79) = fieldTerm 15 (by norm_num) (V (Proc.devRef .tc main_arg0)) (V (Proc.devRef .tc main_arg2)) :=
  (blk19_keep _ main_v79 (by decide)).trans (val18_res15 V)
theorem val19_res16 (V : Valuation τ sig (Elt F)) : val19 V (Proc.devRef .tc main_v84) = fieldTerm 16 (by norm_num) (V (Proc.devRef .tc main_arg0)) (V (Proc.devRef .tc main_arg2)) :=
  (blk19_keep _ main_v84 (by decide)).trans (val18_res16 V)
theorem val19_res17 (V : Valuation τ sig (Elt F)) : val19 V (Proc.devRef .tc main_v89) = fieldTerm 17 (by norm_num) (V (Proc.devRef .tc main_arg0)) (V (Proc.devRef .tc main_arg2)) :=
  (blk19_keep _ main_v89 (by decide)).trans (val18_res17 V)
theorem val19_res18 (V : Valuation τ sig (Elt F)) : val19 V (Proc.devRef .tc main_v94) = fieldTerm 18 (by norm_num) (V (Proc.devRef .tc main_arg0)) (V (Proc.devRef .tc main_arg2)) :=
  (blk19_keep _ main_v94 (by decide)).trans (val18_res18 V)
theorem val19_res19 (V : Valuation τ sig (Elt F)) : val19 V (Proc.devRef .tc main_v99) = fieldTerm 19 (by norm_num) (V (Proc.devRef .tc main_arg0)) (V (Proc.devRef .tc main_arg2)) := by
  unfold val19
  rw [blk19_res, val18_arg0, val18_arg2]

/-! Block 20 -/
theorem val20_arg0 (V : Valuation τ sig (Elt F)) : val20 V (Proc.devRef .tc main_arg0) = V (Proc.devRef .tc main_arg0) :=
  (blk20_keep _ main_arg0 (by decide)).trans (val19_arg0 V)
theorem val20_arg1 (V : Valuation τ sig (Elt F)) : val20 V (Proc.devRef .tc main_arg1) = V (Proc.devRef .tc main_arg1) :=
  (blk20_keep _ main_arg1 (by decide)).trans (val19_arg1 V)
theorem val20_arg2 (V : Valuation τ sig (Elt F)) : val20 V (Proc.devRef .tc main_arg2) = V (Proc.devRef .tc main_arg2) :=
  (blk20_keep _ main_arg2 (by decide)).trans (val19_arg2 V)
theorem val20_res0 (V : Valuation τ sig (Elt F)) : val20 V (Proc.devRef .tc main_v4) = fieldTerm 0 (by norm_num) (V (Proc.devRef .tc main_arg0)) (V (Proc.devRef .tc main_arg2)) :=
  (blk20_keep _ main_v4 (by decide)).trans (val19_res0 V)
theorem val20_res1 (V : Valuation τ sig (Elt F)) : val20 V (Proc.devRef .tc main_v9) = fieldTerm 1 (by norm_num) (V (Proc.devRef .tc main_arg0)) (V (Proc.devRef .tc main_arg2)) :=
  (blk20_keep _ main_v9 (by decide)).trans (val19_res1 V)
theorem val20_res2 (V : Valuation τ sig (Elt F)) : val20 V (Proc.devRef .tc main_v14) = fieldTerm 2 (by norm_num) (V (Proc.devRef .tc main_arg0)) (V (Proc.devRef .tc main_arg2)) :=
  (blk20_keep _ main_v14 (by decide)).trans (val19_res2 V)
theorem val20_res3 (V : Valuation τ sig (Elt F)) : val20 V (Proc.devRef .tc main_v19) = fieldTerm 3 (by norm_num) (V (Proc.devRef .tc main_arg0)) (V (Proc.devRef .tc main_arg2)) :=
  (blk20_keep _ main_v19 (by decide)).trans (val19_res3 V)
theorem val20_res4 (V : Valuation τ sig (Elt F)) : val20 V (Proc.devRef .tc main_v24) = fieldTerm 4 (by norm_num) (V (Proc.devRef .tc main_arg0)) (V (Proc.devRef .tc main_arg2)) :=
  (blk20_keep _ main_v24 (by decide)).trans (val19_res4 V)
theorem val20_res5 (V : Valuation τ sig (Elt F)) : val20 V (Proc.devRef .tc main_v29) = fieldTerm 5 (by norm_num) (V (Proc.devRef .tc main_arg0)) (V (Proc.devRef .tc main_arg2)) :=
  (blk20_keep _ main_v29 (by decide)).trans (val19_res5 V)
theorem val20_res6 (V : Valuation τ sig (Elt F)) : val20 V (Proc.devRef .tc main_v34) = fieldTerm 6 (by norm_num) (V (Proc.devRef .tc main_arg0)) (V (Proc.devRef .tc main_arg2)) :=
  (blk20_keep _ main_v34 (by decide)).trans (val19_res6 V)
theorem val20_res7 (V : Valuation τ sig (Elt F)) : val20 V (Proc.devRef .tc main_v39) = fieldTerm 7 (by norm_num) (V (Proc.devRef .tc main_arg0)) (V (Proc.devRef .tc main_arg2)) :=
  (blk20_keep _ main_v39 (by decide)).trans (val19_res7 V)
theorem val20_res8 (V : Valuation τ sig (Elt F)) : val20 V (Proc.devRef .tc main_v44) = fieldTerm 8 (by norm_num) (V (Proc.devRef .tc main_arg0)) (V (Proc.devRef .tc main_arg2)) :=
  (blk20_keep _ main_v44 (by decide)).trans (val19_res8 V)
theorem val20_res9 (V : Valuation τ sig (Elt F)) : val20 V (Proc.devRef .tc main_v49) = fieldTerm 9 (by norm_num) (V (Proc.devRef .tc main_arg0)) (V (Proc.devRef .tc main_arg2)) :=
  (blk20_keep _ main_v49 (by decide)).trans (val19_res9 V)
theorem val20_res10 (V : Valuation τ sig (Elt F)) : val20 V (Proc.devRef .tc main_v54) = fieldTerm 10 (by norm_num) (V (Proc.devRef .tc main_arg0)) (V (Proc.devRef .tc main_arg2)) :=
  (blk20_keep _ main_v54 (by decide)).trans (val19_res10 V)
theorem val20_res11 (V : Valuation τ sig (Elt F)) : val20 V (Proc.devRef .tc main_v59) = fieldTerm 11 (by norm_num) (V (Proc.devRef .tc main_arg0)) (V (Proc.devRef .tc main_arg2)) :=
  (blk20_keep _ main_v59 (by decide)).trans (val19_res11 V)
theorem val20_res12 (V : Valuation τ sig (Elt F)) : val20 V (Proc.devRef .tc main_v64) = fieldTerm 12 (by norm_num) (V (Proc.devRef .tc main_arg0)) (V (Proc.devRef .tc main_arg2)) :=
  (blk20_keep _ main_v64 (by decide)).trans (val19_res12 V)
theorem val20_res13 (V : Valuation τ sig (Elt F)) : val20 V (Proc.devRef .tc main_v69) = fieldTerm 13 (by norm_num) (V (Proc.devRef .tc main_arg0)) (V (Proc.devRef .tc main_arg2)) :=
  (blk20_keep _ main_v69 (by decide)).trans (val19_res13 V)
theorem val20_res14 (V : Valuation τ sig (Elt F)) : val20 V (Proc.devRef .tc main_v74) = fieldTerm 14 (by norm_num) (V (Proc.devRef .tc main_arg0)) (V (Proc.devRef .tc main_arg2)) :=
  (blk20_keep _ main_v74 (by decide)).trans (val19_res14 V)
theorem val20_res15 (V : Valuation τ sig (Elt F)) : val20 V (Proc.devRef .tc main_v79) = fieldTerm 15 (by norm_num) (V (Proc.devRef .tc main_arg0)) (V (Proc.devRef .tc main_arg2)) :=
  (blk20_keep _ main_v79 (by decide)).trans (val19_res15 V)
theorem val20_res16 (V : Valuation τ sig (Elt F)) : val20 V (Proc.devRef .tc main_v84) = fieldTerm 16 (by norm_num) (V (Proc.devRef .tc main_arg0)) (V (Proc.devRef .tc main_arg2)) :=
  (blk20_keep _ main_v84 (by decide)).trans (val19_res16 V)
theorem val20_res17 (V : Valuation τ sig (Elt F)) : val20 V (Proc.devRef .tc main_v89) = fieldTerm 17 (by norm_num) (V (Proc.devRef .tc main_arg0)) (V (Proc.devRef .tc main_arg2)) :=
  (blk20_keep _ main_v89 (by decide)).trans (val19_res17 V)
theorem val20_res18 (V : Valuation τ sig (Elt F)) : val20 V (Proc.devRef .tc main_v94) = fieldTerm 18 (by norm_num) (V (Proc.devRef .tc main_arg0)) (V (Proc.devRef .tc main_arg2)) :=
  (blk20_keep _ main_v94 (by decide)).trans (val19_res18 V)
theorem val20_res19 (V : Valuation τ sig (Elt F)) : val20 V (Proc.devRef .tc main_v99) = fieldTerm 19 (by norm_num) (V (Proc.devRef .tc main_arg0)) (V (Proc.devRef .tc main_arg2)) :=
  (blk20_keep _ main_v99 (by decide)).trans (val19_res19 V)
theorem val20_res20 (V : Valuation τ sig (Elt F)) : val20 V (Proc.devRef .tc main_v104) = fieldTerm 20 (by norm_num) (V (Proc.devRef .tc main_arg0)) (V (Proc.devRef .tc main_arg2)) := by
  unfold val20
  rw [blk20_res, val19_arg0, val19_arg2]

/-! Block 21 -/
theorem val21_arg0 (V : Valuation τ sig (Elt F)) : val21 V (Proc.devRef .tc main_arg0) = V (Proc.devRef .tc main_arg0) :=
  (blk21_keep _ main_arg0 (by decide)).trans (val20_arg0 V)
theorem val21_arg1 (V : Valuation τ sig (Elt F)) : val21 V (Proc.devRef .tc main_arg1) = V (Proc.devRef .tc main_arg1) :=
  (blk21_keep _ main_arg1 (by decide)).trans (val20_arg1 V)
theorem val21_arg2 (V : Valuation τ sig (Elt F)) : val21 V (Proc.devRef .tc main_arg2) = V (Proc.devRef .tc main_arg2) :=
  (blk21_keep _ main_arg2 (by decide)).trans (val20_arg2 V)
theorem val21_res0 (V : Valuation τ sig (Elt F)) : val21 V (Proc.devRef .tc main_v4) = fieldTerm 0 (by norm_num) (V (Proc.devRef .tc main_arg0)) (V (Proc.devRef .tc main_arg2)) :=
  (blk21_keep _ main_v4 (by decide)).trans (val20_res0 V)
theorem val21_res1 (V : Valuation τ sig (Elt F)) : val21 V (Proc.devRef .tc main_v9) = fieldTerm 1 (by norm_num) (V (Proc.devRef .tc main_arg0)) (V (Proc.devRef .tc main_arg2)) :=
  (blk21_keep _ main_v9 (by decide)).trans (val20_res1 V)
theorem val21_res2 (V : Valuation τ sig (Elt F)) : val21 V (Proc.devRef .tc main_v14) = fieldTerm 2 (by norm_num) (V (Proc.devRef .tc main_arg0)) (V (Proc.devRef .tc main_arg2)) :=
  (blk21_keep _ main_v14 (by decide)).trans (val20_res2 V)
theorem val21_res3 (V : Valuation τ sig (Elt F)) : val21 V (Proc.devRef .tc main_v19) = fieldTerm 3 (by norm_num) (V (Proc.devRef .tc main_arg0)) (V (Proc.devRef .tc main_arg2)) :=
  (blk21_keep _ main_v19 (by decide)).trans (val20_res3 V)
theorem val21_res4 (V : Valuation τ sig (Elt F)) : val21 V (Proc.devRef .tc main_v24) = fieldTerm 4 (by norm_num) (V (Proc.devRef .tc main_arg0)) (V (Proc.devRef .tc main_arg2)) :=
  (blk21_keep _ main_v24 (by decide)).trans (val20_res4 V)
theorem val21_res5 (V : Valuation τ sig (Elt F)) : val21 V (Proc.devRef .tc main_v29) = fieldTerm 5 (by norm_num) (V (Proc.devRef .tc main_arg0)) (V (Proc.devRef .tc main_arg2)) :=
  (blk21_keep _ main_v29 (by decide)).trans (val20_res5 V)
theorem val21_res6 (V : Valuation τ sig (Elt F)) : val21 V (Proc.devRef .tc main_v34) = fieldTerm 6 (by norm_num) (V (Proc.devRef .tc main_arg0)) (V (Proc.devRef .tc main_arg2)) :=
  (blk21_keep _ main_v34 (by decide)).trans (val20_res6 V)
theorem val21_res7 (V : Valuation τ sig (Elt F)) : val21 V (Proc.devRef .tc main_v39) = fieldTerm 7 (by norm_num) (V (Proc.devRef .tc main_arg0)) (V (Proc.devRef .tc main_arg2)) :=
  (blk21_keep _ main_v39 (by decide)).trans (val20_res7 V)
theorem val21_res8 (V : Valuation τ sig (Elt F)) : val21 V (Proc.devRef .tc main_v44) = fieldTerm 8 (by norm_num) (V (Proc.devRef .tc main_arg0)) (V (Proc.devRef .tc main_arg2)) :=
  (blk21_keep _ main_v44 (by decide)).trans (val20_res8 V)
theorem val21_res9 (V : Valuation τ sig (Elt F)) : val21 V (Proc.devRef .tc main_v49) = fieldTerm 9 (by norm_num) (V (Proc.devRef .tc main_arg0)) (V (Proc.devRef .tc main_arg2)) :=
  (blk21_keep _ main_v49 (by decide)).trans (val20_res9 V)
theorem val21_res10 (V : Valuation τ sig (Elt F)) : val21 V (Proc.devRef .tc main_v54) = fieldTerm 10 (by norm_num) (V (Proc.devRef .tc main_arg0)) (V (Proc.devRef .tc main_arg2)) :=
  (blk21_keep _ main_v54 (by decide)).trans (val20_res10 V)
theorem val21_res11 (V : Valuation τ sig (Elt F)) : val21 V (Proc.devRef .tc main_v59) = fieldTerm 11 (by norm_num) (V (Proc.devRef .tc main_arg0)) (V (Proc.devRef .tc main_arg2)) :=
  (blk21_keep _ main_v59 (by decide)).trans (val20_res11 V)
theorem val21_res12 (V : Valuation τ sig (Elt F)) : val21 V (Proc.devRef .tc main_v64) = fieldTerm 12 (by norm_num) (V (Proc.devRef .tc main_arg0)) (V (Proc.devRef .tc main_arg2)) :=
  (blk21_keep _ main_v64 (by decide)).trans (val20_res12 V)
theorem val21_res13 (V : Valuation τ sig (Elt F)) : val21 V (Proc.devRef .tc main_v69) = fieldTerm 13 (by norm_num) (V (Proc.devRef .tc main_arg0)) (V (Proc.devRef .tc main_arg2)) :=
  (blk21_keep _ main_v69 (by decide)).trans (val20_res13 V)
theorem val21_res14 (V : Valuation τ sig (Elt F)) : val21 V (Proc.devRef .tc main_v74) = fieldTerm 14 (by norm_num) (V (Proc.devRef .tc main_arg0)) (V (Proc.devRef .tc main_arg2)) :=
  (blk21_keep _ main_v74 (by decide)).trans (val20_res14 V)
theorem val21_res15 (V : Valuation τ sig (Elt F)) : val21 V (Proc.devRef .tc main_v79) = fieldTerm 15 (by norm_num) (V (Proc.devRef .tc main_arg0)) (V (Proc.devRef .tc main_arg2)) :=
  (blk21_keep _ main_v79 (by decide)).trans (val20_res15 V)
theorem val21_res16 (V : Valuation τ sig (Elt F)) : val21 V (Proc.devRef .tc main_v84) = fieldTerm 16 (by norm_num) (V (Proc.devRef .tc main_arg0)) (V (Proc.devRef .tc main_arg2)) :=
  (blk21_keep _ main_v84 (by decide)).trans (val20_res16 V)
theorem val21_res17 (V : Valuation τ sig (Elt F)) : val21 V (Proc.devRef .tc main_v89) = fieldTerm 17 (by norm_num) (V (Proc.devRef .tc main_arg0)) (V (Proc.devRef .tc main_arg2)) :=
  (blk21_keep _ main_v89 (by decide)).trans (val20_res17 V)
theorem val21_res18 (V : Valuation τ sig (Elt F)) : val21 V (Proc.devRef .tc main_v94) = fieldTerm 18 (by norm_num) (V (Proc.devRef .tc main_arg0)) (V (Proc.devRef .tc main_arg2)) :=
  (blk21_keep _ main_v94 (by decide)).trans (val20_res18 V)
theorem val21_res19 (V : Valuation τ sig (Elt F)) : val21 V (Proc.devRef .tc main_v99) = fieldTerm 19 (by norm_num) (V (Proc.devRef .tc main_arg0)) (V (Proc.devRef .tc main_arg2)) :=
  (blk21_keep _ main_v99 (by decide)).trans (val20_res19 V)
theorem val21_res20 (V : Valuation τ sig (Elt F)) : val21 V (Proc.devRef .tc main_v104) = fieldTerm 20 (by norm_num) (V (Proc.devRef .tc main_arg0)) (V (Proc.devRef .tc main_arg2)) :=
  (blk21_keep _ main_v104 (by decide)).trans (val20_res20 V)
theorem val21_res21 (V : Valuation τ sig (Elt F)) : val21 V (Proc.devRef .tc main_v109) = fieldTerm 21 (by norm_num) (V (Proc.devRef .tc main_arg0)) (V (Proc.devRef .tc main_arg2)) := by
  unfold val21
  rw [blk21_res, val20_arg0, val20_arg2]

/-! Block 22 -/
theorem val22_arg0 (V : Valuation τ sig (Elt F)) : val22 V (Proc.devRef .tc main_arg0) = V (Proc.devRef .tc main_arg0) :=
  (blk22_keep _ main_arg0 (by decide)).trans (val21_arg0 V)
theorem val22_arg1 (V : Valuation τ sig (Elt F)) : val22 V (Proc.devRef .tc main_arg1) = V (Proc.devRef .tc main_arg1) :=
  (blk22_keep _ main_arg1 (by decide)).trans (val21_arg1 V)
theorem val22_arg2 (V : Valuation τ sig (Elt F)) : val22 V (Proc.devRef .tc main_arg2) = V (Proc.devRef .tc main_arg2) :=
  (blk22_keep _ main_arg2 (by decide)).trans (val21_arg2 V)
theorem val22_res0 (V : Valuation τ sig (Elt F)) : val22 V (Proc.devRef .tc main_v4) = fieldTerm 0 (by norm_num) (V (Proc.devRef .tc main_arg0)) (V (Proc.devRef .tc main_arg2)) :=
  (blk22_keep _ main_v4 (by decide)).trans (val21_res0 V)
theorem val22_res1 (V : Valuation τ sig (Elt F)) : val22 V (Proc.devRef .tc main_v9) = fieldTerm 1 (by norm_num) (V (Proc.devRef .tc main_arg0)) (V (Proc.devRef .tc main_arg2)) :=
  (blk22_keep _ main_v9 (by decide)).trans (val21_res1 V)
theorem val22_res2 (V : Valuation τ sig (Elt F)) : val22 V (Proc.devRef .tc main_v14) = fieldTerm 2 (by norm_num) (V (Proc.devRef .tc main_arg0)) (V (Proc.devRef .tc main_arg2)) :=
  (blk22_keep _ main_v14 (by decide)).trans (val21_res2 V)
theorem val22_res3 (V : Valuation τ sig (Elt F)) : val22 V (Proc.devRef .tc main_v19) = fieldTerm 3 (by norm_num) (V (Proc.devRef .tc main_arg0)) (V (Proc.devRef .tc main_arg2)) :=
  (blk22_keep _ main_v19 (by decide)).trans (val21_res3 V)
theorem val22_res4 (V : Valuation τ sig (Elt F)) : val22 V (Proc.devRef .tc main_v24) = fieldTerm 4 (by norm_num) (V (Proc.devRef .tc main_arg0)) (V (Proc.devRef .tc main_arg2)) :=
  (blk22_keep _ main_v24 (by decide)).trans (val21_res4 V)
theorem val22_res5 (V : Valuation τ sig (Elt F)) : val22 V (Proc.devRef .tc main_v29) = fieldTerm 5 (by norm_num) (V (Proc.devRef .tc main_arg0)) (V (Proc.devRef .tc main_arg2)) :=
  (blk22_keep _ main_v29 (by decide)).trans (val21_res5 V)
theorem val22_res6 (V : Valuation τ sig (Elt F)) : val22 V (Proc.devRef .tc main_v34) = fieldTerm 6 (by norm_num) (V (Proc.devRef .tc main_arg0)) (V (Proc.devRef .tc main_arg2)) :=
  (blk22_keep _ main_v34 (by decide)).trans (val21_res6 V)
theorem val22_res7 (V : Valuation τ sig (Elt F)) : val22 V (Proc.devRef .tc main_v39) = fieldTerm 7 (by norm_num) (V (Proc.devRef .tc main_arg0)) (V (Proc.devRef .tc main_arg2)) :=
  (blk22_keep _ main_v39 (by decide)).trans (val21_res7 V)
theorem val22_res8 (V : Valuation τ sig (Elt F)) : val22 V (Proc.devRef .tc main_v44) = fieldTerm 8 (by norm_num) (V (Proc.devRef .tc main_arg0)) (V (Proc.devRef .tc main_arg2)) :=
  (blk22_keep _ main_v44 (by decide)).trans (val21_res8 V)
theorem val22_res9 (V : Valuation τ sig (Elt F)) : val22 V (Proc.devRef .tc main_v49) = fieldTerm 9 (by norm_num) (V (Proc.devRef .tc main_arg0)) (V (Proc.devRef .tc main_arg2)) :=
  (blk22_keep _ main_v49 (by decide)).trans (val21_res9 V)
theorem val22_res10 (V : Valuation τ sig (Elt F)) : val22 V (Proc.devRef .tc main_v54) = fieldTerm 10 (by norm_num) (V (Proc.devRef .tc main_arg0)) (V (Proc.devRef .tc main_arg2)) :=
  (blk22_keep _ main_v54 (by decide)).trans (val21_res10 V)
theorem val22_res11 (V : Valuation τ sig (Elt F)) : val22 V (Proc.devRef .tc main_v59) = fieldTerm 11 (by norm_num) (V (Proc.devRef .tc main_arg0)) (V (Proc.devRef .tc main_arg2)) :=
  (blk22_keep _ main_v59 (by decide)).trans (val21_res11 V)
theorem val22_res12 (V : Valuation τ sig (Elt F)) : val22 V (Proc.devRef .tc main_v64) = fieldTerm 12 (by norm_num) (V (Proc.devRef .tc main_arg0)) (V (Proc.devRef .tc main_arg2)) :=
  (blk22_keep _ main_v64 (by decide)).trans (val21_res12 V)
theorem val22_res13 (V : Valuation τ sig (Elt F)) : val22 V (Proc.devRef .tc main_v69) = fieldTerm 13 (by norm_num) (V (Proc.devRef .tc main_arg0)) (V (Proc.devRef .tc main_arg2)) :=
  (blk22_keep _ main_v69 (by decide)).trans (val21_res13 V)
theorem val22_res14 (V : Valuation τ sig (Elt F)) : val22 V (Proc.devRef .tc main_v74) = fieldTerm 14 (by norm_num) (V (Proc.devRef .tc main_arg0)) (V (Proc.devRef .tc main_arg2)) :=
  (blk22_keep _ main_v74 (by decide)).trans (val21_res14 V)
theorem val22_res15 (V : Valuation τ sig (Elt F)) : val22 V (Proc.devRef .tc main_v79) = fieldTerm 15 (by norm_num) (V (Proc.devRef .tc main_arg0)) (V (Proc.devRef .tc main_arg2)) :=
  (blk22_keep _ main_v79 (by decide)).trans (val21_res15 V)
theorem val22_res16 (V : Valuation τ sig (Elt F)) : val22 V (Proc.devRef .tc main_v84) = fieldTerm 16 (by norm_num) (V (Proc.devRef .tc main_arg0)) (V (Proc.devRef .tc main_arg2)) :=
  (blk22_keep _ main_v84 (by decide)).trans (val21_res16 V)
theorem val22_res17 (V : Valuation τ sig (Elt F)) : val22 V (Proc.devRef .tc main_v89) = fieldTerm 17 (by norm_num) (V (Proc.devRef .tc main_arg0)) (V (Proc.devRef .tc main_arg2)) :=
  (blk22_keep _ main_v89 (by decide)).trans (val21_res17 V)
theorem val22_res18 (V : Valuation τ sig (Elt F)) : val22 V (Proc.devRef .tc main_v94) = fieldTerm 18 (by norm_num) (V (Proc.devRef .tc main_arg0)) (V (Proc.devRef .tc main_arg2)) :=
  (blk22_keep _ main_v94 (by decide)).trans (val21_res18 V)
theorem val22_res19 (V : Valuation τ sig (Elt F)) : val22 V (Proc.devRef .tc main_v99) = fieldTerm 19 (by norm_num) (V (Proc.devRef .tc main_arg0)) (V (Proc.devRef .tc main_arg2)) :=
  (blk22_keep _ main_v99 (by decide)).trans (val21_res19 V)
theorem val22_res20 (V : Valuation τ sig (Elt F)) : val22 V (Proc.devRef .tc main_v104) = fieldTerm 20 (by norm_num) (V (Proc.devRef .tc main_arg0)) (V (Proc.devRef .tc main_arg2)) :=
  (blk22_keep _ main_v104 (by decide)).trans (val21_res20 V)
theorem val22_res21 (V : Valuation τ sig (Elt F)) : val22 V (Proc.devRef .tc main_v109) = fieldTerm 21 (by norm_num) (V (Proc.devRef .tc main_arg0)) (V (Proc.devRef .tc main_arg2)) :=
  (blk22_keep _ main_v109 (by decide)).trans (val21_res21 V)
theorem val22_res22 (V : Valuation τ sig (Elt F)) : val22 V (Proc.devRef .tc main_v114) = fieldTerm 22 (by norm_num) (V (Proc.devRef .tc main_arg0)) (V (Proc.devRef .tc main_arg2)) := by
  unfold val22
  rw [blk22_res, val21_arg0, val21_arg2]

/-! Block 23 -/
theorem val23_arg0 (V : Valuation τ sig (Elt F)) : val23 V (Proc.devRef .tc main_arg0) = V (Proc.devRef .tc main_arg0) :=
  (blk23_keep _ main_arg0 (by decide)).trans (val22_arg0 V)
theorem val23_arg1 (V : Valuation τ sig (Elt F)) : val23 V (Proc.devRef .tc main_arg1) = V (Proc.devRef .tc main_arg1) :=
  (blk23_keep _ main_arg1 (by decide)).trans (val22_arg1 V)
theorem val23_arg2 (V : Valuation τ sig (Elt F)) : val23 V (Proc.devRef .tc main_arg2) = V (Proc.devRef .tc main_arg2) :=
  (blk23_keep _ main_arg2 (by decide)).trans (val22_arg2 V)
theorem val23_res0 (V : Valuation τ sig (Elt F)) : val23 V (Proc.devRef .tc main_v4) = fieldTerm 0 (by norm_num) (V (Proc.devRef .tc main_arg0)) (V (Proc.devRef .tc main_arg2)) :=
  (blk23_keep _ main_v4 (by decide)).trans (val22_res0 V)
theorem val23_res1 (V : Valuation τ sig (Elt F)) : val23 V (Proc.devRef .tc main_v9) = fieldTerm 1 (by norm_num) (V (Proc.devRef .tc main_arg0)) (V (Proc.devRef .tc main_arg2)) :=
  (blk23_keep _ main_v9 (by decide)).trans (val22_res1 V)
theorem val23_res2 (V : Valuation τ sig (Elt F)) : val23 V (Proc.devRef .tc main_v14) = fieldTerm 2 (by norm_num) (V (Proc.devRef .tc main_arg0)) (V (Proc.devRef .tc main_arg2)) :=
  (blk23_keep _ main_v14 (by decide)).trans (val22_res2 V)
theorem val23_res3 (V : Valuation τ sig (Elt F)) : val23 V (Proc.devRef .tc main_v19) = fieldTerm 3 (by norm_num) (V (Proc.devRef .tc main_arg0)) (V (Proc.devRef .tc main_arg2)) :=
  (blk23_keep _ main_v19 (by decide)).trans (val22_res3 V)
theorem val23_res4 (V : Valuation τ sig (Elt F)) : val23 V (Proc.devRef .tc main_v24) = fieldTerm 4 (by norm_num) (V (Proc.devRef .tc main_arg0)) (V (Proc.devRef .tc main_arg2)) :=
  (blk23_keep _ main_v24 (by decide)).trans (val22_res4 V)
theorem val23_res5 (V : Valuation τ sig (Elt F)) : val23 V (Proc.devRef .tc main_v29) = fieldTerm 5 (by norm_num) (V (Proc.devRef .tc main_arg0)) (V (Proc.devRef .tc main_arg2)) :=
  (blk23_keep _ main_v29 (by decide)).trans (val22_res5 V)
theorem val23_res6 (V : Valuation τ sig (Elt F)) : val23 V (Proc.devRef .tc main_v34) = fieldTerm 6 (by norm_num) (V (Proc.devRef .tc main_arg0)) (V (Proc.devRef .tc main_arg2)) :=
  (blk23_keep _ main_v34 (by decide)).trans (val22_res6 V)
theorem val23_res7 (V : Valuation τ sig (Elt F)) : val23 V (Proc.devRef .tc main_v39) = fieldTerm 7 (by norm_num) (V (Proc.devRef .tc main_arg0)) (V (Proc.devRef .tc main_arg2)) :=
  (blk23_keep _ main_v39 (by decide)).trans (val22_res7 V)
theorem val23_res8 (V : Valuation τ sig (Elt F)) : val23 V (Proc.devRef .tc main_v44) = fieldTerm 8 (by norm_num) (V (Proc.devRef .tc main_arg0)) (V (Proc.devRef .tc main_arg2)) :=
  (blk23_keep _ main_v44 (by decide)).trans (val22_res8 V)
theorem val23_res9 (V : Valuation τ sig (Elt F)) : val23 V (Proc.devRef .tc main_v49) = fieldTerm 9 (by norm_num) (V (Proc.devRef .tc main_arg0)) (V (Proc.devRef .tc main_arg2)) :=
  (blk23_keep _ main_v49 (by decide)).trans (val22_res9 V)
theorem val23_res10 (V : Valuation τ sig (Elt F)) : val23 V (Proc.devRef .tc main_v54) = fieldTerm 10 (by norm_num) (V (Proc.devRef .tc main_arg0)) (V (Proc.devRef .tc main_arg2)) :=
  (blk23_keep _ main_v54 (by decide)).trans (val22_res10 V)
theorem val23_res11 (V : Valuation τ sig (Elt F)) : val23 V (Proc.devRef .tc main_v59) = fieldTerm 11 (by norm_num) (V (Proc.devRef .tc main_arg0)) (V (Proc.devRef .tc main_arg2)) :=
  (blk23_keep _ main_v59 (by decide)).trans (val22_res11 V)
theorem val23_res12 (V : Valuation τ sig (Elt F)) : val23 V (Proc.devRef .tc main_v64) = fieldTerm 12 (by norm_num) (V (Proc.devRef .tc main_arg0)) (V (Proc.devRef .tc main_arg2)) :=
  (blk23_keep _ main_v64 (by decide)).trans (val22_res12 V)
theorem val23_res13 (V : Valuation τ sig (Elt F)) : val23 V (Proc.devRef .tc main_v69) = fieldTerm 13 (by norm_num) (V (Proc.devRef .tc main_arg0)) (V (Proc.devRef .tc main_arg2)) :=
  (blk23_keep _ main_v69 (by decide)).trans (val22_res13 V)
theorem val23_res14 (V : Valuation τ sig (Elt F)) : val23 V (Proc.devRef .tc main_v74) = fieldTerm 14 (by norm_num) (V (Proc.devRef .tc main_arg0)) (V (Proc.devRef .tc main_arg2)) :=
  (blk23_keep _ main_v74 (by decide)).trans (val22_res14 V)
theorem val23_res15 (V : Valuation τ sig (Elt F)) : val23 V (Proc.devRef .tc main_v79) = fieldTerm 15 (by norm_num) (V (Proc.devRef .tc main_arg0)) (V (Proc.devRef .tc main_arg2)) :=
  (blk23_keep _ main_v79 (by decide)).trans (val22_res15 V)
theorem val23_res16 (V : Valuation τ sig (Elt F)) : val23 V (Proc.devRef .tc main_v84) = fieldTerm 16 (by norm_num) (V (Proc.devRef .tc main_arg0)) (V (Proc.devRef .tc main_arg2)) :=
  (blk23_keep _ main_v84 (by decide)).trans (val22_res16 V)
theorem val23_res17 (V : Valuation τ sig (Elt F)) : val23 V (Proc.devRef .tc main_v89) = fieldTerm 17 (by norm_num) (V (Proc.devRef .tc main_arg0)) (V (Proc.devRef .tc main_arg2)) :=
  (blk23_keep _ main_v89 (by decide)).trans (val22_res17 V)
theorem val23_res18 (V : Valuation τ sig (Elt F)) : val23 V (Proc.devRef .tc main_v94) = fieldTerm 18 (by norm_num) (V (Proc.devRef .tc main_arg0)) (V (Proc.devRef .tc main_arg2)) :=
  (blk23_keep _ main_v94 (by decide)).trans (val22_res18 V)
theorem val23_res19 (V : Valuation τ sig (Elt F)) : val23 V (Proc.devRef .tc main_v99) = fieldTerm 19 (by norm_num) (V (Proc.devRef .tc main_arg0)) (V (Proc.devRef .tc main_arg2)) :=
  (blk23_keep _ main_v99 (by decide)).trans (val22_res19 V)
theorem val23_res20 (V : Valuation τ sig (Elt F)) : val23 V (Proc.devRef .tc main_v104) = fieldTerm 20 (by norm_num) (V (Proc.devRef .tc main_arg0)) (V (Proc.devRef .tc main_arg2)) :=
  (blk23_keep _ main_v104 (by decide)).trans (val22_res20 V)
theorem val23_res21 (V : Valuation τ sig (Elt F)) : val23 V (Proc.devRef .tc main_v109) = fieldTerm 21 (by norm_num) (V (Proc.devRef .tc main_arg0)) (V (Proc.devRef .tc main_arg2)) :=
  (blk23_keep _ main_v109 (by decide)).trans (val22_res21 V)
theorem val23_res22 (V : Valuation τ sig (Elt F)) : val23 V (Proc.devRef .tc main_v114) = fieldTerm 22 (by norm_num) (V (Proc.devRef .tc main_arg0)) (V (Proc.devRef .tc main_arg2)) :=
  (blk23_keep _ main_v114 (by decide)).trans (val22_res22 V)
theorem val23_res23 (V : Valuation τ sig (Elt F)) : val23 V (Proc.devRef .tc main_v119) = fieldTerm 23 (by norm_num) (V (Proc.devRef .tc main_arg0)) (V (Proc.devRef .tc main_arg2)) := by
  unfold val23
  rw [blk23_res, val22_arg0, val22_arg2]

/-! Block 24 -/
theorem val24_arg0 (V : Valuation τ sig (Elt F)) : val24 V (Proc.devRef .tc main_arg0) = V (Proc.devRef .tc main_arg0) :=
  (blk24_keep _ main_arg0 (by decide)).trans (val23_arg0 V)
theorem val24_arg1 (V : Valuation τ sig (Elt F)) : val24 V (Proc.devRef .tc main_arg1) = V (Proc.devRef .tc main_arg1) :=
  (blk24_keep _ main_arg1 (by decide)).trans (val23_arg1 V)
theorem val24_arg2 (V : Valuation τ sig (Elt F)) : val24 V (Proc.devRef .tc main_arg2) = V (Proc.devRef .tc main_arg2) :=
  (blk24_keep _ main_arg2 (by decide)).trans (val23_arg2 V)
theorem val24_res0 (V : Valuation τ sig (Elt F)) : val24 V (Proc.devRef .tc main_v4) = fieldTerm 0 (by norm_num) (V (Proc.devRef .tc main_arg0)) (V (Proc.devRef .tc main_arg2)) :=
  (blk24_keep _ main_v4 (by decide)).trans (val23_res0 V)
theorem val24_res1 (V : Valuation τ sig (Elt F)) : val24 V (Proc.devRef .tc main_v9) = fieldTerm 1 (by norm_num) (V (Proc.devRef .tc main_arg0)) (V (Proc.devRef .tc main_arg2)) :=
  (blk24_keep _ main_v9 (by decide)).trans (val23_res1 V)
theorem val24_res2 (V : Valuation τ sig (Elt F)) : val24 V (Proc.devRef .tc main_v14) = fieldTerm 2 (by norm_num) (V (Proc.devRef .tc main_arg0)) (V (Proc.devRef .tc main_arg2)) :=
  (blk24_keep _ main_v14 (by decide)).trans (val23_res2 V)
theorem val24_res3 (V : Valuation τ sig (Elt F)) : val24 V (Proc.devRef .tc main_v19) = fieldTerm 3 (by norm_num) (V (Proc.devRef .tc main_arg0)) (V (Proc.devRef .tc main_arg2)) :=
  (blk24_keep _ main_v19 (by decide)).trans (val23_res3 V)
theorem val24_res4 (V : Valuation τ sig (Elt F)) : val24 V (Proc.devRef .tc main_v24) = fieldTerm 4 (by norm_num) (V (Proc.devRef .tc main_arg0)) (V (Proc.devRef .tc main_arg2)) :=
  (blk24_keep _ main_v24 (by decide)).trans (val23_res4 V)
theorem val24_res5 (V : Valuation τ sig (Elt F)) : val24 V (Proc.devRef .tc main_v29) = fieldTerm 5 (by norm_num) (V (Proc.devRef .tc main_arg0)) (V (Proc.devRef .tc main_arg2)) :=
  (blk24_keep _ main_v29 (by decide)).trans (val23_res5 V)
theorem val24_res6 (V : Valuation τ sig (Elt F)) : val24 V (Proc.devRef .tc main_v34) = fieldTerm 6 (by norm_num) (V (Proc.devRef .tc main_arg0)) (V (Proc.devRef .tc main_arg2)) :=
  (blk24_keep _ main_v34 (by decide)).trans (val23_res6 V)
theorem val24_res7 (V : Valuation τ sig (Elt F)) : val24 V (Proc.devRef .tc main_v39) = fieldTerm 7 (by norm_num) (V (Proc.devRef .tc main_arg0)) (V (Proc.devRef .tc main_arg2)) :=
  (blk24_keep _ main_v39 (by decide)).trans (val23_res7 V)
theorem val24_res8 (V : Valuation τ sig (Elt F)) : val24 V (Proc.devRef .tc main_v44) = fieldTerm 8 (by norm_num) (V (Proc.devRef .tc main_arg0)) (V (Proc.devRef .tc main_arg2)) :=
  (blk24_keep _ main_v44 (by decide)).trans (val23_res8 V)
theorem val24_res9 (V : Valuation τ sig (Elt F)) : val24 V (Proc.devRef .tc main_v49) = fieldTerm 9 (by norm_num) (V (Proc.devRef .tc main_arg0)) (V (Proc.devRef .tc main_arg2)) :=
  (blk24_keep _ main_v49 (by decide)).trans (val23_res9 V)
theorem val24_res10 (V : Valuation τ sig (Elt F)) : val24 V (Proc.devRef .tc main_v54) = fieldTerm 10 (by norm_num) (V (Proc.devRef .tc main_arg0)) (V (Proc.devRef .tc main_arg2)) :=
  (blk24_keep _ main_v54 (by decide)).trans (val23_res10 V)
theorem val24_res11 (V : Valuation τ sig (Elt F)) : val24 V (Proc.devRef .tc main_v59) = fieldTerm 11 (by norm_num) (V (Proc.devRef .tc main_arg0)) (V (Proc.devRef .tc main_arg2)) :=
  (blk24_keep _ main_v59 (by decide)).trans (val23_res11 V)
theorem val24_res12 (V : Valuation τ sig (Elt F)) : val24 V (Proc.devRef .tc main_v64) = fieldTerm 12 (by norm_num) (V (Proc.devRef .tc main_arg0)) (V (Proc.devRef .tc main_arg2)) :=
  (blk24_keep _ main_v64 (by decide)).trans (val23_res12 V)
theorem val24_res13 (V : Valuation τ sig (Elt F)) : val24 V (Proc.devRef .tc main_v69) = fieldTerm 13 (by norm_num) (V (Proc.devRef .tc main_arg0)) (V (Proc.devRef .tc main_arg2)) :=
  (blk24_keep _ main_v69 (by decide)).trans (val23_res13 V)
theorem val24_res14 (V : Valuation τ sig (Elt F)) : val24 V (Proc.devRef .tc main_v74) = fieldTerm 14 (by norm_num) (V (Proc.devRef .tc main_arg0)) (V (Proc.devRef .tc main_arg2)) :=
  (blk24_keep _ main_v74 (by decide)).trans (val23_res14 V)
theorem val24_res15 (V : Valuation τ sig (Elt F)) : val24 V (Proc.devRef .tc main_v79) = fieldTerm 15 (by norm_num) (V (Proc.devRef .tc main_arg0)) (V (Proc.devRef .tc main_arg2)) :=
  (blk24_keep _ main_v79 (by decide)).trans (val23_res15 V)
theorem val24_res16 (V : Valuation τ sig (Elt F)) : val24 V (Proc.devRef .tc main_v84) = fieldTerm 16 (by norm_num) (V (Proc.devRef .tc main_arg0)) (V (Proc.devRef .tc main_arg2)) :=
  (blk24_keep _ main_v84 (by decide)).trans (val23_res16 V)
theorem val24_res17 (V : Valuation τ sig (Elt F)) : val24 V (Proc.devRef .tc main_v89) = fieldTerm 17 (by norm_num) (V (Proc.devRef .tc main_arg0)) (V (Proc.devRef .tc main_arg2)) :=
  (blk24_keep _ main_v89 (by decide)).trans (val23_res17 V)
theorem val24_res18 (V : Valuation τ sig (Elt F)) : val24 V (Proc.devRef .tc main_v94) = fieldTerm 18 (by norm_num) (V (Proc.devRef .tc main_arg0)) (V (Proc.devRef .tc main_arg2)) :=
  (blk24_keep _ main_v94 (by decide)).trans (val23_res18 V)
theorem val24_res19 (V : Valuation τ sig (Elt F)) : val24 V (Proc.devRef .tc main_v99) = fieldTerm 19 (by norm_num) (V (Proc.devRef .tc main_arg0)) (V (Proc.devRef .tc main_arg2)) :=
  (blk24_keep _ main_v99 (by decide)).trans (val23_res19 V)
theorem val24_res20 (V : Valuation τ sig (Elt F)) : val24 V (Proc.devRef .tc main_v104) = fieldTerm 20 (by norm_num) (V (Proc.devRef .tc main_arg0)) (V (Proc.devRef .tc main_arg2)) :=
  (blk24_keep _ main_v104 (by decide)).trans (val23_res20 V)
theorem val24_res21 (V : Valuation τ sig (Elt F)) : val24 V (Proc.devRef .tc main_v109) = fieldTerm 21 (by norm_num) (V (Proc.devRef .tc main_arg0)) (V (Proc.devRef .tc main_arg2)) :=
  (blk24_keep _ main_v109 (by decide)).trans (val23_res21 V)
theorem val24_res22 (V : Valuation τ sig (Elt F)) : val24 V (Proc.devRef .tc main_v114) = fieldTerm 22 (by norm_num) (V (Proc.devRef .tc main_arg0)) (V (Proc.devRef .tc main_arg2)) :=
  (blk24_keep _ main_v114 (by decide)).trans (val23_res22 V)
theorem val24_res23 (V : Valuation τ sig (Elt F)) : val24 V (Proc.devRef .tc main_v119) = fieldTerm 23 (by norm_num) (V (Proc.devRef .tc main_arg0)) (V (Proc.devRef .tc main_arg2)) :=
  (blk24_keep _ main_v119 (by decide)).trans (val23_res23 V)
theorem val24_res24 (V : Valuation τ sig (Elt F)) : val24 V (Proc.devRef .tc main_v124) = fieldTerm 24 (by norm_num) (V (Proc.devRef .tc main_arg0)) (V (Proc.devRef .tc main_arg2)) := by
  unfold val24
  rw [blk24_res, val23_arg0, val23_arg2]

/-! Block 25 -/
theorem val25_arg0 (V : Valuation τ sig (Elt F)) : val25 V (Proc.devRef .tc main_arg0) = V (Proc.devRef .tc main_arg0) :=
  (blk25_keep _ main_arg0 (by decide)).trans (val24_arg0 V)
theorem val25_arg1 (V : Valuation τ sig (Elt F)) : val25 V (Proc.devRef .tc main_arg1) = V (Proc.devRef .tc main_arg1) :=
  (blk25_keep _ main_arg1 (by decide)).trans (val24_arg1 V)
theorem val25_arg2 (V : Valuation τ sig (Elt F)) : val25 V (Proc.devRef .tc main_arg2) = V (Proc.devRef .tc main_arg2) :=
  (blk25_keep _ main_arg2 (by decide)).trans (val24_arg2 V)
theorem val25_res0 (V : Valuation τ sig (Elt F)) : val25 V (Proc.devRef .tc main_v4) = fieldTerm 0 (by norm_num) (V (Proc.devRef .tc main_arg0)) (V (Proc.devRef .tc main_arg2)) :=
  (blk25_keep _ main_v4 (by decide)).trans (val24_res0 V)
theorem val25_res1 (V : Valuation τ sig (Elt F)) : val25 V (Proc.devRef .tc main_v9) = fieldTerm 1 (by norm_num) (V (Proc.devRef .tc main_arg0)) (V (Proc.devRef .tc main_arg2)) :=
  (blk25_keep _ main_v9 (by decide)).trans (val24_res1 V)
theorem val25_res2 (V : Valuation τ sig (Elt F)) : val25 V (Proc.devRef .tc main_v14) = fieldTerm 2 (by norm_num) (V (Proc.devRef .tc main_arg0)) (V (Proc.devRef .tc main_arg2)) :=
  (blk25_keep _ main_v14 (by decide)).trans (val24_res2 V)
theorem val25_res3 (V : Valuation τ sig (Elt F)) : val25 V (Proc.devRef .tc main_v19) = fieldTerm 3 (by norm_num) (V (Proc.devRef .tc main_arg0)) (V (Proc.devRef .tc main_arg2)) :=
  (blk25_keep _ main_v19 (by decide)).trans (val24_res3 V)
theorem val25_res4 (V : Valuation τ sig (Elt F)) : val25 V (Proc.devRef .tc main_v24) = fieldTerm 4 (by norm_num) (V (Proc.devRef .tc main_arg0)) (V (Proc.devRef .tc main_arg2)) :=
  (blk25_keep _ main_v24 (by decide)).trans (val24_res4 V)
theorem val25_res5 (V : Valuation τ sig (Elt F)) : val25 V (Proc.devRef .tc main_v29) = fieldTerm 5 (by norm_num) (V (Proc.devRef .tc main_arg0)) (V (Proc.devRef .tc main_arg2)) :=
  (blk25_keep _ main_v29 (by decide)).trans (val24_res5 V)
theorem val25_res6 (V : Valuation τ sig (Elt F)) : val25 V (Proc.devRef .tc main_v34) = fieldTerm 6 (by norm_num) (V (Proc.devRef .tc main_arg0)) (V (Proc.devRef .tc main_arg2)) :=
  (blk25_keep _ main_v34 (by decide)).trans (val24_res6 V)
theorem val25_res7 (V : Valuation τ sig (Elt F)) : val25 V (Proc.devRef .tc main_v39) = fieldTerm 7 (by norm_num) (V (Proc.devRef .tc main_arg0)) (V (Proc.devRef .tc main_arg2)) :=
  (blk25_keep _ main_v39 (by decide)).trans (val24_res7 V)
theorem val25_res8 (V : Valuation τ sig (Elt F)) : val25 V (Proc.devRef .tc main_v44) = fieldTerm 8 (by norm_num) (V (Proc.devRef .tc main_arg0)) (V (Proc.devRef .tc main_arg2)) :=
  (blk25_keep _ main_v44 (by decide)).trans (val24_res8 V)
theorem val25_res9 (V : Valuation τ sig (Elt F)) : val25 V (Proc.devRef .tc main_v49) = fieldTerm 9 (by norm_num) (V (Proc.devRef .tc main_arg0)) (V (Proc.devRef .tc main_arg2)) :=
  (blk25_keep _ main_v49 (by decide)).trans (val24_res9 V)
theorem val25_res10 (V : Valuation τ sig (Elt F)) : val25 V (Proc.devRef .tc main_v54) = fieldTerm 10 (by norm_num) (V (Proc.devRef .tc main_arg0)) (V (Proc.devRef .tc main_arg2)) :=
  (blk25_keep _ main_v54 (by decide)).trans (val24_res10 V)
theorem val25_res11 (V : Valuation τ sig (Elt F)) : val25 V (Proc.devRef .tc main_v59) = fieldTerm 11 (by norm_num) (V (Proc.devRef .tc main_arg0)) (V (Proc.devRef .tc main_arg2)) :=
  (blk25_keep _ main_v59 (by decide)).trans (val24_res11 V)
theorem val25_res12 (V : Valuation τ sig (Elt F)) : val25 V (Proc.devRef .tc main_v64) = fieldTerm 12 (by norm_num) (V (Proc.devRef .tc main_arg0)) (V (Proc.devRef .tc main_arg2)) :=
  (blk25_keep _ main_v64 (by decide)).trans (val24_res12 V)
theorem val25_res13 (V : Valuation τ sig (Elt F)) : val25 V (Proc.devRef .tc main_v69) = fieldTerm 13 (by norm_num) (V (Proc.devRef .tc main_arg0)) (V (Proc.devRef .tc main_arg2)) :=
  (blk25_keep _ main_v69 (by decide)).trans (val24_res13 V)
theorem val25_res14 (V : Valuation τ sig (Elt F)) : val25 V (Proc.devRef .tc main_v74) = fieldTerm 14 (by norm_num) (V (Proc.devRef .tc main_arg0)) (V (Proc.devRef .tc main_arg2)) :=
  (blk25_keep _ main_v74 (by decide)).trans (val24_res14 V)
theorem val25_res15 (V : Valuation τ sig (Elt F)) : val25 V (Proc.devRef .tc main_v79) = fieldTerm 15 (by norm_num) (V (Proc.devRef .tc main_arg0)) (V (Proc.devRef .tc main_arg2)) :=
  (blk25_keep _ main_v79 (by decide)).trans (val24_res15 V)
theorem val25_res16 (V : Valuation τ sig (Elt F)) : val25 V (Proc.devRef .tc main_v84) = fieldTerm 16 (by norm_num) (V (Proc.devRef .tc main_arg0)) (V (Proc.devRef .tc main_arg2)) :=
  (blk25_keep _ main_v84 (by decide)).trans (val24_res16 V)
theorem val25_res17 (V : Valuation τ sig (Elt F)) : val25 V (Proc.devRef .tc main_v89) = fieldTerm 17 (by norm_num) (V (Proc.devRef .tc main_arg0)) (V (Proc.devRef .tc main_arg2)) :=
  (blk25_keep _ main_v89 (by decide)).trans (val24_res17 V)
theorem val25_res18 (V : Valuation τ sig (Elt F)) : val25 V (Proc.devRef .tc main_v94) = fieldTerm 18 (by norm_num) (V (Proc.devRef .tc main_arg0)) (V (Proc.devRef .tc main_arg2)) :=
  (blk25_keep _ main_v94 (by decide)).trans (val24_res18 V)
theorem val25_res19 (V : Valuation τ sig (Elt F)) : val25 V (Proc.devRef .tc main_v99) = fieldTerm 19 (by norm_num) (V (Proc.devRef .tc main_arg0)) (V (Proc.devRef .tc main_arg2)) :=
  (blk25_keep _ main_v99 (by decide)).trans (val24_res19 V)
theorem val25_res20 (V : Valuation τ sig (Elt F)) : val25 V (Proc.devRef .tc main_v104) = fieldTerm 20 (by norm_num) (V (Proc.devRef .tc main_arg0)) (V (Proc.devRef .tc main_arg2)) :=
  (blk25_keep _ main_v104 (by decide)).trans (val24_res20 V)
theorem val25_res21 (V : Valuation τ sig (Elt F)) : val25 V (Proc.devRef .tc main_v109) = fieldTerm 21 (by norm_num) (V (Proc.devRef .tc main_arg0)) (V (Proc.devRef .tc main_arg2)) :=
  (blk25_keep _ main_v109 (by decide)).trans (val24_res21 V)
theorem val25_res22 (V : Valuation τ sig (Elt F)) : val25 V (Proc.devRef .tc main_v114) = fieldTerm 22 (by norm_num) (V (Proc.devRef .tc main_arg0)) (V (Proc.devRef .tc main_arg2)) :=
  (blk25_keep _ main_v114 (by decide)).trans (val24_res22 V)
theorem val25_res23 (V : Valuation τ sig (Elt F)) : val25 V (Proc.devRef .tc main_v119) = fieldTerm 23 (by norm_num) (V (Proc.devRef .tc main_arg0)) (V (Proc.devRef .tc main_arg2)) :=
  (blk25_keep _ main_v119 (by decide)).trans (val24_res23 V)
theorem val25_res24 (V : Valuation τ sig (Elt F)) : val25 V (Proc.devRef .tc main_v124) = fieldTerm 24 (by norm_num) (V (Proc.devRef .tc main_arg0)) (V (Proc.devRef .tc main_arg2)) :=
  (blk25_keep _ main_v124 (by decide)).trans (val24_res24 V)
theorem val25_res25 (V : Valuation τ sig (Elt F)) : val25 V (Proc.devRef .tc main_v129) = fieldTerm 25 (by norm_num) (V (Proc.devRef .tc main_arg0)) (V (Proc.devRef .tc main_arg2)) := by
  unfold val25
  rw [blk25_res, val24_arg0, val24_arg2]

/-! ### The concatenations -/

theorem tail_writes : ∀ op ∈ tailOps (F := F), op.writes ⊆ (([main_v130, main_v131, main_v132, main_v133] : List (Ref sig .tc)).map (Proc.devRef (τ := τ) .tc)).toFinset := by
  intro op h
  simp only [tailOps, List.mem_cons, List.not_mem_nil, or_false] at h
  rcases h with rfl | rfl | rfl | rfl <;>
    (simp only [nary_writes, binary_writes, Finset.singleton_subset_iff, List.mem_toFinset]
     refine List.mem_map_of_mem ?_
     repeat (first | exact List.mem_cons_self | apply List.mem_cons_of_mem))

theorem tail_keep (V : Valuation τ sig (Elt F)) (r : Ref sig .tc) (h : r ∉ ([main_v130, main_v131, main_v132, main_v133] : List (Ref sig .tc))) :
    after tailOps V (Proc.devRef .tc r) = V (Proc.devRef .tc r) :=
  keep_of_writes tail_writes V r h

set_option maxHeartbeats 1000000 in
theorem tail_res (V : Valuation τ sig (Elt F)) :
    after tailOps V (Proc.devRef .tc main_v133) =
      concatenate S4096x3341 1
        [⟨S4096x3328, concatenate S4096x3328 1
          [⟨S4096x2048, concatenate S4096x2048 1
            [⟨S4096x128, V (Proc.devRef .tc main_v4)⟩, ⟨S4096x128, V (Proc.devRef .tc main_v9)⟩, ⟨S4096x128, V (Proc.devRef .tc main_v14)⟩, ⟨S4096x128, V (Proc.devRef .tc main_v19)⟩, ⟨S4096x128, V (Proc.devRef .tc main_v24)⟩, ⟨S4096x128, V (Proc.devRef .tc main_v29)⟩, ⟨S4096x128, V (Proc.devRef .tc main_v34)⟩, ⟨S4096x128, V (Proc.devRef .tc main_v39)⟩, ⟨S4096x128, V (Proc.devRef .tc main_v44)⟩, ⟨S4096x128, V (Proc.devRef .tc main_v49)⟩, ⟨S4096x128, V (Proc.devRef .tc main_v54)⟩, ⟨S4096x128, V (Proc.devRef .tc main_v59)⟩, ⟨S4096x128, V (Proc.devRef .tc main_v64)⟩, ⟨S4096x128, V (Proc.devRef .tc main_v69)⟩, ⟨S4096x128, V (Proc.devRef .tc main_v74)⟩, ⟨S4096x128, V (Proc.devRef .tc main_v79)⟩]
            concatenates_S4096x128_S4096x128_S4096x128_S4096x128_S4096x128_S4096x128_S4096x128_S4096x128_S4096x128_S4096x128_S4096x128_S4096x128_S4096x128_S4096x128_S4096x128_S4096x128_S4096x2048_d1⟩,
           ⟨S4096x1280, concatenate S4096x1280 1
            [⟨S4096x128, V (Proc.devRef .tc main_v84)⟩, ⟨S4096x128, V (Proc.devRef .tc main_v89)⟩, ⟨S4096x128, V (Proc.devRef .tc main_v94)⟩, ⟨S4096x128, V (Proc.devRef .tc main_v99)⟩, ⟨S4096x128, V (Proc.devRef .tc main_v104)⟩, ⟨S4096x128, V (Proc.devRef .tc main_v109)⟩, ⟨S4096x128, V (Proc.devRef .tc main_v114)⟩, ⟨S4096x128, V (Proc.devRef .tc main_v119)⟩, ⟨S4096x128, V (Proc.devRef .tc main_v124)⟩, ⟨S4096x128, V (Proc.devRef .tc main_v129)⟩]
            concatenates_S4096x128_S4096x128_S4096x128_S4096x128_S4096x128_S4096x128_S4096x128_S4096x128_S4096x128_S4096x128_S4096x1280_d1⟩]
          concatenates_S4096x2048_S4096x1280_S4096x3328_d1⟩,
         ⟨S4096x13, V (Proc.devRef .tc main_arg1)⟩]
        concatenates_S4096x3328_S4096x13_S4096x3341_d1 := by
  simp only [tailOps]
  after_results_simp
  rfl

/-- The result buffer after the whole line: `refTerm` of the arguments' contents before it. -/
theorem ops_res (V : Valuation τ sig (Elt F)) :
    after ops V (Proc.devRef .tc main_v133) = refTerm (V (Proc.devRef .tc main_arg0)) (V (Proc.devRef .tc main_arg1)) (V (Proc.devRef .tc main_arg2)) := by
  rw [ops_after, tail_res, val25_res0, val25_res1, val25_res2, val25_res3, val25_res4, val25_res5, val25_res6, val25_res7, val25_res8, val25_res9, val25_res10, val25_res11, val25_res12, val25_res13, val25_res14, val25_res15, val25_res16, val25_res17, val25_res18, val25_res19, val25_res20, val25_res21, val25_res22, val25_res23, val25_res24, val25_res25, val25_arg1]
  rfl

theorem ops_arg0 (V : Valuation τ sig (Elt F)) : after ops V (Proc.devRef .tc main_arg0) = V (Proc.devRef .tc main_arg0) := by
  rw [ops_after, tail_keep _ _ (by decide), val25_arg0]
theorem ops_arg1 (V : Valuation τ sig (Elt F)) : after ops V (Proc.devRef .tc main_arg1) = V (Proc.devRef .tc main_arg1) := by
  rw [ops_after, tail_keep _ _ (by decide), val25_arg1]
theorem ops_arg2 (V : Valuation τ sig (Elt F)) : after ops V (Proc.devRef .tc main_arg2) = V (Proc.devRef .tc main_arg2) := by
  rw [ops_after, tail_keep _ _ (by decide), val25_arg2]

/-- At the compiled mesh, for any float values, from any memory with zero counters: every weakly fair execution of the
    program terminates, nothing faulting, with the result buffer at `refTerm` of the arguments' launch contents and
    the arguments unchanged. No hypothesis on the contents. -/
theorem run0 (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_v133)
          = refTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v133).trans (ops_res _), (h c main_arg0).trans (ops_arg0 _),
      (h c main_arg1).trans (ops_arg1 _), (h c main_arg2).trans (ops_arg2 _)⟩)
    (run_seq scopedRefs_eq scopedSems_eq defs main (fun _ => ops) main_eq
      (fun _ => List.forall_iff_forall_mem.mpr fun op h => (ops_good op h).1) m g (fun _ op h => (ops_good op h).2))

end Cert.RefSide
end
-- ==== Proof.RefSpec.lean ====
/-
  The reference's result term is the specification's function, every categorical index in `[0, 999]`.
  A word in that range reads the same signed and unsigned, so the row-lookup function keeps the index (it is not
  negative), its range mask is all ones (so no row is replaced by NaN) and its gather, which clamps a start index into
  `[0, 999]`, reads the row the index names; the slices and reshapes in front pick table `f` and column `f`; the
  concatenations behind read piece `j / 128` at lane `j % 128` for a column `j < 3328`, the numeric features past it.
-/
import proofs.«201888_g37099927503118_cont_8to1_b_213_13_alg».proof.Proof.RefTake
import proofs.«201888_g37099927503118_cont_8to1_b_213_13_alg».proof.Proof.Spec
import proofs.«201888_g37099927503118_cont_8to1_b_213_13_alg».proof.Proof.Spec
import Idealize.ShloMosaic.Lib.StableHlo.Run
import Idealize.ShloMosaic.Lib.Pipeline.Value
import Idealize.ShloMosaic.Lib.ValueIdx
import Idealize.ShloMosaic.Lib.Affine

noncomputable section

namespace Cert.RefSide

open Cert.ReferenceIdeal Idealize.ShloMosaic Idealize.ShloMosaic.TcCoe Idealize.SL.Sem Idealize.ShloMosaic.StableHlo
open Cert.ReferenceIdeal.Facts₀ Idealize.ShloMosaic.ValueIdx

variable {F : FTy → Type} [FloatOps F]

/-! ### Words in `[0, 999]`: signed and unsigned readings agree -/

theorem toInt_small (x : BitVec 32) (h : x.toNat ≤ 999) : x.toInt = (x.toNat : Int) := by
  rw [BitVec.toInt_eq_toNat_cond, if_pos (by omega)]

theorem not_slt_zero (x : BitVec 32) (h : x.toNat ≤ 999) : ¬ IntOp.cmpi .slt x 0#32 = 1#1 := by
  intro hh
  have h1 := IntOp.cmpi_slt.mp hh
  rw [toInt_small x h] at h1
  have h0 : (0#32 : BitVec 32).toInt = 0 := by decide
  rw [h0] at h1; omega

theorem sge_zero (x : BitVec 32) (h : x.toNat ≤ 999) : IntOp.cmpi .sge x 0#32 = 1#1 := by
  refine IntOp.cmpi_sge.mpr ?_
  rw [toInt_small x h]
  have h0 : (0#32 : BitVec 32).toInt = 0 := by decide
  rw [h0]; omega

theorem sle_999 (x : BitVec 32) (h : x.toNat ≤ 999) : IntOp.cmpi .sle x 999#32 = 1#1 := by
  refine IntOp.cmpi_sle.mpr ?_
  rw [toInt_small x h]
  have h0 : (999#32 : BitVec 32).toInt = 999 := by decide
  rw [h0]; omega

theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-! ### The row-lookup function's index handling, for indices in range -/

theorem idxFix_apply (idx : (⟨S4096, .i32⟩ : BufTy).Contents (Elt F)) (i : S4096.Idx) (h : BitVec.toNat (idx i) ≤ 999) :
    idxFix (F := F) idx i = idx i := by
  show Scalar.select (IntOp.cmpi .slt (idx i) 0#32) _ (idx i) = idx i
  unfold Scalar.select
  exact if_neg (not_slt_zero _ h)

theorem idxCol_apply (idx : (⟨S4096, .i32⟩ : BufTy).Contents (Elt F)) (h : ∀ i, BitVec.toNat (idx i) ≤ 999) (c : S4096x1.Idx) :
    idxCol (F := F) idx c = idx (ix1 ⟨(c 0).val, idx2_lt0 c⟩) := by
  unfold idxCol
  rw [broadcastInDim_apply ![0] bcast_S4096_S4096x1_0 _ c (ix1 ⟨(c 0).val, idx2_lt0 c⟩) (fun a => match a with | ⟨0, _⟩ => rfl)]
  exact idxFix_apply idx _ (h _)

theorem idxMask_apply (idx : (⟨S4096, .i32⟩ : BufTy).Contents (Elt F)) (h : ∀ i, BitVec.toNat (idx i) ≤ 999) (j : S4096.Idx) :
    idxMask (F := F) idx j = 1#1 := by
  unfold idxMask Host.reduce
  refine foldl_andi_one _ (fun n => ?_) _
  show IntOp.andi (IntOp.cmpi .sge (idxCol (F := F) idx _) 0#32) (IntOp.cmpi .sle (idxCol (F := F) idx _) 999#32) = 1#1
  rw [idxCol_apply idx h, sge_zero _ (h _), sle_999 _ (h _)]
  decide

/-! ### The gather of rows, a table and an index column, each read at an index -/

/-- The gather of rows read at `(b, e)`: lane `e` of the row whose number is start index `b`, read signed and clamped
    into `[0, 999]`. -/
theorem gather_row_apply {α : Type} (tab : S1000x128.Idx → α) (col : IVec S4096x1 32) (b : Fin 4096) (e : Fin 128) :
    Host.gather gather_S1000x128_S4096x1_S4096x128_1_0_n_n_0_1_1128 tab col (ix2 b e)
      = tab (ix2 (⟨min (col (ix2 b (0 : Fin 1))).toInt.toNat 999, by omega⟩ : Fin 1000) e) := by
  unfold Host.gather
  congr 1
  funext a
  refine Fin.ext ?_
  show gather_S1000x128_S4096x1_S4096x128_1_0_n_n_0_1_1128.start (ix2 b e) col a
      + gather_S1000x128_S4096x1_S4096x128_1_0_n_n_0_1_1128.batchCoord (ix2 b e) a
      + gather_S1000x128_S4096x1_S4096x128_1_0_n_n_0_1_1128.offCoord (ix2 b e) a = _
  rw [GatherDims.batchCoord_eq_zero _ _ _ List.not_mem_nil]
  match a with
  | ⟨0, h0⟩ =>
    have hmem : (⟨0, h0⟩ : Fin S1000x128.rank) ∈ gather_S1000x128_S4096x1_S4096x128_1_0_n_n_0_1_1128.startIndexMap :=
      List.mem_singleton.mpr rfl
    rw [GatherDims.offCoord_eq_zero _ _ _ (fun h => ((GatherDims.mem_sKept _ _).mp h).1 (List.mem_singleton.mpr rfl))]
    simp only [Nat.add_zero]
    unfold GatherDims.start
    rw [dif_pos hmem]
    have hsi : gather_S1000x128_S4096x1_S4096x128_1_0_n_n_0_1_1128.siIdx (ix2 b e)
        ⟨List.idxOf (⟨0, h0⟩ : Fin S1000x128.rank) gather_S1000x128_S4096x1_S4096x128_1_0_n_n_0_1_1128.startIndexMap,
          List.idxOf_lt_length_iff.2 hmem⟩ = ix2 b (0 : Fin 1) := by
      funext b'; refine Fin.ext ?_
      match b' with
      | ⟨0, _⟩ => rfl
      | ⟨1, _⟩ => rfl
    rw [hsi]
    rfl
  | ⟨1, _⟩ =>
    have hs : gather_S1000x128_S4096x1_S4096x128_1_0_n_n_0_1_1128.start (ix2 b e) col (1 : Fin 2) = 0 := by
      unfold GatherDims.start
      rw [dif_neg (by decide)]
    have ho : gather_S1000x128_S4096x1_S4096x128_1_0_n_n_0_1_1128.offCoord (ix2 b e) (1 : Fin 2) = e.val := by
      unfold GatherDims.offCoord
      rw [dif_pos (by decide)]
      rfl
    show gather_S1000x128_S4096x1_S4096x128_1_0_n_n_0_1_1128.start (ix2 b e) col (1 : Fin 2) + 0
      + gather_S1000x128_S4096x1_S4096x128_1_0_n_n_0_1_1128.offCoord (ix2 b e) (1 : Fin 2) = e.val
    rw [hs, ho]; omega

/-- Table `f` cut out of the stack and flattened, read at `(r, e)`. -/
theorem tab_apply {α : Type} (f : Nat) (hf : f < 26) (tb : S26x1000x128.Idx → α) (r : Fin 1000) (e : Fin 128) :
    shapeCast S1000x128 (extractStridedSlice S1x1000x128 ![f, 0, 0] tb (slicesTab f hf)) shapeCasts_S1x1000x128_S1000x128 (ix2 r e)
      = tb (ix3 (⟨f, hf⟩ : Fin 26) r e) := by
  rw [shapeCast_apply _ shapeCasts_S1x1000x128_S1000x128 (ix2 r e) (ix3 (0 : Fin 1) r e)
    (by rw [Shape.rowMajor_val_three, Shape.rowMajor_val_two]; show (0 * 1000 + r.val) * 128 + e.val = r.val * 128 + e.val; omega)]
  exact extractStridedSlice_apply _ _ _ _ (ix3 (⟨f, hf⟩ : Fin 26) r e) (fun a => match a with
    | ⟨0, _⟩ => by show f = f + 0; omega
    | ⟨1, _⟩ => by show r.val = 0 + r.val; omega
    | ⟨2, _⟩ => by show e.val = 0 + e.val; omega)

/-- Column `f` of the categorical indices cut out and flattened, read at `b`. -/
theorem idx_apply (f : Nat) (hf : f < 26) (xc : S4096x26.Idx → BitVec 32) (i : S4096.Idx) :
    shapeCast S4096 (extractStridedSlice S4096x1 ![0, f] xc (slicesCat f hf)) shapeCasts_S4096x1_S4096 i
      = xc (ix2 (⟨(i 0).val, (i 0).isLt⟩ : Fin 4096) (⟨f, hf⟩ : Fin 26)) := by
  rw [shapeCast_apply _ shapeCasts_S4096x1_S4096 i (ix2 (⟨(i 0).val, (i 0).isLt⟩ : Fin 4096) (0 : Fin 1))
    (by rw [Shape.rowMajor_val_two, Shape.rowMajor_val_one]; show (i 0).val * 1 + 0 = (i 0).val; omega)]
  exact extractStridedSlice_apply _ _ _ _ (ix2 (⟨(i 0).val, (i 0).isLt⟩ : Fin 4096) (⟨f, hf⟩ : Fin 26)) (fun a => match a with
    | ⟨0, _⟩ => by show (i 0).val = 0 + (i 0).val; omega
    | ⟨1, _⟩ => by show f = f + 0; omega)

/-- FIELD `f`'S PIECE READ AT `(b, e)`, every index in range: lane `e` of row `x_cat[b, f]` of table `f`. -/
theorem fieldTerm_read (f : Nat) (hf : f < 26) (xc : (⟨S4096x26, .i32⟩ : BufTy).Contents (Elt F))
    (tb : (⟨S26x1000x128, .f32⟩ : BufTy).Contents (Elt F)) (hr : ∀ i, BitVec.toNat (xc i) ≤ 999) (b : Fin 4096) (e : Fin 128) :
    fieldTerm (F := F) f hf xc tb (ix2 b e)
      = tb (ix3 (⟨f, hf⟩ : Fin 26) (⟨BitVec.toNat (xc (ix2 b (⟨f, hf⟩ : Fin 26))) % 1000, Nat.mod_lt _ (by norm_num)⟩ : Fin 1000) e) := by
  have hidx : ∀ i, BitVec.toNat (shapeCast S4096 (extractStridedSlice S4096x1 ![0, f] xc (slicesCat f hf)) shapeCasts_S4096x1_S4096 i) ≤ 999 :=
    fun i => by rw [idx_apply f hf]; exact hr _
  unfold fieldTerm takeFn
  show Scalar.select (broadcastInDim S4096x128 ![0] bcast_S4096_S4096x128_0 (idxMask (F := F) _) (ix2 b e))
    (Host.gather gather_S1000x128_S4096x1_S4096x128_1_0_n_n_0_1_1128 _ (idxCol (F := F) _) (ix2 b e)) _ = _
  rw [broadcastInDim_apply ![0] bcast_S4096_S4096x128_0 _ (ix2 b e) (ix1 b) (fun a => match a with | ⟨0, _⟩ => rfl),
    idxMask_apply _ hidx, select_one, gather_row_apply, tab_apply]
  have hx := hr (ix2 b (⟨f, hf⟩ : Fin 26))
  refine congrArg tb (funext fun a => ?_)
  match a with
  | ⟨0, _⟩ => rfl
  | ⟨1, _⟩ =>
    refine Fin.ext ?_
    show min (BitVec.toInt (idxCol (F := F) _ (ix2 b (0 : Fin 1)))).toNat 999 = _
    rw [idxCol_apply _ hidx, idx_apply f hf]
    show min (BitVec.toInt (xc (ix2 b (⟨f, hf⟩ : Fin 26)))).toNat 999 = BitVec.toNat (xc (ix2 b (⟨f, hf⟩ : Fin 26))) % 1000
    rw [toInt_small _ hx, Int.toNat_natCast]
    omega
  | ⟨2, _⟩ => rfl

/-! ### The result read at an index -/

/-- The first sixteen pieces. -/
abbrev piecesA (xc : (⟨S4096x26, .i32⟩ : BufTy).Contents (Elt F)) (tb : (⟨S26x1000x128, .f32⟩ : BufTy).Contents (Elt F)) :
    List ((s : Shape) × (s.Idx → Elt F .f32)) :=
  [⟨S4096x128, fieldTerm (F := F) 0 (by norm_num) xc tb⟩, ⟨S4096x128, fieldTerm (F := F) 1 (by norm_num) xc tb⟩, ⟨S4096x128, fieldTerm (F := F) 2 (by norm_num) xc tb⟩, ⟨S4096x128, fieldTerm (F := F) 3 (by norm_num) xc tb⟩, ⟨S4096x128, fieldTerm (F := F) 4 (by norm_num) xc tb⟩, ⟨S4096x128, fieldTerm (F := F) 5 (by norm_num) xc tb⟩, ⟨S4096x128, fieldTerm (F := F) 6 (by norm_num) xc tb⟩, ⟨S4096x128, fieldTerm (F := F) 7 (by norm_num) xc tb⟩, ⟨S4096x128, fieldTerm (F := F) 8 (by norm_num) xc tb⟩, ⟨S4096x128, fieldTerm (F := F) 9 (by norm_num) xc tb⟩, ⟨S4096x128, fieldTerm (F := F) 10 (by norm_num) xc tb⟩, ⟨S4096x128, fieldTerm (F := F) 11 (by norm_num) xc tb⟩, ⟨S4096x128, fieldTerm (F := F) 12 (by norm_num) xc tb⟩, ⟨S4096x128, fieldTerm (F := F) 13 (by norm_num) xc tb⟩, ⟨S4096x128, fieldTerm (F := F) 14 (by norm_num) xc tb⟩, ⟨S4096x128, fieldTerm (F := F) 15 (by norm_num) xc tb⟩]

/-- The last ten pieces. -/
abbrev piecesB (xc : (⟨S4096x26, .i32⟩ : BufTy).Contents (Elt F)) (tb : (⟨S26x1000x128, .f32⟩ : BufTy).Contents (Elt F)) :
    List ((s : Shape) × (s.Idx → Elt F .f32)) :=
  [⟨S4096x128, fieldTerm (F := F) 16 (by norm_num) xc tb⟩, ⟨S4096x128, fieldTerm (F := F) 17 (by norm_num) xc tb⟩, ⟨S4096x128, fieldTerm (F := F) 18 (by norm_num) xc tb⟩, ⟨S4096x128, fieldTerm (F := F) 19 (by norm_num) xc tb⟩, ⟨S4096x128, fieldTerm (F := F) 20 (by norm_num) xc tb⟩, ⟨S4096x128, fieldTerm (F := F) 21 (by norm_num) xc tb⟩, ⟨S4096x128, fieldTerm (F := F) 22 (by norm_num) xc tb⟩, ⟨S4096x128, fieldTerm (F := F) 23 (by norm_num) xc tb⟩, ⟨S4096x128, fieldTerm (F := F) 24 (by norm_num) xc tb⟩, ⟨S4096x128, fieldTerm (F := F) 25 (by norm_num) xc tb⟩]

theorem piecesA_get (xc : (⟨S4096x26, .i32⟩ : BufTy).Contents (Elt F)) (tb : (⟨S26x1000x128, .f32⟩ : BufTy).Contents (Elt F))
    (k : Nat) (hk : k < 16) (hk' : k < (piecesA (F := F) xc tb).length) :
    (piecesA (F := F) xc tb)[k] = ⟨S4096x128, fieldTerm (F := F) k (by omega) xc tb⟩ := by
  interval_cases k <;> rfl

theorem piecesB_get (xc : (⟨S4096x26, .i32⟩ : BufTy).Contents (Elt F)) (tb : (⟨S26x1000x128, .f32⟩ : BufTy).Contents (Elt F))
    (k : Nat) (hk0 : 16 ≤ k) (hk : k < 26) (hk' : k - 16 < (piecesB (F := F) xc tb).length) :
    (piecesB (F := F) xc tb)[k - 16] = ⟨S4096x128, fieldTerm (F := F) k hk xc tb⟩ := by
  interval_cases k <;> rfl

theorem piecesA_pre (xc : (⟨S4096x26, .i32⟩ : BufTy).Contents (Elt F)) (tb : (⟨S26x1000x128, .f32⟩ : BufTy).Contents (Elt F))
    (k : Nat) (hk : k < 16) :
    ((((piecesA (F := F) xc tb).take k).map (·.1)).map fun s => if h : s.rank = S4096x2048.rank then s.size ((1 : Fin S4096x2048.rank).cast h.symm) else 0).sum
      = 128 * k := by
  have e : ((piecesA (F := F) xc tb).map (·.1)).map (fun s => if h : s.rank = S4096x2048.rank then s.size ((1 : Fin S4096x2048.rank).cast h.symm) else 0)
      = List.replicate 16 128 := rfl
  rw [List.map_take, List.map_take, e, List.take_replicate, List.sum_replicate, smul_eq_mul, Nat.min_eq_left (by omega)]
  omega

theorem piecesB_pre (xc : (⟨S4096x26, .i32⟩ : BufTy).Contents (Elt F)) (tb : (⟨S26x1000x128, .f32⟩ : BufTy).Contents (Elt F))
    (k : Nat) (hk : k < 10) :
    ((((piecesB (F := F) xc tb).take k).map (·.1)).map fun s => if h : s.rank = S4096x1280.rank then s.size ((1 : Fin S4096x1280.rank).cast h.symm) else 0).sum
      = 128 * k := by
  have e : ((piecesB (F := F) xc tb).map (·.1)).map (fun s => if h : s.rank = S4096x1280.rank then s.size ((1 : Fin S4096x1280.rank).cast h.symm) else 0)
      = List.replicate 10 128 := rfl
  rw [List.map_take, List.map_take, e, List.take_replicate, List.sum_replicate, smul_eq_mul, Nat.min_eq_left (by omega)]
  omega

theorem refTerm_pieces (xc : (⟨S4096x26, .i32⟩ : BufTy).Contents (Elt F)) (xn : (⟨S4096x13, .f32⟩ : BufTy).Contents (Elt F))
    (tb : (⟨S26x1000x128, .f32⟩ : BufTy).Contents (Elt F)) :
    refTerm (F := F) xc xn tb = concatenate S4096x3341 1
      [⟨S4096x3328, concatenate S4096x3328 1
        [⟨S4096x2048, concatenate S4096x2048 1 (piecesA (F := F) xc tb)
          concatenates_S4096x128_S4096x128_S4096x128_S4096x128_S4096x128_S4096x128_S4096x128_S4096x128_S4096x128_S4096x128_S4096x128_S4096x128_S4096x128_S4096x128_S4096x128_S4096x128_S4096x2048_d1⟩,
         ⟨S4096x1280, concatenate S4096x1280 1 (piecesB (F := F) xc tb)
          concatenates_S4096x128_S4096x128_S4096x128_S4096x128_S4096x128_S4096x128_S4096x128_S4096x128_S4096x128_S4096x128_S4096x1280_d1⟩]
        concatenates_S4096x2048_S4096x1280_S4096x3328_d1⟩,
       ⟨S4096x13, xn⟩]
      concatenates_S4096x3328_S4096x13_S4096x3341_d1 := rfl

/-- THE RESULT IS THE SPECIFICATION'S, every categorical index in range. -/
theorem refTerm_eq (xc : (⟨S4096x26, .i32⟩ : BufTy).Contents (Elt F)) (xn : (⟨S4096x13, .f32⟩ : BufTy).Contents (Elt F))
    (tb : (⟨S26x1000x128, .f32⟩ : BufTy).Contents (Elt F)) (hr : Cert.Spec.InRange xc) :
    refTerm (F := F) xc xn tb = Cert.Spec.out xc xn tb := by
  funext j
  have hj0 : (j 0).val < 4096 := idx2_lt0 j
  have hj1 : (j 1).val < 3341 := idx2_lt1 j
  rw [refTerm_pieces]
  unfold Cert.Spec.out
  by_cases h : (j 1).val < 3328
  · rw [dif_pos h]
    rw [concatenate_pair_apply_left (t := S4096x3341) (s₁ := S4096x3328) (s₂ := S4096x13) (1 : Fin 2) _ xn concatenates_S4096x3328_S4096x13_S4096x3341_d1 j rfl
      (ix2 (⟨(j 0).val, hj0⟩ : Fin 4096) (⟨(j 1).val, h⟩ : Fin 3328)) (fun b => match b with | ⟨0, _⟩ => rfl | ⟨1, _⟩ => rfl)]
    by_cases h2 : (j 1).val < 2048
    · rw [concatenate_pair_apply_left (t := S4096x3328) (s₁ := S4096x2048) (s₂ := S4096x1280) (1 : Fin 2) _ _ concatenates_S4096x2048_S4096x1280_S4096x3328_d1 _ rfl
        (ix2 (⟨(j 0).val, hj0⟩ : Fin 4096) (⟨(j 1).val, h2⟩ : Fin 2048)) (fun b => match b with | ⟨0, _⟩ => rfl | ⟨1, _⟩ => rfl)]
      have hk : (j 1).val / 128 < 16 := by omega
      rw [concatenate_apply_piece (t := S4096x2048) (1 : Fin 2) (piecesA (F := F) xc tb) _ _ ((j 1).val / 128) hk S4096x128
        (fieldTerm (F := F) ((j 1).val / 128) (by omega) xc tb) (piecesA_get xc tb _ hk hk) rfl (128 * ((j 1).val / 128))
        (piecesA_pre xc tb _ hk) (ix2 (⟨(j 0).val, hj0⟩ : Fin 4096) (⟨(j 1).val % 128, Nat.mod_lt _ (by norm_num)⟩ : Fin 128))
        (fun b hb => match b, hb with | ⟨0, _⟩, _ => rfl | ⟨1, _⟩, hb => absurd rfl hb)
        (by show 128 * ((j 1).val / 128) + (j 1).val % 128 = (j 1).val; omega)]
      rw [fieldTerm_read _ _ xc tb hr]
      rfl
    · rw [concatenate_pair_apply_right (t := S4096x3328) (s₁ := S4096x2048) (s₂ := S4096x1280) (1 : Fin 2) _ _ concatenates_S4096x2048_S4096x1280_S4096x3328_d1 _ rfl rfl
        (ix2 (⟨(j 0).val, hj0⟩ : Fin 4096) (⟨(j 1).val - 2048, by omega⟩ : Fin 1280))
        (fun b hb => match b, hb with | ⟨0, _⟩, _ => rfl | ⟨1, _⟩, hb => absurd rfl hb)
        (by show (j 1).val - 2048 + 2048 = (j 1).val; omega)]
      have hk0 : 16 ≤ (j 1).val / 128 := by omega
      have hk : (j 1).val / 128 < 26 := by omega
      have hk' : (j 1).val / 128 - 16 < 10 := by omega
      rw [concatenate_apply_piece (t := S4096x1280) (1 : Fin 2) (piecesB (F := F) xc tb) _ _ ((j 1).val / 128 - 16) hk' S4096x128
        (fieldTerm (F := F) ((j 1).val / 128) hk xc tb) (piecesB_get xc tb _ hk0 hk hk') rfl (128 * ((j 1).val / 128 - 16))
        (piecesB_pre xc tb _ hk') (ix2 (⟨(j 0).val, hj0⟩ : Fin 4096) (⟨(j 1).val % 128, Nat.mod_lt _ (by norm_num)⟩ : Fin 128))
        (fun b hb => match b, hb with | ⟨0, _⟩, _ => rfl | ⟨1, _⟩, hb => absurd rfl hb)
        (by show 128 * ((j 1).val / 128 - 16) + (j 1).val % 128 = (j 1).val - 2048; omega)]
      rw [fieldTerm_read _ _ xc tb hr]
      rfl
  · rw [dif_neg h]
    rw [concatenate_pair_apply_right (t := S4096x3341) (s₁ := S4096x3328) (s₂ := S4096x13) (1 : Fin 2) _ xn concatenates_S4096x3328_S4096x13_S4096x3341_d1 j rfl rfl
      (ix2 (⟨(j 0).val, hj0⟩ : Fin 4096) (⟨(j 1).val - 3328, by omega⟩ : Fin 13))
      (fun b hb => match b, hb with | ⟨0, _⟩, _ => rfl | ⟨1, _⟩, hb => absurd rfl hb)
      (by show (j 1).val - 3328 + 3328 = (j 1).val; omega)]

end Cert.RefSide
end
-- ==== Proof.RefRun.lean ====
/-
  The reference side, complete: from any memory whose categorical indices lie in `[0, 999]` on every device, every
  weakly fair execution of the reference program terminates, nothing faulting, with the result buffer at the
  specification's function of the three argument arrays and the arguments unchanged. The run with no hypothesis
  (`run0`: the result at `refTerm`) and the equation `refTerm_eq` under the range hypothesis give it.
-/
import proofs.«201888_g37099927503118_cont_8to1_b_213_13_alg».proof.Proof.RefRun0
import proofs.«201888_g37099927503118_cont_8to1_b_213_13_alg».proof.Proof.RefSpec

noncomputable section

namespace Cert.RefSide

open Cert.ReferenceIdeal Idealize.ShloMosaic Idealize.ShloMosaic.TcCoe Idealize.SL.Sem Idealize.ShloMosaic.StableHlo

theorem run (m : (ℓ : Loc Cert.ReferenceIdeal.nD Cert.ReferenceIdeal.τ Cert.ReferenceIdeal.sig) → Buf (Elt Ideal) ℓ) (g : Dev Cert.ReferenceIdeal.nD → PrngReg)
    (hr : ∀ c : Dev Cert.ReferenceIdeal.nD, Cert.Spec.InRange (m ((c.tc : Thread Cert.ReferenceIdeal.nD Cert.ReferenceIdeal.τ).loc Cert.ReferenceIdeal.main_arg0))) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v133)
          = Cert.Spec.out (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run _ _ _).mono (fun _ h c => ⟨(h c).1.trans (refTerm_eq _ _ _ (hr c)), (h c).2⟩) (run0 m g)

end Cert.RefSide

end
-- ==== Proof.lean ====
/-
  The kernel, its idealization and the reference compute one function of the three arguments, and every run of each
  ends with the arguments unchanged.

  THE FUNCTION. For a batch of 4096 rows, 26 categorical indices x_cat[b, f] and 13 numeric features x_num[b, ·] per
  row, and 26 embedding tables of 1000 rows of 128 lanes, row b of the [4096, 3341] result is the 26 embedding rows
  tables[f, x_cat[b, f], ·], f = 0 … 25, side by side (columns 128 f … 128 f + 127), followed by the 13 numeric
  features of the row (columns 3328 … 3340).

  THE KERNEL. The host transposes the indices to [26, 4096] and flattens the tables to [26000, 128]: row 1000 f + v of
  the flat table is row v of table f. The two SparseCores' sixteen tiles each then take one block of 128 batch rows
  (tile i of SparseCore c takes rows 128 (2 i + c) onwards). A tile reads its [26, 128] block of transposed indices,
  adds the word 1000 f to row f of the block, and uses each row of the block as an index list: entry b of list f names
  row 1000 f + x_cat[b, f] of the flat table; the tile gathers the 128 rows a list names into a staging buffer and copies
  the buffer to columns 128 f … 128 f + 127 of its block of the result. It copies its 128 rows of numeric features to
  columns 3328 … 3340 of the same rows.
  The 32 blocks are pairwise disjoint and cover the result; the three arrays every tile reads are shared out as read
  shares and come back whole, so the arguments end as they began.

  THE REFERENCE computes the same rows by 26 lookups into the tables and one concatenation along the column axis.

  WHY THEY AGREE. Under the precondition every index lies in [0, 999] as a signed word, so it is its own unsigned
  value x ≤ 999; then x + 1000 f does not wrap, is below 26000, and splits back by 1000 into quotient f and remainder
  x: the flat row the tile gathers is row x of table f. The reference's lookup, whatever it does with an index outside
  [0, 999], reads row x of table f for such an x. Both results are therefore the function above, element by element,
  for any float values (the data is only moved).
-/
import proofs.«201888_g37099927503118_cont_8to1_b_213_13_alg».proof.Defs
import proofs.«201888_g37099927503118_cont_8to1_b_213_13_alg».proof.Proof.Gen.Kernel
import proofs.«201888_g37099927503118_cont_8to1_b_213_13_alg».proof.Proof.Gen.KernelIdeal
import proofs.«201888_g37099927503118_cont_8to1_b_213_13_alg».proof.Proof.Gen.ReferenceIdeal
import proofs.«201888_g37099927503118_cont_8to1_b_213_13_alg».proof.Proof.Gen.Pre_input_domain
import Idealize.ShloMosaic.Adequacy
import Idealize.ShloMosaic.Init
import proofs.«201888_g37099927503118_cont_8to1_b_213_13_alg».proof.Proof.LaunchI
import proofs.«201888_g37099927503118_cont_8to1_b_213_13_alg».proof.Proof.LaunchB
import proofs.«201888_g37099927503118_cont_8to1_b_213_13_alg».proof.Proof.ObligI
import proofs.«201888_g37099927503118_cont_8to1_b_213_13_alg».proof.Proof.ObligB
import proofs.«201888_g37099927503118_cont_8to1_b_213_13_alg».proof.Proof.RefRun

noncomputable section

namespace Cert.Proof

open Idealize.ShloMosaic Idealize.SL.Sem

/-- The five claims from one tile's obligation at each instance. -/
theorem claim_of
    (hI : ∀ m : (ℓ : Loc Cert.KernelIdeal.nD Cert.KernelIdeal.τ Cert.KernelIdeal.sig) → Buf (Elt Ideal) ℓ, KernelIdealSide.PreOK m →
      (KernelIdealSide.K (F := Ideal)).TileObl (KernelIdealSide.D (F := Ideal)) KernelIdealSide.𝒱 (KernelIdealSide.P m) KernelIdealSide.v₀ 0)
    (hB : ∀ m : (ℓ : Loc Cert.Kernel.nD Cert.Kernel.τ Cert.Kernel.sig) → Buf (Elt Bits) ℓ, KernelSide.PreOK m →
      (KernelSide.K (F := Bits)).TileObl (KernelSide.D (F := Bits)) KernelSide.𝒱 (KernelSide.P m) KernelSide.v₀ 0) :
    Cert.Claim :=
  ⟨Cert.Kernel.Gen.facts, Cert.KernelIdeal.Gen.facts, Cert.ReferenceIdeal.Gen.facts, Cert.Pre_input_domain.Gen.facts,
    -- the kernel at the bit-exact instance: the run with the result's value dropped
    fun m g hpre => KernelSide.frameB (F := Bits) m g hB hpre,
    -- its idealization: the same
    fun m g hpre => KernelIdealSide.frameI (F := Ideal) m g hI hpre,
    -- the reference's run needs nothing of the contents
    fun m g _ => (θ_run _ _ _).mono (fun _ h c => (h c).2) (Cert.RefSide.run0 m g),
    trivial,
    -- both results are the one function of the arguments
    fun m g m' g' hpre hagree => by
      have hOK : KernelIdealSide.PreOK m := KernelIdealSide.preOK_of_pre m hpre
      have hr' : ∀ c : Dev Cert.ReferenceIdeal.nD, Cert.Spec.InRange
          (m' ((c.tc : Thread Cert.ReferenceIdeal.nD Cert.ReferenceIdeal.τ).loc Cert.ReferenceIdeal.main_arg0)) := fun c => by
        rw [(hagree c).1]; exact hOK c
      refine ⟨fun c => KernelIdealSide.outG m c, ?_, ?_⟩
      · exact (θ_run _ _ _).mono (fun _ h c => h c) (KernelIdealSide.run_main (F := Ideal) m g hOK (hI m hOK))
      · refine (θ_run _ _ _).mono (fun _ h c => ⟨(h c).1.trans ?_, (h c).2⟩) (Cert.RefSide.run m' g' hr')
        rw [(hagree c).1, (hagree c).2.1, (hagree c).2.2]
        rfl⟩

/-- The claim: the tile's obligation at each instance is the body's run in the launch's spelling. -/
theorem claim : Cert.Claim :=
  claim_of (fun m h => KernelIdealSide.tileObl m KernelIdealSide.facts h) (fun m h => KernelSide.tileObl m KernelSide.facts h)

end Cert.Proof

end
